-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  IdealRules.truncf_extf.Statement Cert.KernelIdeal.S1024x256 .f32 .bf16
  ∧ IdealRules.truncf_extf.Statement Cert.KernelIdeal.S256x2048 .f32 .bf16
  ∧ IdealRules.truncf_extf.Statement Cert.KernelIdeal.S1024x256 .f32 .bf16
  ∧ IdealRules.truncf_extf.Statement Cert.KernelIdeal.S256x2048 .f32 .bf16
  ∧ IdealRules.truncf_extf.Statement Cert.KernelIdeal.S1024x256 .f32 .bf16
  ∧ IdealRules.truncf_extf.Statement Cert.KernelIdeal.S256x2048 .f32 .bf16
  ∧ IdealRules.truncf_extf.Statement Cert.KernelIdeal.S1024x256 .f32 .bf16
  ∧ IdealRules.truncf_extf.Statement Cert.KernelIdeal.S256x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_v143) = v1 c
          ∧ r.2.mem ((c.tc : Thread Cert.ReferenceIdeal.nD Cert.ReferenceIdeal.τ).loc Cert.ReferenceIdeal.main_v147) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn_part7 {F : FTy → Type} [FloatOps F] (main_v118 : IVec S_ 1) (main_v119 : FVec F S2048 .f32) : IVec S_ 1 :=
  let main_cst_46 : FVec F S_ .f32 := constant S_ .f32 0x7F800000#32
  let main_v120 : FVec F S2048 .f32 := broadcastInDim S2048 ![] bcast_S_S2048 main_cst_46
  let main_v121 : IVec S2048 1 := cmpf .olt main_v119 main_v120
  let main_c_47 : IVec S_ 1 := constantI S_ 1 1#1
  let main_v122 : IVec S_ 1 := (fun x v => Host.reduce IntOp.andi x v reducesTo_S2048_S_d0 h_S_) main_v121 main_c_47
  let main_v123 : IVec S_ 1 := andi main_v118 main_v122
  main_v123

def fn_part6 {F : FTy → Type} [FloatOps F] (main_arg21 : FVec F S2048 .f32) (main_arg22 : FVec F S2048 .f32) (main_arg23 : FVec F S2048 .f32) (main_arg24 : FVec F S2048 .f32) (main_v98 : IVec S_ 1) (main_v101 : IVec S2048 1) (main_c_39 : IVec S_ 1) : IVec S_ 1 :=
  let main_v102 : IVec S_ 1 := (fun x v => Host.reduce IntOp.andi x v reducesTo_S2048_S_d0 h_S_) main_v101 main_c_39
  let main_v103 : IVec S_ 1 := andi main_v98 main_v102
  let main_v104 : FVec F S2048 .f32 := Host.absf main_arg21
  let main_cst_40 : FVec F S_ .f32 := constant S_ .f32 0x7F800000#32
  let main_v105 : FVec F S2048 .f32 := broadcastInDim S2048 ![] bcast_S_S2048 main_cst_40
  let main_v106 : IVec S2048 1 := cmpf .olt main_v104 main_v105
  let main_c_41 : IVec S_ 1 := constantI S_ 1 1#1
  let main_v107 : IVec S_ 1 := (fun x v => Host.reduce IntOp.andi x v reducesTo_S2048_S_d0 h_S_) main_v106 main_c_41
  let main_v108 : IVec S_ 1 := andi main_v103 main_v107
  let main_v109 : FVec F S2048 .f32 := Host.absf main_arg22
  let main_cst_42 : FVec F S_ .f32 := constant S_ .f32 0x7F800000#32
  let main_v110 : FVec F S2048 .f32 := broadcastInDim S2048 ![] bcast_S_S2048 main_cst_42
  let main_v111 : IVec S2048 1 := cmpf .olt main_v109 main_v110
  let main_c_43 : IVec S_ 1 := constantI S_ 1 1#1
  let main_v112 : IVec S_ 1 := (fun x v => Host.reduce IntOp.andi x v reducesTo_S2048_S_d0 h_S_) main_v111 main_c_43
  let main_v113 : IVec S_ 1 := andi main_v108 main_v112
  let main_v114 : FVec F S2048 .f32 := Host.absf main_arg23
  let main_cst_44 : FVec F S_ .f32 := constant S_ .f32 0x7F800000#32
  let main_v115 : FVec F S2048 .f32 := broadcastInDim S2048 ![] bcast_S_S2048 main_cst_44
  let main_v116 : IVec S2048 1 := cmpf .olt main_v114 main_v115
  let main_c_45 : IVec S_ 1 := constantI S_ 1 1#1
  let main_v117 : IVec S_ 1 := (fun x v => Host.reduce IntOp.andi x v reducesTo_S2048_S_d0 h_S_) main_v116 main_c_45
  let main_v118 : IVec S_ 1 := andi main_v113 main_v117
  let main_v119 : FVec F S2048 .f32 := Host.absf main_arg24
  fn_part7 (F := F) main_v118 main_v119

def fn_part5 {F : FTy → Type} [FloatOps F] (main_arg18 : FVec F S2048 .f32) (main_arg19 : FVec F S2048 .f32) (main_arg20 : FVec F S2048 .f32) (main_arg21 : FVec F S2048 .f32) (main_arg22 : FVec F S2048 .f32) (main_arg23 : FVec F S2048 .f32) (main_arg24 : FVec F S2048 .f32) (main_v83 : IVec S_ 1) (main_v84 : FVec F S2048 .f32) (main_cst_32 : FVec F S_ .f32) : IVec S_ 1 :=
  let main_v85 : FVec F S2048 .f32 := broadcastInDim S2048 ![] bcast_S_S2048 main_cst_32
  let main_v86 : IVec S2048 1 := cmpf .olt main_v84 main_v85
  let main_c_33 : IVec S_ 1 := constantI S_ 1 1#1
  let main_v87 : IVec S_ 1 := (fun x v => Host.reduce IntOp.andi x v reducesTo_S2048_S_d0 h_S_) main_v86 main_c_33
  let main_v88 : IVec S_ 1 := andi main_v83 main_v87
  let main_v89 : FVec F S2048 .f32 := Host.absf main_arg18
  let main_cst_34 : FVec F S_ .f32 := constant S_ .f32 0x7F800000#32
  let main_v90 : FVec F S2048 .f32 := broadcastInDim S2048 ![] bcast_S_S2048 main_cst_34
  let main_v91 : IVec S2048 1 := cmpf .olt main_v89 main_v90
  let main_c_35 : IVec S_ 1 := constantI S_ 1 1#1
  let main_v92 : IVec S_ 1 := (fun x v => Host.reduce IntOp.andi x v reducesTo_S2048_S_d0 h_S_) main_v91 main_c_35
  let main_v93 : IVec S_ 1 := andi main_v88 main_v92
  let main_v94 : FVec F S2048 .f32 := Host.absf main_arg19
  let main_cst_36 : FVec F S_ .f32 := constant S_ .f32 0x7F800000#32
  let main_v95 : FVec F S2048 .f32 := broadcastInDim S2048 ![] bcast_S_S2048 main_cst_36
  let main_v96 : IVec S2048 1 := cmpf .olt main_v94 main_v95
  let main_c_37 : IVec S_ 1 := constantI S_ 1 1#1
  let main_v97 : IVec S_ 1 := (fun x v => Host.reduce IntOp.andi x v reducesTo_S2048_S_d0 h_S_) main_v96 main_c_37
  let main_v98 : IVec S_ 1 := andi main_v93 main_v97
  let main_v99 : FVec F S2048 .f32 := Host.absf main_arg20
  let main_cst_38 : FVec F S_ .f32 := constant S_ .f32 0x7F800000#32
  let main_v100 : FVec F S2048 .f32 := broadcastInDim S2048 ![] bcast_S_S2048 main_cst_38
  let main_v101 : IVec S2048 1 := cmpf .olt main_v99 main_v100
  let main_c_39 : IVec S_ 1 := constantI S_ 1 1#1
  fn_part6 (F := F) main_arg21 main_arg22 main_arg23 main_arg24 main_v98 main_v101 main_c_39

def fn_part4 {F : FTy → Type} [FloatOps F] (main_arg14 : FVec F S2048 .f32) (main_arg15 : FVec F S2048x2048 .f32) (main_arg16 : FVec F S2048 .f32) (main_arg17 : FVec F S2048 .f32) (main_arg18 : FVec F S2048 .f32) (main_arg19 : FVec F S2048 .f32) (main_arg20 : FVec F S2048 .f32) (main_arg21 : FVec F S2048 .f32) (main_arg22 : FVec F S2048 .f32) (main_arg23 : FVec F S2048 .f32) (main_arg24 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  let main_v74 : FVec F S2048x2048 .f32 := Host.absf main_arg15
  let main_cst_28 : FVec F S_ .f32 := constant S_ .f32 0x7F800000#32
  let main_v75 : FVec F S2048x2048 .f32 := broadcastInDim S2048x2048 ![] bcast_S_S2048x2048 main_cst_28
  let main_v76 : IVec S2048x2048 1 := cmpf .olt main_v74 main_v75
  let main_c_29 : IVec S_ 1 := constantI S_ 1 1#1
  let main_v77 : IVec S_ 1 := (fun x v => Host.reduce IntOp.andi x v reducesTo_S2048x2048_S_d0_1 h_S_) main_v76 main_c_29
  let main_v78 : IVec S_ 1 := andi main_v73 main_v77
  let main_v79 : FVec F S2048 .f32 := Host.absf main_arg16
  let main_cst_30 : FVec F S_ .f32 := constant S_ .f32 0x7F800000#32
  let main_v80 : FVec F S2048 .f32 := broadcastInDim S2048 ![] bcast_S_S2048 main_cst_30
  let main_v81 : IVec S2048 1 := cmpf .olt main_v79 main_v80
  let main_c_31 : IVec S_ 1 := constantI S_ 1 1#1
  let main_v82 : IVec S_ 1 := (fun x v => Host.reduce IntOp.andi x v reducesTo_S2048_S_d0 h_S_) main_v81 main_c_31
  let main_v83 : IVec S_ 1 := andi main_v78 main_v82
  let main_v84 : FVec F S2048 .f32 := Host.absf main_arg17
  let main_cst_32 : FVec F S_ .f32 := constant S_ .f32 0x7F800000#32
  fn_part5 (F := F) main_arg18 main_arg19 main_arg20 main_arg21 main_arg22 main_arg23 main_arg24 main_v83 main_v84 main_cst_32

def fn_part3 {F : FTy → Type} [FloatOps F] (main_arg11 : FVec F S2048 .f32) (main_arg12 : FVec F S2048 .f32) (main_arg13 : FVec F S2048 .f32) (main_arg14 : FVec F S2048 .f32) (main_arg15 : FVec F S2048x2048 .f32) (main_arg16 : FVec F S2048 .f32) (main_arg17 : FVec F S2048 .f32) (main_arg18 : FVec F S2048 .f32) (main_arg19 : FVec F S2048 .f32) (main_arg20 : FVec F S2048 .f32) (main_arg21 : FVec F S2048 .f32) (main_arg22 : FVec F S2048 .f32) (main_arg23 : FVec F S2048 .f32) (main_arg24 : FVec F S2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_arg14 main_arg15 main_arg16 main_arg17 main_arg18 main_arg19 main_arg20 main_arg21 main_arg22 main_arg23 main_arg24 main_v63 main_v67

def fn_part2 {F : FTy → Type} [FloatOps F] (main_arg7 : FVec F S2048x2048 .f32) (main_arg8 : FVec F S2048x2048 .f32) (main_arg9 : FVec F S2048x2048 .f32) (main_arg10 : FVec F S2048x2048 .f32) (main_arg11 : FVec F S2048 .f32) (main_arg12 : FVec F S2048 .f32) (main_arg13 : FVec F S2048 .f32) (main_arg14 : FVec F S2048 .f32) (main_arg15 : FVec F S2048x2048 .f32) (main_arg16 : FVec F S2048 .f32) (main_arg17 : FVec F S2048 .f32) (main_arg18 : FVec F S2048 .f32) (main_arg19 : FVec F S2048 .f32) (main_arg20 : FVec F S2048 .f32) (main_arg21 : FVec F S2048 .f32) (main_arg22 : FVec F S2048 .f32) (main_arg23 : FVec F S2048 .f32) (main_arg24 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_arg13 main_arg14 main_arg15 main_arg16 main_arg17 main_arg18 main_arg19 main_arg20 main_arg21 main_arg22 main_arg23 main_arg24 main_v48 main_v49 main_v50

def fn_part1 {F : FTy → Type} [FloatOps F] (main_arg4 : FVec F S2048x2048 .f32) (main_arg5 : FVec F S2048x2048 .f32) (main_arg6 : FVec F S2048x2048 .f32) (main_arg7 : FVec F S2048x2048 .f32) (main_arg8 : FVec F S2048x2048 .f32) (main_arg9 : FVec F S2048x2048 .f32) (main_arg10 : FVec F S2048x2048 .f32) (main_arg11 : FVec F S2048 .f32) (main_arg12 : FVec F S2048 .f32) (main_arg13 : FVec F S2048 .f32) (main_arg14 : FVec F S2048 .f32) (main_arg15 : FVec F S2048x2048 .f32) (main_arg16 : FVec F S2048 .f32) (main_arg17 : FVec F S2048 .f32) (main_arg18 : FVec F S2048 .f32) (main_arg19 : FVec F S2048 .f32) (main_arg20 : FVec F S2048 .f32) (main_arg21 : FVec F S2048 .f32) (main_arg22 : FVec F S2048 .f32) (main_arg23 : FVec F S2048 .f32) (main_arg24 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S2048x2048 .f32) (main_arg1 : FVec F S2048x2048 .f32) (main_arg2 : FVec F S2048x2048 .f32) (main_arg3 : FVec F S2048x2048 .f32) (main_arg4 : FVec F S2048x2048 .f32) (main_arg5 : FVec F S2048x2048 .f32) (main_arg6 : FVec F S2048x2048 .f32) (main_arg7 : FVec F S2048x2048 .f32) (main_arg8 : FVec F S2048x2048 .f32) (main_arg9 : FVec F S2048x2048 .f32) (main_arg10 : FVec F S2048x2048 .f32) (main_arg11 : FVec F S2048 .f32) (main_arg12 : FVec F S2048 .f32) (main_arg13 : FVec F S2048 .f32) (main_arg14 : FVec F S2048 .f32) (main_arg15 : FVec F S2048x2048 .f32) (main_arg16 : FVec F S2048 .f32) (main_arg17 : FVec F S2048 .f32) (main_arg18 : FVec F S2048 .f32) (main_arg19 : FVec F S2048 .f32) (main_arg20 : FVec F S2048 .f32) (main_arg21 : FVec F S2048 .f32) (main_arg22 : FVec F S2048 .f32) (main_arg23 : FVec F S2048 .f32) (main_arg24 : FVec F S2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S2048x2048 : Shape := ⟨2, ![2048, 2048]⟩
abbrev S2048 : Shape := ⟨1, ![2048]⟩
abbrev S1x2048 : Shape := ⟨2, ![1, 2048]⟩
abbrev S1024x256 : Shape := ⟨2, ![1024, 256]⟩
abbrev S256x2048 : Shape := ⟨2, ![256, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 45
  | .vmem => 82
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S2048x2048, .f32⟩
  | .hbm, ⟨16, _⟩ => ⟨S2048, .f32⟩
  | .hbm, ⟨17, _⟩ => ⟨S2048, .f32⟩
  | .hbm, ⟨18, _⟩ => ⟨S2048, .f32⟩
  | .hbm, ⟨19, _⟩ => ⟨S2048, .f32⟩
  | .hbm, ⟨20, _⟩ => ⟨S2048, .f32⟩
  | .hbm, ⟨21, _⟩ => ⟨S2048, .f32⟩
  | .hbm, ⟨22, _⟩ => ⟨S2048, .f32⟩
  | .hbm, ⟨23, _⟩ => ⟨S2048, .f32⟩
  | .hbm, ⟨24, _⟩ => ⟨S2048, .f32⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S2048x2048, .f32⟩
  | .hbm, ⟨29, _⟩ => ⟨S1x2048, .f32⟩
  | .hbm, ⟨30, _⟩ => ⟨S1x2048, .f32⟩
  | .hbm, ⟨31, _⟩ => ⟨S1x2048, .f32⟩
  | .hbm, ⟨32, _⟩ => ⟨S2048x2048, .f32⟩
  | .hbm, ⟨33, _⟩ => ⟨S1x2048, .f32⟩
  | .hbm, ⟨34, _⟩ => ⟨S1x2048, .f32⟩
  | .hbm, ⟨35, _⟩ => ⟨S1x2048, .f32⟩
  | .hbm, ⟨36, _⟩ => ⟨S2048x2048, .f32⟩
  | .hbm, ⟨37, _⟩ => ⟨S1x2048, .f32⟩
  | .hbm, ⟨38, _⟩ => ⟨S1x2048, .f32⟩
  | .hbm, ⟨39, _⟩ => ⟨S1x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S1x2048, .f32⟩
  | .hbm, ⟨44, _⟩ => ⟨S2048x2048, .f32⟩
  | .local _ .vmem, ⟨0, _⟩ => ⟨S1024x256, .f32⟩
  | .local _ .vmem, ⟨1, _⟩ => ⟨S1024x256, .f32⟩
  | .local _ .vmem, ⟨2, _⟩ => ⟨S256x2048, .f32⟩
  | .local _ .vmem, ⟨3, _⟩ => ⟨S256x2048, .f32⟩
  | .local _ .vmem, ⟨4, _⟩ => ⟨S1024x256, .f32⟩
  | .local _ .vmem, ⟨5, _⟩ => ⟨S1024x256, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1024x2048, .f32⟩
  | .local _ .vmem, ⟨12, _⟩ => ⟨S1024x2048, .f32⟩
  | .local _ .vmem, ⟨13, _⟩ => ⟨S1024x2048, .f32⟩
  | .local _ .vmem, ⟨14, _⟩ => ⟨S1024x256, .f32⟩
  | .local _ .vmem, ⟨15, _⟩ => ⟨S1024x256, .f32⟩
  | .local _ .vmem, ⟨16, _⟩ => ⟨S256x2048, .f32⟩
  | .local _ .vmem, ⟨17, _⟩ => ⟨S256x2048, .f32⟩
  | .local _ .vmem, ⟨18, _⟩ => ⟨S1024x256, .f32⟩
  | .local _ .vmem, ⟨19, _⟩ => ⟨S1024x256, .f32⟩
  | .local _ .vmem, ⟨20, _⟩ => ⟨S256x2048, .f32⟩
  | .local _ .vmem, ⟨21, _⟩ => ⟨S256x2048, .f32⟩
  | .local _ .vmem, ⟨22, _⟩ => ⟨S1x2048, .f32⟩
  | .local _ .vmem, ⟨23, _⟩ => ⟨S1x2048, .f32⟩
  | .local _ .vmem, ⟨24, _⟩ => ⟨S1x2048, .f32⟩
  | .local _ .vmem, ⟨25, _⟩ => ⟨S1024x2048, .f32⟩
  | .local _ .vmem, ⟨26, _⟩ => ⟨S1024x2048, .f32⟩
  | .local _ .vmem, ⟨27, _⟩ => ⟨S1024x2048, .f32⟩
  | .local _ .vmem, ⟨28, _⟩ => ⟨S1024x256, .f32⟩
  | .local _ .vmem, ⟨29, _⟩ => ⟨S1024x256, .f32⟩
  | .local _ .vmem, ⟨30, _⟩ => ⟨S256x2048, .f32⟩
  | .local _ .vmem, ⟨31, _⟩ => ⟨S256x2048, .f32⟩
  | .local _ .vmem, ⟨32, _⟩ => ⟨S1024x256, .f32⟩
  | .local _ .vmem, ⟨33, _⟩ => ⟨S1024x256, .f32⟩
  | .local _ .vmem, ⟨34, _⟩ => ⟨S256x2048, .f32⟩
  | .local _ .vmem, ⟨35, _⟩ => ⟨S256x2048, .f32⟩
  | .local _ .vmem, ⟨36, _⟩ => ⟨S1x2048, .f32⟩
  | .local _ .vmem, ⟨37, _⟩ => ⟨S1x2048, .f32⟩
  | .local _ .vmem, ⟨38, _⟩ => ⟨S1x2048, .f32⟩
  | .local _ .vmem, ⟨39, _⟩ => ⟨S1024x2048, .f32⟩
  | .local _ .vmem, ⟨40, _⟩ => ⟨S1024x2048, .f32⟩
  | .local _ .vmem, ⟨41, _⟩ => ⟨S1024x2048, .f32⟩
  | .local _ .vmem, ⟨42, _⟩ => ⟨S1024x256, .f32⟩
  | .local _ .vmem, ⟨43, _⟩ => ⟨S1024x256, .f32⟩
  | .local _ .vmem, ⟨44, _⟩ => ⟨S256x2048, .f32⟩
  | .local _ .vmem, ⟨45, _⟩ => ⟨S256x2048, .f32⟩
  | .local _ .vmem, ⟨46, _⟩ => ⟨S1024x256, .f32⟩
  | .local _ .vmem, ⟨47, _⟩ => ⟨S1024x256, .f32⟩
  | .local _ .vmem, ⟨48, _⟩ => ⟨S256x2048, .f32⟩
  | .local _ .vmem, ⟨49, _⟩ => ⟨S256x2048, .f32⟩
  | .local _ .vmem, ⟨50, _⟩ => ⟨S1x2048, .f32⟩
  | .local _ .vmem, ⟨51, _⟩ => ⟨S1x2048, .f32⟩
  | .local _ .vmem, ⟨52, _⟩ => ⟨S1x2048, .f32⟩
  | .local _ .vmem, ⟨53, _⟩ => ⟨S1024x2048, .f32⟩
  | .local _ .vmem, ⟨54, _⟩ => ⟨S1024x2048, .f32⟩
  | .local _ .vmem, ⟨55, _⟩ => ⟨S1024x2048, .f32⟩
  | .local _ .vmem, ⟨56, _⟩ => ⟨S1024x256, .f32⟩
  | .local _ .vmem, ⟨57, _⟩ => ⟨S1024x256, .f32⟩
  | .local _ .vmem, ⟨58, _⟩ => ⟨S256x2048, .f32⟩
  | .local _ .vmem, ⟨59, _⟩ => ⟨S256x2048, .f32⟩
  | .local _ .vmem, ⟨60, _⟩ => ⟨S1024x256, .f32⟩
  | .local _ .vmem, ⟨61, _⟩ => ⟨S1024x256, .f32⟩
  | .local _ .vmem, ⟨62, _⟩ => ⟨S256x2048, .f32⟩
  | .local _ .vmem, ⟨63, _⟩ => ⟨S256x2048, .f32⟩
  | .local _ .vmem, ⟨64, _⟩ => ⟨S1024x2048, .f32⟩
  | .local _ .vmem, ⟨65, _⟩ => ⟨S1024x2048, .f32⟩
  | .local _ .vmem, ⟨66, _⟩ => ⟨S1024x2048, .f32⟩
  | .local _ .vmem, ⟨67, _⟩ => ⟨S1024x256, .f32⟩
  | .local _ .vmem, ⟨68, _⟩ => ⟨S1024x256, .f32⟩
  | .local _ .vmem, ⟨69, _⟩ => ⟨S256x2048, .f32⟩
  | .local _ .vmem, ⟨70, _⟩ => ⟨S256x2048, .f32⟩
  | .local _ .vmem, ⟨71, _⟩ => ⟨S1024x2048, .f32⟩
  | .local _ .vmem, ⟨72, _⟩ => ⟨S1024x2048, .f32⟩
  | .local _ .vmem, ⟨73, _⟩ => ⟨S1024x2048, .f32⟩
  | .local _ .vmem, ⟨74, _⟩ => ⟨S1024x256, .f32⟩
  | .local _ .vmem, ⟨75, _⟩ => ⟨S1024x256, .f32⟩
  | .local _ .vmem, ⟨76, _⟩ => ⟨S256x2048, .f32⟩
  | .local _ .vmem, ⟨77, _⟩ => ⟨S256x2048, .f32⟩
  | .local _ .vmem, ⟨78, _⟩ => ⟨S1x2048, .f32⟩
  | .local _ .vmem, ⟨79, _⟩ => ⟨S1024x2048, .f32⟩
  | .local _ .vmem, ⟨80, _⟩ => ⟨S1024x2048, .f32⟩
  | .local _ .vmem, ⟨81, _⟩ => ⟨S1024x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg7_1 : Ref sig .tc := ⟨.vmem, 26, rfl⟩
abbrev cc1_scratch0 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg7_0 : Ref sig .tc := ⟨.vmem, 39, rfl⟩
abbrev cc2_stg7_1 : Ref sig .tc := ⟨.vmem, 40, rfl⟩
abbrev cc2_scratch0 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg2_1 : Ref sig .tc := ⟨.vmem, 47, rfl⟩
abbrev cc3_stg3_0 : Ref sig .tc := ⟨.vmem, 48, rfl⟩
abbrev cc3_stg3_1 : Ref sig .tc := ⟨.vmem, 49, rfl⟩
abbrev cc3_stg4_0 : Ref sig .tc := ⟨.vmem, 50, rfl⟩
abbrev cc3_stg5_0 : Ref sig .tc := ⟨.vmem, 51, rfl⟩
abbrev cc3_stg6_0 : Ref sig .tc := ⟨.vmem, 52, rfl⟩
abbrev cc3_stg7_0 : Ref sig .tc := ⟨.vmem, 53, rfl⟩
abbrev cc3_stg7_1 : Ref sig .tc := ⟨.vmem, 54, rfl⟩
abbrev cc3_scratch0 : Ref sig .tc := ⟨.vmem, 55, rfl⟩
abbrev cc4_stg0_0 : Ref sig .tc := ⟨.vmem, 56, rfl⟩
abbrev cc4_stg0_1 : Ref sig .tc := ⟨.vmem, 57, rfl⟩
abbrev cc4_stg1_0 : Ref sig .tc := ⟨.vmem, 58, rfl⟩
abbrev cc4_stg1_1 : Ref sig .tc := ⟨.vmem, 59, rfl⟩
abbrev cc4_stg2_0 : Ref sig .tc := ⟨.vmem, 60, rfl⟩
abbrev cc4_stg2_1 : Ref sig .tc := ⟨.vmem, 61, rfl⟩
abbrev cc4_stg3_0 : Ref sig .tc := ⟨.vmem, 62, rfl⟩
abbrev cc4_stg3_1 : Ref sig .tc := ⟨.vmem, 63, rfl⟩
abbrev cc4_stg4_0 : Ref sig .tc := ⟨.vmem, 64, rfl⟩
abbrev cc4_stg4_1 : Ref sig .tc := ⟨.vmem, 65, rfl⟩
abbrev cc4_scratch0 : Ref sig .tc := ⟨.vmem, 66, rfl⟩
abbrev cc5_stg0_0 : Ref sig .tc := ⟨.vmem, 67, rfl⟩
abbrev cc5_stg0_1 : Ref sig .tc := ⟨.vmem, 68, rfl⟩
abbrev cc5_stg1_0 : Ref sig .tc := ⟨.vmem, 69, rfl⟩
abbrev cc5_stg1_1 : Ref sig .tc := ⟨.vmem, 70, rfl⟩
abbrev cc5_stg2_0 : Ref sig .tc := ⟨.vmem, 71, rfl⟩
abbrev cc5_stg2_1 : Ref sig .tc := ⟨.vmem, 72, rfl⟩
abbrev cc5_scratch0 : Ref sig .tc := ⟨.vmem, 73, rfl⟩
abbrev cc6_stg0_0 : Ref sig .tc := ⟨.vmem, 74, rfl⟩
abbrev cc6_stg0_1 : Ref sig .tc := ⟨.vmem, 75, rfl⟩
abbrev cc6_stg1_0 : Ref sig .tc := ⟨.vmem, 76, rfl⟩
abbrev cc6_stg1_1 : Ref sig .tc := ⟨.vmem, 77, rfl⟩
abbrev cc6_stg2_0 : Ref sig .tc := ⟨.vmem, 78, rfl⟩
abbrev cc6_stg3_0 : Ref sig .tc := ⟨.vmem, 79, rfl⟩
abbrev cc6_stg3_1 : Ref sig .tc := ⟨.vmem, 80, rfl⟩
abbrev cc6_scratch0 : Ref sig .tc := ⟨.vmem, 81, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem7_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem2_1 : DmaSem sig := 44
abbrev cc3_sem3_0 : DmaSem sig := 45
abbrev cc3_sem3_1 : DmaSem sig := 46
abbrev cc3_sem4_0 : DmaSem sig := 47
abbrev cc3_sem5_0 : DmaSem sig := 48
abbrev cc3_sem6_0 : DmaSem sig := 49
abbrev cc3_sem7_0 : DmaSem sig := 50
abbrev cc3_sem7_1 : DmaSem sig := 51
abbrev cc4_sem0_0 : DmaSem sig := 52
abbrev cc4_sem0_1 : DmaSem sig := 53
abbrev cc4_sem1_0 : DmaSem sig := 54
abbrev cc4_sem1_1 : DmaSem sig := 55
abbrev cc4_sem2_0 : DmaSem sig := 56
abbrev cc4_sem2_1 : DmaSem sig := 57
abbrev cc4_sem3_0 : DmaSem sig := 58
abbrev cc4_sem3_1 : DmaSem sig := 59
abbrev cc4_sem4_0 : DmaSem sig := 60
abbrev cc4_sem4_1 : DmaSem sig := 61
abbrev cc5_sem0_0 : DmaSem sig := 62
abbrev cc5_sem0_1 : DmaSem sig := 63
abbrev cc5_sem1_0 : DmaSem sig := 64
abbrev cc5_sem1_1 : DmaSem sig := 65
abbrev cc5_sem2_0 : DmaSem sig := 66
abbrev cc5_sem2_1 : DmaSem sig := 67
abbrev cc6_sem0_0 : DmaSem sig := 68
abbrev cc6_sem0_1 : DmaSem sig := 69
abbrev cc6_sem1_0 : DmaSem sig := 70
abbrev cc6_sem1_1 : DmaSem sig := 71
abbrev cc6_sem2_0 : DmaSem sig := 72
abbrev cc6_sem3_0 : DmaSem sig := 73
abbrev cc6_sem3_1 : DmaSem sig := 74

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![2, 8], ![false, false]⟩

def k1_cond2 (i : grid1.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_17 : BitVec 32 := 0#32
  let v25 : BitVec 1 := Scalar.cmpi .ne v24 c0_i32_17
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1024x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev grid2 : Pipeline.Grid := ⟨2, ![2, 8], ![false, false]⟩

def k2_cond2 (i : grid2.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_17 : BitVec 32 := 0#32
  let v25 : BitVec 1 := Scalar.cmpi .ne v24 c0_i32_17
  v25

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S256x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S256x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 1 → Memref sig .tc .vmem S1x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x2048 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x2048 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S1024x2048 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev grid3 : Pipeline.Grid := ⟨2, ![2, 8], ![false, false]⟩

def k3_cond2 (i : grid3.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_17 : BitVec 32 := 0#32
  let v25 : BitVec 1 := Scalar.cmpi .ne v24 c0_i32_17
  v25

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S256x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S256x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 1 → Memref sig .tc .vmem S1x2048 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S1x2048 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S1x2048 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 2 → Memref sig .tc .vmem S1024x2048 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, false]

abbrev grid4 : Pipeline.Grid := ⟨2, ![2, 8], ![false, false]⟩

def k4_cond2 (i : grid4.Coords) : BitVec 1 :=
  let arg1 : BitVec 32 := BitVec.ofNat 32 (i 1).val
  let c7_i32 : BitVec 32 := 7#32
  let v46 : BitVec 1 := Scalar.cmpi .eq arg1 c7_i32
  let v47 : BitVec 32 := Scalar.extui v46
  let c0_i32_21 : BitVec 32 := 0#32
  let v48 : BitVec 1 := Scalar.cmpi .ne v47 c0_i32_21
  v48

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S256x2048 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S256x2048 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![false, true]

abbrev stage4_4 : Fin 2 → Memref sig .tc .vmem S1024x2048 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

abbrev grid5 : Pipeline.Grid := ⟨2, ![2, 8], ![false, false]⟩

def k5_cond2 (i : grid5.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_10 : BitVec 32 := 0#32
  let v28 : BitVec 1 := Scalar.cmpi .ne v27 c0_i32_10
  v28

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1024x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S256x2048 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x2048 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev grid6 : Pipeline.Grid := ⟨2, ![2, 8], ![false, false]⟩

def k6_cond2 (i : grid6.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32_10 : BitVec 32 := 0#32
  let v26 : BitVec 1 := Scalar.cmpi .ne v25 c0_i32_10
  v26

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S1024x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S256x2048 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 1 → Memref sig .tc .vmem S1x2048 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, false]

abbrev stage6_3 : Fin 2 → Memref sig .tc .vmem S1024x2048 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

class Facts₀ : Prop where
  shapeCasts_S2048_S1x2048 : S2048.ShapeCasts S1x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  reduces_S1024x2048_S1024 : S1024x2048.Reduces [1] S1024
  shapeCasts_S1024_S1024x1 : S1024.ShapeCasts S1024x1
  broadcasts_S1024x1_S1024x2048 : S1024x1.Broadcasts S1024x2048
  shapeCasts_S1024x256_S1024x256 : S1024x256.ShapeCasts S1024x256
  shapeCasts_S256x2048_S256x2048 : S256x2048.ShapeCasts S256x2048
  dot_S1024x256_S256x2048_S1024x2048_1_0_0_1_n_n_wf : DotDims.WF S1024x256 S256x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S2048x2048.size a
  hwx0_0 : ∀ i : grid0.Coords, EltTy.bits .f32 = 32 ∨ (Rect.block (s := S2048x2048) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .f32 = 32 ∨ (Rect.block (s := S2048x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S2048x2048.size a
  hwx0_2 : ∀ i : grid0.Coords, EltTy.bits .f32 = 32 ∨ (Rect.block (s := S2048x2048) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S2048x2048.size a
  hwx0_3 : ∀ i : grid0.Coords, EltTy.bits .f32 = 32 ∨ (Rect.block (s := S2048x2048) S256x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x2048.size a ≤ S2048x2048.size a
  hwx0_7 : ∀ i : grid0.Coords, EltTy.bits .f32 = 32 ∨ (Rect.block (s := S2048x2048) S1024x2048.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S2048x2048.size a
  hwx1_0 : ∀ i : grid1.Coords, EltTy.bits .f32 = 32 ∨ (Rect.block (s := S2048x2048) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S2048x2048.size a
  hwx1_1 : ∀ i : grid1.Coords, EltTy.bits .f32 = 32 ∨ (Rect.block (s := S2048x2048) S256x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S2048x2048.size a
  hwx1_2 : ∀ i : grid1.Coords, EltTy.bits .f32 = 32 ∨ (Rect.block (s := S2048x2048) S1024x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S2048x2048.size a
  hwx1_3 : ∀ i : grid1.Coords, EltTy.bits .f32 = 32 ∨ (Rect.block (s := S2048x2048) S256x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2048.size a ≤ S1x2048.size a
  hwx1_4 : ∀ i : grid1.Coords, EltTy.bits .f32 = 32 ∨ (Rect.block (s := S1x2048) S1x2048.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x2048.size a ≤ S1x2048.size a
  hwx1_5 : ∀ i : grid1.Coords, EltTy.bits .f32 = 32 ∨ (Rect.block (s := S1x2048) S1x2048.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2048.size a ≤ S1x2048.size a
  hwx1_6 : ∀ i : grid1.Coords, EltTy.bits .f32 = 32 ∨ (Rect.block (s := S1x2048) S1x2048.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x2048.size a ≤ S2048x2048.size a
  hwx1_7 : ∀ i : grid1.Coords, EltTy.bits .f32 = 32 ∨ (Rect.block (s := S2048x2048) S1024x2048.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S2048x2048.size a
  hwx2_0 : ∀ i : grid2.Coords, EltTy.bits .f32 = 32 ∨ (Rect.block (s := S2048x2048) S1024x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x2048.size a ≤ S2048x2048.size a
  hwx2_1 : ∀ i : grid2.Coords, EltTy.bits .f32 = 32 ∨ (Rect.block (s := S2048x2048) S256x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x256.size a ≤ S2048x2048.size a
  hwx2_2 : ∀ i : grid2.Coords, EltTy.bits .f32 = 32 ∨ (Rect.block (s := S2048x2048) S1024x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x2048.size a ≤ S2048x2048.size a
  hwx2_3 : ∀ i : grid2.Coords, EltTy.bits .f32 = 32 ∨ (Rect.block (s := S2048x2048) S256x2048.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2048.size a ≤ S1x2048.size a
  hwx2_4 : ∀ i : grid2.Coords, EltTy.bits .f32 = 32 ∨ (Rect.block (s := S1x2048) S1x2048.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x2048.size a ≤ S1x2048.size a
  hwx2_5 : ∀ i : grid2.Coords, EltTy.bits .f32 = 32 ∨ (Rect.block (s := S1x2048) S1x2048.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x2048.size a ≤ S1x2048.size a
  hwx2_6 : ∀ i : grid2.Coords, EltTy.bits .f32 = 32 ∨ (Rect.block (s := S1x2048) S1x2048.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1024x2048.size a ≤ S2048x2048.size a
  hwx2_7 : ∀ i : grid2.Coords, EltTy.bits .f32 = 32 ∨ (Rect.block (s := S2048x2048) S1024x2048.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x256.size a ≤ S2048x2048.size a
  hwx3_0 : ∀ i : grid3.Coords, EltTy.bits .f32 = 32 ∨ (Rect.block (s := S2048x2048) S1024x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S256x2048.size a ≤ S2048x2048.size a
  hwx3_1 : ∀ i : grid3.Coords, EltTy.bits .f32 = 32 ∨ (Rect.block (s := S2048x2048) S256x2048.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x256.size a ≤ S2048x2048.size a
  hwx3_2 : ∀ i : grid3.Coords, EltTy.bits .f32 = 32 ∨ (Rect.block (s := S2048x2048) S1024x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x2048.size a ≤ S2048x2048.size a
  hwx3_3 : ∀ i : grid3.Coords, EltTy.bits .f32 = 32 ∨ (Rect.block (s := S2048x2048) S256x2048.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x2048.size a ≤ S1x2048.size a
  hwx3_4 : ∀ i : grid3.Coords, EltTy.bits .f32 = 32 ∨ (Rect.block (s := S1x2048) S1x2048.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x2048.size a ≤ S1x2048.size a
  hwx3_5 : ∀ i : grid3.Coords, EltTy.bits .f32 = 32 ∨ (Rect.block (s := S1x2048) S1x2048.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x2048.size a ≤ S1x2048.size a
  hwx3_6 : ∀ i : grid3.Coords, EltTy.bits .f32 = 32 ∨ (Rect.block (s := S1x2048) S1x2048.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1024x2048.size a ≤ S2048x2048.size a
  hwx3_7 : ∀ i : grid3.Coords, EltTy.bits .f32 = 32 ∨ (Rect.block (s := S2048x2048) S1024x2048.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x256.size a ≤ S2048x2048.size a
  hwx4_0 : ∀ i : grid4.Coords, EltTy.bits .f32 = 32 ∨ (Rect.block (s := S2048x2048) S1024x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S256x2048.size a ≤ S2048x2048.size a
  hwx4_1 : ∀ i : grid4.Coords, EltTy.bits .f32 = 32 ∨ (Rect.block (s := S2048x2048) S256x2048.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x256.size a ≤ S2048x2048.size a
  hwx4_2 : ∀ i : grid4.Coords, EltTy.bits .f32 = 32 ∨ (Rect.block (s := S2048x2048) S1024x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S256x2048.size a ≤ S2048x2048.size a
  hwx4_3 : ∀ i : grid4.Coords, EltTy.bits .f32 = 32 ∨ (Rect.block (s := S2048x2048) S256x2048.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1024x2048.size a ≤ S2048x2048.size a
  hwx4_4 : ∀ i : grid4.Coords, EltTy.bits .f32 = 32 ∨ (Rect.block (s := S2048x2048) S1024x2048.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x256.size a ≤ S2048x2048.size a
  hwx5_0 : ∀ i : grid5.Coords, EltTy.bits .f32 = 32 ∨ (Rect.block (s := S2048x2048) S1024x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S256x2048.size a ≤ S2048x2048.size a
  hwx5_1 : ∀ i : grid5.Coords, EltTy.bits .f32 = 32 ∨ (Rect.block (s := S2048x2048) S256x2048.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x2048.size a ≤ S2048x2048.size a
  hwx5_2 : ∀ i : grid5.Coords, EltTy.bits .f32 = 32 ∨ (Rect.block (s := S2048x2048) S1024x2048.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x256.size a ≤ S2048x2048.size a
  hwx6_0 : ∀ i : grid6.Coords, EltTy.bits .f32 = 32 ∨ (Rect.block (s := S2048x2048) S1024x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S256x2048.size a ≤ S2048x2048.size a
  hwx6_1 : ∀ i : grid6.Coords, EltTy.bits .f32 = 32 ∨ (Rect.block (s := S2048x2048) S256x2048.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x2048.size a ≤ S1x2048.size a
  hwx6_2 : ∀ i : grid6.Coords, EltTy.bits .f32 = 32 ∨ (Rect.block (s := S1x2048) S1x2048.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1024x2048.size a ≤ S2048x2048.size a
  hwx6_3 : ∀ i : grid6.Coords, EltTy.bits .f32 = 32 ∨ (Rect.block (s := S2048x2048) S1024x2048.size (cc6_transform_3 i) (hinb6_3 i)).WholeWords (EltTy.packing .f32)

variable [Facts₀]

def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf

abbrev win0_0 : Pipeline.Window sig grid0 :=
  Pipeline.Window.ofSpec (Memref.whole main_arg2) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1024x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_arg2) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S256x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x2048.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S1x2048.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v7) S1024x2048.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

abbrev win2_0 : Pipeline.Window sig grid2 :=
  Pipeline.Window.ofSpec (Memref.whole main_arg2) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S256x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S1024x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S256x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v8) S1x2048.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v9) S1x2048.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v10) S1x2048.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v11) S1024x2048.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun _ => false | 7 => fun i => !(k2_cond2 i == 1#1) | ⟨_ + 8, h⟩ => absurd h (Nat.not_lt.2 (Nat.le_add_left _ _))

abbrev win3_0 : Pipeline.Window sig grid3 :=
  Pipeline.Window.ofSpec (Memref.whole main_arg2) S1024x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S256x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg0) S1024x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S256x2048.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v12) S1x2048.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v13) S1x2048.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v14) S1x2048.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v15) S1024x2048.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev idle3 : Fin 8 → grid3.Coords → Bool := fun | 0 => fun _ => false | 1 => fun _ => false | 2 => fun _ => false | 3 => fun _ => false | 4 => fun _ => false | 5 => fun _ => false | 6 => fun _ => false | 7 => fun i => !(k3_cond2 i == 1#1) | ⟨_ + 8, h⟩ => absurd h (Nat.not_lt.2 (Nat.le_add_left _ _))

abbrev win4_0 : Pipeline.Window sig grid4 :=
  Pipeline.Window.ofSpec (Memref.whole main_v3) S1024x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg1) S256x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v7) S1024x256.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v11) S256x2048.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v16) S1024x2048.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

abbrev win5_0 : Pipeline.Window sig grid5 :=
  Pipeline.Window.ofSpec (Memref.whole main_v16) S1024x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v15) S256x2048.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v17) S1024x2048.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

abbrev win6_0 : Pipeline.Window sig grid6 :=
  Pipeline.Window.ofSpec (Memref.whole main_v17) S1024x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg15) S256x2048.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v18) S1x2048.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v19) S1024x2048.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev idle6 : Fin 4 → grid6.Coords → Bool := fun | 0 => fun _ => false | 1 => fun _ => false | 2 => fun _ => false | 3 => fun i => !(k6_cond2 i == 1#1) | ⟨_ + 4, h⟩ => absurd h (Nat.not_lt.2 (Nat.le_add_left _ _))

class Facts : Prop extends Facts₀ where

variable [Facts]
-- ==== ReferenceIdeal.lean ====
abbrev S2048x2048 : Shape := ⟨2, ![2048, 2048]⟩
abbrev S2048 : Shape := ⟨1, ![2048]⟩
abbrev S1x2048 : Shape := ⟨2, ![1, 2048]⟩
abbrev S_ : Shape := ⟨0, ![]⟩
abbrev S2048x1 : Shape := ⟨2, ![2048, 1]⟩

abbrev nBuf : Space → Nat
  | .hbm => 199
  | .vmem => 0
  | .smem => 0
  | _ => 0

abbrev hbmTy0_0 (i : Nat) : BufTy := match i % 128 with
  | 0 => ⟨S2048x2048, .f32⟩
  | 1 => ⟨S2048x2048, .f32⟩
  | 2 => ⟨S2048x2048, .f32⟩
  | 3 => ⟨S2048x2048, .f32⟩
  | 4 => ⟨S2048x2048, .f32⟩
  | 5 => ⟨S2048x2048, .f32⟩
  | 6 => ⟨S2048x2048, .f32⟩
  | 7 => ⟨S2048x2048, .f32⟩
  | 8 => ⟨S2048x2048, .f32⟩
  | 9 => ⟨S2048x2048, .f32⟩
  | 10 => ⟨S2048x2048, .f32⟩
  | 11 => ⟨S2048, .f32⟩
  | 12 => ⟨S2048, .f32⟩
  | 13 => ⟨S2048, .f32⟩
  | 14 => ⟨S2048, .f32⟩
  | 15 => ⟨S2048x2048, .f32⟩
  | 16 => ⟨S2048, .f32⟩
  | 17 => ⟨S2048, .f32⟩
  | 18 => ⟨S2048, .f32⟩
  | 19 => ⟨S2048, .f32⟩
  | 20 => ⟨S2048, .f32⟩
  | 21 => ⟨S2048, .f32⟩
  | 22 => ⟨S2048, .f32⟩
  | 23 => ⟨S2048, .f32⟩
  | 24 => ⟨S2048, .f32⟩
  | 25 => ⟨S2048x2048, .f32⟩
  | 26 => ⟨S2048x2048, .f32⟩
  | 27 => ⟨S2048x2048, .f32⟩
  | 28 => ⟨S1x2048, .f32⟩
  | 29 => ⟨S2048x2048, .f32⟩
  | 30 => ⟨S2048x2048, .f32⟩
  | 31 => ⟨S_, .f32⟩
  | 32 => ⟨S2048, .f32⟩
  | 33 => ⟨S2048x1, .f32⟩
  | 34 => ⟨S_, .f32⟩
  | 35 => ⟨S2048x1, .f32⟩
  | 36 => ⟨S2048x1, .f32⟩
  | 37 => ⟨S2048x2048, .f32⟩
  | 38 => ⟨S2048x2048, .f32⟩
  | 39 => ⟨S2048x2048, .f32⟩
  | 40 => ⟨S_, .f32⟩
  | 41 => ⟨S2048, .f32⟩
  | 42 => ⟨S2048x1, .f32⟩
  | 43 => ⟨S_, .f32⟩
  | 44 => ⟨S2048x1, .f32⟩
  | 45 => ⟨S2048x1, .f32⟩
  | 46 => ⟨S2048x2048, .f32⟩
  | 47 => ⟨S2048x2048, .f32⟩
  | 48 => ⟨S_, .f32⟩
  | 49 => ⟨S2048x1, .f32⟩
  | 50 => ⟨S2048x1, .f32⟩
  | 51 => ⟨S2048x1, .f32⟩
  | 52 => ⟨S2048x2048, .f32⟩
  | 53 => ⟨S2048x2048, .f32⟩
  | 54 => ⟨S1x2048, .f32⟩
  | 55 => ⟨S2048x2048, .f32⟩
  | 56 => ⟨S2048x2048, .f32⟩
  | 57 => ⟨S1x2048, .f32⟩
  | 58 => ⟨S2048x2048, .f32⟩
  | 59 => ⟨S2048x2048, .f32⟩
  | 60 => ⟨S2048x2048, .f32⟩
  | 61 => ⟨S2048x2048, .f32⟩
  | 62 => ⟨S_, .f32⟩
  | 63 => ⟨S2048x2048, .f32⟩
  | 64 => ⟨S2048x2048, .f32⟩
  | 65 => ⟨S_, .f32⟩
  | 66 => ⟨S2048x2048, .f32⟩
  | 67 => ⟨S2048x2048, .f32⟩
  | 68 => ⟨S2048x2048, .f32⟩
  | 69 => ⟨S2048x2048, .f32⟩
  | 70 => ⟨S2048x2048, .f32⟩
  | 71 => ⟨S1x2048, .f32⟩
  | 72 => ⟨S2048x2048, .f32⟩
  | 73 => ⟨S2048x2048, .f32⟩
  | 74 => ⟨S_, .f32⟩
  | 75 => ⟨S2048, .f32⟩
  | 76 => ⟨S2048x1, .f32⟩
  | 77 => ⟨S_, .f32⟩
  | 78 => ⟨S2048x1, .f32⟩
  | 79 => ⟨S2048x1, .f32⟩
  | 80 => ⟨S2048x2048, .f32⟩
  | 81 => ⟨S2048x2048, .f32⟩
  | 82 => ⟨S2048x2048, .f32⟩
  | 83 => ⟨S_, .f32⟩
  | 84 => ⟨S2048, .f32⟩
  | 85 => ⟨S2048x1, .f32⟩
  | 86 => ⟨S_, .f32⟩
  | 87 => ⟨S2048x1, .f32⟩
  | 88 => ⟨S2048x1, .f32⟩
  | 89 => ⟨S2048x2048, .f32⟩
  | 90 => ⟨S2048x2048, .f32⟩
  | 91 => ⟨S_, .f32⟩
  | 92 => ⟨S2048x1, .f32⟩
  | 93 => ⟨S2048x1, .f32⟩
  | 94 => ⟨S2048x1, .f32⟩
  | 95 => ⟨S2048x2048, .f32⟩
  | 96 => ⟨S2048x2048, .f32⟩
  | 97 => ⟨S1x2048, .f32⟩
  | 98 => ⟨S2048x2048, .f32⟩
  | 99 => ⟨S2048x2048, .f32⟩
  | 100 => ⟨S1x2048, .f32⟩
  | 101 => ⟨S2048x2048, .f32⟩
  | 102 => ⟨S2048x2048, .f32⟩
  | 103 => ⟨S2048x2048, .f32⟩
  | 104 => ⟨S2048x2048, .f32⟩
  | 105 => ⟨S2048x2048, .f32⟩
  | 106 => ⟨S2048x2048, .f32⟩
  | 107 => ⟨S1x2048, .f32⟩
  | 108 => ⟨S2048x2048, .f32⟩
  | 109 => ⟨S2048x2048, .f32⟩
  | 110 => ⟨S_, .f32⟩
  | 111 => ⟨S2048, .f32⟩
  | 112 => ⟨S2048x1, .f32⟩
  | 113 => ⟨S_, .f32⟩
  | 114 => ⟨S2048x1, .f32⟩
  | 115 => ⟨S2048x1, .f32⟩
  | 116 => ⟨S2048x2048, .f32⟩
  | 117 => ⟨S2048x2048, .f32⟩
  | 118 => ⟨S2048x2048, .f32⟩
  | 119 => ⟨S_, .f32⟩
  | 120 => ⟨S2048, .f32⟩
  | 121 => ⟨S2048x1, .f32⟩
  | 122 => ⟨S_, .f32⟩
  | 123 => ⟨S2048x1, .f32⟩
  | 124 => ⟨S2048x1, .f32⟩
  | 125 => ⟨S2048x2048, .f32⟩
  | 126 => ⟨S2048x2048, .f32⟩
  | 127 => ⟨S_, .f32⟩
  | _ => ⟨S2048x2048, .f32⟩

abbrev hbmTy0_1 (i : Nat) : BufTy := match i % 128 with
  | 0 => ⟨S2048x1, .f32⟩
  | 1 => ⟨S2048x1, .f32⟩
  | 2 => ⟨S2048x1, .f32⟩
  | 3 => ⟨S2048x2048, .f32⟩
  | 4 => ⟨S2048x2048, .f32⟩
  | 5 => ⟨S1x2048, .f32⟩
  | 6 => ⟨S2048x2048, .f32⟩
  | 7 => ⟨S2048x2048, .f32⟩
  | 8 => ⟨S1x2048, .f32⟩
  | 9 => ⟨S2048x2048, .f32⟩
  | 10 => ⟨S2048x2048, .f32⟩
  | 11 => ⟨S2048x2048, .f32⟩
  | 12 => ⟨S2048x2048, .f32⟩
  | 13 => ⟨S_, .f32⟩
  | 14 => ⟨S2048x2048, .f32⟩
  | 15 => ⟨S2048x2048, .f32⟩
  | 16 => ⟨S_, .f32⟩
  | 17 => ⟨S2048x2048, .f32⟩
  | 18 => ⟨S2048x2048, .f32⟩
  | 19 => ⟨S2048x2048, .f32⟩
  | 20 => ⟨S2048x2048, .f32⟩
  | 21 => ⟨S2048x2048, .f32⟩
  | 22 => ⟨S1x2048, .f32⟩
  | 23 => ⟨S2048x2048, .f32⟩
  | 24 => ⟨S2048x2048, .f32⟩
  | 25 => ⟨S_, .f32⟩
  | 26 => ⟨S2048, .f32⟩
  | 27 => ⟨S2048x1, .f32⟩
  | 28 => ⟨S_, .f32⟩
  | 29 => ⟨S2048x1, .f32⟩
  | 30 => ⟨S2048x1, .f32⟩
  | 31 => ⟨S2048x2048, .f32⟩
  | 32 => ⟨S2048x2048, .f32⟩
  | 33 => ⟨S2048x2048, .f32⟩
  | 34 => ⟨S_, .f32⟩
  | 35 => ⟨S2048, .f32⟩
  | 36 => ⟨S2048x1, .f32⟩
  | 37 => ⟨S_, .f32⟩
  | 38 => ⟨S2048x1, .f32⟩
  | 39 => ⟨S2048x1, .f32⟩
  | 40 => ⟨S2048x2048, .f32⟩
  | 41 => ⟨S2048x2048, .f32⟩
  | 42 => ⟨S_, .f32⟩
  | 43 => ⟨S2048x1, .f32⟩
  | 44 => ⟨S2048x1, .f32⟩
  | 45 => ⟨S2048x1, .f32⟩
  | 46 => ⟨S2048x2048, .f32⟩
  | 47 => ⟨S2048x2048, .f32⟩
  | 48 => ⟨S1x2048, .f32⟩
  | 49 => ⟨S2048x2048, .f32⟩
  | 50 => ⟨S2048x2048, .f32⟩
  | 51 => ⟨S1x2048, .f32⟩
  | 52 => ⟨S2048x2048, .f32⟩
  | 53 => ⟨S2048x2048, .f32⟩
  | 54 => ⟨S2048x2048, .f32⟩
  | 55 => ⟨S2048x2048, .f32⟩
  | 56 => ⟨S_, .f32⟩
  | 57 => ⟨S2048x2048, .f32⟩
  | 58 => ⟨S2048x2048, .f32⟩
  | 59 => ⟨S_, .f32⟩
  | 60 => ⟨S2048x2048, .f32⟩
  | 61 => ⟨S2048x2048, .f32⟩
  | 62 => ⟨S2048x2048, .f32⟩
  | 63 => ⟨S2048x2048, .f32⟩
  | 64 => ⟨S2048x2048, .f32⟩
  | 65 => ⟨S2048x2048, .f32⟩
  | 66 => ⟨S2048x2048, .f32⟩
  | 67 => ⟨S2048x2048, .f32⟩
  | 68 => ⟨S1x2048, .f32⟩
  | 69 => ⟨S2048x2048, .f32⟩
  | 70 => ⟨S2048x2048, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_cst : Ref sig .tc := ⟨.hbm, 31, rfl⟩
abbrev main_v6 : Ref sig .tc := ⟨.hbm, 32, rfl⟩
abbrev main_v7 : Ref sig .tc := ⟨.hbm, 33, rfl⟩
abbrev main_cst_0 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_cst_1 : Ref sig .tc := ⟨.hbm, 40, rfl⟩
abbrev main_v13 : Ref sig .tc := ⟨.hbm, 41, rfl⟩
abbrev main_v14 : Ref sig .tc := ⟨.hbm, 42, rfl⟩
abbrev main_cst_2 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_cst_3 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_4 : Ref sig .tc := ⟨.hbm, 62, rfl⟩
abbrev main_v32 : Ref sig .tc := ⟨.hbm, 63, rfl⟩
abbrev main_v33 : Ref sig .tc := ⟨.hbm, 64, rfl⟩
abbrev main_cst_5 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_6 : Ref sig .tc := ⟨.hbm, 74, rfl⟩
abbrev main_v42 : Ref sig .tc := ⟨.hbm, 75, rfl⟩
abbrev main_v43 : Ref sig .tc := ⟨.hbm, 76, rfl⟩
abbrev main_cst_7 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_8 : Ref sig .tc := ⟨.hbm, 83, rfl⟩
abbrev main_v49 : Ref sig .tc := ⟨.hbm, 84, rfl⟩
abbrev main_v50 : Ref sig .tc := ⟨.hbm, 85, rfl⟩
abbrev main_cst_9 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_10 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_11 : Ref sig .tc := ⟨.hbm, 110, rfl⟩
abbrev main_v73 : Ref sig .tc := ⟨.hbm, 111, rfl⟩
abbrev main_v74 : Ref sig .tc := ⟨.hbm, 112, rfl⟩
abbrev main_cst_12 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_13 : Ref sig .tc := ⟨.hbm, 119, rfl⟩
abbrev main_v80 : Ref sig .tc := ⟨.hbm, 120, rfl⟩
abbrev main_v81 : Ref sig .tc := ⟨.hbm, 121, rfl⟩
abbrev main_cst_14 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_15 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_16 : Ref sig .tc := ⟨.hbm, 141, rfl⟩
abbrev main_v99 : Ref sig .tc := ⟨.hbm, 142, rfl⟩
abbrev main_v100 : Ref sig .tc := ⟨.hbm, 143, rfl⟩
abbrev main_cst_17 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_18 : Ref sig .tc := ⟨.hbm, 153, rfl⟩
abbrev main_v109 : Ref sig .tc := ⟨.hbm, 154, rfl⟩
abbrev main_v110 : Ref sig .tc := ⟨.hbm, 155, rfl⟩
abbrev main_cst_19 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_cst_20 : Ref sig .tc := ⟨.hbm, 162, rfl⟩
abbrev main_v116 : Ref sig .tc := ⟨.hbm, 163, rfl⟩
abbrev main_v117 : Ref sig .tc := ⟨.hbm, 164, rfl⟩
abbrev main_cst_21 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_cst_22 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_cst_23 : Ref sig .tc := ⟨.hbm, 184, rfl⟩
abbrev main_v135 : Ref sig .tc := ⟨.hbm, 185, rfl⟩
abbrev main_v136 : Ref sig .tc := ⟨.hbm, 186, rfl⟩
abbrev main_cst_24 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  reducesTo_S2048x2048_S2048_d1 : S2048x2048.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  dot_S2048x2048_S2048x2048_S2048x2048_1_0_0_1_n_n_wf : DotDims.WF S2048x2048 S2048x2048 S2048x2048 [1] [0] [0] [1] [] []

variable [Facts₀]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf

class Facts : Prop extends Facts₀ where

variable [Facts]
-- ==== Proof.RefSide.lean ====
/-
  The reference side and the ledger.

  The reference is a host program with no kernel launch: its frame (it runs to the end, faults nowhere, and its
  argument arrays end as launched) is its run with the result forgotten.

  The idealized kernel differs from the kernel as printed in eight places, all of one kind: in the four
  high-precision products (the two of the cell state, the one of the hidden state, the one of the output head) each
  operand is split into a bf16 head and a bf16 remainder, and the head widened back to f32 is, on the extended
  reals, the operand itself, because rounding to bf16 and widening are both the identity there.  Each of the eight
  conjuncts of `preserves` states exactly this for one operand shape (a 1024×256 left block or a 256×2048 right block).
-/
import proofs.«116394_j17480516895034_2_alg».proof.Defs
import proofs.«116394_j17480516895034_2_alg».proof.Proof.Gen.ReferenceIdeal.Run
import proofs.«116394_j17480516895034_2_alg».proof.Proof.Gen.ReferenceIdeal.Read

noncomputable section

open Idealize.ShloMosaic Idealize.ShloMosaic.TcCoe Idealize.SL.Sem

namespace Cert.Proof.RefSide

/-- The reference's frame: its run, keeping only that the arguments are unchanged. -/
theorem frame_ri [Cert.ReferenceIdeal.Facts] [Cert.Pre_finite_inputs.Facts] : Cert.frame_ReferenceIdeal := fun m ρ _ =>
  (θ_run Cert.ReferenceIdeal.defs _ _).mono (fun _ h c => (h c).2.2.2) (Cert.ReferenceIdeal.Value.run (F := Ideal) m ρ)

/-- Widening a value rounded to bf16 gives the value back on the extended reals: once per split operand. -/
theorem preserves : Cert.preserves_Kernel_KernelIdeal :=
  ⟨IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16⟩

end Cert.Proof.RefSide

end
-- ==== Proof.K.R0.Base.lean ====
/-
  The forget gate logistic(LayerNorm(h·W_hf + x·W_xf + b_xf)), in the kernel as printed (pallas_call 0).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part one, names: a window's block at a point read off the array as the region finds it; that an input's staging
  buffer holds its block at every point, fetched there or not; the two conditions k = 0 and k = 7 in closed form over
  the sixteen points; where the output window is idle; the staging and scratch memrefs the body is called with.
  Everything is stated at any float instance.
-/
import proofs.«116394_j17480516895034_2_alg».proof.Proof.Gen.Kernel.Launch
import proofs.«116394_j17480516895034_2_alg».proof.Proof.Gen.Kernel.Skeleton
import proofs.«116394_j17480516895034_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's block is in its staging buffer at every point, for any proof data over these arrays whose body leaves it there. -/
theorem in_h_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's block is in its staging buffer at every point, for any proof data over these arrays whose body leaves it there. -/
theorem in_wh_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's block is in its staging buffer at every point, for any proof data over these arrays whose body leaves it there. -/
theorem in_x_of {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's block is in its staging buffer at every point, for any proof data over these arrays whose body leaves it there. -/
theorem in_wx_of {c : Dev nD} (dat : Dat τ (Elt F) Unit ℕ (UR sig nD τ) ℕ cfg0 c) (hA : dat.A 3 = V c (Pipeline.arrRef spec0 3))
    (hafter : ∀ t, dat.after 3 t = blockAt V c 3 t) (t : Fin cfg0.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's block is in its staging buffer at every point, for any proof data over these arrays whose body leaves it there. -/
theorem in_b_of {c : Dev nD} (dat : Dat τ (Elt F) Unit ℕ (UR sig nD τ) ℕ cfg0 c) (hA : dat.A 4 = V c (Pipeline.arrRef spec0 4))
    (hafter : ∀ t, dat.after 4 t = blockAt V c 4 t) (t : Fin cfg0.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- Input window 5's block is in its staging buffer at every point, for any proof data over these arrays whose body leaves it there. -/
theorem in_g_of {c : Dev nD} (dat : Dat τ (Elt F) Unit ℕ (UR sig nD τ) ℕ cfg0 c) (hA : dat.A 5 = V c (Pipeline.arrRef spec0 5))
    (hafter : ∀ t, dat.after 5 t = blockAt V c 5 t) (t : Fin cfg0.N) (d) : dat.before 5 t d = blockAt V c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-- Input window 6's block is in its staging buffer at every point, for any proof data over these arrays whose body leaves it there. -/
theorem in_be_of {c : Dev nD} (dat : Dat τ (Elt F) Unit ℕ (UR sig nD τ) ℕ cfg0 c) (hA : dat.A 6 = V c (Pipeline.arrRef spec0 6))
    (hafter : ∀ t, dat.after 6 t = blockAt V c 6 t) (t : Fin cfg0.N) (d) : dat.before 6 t d = blockAt V c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## The two conditions -/

/-- k = 0: the accumulator is cleared. -/
abbrev atFirst (i : grid0.Coords) : Prop := (Scalar.cmpi .ne (Scalar.extui (Scalar.cmpi .eq (BitVec.ofNat 32 (i 1).val) 0#32)) 0#32) = 1#1
theorem atFirst_iff : ∀ t : Fin cfg0.N, atFirst (grid0.coords t) ↔ t.val % 8 = 0 :=
  (by decide +kernel : ∀ t : Fin grid0.N, atFirst (grid0.coords t) ↔ t.val % 8 = 0)

/-- k = 7: the result is stored. -/
abbrev atLast (i : grid0.Coords) : Prop := k0_cond2 i = 1#1
theorem atLast_iff : ∀ t : Fin cfg0.N, atLast (grid0.coords t) ↔ t.val % 8 = 7 :=
  (by decide +kernel : ∀ t : Fin grid0.N, atLast (grid0.coords t) ↔ t.val % 8 = 7)

/-! ## Where the windows are idle -/

theorem live_h : ∀ t : Fin cfg0.N, cfg0.idle 0 (grid0.coords t) = false := by decide +kernel
theorem live_wh : ∀ t : Fin cfg0.N, cfg0.idle 1 (grid0.coords t) = false := by decide +kernel
theorem live_x : ∀ t : Fin cfg0.N, cfg0.idle 2 (grid0.coords t) = false := by decide +kernel
theorem live_wx : ∀ t : Fin cfg0.N, cfg0.idle 3 (grid0.coords t) = false := by decide +kernel
theorem live_b : ∀ t : Fin cfg0.N, cfg0.idle 4 (grid0.coords t) = false := by decide +kernel
theorem live_g : ∀ t : Fin cfg0.N, cfg0.idle 5 (grid0.coords t) = false := by decide +kernel
theorem live_be : ∀ t : Fin cfg0.N, cfg0.idle 6 (grid0.coords t) = false := by decide +kernel
/-- Away from k = 7 the output window is idle and not written back. -/
theorem idle_out : ∀ t : Fin cfg0.N, ¬atLast (grid0.coords t) → cfg0.idle 7 (grid0.coords t) = true := by decide +kernel
theorem noFlush_out : ∀ t : Fin cfg0.N, ¬atLast (grid0.coords t) → (cfg0.win 7).flush t = false := by decide +kernel
/-- At k = 7 it is live. -/
theorem live_out : ∀ t : Fin cfg0.N, atLast (grid0.coords t) → cfg0.idle 7 (grid0.coords t) = false := by decide +kernel

/-! ## The memrefs the body is called with -/

/-- One staging buffer of the output window, through which its contents are stated. -/
abbrev outView : View sig .tc .vmem S1024x2048 .f32 := (Memref.whole cc0_stg7_0 : Memref sig .tc .vmem S1024x2048 .f32).view
abbrev m_h (t : Fin cfg0.N) : Memref sig .tc .vmem S1024x256 .f32 := win0_0.stage (cfg0.slots t 0)
abbrev hm_h (t : Fin cfg0.N) : (m_h t).IsWhole := hstage0_0 ((cfg0.slots t 0).cast nbuf0_0)
abbrev m_wh (t : Fin cfg0.N) : Memref sig .tc .vmem S256x2048 .f32 := win0_1.stage (cfg0.slots t 1)
abbrev hm_wh (t : Fin cfg0.N) : (m_wh t).IsWhole := hstage0_1 ((cfg0.slots t 1).cast nbuf0_1)
abbrev m_x (t : Fin cfg0.N) : Memref sig .tc .vmem S1024x256 .f32 := win0_2.stage (cfg0.slots t 2)
abbrev hm_x (t : Fin cfg0.N) : (m_x t).IsWhole := hstage0_2 ((cfg0.slots t 2).cast nbuf0_2)
abbrev m_wx (t : Fin cfg0.N) : Memref sig .tc .vmem S256x2048 .f32 := win0_3.stage (cfg0.slots t 3)
abbrev hm_wx (t : Fin cfg0.N) : (m_wx t).IsWhole := hstage0_3 ((cfg0.slots t 3).cast nbuf0_3)
abbrev m_b (t : Fin cfg0.N) : Memref sig .tc .vmem S1x2048 .f32 := win0_4.stage (cfg0.slots t 4)
abbrev hm_b (t : Fin cfg0.N) : (m_b t).IsWhole := hstage0_4 ((cfg0.slots t 4).cast nbuf0_4)
abbrev m_g (t : Fin cfg0.N) : Memref sig .tc .vmem S1x2048 .f32 := win0_5.stage (cfg0.slots t 5)
abbrev hm_g (t : Fin cfg0.N) : (m_g t).IsWhole := hstage0_5 ((cfg0.slots t 5).cast nbuf0_5)
abbrev m_be (t : Fin cfg0.N) : Memref sig .tc .vmem S1x2048 .f32 := win0_6.stage (cfg0.slots t 6)
abbrev hm_be (t : Fin cfg0.N) : (m_be t).IsWhole := hstage0_6 ((cfg0.slots t 6).cast nbuf0_6)
abbrev m_out (t : Fin cfg0.N) : Memref sig .tc .vmem S1024x2048 .f32 := win0_7.stage (cfg0.slots t 7)
abbrev hm_out (t : Fin cfg0.N) : (m_out t).IsWhole := hstage0_7 ((cfg0.slots t 7).cast nbuf0_7)
/-- The accumulator: a whole scoped buffer of the kernel's own. -/
abbrev accM : Memref sig .tc .vmem S1024x2048 .f32 := Memref.whole cc0_scratch0
abbrev accView : View sig .tc .vmem S1024x2048 .f32 := accM.view

/-- What the launch hands the region, with the accumulator taken out of the scoped buffers no window stages. -/
theorem handed_eq (c : Dev nD) :
    (Pipeline.ΦA spec0 c : sProp 𝕄)
      = iprop(iprop(iprop((∃ d, owns (c : Thread nD τ) accM fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [accM, owns_whole]; try rfl

end Cert.Kernel.R0

end
-- ==== Proof.K.R0.Runs.lean ====
/-
  The forget gate logistic(LayerNorm(h·W_hf + x·W_xf + b_xf)), in the kernel as printed (pallas_call 0).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part two: the body's triple in each of its three cases.  On whole staging memrefs holding the input blocks the body
  runs without fault and gives the input buffers back unchanged.  What it does to the accumulator and to the output
  buffer depends on the point:
    k = 0      the accumulator, whatever it held, ends as its stores leave it; the output buffer is not touched;
    0 < k < 7  the accumulator, at known contents, ends as its stores leave it; the output buffer is not touched;
    k = 7      as before, and the output buffer, whatever it held, ends as its one store leaves it.
  The stores are not transcribed: each case is a subtype whose witness — the list of pieces stored, last first — the
  symbolic run of the body finds.
-/
import proofs.«116394_j17480516895034_2_alg».proof.Proof.K.R0.Base

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- k = 0. -/
noncomputable def runFirst (c : Dev nD) (i : grid0.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : atFirst i) (h7 : ¬atLast i)
    (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) :
    { LA : List (View.Piece (Elt F) S1024x2048 .f32) //
      ∀ (xout : Vec F S1024x2048 .f32) (E : Set ℕ) (K : PUnit → sProp 𝕄),
        iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ owns (c : Thread nD τ) arg9 fullShare xout ∗ (∃ d, owns (c : Thread nD τ) arg10 fullShare d)
            ∗ (iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ owns (c : Thread nD τ) arg9 fullShare xout ∗ (∃ f, arg10.view.loc (c : Thread nD τ) ↦[arg10.view.set]{fullShare} arg10.view.writes (Elt F) f LA)) -∗ K ⟨⟩))
          ⊢ wp frame (wpE (defs₀ (F := F)) Variants.none c none) E (cc0_gate_kernel i arg2 harg2 arg3 harg3 arg4 harg4 arg5 harg5 arg6 harg6 arg7 harg7 arg8 harg8 arg9 harg9 arg10 harg10) K } := by
  refine ⟨?_, fun xout E K => ?run⟩
  case run =>
    simp only [cc0_gate_kernel_eq_skeleton]; unfold cc0_gate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo, %hfo, HO⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfo
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO]
    · iexists _; isplitr; · ipureintro; exact harg9.read_unread _
      iexact HO
    iexists _; iexact HS

set_option maxHeartbeats 2000000 in
/-- 0 < k < 7. -/
noncomputable def runMid (c : Dev nD) (i : grid0.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : ¬atLast i)
    (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) :
    { LA : List (View.Piece (Elt F) S1024x2048 .f32) //
      ∀ (xout : Vec F S1024x2048 .f32) (E : Set ℕ) (K : PUnit → sProp 𝕄),
        iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ owns (c : Thread nD τ) arg9 fullShare xout ∗ owns (c : Thread nD τ) arg10 fullShare xa
            ∗ (iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ owns (c : Thread nD τ) arg9 fullShare xout ∗ (∃ f, arg10.view.loc (c : Thread nD τ) ↦[arg10.view.set]{fullShare} arg10.view.writes (Elt F) f LA)) -∗ K ⟨⟩))
          ⊢ wp frame (wpE (defs₀ (F := F)) Variants.none c none) E (cc0_gate_kernel i arg2 harg2 arg3 harg3 arg4 harg4 arg5 harg5 arg6 harg6 arg7 harg7 arg8 harg8 arg9 harg9 arg10 harg10) K } := by
  refine ⟨?_, fun xout E K => ?run⟩
  case run =>
    simp only [cc0_gate_kernel_eq_skeleton]; unfold cc0_gate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfo; obtain rfl := harg10.eq_unread hfs
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO]
    · iexists _; isplitr; · ipureintro; exact harg9.read_unread _
      iexact HO
    iexists _; iexact HS

set_option maxHeartbeats 2000000 in
/-- k = 7. -/
noncomputable def runLast (c : Dev nD) (i : grid0.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i)
    (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) :
    Σ' (LO : List (View.Piece (Elt F) S1024x2048 .f32)), { LA : List (View.Piece (Elt F) S1024x2048 .f32) //
      ∀ (E : Set ℕ) (K : PUnit → sProp 𝕄),
        iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ (∃ d, owns (c : Thread nD τ) arg9 fullShare d) ∗ owns (c : Thread nD τ) arg10 fullShare xa
            ∗ (iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ (∃ f, arg9.view.loc (c : Thread nD τ) ↦[arg9.view.set]{fullShare} arg9.view.writes (Elt F) f LO) ∗ (∃ f, arg10.view.loc (c : Thread nD τ) ↦[arg10.view.set]{fullShare} arg10.view.writes (Elt F) f LA)) -∗ K ⟨⟩))
          ⊢ wp frame (wpE (defs₀ (F := F)) Variants.none c none) E (cc0_gate_kernel i arg2 harg2 arg3 harg3 arg4 harg4 arg5 harg5 arg6 harg6 arg7 harg7 arg8 harg8 arg9 harg9 arg10 harg10) K } := by
  refine ⟨?_, ?_, fun E K => ?run⟩
  case run =>
    simp only [cc0_gate_kernel_eq_skeleton]; unfold cc0_gate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%dO, %fo, -, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO]; · iexists _; iexact HO
    iexists _; iexact HS

end Cert.Kernel.R0

end
-- ==== Proof.K.R0.Data.lean ====
/-
  The forget gate logistic(LayerNorm(h·W_hf + x·W_xf + b_xf)), in the kernel as printed (pallas_call 0).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part three: what the buffers hold point by point.  After the body at position n the accumulator holds what that
  point's case leaves in it — at k = 0 from nothing, at every later k from what position n − 1 left — and, at k = 7,
  the output buffer holds what its one store leaves.  The region's invariant carries the accumulator at these contents
  from one point to the next, beside the other scoped buffers no window stages and the generator register, neither of
  which the body touches.
-/
import proofs.«116394_j17480516895034_2_alg».proof.Proof.K.R0.Runs

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem accCover_first (c : Dev nD) (i : grid0.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : atFirst i) (h7 : ¬atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (y : S1024x2048.Idx) :
    ∃ pc ∈ (runFirst c i arg2 harg2 arg3 harg3 arg4 harg4 arg5 harg5 arg6 harg6 arg7 harg7 arg8 harg8 arg9 harg9 arg10 harg10 h0 h7 xh xwh xx xwx xb xg xbe).1, y ∈ pc.1.set :=
  View.cover_of_tiledL (runFirst c i arg2 harg2 arg3 harg3 arg4 harg4 arg5 harg5 arg6 harg6 arg7 harg7 arg8 harg8 arg9 harg9 arg10 harg10 h0 h7 xh xwh xx xwx xb xg xbe).1 S1024x2048.size (by sl_kernel_rfl) y

/-- The accumulator after a point with k = 0. -/
def accFirst (c : Dev nD) (i : grid0.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : atFirst i) (h7 : ¬atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) : Vec F S1024x2048 .f32 :=
  accView.read (Elt F) (accView.writes (Elt F) accView.junk (runFirst c i arg2 harg2 arg3 harg3 arg4 harg4 arg5 harg5 arg6 harg6 arg7 harg7 arg8 harg8 arg9 harg9 arg10 harg10 h0 h7 xh xwh xx xwx xb xg xbe).1)

theorem accCover_mid (c : Dev nD) (i : grid0.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : ¬atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) (y : S1024x2048.Idx) :
    ∃ pc ∈ (runMid c i arg2 harg2 arg3 harg3 arg4 harg4 arg5 harg5 arg6 harg6 arg7 harg7 arg8 harg8 arg9 harg9 arg10 harg10 h0 h7 xh xwh xx xwx xb xg xbe xa).1, y ∈ pc.1.set :=
  View.cover_of_tiledL (runMid c i arg2 harg2 arg3 harg3 arg4 harg4 arg5 harg5 arg6 harg6 arg7 harg7 arg8 harg8 arg9 harg9 arg10 harg10 h0 h7 xh xwh xx xwx xb xg xbe xa).1 S1024x2048.size (by sl_kernel_rfl) y

/-- The accumulator after a point with 0 < k < 7. -/
def accMid (c : Dev nD) (i : grid0.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : ¬atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) : Vec F S1024x2048 .f32 :=
  accView.read (Elt F) (accView.writes (Elt F) accView.junk (runMid c i arg2 harg2 arg3 harg3 arg4 harg4 arg5 harg5 arg6 harg6 arg7 harg7 arg8 harg8 arg9 harg9 arg10 harg10 h0 h7 xh xwh xx xwx xb xg xbe xa).1)

theorem outCover_last (c : Dev nD) (i : grid0.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) (y : S1024x2048.Idx) :
    ∃ pc ∈ (runLast c i arg2 harg2 arg3 harg3 arg4 harg4 arg5 harg5 arg6 harg6 arg7 harg7 arg8 harg8 arg9 harg9 arg10 harg10 h0 h7 xh xwh xx xwx xb xg xbe xa).1, y ∈ pc.1.set :=
  View.cover_of_tiledL (runLast c i arg2 harg2 arg3 harg3 arg4 harg4 arg5 harg5 arg6 harg6 arg7 harg7 arg8 harg8 arg9 harg9 arg10 harg10 h0 h7 xh xwh xx xwx xb xg xbe xa).1 S1024x2048.size (by sl_kernel_rfl) y

/-- The output buffer after a point with k = 7. -/
def outLast (c : Dev nD) (i : grid0.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) : Vec F S1024x2048 .f32 :=
  outView.read (Elt F) (outView.writes (Elt F) outView.junk (runLast c i arg2 harg2 arg3 harg3 arg4 harg4 arg5 harg5 arg6 harg6 arg7 harg7 arg8 harg8 arg9 harg9 arg10 harg10 h0 h7 xh xwh xx xwx xb xg xbe xa).1)

theorem accCover_last (c : Dev nD) (i : grid0.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) (y : S1024x2048.Idx) :
    ∃ pc ∈ (runLast c i arg2 harg2 arg3 harg3 arg4 harg4 arg5 harg5 arg6 harg6 arg7 harg7 arg8 harg8 arg9 harg9 arg10 harg10 h0 h7 xh xwh xx xwx xb xg xbe xa).2.1, y ∈ pc.1.set :=
  View.cover_of_tiledL (runLast c i arg2 harg2 arg3 harg3 arg4 harg4 arg5 harg5 arg6 harg6 arg7 harg7 arg8 harg8 arg9 harg9 arg10 harg10 h0 h7 xh xwh xx xwx xb xg xbe xa).2.1 S1024x2048.size (by sl_kernel_rfl) y

/-- The accumulator after a point with k = 7. -/
def accLast (c : Dev nD) (i : grid0.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) : Vec F S1024x2048 .f32 :=
  accView.read (Elt F) (accView.writes (Elt F) accView.junk (runLast c i arg2 harg2 arg3 harg3 arg4 harg4 arg5 harg5 arg6 harg6 arg7 harg7 arg8 harg8 arg9 harg9 arg10 harg10 h0 h7 xh xwh xx xwx xb xg xbe xa).2.1)

/-! ## Point by point -/

/-- After the body at position `n`: the output buffer (meaningful at k = 7 only; elsewhere nothing consults it) and the
    accumulator. -/
def heldAt (c : Dev nD) : (n : ℕ) → n < cfg0.N → Vec F S1024x2048 .f32 × Vec F S1024x2048 .f32
  | 0, hn => (outView.read (Elt F) outView.junk,
      accFirst c (grid0.coords ⟨0, hn⟩) (m_h ⟨0, hn⟩) (hm_h ⟨0, hn⟩) (m_wh ⟨0, hn⟩) (hm_wh ⟨0, hn⟩) (m_x ⟨0, hn⟩) (hm_x ⟨0, hn⟩) (m_wx ⟨0, hn⟩) (hm_wx ⟨0, hn⟩) (m_b ⟨0, hn⟩) (hm_b ⟨0, hn⟩) (m_g ⟨0, hn⟩) (hm_g ⟨0, hn⟩) (m_be ⟨0, hn⟩) (hm_be ⟨0, hn⟩) (m_out ⟨0, hn⟩) (hm_out ⟨0, hn⟩) accM (Memref.isWhole_whole _) ((atFirst_iff ⟨0, hn⟩).mpr (Nat.zero_mod _)) (fun h => (fun h => by (try dsimp only at h); omega) ((atLast_iff ⟨0, hn⟩).mp h)) (blockAt V c 0 ⟨0, hn⟩) (blockAt V c 1 ⟨0, hn⟩) (blockAt V c 2 ⟨0, hn⟩) (blockAt V c 3 ⟨0, hn⟩) (blockAt V c 4 ⟨0, hn⟩) (blockAt V c 5 ⟨0, hn⟩) (blockAt V c 6 ⟨0, hn⟩))
  | n + 1, hn =>
    if h0 : (n + 1) % 8 = 0 then
      if h7 : (n + 1) % 8 = 7 then
        False.elim (by omega)
      else
        (outView.read (Elt F) outView.junk,
          accFirst c (grid0.coords ⟨n + 1, hn⟩) (m_h ⟨n + 1, hn⟩) (hm_h ⟨n + 1, hn⟩) (m_wh ⟨n + 1, hn⟩) (hm_wh ⟨n + 1, hn⟩) (m_x ⟨n + 1, hn⟩) (hm_x ⟨n + 1, hn⟩) (m_wx ⟨n + 1, hn⟩) (hm_wx ⟨n + 1, hn⟩) (m_b ⟨n + 1, hn⟩) (hm_b ⟨n + 1, hn⟩) (m_g ⟨n + 1, hn⟩) (hm_g ⟨n + 1, hn⟩) (m_be ⟨n + 1, hn⟩) (hm_be ⟨n + 1, hn⟩) (m_out ⟨n + 1, hn⟩) (hm_out ⟨n + 1, hn⟩) accM (Memref.isWhole_whole _) ((atFirst_iff ⟨n + 1, hn⟩).mpr h0) (fun h => h7 ((atLast_iff ⟨n + 1, hn⟩).mp h)) (blockAt V c 0 ⟨n + 1, hn⟩) (blockAt V c 1 ⟨n + 1, hn⟩) (blockAt V c 2 ⟨n + 1, hn⟩) (blockAt V c 3 ⟨n + 1, hn⟩) (blockAt V c 4 ⟨n + 1, hn⟩) (blockAt V c 5 ⟨n + 1, hn⟩) (blockAt V c 6 ⟨n + 1, hn⟩))
    else
      if h7 : (n + 1) % 8 = 7 then
        (outLast c (grid0.coords ⟨n + 1, hn⟩) (m_h ⟨n + 1, hn⟩) (hm_h ⟨n + 1, hn⟩) (m_wh ⟨n + 1, hn⟩) (hm_wh ⟨n + 1, hn⟩) (m_x ⟨n + 1, hn⟩) (hm_x ⟨n + 1, hn⟩) (m_wx ⟨n + 1, hn⟩) (hm_wx ⟨n + 1, hn⟩) (m_b ⟨n + 1, hn⟩) (hm_b ⟨n + 1, hn⟩) (m_g ⟨n + 1, hn⟩) (hm_g ⟨n + 1, hn⟩) (m_be ⟨n + 1, hn⟩) (hm_be ⟨n + 1, hn⟩) (m_out ⟨n + 1, hn⟩) (hm_out ⟨n + 1, hn⟩) accM (Memref.isWhole_whole _) (fun h => h0 ((atFirst_iff ⟨n + 1, hn⟩).mp h)) ((atLast_iff ⟨n + 1, hn⟩).mpr h7) (blockAt V c 0 ⟨n + 1, hn⟩) (blockAt V c 1 ⟨n + 1, hn⟩) (blockAt V c 2 ⟨n + 1, hn⟩) (blockAt V c 3 ⟨n + 1, hn⟩) (blockAt V c 4 ⟨n + 1, hn⟩) (blockAt V c 5 ⟨n + 1, hn⟩) (blockAt V c 6 ⟨n + 1, hn⟩) (heldAt c n (Nat.lt_of_succ_lt hn)).2,
          accLast c (grid0.coords ⟨n + 1, hn⟩) (m_h ⟨n + 1, hn⟩) (hm_h ⟨n + 1, hn⟩) (m_wh ⟨n + 1, hn⟩) (hm_wh ⟨n + 1, hn⟩) (m_x ⟨n + 1, hn⟩) (hm_x ⟨n + 1, hn⟩) (m_wx ⟨n + 1, hn⟩) (hm_wx ⟨n + 1, hn⟩) (m_b ⟨n + 1, hn⟩) (hm_b ⟨n + 1, hn⟩) (m_g ⟨n + 1, hn⟩) (hm_g ⟨n + 1, hn⟩) (m_be ⟨n + 1, hn⟩) (hm_be ⟨n + 1, hn⟩) (m_out ⟨n + 1, hn⟩) (hm_out ⟨n + 1, hn⟩) accM (Memref.isWhole_whole _) (fun h => h0 ((atFirst_iff ⟨n + 1, hn⟩).mp h)) ((atLast_iff ⟨n + 1, hn⟩).mpr h7) (blockAt V c 0 ⟨n + 1, hn⟩) (blockAt V c 1 ⟨n + 1, hn⟩) (blockAt V c 2 ⟨n + 1, hn⟩) (blockAt V c 3 ⟨n + 1, hn⟩) (blockAt V c 4 ⟨n + 1, hn⟩) (blockAt V c 5 ⟨n + 1, hn⟩) (blockAt V c 6 ⟨n + 1, hn⟩) (heldAt c n (Nat.lt_of_succ_lt hn)).2)
      else
        (outView.read (Elt F) outView.junk,
          accMid c (grid0.coords ⟨n + 1, hn⟩) (m_h ⟨n + 1, hn⟩) (hm_h ⟨n + 1, hn⟩) (m_wh ⟨n + 1, hn⟩) (hm_wh ⟨n + 1, hn⟩) (m_x ⟨n + 1, hn⟩) (hm_x ⟨n + 1, hn⟩) (m_wx ⟨n + 1, hn⟩) (hm_wx ⟨n + 1, hn⟩) (m_b ⟨n + 1, hn⟩) (hm_b ⟨n + 1, hn⟩) (m_g ⟨n + 1, hn⟩) (hm_g ⟨n + 1, hn⟩) (m_be ⟨n + 1, hn⟩) (hm_be ⟨n + 1, hn⟩) (m_out ⟨n + 1, hn⟩) (hm_out ⟨n + 1, hn⟩) accM (Memref.isWhole_whole _) (fun h => h0 ((atFirst_iff ⟨n + 1, hn⟩).mp h)) (fun h => h7 ((atLast_iff ⟨n + 1, hn⟩).mp h)) (blockAt V c 0 ⟨n + 1, hn⟩) (blockAt V c 1 ⟨n + 1, hn⟩) (blockAt V c 2 ⟨n + 1, hn⟩) (blockAt V c 3 ⟨n + 1, hn⟩) (blockAt V c 4 ⟨n + 1, hn⟩) (blockAt V c 5 ⟨n + 1, hn⟩) (blockAt V c 6 ⟨n + 1, hn⟩) (heldAt c n (Nat.lt_of_succ_lt hn)).2)

theorem heldAt_first (c : Dev nD) (t : Fin cfg0.N) (h0 : t.val % 8 = 0) (h7 : ¬t.val % 8 = 7) :
    heldAt V c t.val t.isLt = (outView.read (Elt F) outView.junk,
      accFirst c (grid0.coords t) (m_h t) (hm_h t) (m_wh t) (hm_wh t) (m_x t) (hm_x t) (m_wx t) (hm_wx t) (m_b t) (hm_b t) (m_g t) (hm_g t) (m_be t) (hm_be t) (m_out t) (hm_out t) accM (Memref.isWhole_whole _) ((atFirst_iff t).mpr h0) (fun h => h7 ((atLast_iff t).mp h)) (blockAt V c 0 t) (blockAt V c 1 t) (blockAt V c 2 t) (blockAt V c 3 t) (blockAt V c 4 t) (blockAt V c 5 t) (blockAt V c 6 t)) := by
  obtain ⟨n, hn⟩ := t
  cases n with
  | zero => exact rfl
  | succ n => exact (dif_pos h0).trans ((dif_neg h7).trans rfl)

theorem heldAt_mid (c : Dev nD) (t : Fin cfg0.N) (h0 : ¬t.val % 8 = 0) (h7 : ¬t.val % 8 = 7) :
    heldAt V c t.val t.isLt = (outView.read (Elt F) outView.junk,
      accMid c (grid0.coords t) (m_h t) (hm_h t) (m_wh t) (hm_wh t) (m_x t) (hm_x t) (m_wx t) (hm_wx t) (m_b t) (hm_b t) (m_g t) (hm_g t) (m_be t) (hm_be t) (m_out t) (hm_out t) accM (Memref.isWhole_whole _) (fun h => h0 ((atFirst_iff t).mp h)) (fun h => h7 ((atLast_iff t).mp h)) (blockAt V c 0 t) (blockAt V c 1 t) (blockAt V c 2 t) (blockAt V c 3 t) (blockAt V c 4 t) (blockAt V c 5 t) (blockAt V c 6 t)
        (heldAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h7).trans rfl)

theorem heldAt_last (c : Dev nD) (t : Fin cfg0.N) (h0 : ¬t.val % 8 = 0) (h7 : t.val % 8 = 7) :
    heldAt V c t.val t.isLt = (outLast c (grid0.coords t) (m_h t) (hm_h t) (m_wh t) (hm_wh t) (m_x t) (hm_x t) (m_wx t) (hm_wx t) (m_b t) (hm_b t) (m_g t) (hm_g t) (m_be t) (hm_be t) (m_out t) (hm_out t) accM (Memref.isWhole_whole _) (fun h => h0 ((atFirst_iff t).mp h)) ((atLast_iff t).mpr h7) (blockAt V c 0 t) (blockAt V c 1 t) (blockAt V c 2 t) (blockAt V c 3 t) (blockAt V c 4 t) (blockAt V c 5 t) (blockAt V c 6 t)
        (heldAt V c (t.val - 1) (Nat.lt_of_le_of_lt (Nat.sub_le _ _) t.isLt)).2,
      accLast c (grid0.coords t) (m_h t) (hm_h t) (m_wh t) (hm_wh t) (m_x t) (hm_x t) (m_wx t) (hm_wx t) (m_b t) (hm_b t) (m_g t) (hm_g t) (m_be t) (hm_be t) (m_out t) (hm_out t) accM (Memref.isWhole_whole _) (fun h => h0 ((atFirst_iff t).mp h)) ((atLast_iff t).mpr h7) (blockAt V c 0 t) (blockAt V c 1 t) (blockAt V c 2 t) (blockAt V c 3 t) (blockAt V c 4 t) (blockAt V c 5 t) (blockAt V c 6 t)
        (heldAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h7).trans rfl)

/-! ## The invariant -/

/-- Before position `n`: at the start what the launch hands the region; afterwards the accumulator at what position
    `n − 1` left in it, the other scoped buffers no window stages, and the generator register. -/
def inv (c : Dev nD) : (n : ℕ) → n ≤ cfg0.N → sProp 𝕄
  | 0, _ => Pipeline.ΦA spec0 c
  | n + 1, hn => iprop(iprop(owns (c : Thread nD τ) accM fullShare ((heldAt V c n hn).2)
      ∗ Pipeline.scopedRestBut (Ix := Unit) (Name := ℕ) (U := UR sig nD τ) (Lvl := ℕ) (Val := Elt F) spec0 c [cc0_scratch0]) ∗ (∃ r, prngReg c r))

theorem inv_zero (c : Dev nD) (n : ℕ) (h : n ≤ cfg0.N) (hz : n = 0) : inv V c n h = Pipeline.ΦA spec0 c := by
  subst hz; rfl

theorem inv_succ (c : Dev nD) (n : ℕ) (hn : n < cfg0.N) :
    inv V c (n + 1) hn = iprop(iprop(owns (c : Thread nD τ) accM fullShare ((heldAt V c n hn).2)
      ∗ Pipeline.scopedRestBut (Ix := Unit) (Name := ℕ) (U := UR sig nD τ) (Lvl := ℕ) (Val := Elt F) spec0 c [cc0_scratch0]) ∗ (∃ r, prngReg c r)) := rfl

theorem inv_pos (c : Dev nD) (n : ℕ) (h : n ≤ cfg0.N) (hz : n ≠ 0) :
    inv V c n h = iprop(iprop(owns (c : Thread nD τ) accM fullShare ((heldAt V c (n - 1) (by omega)).2)
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- The region's proof data on core `c`: the arrays as the region finds them; after the body each input's buffer at its
    block and the output's at `heldAt`; the invariant above; nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => blockAt V c 6 t
    | ⟨7, _⟩ => (heldAt V c t.val t.isLt).1
  Φ t := inv V c t.val (Nat.le_of_lt_succ t.isLt)
  q _ := fullShare
  owed _ := 0

theorem dat_A (c : Dev nD) (w : Fin cfg0.W) : (dat V c).A w = V c (Pipeline.arrRef spec0 w) := by
  dsimp only [dat]

theorem inv_castSucc (c : Dev nD) (t : Fin cfg0.N) :
    (dat V c).Φ t.castSucc = inv V c t.val (Nat.le_of_lt t.isLt) := by
  dsimp only [dat]; simp only [Fin.coe_castSucc]

theorem after_h (c : Dev nD) (t : Fin cfg0.N) : (dat V c).after 0 t = blockAt V c 0 t := by dsimp only [dat]
theorem after_wh (c : Dev nD) (t : Fin cfg0.N) : (dat V c).after 1 t = blockAt V c 1 t := by dsimp only [dat]
theorem after_x (c : Dev nD) (t : Fin cfg0.N) : (dat V c).after 2 t = blockAt V c 2 t := by dsimp only [dat]
theorem after_wx (c : Dev nD) (t : Fin cfg0.N) : (dat V c).after 3 t = blockAt V c 3 t := by dsimp only [dat]
theorem after_b (c : Dev nD) (t : Fin cfg0.N) : (dat V c).after 4 t = blockAt V c 4 t := by dsimp only [dat]
theorem after_g (c : Dev nD) (t : Fin cfg0.N) : (dat V c).after 5 t = blockAt V c 5 t := by dsimp only [dat]
theorem after_be (c : Dev nD) (t : Fin cfg0.N) : (dat V c).after 6 t = blockAt V c 6 t := by dsimp only [dat]
theorem after_out (c : Dev nD) (t : Fin cfg0.N) : (dat V c).after 7 t = (heldAt V c t.val t.isLt).1 := by dsimp only [dat]

theorem before_h (c : Dev nD) (t : Fin cfg0.N) (d) : (dat V c).before 0 t d = blockAt V c 0 t :=
  in_h_of V (dat V c) (dat_A V c 0) (after_h V c) t d
theorem before_wh (c : Dev nD) (t : Fin cfg0.N) (d) : (dat V c).before 1 t d = blockAt V c 1 t :=
  in_wh_of V (dat V c) (dat_A V c 1) (after_wh V c) t d
theorem before_x (c : Dev nD) (t : Fin cfg0.N) (d) : (dat V c).before 2 t d = blockAt V c 2 t :=
  in_x_of V (dat V c) (dat_A V c 2) (after_x V c) t d
theorem before_wx (c : Dev nD) (t : Fin cfg0.N) (d) : (dat V c).before 3 t d = blockAt V c 3 t :=
  in_wx_of V (dat V c) (dat_A V c 3) (after_wx V c) t d
theorem before_b (c : Dev nD) (t : Fin cfg0.N) (d) : (dat V c).before 4 t d = blockAt V c 4 t :=
  in_b_of V (dat V c) (dat_A V c 4) (after_b V c) t d
theorem before_g (c : Dev nD) (t : Fin cfg0.N) (d) : (dat V c).before 5 t d = blockAt V c 5 t :=
  in_g_of V (dat V c) (dat_A V c 5) (after_g V c) t d
theorem before_be (c : Dev nD) (t : Fin cfg0.N) (d) : (dat V c).before 6 t d = blockAt V c 6 t :=
  in_be_of V (dat V c) (dat_A V c 6) (after_be V c) t d

end Cert.Kernel.R0

end
-- ==== Proof.K.R0.Body.lean ====
/-
  The forget gate logistic(LayerNorm(h·W_hf + x·W_xf + b_xf)), in the kernel as printed (pallas_call 0).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part four: the body obligation at every point.  The pipeline hands the body the invariant, the input buffers (each
  holding its block) and the output buffer.  Which case the point is in is decided by its position modulo 8; the case's
  triple then applies.  The accumulator comes out of the invariant at what the previous point left (at anything at the
  very first point) and goes back in at this point's contents; the remaining scoped buffers and the generator register
  pass through untouched.
-/
import proofs.«116394_j17480516895034_2_alg».proof.Proof.K.R0.Data

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (m_h t) fullShare ((dat V c).before 0 t d))
    ∗ (∃ d, owns (c : Thread nD τ) (m_wh t) fullShare ((dat V c).before 1 t d))
    ∗ (∃ d, owns (c : Thread nD τ) (m_x t) fullShare ((dat V c).before 2 t d))
    ∗ (∃ d, owns (c : Thread nD τ) (m_wx t) fullShare ((dat V c).before 3 t d))
    ∗ (∃ d, owns (c : Thread nD τ) (m_b t) fullShare ((dat V c).before 4 t d))
    ∗ (∃ d, owns (c : Thread nD τ) (m_g t) fullShare ((dat V c).before 5 t d))
    ∗ (∃ d, owns (c : Thread nD τ) (m_be t) fullShare ((dat V c).before 6 t d))
    ∗ (∃ d, owns (c : Thread nD τ) (m_out t) fullShare ((dat V c).before 7 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_h, before_wh, before_x, before_wx, before_b, before_g, before_be]
  rw [show (dat V c).owesAt () t.succ = (dat V c).owesAt () t.castSucc from rfl]
  rw [show (dat V c).Φ t.succ = inv V c (t.val + 1) t.isLt from rfl, inv_succ]
  have hN : t.val < 16 := lt_of_lt_of_eq t.isLt (show cfg0.N = 16 from N_0)
  rw [show (dat V c).leavesExact 0 t = owns (c : Thread nD τ) (m_h t) fullShare ((dat V c).after 0 t) from by
    unfold Dat.leavesExact; rw [live_h t], after_h]
  rw [show (dat V c).leavesExact 1 t = owns (c : Thread nD τ) (m_wh t) fullShare ((dat V c).after 1 t) from by
    unfold Dat.leavesExact; rw [live_wh t], after_wh]
  rw [show (dat V c).leavesExact 2 t = owns (c : Thread nD τ) (m_x t) fullShare ((dat V c).after 2 t) from by
    unfold Dat.leavesExact; rw [live_x t], after_x]
  rw [show (dat V c).leavesExact 3 t = owns (c : Thread nD τ) (m_wx t) fullShare ((dat V c).after 3 t) from by
    unfold Dat.leavesExact; rw [live_wx t], after_wx]
  rw [show (dat V c).leavesExact 4 t = owns (c : Thread nD τ) (m_b t) fullShare ((dat V c).after 4 t) from by
    unfold Dat.leavesExact; rw [live_b t], after_b]
  rw [show (dat V c).leavesExact 5 t = owns (c : Thread nD τ) (m_g t) fullShare ((dat V c).after 5 t) from by
    unfold Dat.leavesExact; rw [live_g t], after_g]
  rw [show (dat V c).leavesExact 6 t = owns (c : Thread nD τ) (m_be t) fullShare ((dat V c).after 6 t) from by
    unfold Dat.leavesExact; rw [live_be t], after_be]
  by_cases h0 : t.val % 8 = 0
  · have h7 : ¬t.val % 8 = 7 := by omega
    rw [Dat.leavesExact_idle (dat V c) 7 t (idle_out t (fun h => h7 ((atLast_iff t).mp h))) (noFlush_out t (fun h => h7 ((atLast_iff t).mp h)))]
    rw [heldAt_first V c t h0 h7]
    unfold accFirst; (try dsimp only)
    by_cases hz : t.val = 0
    · rw [inv_castSucc V c t, inv_zero V c _ _ hz, handed_eq]
      iintro ⟨⟨⟨HA, Hrest⟩, Hg⟩, Ho, ⟨%d0, H0⟩, ⟨%d1, H1⟩, ⟨%d2, H2⟩, ⟨%d3, H3⟩, ⟨%d4, H4⟩, ⟨%d5, H5⟩, ⟨%d6, H6⟩, ⟨%dO, HO⟩⟩
      iapply ((runFirst c (grid0.coords t) _ _ _ _ _ _ _ _ _ _ _ _ _ _ _ _ _ _ ((atFirst_iff t).mpr h0) (fun h => h7 ((atLast_iff t).mp h)) (blockAt V c 0 t) (blockAt V c 1 t) (blockAt V c 2 t) (blockAt V c 3 t) (blockAt V c 4 t) (blockAt V c 5 t) (blockAt V c 6 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HO]; · iexact HO
      isplitl [HA]; · iexact HA
      iintro ⟨H0, H1, H2, H3, H4, H5, H6, HO, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_first c _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact HO
    · rw [inv_castSucc V c t, inv_pos V c _ _ hz]
      iintro ⟨⟨⟨HA, Hrest⟩, Hg⟩, Ho, ⟨%d0, H0⟩, ⟨%d1, H1⟩, ⟨%d2, H2⟩, ⟨%d3, H3⟩, ⟨%d4, H4⟩, ⟨%d5, H5⟩, ⟨%d6, H6⟩, ⟨%dO, HO⟩⟩
      iapply ((runFirst c (grid0.coords t) _ _ _ _ _ _ _ _ _ _ _ _ _ _ _ _ _ _ ((atFirst_iff t).mpr h0) (fun h => h7 ((atLast_iff t).mp h)) (blockAt V c 0 t) (blockAt V c 1 t) (blockAt V c 2 t) (blockAt V c 3 t) (blockAt V c 4 t) (blockAt V c 5 t) (blockAt V c 6 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HO]; · iexact HO
      isplitl [HA]; · iexists _; iexact HA
      iintro ⟨H0, H1, H2, H3, H4, H5, H6, HO, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_first c _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact HO
  · have hz : t.val ≠ 0 := fun e => h0 (by rw [e])
    by_cases h7 : t.val % 8 = 7
    · rw [show (dat V c).leavesExact 7 t = owns (c : Thread nD τ) (m_out t) fullShare ((dat V c).after 7 t) from by
        unfold Dat.leavesExact; rw [live_out t ((atLast_iff t).mpr h7)], after_out]
      rw [heldAt_last V c t h0 h7]
      unfold outLast accLast; (try dsimp only)
      rw [inv_castSucc V c t, inv_pos V c _ _ hz]
      iintro ⟨⟨⟨HA, Hrest⟩, Hg⟩, Ho, ⟨%d0, H0⟩, ⟨%d1, H1⟩, ⟨%d2, H2⟩, ⟨%d3, H3⟩, ⟨%d4, H4⟩, ⟨%d5, H5⟩, ⟨%d6, H6⟩, ⟨%dO, HO⟩⟩
      iapply ((runLast c (grid0.coords t) _ _ _ _ _ _ _ _ _ _ _ _ _ _ _ _ _ _ (fun h => h0 ((atFirst_iff t).mp h)) ((atLast_iff t).mpr h7) (blockAt V c 0 t) (blockAt V c 1 t) (blockAt V c 2 t) (blockAt V c 3 t) (blockAt V c 4 t) (blockAt V c 5 t) (blockAt V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HO]; · iexists _; iexact HO
      isplitl [HA]; · iexact HA
      iintro ⟨H0, H1, H2, H3, H4, H5, H6, ⟨%eO, HO⟩, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_last c _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact HO
      ipureintro; exact View.read_writes_of_cover _ _ _ _ _ (outCover_last c _ _ _ _ _ _ _ _ _ _ _ _ _ _ _ _ _ _ _ _ _ _ _ _ _ _ _ _ _)
    · rw [Dat.leavesExact_idle (dat V c) 7 t (idle_out t (fun h => h7 ((atLast_iff t).mp h))) (noFlush_out t (fun h => h7 ((atLast_iff t).mp h)))]
      rw [heldAt_mid V c t h0 h7]
      unfold accMid; (try dsimp only)
      rw [inv_castSucc V c t, inv_pos V c _ _ hz]
      iintro ⟨⟨⟨HA, Hrest⟩, Hg⟩, Ho, ⟨%d0, H0⟩, ⟨%d1, H1⟩, ⟨%d2, H2⟩, ⟨%d3, H3⟩, ⟨%d4, H4⟩, ⟨%d5, H5⟩, ⟨%d6, H6⟩, ⟨%dO, HO⟩⟩
      iapply ((runMid c (grid0.coords t) _ _ _ _ _ _ _ _ _ _ _ _ _ _ _ _ _ _ (fun h => h0 ((atFirst_iff t).mp h)) (fun h => h7 ((atLast_iff t).mp h)) (blockAt V c 0 t) (blockAt V c 1 t) (blockAt V c 2 t) (blockAt V c 3 t) (blockAt V c 4 t) (blockAt V c 5 t) (blockAt V c 6 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HO]; · iexact HO
      isplitl [HA]; · iexact HA
      iintro ⟨H0, H1, H2, H3, H4, H5, H6, HO, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_mid c _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact HO

/-- The body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem inv_enter (c : Dev nD) : Pipeline.ΦA spec0 c ⊢ (dat V c).Φ 0 := by
  rw [show (dat V c).Φ 0 = inv V c 0 (Nat.zero_le _) from rfl, inv_zero V c 0 _ rfl]
  try exact Idealize.SL.BI.Entails.refl _

/-- After the last point the invariant gives that back: what the accumulator holds is forgotten. -/
theorem inv_leave (c : Dev nD) : (dat V c).Φ (Fin.last cfg0.N) ⊢ Pipeline.ΦA spec0 c := by
  have ht : (Fin.last cfg0.N).val ≠ 0 := by rw [Fin.val_last]; have : cfg0.N = 16 := N_0; omega
  rw [show (dat V c).Φ (Fin.last cfg0.N) = inv V c (Fin.last cfg0.N).val (Nat.le_of_lt_succ (Fin.last cfg0.N).isLt) from rfl,
    inv_pos V c _ _ ht, handed_eq]
  iintro ⟨⟨HA, Hrest⟩, Hg⟩
  isplitl [HA Hrest]
  · isplitl [HA]
    · iexists _; iexact HA
    iexact Hrest
  iexact Hg

end Cert.Kernel.R0

end
-- ==== Proof.K.R1.Base.lean ====
/-
  The candidate gate tanh(LayerNorm(h·W_hg + x·W_xg + b_xg)), in the kernel as printed (pallas_call 1).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part one, names: a window's block at a point read off the array as the region finds it; that an input's staging
  buffer holds its block at every point, fetched there or not; the two conditions k = 0 and k = 7 in closed form over
  the sixteen points; where the output window is idle; the staging and scratch memrefs the body is called with.
  Everything is stated at any float instance.
-/
import proofs.«116394_j17480516895034_2_alg».proof.Proof.Gen.Kernel.Launch
import proofs.«116394_j17480516895034_2_alg».proof.Proof.Gen.Kernel.Skeleton
import proofs.«116394_j17480516895034_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-- Window `w`'s block at point `t`, read off its array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's block is in its staging buffer at every point, for any proof data over these arrays whose body leaves it there. -/
theorem in_h_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's block is in its staging buffer at every point, for any proof data over these arrays whose body leaves it there. -/
theorem in_wh_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's block is in its staging buffer at every point, for any proof data over these arrays whose body leaves it there. -/
theorem in_x_of {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's block is in its staging buffer at every point, for any proof data over these arrays whose body leaves it there. -/
theorem in_wx_of {c : Dev nD} (dat : Dat τ (Elt F) Unit ℕ (UR sig nD τ) ℕ cfg1 c) (hA : dat.A 3 = V c (Pipeline.arrRef spec1 3))
    (hafter : ∀ t, dat.after 3 t = blockAt V c 3 t) (t : Fin cfg1.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's block is in its staging buffer at every point, for any proof data over these arrays whose body leaves it there. -/
theorem in_b_of {c : Dev nD} (dat : Dat τ (Elt F) Unit ℕ (UR sig nD τ) ℕ cfg1 c) (hA : dat.A 4 = V c (Pipeline.arrRef spec1 4))
    (hafter : ∀ t, dat.after 4 t = blockAt V c 4 t) (t : Fin cfg1.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- Input window 5's block is in its staging buffer at every point, for any proof data over these arrays whose body leaves it there. -/
theorem in_g_of {c : Dev nD} (dat : Dat τ (Elt F) Unit ℕ (UR sig nD τ) ℕ cfg1 c) (hA : dat.A 5 = V c (Pipeline.arrRef spec1 5))
    (hafter : ∀ t, dat.after 5 t = blockAt V c 5 t) (t : Fin cfg1.N) (d) : dat.before 5 t d = blockAt V c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-- Input window 6's block is in its staging buffer at every point, for any proof data over these arrays whose body leaves it there. -/
theorem in_be_of {c : Dev nD} (dat : Dat τ (Elt F) Unit ℕ (UR sig nD τ) ℕ cfg1 c) (hA : dat.A 6 = V c (Pipeline.arrRef spec1 6))
    (hafter : ∀ t, dat.after 6 t = blockAt V c 6 t) (t : Fin cfg1.N) (d) : dat.before 6 t d = blockAt V c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## The two conditions -/

/-- k = 0: the accumulator is cleared. -/
abbrev atFirst (i : grid1.Coords) : Prop := (Scalar.cmpi .ne (Scalar.extui (Scalar.cmpi .eq (BitVec.ofNat 32 (i 1).val) 0#32)) 0#32) = 1#1
theorem atFirst_iff : ∀ t : Fin cfg1.N, atFirst (grid1.coords t) ↔ t.val % 8 = 0 :=
  (by decide +kernel : ∀ t : Fin grid1.N, atFirst (grid1.coords t) ↔ t.val % 8 = 0)

/-- k = 7: the result is stored. -/
abbrev atLast (i : grid1.Coords) : Prop := k1_cond2 i = 1#1
theorem atLast_iff : ∀ t : Fin cfg1.N, atLast (grid1.coords t) ↔ t.val % 8 = 7 :=
  (by decide +kernel : ∀ t : Fin grid1.N, atLast (grid1.coords t) ↔ t.val % 8 = 7)

/-! ## Where the windows are idle -/

theorem live_h : ∀ t : Fin cfg1.N, cfg1.idle 0 (grid1.coords t) = false := by decide +kernel
theorem live_wh : ∀ t : Fin cfg1.N, cfg1.idle 1 (grid1.coords t) = false := by decide +kernel
theorem live_x : ∀ t : Fin cfg1.N, cfg1.idle 2 (grid1.coords t) = false := by decide +kernel
theorem live_wx : ∀ t : Fin cfg1.N, cfg1.idle 3 (grid1.coords t) = false := by decide +kernel
theorem live_b : ∀ t : Fin cfg1.N, cfg1.idle 4 (grid1.coords t) = false := by decide +kernel
theorem live_g : ∀ t : Fin cfg1.N, cfg1.idle 5 (grid1.coords t) = false := by decide +kernel
theorem live_be : ∀ t : Fin cfg1.N, cfg1.idle 6 (grid1.coords t) = false := by decide +kernel
/-- Away from k = 7 the output window is idle and not written back. -/
theorem idle_out : ∀ t : Fin cfg1.N, ¬atLast (grid1.coords t) → cfg1.idle 7 (grid1.coords t) = true := by decide +kernel
theorem noFlush_out : ∀ t : Fin cfg1.N, ¬atLast (grid1.coords t) → (cfg1.win 7).flush t = false := by decide +kernel
/-- At k = 7 it is live. -/
theorem live_out : ∀ t : Fin cfg1.N, atLast (grid1.coords t) → cfg1.idle 7 (grid1.coords t) = false := by decide +kernel

/-! ## The memrefs the body is called with -/

/-- One staging buffer of the output window, through which its contents are stated. -/
abbrev outView : View sig .tc .vmem S1024x2048 .f32 := (Memref.whole cc1_stg7_0 : Memref sig .tc .vmem S1024x2048 .f32).view
abbrev m_h (t : Fin cfg1.N) : Memref sig .tc .vmem S1024x256 .f32 := win1_0.stage (cfg1.slots t 0)
abbrev hm_h (t : Fin cfg1.N) : (m_h t).IsWhole := hstage1_0 ((cfg1.slots t 0).cast nbuf1_0)
abbrev m_wh (t : Fin cfg1.N) : Memref sig .tc .vmem S256x2048 .f32 := win1_1.stage (cfg1.slots t 1)
abbrev hm_wh (t : Fin cfg1.N) : (m_wh t).IsWhole := hstage1_1 ((cfg1.slots t 1).cast nbuf1_1)
abbrev m_x (t : Fin cfg1.N) : Memref sig .tc .vmem S1024x256 .f32 := win1_2.stage (cfg1.slots t 2)
abbrev hm_x (t : Fin cfg1.N) : (m_x t).IsWhole := hstage1_2 ((cfg1.slots t 2).cast nbuf1_2)
abbrev m_wx (t : Fin cfg1.N) : Memref sig .tc .vmem S256x2048 .f32 := win1_3.stage (cfg1.slots t 3)
abbrev hm_wx (t : Fin cfg1.N) : (m_wx t).IsWhole := hstage1_3 ((cfg1.slots t 3).cast nbuf1_3)
abbrev m_b (t : Fin cfg1.N) : Memref sig .tc .vmem S1x2048 .f32 := win1_4.stage (cfg1.slots t 4)
abbrev hm_b (t : Fin cfg1.N) : (m_b t).IsWhole := hstage1_4 ((cfg1.slots t 4).cast nbuf1_4)
abbrev m_g (t : Fin cfg1.N) : Memref sig .tc .vmem S1x2048 .f32 := win1_5.stage (cfg1.slots t 5)
abbrev hm_g (t : Fin cfg1.N) : (m_g t).IsWhole := hstage1_5 ((cfg1.slots t 5).cast nbuf1_5)
abbrev m_be (t : Fin cfg1.N) : Memref sig .tc .vmem S1x2048 .f32 := win1_6.stage (cfg1.slots t 6)
abbrev hm_be (t : Fin cfg1.N) : (m_be t).IsWhole := hstage1_6 ((cfg1.slots t 6).cast nbuf1_6)
abbrev m_out (t : Fin cfg1.N) : Memref sig .tc .vmem S1024x2048 .f32 := win1_7.stage (cfg1.slots t 7)
abbrev hm_out (t : Fin cfg1.N) : (m_out t).IsWhole := hstage1_7 ((cfg1.slots t 7).cast nbuf1_7)
/-- The accumulator: a whole scoped buffer of the kernel's own. -/
abbrev accM : Memref sig .tc .vmem S1024x2048 .f32 := Memref.whole cc1_scratch0
abbrev accView : View sig .tc .vmem S1024x2048 .f32 := accM.view

/-- What the launch hands the region, with the accumulator taken out of the scoped buffers no window stages. -/
theorem handed_eq (c : Dev nD) :
    (Pipeline.ΦA spec1 c : sProp 𝕄)
      = iprop(iprop(iprop((∃ d, owns (c : Thread nD τ) accM fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [accM, owns_whole]; try rfl

end Cert.Kernel.R1

end
-- ==== Proof.K.R1.Runs.lean ====
/-
  The candidate gate tanh(LayerNorm(h·W_hg + x·W_xg + b_xg)), in the kernel as printed (pallas_call 1).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part two: the body's triple in each of its three cases.  On whole staging memrefs holding the input blocks the body
  runs without fault and gives the input buffers back unchanged.  What it does to the accumulator and to the output
  buffer depends on the point:
    k = 0      the accumulator, whatever it held, ends as its stores leave it; the output buffer is not touched;
    0 < k < 7  the accumulator, at known contents, ends as its stores leave it; the output buffer is not touched;
    k = 7      as before, and the output buffer, whatever it held, ends as its one store leaves it.
  The stores are not transcribed: each case is a subtype whose witness — the list of pieces stored, last first — the
  symbolic run of the body finds.
-/
import proofs.«116394_j17480516895034_2_alg».proof.Proof.K.R1.Base

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- k = 0. -/
noncomputable def runFirst (c : Dev nD) (i : grid1.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : atFirst i) (h7 : ¬atLast i)
    (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) :
    { LA : List (View.Piece (Elt F) S1024x2048 .f32) //
      ∀ (xout : Vec F S1024x2048 .f32) (E : Set ℕ) (K : PUnit → sProp 𝕄),
        iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ owns (c : Thread nD τ) arg9 fullShare xout ∗ (∃ d, owns (c : Thread nD τ) arg10 fullShare d)
            ∗ (iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ owns (c : Thread nD τ) arg9 fullShare xout ∗ (∃ f, arg10.view.loc (c : Thread nD τ) ↦[arg10.view.set]{fullShare} arg10.view.writes (Elt F) f LA)) -∗ K ⟨⟩))
          ⊢ wp frame (wpE (defs₀ (F := F)) Variants.none c none) E (cc1_gate_kernel i arg2 harg2 arg3 harg3 arg4 harg4 arg5 harg5 arg6 harg6 arg7 harg7 arg8 harg8 arg9 harg9 arg10 harg10) K } := by
  refine ⟨?_, fun xout E K => ?run⟩
  case run =>
    simp only [cc1_gate_kernel_eq_skeleton]; unfold cc1_gate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo, %hfo, HO⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfo
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO]
    · iexists _; isplitr; · ipureintro; exact harg9.read_unread _
      iexact HO
    iexists _; iexact HS

set_option maxHeartbeats 2000000 in
/-- 0 < k < 7. -/
noncomputable def runMid (c : Dev nD) (i : grid1.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : ¬atLast i)
    (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) :
    { LA : List (View.Piece (Elt F) S1024x2048 .f32) //
      ∀ (xout : Vec F S1024x2048 .f32) (E : Set ℕ) (K : PUnit → sProp 𝕄),
        iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ owns (c : Thread nD τ) arg9 fullShare xout ∗ owns (c : Thread nD τ) arg10 fullShare xa
            ∗ (iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ owns (c : Thread nD τ) arg9 fullShare xout ∗ (∃ f, arg10.view.loc (c : Thread nD τ) ↦[arg10.view.set]{fullShare} arg10.view.writes (Elt F) f LA)) -∗ K ⟨⟩))
          ⊢ wp frame (wpE (defs₀ (F := F)) Variants.none c none) E (cc1_gate_kernel i arg2 harg2 arg3 harg3 arg4 harg4 arg5 harg5 arg6 harg6 arg7 harg7 arg8 harg8 arg9 harg9 arg10 harg10) K } := by
  refine ⟨?_, fun xout E K => ?run⟩
  case run =>
    simp only [cc1_gate_kernel_eq_skeleton]; unfold cc1_gate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfo; obtain rfl := harg10.eq_unread hfs
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO]
    · iexists _; isplitr; · ipureintro; exact harg9.read_unread _
      iexact HO
    iexists _; iexact HS

set_option maxHeartbeats 2000000 in
/-- k = 7. -/
noncomputable def runLast (c : Dev nD) (i : grid1.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i)
    (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) :
    Σ' (LO : List (View.Piece (Elt F) S1024x2048 .f32)), { LA : List (View.Piece (Elt F) S1024x2048 .f32) //
      ∀ (E : Set ℕ) (K : PUnit → sProp 𝕄),
        iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ (∃ d, owns (c : Thread nD τ) arg9 fullShare d) ∗ owns (c : Thread nD τ) arg10 fullShare xa
            ∗ (iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ (∃ f, arg9.view.loc (c : Thread nD τ) ↦[arg9.view.set]{fullShare} arg9.view.writes (Elt F) f LO) ∗ (∃ f, arg10.view.loc (c : Thread nD τ) ↦[arg10.view.set]{fullShare} arg10.view.writes (Elt F) f LA)) -∗ K ⟨⟩))
          ⊢ wp frame (wpE (defs₀ (F := F)) Variants.none c none) E (cc1_gate_kernel i arg2 harg2 arg3 harg3 arg4 harg4 arg5 harg5 arg6 harg6 arg7 harg7 arg8 harg8 arg9 harg9 arg10 harg10) K } := by
  refine ⟨?_, ?_, fun E K => ?run⟩
  case run =>
    simp only [cc1_gate_kernel_eq_skeleton]; unfold cc1_gate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%dO, %fo, -, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO]; · iexists _; iexact HO
    iexists _; iexact HS

end Cert.Kernel.R1

end
-- ==== Proof.K.R1.Data.lean ====
/-
  The candidate gate tanh(LayerNorm(h·W_hg + x·W_xg + b_xg)), in the kernel as printed (pallas_call 1).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part three: what the buffers hold point by point.  After the body at position n the accumulator holds what that
  point's case leaves in it — at k = 0 from nothing, at every later k from what position n − 1 left — and, at k = 7,
  the output buffer holds what its one store leaves.  The region's invariant carries the accumulator at these contents
  from one point to the next, beside the other scoped buffers no window stages and the generator register, neither of
  which the body touches.
-/
import proofs.«116394_j17480516895034_2_alg».proof.Proof.K.R1.Runs

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem accCover_first (c : Dev nD) (i : grid1.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : atFirst i) (h7 : ¬atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (y : S1024x2048.Idx) :
    ∃ pc ∈ (runFirst c i arg2 harg2 arg3 harg3 arg4 harg4 arg5 harg5 arg6 harg6 arg7 harg7 arg8 harg8 arg9 harg9 arg10 harg10 h0 h7 xh xwh xx xwx xb xg xbe).1, y ∈ pc.1.set :=
  View.cover_of_tiledL (runFirst c i arg2 harg2 arg3 harg3 arg4 harg4 arg5 harg5 arg6 harg6 arg7 harg7 arg8 harg8 arg9 harg9 arg10 harg10 h0 h7 xh xwh xx xwx xb xg xbe).1 S1024x2048.size (by sl_kernel_rfl) y

/-- The accumulator after a point with k = 0. -/
def accFirst (c : Dev nD) (i : grid1.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : atFirst i) (h7 : ¬atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) : Vec F S1024x2048 .f32 :=
  accView.read (Elt F) (accView.writes (Elt F) accView.junk (runFirst c i arg2 harg2 arg3 harg3 arg4 harg4 arg5 harg5 arg6 harg6 arg7 harg7 arg8 harg8 arg9 harg9 arg10 harg10 h0 h7 xh xwh xx xwx xb xg xbe).1)

theorem accCover_mid (c : Dev nD) (i : grid1.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : ¬atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) (y : S1024x2048.Idx) :
    ∃ pc ∈ (runMid c i arg2 harg2 arg3 harg3 arg4 harg4 arg5 harg5 arg6 harg6 arg7 harg7 arg8 harg8 arg9 harg9 arg10 harg10 h0 h7 xh xwh xx xwx xb xg xbe xa).1, y ∈ pc.1.set :=
  View.cover_of_tiledL (runMid c i arg2 harg2 arg3 harg3 arg4 harg4 arg5 harg5 arg6 harg6 arg7 harg7 arg8 harg8 arg9 harg9 arg10 harg10 h0 h7 xh xwh xx xwx xb xg xbe xa).1 S1024x2048.size (by sl_kernel_rfl) y

/-- The accumulator after a point with 0 < k < 7. -/
def accMid (c : Dev nD) (i : grid1.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : ¬atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) : Vec F S1024x2048 .f32 :=
  accView.read (Elt F) (accView.writes (Elt F) accView.junk (runMid c i arg2 harg2 arg3 harg3 arg4 harg4 arg5 harg5 arg6 harg6 arg7 harg7 arg8 harg8 arg9 harg9 arg10 harg10 h0 h7 xh xwh xx xwx xb xg xbe xa).1)

theorem outCover_last (c : Dev nD) (i : grid1.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) (y : S1024x2048.Idx) :
    ∃ pc ∈ (runLast c i arg2 harg2 arg3 harg3 arg4 harg4 arg5 harg5 arg6 harg6 arg7 harg7 arg8 harg8 arg9 harg9 arg10 harg10 h0 h7 xh xwh xx xwx xb xg xbe xa).1, y ∈ pc.1.set :=
  View.cover_of_tiledL (runLast c i arg2 harg2 arg3 harg3 arg4 harg4 arg5 harg5 arg6 harg6 arg7 harg7 arg8 harg8 arg9 harg9 arg10 harg10 h0 h7 xh xwh xx xwx xb xg xbe xa).1 S1024x2048.size (by sl_kernel_rfl) y

/-- The output buffer after a point with k = 7. -/
def outLast (c : Dev nD) (i : grid1.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) : Vec F S1024x2048 .f32 :=
  outView.read (Elt F) (outView.writes (Elt F) outView.junk (runLast c i arg2 harg2 arg3 harg3 arg4 harg4 arg5 harg5 arg6 harg6 arg7 harg7 arg8 harg8 arg9 harg9 arg10 harg10 h0 h7 xh xwh xx xwx xb xg xbe xa).1)

theorem accCover_last (c : Dev nD) (i : grid1.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) (y : S1024x2048.Idx) :
    ∃ pc ∈ (runLast c i arg2 harg2 arg3 harg3 arg4 harg4 arg5 harg5 arg6 harg6 arg7 harg7 arg8 harg8 arg9 harg9 arg10 harg10 h0 h7 xh xwh xx xwx xb xg xbe xa).2.1, y ∈ pc.1.set :=
  View.cover_of_tiledL (runLast c i arg2 harg2 arg3 harg3 arg4 harg4 arg5 harg5 arg6 harg6 arg7 harg7 arg8 harg8 arg9 harg9 arg10 harg10 h0 h7 xh xwh xx xwx xb xg xbe xa).2.1 S1024x2048.size (by sl_kernel_rfl) y

/-- The accumulator after a point with k = 7. -/
def accLast (c : Dev nD) (i : grid1.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) : Vec F S1024x2048 .f32 :=
  accView.read (Elt F) (accView.writes (Elt F) accView.junk (runLast c i arg2 harg2 arg3 harg3 arg4 harg4 arg5 harg5 arg6 harg6 arg7 harg7 arg8 harg8 arg9 harg9 arg10 harg10 h0 h7 xh xwh xx xwx xb xg xbe xa).2.1)

/-! ## Point by point -/

/-- After the body at position `n`: the output buffer (meaningful at k = 7 only; elsewhere nothing consults it) and the
    accumulator. -/
def heldAt (c : Dev nD) : (n : ℕ) → n < cfg1.N → Vec F S1024x2048 .f32 × Vec F S1024x2048 .f32
  | 0, hn => (outView.read (Elt F) outView.junk,
      accFirst c (grid1.coords ⟨0, hn⟩) (m_h ⟨0, hn⟩) (hm_h ⟨0, hn⟩) (m_wh ⟨0, hn⟩) (hm_wh ⟨0, hn⟩) (m_x ⟨0, hn⟩) (hm_x ⟨0, hn⟩) (m_wx ⟨0, hn⟩) (hm_wx ⟨0, hn⟩) (m_b ⟨0, hn⟩) (hm_b ⟨0, hn⟩) (m_g ⟨0, hn⟩) (hm_g ⟨0, hn⟩) (m_be ⟨0, hn⟩) (hm_be ⟨0, hn⟩) (m_out ⟨0, hn⟩) (hm_out ⟨0, hn⟩) accM (Memref.isWhole_whole _) ((atFirst_iff ⟨0, hn⟩).mpr (Nat.zero_mod _)) (fun h => (fun h => by (try dsimp only at h); omega) ((atLast_iff ⟨0, hn⟩).mp h)) (blockAt V c 0 ⟨0, hn⟩) (blockAt V c 1 ⟨0, hn⟩) (blockAt V c 2 ⟨0, hn⟩) (blockAt V c 3 ⟨0, hn⟩) (blockAt V c 4 ⟨0, hn⟩) (blockAt V c 5 ⟨0, hn⟩) (blockAt V c 6 ⟨0, hn⟩))
  | n + 1, hn =>
    if h0 : (n + 1) % 8 = 0 then
      if h7 : (n + 1) % 8 = 7 then
        False.elim (by omega)
      else
        (outView.read (Elt F) outView.junk,
          accFirst c (grid1.coords ⟨n + 1, hn⟩) (m_h ⟨n + 1, hn⟩) (hm_h ⟨n + 1, hn⟩) (m_wh ⟨n + 1, hn⟩) (hm_wh ⟨n + 1, hn⟩) (m_x ⟨n + 1, hn⟩) (hm_x ⟨n + 1, hn⟩) (m_wx ⟨n + 1, hn⟩) (hm_wx ⟨n + 1, hn⟩) (m_b ⟨n + 1, hn⟩) (hm_b ⟨n + 1, hn⟩) (m_g ⟨n + 1, hn⟩) (hm_g ⟨n + 1, hn⟩) (m_be ⟨n + 1, hn⟩) (hm_be ⟨n + 1, hn⟩) (m_out ⟨n + 1, hn⟩) (hm_out ⟨n + 1, hn⟩) accM (Memref.isWhole_whole _) ((atFirst_iff ⟨n + 1, hn⟩).mpr h0) (fun h => h7 ((atLast_iff ⟨n + 1, hn⟩).mp h)) (blockAt V c 0 ⟨n + 1, hn⟩) (blockAt V c 1 ⟨n + 1, hn⟩) (blockAt V c 2 ⟨n + 1, hn⟩) (blockAt V c 3 ⟨n + 1, hn⟩) (blockAt V c 4 ⟨n + 1, hn⟩) (blockAt V c 5 ⟨n + 1, hn⟩) (blockAt V c 6 ⟨n + 1, hn⟩))
    else
      if h7 : (n + 1) % 8 = 7 then
        (outLast c (grid1.coords ⟨n + 1, hn⟩) (m_h ⟨n + 1, hn⟩) (hm_h ⟨n + 1, hn⟩) (m_wh ⟨n + 1, hn⟩) (hm_wh ⟨n + 1, hn⟩) (m_x ⟨n + 1, hn⟩) (hm_x ⟨n + 1, hn⟩) (m_wx ⟨n + 1, hn⟩) (hm_wx ⟨n + 1, hn⟩) (m_b ⟨n + 1, hn⟩) (hm_b ⟨n + 1, hn⟩) (m_g ⟨n + 1, hn⟩) (hm_g ⟨n + 1, hn⟩) (m_be ⟨n + 1, hn⟩) (hm_be ⟨n + 1, hn⟩) (m_out ⟨n + 1, hn⟩) (hm_out ⟨n + 1, hn⟩) accM (Memref.isWhole_whole _) (fun h => h0 ((atFirst_iff ⟨n + 1, hn⟩).mp h)) ((atLast_iff ⟨n + 1, hn⟩).mpr h7) (blockAt V c 0 ⟨n + 1, hn⟩) (blockAt V c 1 ⟨n + 1, hn⟩) (blockAt V c 2 ⟨n + 1, hn⟩) (blockAt V c 3 ⟨n + 1, hn⟩) (blockAt V c 4 ⟨n + 1, hn⟩) (blockAt V c 5 ⟨n + 1, hn⟩) (blockAt V c 6 ⟨n + 1, hn⟩) (heldAt c n (Nat.lt_of_succ_lt hn)).2,
          accLast c (grid1.coords ⟨n + 1, hn⟩) (m_h ⟨n + 1, hn⟩) (hm_h ⟨n + 1, hn⟩) (m_wh ⟨n + 1, hn⟩) (hm_wh ⟨n + 1, hn⟩) (m_x ⟨n + 1, hn⟩) (hm_x ⟨n + 1, hn⟩) (m_wx ⟨n + 1, hn⟩) (hm_wx ⟨n + 1, hn⟩) (m_b ⟨n + 1, hn⟩) (hm_b ⟨n + 1, hn⟩) (m_g ⟨n + 1, hn⟩) (hm_g ⟨n + 1, hn⟩) (m_be ⟨n + 1, hn⟩) (hm_be ⟨n + 1, hn⟩) (m_out ⟨n + 1, hn⟩) (hm_out ⟨n + 1, hn⟩) accM (Memref.isWhole_whole _) (fun h => h0 ((atFirst_iff ⟨n + 1, hn⟩).mp h)) ((atLast_iff ⟨n + 1, hn⟩).mpr h7) (blockAt V c 0 ⟨n + 1, hn⟩) (blockAt V c 1 ⟨n + 1, hn⟩) (blockAt V c 2 ⟨n + 1, hn⟩) (blockAt V c 3 ⟨n + 1, hn⟩) (blockAt V c 4 ⟨n + 1, hn⟩) (blockAt V c 5 ⟨n + 1, hn⟩) (blockAt V c 6 ⟨n + 1, hn⟩) (heldAt c n (Nat.lt_of_succ_lt hn)).2)
      else
        (outView.read (Elt F) outView.junk,
          accMid c (grid1.coords ⟨n + 1, hn⟩) (m_h ⟨n + 1, hn⟩) (hm_h ⟨n + 1, hn⟩) (m_wh ⟨n + 1, hn⟩) (hm_wh ⟨n + 1, hn⟩) (m_x ⟨n + 1, hn⟩) (hm_x ⟨n + 1, hn⟩) (m_wx ⟨n + 1, hn⟩) (hm_wx ⟨n + 1, hn⟩) (m_b ⟨n + 1, hn⟩) (hm_b ⟨n + 1, hn⟩) (m_g ⟨n + 1, hn⟩) (hm_g ⟨n + 1, hn⟩) (m_be ⟨n + 1, hn⟩) (hm_be ⟨n + 1, hn⟩) (m_out ⟨n + 1, hn⟩) (hm_out ⟨n + 1, hn⟩) accM (Memref.isWhole_whole _) (fun h => h0 ((atFirst_iff ⟨n + 1, hn⟩).mp h)) (fun h => h7 ((atLast_iff ⟨n + 1, hn⟩).mp h)) (blockAt V c 0 ⟨n + 1, hn⟩) (blockAt V c 1 ⟨n + 1, hn⟩) (blockAt V c 2 ⟨n + 1, hn⟩) (blockAt V c 3 ⟨n + 1, hn⟩) (blockAt V c 4 ⟨n + 1, hn⟩) (blockAt V c 5 ⟨n + 1, hn⟩) (blockAt V c 6 ⟨n + 1, hn⟩) (heldAt c n (Nat.lt_of_succ_lt hn)).2)

theorem heldAt_first (c : Dev nD) (t : Fin cfg1.N) (h0 : t.val % 8 = 0) (h7 : ¬t.val % 8 = 7) :
    heldAt V c t.val t.isLt = (outView.read (Elt F) outView.junk,
      accFirst c (grid1.coords t) (m_h t) (hm_h t) (m_wh t) (hm_wh t) (m_x t) (hm_x t) (m_wx t) (hm_wx t) (m_b t) (hm_b t) (m_g t) (hm_g t) (m_be t) (hm_be t) (m_out t) (hm_out t) accM (Memref.isWhole_whole _) ((atFirst_iff t).mpr h0) (fun h => h7 ((atLast_iff t).mp h)) (blockAt V c 0 t) (blockAt V c 1 t) (blockAt V c 2 t) (blockAt V c 3 t) (blockAt V c 4 t) (blockAt V c 5 t) (blockAt V c 6 t)) := by
  obtain ⟨n, hn⟩ := t
  cases n with
  | zero => exact rfl
  | succ n => exact (dif_pos h0).trans ((dif_neg h7).trans rfl)

theorem heldAt_mid (c : Dev nD) (t : Fin cfg1.N) (h0 : ¬t.val % 8 = 0) (h7 : ¬t.val % 8 = 7) :
    heldAt V c t.val t.isLt = (outView.read (Elt F) outView.junk,
      accMid c (grid1.coords t) (m_h t) (hm_h t) (m_wh t) (hm_wh t) (m_x t) (hm_x t) (m_wx t) (hm_wx t) (m_b t) (hm_b t) (m_g t) (hm_g t) (m_be t) (hm_be t) (m_out t) (hm_out t) accM (Memref.isWhole_whole _) (fun h => h0 ((atFirst_iff t).mp h)) (fun h => h7 ((atLast_iff t).mp h)) (blockAt V c 0 t) (blockAt V c 1 t) (blockAt V c 2 t) (blockAt V c 3 t) (blockAt V c 4 t) (blockAt V c 5 t) (blockAt V c 6 t)
        (heldAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h7).trans rfl)

theorem heldAt_last (c : Dev nD) (t : Fin cfg1.N) (h0 : ¬t.val % 8 = 0) (h7 : t.val % 8 = 7) :
    heldAt V c t.val t.isLt = (outLast c (grid1.coords t) (m_h t) (hm_h t) (m_wh t) (hm_wh t) (m_x t) (hm_x t) (m_wx t) (hm_wx t) (m_b t) (hm_b t) (m_g t) (hm_g t) (m_be t) (hm_be t) (m_out t) (hm_out t) accM (Memref.isWhole_whole _) (fun h => h0 ((atFirst_iff t).mp h)) ((atLast_iff t).mpr h7) (blockAt V c 0 t) (blockAt V c 1 t) (blockAt V c 2 t) (blockAt V c 3 t) (blockAt V c 4 t) (blockAt V c 5 t) (blockAt V c 6 t)
        (heldAt V c (t.val - 1) (Nat.lt_of_le_of_lt (Nat.sub_le _ _) t.isLt)).2,
      accLast c (grid1.coords t) (m_h t) (hm_h t) (m_wh t) (hm_wh t) (m_x t) (hm_x t) (m_wx t) (hm_wx t) (m_b t) (hm_b t) (m_g t) (hm_g t) (m_be t) (hm_be t) (m_out t) (hm_out t) accM (Memref.isWhole_whole _) (fun h => h0 ((atFirst_iff t).mp h)) ((atLast_iff t).mpr h7) (blockAt V c 0 t) (blockAt V c 1 t) (blockAt V c 2 t) (blockAt V c 3 t) (blockAt V c 4 t) (blockAt V c 5 t) (blockAt V c 6 t)
        (heldAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h7).trans rfl)

/-! ## The invariant -/

/-- Before position `n`: at the start what the launch hands the region; afterwards the accumulator at what position
    `n − 1` left in it, the other scoped buffers no window stages, and the generator register. -/
def inv (c : Dev nD) : (n : ℕ) → n ≤ cfg1.N → sProp 𝕄
  | 0, _ => Pipeline.ΦA spec1 c
  | n + 1, hn => iprop(iprop(owns (c : Thread nD τ) accM fullShare ((heldAt V c n hn).2)
      ∗ Pipeline.scopedRestBut (Ix := Unit) (Name := ℕ) (U := UR sig nD τ) (Lvl := ℕ) (Val := Elt F) spec1 c [cc1_scratch0]) ∗ (∃ r, prngReg c r))

theorem inv_zero (c : Dev nD) (n : ℕ) (h : n ≤ cfg1.N) (hz : n = 0) : inv V c n h = Pipeline.ΦA spec1 c := by
  subst hz; rfl

theorem inv_succ (c : Dev nD) (n : ℕ) (hn : n < cfg1.N) :
    inv V c (n + 1) hn = iprop(iprop(owns (c : Thread nD τ) accM fullShare ((heldAt V c n hn).2)
      ∗ Pipeline.scopedRestBut (Ix := Unit) (Name := ℕ) (U := UR sig nD τ) (Lvl := ℕ) (Val := Elt F) spec1 c [cc1_scratch0]) ∗ (∃ r, prngReg c r)) := rfl

theorem inv_pos (c : Dev nD) (n : ℕ) (h : n ≤ cfg1.N) (hz : n ≠ 0) :
    inv V c n h = iprop(iprop(owns (c : Thread nD τ) accM fullShare ((heldAt V c (n - 1) (by omega)).2)
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The region's proof data on core `c`: the arrays as the region finds them; after the body each input's buffer at its
    block and the output's at `heldAt`; the invariant above; nothing owed; full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => blockAt V c 6 t
    | ⟨7, _⟩ => (heldAt V c t.val t.isLt).1
  Φ t := inv V c t.val (Nat.le_of_lt_succ t.isLt)
  q _ := fullShare
  owed _ := 0

theorem dat_A (c : Dev nD) (w : Fin cfg1.W) : (dat V c).A w = V c (Pipeline.arrRef spec1 w) := by
  dsimp only [dat]

theorem inv_castSucc (c : Dev nD) (t : Fin cfg1.N) :
    (dat V c).Φ t.castSucc = inv V c t.val (Nat.le_of_lt t.isLt) := by
  dsimp only [dat]; simp only [Fin.coe_castSucc]

theorem after_h (c : Dev nD) (t : Fin cfg1.N) : (dat V c).after 0 t = blockAt V c 0 t := by dsimp only [dat]
theorem after_wh (c : Dev nD) (t : Fin cfg1.N) : (dat V c).after 1 t = blockAt V c 1 t := by dsimp only [dat]
theorem after_x (c : Dev nD) (t : Fin cfg1.N) : (dat V c).after 2 t = blockAt V c 2 t := by dsimp only [dat]
theorem after_wx (c : Dev nD) (t : Fin cfg1.N) : (dat V c).after 3 t = blockAt V c 3 t := by dsimp only [dat]
theorem after_b (c : Dev nD) (t : Fin cfg1.N) : (dat V c).after 4 t = blockAt V c 4 t := by dsimp only [dat]
theorem after_g (c : Dev nD) (t : Fin cfg1.N) : (dat V c).after 5 t = blockAt V c 5 t := by dsimp only [dat]
theorem after_be (c : Dev nD) (t : Fin cfg1.N) : (dat V c).after 6 t = blockAt V c 6 t := by dsimp only [dat]
theorem after_out (c : Dev nD) (t : Fin cfg1.N) : (dat V c).after 7 t = (heldAt V c t.val t.isLt).1 := by dsimp only [dat]

theorem before_h (c : Dev nD) (t : Fin cfg1.N) (d) : (dat V c).before 0 t d = blockAt V c 0 t :=
  in_h_of V (dat V c) (dat_A V c 0) (after_h V c) t d
theorem before_wh (c : Dev nD) (t : Fin cfg1.N) (d) : (dat V c).before 1 t d = blockAt V c 1 t :=
  in_wh_of V (dat V c) (dat_A V c 1) (after_wh V c) t d
theorem before_x (c : Dev nD) (t : Fin cfg1.N) (d) : (dat V c).before 2 t d = blockAt V c 2 t :=
  in_x_of V (dat V c) (dat_A V c 2) (after_x V c) t d
theorem before_wx (c : Dev nD) (t : Fin cfg1.N) (d) : (dat V c).before 3 t d = blockAt V c 3 t :=
  in_wx_of V (dat V c) (dat_A V c 3) (after_wx V c) t d
theorem before_b (c : Dev nD) (t : Fin cfg1.N) (d) : (dat V c).before 4 t d = blockAt V c 4 t :=
  in_b_of V (dat V c) (dat_A V c 4) (after_b V c) t d
theorem before_g (c : Dev nD) (t : Fin cfg1.N) (d) : (dat V c).before 5 t d = blockAt V c 5 t :=
  in_g_of V (dat V c) (dat_A V c 5) (after_g V c) t d
theorem before_be (c : Dev nD) (t : Fin cfg1.N) (d) : (dat V c).before 6 t d = blockAt V c 6 t :=
  in_be_of V (dat V c) (dat_A V c 6) (after_be V c) t d

end Cert.Kernel.R1

end
-- ==== Proof.K.R1.Body.lean ====
/-
  The candidate gate tanh(LayerNorm(h·W_hg + x·W_xg + b_xg)), in the kernel as printed (pallas_call 1).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part four: the body obligation at every point.  The pipeline hands the body the invariant, the input buffers (each
  holding its block) and the output buffer.  Which case the point is in is decided by its position modulo 8; the case's
  triple then applies.  The accumulator comes out of the invariant at what the previous point left (at anything at the
  very first point) and goes back in at this point's contents; the remaining scoped buffers and the generator register
  pass through untouched.
-/
import proofs.«116394_j17480516895034_2_alg».proof.Proof.K.R1.Data

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (m_h t) fullShare ((dat V c).before 0 t d))
    ∗ (∃ d, owns (c : Thread nD τ) (m_wh t) fullShare ((dat V c).before 1 t d))
    ∗ (∃ d, owns (c : Thread nD τ) (m_x t) fullShare ((dat V c).before 2 t d))
    ∗ (∃ d, owns (c : Thread nD τ) (m_wx t) fullShare ((dat V c).before 3 t d))
    ∗ (∃ d, owns (c : Thread nD τ) (m_b t) fullShare ((dat V c).before 4 t d))
    ∗ (∃ d, owns (c : Thread nD τ) (m_g t) fullShare ((dat V c).before 5 t d))
    ∗ (∃ d, owns (c : Thread nD τ) (m_be t) fullShare ((dat V c).before 6 t d))
    ∗ (∃ d, owns (c : Thread nD τ) (m_out t) fullShare ((dat V c).before 7 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_h, before_wh, before_x, before_wx, before_b, before_g, before_be]
  rw [show (dat V c).owesAt () t.succ = (dat V c).owesAt () t.castSucc from rfl]
  rw [show (dat V c).Φ t.succ = inv V c (t.val + 1) t.isLt from rfl, inv_succ]
  have hN : t.val < 16 := lt_of_lt_of_eq t.isLt (show cfg1.N = 16 from N_1)
  rw [show (dat V c).leavesExact 0 t = owns (c : Thread nD τ) (m_h t) fullShare ((dat V c).after 0 t) from by
    unfold Dat.leavesExact; rw [live_h t], after_h]
  rw [show (dat V c).leavesExact 1 t = owns (c : Thread nD τ) (m_wh t) fullShare ((dat V c).after 1 t) from by
    unfold Dat.leavesExact; rw [live_wh t], after_wh]
  rw [show (dat V c).leavesExact 2 t = owns (c : Thread nD τ) (m_x t) fullShare ((dat V c).after 2 t) from by
    unfold Dat.leavesExact; rw [live_x t], after_x]
  rw [show (dat V c).leavesExact 3 t = owns (c : Thread nD τ) (m_wx t) fullShare ((dat V c).after 3 t) from by
    unfold Dat.leavesExact; rw [live_wx t], after_wx]
  rw [show (dat V c).leavesExact 4 t = owns (c : Thread nD τ) (m_b t) fullShare ((dat V c).after 4 t) from by
    unfold Dat.leavesExact; rw [live_b t], after_b]
  rw [show (dat V c).leavesExact 5 t = owns (c : Thread nD τ) (m_g t) fullShare ((dat V c).after 5 t) from by
    unfold Dat.leavesExact; rw [live_g t], after_g]
  rw [show (dat V c).leavesExact 6 t = owns (c : Thread nD τ) (m_be t) fullShare ((dat V c).after 6 t) from by
    unfold Dat.leavesExact; rw [live_be t], after_be]
  by_cases h0 : t.val % 8 = 0
  · have h7 : ¬t.val % 8 = 7 := by omega
    rw [Dat.leavesExact_idle (dat V c) 7 t (idle_out t (fun h => h7 ((atLast_iff t).mp h))) (noFlush_out t (fun h => h7 ((atLast_iff t).mp h)))]
    rw [heldAt_first V c t h0 h7]
    unfold accFirst; (try dsimp only)
    by_cases hz : t.val = 0
    · rw [inv_castSucc V c t, inv_zero V c _ _ hz, handed_eq]
      iintro ⟨⟨⟨HA, Hrest⟩, Hg⟩, Ho, ⟨%d0, H0⟩, ⟨%d1, H1⟩, ⟨%d2, H2⟩, ⟨%d3, H3⟩, ⟨%d4, H4⟩, ⟨%d5, H5⟩, ⟨%d6, H6⟩, ⟨%dO, HO⟩⟩
      iapply ((runFirst c (grid1.coords t) _ _ _ _ _ _ _ _ _ _ _ _ _ _ _ _ _ _ ((atFirst_iff t).mpr h0) (fun h => h7 ((atLast_iff t).mp h)) (blockAt V c 0 t) (blockAt V c 1 t) (blockAt V c 2 t) (blockAt V c 3 t) (blockAt V c 4 t) (blockAt V c 5 t) (blockAt V c 6 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HO]; · iexact HO
      isplitl [HA]; · iexact HA
      iintro ⟨H0, H1, H2, H3, H4, H5, H6, HO, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_first c _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact HO
    · rw [inv_castSucc V c t, inv_pos V c _ _ hz]
      iintro ⟨⟨⟨HA, Hrest⟩, Hg⟩, Ho, ⟨%d0, H0⟩, ⟨%d1, H1⟩, ⟨%d2, H2⟩, ⟨%d3, H3⟩, ⟨%d4, H4⟩, ⟨%d5, H5⟩, ⟨%d6, H6⟩, ⟨%dO, HO⟩⟩
      iapply ((runFirst c (grid1.coords t) _ _ _ _ _ _ _ _ _ _ _ _ _ _ _ _ _ _ ((atFirst_iff t).mpr h0) (fun h => h7 ((atLast_iff t).mp h)) (blockAt V c 0 t) (blockAt V c 1 t) (blockAt V c 2 t) (blockAt V c 3 t) (blockAt V c 4 t) (blockAt V c 5 t) (blockAt V c 6 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HO]; · iexact HO
      isplitl [HA]; · iexists _; iexact HA
      iintro ⟨H0, H1, H2, H3, H4, H5, H6, HO, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_first c _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact HO
  · have hz : t.val ≠ 0 := fun e => h0 (by rw [e])
    by_cases h7 : t.val % 8 = 7
    · rw [show (dat V c).leavesExact 7 t = owns (c : Thread nD τ) (m_out t) fullShare ((dat V c).after 7 t) from by
        unfold Dat.leavesExact; rw [live_out t ((atLast_iff t).mpr h7)], after_out]
      rw [heldAt_last V c t h0 h7]
      unfold outLast accLast; (try dsimp only)
      rw [inv_castSucc V c t, inv_pos V c _ _ hz]
      iintro ⟨⟨⟨HA, Hrest⟩, Hg⟩, Ho, ⟨%d0, H0⟩, ⟨%d1, H1⟩, ⟨%d2, H2⟩, ⟨%d3, H3⟩, ⟨%d4, H4⟩, ⟨%d5, H5⟩, ⟨%d6, H6⟩, ⟨%dO, HO⟩⟩
      iapply ((runLast c (grid1.coords t) _ _ _ _ _ _ _ _ _ _ _ _ _ _ _ _ _ _ (fun h => h0 ((atFirst_iff t).mp h)) ((atLast_iff t).mpr h7) (blockAt V c 0 t) (blockAt V c 1 t) (blockAt V c 2 t) (blockAt V c 3 t) (blockAt V c 4 t) (blockAt V c 5 t) (blockAt V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HO]; · iexists _; iexact HO
      isplitl [HA]; · iexact HA
      iintro ⟨H0, H1, H2, H3, H4, H5, H6, ⟨%eO, HO⟩, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_last c _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact HO
      ipureintro; exact View.read_writes_of_cover _ _ _ _ _ (outCover_last c _ _ _ _ _ _ _ _ _ _ _ _ _ _ _ _ _ _ _ _ _ _ _ _ _ _ _ _ _)
    · rw [Dat.leavesExact_idle (dat V c) 7 t (idle_out t (fun h => h7 ((atLast_iff t).mp h))) (noFlush_out t (fun h => h7 ((atLast_iff t).mp h)))]
      rw [heldAt_mid V c t h0 h7]
      unfold accMid; (try dsimp only)
      rw [inv_castSucc V c t, inv_pos V c _ _ hz]
      iintro ⟨⟨⟨HA, Hrest⟩, Hg⟩, Ho, ⟨%d0, H0⟩, ⟨%d1, H1⟩, ⟨%d2, H2⟩, ⟨%d3, H3⟩, ⟨%d4, H4⟩, ⟨%d5, H5⟩, ⟨%d6, H6⟩, ⟨%dO, HO⟩⟩
      iapply ((runMid c (grid1.coords t) _ _ _ _ _ _ _ _ _ _ _ _ _ _ _ _ _ _ (fun h => h0 ((atFirst_iff t).mp h)) (fun h => h7 ((atLast_iff t).mp h)) (blockAt V c 0 t) (blockAt V c 1 t) (blockAt V c 2 t) (blockAt V c 3 t) (blockAt V c 4 t) (blockAt V c 5 t) (blockAt V c 6 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HO]; · iexact HO
      isplitl [HA]; · iexact HA
      iintro ⟨H0, H1, H2, H3, H4, H5, H6, HO, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_mid c _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact HO

/-- The body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem inv_enter (c : Dev nD) : Pipeline.ΦA spec1 c ⊢ (dat V c).Φ 0 := by
  rw [show (dat V c).Φ 0 = inv V c 0 (Nat.zero_le _) from rfl, inv_zero V c 0 _ rfl]
  try exact Idealize.SL.BI.Entails.refl _

/-- After the last point the invariant gives that back: what the accumulator holds is forgotten. -/
theorem inv_leave (c : Dev nD) : (dat V c).Φ (Fin.last cfg1.N) ⊢ Pipeline.ΦA spec1 c := by
  have ht : (Fin.last cfg1.N).val ≠ 0 := by rw [Fin.val_last]; have : cfg1.N = 16 := N_1; omega
  rw [show (dat V c).Φ (Fin.last cfg1.N) = inv V c (Fin.last cfg1.N).val (Nat.le_of_lt_succ (Fin.last cfg1.N).isLt) from rfl,
    inv_pos V c _ _ ht, handed_eq]
  iintro ⟨⟨HA, Hrest⟩, Hg⟩
  isplitl [HA Hrest]
  · isplitl [HA]
    · iexists _; iexact HA
    iexact Hrest
  iexact Hg

end Cert.Kernel.R1

end
-- ==== Proof.K.R2.Base.lean ====
/-
  The input gate logistic(LayerNorm(h·W_hi + x·W_xi + b_xi)), in the kernel as printed (pallas_call 2).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part one, names: a window's block at a point read off the array as the region finds it; that an input's staging
  buffer holds its block at every point, fetched there or not; the two conditions k = 0 and k = 7 in closed form over
  the sixteen points; where the output window is idle; the staging and scratch memrefs the body is called with.
  Everything is stated at any float instance.
-/
import proofs.«116394_j17480516895034_2_alg».proof.Proof.Gen.Kernel.Launch
import proofs.«116394_j17480516895034_2_alg».proof.Proof.Gen.Kernel.Skeleton
import proofs.«116394_j17480516895034_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-- Window `w`'s block at point `t`, read off its array as the region finds it. -/
def blockAt (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's block is in its staging buffer at every point, for any proof data over these arrays whose body leaves it there. -/
theorem in_h_of {c : Dev nD} (dat : Dat τ (Elt F) Unit ℕ (UR sig nD τ) ℕ cfg2 c) (hA : dat.A 0 = V c (Pipeline.arrRef spec2 0))
    (hafter : ∀ t, dat.after 0 t = blockAt V c 0 t) (t : Fin cfg2.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's block is in its staging buffer at every point, for any proof data over these arrays whose body leaves it there. -/
theorem in_wh_of {c : Dev nD} (dat : Dat τ (Elt F) Unit ℕ (UR sig nD τ) ℕ cfg2 c) (hA : dat.A 1 = V c (Pipeline.arrRef spec2 1))
    (hafter : ∀ t, dat.after 1 t = blockAt V c 1 t) (t : Fin cfg2.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's block is in its staging buffer at every point, for any proof data over these arrays whose body leaves it there. -/
theorem in_x_of {c : Dev nD} (dat : Dat τ (Elt F) Unit ℕ (UR sig nD τ) ℕ cfg2 c) (hA : dat.A 2 = V c (Pipeline.arrRef spec2 2))
    (hafter : ∀ t, dat.after 2 t = blockAt V c 2 t) (t : Fin cfg2.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's block is in its staging buffer at every point, for any proof data over these arrays whose body leaves it there. -/
theorem in_wx_of {c : Dev nD} (dat : Dat τ (Elt F) Unit ℕ (UR sig nD τ) ℕ cfg2 c) (hA : dat.A 3 = V c (Pipeline.arrRef spec2 3))
    (hafter : ∀ t, dat.after 3 t = blockAt V c 3 t) (t : Fin cfg2.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's block is in its staging buffer at every point, for any proof data over these arrays whose body leaves it there. -/
theorem in_b_of {c : Dev nD} (dat : Dat τ (Elt F) Unit ℕ (UR sig nD τ) ℕ cfg2 c) (hA : dat.A 4 = V c (Pipeline.arrRef spec2 4))
    (hafter : ∀ t, dat.after 4 t = blockAt V c 4 t) (t : Fin cfg2.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- Input window 5's block is in its staging buffer at every point, for any proof data over these arrays whose body leaves it there. -/
theorem in_g_of {c : Dev nD} (dat : Dat τ (Elt F) Unit ℕ (UR sig nD τ) ℕ cfg2 c) (hA : dat.A 5 = V c (Pipeline.arrRef spec2 5))
    (hafter : ∀ t, dat.after 5 t = blockAt V c 5 t) (t : Fin cfg2.N) (d) : dat.before 5 t d = blockAt V c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-- Input window 6's block is in its staging buffer at every point, for any proof data over these arrays whose body leaves it there. -/
theorem in_be_of {c : Dev nD} (dat : Dat τ (Elt F) Unit ℕ (UR sig nD τ) ℕ cfg2 c) (hA : dat.A 6 = V c (Pipeline.arrRef spec2 6))
    (hafter : ∀ t, dat.after 6 t = blockAt V c 6 t) (t : Fin cfg2.N) (d) : dat.before 6 t d = blockAt V c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## The two conditions -/

/-- k = 0: the accumulator is cleared. -/
abbrev atFirst (i : grid2.Coords) : Prop := (Scalar.cmpi .ne (Scalar.extui (Scalar.cmpi .eq (BitVec.ofNat 32 (i 1).val) 0#32)) 0#32) = 1#1
theorem atFirst_iff : ∀ t : Fin cfg2.N, atFirst (grid2.coords t) ↔ t.val % 8 = 0 :=
  (by decide +kernel : ∀ t : Fin grid2.N, atFirst (grid2.coords t) ↔ t.val % 8 = 0)

/-- k = 7: the result is stored. -/
abbrev atLast (i : grid2.Coords) : Prop := k2_cond2 i = 1#1
theorem atLast_iff : ∀ t : Fin cfg2.N, atLast (grid2.coords t) ↔ t.val % 8 = 7 :=
  (by decide +kernel : ∀ t : Fin grid2.N, atLast (grid2.coords t) ↔ t.val % 8 = 7)

/-! ## Where the windows are idle -/

theorem live_h : ∀ t : Fin cfg2.N, cfg2.idle 0 (grid2.coords t) = false := by decide +kernel
theorem live_wh : ∀ t : Fin cfg2.N, cfg2.idle 1 (grid2.coords t) = false := by decide +kernel
theorem live_x : ∀ t : Fin cfg2.N, cfg2.idle 2 (grid2.coords t) = false := by decide +kernel
theorem live_wx : ∀ t : Fin cfg2.N, cfg2.idle 3 (grid2.coords t) = false := by decide +kernel
theorem live_b : ∀ t : Fin cfg2.N, cfg2.idle 4 (grid2.coords t) = false := by decide +kernel
theorem live_g : ∀ t : Fin cfg2.N, cfg2.idle 5 (grid2.coords t) = false := by decide +kernel
theorem live_be : ∀ t : Fin cfg2.N, cfg2.idle 6 (grid2.coords t) = false := by decide +kernel
/-- Away from k = 7 the output window is idle and not written back. -/
theorem idle_out : ∀ t : Fin cfg2.N, ¬atLast (grid2.coords t) → cfg2.idle 7 (grid2.coords t) = true := by decide +kernel
theorem noFlush_out : ∀ t : Fin cfg2.N, ¬atLast (grid2.coords t) → (cfg2.win 7).flush t = false := by decide +kernel
/-- At k = 7 it is live. -/
theorem live_out : ∀ t : Fin cfg2.N, atLast (grid2.coords t) → cfg2.idle 7 (grid2.coords t) = false := by decide +kernel

/-! ## The memrefs the body is called with -/

/-- One staging buffer of the output window, through which its contents are stated. -/
abbrev outView : View sig .tc .vmem S1024x2048 .f32 := (Memref.whole cc2_stg7_0 : Memref sig .tc .vmem S1024x2048 .f32).view
abbrev m_h (t : Fin cfg2.N) : Memref sig .tc .vmem S1024x256 .f32 := win2_0.stage (cfg2.slots t 0)
abbrev hm_h (t : Fin cfg2.N) : (m_h t).IsWhole := hstage2_0 ((cfg2.slots t 0).cast nbuf2_0)
abbrev m_wh (t : Fin cfg2.N) : Memref sig .tc .vmem S256x2048 .f32 := win2_1.stage (cfg2.slots t 1)
abbrev hm_wh (t : Fin cfg2.N) : (m_wh t).IsWhole := hstage2_1 ((cfg2.slots t 1).cast nbuf2_1)
abbrev m_x (t : Fin cfg2.N) : Memref sig .tc .vmem S1024x256 .f32 := win2_2.stage (cfg2.slots t 2)
abbrev hm_x (t : Fin cfg2.N) : (m_x t).IsWhole := hstage2_2 ((cfg2.slots t 2).cast nbuf2_2)
abbrev m_wx (t : Fin cfg2.N) : Memref sig .tc .vmem S256x2048 .f32 := win2_3.stage (cfg2.slots t 3)
abbrev hm_wx (t : Fin cfg2.N) : (m_wx t).IsWhole := hstage2_3 ((cfg2.slots t 3).cast nbuf2_3)
abbrev m_b (t : Fin cfg2.N) : Memref sig .tc .vmem S1x2048 .f32 := win2_4.stage (cfg2.slots t 4)
abbrev hm_b (t : Fin cfg2.N) : (m_b t).IsWhole := hstage2_4 ((cfg2.slots t 4).cast nbuf2_4)
abbrev m_g (t : Fin cfg2.N) : Memref sig .tc .vmem S1x2048 .f32 := win2_5.stage (cfg2.slots t 5)
abbrev hm_g (t : Fin cfg2.N) : (m_g t).IsWhole := hstage2_5 ((cfg2.slots t 5).cast nbuf2_5)
abbrev m_be (t : Fin cfg2.N) : Memref sig .tc .vmem S1x2048 .f32 := win2_6.stage (cfg2.slots t 6)
abbrev hm_be (t : Fin cfg2.N) : (m_be t).IsWhole := hstage2_6 ((cfg2.slots t 6).cast nbuf2_6)
abbrev m_out (t : Fin cfg2.N) : Memref sig .tc .vmem S1024x2048 .f32 := win2_7.stage (cfg2.slots t 7)
abbrev hm_out (t : Fin cfg2.N) : (m_out t).IsWhole := hstage2_7 ((cfg2.slots t 7).cast nbuf2_7)
/-- The accumulator: a whole scoped buffer of the kernel's own. -/
abbrev accM : Memref sig .tc .vmem S1024x2048 .f32 := Memref.whole cc2_scratch0
abbrev accView : View sig .tc .vmem S1024x2048 .f32 := accM.view

/-- What the launch hands the region, with the accumulator taken out of the scoped buffers no window stages. -/
theorem handed_eq (c : Dev nD) :
    (Pipeline.ΦA spec2 c : sProp 𝕄)
      = iprop(iprop(iprop((∃ d, owns (c : Thread nD τ) accM fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [accM, owns_whole]; try rfl

end Cert.Kernel.R2

end
-- ==== Proof.K.R2.Runs.lean ====
/-
  The input gate logistic(LayerNorm(h·W_hi + x·W_xi + b_xi)), in the kernel as printed (pallas_call 2).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part two: the body's triple in each of its three cases.  On whole staging memrefs holding the input blocks the body
  runs without fault and gives the input buffers back unchanged.  What it does to the accumulator and to the output
  buffer depends on the point:
    k = 0      the accumulator, whatever it held, ends as its stores leave it; the output buffer is not touched;
    0 < k < 7  the accumulator, at known contents, ends as its stores leave it; the output buffer is not touched;
    k = 7      as before, and the output buffer, whatever it held, ends as its one store leaves it.
  The stores are not transcribed: each case is a subtype whose witness — the list of pieces stored, last first — the
  symbolic run of the body finds.
-/
import proofs.«116394_j17480516895034_2_alg».proof.Proof.K.R2.Base

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- k = 0. -/
noncomputable def runFirst (c : Dev nD) (i : grid2.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : atFirst i) (h7 : ¬atLast i)
    (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) :
    { LA : List (View.Piece (Elt F) S1024x2048 .f32) //
      ∀ (xout : Vec F S1024x2048 .f32) (E : Set ℕ) (K : PUnit → sProp 𝕄),
        iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ owns (c : Thread nD τ) arg9 fullShare xout ∗ (∃ d, owns (c : Thread nD τ) arg10 fullShare d)
            ∗ (iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ owns (c : Thread nD τ) arg9 fullShare xout ∗ (∃ f, arg10.view.loc (c : Thread nD τ) ↦[arg10.view.set]{fullShare} arg10.view.writes (Elt F) f LA)) -∗ K ⟨⟩))
          ⊢ wp frame (wpE (defs₀ (F := F)) Variants.none c none) E (cc2_gate_kernel i arg2 harg2 arg3 harg3 arg4 harg4 arg5 harg5 arg6 harg6 arg7 harg7 arg8 harg8 arg9 harg9 arg10 harg10) K } := by
  refine ⟨?_, fun xout E K => ?run⟩
  case run =>
    simp only [cc2_gate_kernel_eq_skeleton]; unfold cc2_gate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo, %hfo, HO⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfo
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO]
    · iexists _; isplitr; · ipureintro; exact harg9.read_unread _
      iexact HO
    iexists _; iexact HS

set_option maxHeartbeats 2000000 in
/-- 0 < k < 7. -/
noncomputable def runMid (c : Dev nD) (i : grid2.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : ¬atLast i)
    (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) :
    { LA : List (View.Piece (Elt F) S1024x2048 .f32) //
      ∀ (xout : Vec F S1024x2048 .f32) (E : Set ℕ) (K : PUnit → sProp 𝕄),
        iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ owns (c : Thread nD τ) arg9 fullShare xout ∗ owns (c : Thread nD τ) arg10 fullShare xa
            ∗ (iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ owns (c : Thread nD τ) arg9 fullShare xout ∗ (∃ f, arg10.view.loc (c : Thread nD τ) ↦[arg10.view.set]{fullShare} arg10.view.writes (Elt F) f LA)) -∗ K ⟨⟩))
          ⊢ wp frame (wpE (defs₀ (F := F)) Variants.none c none) E (cc2_gate_kernel i arg2 harg2 arg3 harg3 arg4 harg4 arg5 harg5 arg6 harg6 arg7 harg7 arg8 harg8 arg9 harg9 arg10 harg10) K } := by
  refine ⟨?_, fun xout E K => ?run⟩
  case run =>
    simp only [cc2_gate_kernel_eq_skeleton]; unfold cc2_gate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfo; obtain rfl := harg10.eq_unread hfs
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO]
    · iexists _; isplitr; · ipureintro; exact harg9.read_unread _
      iexact HO
    iexists _; iexact HS

set_option maxHeartbeats 2000000 in
/-- k = 7. -/
noncomputable def runLast (c : Dev nD) (i : grid2.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i)
    (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) :
    Σ' (LO : List (View.Piece (Elt F) S1024x2048 .f32)), { LA : List (View.Piece (Elt F) S1024x2048 .f32) //
      ∀ (E : Set ℕ) (K : PUnit → sProp 𝕄),
        iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ (∃ d, owns (c : Thread nD τ) arg9 fullShare d) ∗ owns (c : Thread nD τ) arg10 fullShare xa
            ∗ (iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ (∃ f, arg9.view.loc (c : Thread nD τ) ↦[arg9.view.set]{fullShare} arg9.view.writes (Elt F) f LO) ∗ (∃ f, arg10.view.loc (c : Thread nD τ) ↦[arg10.view.set]{fullShare} arg10.view.writes (Elt F) f LA)) -∗ K ⟨⟩))
          ⊢ wp frame (wpE (defs₀ (F := F)) Variants.none c none) E (cc2_gate_kernel i arg2 harg2 arg3 harg3 arg4 harg4 arg5 harg5 arg6 harg6 arg7 harg7 arg8 harg8 arg9 harg9 arg10 harg10) K } := by
  refine ⟨?_, ?_, fun E K => ?run⟩
  case run =>
    simp only [cc2_gate_kernel_eq_skeleton]; unfold cc2_gate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%dO, %fo, -, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO]; · iexists _; iexact HO
    iexists _; iexact HS

end Cert.Kernel.R2

end
-- ==== Proof.K.R2.Data.lean ====
/-
  The input gate logistic(LayerNorm(h·W_hi + x·W_xi + b_xi)), in the kernel as printed (pallas_call 2).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part three: what the buffers hold point by point.  After the body at position n the accumulator holds what that
  point's case leaves in it — at k = 0 from nothing, at every later k from what position n − 1 left — and, at k = 7,
  the output buffer holds what its one store leaves.  The region's invariant carries the accumulator at these contents
  from one point to the next, beside the other scoped buffers no window stages and the generator register, neither of
  which the body touches.
-/
import proofs.«116394_j17480516895034_2_alg».proof.Proof.K.R2.Runs

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem accCover_first (c : Dev nD) (i : grid2.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : atFirst i) (h7 : ¬atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (y : S1024x2048.Idx) :
    ∃ pc ∈ (runFirst c i arg2 harg2 arg3 harg3 arg4 harg4 arg5 harg5 arg6 harg6 arg7 harg7 arg8 harg8 arg9 harg9 arg10 harg10 h0 h7 xh xwh xx xwx xb xg xbe).1, y ∈ pc.1.set :=
  View.cover_of_tiledL (runFirst c i arg2 harg2 arg3 harg3 arg4 harg4 arg5 harg5 arg6 harg6 arg7 harg7 arg8 harg8 arg9 harg9 arg10 harg10 h0 h7 xh xwh xx xwx xb xg xbe).1 S1024x2048.size (by sl_kernel_rfl) y

/-- The accumulator after a point with k = 0. -/
def accFirst (c : Dev nD) (i : grid2.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : atFirst i) (h7 : ¬atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) : Vec F S1024x2048 .f32 :=
  accView.read (Elt F) (accView.writes (Elt F) accView.junk (runFirst c i arg2 harg2 arg3 harg3 arg4 harg4 arg5 harg5 arg6 harg6 arg7 harg7 arg8 harg8 arg9 harg9 arg10 harg10 h0 h7 xh xwh xx xwx xb xg xbe).1)

theorem accCover_mid (c : Dev nD) (i : grid2.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : ¬atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) (y : S1024x2048.Idx) :
    ∃ pc ∈ (runMid c i arg2 harg2 arg3 harg3 arg4 harg4 arg5 harg5 arg6 harg6 arg7 harg7 arg8 harg8 arg9 harg9 arg10 harg10 h0 h7 xh xwh xx xwx xb xg xbe xa).1, y ∈ pc.1.set :=
  View.cover_of_tiledL (runMid c i arg2 harg2 arg3 harg3 arg4 harg4 arg5 harg5 arg6 harg6 arg7 harg7 arg8 harg8 arg9 harg9 arg10 harg10 h0 h7 xh xwh xx xwx xb xg xbe xa).1 S1024x2048.size (by sl_kernel_rfl) y

/-- The accumulator after a point with 0 < k < 7. -/
def accMid (c : Dev nD) (i : grid2.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : ¬atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) : Vec F S1024x2048 .f32 :=
  accView.read (Elt F) (accView.writes (Elt F) accView.junk (runMid c i arg2 harg2 arg3 harg3 arg4 harg4 arg5 harg5 arg6 harg6 arg7 harg7 arg8 harg8 arg9 harg9 arg10 harg10 h0 h7 xh xwh xx xwx xb xg xbe xa).1)

theorem outCover_last (c : Dev nD) (i : grid2.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) (y : S1024x2048.Idx) :
    ∃ pc ∈ (runLast c i arg2 harg2 arg3 harg3 arg4 harg4 arg5 harg5 arg6 harg6 arg7 harg7 arg8 harg8 arg9 harg9 arg10 harg10 h0 h7 xh xwh xx xwx xb xg xbe xa).1, y ∈ pc.1.set :=
  View.cover_of_tiledL (runLast c i arg2 harg2 arg3 harg3 arg4 harg4 arg5 harg5 arg6 harg6 arg7 harg7 arg8 harg8 arg9 harg9 arg10 harg10 h0 h7 xh xwh xx xwx xb xg xbe xa).1 S1024x2048.size (by sl_kernel_rfl) y

/-- The output buffer after a point with k = 7. -/
def outLast (c : Dev nD) (i : grid2.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) : Vec F S1024x2048 .f32 :=
  outView.read (Elt F) (outView.writes (Elt F) outView.junk (runLast c i arg2 harg2 arg3 harg3 arg4 harg4 arg5 harg5 arg6 harg6 arg7 harg7 arg8 harg8 arg9 harg9 arg10 harg10 h0 h7 xh xwh xx xwx xb xg xbe xa).1)

theorem accCover_last (c : Dev nD) (i : grid2.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) (y : S1024x2048.Idx) :
    ∃ pc ∈ (runLast c i arg2 harg2 arg3 harg3 arg4 harg4 arg5 harg5 arg6 harg6 arg7 harg7 arg8 harg8 arg9 harg9 arg10 harg10 h0 h7 xh xwh xx xwx xb xg xbe xa).2.1, y ∈ pc.1.set :=
  View.cover_of_tiledL (runLast c i arg2 harg2 arg3 harg3 arg4 harg4 arg5 harg5 arg6 harg6 arg7 harg7 arg8 harg8 arg9 harg9 arg10 harg10 h0 h7 xh xwh xx xwx xb xg xbe xa).2.1 S1024x2048.size (by sl_kernel_rfl) y

/-- The accumulator after a point with k = 7. -/
def accLast (c : Dev nD) (i : grid2.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) : Vec F S1024x2048 .f32 :=
  accView.read (Elt F) (accView.writes (Elt F) accView.junk (runLast c i arg2 harg2 arg3 harg3 arg4 harg4 arg5 harg5 arg6 harg6 arg7 harg7 arg8 harg8 arg9 harg9 arg10 harg10 h0 h7 xh xwh xx xwx xb xg xbe xa).2.1)

/-! ## Point by point -/

/-- After the body at position `n`: the output buffer (meaningful at k = 7 only; elsewhere nothing consults it) and the
    accumulator. -/
def heldAt (c : Dev nD) : (n : ℕ) → n < cfg2.N → Vec F S1024x2048 .f32 × Vec F S1024x2048 .f32
  | 0, hn => (outView.read (Elt F) outView.junk,
      accFirst c (grid2.coords ⟨0, hn⟩) (m_h ⟨0, hn⟩) (hm_h ⟨0, hn⟩) (m_wh ⟨0, hn⟩) (hm_wh ⟨0, hn⟩) (m_x ⟨0, hn⟩) (hm_x ⟨0, hn⟩) (m_wx ⟨0, hn⟩) (hm_wx ⟨0, hn⟩) (m_b ⟨0, hn⟩) (hm_b ⟨0, hn⟩) (m_g ⟨0, hn⟩) (hm_g ⟨0, hn⟩) (m_be ⟨0, hn⟩) (hm_be ⟨0, hn⟩) (m_out ⟨0, hn⟩) (hm_out ⟨0, hn⟩) accM (Memref.isWhole_whole _) ((atFirst_iff ⟨0, hn⟩).mpr (Nat.zero_mod _)) (fun h => (fun h => by (try dsimp only at h); omega) ((atLast_iff ⟨0, hn⟩).mp h)) (blockAt V c 0 ⟨0, hn⟩) (blockAt V c 1 ⟨0, hn⟩) (blockAt V c 2 ⟨0, hn⟩) (blockAt V c 3 ⟨0, hn⟩) (blockAt V c 4 ⟨0, hn⟩) (blockAt V c 5 ⟨0, hn⟩) (blockAt V c 6 ⟨0, hn⟩))
  | n + 1, hn =>
    if h0 : (n + 1) % 8 = 0 then
      if h7 : (n + 1) % 8 = 7 then
        False.elim (by omega)
      else
        (outView.read (Elt F) outView.junk,
          accFirst c (grid2.coords ⟨n + 1, hn⟩) (m_h ⟨n + 1, hn⟩) (hm_h ⟨n + 1, hn⟩) (m_wh ⟨n + 1, hn⟩) (hm_wh ⟨n + 1, hn⟩) (m_x ⟨n + 1, hn⟩) (hm_x ⟨n + 1, hn⟩) (m_wx ⟨n + 1, hn⟩) (hm_wx ⟨n + 1, hn⟩) (m_b ⟨n + 1, hn⟩) (hm_b ⟨n + 1, hn⟩) (m_g ⟨n + 1, hn⟩) (hm_g ⟨n + 1, hn⟩) (m_be ⟨n + 1, hn⟩) (hm_be ⟨n + 1, hn⟩) (m_out ⟨n + 1, hn⟩) (hm_out ⟨n + 1, hn⟩) accM (Memref.isWhole_whole _) ((atFirst_iff ⟨n + 1, hn⟩).mpr h0) (fun h => h7 ((atLast_iff ⟨n + 1, hn⟩).mp h)) (blockAt V c 0 ⟨n + 1, hn⟩) (blockAt V c 1 ⟨n + 1, hn⟩) (blockAt V c 2 ⟨n + 1, hn⟩) (blockAt V c 3 ⟨n + 1, hn⟩) (blockAt V c 4 ⟨n + 1, hn⟩) (blockAt V c 5 ⟨n + 1, hn⟩) (blockAt V c 6 ⟨n + 1, hn⟩))
    else
      if h7 : (n + 1) % 8 = 7 then
        (outLast c (grid2.coords ⟨n + 1, hn⟩) (m_h ⟨n + 1, hn⟩) (hm_h ⟨n + 1, hn⟩) (m_wh ⟨n + 1, hn⟩) (hm_wh ⟨n + 1, hn⟩) (m_x ⟨n + 1, hn⟩) (hm_x ⟨n + 1, hn⟩) (m_wx ⟨n + 1, hn⟩) (hm_wx ⟨n + 1, hn⟩) (m_b ⟨n + 1, hn⟩) (hm_b ⟨n + 1, hn⟩) (m_g ⟨n + 1, hn⟩) (hm_g ⟨n + 1, hn⟩) (m_be ⟨n + 1, hn⟩) (hm_be ⟨n + 1, hn⟩) (m_out ⟨n + 1, hn⟩) (hm_out ⟨n + 1, hn⟩) accM (Memref.isWhole_whole _) (fun h => h0 ((atFirst_iff ⟨n + 1, hn⟩).mp h)) ((atLast_iff ⟨n + 1, hn⟩).mpr h7) (blockAt V c 0 ⟨n + 1, hn⟩) (blockAt V c 1 ⟨n + 1, hn⟩) (blockAt V c 2 ⟨n + 1, hn⟩) (blockAt V c 3 ⟨n + 1, hn⟩) (blockAt V c 4 ⟨n + 1, hn⟩) (blockAt V c 5 ⟨n + 1, hn⟩) (blockAt V c 6 ⟨n + 1, hn⟩) (heldAt c n (Nat.lt_of_succ_lt hn)).2,
          accLast c (grid2.coords ⟨n + 1, hn⟩) (m_h ⟨n + 1, hn⟩) (hm_h ⟨n + 1, hn⟩) (m_wh ⟨n + 1, hn⟩) (hm_wh ⟨n + 1, hn⟩) (m_x ⟨n + 1, hn⟩) (hm_x ⟨n + 1, hn⟩) (m_wx ⟨n + 1, hn⟩) (hm_wx ⟨n + 1, hn⟩) (m_b ⟨n + 1, hn⟩) (hm_b ⟨n + 1, hn⟩) (m_g ⟨n + 1, hn⟩) (hm_g ⟨n + 1, hn⟩) (m_be ⟨n + 1, hn⟩) (hm_be ⟨n + 1, hn⟩) (m_out ⟨n + 1, hn⟩) (hm_out ⟨n + 1, hn⟩) accM (Memref.isWhole_whole _) (fun h => h0 ((atFirst_iff ⟨n + 1, hn⟩).mp h)) ((atLast_iff ⟨n + 1, hn⟩).mpr h7) (blockAt V c 0 ⟨n + 1, hn⟩) (blockAt V c 1 ⟨n + 1, hn⟩) (blockAt V c 2 ⟨n + 1, hn⟩) (blockAt V c 3 ⟨n + 1, hn⟩) (blockAt V c 4 ⟨n + 1, hn⟩) (blockAt V c 5 ⟨n + 1, hn⟩) (blockAt V c 6 ⟨n + 1, hn⟩) (heldAt c n (Nat.lt_of_succ_lt hn)).2)
      else
        (outView.read (Elt F) outView.junk,
          accMid c (grid2.coords ⟨n + 1, hn⟩) (m_h ⟨n + 1, hn⟩) (hm_h ⟨n + 1, hn⟩) (m_wh ⟨n + 1, hn⟩) (hm_wh ⟨n + 1, hn⟩) (m_x ⟨n + 1, hn⟩) (hm_x ⟨n + 1, hn⟩) (m_wx ⟨n + 1, hn⟩) (hm_wx ⟨n + 1, hn⟩) (m_b ⟨n + 1, hn⟩) (hm_b ⟨n + 1, hn⟩) (m_g ⟨n + 1, hn⟩) (hm_g ⟨n + 1, hn⟩) (m_be ⟨n + 1, hn⟩) (hm_be ⟨n + 1, hn⟩) (m_out ⟨n + 1, hn⟩) (hm_out ⟨n + 1, hn⟩) accM (Memref.isWhole_whole _) (fun h => h0 ((atFirst_iff ⟨n + 1, hn⟩).mp h)) (fun h => h7 ((atLast_iff ⟨n + 1, hn⟩).mp h)) (blockAt V c 0 ⟨n + 1, hn⟩) (blockAt V c 1 ⟨n + 1, hn⟩) (blockAt V c 2 ⟨n + 1, hn⟩) (blockAt V c 3 ⟨n + 1, hn⟩) (blockAt V c 4 ⟨n + 1, hn⟩) (blockAt V c 5 ⟨n + 1, hn⟩) (blockAt V c 6 ⟨n + 1, hn⟩) (heldAt c n (Nat.lt_of_succ_lt hn)).2)

theorem heldAt_first (c : Dev nD) (t : Fin cfg2.N) (h0 : t.val % 8 = 0) (h7 : ¬t.val % 8 = 7) :
    heldAt V c t.val t.isLt = (outView.read (Elt F) outView.junk,
      accFirst c (grid2.coords t) (m_h t) (hm_h t) (m_wh t) (hm_wh t) (m_x t) (hm_x t) (m_wx t) (hm_wx t) (m_b t) (hm_b t) (m_g t) (hm_g t) (m_be t) (hm_be t) (m_out t) (hm_out t) accM (Memref.isWhole_whole _) ((atFirst_iff t).mpr h0) (fun h => h7 ((atLast_iff t).mp h)) (blockAt V c 0 t) (blockAt V c 1 t) (blockAt V c 2 t) (blockAt V c 3 t) (blockAt V c 4 t) (blockAt V c 5 t) (blockAt V c 6 t)) := by
  obtain ⟨n, hn⟩ := t
  cases n with
  | zero => exact rfl
  | succ n => exact (dif_pos h0).trans ((dif_neg h7).trans rfl)

theorem heldAt_mid (c : Dev nD) (t : Fin cfg2.N) (h0 : ¬t.val % 8 = 0) (h7 : ¬t.val % 8 = 7) :
    heldAt V c t.val t.isLt = (outView.read (Elt F) outView.junk,
      accMid c (grid2.coords t) (m_h t) (hm_h t) (m_wh t) (hm_wh t) (m_x t) (hm_x t) (m_wx t) (hm_wx t) (m_b t) (hm_b t) (m_g t) (hm_g t) (m_be t) (hm_be t) (m_out t) (hm_out t) accM (Memref.isWhole_whole _) (fun h => h0 ((atFirst_iff t).mp h)) (fun h => h7 ((atLast_iff t).mp h)) (blockAt V c 0 t) (blockAt V c 1 t) (blockAt V c 2 t) (blockAt V c 3 t) (blockAt V c 4 t) (blockAt V c 5 t) (blockAt V c 6 t)
        (heldAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h7).trans rfl)

theorem heldAt_last (c : Dev nD) (t : Fin cfg2.N) (h0 : ¬t.val % 8 = 0) (h7 : t.val % 8 = 7) :
    heldAt V c t.val t.isLt = (outLast c (grid2.coords t) (m_h t) (hm_h t) (m_wh t) (hm_wh t) (m_x t) (hm_x t) (m_wx t) (hm_wx t) (m_b t) (hm_b t) (m_g t) (hm_g t) (m_be t) (hm_be t) (m_out t) (hm_out t) accM (Memref.isWhole_whole _) (fun h => h0 ((atFirst_iff t).mp h)) ((atLast_iff t).mpr h7) (blockAt V c 0 t) (blockAt V c 1 t) (blockAt V c 2 t) (blockAt V c 3 t) (blockAt V c 4 t) (blockAt V c 5 t) (blockAt V c 6 t)
        (heldAt V c (t.val - 1) (Nat.lt_of_le_of_lt (Nat.sub_le _ _) t.isLt)).2,
      accLast c (grid2.coords t) (m_h t) (hm_h t) (m_wh t) (hm_wh t) (m_x t) (hm_x t) (m_wx t) (hm_wx t) (m_b t) (hm_b t) (m_g t) (hm_g t) (m_be t) (hm_be t) (m_out t) (hm_out t) accM (Memref.isWhole_whole _) (fun h => h0 ((atFirst_iff t).mp h)) ((atLast_iff t).mpr h7) (blockAt V c 0 t) (blockAt V c 1 t) (blockAt V c 2 t) (blockAt V c 3 t) (blockAt V c 4 t) (blockAt V c 5 t) (blockAt V c 6 t)
        (heldAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h7).trans rfl)

/-! ## The invariant -/

/-- Before position `n`: at the start what the launch hands the region; afterwards the accumulator at what position
    `n − 1` left in it, the other scoped buffers no window stages, and the generator register. -/
def inv (c : Dev nD) : (n : ℕ) → n ≤ cfg2.N → sProp 𝕄
  | 0, _ => Pipeline.ΦA spec2 c
  | n + 1, hn => iprop(iprop(owns (c : Thread nD τ) accM fullShare ((heldAt V c n hn).2)
      ∗ Pipeline.scopedRestBut (Ix := Unit) (Name := ℕ) (U := UR sig nD τ) (Lvl := ℕ) (Val := Elt F) spec2 c [cc2_scratch0]) ∗ (∃ r, prngReg c r))

theorem inv_zero (c : Dev nD) (n : ℕ) (h : n ≤ cfg2.N) (hz : n = 0) : inv V c n h = Pipeline.ΦA spec2 c := by
  subst hz; rfl

theorem inv_succ (c : Dev nD) (n : ℕ) (hn : n < cfg2.N) :
    inv V c (n + 1) hn = iprop(iprop(owns (c : Thread nD τ) accM fullShare ((heldAt V c n hn).2)
      ∗ Pipeline.scopedRestBut (Ix := Unit) (Name := ℕ) (U := UR sig nD τ) (Lvl := ℕ) (Val := Elt F) spec2 c [cc2_scratch0]) ∗ (∃ r, prngReg c r)) := rfl

theorem inv_pos (c : Dev nD) (n : ℕ) (h : n ≤ cfg2.N) (hz : n ≠ 0) :
    inv V c n h = iprop(iprop(owns (c : Thread nD τ) accM fullShare ((heldAt V c (n - 1) (by omega)).2)
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The region's proof data on core `c`: the arrays as the region finds them; after the body each input's buffer at its
    block and the output's at `heldAt`; the invariant above; nothing owed; full shares. -/
def dat (c : Dev nD) : Dat τ (Elt F) Unit ℕ (UR sig nD τ) ℕ cfg2 c where
  A w := V c (Pipeline.arrRef spec2 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => blockAt V c 6 t
    | ⟨7, _⟩ => (heldAt V c t.val t.isLt).1
  Φ t := inv V c t.val (Nat.le_of_lt_succ t.isLt)
  q _ := fullShare
  owed _ := 0

theorem dat_A (c : Dev nD) (w : Fin cfg2.W) : (dat V c).A w = V c (Pipeline.arrRef spec2 w) := by
  dsimp only [dat]

theorem inv_castSucc (c : Dev nD) (t : Fin cfg2.N) :
    (dat V c).Φ t.castSucc = inv V c t.val (Nat.le_of_lt t.isLt) := by
  dsimp only [dat]; simp only [Fin.coe_castSucc]

theorem after_h (c : Dev nD) (t : Fin cfg2.N) : (dat V c).after 0 t = blockAt V c 0 t := by dsimp only [dat]
theorem after_wh (c : Dev nD) (t : Fin cfg2.N) : (dat V c).after 1 t = blockAt V c 1 t := by dsimp only [dat]
theorem after_x (c : Dev nD) (t : Fin cfg2.N) : (dat V c).after 2 t = blockAt V c 2 t := by dsimp only [dat]
theorem after_wx (c : Dev nD) (t : Fin cfg2.N) : (dat V c).after 3 t = blockAt V c 3 t := by dsimp only [dat]
theorem after_b (c : Dev nD) (t : Fin cfg2.N) : (dat V c).after 4 t = blockAt V c 4 t := by dsimp only [dat]
theorem after_g (c : Dev nD) (t : Fin cfg2.N) : (dat V c).after 5 t = blockAt V c 5 t := by dsimp only [dat]
theorem after_be (c : Dev nD) (t : Fin cfg2.N) : (dat V c).after 6 t = blockAt V c 6 t := by dsimp only [dat]
theorem after_out (c : Dev nD) (t : Fin cfg2.N) : (dat V c).after 7 t = (heldAt V c t.val t.isLt).1 := by dsimp only [dat]

theorem before_h (c : Dev nD) (t : Fin cfg2.N) (d) : (dat V c).before 0 t d = blockAt V c 0 t :=
  in_h_of V (dat V c) (dat_A V c 0) (after_h V c) t d
theorem before_wh (c : Dev nD) (t : Fin cfg2.N) (d) : (dat V c).before 1 t d = blockAt V c 1 t :=
  in_wh_of V (dat V c) (dat_A V c 1) (after_wh V c) t d
theorem before_x (c : Dev nD) (t : Fin cfg2.N) (d) : (dat V c).before 2 t d = blockAt V c 2 t :=
  in_x_of V (dat V c) (dat_A V c 2) (after_x V c) t d
theorem before_wx (c : Dev nD) (t : Fin cfg2.N) (d) : (dat V c).before 3 t d = blockAt V c 3 t :=
  in_wx_of V (dat V c) (dat_A V c 3) (after_wx V c) t d
theorem before_b (c : Dev nD) (t : Fin cfg2.N) (d) : (dat V c).before 4 t d = blockAt V c 4 t :=
  in_b_of V (dat V c) (dat_A V c 4) (after_b V c) t d
theorem before_g (c : Dev nD) (t : Fin cfg2.N) (d) : (dat V c).before 5 t d = blockAt V c 5 t :=
  in_g_of V (dat V c) (dat_A V c 5) (after_g V c) t d
theorem before_be (c : Dev nD) (t : Fin cfg2.N) (d) : (dat V c).before 6 t d = blockAt V c 6 t :=
  in_be_of V (dat V c) (dat_A V c 6) (after_be V c) t d

end Cert.Kernel.R2

end
-- ==== Proof.K.R2.Body.lean ====
/-
  The input gate logistic(LayerNorm(h·W_hi + x·W_xi + b_xi)), in the kernel as printed (pallas_call 2).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part four: the body obligation at every point.  The pipeline hands the body the invariant, the input buffers (each
  holding its block) and the output buffer.  Which case the point is in is decided by its position modulo 8; the case's
  triple then applies.  The accumulator comes out of the invariant at what the previous point left (at anything at the
  very first point) and goes back in at this point's contents; the remaining scoped buffers and the generator register
  pass through untouched.
-/
import proofs.«116394_j17480516895034_2_alg».proof.Proof.K.R2.Data

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (m_h t) fullShare ((dat V c).before 0 t d))
    ∗ (∃ d, owns (c : Thread nD τ) (m_wh t) fullShare ((dat V c).before 1 t d))
    ∗ (∃ d, owns (c : Thread nD τ) (m_x t) fullShare ((dat V c).before 2 t d))
    ∗ (∃ d, owns (c : Thread nD τ) (m_wx t) fullShare ((dat V c).before 3 t d))
    ∗ (∃ d, owns (c : Thread nD τ) (m_b t) fullShare ((dat V c).before 4 t d))
    ∗ (∃ d, owns (c : Thread nD τ) (m_g t) fullShare ((dat V c).before 5 t d))
    ∗ (∃ d, owns (c : Thread nD τ) (m_be t) fullShare ((dat V c).before 6 t d))
    ∗ (∃ d, owns (c : Thread nD τ) (m_out t) fullShare ((dat V c).before 7 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 4800000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_h, before_wh, before_x, before_wx, before_b, before_g, before_be]
  rw [show (dat V c).owesAt () t.succ = (dat V c).owesAt () t.castSucc from rfl]
  rw [show (dat V c).Φ t.succ = inv V c (t.val + 1) t.isLt from rfl, inv_succ]
  have hN : t.val < 16 := lt_of_lt_of_eq t.isLt (show cfg2.N = 16 from N_2)
  rw [show (dat V c).leavesExact 0 t = owns (c : Thread nD τ) (m_h t) fullShare ((dat V c).after 0 t) from by
    unfold Dat.leavesExact; rw [live_h t], after_h]
  rw [show (dat V c).leavesExact 1 t = owns (c : Thread nD τ) (m_wh t) fullShare ((dat V c).after 1 t) from by
    unfold Dat.leavesExact; rw [live_wh t], after_wh]
  rw [show (dat V c).leavesExact 2 t = owns (c : Thread nD τ) (m_x t) fullShare ((dat V c).after 2 t) from by
    unfold Dat.leavesExact; rw [live_x t], after_x]
  rw [show (dat V c).leavesExact 3 t = owns (c : Thread nD τ) (m_wx t) fullShare ((dat V c).after 3 t) from by
    unfold Dat.leavesExact; rw [live_wx t], after_wx]
  rw [show (dat V c).leavesExact 4 t = owns (c : Thread nD τ) (m_b t) fullShare ((dat V c).after 4 t) from by
    unfold Dat.leavesExact; rw [live_b t], after_b]
  rw [show (dat V c).leavesExact 5 t = owns (c : Thread nD τ) (m_g t) fullShare ((dat V c).after 5 t) from by
    unfold Dat.leavesExact; rw [live_g t], after_g]
  rw [show (dat V c).leavesExact 6 t = owns (c : Thread nD τ) (m_be t) fullShare ((dat V c).after 6 t) from by
    unfold Dat.leavesExact; rw [live_be t], after_be]
  by_cases h0 : t.val % 8 = 0
  · have h7 : ¬t.val % 8 = 7 := by omega
    rw [Dat.leavesExact_idle (dat V c) 7 t (idle_out t (fun h => h7 ((atLast_iff t).mp h))) (noFlush_out t (fun h => h7 ((atLast_iff t).mp h)))]
    rw [heldAt_first V c t h0 h7]
    unfold accFirst; (try dsimp only)
    by_cases hz : t.val = 0
    · rw [inv_castSucc V c t, inv_zero V c _ _ hz, handed_eq]
      iintro ⟨⟨⟨HA, Hrest⟩, Hg⟩, Ho, ⟨%d0, H0⟩, ⟨%d1, H1⟩, ⟨%d2, H2⟩, ⟨%d3, H3⟩, ⟨%d4, H4⟩, ⟨%d5, H5⟩, ⟨%d6, H6⟩, ⟨%dO, HO⟩⟩
      iapply ((runFirst c (grid2.coords t) _ _ _ _ _ _ _ _ _ _ _ _ _ _ _ _ _ _ ((atFirst_iff t).mpr h0) (fun h => h7 ((atLast_iff t).mp h)) (blockAt V c 0 t) (blockAt V c 1 t) (blockAt V c 2 t) (blockAt V c 3 t) (blockAt V c 4 t) (blockAt V c 5 t) (blockAt V c 6 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HO]; · iexact HO
      isplitl [HA]; · iexact HA
      iintro ⟨H0, H1, H2, H3, H4, H5, H6, HO, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_first c _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact HO
    · rw [inv_castSucc V c t, inv_pos V c _ _ hz]
      iintro ⟨⟨⟨HA, Hrest⟩, Hg⟩, Ho, ⟨%d0, H0⟩, ⟨%d1, H1⟩, ⟨%d2, H2⟩, ⟨%d3, H3⟩, ⟨%d4, H4⟩, ⟨%d5, H5⟩, ⟨%d6, H6⟩, ⟨%dO, HO⟩⟩
      iapply ((runFirst c (grid2.coords t) _ _ _ _ _ _ _ _ _ _ _ _ _ _ _ _ _ _ ((atFirst_iff t).mpr h0) (fun h => h7 ((atLast_iff t).mp h)) (blockAt V c 0 t) (blockAt V c 1 t) (blockAt V c 2 t) (blockAt V c 3 t) (blockAt V c 4 t) (blockAt V c 5 t) (blockAt V c 6 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HO]; · iexact HO
      isplitl [HA]; · iexists _; iexact HA
      iintro ⟨H0, H1, H2, H3, H4, H5, H6, HO, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_first c _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact HO
  · have hz : t.val ≠ 0 := fun e => h0 (by rw [e])
    by_cases h7 : t.val % 8 = 7
    · rw [show (dat V c).leavesExact 7 t = owns (c : Thread nD τ) (m_out t) fullShare ((dat V c).after 7 t) from by
        unfold Dat.leavesExact; rw [live_out t ((atLast_iff t).mpr h7)], after_out]
      rw [heldAt_last V c t h0 h7]
      unfold outLast accLast; (try dsimp only)
      rw [inv_castSucc V c t, inv_pos V c _ _ hz]
      iintro ⟨⟨⟨HA, Hrest⟩, Hg⟩, Ho, ⟨%d0, H0⟩, ⟨%d1, H1⟩, ⟨%d2, H2⟩, ⟨%d3, H3⟩, ⟨%d4, H4⟩, ⟨%d5, H5⟩, ⟨%d6, H6⟩, ⟨%dO, HO⟩⟩
      iapply ((runLast c (grid2.coords t) _ _ _ _ _ _ _ _ _ _ _ _ _ _ _ _ _ _ (fun h => h0 ((atFirst_iff t).mp h)) ((atLast_iff t).mpr h7) (blockAt V c 0 t) (blockAt V c 1 t) (blockAt V c 2 t) (blockAt V c 3 t) (blockAt V c 4 t) (blockAt V c 5 t) (blockAt V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HO]; · iexists _; iexact HO
      isplitl [HA]; · iexact HA
      iintro ⟨H0, H1, H2, H3, H4, H5, H6, ⟨%eO, HO⟩, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_last c _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact HO
      ipureintro; exact View.read_writes_of_cover _ _ _ _ _ (outCover_last c _ _ _ _ _ _ _ _ _ _ _ _ _ _ _ _ _ _ _ _ _ _ _ _ _ _ _ _ _)
    · rw [Dat.leavesExact_idle (dat V c) 7 t (idle_out t (fun h => h7 ((atLast_iff t).mp h))) (noFlush_out t (fun h => h7 ((atLast_iff t).mp h)))]
      rw [heldAt_mid V c t h0 h7]
      unfold accMid; (try dsimp only)
      rw [inv_castSucc V c t, inv_pos V c _ _ hz]
      iintro ⟨⟨⟨HA, Hrest⟩, Hg⟩, Ho, ⟨%d0, H0⟩, ⟨%d1, H1⟩, ⟨%d2, H2⟩, ⟨%d3, H3⟩, ⟨%d4, H4⟩, ⟨%d5, H5⟩, ⟨%d6, H6⟩, ⟨%dO, HO⟩⟩
      iapply ((runMid c (grid2.coords t) _ _ _ _ _ _ _ _ _ _ _ _ _ _ _ _ _ _ (fun h => h0 ((atFirst_iff t).mp h)) (fun h => h7 ((atLast_iff t).mp h)) (blockAt V c 0 t) (blockAt V c 1 t) (blockAt V c 2 t) (blockAt V c 3 t) (blockAt V c 4 t) (blockAt V c 5 t) (blockAt V c 6 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HO]; · iexact HO
      isplitl [HA]; · iexact HA
      iintro ⟨H0, H1, H2, H3, H4, H5, H6, HO, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_mid c _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact HO

/-- The body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem inv_enter (c : Dev nD) : Pipeline.ΦA spec2 c ⊢ (dat V c).Φ 0 := by
  rw [show (dat V c).Φ 0 = inv V c 0 (Nat.zero_le _) from rfl, inv_zero V c 0 _ rfl]
  try exact Idealize.SL.BI.Entails.refl _

/-- After the last point the invariant gives that back: what the accumulator holds is forgotten. -/
theorem inv_leave (c : Dev nD) : (dat V c).Φ (Fin.last cfg2.N) ⊢ Pipeline.ΦA spec2 c := by
  have ht : (Fin.last cfg2.N).val ≠ 0 := by rw [Fin.val_last]; have : cfg2.N = 16 := N_2; omega
  rw [show (dat V c).Φ (Fin.last cfg2.N) = inv V c (Fin.last cfg2.N).val (Nat.le_of_lt_succ (Fin.last cfg2.N).isLt) from rfl,
    inv_pos V c _ _ ht, handed_eq]
  iintro ⟨⟨HA, Hrest⟩, Hg⟩
  isplitl [HA Hrest]
  · isplitl [HA]
    · iexists _; iexact HA
    iexact Hrest
  iexact Hg

end Cert.Kernel.R2

end
-- ==== Proof.K.R3.Base.lean ====
/-
  The output gate logistic(LayerNorm(h·W_ho + x·W_xo + b_xo)), in the kernel as printed (pallas_call 3).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part one, names: a window's block at a point read off the array as the region finds it; that an input's staging
  buffer holds its block at every point, fetched there or not; the two conditions k = 0 and k = 7 in closed form over
  the sixteen points; where the output window is idle; the staging and scratch memrefs the body is called with.
  Everything is stated at any float instance.
-/
import proofs.«116394_j17480516895034_2_alg».proof.Proof.Gen.Kernel.Launch
import proofs.«116394_j17480516895034_2_alg».proof.Proof.Gen.Kernel.Skeleton
import proofs.«116394_j17480516895034_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-- Window `w`'s block at point `t`, read off its array as the region finds it. -/
def blockAt (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's block is in its staging buffer at every point, for any proof data over these arrays whose body leaves it there. -/
theorem in_h_of {c : Dev nD} (dat : Dat τ (Elt F) Unit ℕ (UR sig nD τ) ℕ cfg3 c) (hA : dat.A 0 = V c (Pipeline.arrRef spec3 0))
    (hafter : ∀ t, dat.after 0 t = blockAt V c 0 t) (t : Fin cfg3.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's block is in its staging buffer at every point, for any proof data over these arrays whose body leaves it there. -/
theorem in_wh_of {c : Dev nD} (dat : Dat τ (Elt F) Unit ℕ (UR sig nD τ) ℕ cfg3 c) (hA : dat.A 1 = V c (Pipeline.arrRef spec3 1))
    (hafter : ∀ t, dat.after 1 t = blockAt V c 1 t) (t : Fin cfg3.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's block is in its staging buffer at every point, for any proof data over these arrays whose body leaves it there. -/
theorem in_x_of {c : Dev nD} (dat : Dat τ (Elt F) Unit ℕ (UR sig nD τ) ℕ cfg3 c) (hA : dat.A 2 = V c (Pipeline.arrRef spec3 2))
    (hafter : ∀ t, dat.after 2 t = blockAt V c 2 t) (t : Fin cfg3.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's block is in its staging buffer at every point, for any proof data over these arrays whose body leaves it there. -/
theorem in_wx_of {c : Dev nD} (dat : Dat τ (Elt F) Unit ℕ (UR sig nD τ) ℕ cfg3 c) (hA : dat.A 3 = V c (Pipeline.arrRef spec3 3))
    (hafter : ∀ t, dat.after 3 t = blockAt V c 3 t) (t : Fin cfg3.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's block is in its staging buffer at every point, for any proof data over these arrays whose body leaves it there. -/
theorem in_b_of {c : Dev nD} (dat : Dat τ (Elt F) Unit ℕ (UR sig nD τ) ℕ cfg3 c) (hA : dat.A 4 = V c (Pipeline.arrRef spec3 4))
    (hafter : ∀ t, dat.after 4 t = blockAt V c 4 t) (t : Fin cfg3.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- Input window 5's block is in its staging buffer at every point, for any proof data over these arrays whose body leaves it there. -/
theorem in_g_of {c : Dev nD} (dat : Dat τ (Elt F) Unit ℕ (UR sig nD τ) ℕ cfg3 c) (hA : dat.A 5 = V c (Pipeline.arrRef spec3 5))
    (hafter : ∀ t, dat.after 5 t = blockAt V c 5 t) (t : Fin cfg3.N) (d) : dat.before 5 t d = blockAt V c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-- Input window 6's block is in its staging buffer at every point, for any proof data over these arrays whose body leaves it there. -/
theorem in_be_of {c : Dev nD} (dat : Dat τ (Elt F) Unit ℕ (UR sig nD τ) ℕ cfg3 c) (hA : dat.A 6 = V c (Pipeline.arrRef spec3 6))
    (hafter : ∀ t, dat.after 6 t = blockAt V c 6 t) (t : Fin cfg3.N) (d) : dat.before 6 t d = blockAt V c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## The two conditions -/

/-- k = 0: the accumulator is cleared. -/
abbrev atFirst (i : grid3.Coords) : Prop := (Scalar.cmpi .ne (Scalar.extui (Scalar.cmpi .eq (BitVec.ofNat 32 (i 1).val) 0#32)) 0#32) = 1#1
theorem atFirst_iff : ∀ t : Fin cfg3.N, atFirst (grid3.coords t) ↔ t.val % 8 = 0 :=
  (by decide +kernel : ∀ t : Fin grid3.N, atFirst (grid3.coords t) ↔ t.val % 8 = 0)

/-- k = 7: the result is stored. -/
abbrev atLast (i : grid3.Coords) : Prop := k3_cond2 i = 1#1
theorem atLast_iff : ∀ t : Fin cfg3.N, atLast (grid3.coords t) ↔ t.val % 8 = 7 :=
  (by decide +kernel : ∀ t : Fin grid3.N, atLast (grid3.coords t) ↔ t.val % 8 = 7)

/-! ## Where the windows are idle -/

theorem live_h : ∀ t : Fin cfg3.N, cfg3.idle 0 (grid3.coords t) = false := by decide +kernel
theorem live_wh : ∀ t : Fin cfg3.N, cfg3.idle 1 (grid3.coords t) = false := by decide +kernel
theorem live_x : ∀ t : Fin cfg3.N, cfg3.idle 2 (grid3.coords t) = false := by decide +kernel
theorem live_wx : ∀ t : Fin cfg3.N, cfg3.idle 3 (grid3.coords t) = false := by decide +kernel
theorem live_b : ∀ t : Fin cfg3.N, cfg3.idle 4 (grid3.coords t) = false := by decide +kernel
theorem live_g : ∀ t : Fin cfg3.N, cfg3.idle 5 (grid3.coords t) = false := by decide +kernel
theorem live_be : ∀ t : Fin cfg3.N, cfg3.idle 6 (grid3.coords t) = false := by decide +kernel
/-- Away from k = 7 the output window is idle and not written back. -/
theorem idle_out : ∀ t : Fin cfg3.N, ¬atLast (grid3.coords t) → cfg3.idle 7 (grid3.coords t) = true := by decide +kernel
theorem noFlush_out : ∀ t : Fin cfg3.N, ¬atLast (grid3.coords t) → (cfg3.win 7).flush t = false := by decide +kernel
/-- At k = 7 it is live. -/
theorem live_out : ∀ t : Fin cfg3.N, atLast (grid3.coords t) → cfg3.idle 7 (grid3.coords t) = false := by decide +kernel

/-! ## The memrefs the body is called with -/

/-- One staging buffer of the output window, through which its contents are stated. -/
abbrev outView : View sig .tc .vmem S1024x2048 .f32 := (Memref.whole cc3_stg7_0 : Memref sig .tc .vmem S1024x2048 .f32).view
abbrev m_h (t : Fin cfg3.N) : Memref sig .tc .vmem S1024x256 .f32 := win3_0.stage (cfg3.slots t 0)
abbrev hm_h (t : Fin cfg3.N) : (m_h t).IsWhole := hstage3_0 ((cfg3.slots t 0).cast nbuf3_0)
abbrev m_wh (t : Fin cfg3.N) : Memref sig .tc .vmem S256x2048 .f32 := win3_1.stage (cfg3.slots t 1)
abbrev hm_wh (t : Fin cfg3.N) : (m_wh t).IsWhole := hstage3_1 ((cfg3.slots t 1).cast nbuf3_1)
abbrev m_x (t : Fin cfg3.N) : Memref sig .tc .vmem S1024x256 .f32 := win3_2.stage (cfg3.slots t 2)
abbrev hm_x (t : Fin cfg3.N) : (m_x t).IsWhole := hstage3_2 ((cfg3.slots t 2).cast nbuf3_2)
abbrev m_wx (t : Fin cfg3.N) : Memref sig .tc .vmem S256x2048 .f32 := win3_3.stage (cfg3.slots t 3)
abbrev hm_wx (t : Fin cfg3.N) : (m_wx t).IsWhole := hstage3_3 ((cfg3.slots t 3).cast nbuf3_3)
abbrev m_b (t : Fin cfg3.N) : Memref sig .tc .vmem S1x2048 .f32 := win3_4.stage (cfg3.slots t 4)
abbrev hm_b (t : Fin cfg3.N) : (m_b t).IsWhole := hstage3_4 ((cfg3.slots t 4).cast nbuf3_4)
abbrev m_g (t : Fin cfg3.N) : Memref sig .tc .vmem S1x2048 .f32 := win3_5.stage (cfg3.slots t 5)
abbrev hm_g (t : Fin cfg3.N) : (m_g t).IsWhole := hstage3_5 ((cfg3.slots t 5).cast nbuf3_5)
abbrev m_be (t : Fin cfg3.N) : Memref sig .tc .vmem S1x2048 .f32 := win3_6.stage (cfg3.slots t 6)
abbrev hm_be (t : Fin cfg3.N) : (m_be t).IsWhole := hstage3_6 ((cfg3.slots t 6).cast nbuf3_6)
abbrev m_out (t : Fin cfg3.N) : Memref sig .tc .vmem S1024x2048 .f32 := win3_7.stage (cfg3.slots t 7)
abbrev hm_out (t : Fin cfg3.N) : (m_out t).IsWhole := hstage3_7 ((cfg3.slots t 7).cast nbuf3_7)
/-- The accumulator: a whole scoped buffer of the kernel's own. -/
abbrev accM : Memref sig .tc .vmem S1024x2048 .f32 := Memref.whole cc3_scratch0
abbrev accView : View sig .tc .vmem S1024x2048 .f32 := accM.view

/-- What the launch hands the region, with the accumulator taken out of the scoped buffers no window stages. -/
theorem handed_eq (c : Dev nD) :
    (Pipeline.ΦA spec3 c : sProp 𝕄)
      = iprop(iprop(iprop((∃ d, owns (c : Thread nD τ) accM fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [accM, owns_whole]; try rfl

end Cert.Kernel.R3

end
-- ==== Proof.K.R3.Runs.lean ====
/-
  The output gate logistic(LayerNorm(h·W_ho + x·W_xo + b_xo)), in the kernel as printed (pallas_call 3).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part two: the body's triple in each of its three cases.  On whole staging memrefs holding the input blocks the body
  runs without fault and gives the input buffers back unchanged.  What it does to the accumulator and to the output
  buffer depends on the point:
    k = 0      the accumulator, whatever it held, ends as its stores leave it; the output buffer is not touched;
    0 < k < 7  the accumulator, at known contents, ends as its stores leave it; the output buffer is not touched;
    k = 7      as before, and the output buffer, whatever it held, ends as its one store leaves it.
  The stores are not transcribed: each case is a subtype whose witness — the list of pieces stored, last first — the
  symbolic run of the body finds.
-/
import proofs.«116394_j17480516895034_2_alg».proof.Proof.K.R3.Base

set_option maxRecDepth 16384

noncomputable section

namespace Cert.Kernel.R3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- k = 0. -/
noncomputable def runFirst (c : Dev nD) (i : grid3.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : atFirst i) (h7 : ¬atLast i)
    (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) :
    { LA : List (View.Piece (Elt F) S1024x2048 .f32) //
      ∀ (xout : Vec F S1024x2048 .f32) (E : Set ℕ) (K : PUnit → sProp 𝕄),
        iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ owns (c : Thread nD τ) arg9 fullShare xout ∗ (∃ d, owns (c : Thread nD τ) arg10 fullShare d)
            ∗ (iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ owns (c : Thread nD τ) arg9 fullShare xout ∗ (∃ f, arg10.view.loc (c : Thread nD τ) ↦[arg10.view.set]{fullShare} arg10.view.writes (Elt F) f LA)) -∗ K ⟨⟩))
          ⊢ wp frame (wpE (defs₀ (F := F)) Variants.none c none) E (cc3_gate_kernel i arg2 harg2 arg3 harg3 arg4 harg4 arg5 harg5 arg6 harg6 arg7 harg7 arg8 harg8 arg9 harg9 arg10 harg10) K } := by
  refine ⟨?_, fun xout E K => ?run⟩
  case run =>
    simp only [cc3_gate_kernel_eq_skeleton]; unfold cc3_gate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo, %hfo, HO⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfo
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO]
    · iexists _; isplitr; · ipureintro; exact harg9.read_unread _
      iexact HO
    iexists _; iexact HS

set_option maxHeartbeats 2000000 in
/-- 0 < k < 7. -/
noncomputable def runMid (c : Dev nD) (i : grid3.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : ¬atLast i)
    (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) :
    { LA : List (View.Piece (Elt F) S1024x2048 .f32) //
      ∀ (xout : Vec F S1024x2048 .f32) (E : Set ℕ) (K : PUnit → sProp 𝕄),
        iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ owns (c : Thread nD τ) arg9 fullShare xout ∗ owns (c : Thread nD τ) arg10 fullShare xa
            ∗ (iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ owns (c : Thread nD τ) arg9 fullShare xout ∗ (∃ f, arg10.view.loc (c : Thread nD τ) ↦[arg10.view.set]{fullShare} arg10.view.writes (Elt F) f LA)) -∗ K ⟨⟩))
          ⊢ wp frame (wpE (defs₀ (F := F)) Variants.none c none) E (cc3_gate_kernel i arg2 harg2 arg3 harg3 arg4 harg4 arg5 harg5 arg6 harg6 arg7 harg7 arg8 harg8 arg9 harg9 arg10 harg10) K } := by
  refine ⟨?_, fun xout E K => ?run⟩
  case run =>
    simp only [cc3_gate_kernel_eq_skeleton]; unfold cc3_gate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfo; obtain rfl := harg10.eq_unread hfs
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO]
    · iexists _; isplitr; · ipureintro; exact harg9.read_unread _
      iexact HO
    iexists _; iexact HS

set_option maxHeartbeats 2000000 in
/-- k = 7. -/
noncomputable def runLast (c : Dev nD) (i : grid3.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i)
    (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) :
    Σ' (LO : List (View.Piece (Elt F) S1024x2048 .f32)), { LA : List (View.Piece (Elt F) S1024x2048 .f32) //
      ∀ (E : Set ℕ) (K : PUnit → sProp 𝕄),
        iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ (∃ d, owns (c : Thread nD τ) arg9 fullShare d) ∗ owns (c : Thread nD τ) arg10 fullShare xa
            ∗ (iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ (∃ f, arg9.view.loc (c : Thread nD τ) ↦[arg9.view.set]{fullShare} arg9.view.writes (Elt F) f LO) ∗ (∃ f, arg10.view.loc (c : Thread nD τ) ↦[arg10.view.set]{fullShare} arg10.view.writes (Elt F) f LA)) -∗ K ⟨⟩))
          ⊢ wp frame (wpE (defs₀ (F := F)) Variants.none c none) E (cc3_gate_kernel i arg2 harg2 arg3 harg3 arg4 harg4 arg5 harg5 arg6 harg6 arg7 harg7 arg8 harg8 arg9 harg9 arg10 harg10) K } := by
  refine ⟨?_, ?_, fun E K => ?run⟩
  case run =>
    simp only [cc3_gate_kernel_eq_skeleton]; unfold cc3_gate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%dO, %fo, -, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO]; · iexists _; iexact HO
    iexists _; iexact HS

end Cert.Kernel.R3

end
-- ==== Proof.K.R3.Data.lean ====
/-
  The output gate logistic(LayerNorm(h·W_ho + x·W_xo + b_xo)), in the kernel as printed (pallas_call 3).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part three: what the buffers hold point by point.  After the body at position n the accumulator holds what that
  point's case leaves in it — at k = 0 from nothing, at every later k from what position n − 1 left — and, at k = 7,
  the output buffer holds what its one store leaves.  The region's invariant carries the accumulator at these contents
  from one point to the next, beside the other scoped buffers no window stages and the generator register, neither of
  which the body touches.
-/
import proofs.«116394_j17480516895034_2_alg».proof.Proof.K.R3.Runs

set_option maxRecDepth 16384

noncomputable section

namespace Cert.Kernel.R3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem accCover_first (c : Dev nD) (i : grid3.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : atFirst i) (h7 : ¬atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (y : S1024x2048.Idx) :
    ∃ pc ∈ (runFirst c i arg2 harg2 arg3 harg3 arg4 harg4 arg5 harg5 arg6 harg6 arg7 harg7 arg8 harg8 arg9 harg9 arg10 harg10 h0 h7 xh xwh xx xwx xb xg xbe).1, y ∈ pc.1.set :=
  View.cover_of_tiledL (runFirst c i arg2 harg2 arg3 harg3 arg4 harg4 arg5 harg5 arg6 harg6 arg7 harg7 arg8 harg8 arg9 harg9 arg10 harg10 h0 h7 xh xwh xx xwx xb xg xbe).1 S1024x2048.size (by sl_kernel_rfl) y

/-- The accumulator after a point with k = 0. -/
def accFirst (c : Dev nD) (i : grid3.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : atFirst i) (h7 : ¬atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) : Vec F S1024x2048 .f32 :=
  accView.read (Elt F) (accView.writes (Elt F) accView.junk (runFirst c i arg2 harg2 arg3 harg3 arg4 harg4 arg5 harg5 arg6 harg6 arg7 harg7 arg8 harg8 arg9 harg9 arg10 harg10 h0 h7 xh xwh xx xwx xb xg xbe).1)

theorem accCover_mid (c : Dev nD) (i : grid3.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : ¬atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) (y : S1024x2048.Idx) :
    ∃ pc ∈ (runMid c i arg2 harg2 arg3 harg3 arg4 harg4 arg5 harg5 arg6 harg6 arg7 harg7 arg8 harg8 arg9 harg9 arg10 harg10 h0 h7 xh xwh xx xwx xb xg xbe xa).1, y ∈ pc.1.set :=
  View.cover_of_tiledL (runMid c i arg2 harg2 arg3 harg3 arg4 harg4 arg5 harg5 arg6 harg6 arg7 harg7 arg8 harg8 arg9 harg9 arg10 harg10 h0 h7 xh xwh xx xwx xb xg xbe xa).1 S1024x2048.size (by sl_kernel_rfl) y

/-- The accumulator after a point with 0 < k < 7. -/
def accMid (c : Dev nD) (i : grid3.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : ¬atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) : Vec F S1024x2048 .f32 :=
  accView.read (Elt F) (accView.writes (Elt F) accView.junk (runMid c i arg2 harg2 arg3 harg3 arg4 harg4 arg5 harg5 arg6 harg6 arg7 harg7 arg8 harg8 arg9 harg9 arg10 harg10 h0 h7 xh xwh xx xwx xb xg xbe xa).1)

theorem outCover_last (c : Dev nD) (i : grid3.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) (y : S1024x2048.Idx) :
    ∃ pc ∈ (runLast c i arg2 harg2 arg3 harg3 arg4 harg4 arg5 harg5 arg6 harg6 arg7 harg7 arg8 harg8 arg9 harg9 arg10 harg10 h0 h7 xh xwh xx xwx xb xg xbe xa).1, y ∈ pc.1.set :=
  View.cover_of_tiledL (runLast c i arg2 harg2 arg3 harg3 arg4 harg4 arg5 harg5 arg6 harg6 arg7 harg7 arg8 harg8 arg9 harg9 arg10 harg10 h0 h7 xh xwh xx xwx xb xg xbe xa).1 S1024x2048.size (by sl_kernel_rfl) y

/-- The output buffer after a point with k = 7. -/
def outLast (c : Dev nD) (i : grid3.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) : Vec F S1024x2048 .f32 :=
  outView.read (Elt F) (outView.writes (Elt F) outView.junk (runLast c i arg2 harg2 arg3 harg3 arg4 harg4 arg5 harg5 arg6 harg6 arg7 harg7 arg8 harg8 arg9 harg9 arg10 harg10 h0 h7 xh xwh xx xwx xb xg xbe xa).1)

theorem accCover_last (c : Dev nD) (i : grid3.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) (y : S1024x2048.Idx) :
    ∃ pc ∈ (runLast c i arg2 harg2 arg3 harg3 arg4 harg4 arg5 harg5 arg6 harg6 arg7 harg7 arg8 harg8 arg9 harg9 arg10 harg10 h0 h7 xh xwh xx xwx xb xg xbe xa).2.1, y ∈ pc.1.set :=
  View.cover_of_tiledL (runLast c i arg2 harg2 arg3 harg3 arg4 harg4 arg5 harg5 arg6 harg6 arg7 harg7 arg8 harg8 arg9 harg9 arg10 harg10 h0 h7 xh xwh xx xwx xb xg xbe xa).2.1 S1024x2048.size (by sl_kernel_rfl) y

/-- The accumulator after a point with k = 7. -/
def accLast (c : Dev nD) (i : grid3.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) : Vec F S1024x2048 .f32 :=
  accView.read (Elt F) (accView.writes (Elt F) accView.junk (runLast c i arg2 harg2 arg3 harg3 arg4 harg4 arg5 harg5 arg6 harg6 arg7 harg7 arg8 harg8 arg9 harg9 arg10 harg10 h0 h7 xh xwh xx xwx xb xg xbe xa).2.1)

/-! ## Point by point -/

/-- After the body at position `n`: the output buffer (meaningful at k = 7 only; elsewhere nothing consults it) and the
    accumulator. -/
def heldAt (c : Dev nD) : (n : ℕ) → n < cfg3.N → Vec F S1024x2048 .f32 × Vec F S1024x2048 .f32
  | 0, hn => (outView.read (Elt F) outView.junk,
      accFirst c (grid3.coords ⟨0, hn⟩) (m_h ⟨0, hn⟩) (hm_h ⟨0, hn⟩) (m_wh ⟨0, hn⟩) (hm_wh ⟨0, hn⟩) (m_x ⟨0, hn⟩) (hm_x ⟨0, hn⟩) (m_wx ⟨0, hn⟩) (hm_wx ⟨0, hn⟩) (m_b ⟨0, hn⟩) (hm_b ⟨0, hn⟩) (m_g ⟨0, hn⟩) (hm_g ⟨0, hn⟩) (m_be ⟨0, hn⟩) (hm_be ⟨0, hn⟩) (m_out ⟨0, hn⟩) (hm_out ⟨0, hn⟩) accM (Memref.isWhole_whole _) ((atFirst_iff ⟨0, hn⟩).mpr (Nat.zero_mod _)) (fun h => (fun h => by (try dsimp only at h); omega) ((atLast_iff ⟨0, hn⟩).mp h)) (blockAt V c 0 ⟨0, hn⟩) (blockAt V c 1 ⟨0, hn⟩) (blockAt V c 2 ⟨0, hn⟩) (blockAt V c 3 ⟨0, hn⟩) (blockAt V c 4 ⟨0, hn⟩) (blockAt V c 5 ⟨0, hn⟩) (blockAt V c 6 ⟨0, hn⟩))
  | n + 1, hn =>
    if h0 : (n + 1) % 8 = 0 then
      if h7 : (n + 1) % 8 = 7 then
        False.elim (by omega)
      else
        (outView.read (Elt F) outView.junk,
          accFirst c (grid3.coords ⟨n + 1, hn⟩) (m_h ⟨n + 1, hn⟩) (hm_h ⟨n + 1, hn⟩) (m_wh ⟨n + 1, hn⟩) (hm_wh ⟨n + 1, hn⟩) (m_x ⟨n + 1, hn⟩) (hm_x ⟨n + 1, hn⟩) (m_wx ⟨n + 1, hn⟩) (hm_wx ⟨n + 1, hn⟩) (m_b ⟨n + 1, hn⟩) (hm_b ⟨n + 1, hn⟩) (m_g ⟨n + 1, hn⟩) (hm_g ⟨n + 1, hn⟩) (m_be ⟨n + 1, hn⟩) (hm_be ⟨n + 1, hn⟩) (m_out ⟨n + 1, hn⟩) (hm_out ⟨n + 1, hn⟩) accM (Memref.isWhole_whole _) ((atFirst_iff ⟨n + 1, hn⟩).mpr h0) (fun h => h7 ((atLast_iff ⟨n + 1, hn⟩).mp h)) (blockAt V c 0 ⟨n + 1, hn⟩) (blockAt V c 1 ⟨n + 1, hn⟩) (blockAt V c 2 ⟨n + 1, hn⟩) (blockAt V c 3 ⟨n + 1, hn⟩) (blockAt V c 4 ⟨n + 1, hn⟩) (blockAt V c 5 ⟨n + 1, hn⟩) (blockAt V c 6 ⟨n + 1, hn⟩))
    else
      if h7 : (n + 1) % 8 = 7 then
        (outLast c (grid3.coords ⟨n + 1, hn⟩) (m_h ⟨n + 1, hn⟩) (hm_h ⟨n + 1, hn⟩) (m_wh ⟨n + 1, hn⟩) (hm_wh ⟨n + 1, hn⟩) (m_x ⟨n + 1, hn⟩) (hm_x ⟨n + 1, hn⟩) (m_wx ⟨n + 1, hn⟩) (hm_wx ⟨n + 1, hn⟩) (m_b ⟨n + 1, hn⟩) (hm_b ⟨n + 1, hn⟩) (m_g ⟨n + 1, hn⟩) (hm_g ⟨n + 1, hn⟩) (m_be ⟨n + 1, hn⟩) (hm_be ⟨n + 1, hn⟩) (m_out ⟨n + 1, hn⟩) (hm_out ⟨n + 1, hn⟩) accM (Memref.isWhole_whole _) (fun h => h0 ((atFirst_iff ⟨n + 1, hn⟩).mp h)) ((atLast_iff ⟨n + 1, hn⟩).mpr h7) (blockAt V c 0 ⟨n + 1, hn⟩) (blockAt V c 1 ⟨n + 1, hn⟩) (blockAt V c 2 ⟨n + 1, hn⟩) (blockAt V c 3 ⟨n + 1, hn⟩) (blockAt V c 4 ⟨n + 1, hn⟩) (blockAt V c 5 ⟨n + 1, hn⟩) (blockAt V c 6 ⟨n + 1, hn⟩) (heldAt c n (Nat.lt_of_succ_lt hn)).2,
          accLast c (grid3.coords ⟨n + 1, hn⟩) (m_h ⟨n + 1, hn⟩) (hm_h ⟨n + 1, hn⟩) (m_wh ⟨n + 1, hn⟩) (hm_wh ⟨n + 1, hn⟩) (m_x ⟨n + 1, hn⟩) (hm_x ⟨n + 1, hn⟩) (m_wx ⟨n + 1, hn⟩) (hm_wx ⟨n + 1, hn⟩) (m_b ⟨n + 1, hn⟩) (hm_b ⟨n + 1, hn⟩) (m_g ⟨n + 1, hn⟩) (hm_g ⟨n + 1, hn⟩) (m_be ⟨n + 1, hn⟩) (hm_be ⟨n + 1, hn⟩) (m_out ⟨n + 1, hn⟩) (hm_out ⟨n + 1, hn⟩) accM (Memref.isWhole_whole _) (fun h => h0 ((atFirst_iff ⟨n + 1, hn⟩).mp h)) ((atLast_iff ⟨n + 1, hn⟩).mpr h7) (blockAt V c 0 ⟨n + 1, hn⟩) (blockAt V c 1 ⟨n + 1, hn⟩) (blockAt V c 2 ⟨n + 1, hn⟩) (blockAt V c 3 ⟨n + 1, hn⟩) (blockAt V c 4 ⟨n + 1, hn⟩) (blockAt V c 5 ⟨n + 1, hn⟩) (blockAt V c 6 ⟨n + 1, hn⟩) (heldAt c n (Nat.lt_of_succ_lt hn)).2)
      else
        (outView.read (Elt F) outView.junk,
          accMid c (grid3.coords ⟨n + 1, hn⟩) (m_h ⟨n + 1, hn⟩) (hm_h ⟨n + 1, hn⟩) (m_wh ⟨n + 1, hn⟩) (hm_wh ⟨n + 1, hn⟩) (m_x ⟨n + 1, hn⟩) (hm_x ⟨n + 1, hn⟩) (m_wx ⟨n + 1, hn⟩) (hm_wx ⟨n + 1, hn⟩) (m_b ⟨n + 1, hn⟩) (hm_b ⟨n + 1, hn⟩) (m_g ⟨n + 1, hn⟩) (hm_g ⟨n + 1, hn⟩) (m_be ⟨n + 1, hn⟩) (hm_be ⟨n + 1, hn⟩) (m_out ⟨n + 1, hn⟩) (hm_out ⟨n + 1, hn⟩) accM (Memref.isWhole_whole _) (fun h => h0 ((atFirst_iff ⟨n + 1, hn⟩).mp h)) (fun h => h7 ((atLast_iff ⟨n + 1, hn⟩).mp h)) (blockAt V c 0 ⟨n + 1, hn⟩) (blockAt V c 1 ⟨n + 1, hn⟩) (blockAt V c 2 ⟨n + 1, hn⟩) (blockAt V c 3 ⟨n + 1, hn⟩) (blockAt V c 4 ⟨n + 1, hn⟩) (blockAt V c 5 ⟨n + 1, hn⟩) (blockAt V c 6 ⟨n + 1, hn⟩) (heldAt c n (Nat.lt_of_succ_lt hn)).2)

theorem heldAt_first (c : Dev nD) (t : Fin cfg3.N) (h0 : t.val % 8 = 0) (h7 : ¬t.val % 8 = 7) :
    heldAt V c t.val t.isLt = (outView.read (Elt F) outView.junk,
      accFirst c (grid3.coords t) (m_h t) (hm_h t) (m_wh t) (hm_wh t) (m_x t) (hm_x t) (m_wx t) (hm_wx t) (m_b t) (hm_b t) (m_g t) (hm_g t) (m_be t) (hm_be t) (m_out t) (hm_out t) accM (Memref.isWhole_whole _) ((atFirst_iff t).mpr h0) (fun h => h7 ((atLast_iff t).mp h)) (blockAt V c 0 t) (blockAt V c 1 t) (blockAt V c 2 t) (blockAt V c 3 t) (blockAt V c 4 t) (blockAt V c 5 t) (blockAt V c 6 t)) := by
  obtain ⟨n, hn⟩ := t
  cases n with
  | zero => exact rfl
  | succ n => exact (dif_pos h0).trans ((dif_neg h7).trans rfl)

theorem heldAt_mid (c : Dev nD) (t : Fin cfg3.N) (h0 : ¬t.val % 8 = 0) (h7 : ¬t.val % 8 = 7) :
    heldAt V c t.val t.isLt = (outView.read (Elt F) outView.junk,
      accMid c (grid3.coords t) (m_h t) (hm_h t) (m_wh t) (hm_wh t) (m_x t) (hm_x t) (m_wx t) (hm_wx t) (m_b t) (hm_b t) (m_g t) (hm_g t) (m_be t) (hm_be t) (m_out t) (hm_out t) accM (Memref.isWhole_whole _) (fun h => h0 ((atFirst_iff t).mp h)) (fun h => h7 ((atLast_iff t).mp h)) (blockAt V c 0 t) (blockAt V c 1 t) (blockAt V c 2 t) (blockAt V c 3 t) (blockAt V c 4 t) (blockAt V c 5 t) (blockAt V c 6 t)
        (heldAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h7).trans rfl)

theorem heldAt_last (c : Dev nD) (t : Fin cfg3.N) (h0 : ¬t.val % 8 = 0) (h7 : t.val % 8 = 7) :
    heldAt V c t.val t.isLt = (outLast c (grid3.coords t) (m_h t) (hm_h t) (m_wh t) (hm_wh t) (m_x t) (hm_x t) (m_wx t) (hm_wx t) (m_b t) (hm_b t) (m_g t) (hm_g t) (m_be t) (hm_be t) (m_out t) (hm_out t) accM (Memref.isWhole_whole _) (fun h => h0 ((atFirst_iff t).mp h)) ((atLast_iff t).mpr h7) (blockAt V c 0 t) (blockAt V c 1 t) (blockAt V c 2 t) (blockAt V c 3 t) (blockAt V c 4 t) (blockAt V c 5 t) (blockAt V c 6 t)
        (heldAt V c (t.val - 1) (Nat.lt_of_le_of_lt (Nat.sub_le _ _) t.isLt)).2,
      accLast c (grid3.coords t) (m_h t) (hm_h t) (m_wh t) (hm_wh t) (m_x t) (hm_x t) (m_wx t) (hm_wx t) (m_b t) (hm_b t) (m_g t) (hm_g t) (m_be t) (hm_be t) (m_out t) (hm_out t) accM (Memref.isWhole_whole _) (fun h => h0 ((atFirst_iff t).mp h)) ((atLast_iff t).mpr h7) (blockAt V c 0 t) (blockAt V c 1 t) (blockAt V c 2 t) (blockAt V c 3 t) (blockAt V c 4 t) (blockAt V c 5 t) (blockAt V c 6 t)
        (heldAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h7).trans rfl)

/-! ## The invariant -/

/-- Before position `n`: at the start what the launch hands the region; afterwards the accumulator at what position
    `n − 1` left in it, the other scoped buffers no window stages, and the generator register. -/
def inv (c : Dev nD) : (n : ℕ) → n ≤ cfg3.N → sProp 𝕄
  | 0, _ => Pipeline.ΦA spec3 c
  | n + 1, hn => iprop(iprop(owns (c : Thread nD τ) accM fullShare ((heldAt V c n hn).2)
      ∗ Pipeline.scopedRestBut (Ix := Unit) (Name := ℕ) (U := UR sig nD τ) (Lvl := ℕ) (Val := Elt F) spec3 c [cc3_scratch0]) ∗ (∃ r, prngReg c r))

theorem inv_zero (c : Dev nD) (n : ℕ) (h : n ≤ cfg3.N) (hz : n = 0) : inv V c n h = Pipeline.ΦA spec3 c := by
  subst hz; rfl

theorem inv_succ (c : Dev nD) (n : ℕ) (hn : n < cfg3.N) :
    inv V c (n + 1) hn = iprop(iprop(owns (c : Thread nD τ) accM fullShare ((heldAt V c n hn).2)
      ∗ Pipeline.scopedRestBut (Ix := Unit) (Name := ℕ) (U := UR sig nD τ) (Lvl := ℕ) (Val := Elt F) spec3 c [cc3_scratch0]) ∗ (∃ r, prngReg c r)) := rfl

theorem inv_pos (c : Dev nD) (n : ℕ) (h : n ≤ cfg3.N) (hz : n ≠ 0) :
    inv V c n h = iprop(iprop(owns (c : Thread nD τ) accM fullShare ((heldAt V c (n - 1) (by omega)).2)
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

/-- The region's proof data on core `c`: the arrays as the region finds them; after the body each input's buffer at its
    block and the output's at `heldAt`; the invariant above; nothing owed; full shares. -/
def dat (c : Dev nD) : Dat τ (Elt F) Unit ℕ (UR sig nD τ) ℕ cfg3 c where
  A w := V c (Pipeline.arrRef spec3 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => blockAt V c 6 t
    | ⟨7, _⟩ => (heldAt V c t.val t.isLt).1
  Φ t := inv V c t.val (Nat.le_of_lt_succ t.isLt)
  q _ := fullShare
  owed _ := 0

theorem dat_A (c : Dev nD) (w : Fin cfg3.W) : (dat V c).A w = V c (Pipeline.arrRef spec3 w) := by
  dsimp only [dat]

theorem inv_castSucc (c : Dev nD) (t : Fin cfg3.N) :
    (dat V c).Φ t.castSucc = inv V c t.val (Nat.le_of_lt t.isLt) := by
  dsimp only [dat]; simp only [Fin.coe_castSucc]

theorem after_h (c : Dev nD) (t : Fin cfg3.N) : (dat V c).after 0 t = blockAt V c 0 t := by dsimp only [dat]
theorem after_wh (c : Dev nD) (t : Fin cfg3.N) : (dat V c).after 1 t = blockAt V c 1 t := by dsimp only [dat]
theorem after_x (c : Dev nD) (t : Fin cfg3.N) : (dat V c).after 2 t = blockAt V c 2 t := by dsimp only [dat]
theorem after_wx (c : Dev nD) (t : Fin cfg3.N) : (dat V c).after 3 t = blockAt V c 3 t := by dsimp only [dat]
theorem after_b (c : Dev nD) (t : Fin cfg3.N) : (dat V c).after 4 t = blockAt V c 4 t := by dsimp only [dat]
theorem after_g (c : Dev nD) (t : Fin cfg3.N) : (dat V c).after 5 t = blockAt V c 5 t := by dsimp only [dat]
theorem after_be (c : Dev nD) (t : Fin cfg3.N) : (dat V c).after 6 t = blockAt V c 6 t := by dsimp only [dat]
theorem after_out (c : Dev nD) (t : Fin cfg3.N) : (dat V c).after 7 t = (heldAt V c t.val t.isLt).1 := by dsimp only [dat]

theorem before_h (c : Dev nD) (t : Fin cfg3.N) (d) : (dat V c).before 0 t d = blockAt V c 0 t :=
  in_h_of V (dat V c) (dat_A V c 0) (after_h V c) t d
theorem before_wh (c : Dev nD) (t : Fin cfg3.N) (d) : (dat V c).before 1 t d = blockAt V c 1 t :=
  in_wh_of V (dat V c) (dat_A V c 1) (after_wh V c) t d
theorem before_x (c : Dev nD) (t : Fin cfg3.N) (d) : (dat V c).before 2 t d = blockAt V c 2 t :=
  in_x_of V (dat V c) (dat_A V c 2) (after_x V c) t d
theorem before_wx (c : Dev nD) (t : Fin cfg3.N) (d) : (dat V c).before 3 t d = blockAt V c 3 t :=
  in_wx_of V (dat V c) (dat_A V c 3) (after_wx V c) t d
theorem before_b (c : Dev nD) (t : Fin cfg3.N) (d) : (dat V c).before 4 t d = blockAt V c 4 t :=
  in_b_of V (dat V c) (dat_A V c 4) (after_b V c) t d
theorem before_g (c : Dev nD) (t : Fin cfg3.N) (d) : (dat V c).before 5 t d = blockAt V c 5 t :=
  in_g_of V (dat V c) (dat_A V c 5) (after_g V c) t d
theorem before_be (c : Dev nD) (t : Fin cfg3.N) (d) : (dat V c).before 6 t d = blockAt V c 6 t :=
  in_be_of V (dat V c) (dat_A V c 6) (after_be V c) t d

end Cert.Kernel.R3

end
-- ==== Proof.K.R3.Body.lean ====
/-
  The output gate logistic(LayerNorm(h·W_ho + x·W_xo + b_xo)), in the kernel as printed (pallas_call 3).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part four: the body obligation at every point.  The pipeline hands the body the invariant, the input buffers (each
  holding its block) and the output buffer.  Which case the point is in is decided by its position modulo 8; the case's
  triple then applies.  The accumulator comes out of the invariant at what the previous point left (at anything at the
  very first point) and goes back in at this point's contents; the remaining scoped buffers and the generator register
  pass through untouched.
-/
import proofs.«116394_j17480516895034_2_alg».proof.Proof.K.R3.Data

set_option maxRecDepth 16384

noncomputable section

namespace Cert.Kernel.R3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg3.N) : sProp 𝕄 :=
  iprop((dat V c).Φ t.castSucc ∗ (dat V c).owesAt () t.castSucc
    ∗ (∃ d, owns (c : Thread nD τ) (m_h t) fullShare ((dat V c).before 0 t d))
    ∗ (∃ d, owns (c : Thread nD τ) (m_wh t) fullShare ((dat V c).before 1 t d))
    ∗ (∃ d, owns (c : Thread nD τ) (m_x t) fullShare ((dat V c).before 2 t d))
    ∗ (∃ d, owns (c : Thread nD τ) (m_wx t) fullShare ((dat V c).before 3 t d))
    ∗ (∃ d, owns (c : Thread nD τ) (m_b t) fullShare ((dat V c).before 4 t d))
    ∗ (∃ d, owns (c : Thread nD τ) (m_g t) fullShare ((dat V c).before 5 t d))
    ∗ (∃ d, owns (c : Thread nD τ) (m_be t) fullShare ((dat V c).before 6 t d))
    ∗ (∃ d, owns (c : Thread nD τ) (m_out t) fullShare ((dat V c).before 7 t d)))

/-- and what it returns. -/
def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 4800000 in
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_h, before_wh, before_x, before_wx, before_b, before_g, before_be]
  rw [show (dat V c).owesAt () t.succ = (dat V c).owesAt () t.castSucc from rfl]
  rw [show (dat V c).Φ t.succ = inv V c (t.val + 1) t.isLt from rfl, inv_succ]
  have hN : t.val < 16 := lt_of_lt_of_eq t.isLt (show cfg3.N = 16 from N_3)
  rw [show (dat V c).leavesExact 0 t = owns (c : Thread nD τ) (m_h t) fullShare ((dat V c).after 0 t) from by
    unfold Dat.leavesExact; rw [live_h t], after_h]
  rw [show (dat V c).leavesExact 1 t = owns (c : Thread nD τ) (m_wh t) fullShare ((dat V c).after 1 t) from by
    unfold Dat.leavesExact; rw [live_wh t], after_wh]
  rw [show (dat V c).leavesExact 2 t = owns (c : Thread nD τ) (m_x t) fullShare ((dat V c).after 2 t) from by
    unfold Dat.leavesExact; rw [live_x t], after_x]
  rw [show (dat V c).leavesExact 3 t = owns (c : Thread nD τ) (m_wx t) fullShare ((dat V c).after 3 t) from by
    unfold Dat.leavesExact; rw [live_wx t], after_wx]
  rw [show (dat V c).leavesExact 4 t = owns (c : Thread nD τ) (m_b t) fullShare ((dat V c).after 4 t) from by
    unfold Dat.leavesExact; rw [live_b t], after_b]
  rw [show (dat V c).leavesExact 5 t = owns (c : Thread nD τ) (m_g t) fullShare ((dat V c).after 5 t) from by
    unfold Dat.leavesExact; rw [live_g t], after_g]
  rw [show (dat V c).leavesExact 6 t = owns (c : Thread nD τ) (m_be t) fullShare ((dat V c).after 6 t) from by
    unfold Dat.leavesExact; rw [live_be t], after_be]
  by_cases h0 : t.val % 8 = 0
  · have h7 : ¬t.val % 8 = 7 := by omega
    rw [Dat.leavesExact_idle (dat V c) 7 t (idle_out t (fun h => h7 ((atLast_iff t).mp h))) (noFlush_out t (fun h => h7 ((atLast_iff t).mp h)))]
    rw [heldAt_first V c t h0 h7]
    unfold accFirst; (try dsimp only)
    by_cases hz : t.val = 0
    · rw [inv_castSucc V c t, inv_zero V c _ _ hz, handed_eq]
      iintro ⟨⟨⟨HA, Hrest⟩, Hg⟩, Ho, ⟨%d0, H0⟩, ⟨%d1, H1⟩, ⟨%d2, H2⟩, ⟨%d3, H3⟩, ⟨%d4, H4⟩, ⟨%d5, H5⟩, ⟨%d6, H6⟩, ⟨%dO, HO⟩⟩
      iapply ((runFirst c (grid3.coords t) _ _ _ _ _ _ _ _ _ _ _ _ _ _ _ _ _ _ ((atFirst_iff t).mpr h0) (fun h => h7 ((atLast_iff t).mp h)) (blockAt V c 0 t) (blockAt V c 1 t) (blockAt V c 2 t) (blockAt V c 3 t) (blockAt V c 4 t) (blockAt V c 5 t) (blockAt V c 6 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HO]; · iexact HO
      isplitl [HA]; · iexact HA
      iintro ⟨H0, H1, H2, H3, H4, H5, H6, HO, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_first c _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact HO
    · rw [inv_castSucc V c t, inv_pos V c _ _ hz]
      iintro ⟨⟨⟨HA, Hrest⟩, Hg⟩, Ho, ⟨%d0, H0⟩, ⟨%d1, H1⟩, ⟨%d2, H2⟩, ⟨%d3, H3⟩, ⟨%d4, H4⟩, ⟨%d5, H5⟩, ⟨%d6, H6⟩, ⟨%dO, HO⟩⟩
      iapply ((runFirst c (grid3.coords t) _ _ _ _ _ _ _ _ _ _ _ _ _ _ _ _ _ _ ((atFirst_iff t).mpr h0) (fun h => h7 ((atLast_iff t).mp h)) (blockAt V c 0 t) (blockAt V c 1 t) (blockAt V c 2 t) (blockAt V c 3 t) (blockAt V c 4 t) (blockAt V c 5 t) (blockAt V c 6 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HO]; · iexact HO
      isplitl [HA]; · iexists _; iexact HA
      iintro ⟨H0, H1, H2, H3, H4, H5, H6, HO, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_first c _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact HO
  · have hz : t.val ≠ 0 := fun e => h0 (by rw [e])
    by_cases h7 : t.val % 8 = 7
    · rw [show (dat V c).leavesExact 7 t = owns (c : Thread nD τ) (m_out t) fullShare ((dat V c).after 7 t) from by
        unfold Dat.leavesExact; rw [live_out t ((atLast_iff t).mpr h7)], after_out]
      rw [heldAt_last V c t h0 h7]
      unfold outLast accLast; (try dsimp only)
      rw [inv_castSucc V c t, inv_pos V c _ _ hz]
      iintro ⟨⟨⟨HA, Hrest⟩, Hg⟩, Ho, ⟨%d0, H0⟩, ⟨%d1, H1⟩, ⟨%d2, H2⟩, ⟨%d3, H3⟩, ⟨%d4, H4⟩, ⟨%d5, H5⟩, ⟨%d6, H6⟩, ⟨%dO, HO⟩⟩
      iapply ((runLast c (grid3.coords t) _ _ _ _ _ _ _ _ _ _ _ _ _ _ _ _ _ _ (fun h => h0 ((atFirst_iff t).mp h)) ((atLast_iff t).mpr h7) (blockAt V c 0 t) (blockAt V c 1 t) (blockAt V c 2 t) (blockAt V c 3 t) (blockAt V c 4 t) (blockAt V c 5 t) (blockAt V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HO]; · iexists _; iexact HO
      isplitl [HA]; · iexact HA
      iintro ⟨H0, H1, H2, H3, H4, H5, H6, ⟨%eO, HO⟩, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_last c _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact HO
      ipureintro; exact View.read_writes_of_cover _ _ _ _ _ (outCover_last c _ _ _ _ _ _ _ _ _ _ _ _ _ _ _ _ _ _ _ _ _ _ _ _ _ _ _ _ _)
    · rw [Dat.leavesExact_idle (dat V c) 7 t (idle_out t (fun h => h7 ((atLast_iff t).mp h))) (noFlush_out t (fun h => h7 ((atLast_iff t).mp h)))]
      rw [heldAt_mid V c t h0 h7]
      unfold accMid; (try dsimp only)
      rw [inv_castSucc V c t, inv_pos V c _ _ hz]
      iintro ⟨⟨⟨HA, Hrest⟩, Hg⟩, Ho, ⟨%d0, H0⟩, ⟨%d1, H1⟩, ⟨%d2, H2⟩, ⟨%d3, H3⟩, ⟨%d4, H4⟩, ⟨%d5, H5⟩, ⟨%d6, H6⟩, ⟨%dO, HO⟩⟩
      iapply ((runMid c (grid3.coords t) _ _ _ _ _ _ _ _ _ _ _ _ _ _ _ _ _ _ (fun h => h0 ((atFirst_iff t).mp h)) (fun h => h7 ((atLast_iff t).mp h)) (blockAt V c 0 t) (blockAt V c 1 t) (blockAt V c 2 t) (blockAt V c 3 t) (blockAt V c 4 t) (blockAt V c 5 t) (blockAt V c 6 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HO]; · iexact HO
      isplitl [HA]; · iexact HA
      iintro ⟨H0, H1, H2, H3, H4, H5, H6, HO, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_mid c _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact HO

/-- The body obligation, at every point. -/
theorem body_obligation (c : Dev nD) : BodyObligation (dat (F := F) V c) (defs₀ (F := F)) Variants.none () Set.univ := fun t => by
  rw [bigSep_W3, bigSep_W3]
  exact sound_body V c t

/-- What the launch hands the region is the invariant before the first point. -/
theorem inv_enter (c : Dev nD) : Pipeline.ΦA spec3 c ⊢ (dat V c).Φ 0 := by
  rw [show (dat V c).Φ 0 = inv V c 0 (Nat.zero_le _) from rfl, inv_zero V c 0 _ rfl]
  try exact Idealize.SL.BI.Entails.refl _

/-- After the last point the invariant gives that back: what the accumulator holds is forgotten. -/
theorem inv_leave (c : Dev nD) : (dat V c).Φ (Fin.last cfg3.N) ⊢ Pipeline.ΦA spec3 c := by
  have ht : (Fin.last cfg3.N).val ≠ 0 := by rw [Fin.val_last]; have : cfg3.N = 16 := N_3; omega
  rw [show (dat V c).Φ (Fin.last cfg3.N) = inv V c (Fin.last cfg3.N).val (Nat.le_of_lt_succ (Fin.last cfg3.N).isLt) from rfl,
    inv_pos V c _ _ ht, handed_eq]
  iintro ⟨⟨HA, Hrest⟩, Hg⟩
  isplitl [HA Hrest]
  · isplitl [HA]
    · iexists _; iexact HA
    iexact Hrest
  iexact Hg

end Cert.Kernel.R3

end
-- ==== Proof.K.R4.Base.lean ====
/-
  The cell state c' = f·c + g·i, in the kernel as printed (pallas_call 4).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part one, names: a window's block at a point read off the array as the region finds it; that an input's staging
  buffer holds its block at every point, fetched there or not; the two conditions k = 0 and k = 7 in closed form over
  the sixteen points; where the output window is idle; the staging and scratch memrefs the body is called with.
  Everything is stated at any float instance.
-/
import proofs.«116394_j17480516895034_2_alg».proof.Proof.Gen.Kernel.Launch
import proofs.«116394_j17480516895034_2_alg».proof.Proof.Gen.Kernel.Skeleton
import proofs.«116394_j17480516895034_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-- Window `w`'s block at point `t`, read off its array as the region finds it. -/
def blockAt (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's block is in its staging buffer at every point, for any proof data over these arrays whose body leaves it there. -/
theorem in_f_of {c : Dev nD} (dat : Dat τ (Elt F) Unit ℕ (UR sig nD τ) ℕ cfg4 c) (hA : dat.A 0 = V c (Pipeline.arrRef spec4 0))
    (hafter : ∀ t, dat.after 0 t = blockAt V c 0 t) (t : Fin cfg4.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's block is in its staging buffer at every point, for any proof data over these arrays whose body leaves it there. -/
theorem in_c_of {c : Dev nD} (dat : Dat τ (Elt F) Unit ℕ (UR sig nD τ) ℕ cfg4 c) (hA : dat.A 1 = V c (Pipeline.arrRef spec4 1))
    (hafter : ∀ t, dat.after 1 t = blockAt V c 1 t) (t : Fin cfg4.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's block is in its staging buffer at every point, for any proof data over these arrays whose body leaves it there. -/
theorem in_g_of {c : Dev nD} (dat : Dat τ (Elt F) Unit ℕ (UR sig nD τ) ℕ cfg4 c) (hA : dat.A 2 = V c (Pipeline.arrRef spec4 2))
    (hafter : ∀ t, dat.after 2 t = blockAt V c 2 t) (t : Fin cfg4.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's block is in its staging buffer at every point, for any proof data over these arrays whose body leaves it there. -/
theorem in_i_of {c : Dev nD} (dat : Dat τ (Elt F) Unit ℕ (UR sig nD τ) ℕ cfg4 c) (hA : dat.A 3 = V c (Pipeline.arrRef spec4 3))
    (hafter : ∀ t, dat.after 3 t = blockAt V c 3 t) (t : Fin cfg4.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## The two conditions -/

/-- k = 0: the accumulator is cleared. -/
abbrev atFirst (i : grid4.Coords) : Prop := (Scalar.cmpi .ne (Scalar.extui (Scalar.cmpi .eq (BitVec.ofNat 32 (i 1).val) 0#32)) 0#32) = 1#1
theorem atFirst_iff : ∀ t : Fin cfg4.N, atFirst (grid4.coords t) ↔ t.val % 8 = 0 :=
  (by decide +kernel : ∀ t : Fin grid4.N, atFirst (grid4.coords t) ↔ t.val % 8 = 0)

/-- k = 7: the result is stored. -/
abbrev atLast (i : grid4.Coords) : Prop := k4_cond2 i = 1#1
theorem atLast_iff : ∀ t : Fin cfg4.N, atLast (grid4.coords t) ↔ t.val % 8 = 7 :=
  (by decide +kernel : ∀ t : Fin grid4.N, atLast (grid4.coords t) ↔ t.val % 8 = 7)

/-! ## Where the windows are idle -/

theorem live_f : ∀ t : Fin cfg4.N, cfg4.idle 0 (grid4.coords t) = false := by decide +kernel
theorem live_c : ∀ t : Fin cfg4.N, cfg4.idle 1 (grid4.coords t) = false := by decide +kernel
theorem live_g : ∀ t : Fin cfg4.N, cfg4.idle 2 (grid4.coords t) = false := by decide +kernel
theorem live_i : ∀ t : Fin cfg4.N, cfg4.idle 3 (grid4.coords t) = false := by decide +kernel
/-- Away from k = 7 the output window is idle and not written back. -/
theorem idle_out : ∀ t : Fin cfg4.N, ¬atLast (grid4.coords t) → cfg4.idle 4 (grid4.coords t) = true := by decide +kernel
theorem noFlush_out : ∀ t : Fin cfg4.N, ¬atLast (grid4.coords t) → (cfg4.win 4).flush t = false := by decide +kernel
/-- At k = 7 it is live. -/
theorem live_out : ∀ t : Fin cfg4.N, atLast (grid4.coords t) → cfg4.idle 4 (grid4.coords t) = false := by decide +kernel

/-! ## The memrefs the body is called with -/

/-- One staging buffer of the output window, through which its contents are stated. -/
abbrev outView : View sig .tc .vmem S1024x2048 .f32 := (Memref.whole cc4_stg4_0 : Memref sig .tc .vmem S1024x2048 .f32).view
abbrev m_f (t : Fin cfg4.N) : Memref sig .tc .vmem S1024x256 .f32 := win4_0.stage (cfg4.slots t 0)
abbrev hm_f (t : Fin cfg4.N) : (m_f t).IsWhole := hstage4_0 ((cfg4.slots t 0).cast nbuf4_0)
abbrev m_c (t : Fin cfg4.N) : Memref sig .tc .vmem S256x2048 .f32 := win4_1.stage (cfg4.slots t 1)
abbrev hm_c (t : Fin cfg4.N) : (m_c t).IsWhole := hstage4_1 ((cfg4.slots t 1).cast nbuf4_1)
abbrev m_g (t : Fin cfg4.N) : Memref sig .tc .vmem S1024x256 .f32 := win4_2.stage (cfg4.slots t 2)
abbrev hm_g (t : Fin cfg4.N) : (m_g t).IsWhole := hstage4_2 ((cfg4.slots t 2).cast nbuf4_2)
abbrev m_i (t : Fin cfg4.N) : Memref sig .tc .vmem S256x2048 .f32 := win4_3.stage (cfg4.slots t 3)
abbrev hm_i (t : Fin cfg4.N) : (m_i t).IsWhole := hstage4_3 ((cfg4.slots t 3).cast nbuf4_3)
abbrev m_out (t : Fin cfg4.N) : Memref sig .tc .vmem S1024x2048 .f32 := win4_4.stage (cfg4.slots t 4)
abbrev hm_out (t : Fin cfg4.N) : (m_out t).IsWhole := hstage4_4 ((cfg4.slots t 4).cast nbuf4_4)
/-- The accumulator: a whole scoped buffer of the kernel's own. -/
abbrev accM : Memref sig .tc .vmem S1024x2048 .f32 := Memref.whole cc4_scratch0
abbrev accView : View sig .tc .vmem S1024x2048 .f32 := accM.view

/-- What the launch hands the region, with the accumulator taken out of the scoped buffers no window stages. -/
theorem handed_eq (c : Dev nD) :
    (Pipeline.ΦA spec4 c : sProp 𝕄)
      = iprop(iprop(iprop((∃ d, owns (c : Thread nD τ) accM fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [accM, owns_whole]; try rfl

end Cert.Kernel.R4

end
-- ==== Proof.K.R4.Runs.lean ====
/-
  The cell state c' = f·c + g·i, in the kernel as printed (pallas_call 4).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part two: the body's triple in each of its three cases.  On whole staging memrefs holding the input blocks the body
  runs without fault and gives the input buffers back unchanged.  What it does to the accumulator and to the output
  buffer depends on the point:
    k = 0      the accumulator, whatever it held, ends as its stores leave it; the output buffer is not touched;
    0 < k < 7  the accumulator, at known contents, ends as its stores leave it; the output buffer is not touched;
    k = 7      as before, and the output buffer, whatever it held, ends as its one store leaves it.
  The stores are not transcribed: each case is a subtype whose witness — the list of pieces stored, last first — the
  symbolic run of the body finds.
-/
import proofs.«116394_j17480516895034_2_alg».proof.Proof.K.R4.Base

set_option maxRecDepth 16384

noncomputable section

namespace Cert.Kernel.R4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- k = 0. -/
noncomputable def runFirst (c : Dev nD) (i : grid4.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1024x2048 .f32) (harg6 : arg6.IsWhole) (arg7 : Memref sig .tc .vmem S1024x2048 .f32) (harg7 : arg7.IsWhole) (h0 : atFirst i) (h7 : ¬atLast i)
    (xf : Vec F S1024x256 .f32) (xc : Vec F S256x2048 .f32) (xg : Vec F S1024x256 .f32) (xi : Vec F S256x2048 .f32) :
    { LA : List (View.Piece (Elt F) S1024x2048 .f32) //
      ∀ (xout : Vec F S1024x2048 .f32) (E : Set ℕ) (K : PUnit → sProp 𝕄),
        iprop(owns (c : Thread nD τ) arg2 fullShare xf ∗ owns (c : Thread nD τ) arg3 fullShare xc ∗ owns (c : Thread nD τ) arg4 fullShare xg ∗ owns (c : Thread nD τ) arg5 fullShare xi ∗ owns (c : Thread nD τ) arg6 fullShare xout ∗ (∃ d, owns (c : Thread nD τ) arg7 fullShare d)
            ∗ (iprop(owns (c : Thread nD τ) arg2 fullShare xf ∗ owns (c : Thread nD τ) arg3 fullShare xc ∗ owns (c : Thread nD τ) arg4 fullShare xg ∗ owns (c : Thread nD τ) arg5 fullShare xi ∗ owns (c : Thread nD τ) arg6 fullShare xout ∗ (∃ f, arg7.view.loc (c : Thread nD τ) ↦[arg7.view.set]{fullShare} arg7.view.writes (Elt F) f LA)) -∗ K ⟨⟩))
          ⊢ wp frame (wpE (defs₀ (F := F)) Variants.none c none) E (cc4_matmul2_hp_kernel i arg2 harg2 arg3 harg3 arg4 harg4 arg5 harg5 arg6 harg6 arg7 harg7) K } := by
  refine ⟨?_, fun xout E K => ?run⟩
  case run =>
    simp only [cc4_matmul2_hp_kernel_eq_skeleton]; unfold cc4_matmul2_hp_kernel_skel
    simp only [k4_part1_eq_skeleton]; unfold k4_part1_skel
    unfold owns
    iintro ⟨⟨%f0, %hf0, H0⟩, ⟨%f1, %hf1, H1⟩, ⟨%f2, %hf2, H2⟩, ⟨%f3, %hf3, H3⟩, ⟨%fo, %hfo, HO⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hfo
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]
    · iexists _; isplitr; · ipureintro; exact harg6.read_unread _
      iexact HO
    iexists _; iexact HS

set_option maxHeartbeats 2000000 in
/-- 0 < k < 7. -/
noncomputable def runMid (c : Dev nD) (i : grid4.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1024x2048 .f32) (harg6 : arg6.IsWhole) (arg7 : Memref sig .tc .vmem S1024x2048 .f32) (harg7 : arg7.IsWhole) (h0 : ¬atFirst i) (h7 : ¬atLast i)
    (xf : Vec F S1024x256 .f32) (xc : Vec F S256x2048 .f32) (xg : Vec F S1024x256 .f32) (xi : Vec F S256x2048 .f32) (xa : Vec F S1024x2048 .f32) :
    { LA : List (View.Piece (Elt F) S1024x2048 .f32) //
      ∀ (xout : Vec F S1024x2048 .f32) (E : Set ℕ) (K : PUnit → sProp 𝕄),
        iprop(owns (c : Thread nD τ) arg2 fullShare xf ∗ owns (c : Thread nD τ) arg3 fullShare xc ∗ owns (c : Thread nD τ) arg4 fullShare xg ∗ owns (c : Thread nD τ) arg5 fullShare xi ∗ owns (c : Thread nD τ) arg6 fullShare xout ∗ owns (c : Thread nD τ) arg7 fullShare xa
            ∗ (iprop(owns (c : Thread nD τ) arg2 fullShare xf ∗ owns (c : Thread nD τ) arg3 fullShare xc ∗ owns (c : Thread nD τ) arg4 fullShare xg ∗ owns (c : Thread nD τ) arg5 fullShare xi ∗ owns (c : Thread nD τ) arg6 fullShare xout ∗ (∃ f, arg7.view.loc (c : Thread nD τ) ↦[arg7.view.set]{fullShare} arg7.view.writes (Elt F) f LA)) -∗ K ⟨⟩))
          ⊢ wp frame (wpE (defs₀ (F := F)) Variants.none c none) E (cc4_matmul2_hp_kernel i arg2 harg2 arg3 harg3 arg4 harg4 arg5 harg5 arg6 harg6 arg7 harg7) K } := by
  refine ⟨?_, fun xout E K => ?run⟩
  case run =>
    simp only [cc4_matmul2_hp_kernel_eq_skeleton]; unfold cc4_matmul2_hp_kernel_skel
    simp only [k4_part1_eq_skeleton]; unfold k4_part1_skel
    unfold owns
    iintro ⟨⟨%f0, %hf0, H0⟩, ⟨%f1, %hf1, H1⟩, ⟨%f2, %hf2, H2⟩, ⟨%f3, %hf3, H3⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfo; obtain rfl := harg7.eq_unread hfs
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]
    · iexists _; isplitr; · ipureintro; exact harg6.read_unread _
      iexact HO
    iexists _; iexact HS

set_option maxHeartbeats 2000000 in
/-- k = 7. -/
noncomputable def runLast (c : Dev nD) (i : grid4.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1024x2048 .f32) (harg6 : arg6.IsWhole) (arg7 : Memref sig .tc .vmem S1024x2048 .f32) (harg7 : arg7.IsWhole) (h0 : ¬atFirst i) (h7 : atLast i)
    (xf : Vec F S1024x256 .f32) (xc : Vec F S256x2048 .f32) (xg : Vec F S1024x256 .f32) (xi : Vec F S256x2048 .f32) (xa : Vec F S1024x2048 .f32) :
    Σ' (LO : List (View.Piece (Elt F) S1024x2048 .f32)), { LA : List (View.Piece (Elt F) S1024x2048 .f32) //
      ∀ (E : Set ℕ) (K : PUnit → sProp 𝕄),
        iprop(owns (c : Thread nD τ) arg2 fullShare xf ∗ owns (c : Thread nD τ) arg3 fullShare xc ∗ owns (c : Thread nD τ) arg4 fullShare xg ∗ owns (c : Thread nD τ) arg5 fullShare xi ∗ (∃ d, owns (c : Thread nD τ) arg6 fullShare d) ∗ owns (c : Thread nD τ) arg7 fullShare xa
            ∗ (iprop(owns (c : Thread nD τ) arg2 fullShare xf ∗ owns (c : Thread nD τ) arg3 fullShare xc ∗ owns (c : Thread nD τ) arg4 fullShare xg ∗ owns (c : Thread nD τ) arg5 fullShare xi ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LA)) -∗ K ⟨⟩))
          ⊢ wp frame (wpE (defs₀ (F := F)) Variants.none c none) E (cc4_matmul2_hp_kernel i arg2 harg2 arg3 harg3 arg4 harg4 arg5 harg5 arg6 harg6 arg7 harg7) K } := by
  refine ⟨?_, ?_, fun E K => ?run⟩
  case run =>
    simp only [cc4_matmul2_hp_kernel_eq_skeleton]; unfold cc4_matmul2_hp_kernel_skel
    simp only [k4_part1_eq_skeleton]; unfold k4_part1_skel
    unfold owns
    iintro ⟨⟨%f0, %hf0, H0⟩, ⟨%f1, %hf1, H1⟩, ⟨%f2, %hf2, H2⟩, ⟨%f3, %hf3, H3⟩, ⟨%dO, %fo, -, HO⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]; · iexists _; iexact HO
    iexists _; iexact HS

end Cert.Kernel.R4

end
-- ==== Proof.K.R4.Data.lean ====
/-
  The cell state c' = f·c + g·i, in the kernel as printed (pallas_call 4).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part three: what the buffers hold point by point.  After the body at position n the accumulator holds what that
  point's case leaves in it — at k = 0 from nothing, at every later k from what position n − 1 left — and, at k = 7,
  the output buffer holds what its one store leaves.  The region's invariant carries the accumulator at these contents
  from one point to the next, beside the other scoped buffers no window stages and the generator register, neither of
  which the body touches.
-/
import proofs.«116394_j17480516895034_2_alg».proof.Proof.K.R4.Runs

set_option maxRecDepth 16384

noncomputable section

namespace Cert.Kernel.R4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem accCover_first (c : Dev nD) (i : grid4.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1024x2048 .f32) (harg6 : arg6.IsWhole) (arg7 : Memref sig .tc .vmem S1024x2048 .f32) (harg7 : arg7.IsWhole) (h0 : atFirst i) (h7 : ¬atLast i) (xf : Vec F S1024x256 .f32) (xc : Vec F S256x2048 .f32) (xg : Vec F S1024x256 .f32) (xi : Vec F S256x2048 .f32) (y : S1024x2048.Idx) :
    ∃ pc ∈ (runFirst c i arg2 harg2 arg3 harg3 arg4 harg4 arg5 harg5 arg6 harg6 arg7 harg7 h0 h7 xf xc xg xi).1, y ∈ pc.1.set :=
  View.cover_of_tiledL (runFirst c i arg2 harg2 arg3 harg3 arg4 harg4 arg5 harg5 arg6 harg6 arg7 harg7 h0 h7 xf xc xg xi).1 S1024x2048.size (by sl_kernel_rfl) y

/-- The accumulator after a point with k = 0. -/
def accFirst (c : Dev nD) (i : grid4.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1024x2048 .f32) (harg6 : arg6.IsWhole) (arg7 : Memref sig .tc .vmem S1024x2048 .f32) (harg7 : arg7.IsWhole) (h0 : atFirst i) (h7 : ¬atLast i) (xf : Vec F S1024x256 .f32) (xc : Vec F S256x2048 .f32) (xg : Vec F S1024x256 .f32) (xi : Vec F S256x2048 .f32) : Vec F S1024x2048 .f32 :=
  accView.read (Elt F) (accView.writes (Elt F) accView.junk (runFirst c i arg2 harg2 arg3 harg3 arg4 harg4 arg5 harg5 arg6 harg6 arg7 harg7 h0 h7 xf xc xg xi).1)

theorem accCover_mid (c : Dev nD) (i : grid4.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1024x2048 .f32) (harg6 : arg6.IsWhole) (arg7 : Memref sig .tc .vmem S1024x2048 .f32) (harg7 : arg7.IsWhole) (h0 : ¬atFirst i) (h7 : ¬atLast i) (xf : Vec F S1024x256 .f32) (xc : Vec F S256x2048 .f32) (xg : Vec F S1024x256 .f32) (xi : Vec F S256x2048 .f32) (xa : Vec F S1024x2048 .f32) (y : S1024x2048.Idx) :
    ∃ pc ∈ (runMid c i arg2 harg2 arg3 harg3 arg4 harg4 arg5 harg5 arg6 harg6 arg7 harg7 h0 h7 xf xc xg xi xa).1, y ∈ pc.1.set :=
  View.cover_of_tiledL (runMid c i arg2 harg2 arg3 harg3 arg4 harg4 arg5 harg5 arg6 harg6 arg7 harg7 h0 h7 xf xc xg xi xa).1 S1024x2048.size (by sl_kernel_rfl) y

/-- The accumulator after a point with 0 < k < 7. -/
def accMid (c : Dev nD) (i : grid4.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1024x2048 .f32) (harg6 : arg6.IsWhole) (arg7 : Memref sig .tc .vmem S1024x2048 .f32) (harg7 : arg7.IsWhole) (h0 : ¬atFirst i) (h7 : ¬atLast i) (xf : Vec F S1024x256 .f32) (xc : Vec F S256x2048 .f32) (xg : Vec F S1024x256 .f32) (xi : Vec F S256x2048 .f32) (xa : Vec F S1024x2048 .f32) : Vec F S1024x2048 .f32 :=
  accView.read (Elt F) (accView.writes (Elt F) accView.junk (runMid c i arg2 harg2 arg3 harg3 arg4 harg4 arg5 harg5 arg6 harg6 arg7 harg7 h0 h7 xf xc xg xi xa).1)

theorem outCover_last (c : Dev nD) (i : grid4.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1024x2048 .f32) (harg6 : arg6.IsWhole) (arg7 : Memref sig .tc .vmem S1024x2048 .f32) (harg7 : arg7.IsWhole) (h0 : ¬atFirst i) (h7 : atLast i) (xf : Vec F S1024x256 .f32) (xc : Vec F S256x2048 .f32) (xg : Vec F S1024x256 .f32) (xi : Vec F S256x2048 .f32) (xa : Vec F S1024x2048 .f32) (y : S1024x2048.Idx) :
    ∃ pc ∈ (runLast c i arg2 harg2 arg3 harg3 arg4 harg4 arg5 harg5 arg6 harg6 arg7 harg7 h0 h7 xf xc xg xi xa).1, y ∈ pc.1.set :=
  View.cover_of_tiledL (runLast c i arg2 harg2 arg3 harg3 arg4 harg4 arg5 harg5 arg6 harg6 arg7 harg7 h0 h7 xf xc xg xi xa).1 S1024x2048.size (by sl_kernel_rfl) y

/-- The output buffer after a point with k = 7. -/
def outLast (c : Dev nD) (i : grid4.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1024x2048 .f32) (harg6 : arg6.IsWhole) (arg7 : Memref sig .tc .vmem S1024x2048 .f32) (harg7 : arg7.IsWhole) (h0 : ¬atFirst i) (h7 : atLast i) (xf : Vec F S1024x256 .f32) (xc : Vec F S256x2048 .f32) (xg : Vec F S1024x256 .f32) (xi : Vec F S256x2048 .f32) (xa : Vec F S1024x2048 .f32) : Vec F S1024x2048 .f32 :=
  outView.read (Elt F) (outView.writes (Elt F) outView.junk (runLast c i arg2 harg2 arg3 harg3 arg4 harg4 arg5 harg5 arg6 harg6 arg7 harg7 h0 h7 xf xc xg xi xa).1)

theorem accCover_last (c : Dev nD) (i : grid4.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1024x2048 .f32) (harg6 : arg6.IsWhole) (arg7 : Memref sig .tc .vmem S1024x2048 .f32) (harg7 : arg7.IsWhole) (h0 : ¬atFirst i) (h7 : atLast i) (xf : Vec F S1024x256 .f32) (xc : Vec F S256x2048 .f32) (xg : Vec F S1024x256 .f32) (xi : Vec F S256x2048 .f32) (xa : Vec F S1024x2048 .f32) (y : S1024x2048.Idx) :
    ∃ pc ∈ (runLast c i arg2 harg2 arg3 harg3 arg4 harg4 arg5 harg5 arg6 harg6 arg7 harg7 h0 h7 xf xc xg xi xa).2.1, y ∈ pc.1.set :=
  View.cover_of_tiledL (runLast c i arg2 harg2 arg3 harg3 arg4 harg4 arg5 harg5 arg6 harg6 arg7 harg7 h0 h7 xf xc xg xi xa).2.1 S1024x2048.size (by sl_kernel_rfl) y

/-- The accumulator after a point with k = 7. -/
def accLast (c : Dev nD) (i : grid4.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1024x2048 .f32) (harg6 : arg6.IsWhole) (arg7 : Memref sig .tc .vmem S1024x2048 .f32) (harg7 : arg7.IsWhole) (h0 : ¬atFirst i) (h7 : atLast i) (xf : Vec F S1024x256 .f32) (xc : Vec F S256x2048 .f32) (xg : Vec F S1024x256 .f32) (xi : Vec F S256x2048 .f32) (xa : Vec F S1024x2048 .f32) : Vec F S1024x2048 .f32 :=
  accView.read (Elt F) (accView.writes (Elt F) accView.junk (runLast c i arg2 harg2 arg3 harg3 arg4 harg4 arg5 harg5 arg6 harg6 arg7 harg7 h0 h7 xf xc xg xi xa).2.1)

/-! ## Point by point -/

/-- After the body at position `n`: the output buffer (meaningful at k = 7 only; elsewhere nothing consults it) and the
    accumulator. -/
def heldAt (c : Dev nD) : (n : ℕ) → n < cfg4.N → Vec F S1024x2048 .f32 × Vec F S1024x2048 .f32
  | 0, hn => (outView.read (Elt F) outView.junk,
      accFirst c (grid4.coords ⟨0, hn⟩) (m_f ⟨0, hn⟩) (hm_f ⟨0, hn⟩) (m_c ⟨0, hn⟩) (hm_c ⟨0, hn⟩) (m_g ⟨0, hn⟩) (hm_g ⟨0, hn⟩) (m_i ⟨0, hn⟩) (hm_i ⟨0, hn⟩) (m_out ⟨0, hn⟩) (hm_out ⟨0, hn⟩) accM (Memref.isWhole_whole _) ((atFirst_iff ⟨0, hn⟩).mpr (Nat.zero_mod _)) (fun h => (fun h => by (try dsimp only at h); omega) ((atLast_iff ⟨0, hn⟩).mp h)) (blockAt V c 0 ⟨0, hn⟩) (blockAt V c 1 ⟨0, hn⟩) (blockAt V c 2 ⟨0, hn⟩) (blockAt V c 3 ⟨0, hn⟩))
  | n + 1, hn =>
    if h0 : (n + 1) % 8 = 0 then
      if h7 : (n + 1) % 8 = 7 then
        False.elim (by omega)
      else
        (outView.read (Elt F) outView.junk,
          accFirst c (grid4.coords ⟨n + 1, hn⟩) (m_f ⟨n + 1, hn⟩) (hm_f ⟨n + 1, hn⟩) (m_c ⟨n + 1, hn⟩) (hm_c ⟨n + 1, hn⟩) (m_g ⟨n + 1, hn⟩) (hm_g ⟨n + 1, hn⟩) (m_i ⟨n + 1, hn⟩) (hm_i ⟨n + 1, hn⟩) (m_out ⟨n + 1, hn⟩) (hm_out ⟨n + 1, hn⟩) accM (Memref.isWhole_whole _) ((atFirst_iff ⟨n + 1, hn⟩).mpr h0) (fun h => h7 ((atLast_iff ⟨n + 1, hn⟩).mp h)) (blockAt V c 0 ⟨n + 1, hn⟩) (blockAt V c 1 ⟨n + 1, hn⟩) (blockAt V c 2 ⟨n + 1, hn⟩) (blockAt V c 3 ⟨n + 1, hn⟩))
    else
      if h7 : (n + 1) % 8 = 7 then
        (outLast c (grid4.coords ⟨n + 1, hn⟩) (m_f ⟨n + 1, hn⟩) (hm_f ⟨n + 1, hn⟩) (m_c ⟨n + 1, hn⟩) (hm_c ⟨n + 1, hn⟩) (m_g ⟨n + 1, hn⟩) (hm_g ⟨n + 1, hn⟩) (m_i ⟨n + 1, hn⟩) (hm_i ⟨n + 1, hn⟩) (m_out ⟨n + 1, hn⟩) (hm_out ⟨n + 1, hn⟩) accM (Memref.isWhole_whole _) (fun h => h0 ((atFirst_iff ⟨n + 1, hn⟩).mp h)) ((atLast_iff ⟨n + 1, hn⟩).mpr h7) (blockAt V c 0 ⟨n + 1, hn⟩) (blockAt V c 1 ⟨n + 1, hn⟩) (blockAt V c 2 ⟨n + 1, hn⟩) (blockAt V c 3 ⟨n + 1, hn⟩) (heldAt c n (Nat.lt_of_succ_lt hn)).2,
          accLast c (grid4.coords ⟨n + 1, hn⟩) (m_f ⟨n + 1, hn⟩) (hm_f ⟨n + 1, hn⟩) (m_c ⟨n + 1, hn⟩) (hm_c ⟨n + 1, hn⟩) (m_g ⟨n + 1, hn⟩) (hm_g ⟨n + 1, hn⟩) (m_i ⟨n + 1, hn⟩) (hm_i ⟨n + 1, hn⟩) (m_out ⟨n + 1, hn⟩) (hm_out ⟨n + 1, hn⟩) accM (Memref.isWhole_whole _) (fun h => h0 ((atFirst_iff ⟨n + 1, hn⟩).mp h)) ((atLast_iff ⟨n + 1, hn⟩).mpr h7) (blockAt V c 0 ⟨n + 1, hn⟩) (blockAt V c 1 ⟨n + 1, hn⟩) (blockAt V c 2 ⟨n + 1, hn⟩) (blockAt V c 3 ⟨n + 1, hn⟩) (heldAt c n (Nat.lt_of_succ_lt hn)).2)
      else
        (outView.read (Elt F) outView.junk,
          accMid c (grid4.coords ⟨n + 1, hn⟩) (m_f ⟨n + 1, hn⟩) (hm_f ⟨n + 1, hn⟩) (m_c ⟨n + 1, hn⟩) (hm_c ⟨n + 1, hn⟩) (m_g ⟨n + 1, hn⟩) (hm_g ⟨n + 1, hn⟩) (m_i ⟨n + 1, hn⟩) (hm_i ⟨n + 1, hn⟩) (m_out ⟨n + 1, hn⟩) (hm_out ⟨n + 1, hn⟩) accM (Memref.isWhole_whole _) (fun h => h0 ((atFirst_iff ⟨n + 1, hn⟩).mp h)) (fun h => h7 ((atLast_iff ⟨n + 1, hn⟩).mp h)) (blockAt V c 0 ⟨n + 1, hn⟩) (blockAt V c 1 ⟨n + 1, hn⟩) (blockAt V c 2 ⟨n + 1, hn⟩) (blockAt V c 3 ⟨n + 1, hn⟩) (heldAt c n (Nat.lt_of_succ_lt hn)).2)

theorem heldAt_first (c : Dev nD) (t : Fin cfg4.N) (h0 : t.val % 8 = 0) (h7 : ¬t.val % 8 = 7) :
    heldAt V c t.val t.isLt = (outView.read (Elt F) outView.junk,
      accFirst c (grid4.coords t) (m_f t) (hm_f t) (m_c t) (hm_c t) (m_g t) (hm_g t) (m_i t) (hm_i t) (m_out t) (hm_out t) accM (Memref.isWhole_whole _) ((atFirst_iff t).mpr h0) (fun h => h7 ((atLast_iff t).mp h)) (blockAt V c 0 t) (blockAt V c 1 t) (blockAt V c 2 t) (blockAt V c 3 t)) := by
  obtain ⟨n, hn⟩ := t
  cases n with
  | zero => exact rfl
  | succ n => exact (dif_pos h0).trans ((dif_neg h7).trans rfl)

theorem heldAt_mid (c : Dev nD) (t : Fin cfg4.N) (h0 : ¬t.val % 8 = 0) (h7 : ¬t.val % 8 = 7) :
    heldAt V c t.val t.isLt = (outView.read (Elt F) outView.junk,
      accMid c (grid4.coords t) (m_f t) (hm_f t) (m_c t) (hm_c t) (m_g t) (hm_g t) (m_i t) (hm_i t) (m_out t) (hm_out t) accM (Memref.isWhole_whole _) (fun h => h0 ((atFirst_iff t).mp h)) (fun h => h7 ((atLast_iff t).mp h)) (blockAt V c 0 t) (blockAt V c 1 t) (blockAt V c 2 t) (blockAt V c 3 t)
        (heldAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h7).trans rfl)

theorem heldAt_last (c : Dev nD) (t : Fin cfg4.N) (h0 : ¬t.val % 8 = 0) (h7 : t.val % 8 = 7) :
    heldAt V c t.val t.isLt = (outLast c (grid4.coords t) (m_f t) (hm_f t) (m_c t) (hm_c t) (m_g t) (hm_g t) (m_i t) (hm_i t) (m_out t) (hm_out t) accM (Memref.isWhole_whole _) (fun h => h0 ((atFirst_iff t).mp h)) ((atLast_iff t).mpr h7) (blockAt V c 0 t) (blockAt V c 1 t) (blockAt V c 2 t) (blockAt V c 3 t)
        (heldAt V c (t.val - 1) (Nat.lt_of_le_of_lt (Nat.sub_le _ _) t.isLt)).2,
      accLast c (grid4.coords t) (m_f t) (hm_f t) (m_c t) (hm_c t) (m_g t) (hm_g t) (m_i t) (hm_i t) (m_out t) (hm_out t) accM (Memref.isWhole_whole _) (fun h => h0 ((atFirst_iff t).mp h)) ((atLast_iff t).mpr h7) (blockAt V c 0 t) (blockAt V c 1 t) (blockAt V c 2 t) (blockAt V c 3 t)
        (heldAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h7).trans rfl)

/-! ## The invariant -/

/-- Before position `n`: at the start what the launch hands the region; afterwards the accumulator at what position
    `n − 1` left in it, the other scoped buffers no window stages, and the generator register. -/
def inv (c : Dev nD) : (n : ℕ) → n ≤ cfg4.N → sProp 𝕄
  | 0, _ => Pipeline.ΦA spec4 c
  | n + 1, hn => iprop(iprop(owns (c : Thread nD τ) accM fullShare ((heldAt V c n hn).2)
      ∗ Pipeline.scopedRestBut (Ix := Unit) (Name := ℕ) (U := UR sig nD τ) (Lvl := ℕ) (Val := Elt F) spec4 c [cc4_scratch0]) ∗ (∃ r, prngReg c r))

theorem inv_zero (c : Dev nD) (n : ℕ) (h : n ≤ cfg4.N) (hz : n = 0) : inv V c n h = Pipeline.ΦA spec4 c := by
  subst hz; rfl

theorem inv_succ (c : Dev nD) (n : ℕ) (hn : n < cfg4.N) :
    inv V c (n + 1) hn = iprop(iprop(owns (c : Thread nD τ) accM fullShare ((heldAt V c n hn).2)
      ∗ Pipeline.scopedRestBut (Ix := Unit) (Name := ℕ) (U := UR sig nD τ) (Lvl := ℕ) (Val := Elt F) spec4 c [cc4_scratch0]) ∗ (∃ r, prngReg c r)) := rfl

theorem inv_pos (c : Dev nD) (n : ℕ) (h : n ≤ cfg4.N) (hz : n ≠ 0) :
    inv V c n h = iprop(iprop(owns (c : Thread nD τ) accM fullShare ((heldAt V c (n - 1) (by omega)).2)
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The proof data -/

/-- The region's proof data on core `c`: the arrays as the region finds them; after the body each input's buffer at its
    block and the output's at `heldAt`; the invariant above; nothing owed; full shares. -/
def dat (c : Dev nD) : Dat τ (Elt F) Unit ℕ (UR sig nD τ) ℕ cfg4 c where
  A w := V c (Pipeline.arrRef spec4 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => (heldAt V c t.val t.isLt).1
  Φ t := inv V c t.val (Nat.le_of_lt_succ t.isLt)
  q _ := fullShare
  owed _ := 0

theorem dat_A (c : Dev nD) (w : Fin cfg4.W) : (dat V c).A w = V c (Pipeline.arrRef spec4 w) := by
  dsimp only [dat]

theorem inv_castSucc (c : Dev nD) (t : Fin cfg4.N) :
    (dat V c).Φ t.castSucc = inv V c t.val (Nat.le_of_lt t.isLt) := by
  dsimp only [dat]; simp only [Fin.coe_castSucc]

theorem after_f (c : Dev nD) (t : Fin cfg4.N) : (dat V c).after 0 t = blockAt V c 0 t := by dsimp only [dat]
theorem after_c (c : Dev nD) (t : Fin cfg4.N) : (dat V c).after 1 t = blockAt V c 1 t := by dsimp only [dat]
theorem after_g (c : Dev nD) (t : Fin cfg4.N) : (dat V c).after 2 t = blockAt V c 2 t := by dsimp only [dat]
theorem after_i (c : Dev nD) (t : Fin cfg4.N) : (dat V c).after 3 t = blockAt V c 3 t := by dsimp only [dat]
theorem after_out (c : Dev nD) (t : Fin cfg4.N) : (dat V c).after 4 t = (heldAt V c t.val t.isLt).1 := by dsimp only [dat]

theorem before_f (c : Dev nD) (t : Fin cfg4.N) (d) : (dat V c).before 0 t d = blockAt V c 0 t :=
  in_f_of V (dat V c) (dat_A V c 0) (after_f V c) t d
theorem before_c (c : Dev nD) (t : Fin cfg4.N) (d) : (dat V c).before 1 t d = blockAt V c 1 t :=
  in_c_of V (dat V c) (dat_A V c 1) (after_c V c) t d
theorem before_g (c : Dev nD) (t : Fin cfg4.N) (d) : (dat V c).before 2 t d = blockAt V c 2 t :=
  in_g_of V (dat V c) (dat_A V c 2) (after_g V c) t d
theorem before_i (c : Dev nD) (t : Fin cfg4.N) (d) : (dat V c).before 3 t d = blockAt V c 3 t :=
  in_i_of V (dat V c) (dat_A V c 3) (after_i V c) t d

end Cert.Kernel.R4

end
-- ==== Proof.K.R4.Body.lean ====
/-
  The cell state c' = f·c + g·i, in the kernel as printed (pallas_call 4).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part four: the body obligation at every point.  The pipeline hands the body the invariant, the input buffers (each
  holding its block) and the output buffer.  Which case the point is in is decided by its position modulo 8; the case's
  triple then applies.  The accumulator comes out of the invariant at what the previous point left (at anything at the
  very first point) and goes back in at this point's contents; the remaining scoped buffers and the generator register
  pass through untouched.
-/
import proofs.«116394_j17480516895034_2_alg».proof.Proof.K.R4.Data

set_option maxRecDepth 16384

noncomputable section

namespace Cert.Kernel.R4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg4.N) : sProp 𝕄 :=
  iprop((dat V c).Φ t.castSucc ∗ (dat V c).owesAt () t.castSucc
    ∗ (∃ d, owns (c : Thread nD τ) (m_f t) fullShare ((dat V c).before 0 t d))
    ∗ (∃ d, owns (c : Thread nD τ) (m_c t) fullShare ((dat V c).before 1 t d))
    ∗ (∃ d, owns (c : Thread nD τ) (m_g t) fullShare ((dat V c).before 2 t d))
    ∗ (∃ d, owns (c : Thread nD τ) (m_i t) fullShare ((dat V c).before 3 t d))
    ∗ (∃ d, owns (c : Thread nD τ) (m_out t) fullShare ((dat V c).before 4 t d)))

/-- and what it returns. -/
def bodyPost (c : Dev nD) (t : Fin cfg4.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before_f, before_c, before_g, before_i]
  rw [show (dat V c).owesAt () t.succ = (dat V c).owesAt () t.castSucc from rfl]
  rw [show (dat V c).Φ t.succ = inv V c (t.val + 1) t.isLt from rfl, inv_succ]
  have hN : t.val < 16 := lt_of_lt_of_eq t.isLt (show cfg4.N = 16 from N_4)
  rw [show (dat V c).leavesExact 0 t = owns (c : Thread nD τ) (m_f t) fullShare ((dat V c).after 0 t) from by
    unfold Dat.leavesExact; rw [live_f t], after_f]
  rw [show (dat V c).leavesExact 1 t = owns (c : Thread nD τ) (m_c t) fullShare ((dat V c).after 1 t) from by
    unfold Dat.leavesExact; rw [live_c t], after_c]
  rw [show (dat V c).leavesExact 2 t = owns (c : Thread nD τ) (m_g t) fullShare ((dat V c).after 2 t) from by
    unfold Dat.leavesExact; rw [live_g t], after_g]
  rw [show (dat V c).leavesExact 3 t = owns (c : Thread nD τ) (m_i t) fullShare ((dat V c).after 3 t) from by
    unfold Dat.leavesExact; rw [live_i t], after_i]
  by_cases h0 : t.val % 8 = 0
  · have h7 : ¬t.val % 8 = 7 := by omega
    rw [Dat.leavesExact_idle (dat V c) 4 t (idle_out t (fun h => h7 ((atLast_iff t).mp h))) (noFlush_out t (fun h => h7 ((atLast_iff t).mp h)))]
    rw [heldAt_first V c t h0 h7]
    unfold accFirst; (try dsimp only)
    by_cases hz : t.val = 0
    · rw [inv_castSucc V c t, inv_zero V c _ _ hz, handed_eq]
      iintro ⟨⟨⟨HA, Hrest⟩, Hg⟩, Ho, ⟨%d0, H0⟩, ⟨%d1, H1⟩, ⟨%d2, H2⟩, ⟨%d3, H3⟩, ⟨%dO, HO⟩⟩
      iapply ((runFirst c (grid4.coords t) _ _ _ _ _ _ _ _ _ _ _ _ ((atFirst_iff t).mpr h0) (fun h => h7 ((atLast_iff t).mp h)) (blockAt V c 0 t) (blockAt V c 1 t) (blockAt V c 2 t) (blockAt V c 3 t)).2 _ Set.univ _)
      isplitl [H0]; · iexact H0
      isplitl [H1]; · iexact H1
      isplitl [H2]; · iexact H2
      isplitl [H3]; · iexact H3
      isplitl [HO]; · iexact HO
      isplitl [HA]; · iexact HA
      iintro ⟨H0, H1, H2, H3, HO, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_first c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact HO
    · rw [inv_castSucc V c t, inv_pos V c _ _ hz]
      iintro ⟨⟨⟨HA, Hrest⟩, Hg⟩, Ho, ⟨%d0, H0⟩, ⟨%d1, H1⟩, ⟨%d2, H2⟩, ⟨%d3, H3⟩, ⟨%dO, HO⟩⟩
      iapply ((runFirst c (grid4.coords t) _ _ _ _ _ _ _ _ _ _ _ _ ((atFirst_iff t).mpr h0) (fun h => h7 ((atLast_iff t).mp h)) (blockAt V c 0 t) (blockAt V c 1 t) (blockAt V c 2 t) (blockAt V c 3 t)).2 _ Set.univ _)
      isplitl [H0]; · iexact H0
      isplitl [H1]; · iexact H1
      isplitl [H2]; · iexact H2
      isplitl [H3]; · iexact H3
      isplitl [HO]; · iexact HO
      isplitl [HA]; · iexists _; iexact HA
      iintro ⟨H0, H1, H2, H3, HO, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_first c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact HO
  · have hz : t.val ≠ 0 := fun e => h0 (by rw [e])
    by_cases h7 : t.val % 8 = 7
    · rw [show (dat V c).leavesExact 4 t = owns (c : Thread nD τ) (m_out t) fullShare ((dat V c).after 4 t) from by
        unfold Dat.leavesExact; rw [live_out t ((atLast_iff t).mpr h7)], after_out]
      rw [heldAt_last V c t h0 h7]
      unfold outLast accLast; (try dsimp only)
      rw [inv_castSucc V c t, inv_pos V c _ _ hz]
      iintro ⟨⟨⟨HA, Hrest⟩, Hg⟩, Ho, ⟨%d0, H0⟩, ⟨%d1, H1⟩, ⟨%d2, H2⟩, ⟨%d3, H3⟩, ⟨%dO, HO⟩⟩
      iapply ((runLast c (grid4.coords t) _ _ _ _ _ _ _ _ _ _ _ _ (fun h => h0 ((atFirst_iff t).mp h)) ((atLast_iff t).mpr h7) (blockAt V c 0 t) (blockAt V c 1 t) (blockAt V c 2 t) (blockAt V c 3 t) _).2.2 Set.univ _)
      isplitl [H0]; · iexact H0
      isplitl [H1]; · iexact H1
      isplitl [H2]; · iexact H2
      isplitl [H3]; · iexact H3
      isplitl [HO]; · iexists _; iexact HO
      isplitl [HA]; · iexact HA
      iintro ⟨H0, H1, H2, H3, ⟨%eO, HO⟩, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_last c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact HO
      ipureintro; exact View.read_writes_of_cover _ _ _ _ _ (outCover_last c _ _ _ _ _ _ _ _ _ _ _ _ _ _ _ _ _ _ _ _)
    · rw [Dat.leavesExact_idle (dat V c) 4 t (idle_out t (fun h => h7 ((atLast_iff t).mp h))) (noFlush_out t (fun h => h7 ((atLast_iff t).mp h)))]
      rw [heldAt_mid V c t h0 h7]
      unfold accMid; (try dsimp only)
      rw [inv_castSucc V c t, inv_pos V c _ _ hz]
      iintro ⟨⟨⟨HA, Hrest⟩, Hg⟩, Ho, ⟨%d0, H0⟩, ⟨%d1, H1⟩, ⟨%d2, H2⟩, ⟨%d3, H3⟩, ⟨%dO, HO⟩⟩
      iapply ((runMid c (grid4.coords t) _ _ _ _ _ _ _ _ _ _ _ _ (fun h => h0 ((atFirst_iff t).mp h)) (fun h => h7 ((atLast_iff t).mp h)) (blockAt V c 0 t) (blockAt V c 1 t) (blockAt V c 2 t) (blockAt V c 3 t) _).2 _ Set.univ _)
      isplitl [H0]; · iexact H0
      isplitl [H1]; · iexact H1
      isplitl [H2]; · iexact H2
      isplitl [H3]; · iexact H3
      isplitl [HO]; · iexact HO
      isplitl [HA]; · iexact HA
      iintro ⟨H0, H1, H2, H3, HO, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_mid c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact HO

/-- The body obligation, at every point. -/
theorem body_obligation (c : Dev nD) : BodyObligation (dat (F := F) V c) (defs₀ (F := F)) Variants.none () Set.univ := fun t => by
  rw [bigSep_W4, bigSep_W4]
  exact sound_body V c t

/-- What the launch hands the region is the invariant before the first point. -/
theorem inv_enter (c : Dev nD) : Pipeline.ΦA spec4 c ⊢ (dat V c).Φ 0 := by
  rw [show (dat V c).Φ 0 = inv V c 0 (Nat.zero_le _) from rfl, inv_zero V c 0 _ rfl]
  try exact Idealize.SL.BI.Entails.refl _

/-- After the last point the invariant gives that back: what the accumulator holds is forgotten. -/
theorem inv_leave (c : Dev nD) : (dat V c).Φ (Fin.last cfg4.N) ⊢ Pipeline.ΦA spec4 c := by
  have ht : (Fin.last cfg4.N).val ≠ 0 := by rw [Fin.val_last]; have : cfg4.N = 16 := N_4; omega
  rw [show (dat V c).Φ (Fin.last cfg4.N) = inv V c (Fin.last cfg4.N).val (Nat.le_of_lt_succ (Fin.last cfg4.N).isLt) from rfl,
    inv_pos V c _ _ ht, handed_eq]
  iintro ⟨⟨HA, Hrest⟩, Hg⟩
  isplitl [HA Hrest]
  · isplitl [HA]
    · iexists _; iexact HA
    iexact Hrest
  iexact Hg

end Cert.Kernel.R4

end
-- ==== Proof.K.R5.Base.lean ====
/-
  The hidden state h' = tanh(c')·o, in the kernel as printed (pallas_call 5).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part one, names: a window's block at a point read off the array as the region finds it; that an input's staging
  buffer holds its block at every point, fetched there or not; the two conditions k = 0 and k = 7 in closed form over
  the sixteen points; where the output window is idle; the staging and scratch memrefs the body is called with.
  Everything is stated at any float instance.
-/
import proofs.«116394_j17480516895034_2_alg».proof.Proof.Gen.Kernel.Launch
import proofs.«116394_j17480516895034_2_alg».proof.Proof.Gen.Kernel.Skeleton
import proofs.«116394_j17480516895034_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R5

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-- Window `w`'s block at point `t`, read off its array as the region finds it. -/
def blockAt (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's block is in its staging buffer at every point, for any proof data over these arrays whose body leaves it there. -/
theorem in_c_of {c : Dev nD} (dat : Dat τ (Elt F) Unit ℕ (UR sig nD τ) ℕ cfg5 c) (hA : dat.A 0 = V c (Pipeline.arrRef spec5 0))
    (hafter : ∀ t, dat.after 0 t = blockAt V c 0 t) (t : Fin cfg5.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's block is in its staging buffer at every point, for any proof data over these arrays whose body leaves it there. -/
theorem in_o_of {c : Dev nD} (dat : Dat τ (Elt F) Unit ℕ (UR sig nD τ) ℕ cfg5 c) (hA : dat.A 1 = V c (Pipeline.arrRef spec5 1))
    (hafter : ∀ t, dat.after 1 t = blockAt V c 1 t) (t : Fin cfg5.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The two conditions -/

/-- k = 0: the accumulator is cleared. -/
abbrev atFirst (i : grid5.Coords) : Prop := (Scalar.cmpi .ne (Scalar.extui (Scalar.cmpi .eq (BitVec.ofNat 32 (i 1).val) 0#32)) 0#32) = 1#1
theorem atFirst_iff : ∀ t : Fin cfg5.N, atFirst (grid5.coords t) ↔ t.val % 8 = 0 :=
  (by decide +kernel : ∀ t : Fin grid5.N, atFirst (grid5.coords t) ↔ t.val % 8 = 0)

/-- k = 7: the result is stored. -/
abbrev atLast (i : grid5.Coords) : Prop := k5_cond2 i = 1#1
theorem atLast_iff : ∀ t : Fin cfg5.N, atLast (grid5.coords t) ↔ t.val % 8 = 7 :=
  (by decide +kernel : ∀ t : Fin grid5.N, atLast (grid5.coords t) ↔ t.val % 8 = 7)

/-! ## Where the windows are idle -/

theorem live_c : ∀ t : Fin cfg5.N, cfg5.idle 0 (grid5.coords t) = false := by decide +kernel
theorem live_o : ∀ t : Fin cfg5.N, cfg5.idle 1 (grid5.coords t) = false := by decide +kernel
/-- Away from k = 7 the output window is idle and not written back. -/
theorem idle_out : ∀ t : Fin cfg5.N, ¬atLast (grid5.coords t) → cfg5.idle 2 (grid5.coords t) = true := by decide +kernel
theorem noFlush_out : ∀ t : Fin cfg5.N, ¬atLast (grid5.coords t) → (cfg5.win 2).flush t = false := by decide +kernel
/-- At k = 7 it is live. -/
theorem live_out : ∀ t : Fin cfg5.N, atLast (grid5.coords t) → cfg5.idle 2 (grid5.coords t) = false := by decide +kernel

/-! ## The memrefs the body is called with -/

/-- One staging buffer of the output window, through which its contents are stated. -/
abbrev outView : View sig .tc .vmem S1024x2048 .f32 := (Memref.whole cc5_stg2_0 : Memref sig .tc .vmem S1024x2048 .f32).view
abbrev m_c (t : Fin cfg5.N) : Memref sig .tc .vmem S1024x256 .f32 := win5_0.stage (cfg5.slots t 0)
abbrev hm_c (t : Fin cfg5.N) : (m_c t).IsWhole := hstage5_0 ((cfg5.slots t 0).cast nbuf5_0)
abbrev m_o (t : Fin cfg5.N) : Memref sig .tc .vmem S256x2048 .f32 := win5_1.stage (cfg5.slots t 1)
abbrev hm_o (t : Fin cfg5.N) : (m_o t).IsWhole := hstage5_1 ((cfg5.slots t 1).cast nbuf5_1)
abbrev m_out (t : Fin cfg5.N) : Memref sig .tc .vmem S1024x2048 .f32 := win5_2.stage (cfg5.slots t 2)
abbrev hm_out (t : Fin cfg5.N) : (m_out t).IsWhole := hstage5_2 ((cfg5.slots t 2).cast nbuf5_2)
/-- The accumulator: a whole scoped buffer of the kernel's own. -/
abbrev accM : Memref sig .tc .vmem S1024x2048 .f32 := Memref.whole cc5_scratch0
abbrev accView : View sig .tc .vmem S1024x2048 .f32 := accM.view

/-- What the launch hands the region, with the accumulator taken out of the scoped buffers no window stages. -/
theorem handed_eq (c : Dev nD) :
    (Pipeline.ΦA spec5 c : sProp 𝕄)
      = iprop(iprop(iprop((∃ d, owns (c : Thread nD τ) accM fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [accM, owns_whole]; try rfl

end Cert.Kernel.R5

end
-- ==== Proof.K.R5.Runs.lean ====
/-
  The hidden state h' = tanh(c')·o, in the kernel as printed (pallas_call 5).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part two: the body's triple in each of its three cases.  On whole staging memrefs holding the input blocks the body
  runs without fault and gives the input buffers back unchanged.  What it does to the accumulator and to the output
  buffer depends on the point:
    k = 0      the accumulator, whatever it held, ends as its stores leave it; the output buffer is not touched;
    0 < k < 7  the accumulator, at known contents, ends as its stores leave it; the output buffer is not touched;
    k = 7      as before, and the output buffer, whatever it held, ends as its one store leaves it.
  The stores are not transcribed: each case is a subtype whose witness — the list of pieces stored, last first — the
  symbolic run of the body finds.
-/
import proofs.«116394_j17480516895034_2_alg».proof.Proof.K.R5.Base

set_option maxRecDepth 16384

noncomputable section

namespace Cert.Kernel.R5

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- k = 0. -/
noncomputable def runFirst (c : Dev nD) (i : grid5.Coords) (arg2 : Memref sig .tc .vmem S1024x256 .f32) (harg2 : arg2.IsWhole) (arg3 : Memref sig .tc .vmem S256x2048 .f32) (harg3 : arg3.IsWhole) (arg4 : Memref sig .tc .vmem S1024x2048 .f32) (harg4 : arg4.IsWhole) (arg5 : Memref sig .tc .vmem S1024x2048 .f32) (harg5 : arg5.IsWhole) (h0 : atFirst i) (h7 : ¬atLast i)
    (xc : Vec F S1024x256 .f32) (xo : Vec F S256x2048 .f32) :
    { LA : List (View.Piece (Elt F) S1024x2048 .f32) //
      ∀ (xout : Vec F S1024x2048 .f32) (E : Set ℕ) (K : PUnit → sProp 𝕄),
        iprop(owns (c : Thread nD τ) arg2 fullShare xc ∗ owns (c : Thread nD τ) arg3 fullShare xo ∗ owns (c : Thread nD τ) arg4 fullShare xout ∗ (∃ d, owns (c : Thread nD τ) arg5 fullShare d)
            ∗ (iprop(owns (c : Thread nD τ) arg2 fullShare xc ∗ owns (c : Thread nD τ) arg3 fullShare xo ∗ owns (c : Thread nD τ) arg4 fullShare xout ∗ (∃ f, arg5.view.loc (c : Thread nD τ) ↦[arg5.view.set]{fullShare} arg5.view.writes (Elt F) f LA)) -∗ K ⟨⟩))
          ⊢ wp frame (wpE (defs₀ (F := F)) Variants.none c none) E (cc5_tanh_matmul_hp_kernel i arg2 harg2 arg3 harg3 arg4 harg4 arg5 harg5) K } := by
  refine ⟨?_, fun xout E K => ?run⟩
  case run =>
    simp only [cc5_tanh_matmul_hp_kernel_eq_skeleton]; unfold cc5_tanh_matmul_hp_kernel_skel
    unfold owns
    iintro ⟨⟨%f0, %hf0, H0⟩, ⟨%f1, %hf1, H1⟩, ⟨%fo, %hfo, HO⟩, ⟨%ds, %fs, -, HS⟩, Hk⟩
    obtain rfl := harg2.eq_unread hf0; obtain rfl := harg3.eq_unread hf1; obtain rfl := harg4.eq_unread hfo
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS

set_option maxHeartbeats 2000000 in
/-- 0 < k < 7. -/
noncomputable def runMid (c : Dev nD) (i : grid5.Coords) (arg2 : Memref sig .tc .vmem S1024x256 .f32) (harg2 : arg2.IsWhole) (arg3 : Memref sig .tc .vmem S256x2048 .f32) (harg3 : arg3.IsWhole) (arg4 : Memref sig .tc .vmem S1024x2048 .f32) (harg4 : arg4.IsWhole) (arg5 : Memref sig .tc .vmem S1024x2048 .f32) (harg5 : arg5.IsWhole) (h0 : ¬atFirst i) (h7 : ¬atLast i)
    (xc : Vec F S1024x256 .f32) (xo : Vec F S256x2048 .f32) (xa : Vec F S1024x2048 .f32) :
    { LA : List (View.Piece (Elt F) S1024x2048 .f32) //
      ∀ (xout : Vec F S1024x2048 .f32) (E : Set ℕ) (K : PUnit → sProp 𝕄),
        iprop(owns (c : Thread nD τ) arg2 fullShare xc ∗ owns (c : Thread nD τ) arg3 fullShare xo ∗ owns (c : Thread nD τ) arg4 fullShare xout ∗ owns (c : Thread nD τ) arg5 fullShare xa
            ∗ (iprop(owns (c : Thread nD τ) arg2 fullShare xc ∗ owns (c : Thread nD τ) arg3 fullShare xo ∗ owns (c : Thread nD τ) arg4 fullShare xout ∗ (∃ f, arg5.view.loc (c : Thread nD τ) ↦[arg5.view.set]{fullShare} arg5.view.writes (Elt F) f LA)) -∗ K ⟨⟩))
          ⊢ wp frame (wpE (defs₀ (F := F)) Variants.none c none) E (cc5_tanh_matmul_hp_kernel i arg2 harg2 arg3 harg3 arg4 harg4 arg5 harg5) K } := by
  refine ⟨?_, fun xout E K => ?run⟩
  case run =>
    simp only [cc5_tanh_matmul_hp_kernel_eq_skeleton]; unfold cc5_tanh_matmul_hp_kernel_skel
    unfold owns
    iintro ⟨⟨%f0, %hf0, H0⟩, ⟨%f1, %hf1, H1⟩, ⟨%fo, %hfo, HO⟩, ⟨%fs, %hfs, HS⟩, Hk⟩
    obtain rfl := harg2.eq_unread hf0; obtain rfl := harg3.eq_unread hf1; obtain rfl := harg4.eq_unread hfo; obtain rfl := harg5.eq_unread hfs
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS

set_option maxHeartbeats 2000000 in
/-- k = 7. -/
noncomputable def runLast (c : Dev nD) (i : grid5.Coords) (arg2 : Memref sig .tc .vmem S1024x256 .f32) (harg2 : arg2.IsWhole) (arg3 : Memref sig .tc .vmem S256x2048 .f32) (harg3 : arg3.IsWhole) (arg4 : Memref sig .tc .vmem S1024x2048 .f32) (harg4 : arg4.IsWhole) (arg5 : Memref sig .tc .vmem S1024x2048 .f32) (harg5 : arg5.IsWhole) (h0 : ¬atFirst i) (h7 : atLast i)
    (xc : Vec F S1024x256 .f32) (xo : Vec F S256x2048 .f32) (xa : Vec F S1024x2048 .f32) :
    Σ' (LO : List (View.Piece (Elt F) S1024x2048 .f32)), { LA : List (View.Piece (Elt F) S1024x2048 .f32) //
      ∀ (E : Set ℕ) (K : PUnit → sProp 𝕄),
        iprop(owns (c : Thread nD τ) arg2 fullShare xc ∗ owns (c : Thread nD τ) arg3 fullShare xo ∗ (∃ d, owns (c : Thread nD τ) arg4 fullShare d) ∗ owns (c : Thread nD τ) arg5 fullShare xa
            ∗ (iprop(owns (c : Thread nD τ) arg2 fullShare xc ∗ owns (c : Thread nD τ) arg3 fullShare xo ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LA)) -∗ K ⟨⟩))
          ⊢ wp frame (wpE (defs₀ (F := F)) Variants.none c none) E (cc5_tanh_matmul_hp_kernel i arg2 harg2 arg3 harg3 arg4 harg4 arg5 harg5) K } := by
  refine ⟨?_, ?_, fun E K => ?run⟩
  case run =>
    simp only [cc5_tanh_matmul_hp_kernel_eq_skeleton]; unfold cc5_tanh_matmul_hp_kernel_skel
    unfold owns
    iintro ⟨⟨%f0, %hf0, H0⟩, ⟨%f1, %hf1, H1⟩, ⟨%dO, %fo, -, HO⟩, ⟨%fs, %hfs, HS⟩, Hk⟩
    obtain rfl := harg2.eq_unread hf0; obtain rfl := harg3.eq_unread hf1; obtain rfl := harg5.eq_unread hfs
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [HO]; · iexists _; iexact HO
    iexists _; iexact HS

end Cert.Kernel.R5

end
-- ==== Proof.K.R5.Data.lean ====
/-
  The hidden state h' = tanh(c')·o, in the kernel as printed (pallas_call 5).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part three: what the buffers hold point by point.  After the body at position n the accumulator holds what that
  point's case leaves in it — at k = 0 from nothing, at every later k from what position n − 1 left — and, at k = 7,
  the output buffer holds what its one store leaves.  The region's invariant carries the accumulator at these contents
  from one point to the next, beside the other scoped buffers no window stages and the generator register, neither of
  which the body touches.
-/
import proofs.«116394_j17480516895034_2_alg».proof.Proof.K.R5.Runs

set_option maxRecDepth 16384

noncomputable section

namespace Cert.Kernel.R5

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem accCover_first (c : Dev nD) (i : grid5.Coords) (arg2 : Memref sig .tc .vmem S1024x256 .f32) (harg2 : arg2.IsWhole) (arg3 : Memref sig .tc .vmem S256x2048 .f32) (harg3 : arg3.IsWhole) (arg4 : Memref sig .tc .vmem S1024x2048 .f32) (harg4 : arg4.IsWhole) (arg5 : Memref sig .tc .vmem S1024x2048 .f32) (harg5 : arg5.IsWhole) (h0 : atFirst i) (h7 : ¬atLast i) (xc : Vec F S1024x256 .f32) (xo : Vec F S256x2048 .f32) (y : S1024x2048.Idx) :
    ∃ pc ∈ (runFirst c i arg2 harg2 arg3 harg3 arg4 harg4 arg5 harg5 h0 h7 xc xo).1, y ∈ pc.1.set :=
  View.cover_of_tiledL (runFirst c i arg2 harg2 arg3 harg3 arg4 harg4 arg5 harg5 h0 h7 xc xo).1 S1024x2048.size (by sl_kernel_rfl) y

/-- The accumulator after a point with k = 0. -/
def accFirst (c : Dev nD) (i : grid5.Coords) (arg2 : Memref sig .tc .vmem S1024x256 .f32) (harg2 : arg2.IsWhole) (arg3 : Memref sig .tc .vmem S256x2048 .f32) (harg3 : arg3.IsWhole) (arg4 : Memref sig .tc .vmem S1024x2048 .f32) (harg4 : arg4.IsWhole) (arg5 : Memref sig .tc .vmem S1024x2048 .f32) (harg5 : arg5.IsWhole) (h0 : atFirst i) (h7 : ¬atLast i) (xc : Vec F S1024x256 .f32) (xo : Vec F S256x2048 .f32) : Vec F S1024x2048 .f32 :=
  accView.read (Elt F) (accView.writes (Elt F) accView.junk (runFirst c i arg2 harg2 arg3 harg3 arg4 harg4 arg5 harg5 h0 h7 xc xo).1)

theorem accCover_mid (c : Dev nD) (i : grid5.Coords) (arg2 : Memref sig .tc .vmem S1024x256 .f32) (harg2 : arg2.IsWhole) (arg3 : Memref sig .tc .vmem S256x2048 .f32) (harg3 : arg3.IsWhole) (arg4 : Memref sig .tc .vmem S1024x2048 .f32) (harg4 : arg4.IsWhole) (arg5 : Memref sig .tc .vmem S1024x2048 .f32) (harg5 : arg5.IsWhole) (h0 : ¬atFirst i) (h7 : ¬atLast i) (xc : Vec F S1024x256 .f32) (xo : Vec F S256x2048 .f32) (xa : Vec F S1024x2048 .f32) (y : S1024x2048.Idx) :
    ∃ pc ∈ (runMid c i arg2 harg2 arg3 harg3 arg4 harg4 arg5 harg5 h0 h7 xc xo xa).1, y ∈ pc.1.set :=
  View.cover_of_tiledL (runMid c i arg2 harg2 arg3 harg3 arg4 harg4 arg5 harg5 h0 h7 xc xo xa).1 S1024x2048.size (by sl_kernel_rfl) y

/-- The accumulator after a point with 0 < k < 7. -/
def accMid (c : Dev nD) (i : grid5.Coords) (arg2 : Memref sig .tc .vmem S1024x256 .f32) (harg2 : arg2.IsWhole) (arg3 : Memref sig .tc .vmem S256x2048 .f32) (harg3 : arg3.IsWhole) (arg4 : Memref sig .tc .vmem S1024x2048 .f32) (harg4 : arg4.IsWhole) (arg5 : Memref sig .tc .vmem S1024x2048 .f32) (harg5 : arg5.IsWhole) (h0 : ¬atFirst i) (h7 : ¬atLast i) (xc : Vec F S1024x256 .f32) (xo : Vec F S256x2048 .f32) (xa : Vec F S1024x2048 .f32) : Vec F S1024x2048 .f32 :=
  accView.read (Elt F) (accView.writes (Elt F) accView.junk (runMid c i arg2 harg2 arg3 harg3 arg4 harg4 arg5 harg5 h0 h7 xc xo xa).1)

theorem outCover_last (c : Dev nD) (i : grid5.Coords) (arg2 : Memref sig .tc .vmem S1024x256 .f32) (harg2 : arg2.IsWhole) (arg3 : Memref sig .tc .vmem S256x2048 .f32) (harg3 : arg3.IsWhole) (arg4 : Memref sig .tc .vmem S1024x2048 .f32) (harg4 : arg4.IsWhole) (arg5 : Memref sig .tc .vmem S1024x2048 .f32) (harg5 : arg5.IsWhole) (h0 : ¬atFirst i) (h7 : atLast i) (xc : Vec F S1024x256 .f32) (xo : Vec F S256x2048 .f32) (xa : Vec F S1024x2048 .f32) (y : S1024x2048.Idx) :
    ∃ pc ∈ (runLast c i arg2 harg2 arg3 harg3 arg4 harg4 arg5 harg5 h0 h7 xc xo xa).1, y ∈ pc.1.set :=
  View.cover_of_tiledL (runLast c i arg2 harg2 arg3 harg3 arg4 harg4 arg5 harg5 h0 h7 xc xo xa).1 S1024x2048.size (by sl_kernel_rfl) y

/-- The output buffer after a point with k = 7. -/
def outLast (c : Dev nD) (i : grid5.Coords) (arg2 : Memref sig .tc .vmem S1024x256 .f32) (harg2 : arg2.IsWhole) (arg3 : Memref sig .tc .vmem S256x2048 .f32) (harg3 : arg3.IsWhole) (arg4 : Memref sig .tc .vmem S1024x2048 .f32) (harg4 : arg4.IsWhole) (arg5 : Memref sig .tc .vmem S1024x2048 .f32) (harg5 : arg5.IsWhole) (h0 : ¬atFirst i) (h7 : atLast i) (xc : Vec F S1024x256 .f32) (xo : Vec F S256x2048 .f32) (xa : Vec F S1024x2048 .f32) : Vec F S1024x2048 .f32 :=
  outView.read (Elt F) (outView.writes (Elt F) outView.junk (runLast c i arg2 harg2 arg3 harg3 arg4 harg4 arg5 harg5 h0 h7 xc xo xa).1)

theorem accCover_last (c : Dev nD) (i : grid5.Coords) (arg2 : Memref sig .tc .vmem S1024x256 .f32) (harg2 : arg2.IsWhole) (arg3 : Memref sig .tc .vmem S256x2048 .f32) (harg3 : arg3.IsWhole) (arg4 : Memref sig .tc .vmem S1024x2048 .f32) (harg4 : arg4.IsWhole) (arg5 : Memref sig .tc .vmem S1024x2048 .f32) (harg5 : arg5.IsWhole) (h0 : ¬atFirst i) (h7 : atLast i) (xc : Vec F S1024x256 .f32) (xo : Vec F S256x2048 .f32) (xa : Vec F S1024x2048 .f32) (y : S1024x2048.Idx) :
    ∃ pc ∈ (runLast c i arg2 harg2 arg3 harg3 arg4 harg4 arg5 harg5 h0 h7 xc xo xa).2.1, y ∈ pc.1.set :=
  View.cover_of_tiledL (runLast c i arg2 harg2 arg3 harg3 arg4 harg4 arg5 harg5 h0 h7 xc xo xa).2.1 S1024x2048.size (by sl_kernel_rfl) y

/-- The accumulator after a point with k = 7. -/
def accLast (c : Dev nD) (i : grid5.Coords) (arg2 : Memref sig .tc .vmem S1024x256 .f32) (harg2 : arg2.IsWhole) (arg3 : Memref sig .tc .vmem S256x2048 .f32) (harg3 : arg3.IsWhole) (arg4 : Memref sig .tc .vmem S1024x2048 .f32) (harg4 : arg4.IsWhole) (arg5 : Memref sig .tc .vmem S1024x2048 .f32) (harg5 : arg5.IsWhole) (h0 : ¬atFirst i) (h7 : atLast i) (xc : Vec F S1024x256 .f32) (xo : Vec F S256x2048 .f32) (xa : Vec F S1024x2048 .f32) : Vec F S1024x2048 .f32 :=
  accView.read (Elt F) (accView.writes (Elt F) accView.junk (runLast c i arg2 harg2 arg3 harg3 arg4 harg4 arg5 harg5 h0 h7 xc xo xa).2.1)

/-! ## Point by point -/

/-- After the body at position `n`: the output buffer (meaningful at k = 7 only; elsewhere nothing consults it) and the
    accumulator. -/
def heldAt (c : Dev nD) : (n : ℕ) → n < cfg5.N → Vec F S1024x2048 .f32 × Vec F S1024x2048 .f32
  | 0, hn => (outView.read (Elt F) outView.junk,
      accFirst c (grid5.coords ⟨0, hn⟩) (m_c ⟨0, hn⟩) (hm_c ⟨0, hn⟩) (m_o ⟨0, hn⟩) (hm_o ⟨0, hn⟩) (m_out ⟨0, hn⟩) (hm_out ⟨0, hn⟩) accM (Memref.isWhole_whole _) ((atFirst_iff ⟨0, hn⟩).mpr (Nat.zero_mod _)) (fun h => (fun h => by (try dsimp only at h); omega) ((atLast_iff ⟨0, hn⟩).mp h)) (blockAt V c 0 ⟨0, hn⟩) (blockAt V c 1 ⟨0, hn⟩))
  | n + 1, hn =>
    if h0 : (n + 1) % 8 = 0 then
      if h7 : (n + 1) % 8 = 7 then
        False.elim (by omega)
      else
        (outView.read (Elt F) outView.junk,
          accFirst c (grid5.coords ⟨n + 1, hn⟩) (m_c ⟨n + 1, hn⟩) (hm_c ⟨n + 1, hn⟩) (m_o ⟨n + 1, hn⟩) (hm_o ⟨n + 1, hn⟩) (m_out ⟨n + 1, hn⟩) (hm_out ⟨n + 1, hn⟩) accM (Memref.isWhole_whole _) ((atFirst_iff ⟨n + 1, hn⟩).mpr h0) (fun h => h7 ((atLast_iff ⟨n + 1, hn⟩).mp h)) (blockAt V c 0 ⟨n + 1, hn⟩) (blockAt V c 1 ⟨n + 1, hn⟩))
    else
      if h7 : (n + 1) % 8 = 7 then
        (outLast c (grid5.coords ⟨n + 1, hn⟩) (m_c ⟨n + 1, hn⟩) (hm_c ⟨n + 1, hn⟩) (m_o ⟨n + 1, hn⟩) (hm_o ⟨n + 1, hn⟩) (m_out ⟨n + 1, hn⟩) (hm_out ⟨n + 1, hn⟩) accM (Memref.isWhole_whole _) (fun h => h0 ((atFirst_iff ⟨n + 1, hn⟩).mp h)) ((atLast_iff ⟨n + 1, hn⟩).mpr h7) (blockAt V c 0 ⟨n + 1, hn⟩) (blockAt V c 1 ⟨n + 1, hn⟩) (heldAt c n (Nat.lt_of_succ_lt hn)).2,
          accLast c (grid5.coords ⟨n + 1, hn⟩) (m_c ⟨n + 1, hn⟩) (hm_c ⟨n + 1, hn⟩) (m_o ⟨n + 1, hn⟩) (hm_o ⟨n + 1, hn⟩) (m_out ⟨n + 1, hn⟩) (hm_out ⟨n + 1, hn⟩) accM (Memref.isWhole_whole _) (fun h => h0 ((atFirst_iff ⟨n + 1, hn⟩).mp h)) ((atLast_iff ⟨n + 1, hn⟩).mpr h7) (blockAt V c 0 ⟨n + 1, hn⟩) (blockAt V c 1 ⟨n + 1, hn⟩) (heldAt c n (Nat.lt_of_succ_lt hn)).2)
      else
        (outView.read (Elt F) outView.junk,
          accMid c (grid5.coords ⟨n + 1, hn⟩) (m_c ⟨n + 1, hn⟩) (hm_c ⟨n + 1, hn⟩) (m_o ⟨n + 1, hn⟩) (hm_o ⟨n + 1, hn⟩) (m_out ⟨n + 1, hn⟩) (hm_out ⟨n + 1, hn⟩) accM (Memref.isWhole_whole _) (fun h => h0 ((atFirst_iff ⟨n + 1, hn⟩).mp h)) (fun h => h7 ((atLast_iff ⟨n + 1, hn⟩).mp h)) (blockAt V c 0 ⟨n + 1, hn⟩) (blockAt V c 1 ⟨n + 1, hn⟩) (heldAt c n (Nat.lt_of_succ_lt hn)).2)

theorem heldAt_first (c : Dev nD) (t : Fin cfg5.N) (h0 : t.val % 8 = 0) (h7 : ¬t.val % 8 = 7) :
    heldAt V c t.val t.isLt = (outView.read (Elt F) outView.junk,
      accFirst c (grid5.coords t) (m_c t) (hm_c t) (m_o t) (hm_o t) (m_out t) (hm_out t) accM (Memref.isWhole_whole _) ((atFirst_iff t).mpr h0) (fun h => h7 ((atLast_iff t).mp h)) (blockAt V c 0 t) (blockAt V c 1 t)) := by
  obtain ⟨n, hn⟩ := t
  cases n with
  | zero => exact rfl
  | succ n => exact (dif_pos h0).trans ((dif_neg h7).trans rfl)

theorem heldAt_mid (c : Dev nD) (t : Fin cfg5.N) (h0 : ¬t.val % 8 = 0) (h7 : ¬t.val % 8 = 7) :
    heldAt V c t.val t.isLt = (outView.read (Elt F) outView.junk,
      accMid c (grid5.coords t) (m_c t) (hm_c t) (m_o t) (hm_o t) (m_out t) (hm_out t) accM (Memref.isWhole_whole _) (fun h => h0 ((atFirst_iff t).mp h)) (fun h => h7 ((atLast_iff t).mp h)) (blockAt V c 0 t) (blockAt V c 1 t)
        (heldAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h7).trans rfl)

theorem heldAt_last (c : Dev nD) (t : Fin cfg5.N) (h0 : ¬t.val % 8 = 0) (h7 : t.val % 8 = 7) :
    heldAt V c t.val t.isLt = (outLast c (grid5.coords t) (m_c t) (hm_c t) (m_o t) (hm_o t) (m_out t) (hm_out t) accM (Memref.isWhole_whole _) (fun h => h0 ((atFirst_iff t).mp h)) ((atLast_iff t).mpr h7) (blockAt V c 0 t) (blockAt V c 1 t)
        (heldAt V c (t.val - 1) (Nat.lt_of_le_of_lt (Nat.sub_le _ _) t.isLt)).2,
      accLast c (grid5.coords t) (m_c t) (hm_c t) (m_o t) (hm_o t) (m_out t) (hm_out t) accM (Memref.isWhole_whole _) (fun h => h0 ((atFirst_iff t).mp h)) ((atLast_iff t).mpr h7) (blockAt V c 0 t) (blockAt V c 1 t)
        (heldAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h7).trans rfl)

/-! ## The invariant -/

/-- Before position `n`: at the start what the launch hands the region; afterwards the accumulator at what position
    `n − 1` left in it, the other scoped buffers no window stages, and the generator register. -/
def inv (c : Dev nD) : (n : ℕ) → n ≤ cfg5.N → sProp 𝕄
  | 0, _ => Pipeline.ΦA spec5 c
  | n + 1, hn => iprop(iprop(owns (c : Thread nD τ) accM fullShare ((heldAt V c n hn).2)
      ∗ Pipeline.scopedRestBut (Ix := Unit) (Name := ℕ) (U := UR sig nD τ) (Lvl := ℕ) (Val := Elt F) spec5 c [cc5_scratch0]) ∗ (∃ r, prngReg c r))

theorem inv_zero (c : Dev nD) (n : ℕ) (h : n ≤ cfg5.N) (hz : n = 0) : inv V c n h = Pipeline.ΦA spec5 c := by
  subst hz; rfl

theorem inv_succ (c : Dev nD) (n : ℕ) (hn : n < cfg5.N) :
    inv V c (n + 1) hn = iprop(iprop(owns (c : Thread nD τ) accM fullShare ((heldAt V c n hn).2)
      ∗ Pipeline.scopedRestBut (Ix := Unit) (Name := ℕ) (U := UR sig nD τ) (Lvl := ℕ) (Val := Elt F) spec5 c [cc5_scratch0]) ∗ (∃ r, prngReg c r)) := rfl

theorem inv_pos (c : Dev nD) (n : ℕ) (h : n ≤ cfg5.N) (hz : n ≠ 0) :
    inv V c n h = iprop(iprop(owns (c : Thread nD τ) accM fullShare ((heldAt V c (n - 1) (by omega)).2)
      ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-! ## The proof data -/

/-- The region's proof data on core `c`: the arrays as the region finds them; after the body each input's buffer at its
    block and the output's at `heldAt`; the invariant above; nothing owed; full shares. -/
def dat (c : Dev nD) : Dat τ (Elt F) Unit ℕ (UR sig nD τ) ℕ cfg5 c where
  A w := V c (Pipeline.arrRef spec5 w)
  after w t := match w with
    | ⟨0, _⟩ => blockAt V c 0 t
    | ⟨1, _⟩ => blockAt V c 1 t
    | ⟨2, _⟩ => (heldAt V c t.val t.isLt).1
  Φ t := inv V c t.val (Nat.le_of_lt_succ t.isLt)
  q _ := fullShare
  owed _ := 0

theorem dat_A (c : Dev nD) (w : Fin cfg5.W) : (dat V c).A w = V c (Pipeline.arrRef spec5 w) := by
  dsimp only [dat]

theorem inv_castSucc (c : Dev nD) (t : Fin cfg5.N) :
    (dat V c).Φ t.castSucc = inv V c t.val (Nat.le_of_lt t.isLt) := by
  dsimp only [dat]; simp only [Fin.coe_castSucc]

theorem after_c (c : Dev nD) (t : Fin cfg5.N) : (dat V c).after 0 t = blockAt V c 0 t := by dsimp only [dat]
theorem after_o (c : Dev nD) (t : Fin cfg5.N) : (dat V c).after 1 t = blockAt V c 1 t := by dsimp only [dat]
theorem after_out (c : Dev nD) (t : Fin cfg5.N) : (dat V c).after 2 t = (heldAt V c t.val t.isLt).1 := by dsimp only [dat]

theorem before_c (c : Dev nD) (t : Fin cfg5.N) (d) : (dat V c).before 0 t d = blockAt V c 0 t :=
  in_c_of V (dat V c) (dat_A V c 0) (after_c V c) t d
theorem before_o (c : Dev nD) (t : Fin cfg5.N) (d) : (dat V c).before 1 t d = blockAt V c 1 t :=
  in_o_of V (dat V c) (dat_A V c 1) (after_o V c) t d

end Cert.Kernel.R5

end
-- ==== Proof.K.R5.Body.lean ====
/-
  The hidden state h' = tanh(c')·o, in the kernel as printed (pallas_call 5).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part four: the body obligation at every point.  The pipeline hands the body the invariant, the input buffers (each
  holding its block) and the output buffer.  Which case the point is in is decided by its position modulo 8; the case's
  triple then applies.  The accumulator comes out of the invariant at what the previous point left (at anything at the
  very first point) and goes back in at this point's contents; the remaining scoped buffers and the generator register
  pass through untouched.
-/
import proofs.«116394_j17480516895034_2_alg».proof.Proof.K.R5.Data

set_option maxRecDepth 16384

noncomputable section

namespace Cert.Kernel.R5

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg5.N) : sProp 𝕄 :=
  iprop((dat V c).Φ t.castSucc ∗ (dat V c).owesAt () t.castSucc
    ∗ (∃ d, owns (c : Thread nD τ) (m_c t) fullShare ((dat V c).before 0 t d))
    ∗ (∃ d, owns (c : Thread nD τ) (m_o t) fullShare ((dat V c).before 1 t d))
    ∗ (∃ d, owns (c : Thread nD τ) (m_out t) fullShare ((dat V c).before 2 t d)))

/-- and what it returns. -/
def bodyPost (c : Dev nD) (t : Fin cfg5.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
theorem sound_body (c : Dev nD) (t : Fin cfg5.N) :
    bodyPre V c t ⊢ wp frame (wpE (defs₀ (F := F)) Variants.none c none) Set.univ (bodyAt5 t) (fun _ => bodyPost V c t) := by
  unfold bodyPre bodyPost bodyAt5
  simp only [before_c, before_o]
  rw [show (dat V c).owesAt () t.succ = (dat V c).owesAt () t.castSucc from rfl]
  rw [show (dat V c).Φ t.succ = inv V c (t.val + 1) t.isLt from rfl, inv_succ]
  have hN : t.val < 16 := lt_of_lt_of_eq t.isLt (show cfg5.N = 16 from N_5)
  rw [show (dat V c).leavesExact 0 t = owns (c : Thread nD τ) (m_c t) fullShare ((dat V c).after 0 t) from by
    unfold Dat.leavesExact; rw [live_c t], after_c]
  rw [show (dat V c).leavesExact 1 t = owns (c : Thread nD τ) (m_o t) fullShare ((dat V c).after 1 t) from by
    unfold Dat.leavesExact; rw [live_o t], after_o]
  by_cases h0 : t.val % 8 = 0
  · have h7 : ¬t.val % 8 = 7 := by omega
    rw [Dat.leavesExact_idle (dat V c) 2 t (idle_out t (fun h => h7 ((atLast_iff t).mp h))) (noFlush_out t (fun h => h7 ((atLast_iff t).mp h)))]
    rw [heldAt_first V c t h0 h7]
    unfold accFirst; (try dsimp only)
    by_cases hz : t.val = 0
    · rw [inv_castSucc V c t, inv_zero V c _ _ hz, handed_eq]
      iintro ⟨⟨⟨HA, Hrest⟩, Hg⟩, Ho, ⟨%d0, H0⟩, ⟨%d1, H1⟩, ⟨%dO, HO⟩⟩
      iapply ((runFirst c (grid5.coords t) _ _ _ _ _ _ _ _ ((atFirst_iff t).mpr h0) (fun h => h7 ((atLast_iff t).mp h)) (blockAt V c 0 t) (blockAt V c 1 t)).2 _ Set.univ _)
      isplitl [H0]; · iexact H0
      isplitl [H1]; · iexact H1
      isplitl [HO]; · iexact HO
      isplitl [HA]; · iexact HA
      iintro ⟨H0, H1, HO, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_first c _ _ _ _ _ _ _ _ _ _ _ _ _)
          iexact Hrest
        iexact Hg
      isplitl [Ho]; · iexact Ho
      isplitl [H0]; · iexact H0
      isplitl [H1]; · iexact H1
      iexists _; iexact HO
    · rw [inv_castSucc V c t, inv_pos V c _ _ hz]
      iintro ⟨⟨⟨HA, Hrest⟩, Hg⟩, Ho, ⟨%d0, H0⟩, ⟨%d1, H1⟩, ⟨%dO, HO⟩⟩
      iapply ((runFirst c (grid5.coords t) _ _ _ _ _ _ _ _ ((atFirst_iff t).mpr h0) (fun h => h7 ((atLast_iff t).mp h)) (blockAt V c 0 t) (blockAt V c 1 t)).2 _ Set.univ _)
      isplitl [H0]; · iexact H0
      isplitl [H1]; · iexact H1
      isplitl [HO]; · iexact HO
      isplitl [HA]; · iexists _; iexact HA
      iintro ⟨H0, H1, HO, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_first c _ _ _ _ _ _ _ _ _ _ _ _ _)
          iexact Hrest
        iexact Hg
      isplitl [Ho]; · iexact Ho
      isplitl [H0]; · iexact H0
      isplitl [H1]; · iexact H1
      iexists _; iexact HO
  · have hz : t.val ≠ 0 := fun e => h0 (by rw [e])
    by_cases h7 : t.val % 8 = 7
    · rw [show (dat V c).leavesExact 2 t = owns (c : Thread nD τ) (m_out t) fullShare ((dat V c).after 2 t) from by
        unfold Dat.leavesExact; rw [live_out t ((atLast_iff t).mpr h7)], after_out]
      rw [heldAt_last V c t h0 h7]
      unfold outLast accLast; (try dsimp only)
      rw [inv_castSucc V c t, inv_pos V c _ _ hz]
      iintro ⟨⟨⟨HA, Hrest⟩, Hg⟩, Ho, ⟨%d0, H0⟩, ⟨%d1, H1⟩, ⟨%dO, HO⟩⟩
      iapply ((runLast c (grid5.coords t) _ _ _ _ _ _ _ _ (fun h => h0 ((atFirst_iff t).mp h)) ((atLast_iff t).mpr h7) (blockAt V c 0 t) (blockAt V c 1 t) _).2.2 Set.univ _)
      isplitl [H0]; · iexact H0
      isplitl [H1]; · iexact H1
      isplitl [HO]; · iexists _; iexact HO
      isplitl [HA]; · iexact HA
      iintro ⟨H0, H1, ⟨%eO, HO⟩, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_last c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact HO
      ipureintro; exact View.read_writes_of_cover _ _ _ _ _ (outCover_last c _ _ _ _ _ _ _ _ _ _ _ _ _ _)
    · rw [Dat.leavesExact_idle (dat V c) 2 t (idle_out t (fun h => h7 ((atLast_iff t).mp h))) (noFlush_out t (fun h => h7 ((atLast_iff t).mp h)))]
      rw [heldAt_mid V c t h0 h7]
      unfold accMid; (try dsimp only)
      rw [inv_castSucc V c t, inv_pos V c _ _ hz]
      iintro ⟨⟨⟨HA, Hrest⟩, Hg⟩, Ho, ⟨%d0, H0⟩, ⟨%d1, H1⟩, ⟨%dO, HO⟩⟩
      iapply ((runMid c (grid5.coords t) _ _ _ _ _ _ _ _ (fun h => h0 ((atFirst_iff t).mp h)) (fun h => h7 ((atLast_iff t).mp h)) (blockAt V c 0 t) (blockAt V c 1 t) _).2 _ Set.univ _)
      isplitl [H0]; · iexact H0
      isplitl [H1]; · iexact H1
      isplitl [HO]; · iexact HO
      isplitl [HA]; · iexact HA
      iintro ⟨H0, H1, HO, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_mid c _ _ _ _ _ _ _ _ _ _ _ _ _ _)
          iexact Hrest
        iexact Hg
      isplitl [Ho]; · iexact Ho
      isplitl [H0]; · iexact H0
      isplitl [H1]; · iexact H1
      iexists _; iexact HO

/-- The body obligation, at every point. -/
theorem body_obligation (c : Dev nD) : BodyObligation (dat (F := F) V c) (defs₀ (F := F)) Variants.none () Set.univ := fun t => by
  rw [bigSep_W5, bigSep_W5]
  exact sound_body V c t

/-- What the launch hands the region is the invariant before the first point. -/
theorem inv_enter (c : Dev nD) : Pipeline.ΦA spec5 c ⊢ (dat V c).Φ 0 := by
  rw [show (dat V c).Φ 0 = inv V c 0 (Nat.zero_le _) from rfl, inv_zero V c 0 _ rfl]
  try exact Idealize.SL.BI.Entails.refl _

/-- After the last point the invariant gives that back: what the accumulator holds is forgotten. -/
theorem inv_leave (c : Dev nD) : (dat V c).Φ (Fin.last cfg5.N) ⊢ Pipeline.ΦA spec5 c := by
  have ht : (Fin.last cfg5.N).val ≠ 0 := by rw [Fin.val_last]; have : cfg5.N = 16 := N_5; omega
  rw [show (dat V c).Φ (Fin.last cfg5.N) = inv V c (Fin.last cfg5.N).val (Nat.le_of_lt_succ (Fin.last cfg5.N).isLt) from rfl,
    inv_pos V c _ _ ht, handed_eq]
  iintro ⟨⟨HA, Hrest⟩, Hg⟩
  isplitl [HA Hrest]
  · isplitl [HA]
    · iexists _; iexact HA
    iexact Hrest
  iexact Hg

end Cert.Kernel.R5

end
-- ==== Proof.K.R6.Base.lean ====
/-
  The output y = h'·W_y + b_y, in the kernel as printed (pallas_call 6).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part one, names: a window's block at a point read off the array as the region finds it; that an input's staging
  buffer holds its block at every point, fetched there or not; the two conditions k = 0 and k = 7 in closed form over
  the sixteen points; where the output window is idle; the staging and scratch memrefs the body is called with.
  Everything is stated at any float instance.
-/
import proofs.«116394_j17480516895034_2_alg».proof.Proof.Gen.Kernel.Launch
import proofs.«116394_j17480516895034_2_alg».proof.Proof.Gen.Kernel.Skeleton
import proofs.«116394_j17480516895034_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R6

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-- Window `w`'s block at point `t`, read off its array as the region finds it. -/
def blockAt (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's block is in its staging buffer at every point, for any proof data over these arrays whose body leaves it there. -/
theorem in_h_of {c : Dev nD} (dat : Dat τ (Elt F) Unit ℕ (UR sig nD τ) ℕ cfg6 c) (hA : dat.A 0 = V c (Pipeline.arrRef spec6 0))
    (hafter : ∀ t, dat.after 0 t = blockAt V c 0 t) (t : Fin cfg6.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's block is in its staging buffer at every point, for any proof data over these arrays whose body leaves it there. -/
theorem in_wy_of {c : Dev nD} (dat : Dat τ (Elt F) Unit ℕ (UR sig nD τ) ℕ cfg6 c) (hA : dat.A 1 = V c (Pipeline.arrRef spec6 1))
    (hafter : ∀ t, dat.after 1 t = blockAt V c 1 t) (t : Fin cfg6.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's block is in its staging buffer at every point, for any proof data over these arrays whose body leaves it there. -/
theorem in_b_of {c : Dev nD} (dat : Dat τ (Elt F) Unit ℕ (UR sig nD τ) ℕ cfg6 c) (hA : dat.A 2 = V c (Pipeline.arrRef spec6 2))
    (hafter : ∀ t, dat.after 2 t = blockAt V c 2 t) (t : Fin cfg6.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The two conditions -/

/-- k = 0: the accumulator is cleared. -/
abbrev atFirst (i : grid6.Coords) : Prop := (Scalar.cmpi .ne (Scalar.extui (Scalar.cmpi .eq (BitVec.ofNat 32 (i 1).val) 0#32)) 0#32) = 1#1
theorem atFirst_iff : ∀ t : Fin cfg6.N, atFirst (grid6.coords t) ↔ t.val % 8 = 0 :=
  (by decide +kernel : ∀ t : Fin grid6.N, atFirst (grid6.coords t) ↔ t.val % 8 = 0)

/-- k = 7: the result is stored. -/
abbrev atLast (i : grid6.Coords) : Prop := k6_cond2 i = 1#1
theorem atLast_iff : ∀ t : Fin cfg6.N, atLast (grid6.coords t) ↔ t.val % 8 = 7 :=
  (by decide +kernel : ∀ t : Fin grid6.N, atLast (grid6.coords t) ↔ t.val % 8 = 7)

/-! ## Where the windows are idle -/

theorem live_h : ∀ t : Fin cfg6.N, cfg6.idle 0 (grid6.coords t) = false := by decide +kernel
theorem live_wy : ∀ t : Fin cfg6.N, cfg6.idle 1 (grid6.coords t) = false := by decide +kernel
theorem live_b : ∀ t : Fin cfg6.N, cfg6.idle 2 (grid6.coords t) = false := by decide +kernel
/-- Away from k = 7 the output window is idle and not written back. -/
theorem idle_out : ∀ t : Fin cfg6.N, ¬atLast (grid6.coords t) → cfg6.idle 3 (grid6.coords t) = true := by decide +kernel
theorem noFlush_out : ∀ t : Fin cfg6.N, ¬atLast (grid6.coords t) → (cfg6.win 3).flush t = false := by decide +kernel
/-- At k = 7 it is live. -/
theorem live_out : ∀ t : Fin cfg6.N, atLast (grid6.coords t) → cfg6.idle 3 (grid6.coords t) = false := by decide +kernel

/-! ## The memrefs the body is called with -/

/-- One staging buffer of the output window, through which its contents are stated. -/
abbrev outView : View sig .tc .vmem S1024x2048 .f32 := (Memref.whole cc6_stg3_0 : Memref sig .tc .vmem S1024x2048 .f32).view
abbrev m_h (t : Fin cfg6.N) : Memref sig .tc .vmem S1024x256 .f32 := win6_0.stage (cfg6.slots t 0)
abbrev hm_h (t : Fin cfg6.N) : (m_h t).IsWhole := hstage6_0 ((cfg6.slots t 0).cast nbuf6_0)
abbrev m_wy (t : Fin cfg6.N) : Memref sig .tc .vmem S256x2048 .f32 := win6_1.stage (cfg6.slots t 1)
abbrev hm_wy (t : Fin cfg6.N) : (m_wy t).IsWhole := hstage6_1 ((cfg6.slots t 1).cast nbuf6_1)
abbrev m_b (t : Fin cfg6.N) : Memref sig .tc .vmem S1x2048 .f32 := win6_2.stage (cfg6.slots t 2)
abbrev hm_b (t : Fin cfg6.N) : (m_b t).IsWhole := hstage6_2 ((cfg6.slots t 2).cast nbuf6_2)
abbrev m_out (t : Fin cfg6.N) : Memref sig .tc .vmem S1024x2048 .f32 := win6_3.stage (cfg6.slots t 3)
abbrev hm_out (t : Fin cfg6.N) : (m_out t).IsWhole := hstage6_3 ((cfg6.slots t 3).cast nbuf6_3)
/-- The accumulator: a whole scoped buffer of the kernel's own. -/
abbrev accM : Memref sig .tc .vmem S1024x2048 .f32 := Memref.whole cc6_scratch0
abbrev accView : View sig .tc .vmem S1024x2048 .f32 := accM.view

/-- What the launch hands the region, with the accumulator taken out of the scoped buffers no window stages. -/
theorem handed_eq (c : Dev nD) :
    (Pipeline.ΦA spec6 c : sProp 𝕄)
      = iprop(iprop(iprop((∃ d, owns (c : Thread nD τ) accM fullShare d))
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [accM, owns_whole]; try rfl

end Cert.Kernel.R6

end
-- ==== Proof.K.R6.Runs.lean ====
/-
  The output y = h'·W_y + b_y, in the kernel as printed (pallas_call 6).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part two: the body's triple in each of its three cases.  On whole staging memrefs holding the input blocks the body
  runs without fault and gives the input buffers back unchanged.  What it does to the accumulator and to the output
  buffer depends on the point:
    k = 0      the accumulator, whatever it held, ends as its stores leave it; the output buffer is not touched;
    0 < k < 7  the accumulator, at known contents, ends as its stores leave it; the output buffer is not touched;
    k = 7      as before, and the output buffer, whatever it held, ends as its one store leaves it.
  The stores are not transcribed: each case is a subtype whose witness — the list of pieces stored, last first — the
  symbolic run of the body finds.
-/
import proofs.«116394_j17480516895034_2_alg».proof.Proof.K.R6.Base

set_option maxRecDepth 16384

noncomputable section

namespace Cert.Kernel.R6

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- k = 0. -/
noncomputable def runFirst (c : Dev nD) (i : grid6.Coords) (arg2 : Memref sig .tc .vmem S1024x256 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (h0 : atFirst i) (h7 : ¬atLast i)
    (xh : Vec F S1024x256 .f32) (xwy : Vec F S256x2048 .f32) (xb : Vec F S1x2048 .f32) :
    { LA : List (View.Piece (Elt F) S1024x2048 .f32) //
      ∀ (xout : Vec F S1024x2048 .f32) (E : Set ℕ) (K : PUnit → sProp 𝕄),
        iprop(owns (c : Thread nD τ) arg2 fullShare xh ∗ owns (c : Thread nD τ) arg3 fullShare xwy ∗ owns (c : Thread nD τ) arg4 fullShare xb ∗ owns (c : Thread nD τ) arg5 fullShare xout ∗ (∃ d, owns (c : Thread nD τ) arg6 fullShare d)
            ∗ (iprop(owns (c : Thread nD τ) arg2 fullShare xh ∗ owns (c : Thread nD τ) arg3 fullShare xwy ∗ owns (c : Thread nD τ) arg4 fullShare xb ∗ owns (c : Thread nD τ) arg5 fullShare xout ∗ (∃ f, arg6.view.loc (c : Thread nD τ) ↦[arg6.view.set]{fullShare} arg6.view.writes (Elt F) f LA)) -∗ K ⟨⟩))
          ⊢ wp frame (wpE (defs₀ (F := F)) Variants.none c none) E (cc6_matmul_bias_hp_kernel i arg2 harg2 arg3 harg3 arg4 harg4 arg5 harg5 arg6 harg6) K } := by
  refine ⟨?_, fun xout E K => ?run⟩
  case run =>
    simp only [cc6_matmul_bias_hp_kernel_eq_skeleton]; unfold cc6_matmul_bias_hp_kernel_skel
    unfold owns
    iintro ⟨⟨%f0, %hf0, H0⟩, ⟨%f1, %hf1, H1⟩, ⟨%f2, %hf2, H2⟩, ⟨%fo, %hfo, HO⟩, ⟨%ds, %fs, -, HS⟩, Hk⟩
    obtain rfl := harg2.eq_unread hf0; obtain rfl := harg3.eq_unread hf1; obtain rfl := harg4.eq_unread hf2; obtain rfl := harg5.eq_unread hfo
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS

set_option maxHeartbeats 2000000 in
/-- 0 < k < 7. -/
noncomputable def runMid (c : Dev nD) (i : grid6.Coords) (arg2 : Memref sig .tc .vmem S1024x256 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (h0 : ¬atFirst i) (h7 : ¬atLast i)
    (xh : Vec F S1024x256 .f32) (xwy : Vec F S256x2048 .f32) (xb : Vec F S1x2048 .f32) (xa : Vec F S1024x2048 .f32) :
    { LA : List (View.Piece (Elt F) S1024x2048 .f32) //
      ∀ (xout : Vec F S1024x2048 .f32) (E : Set ℕ) (K : PUnit → sProp 𝕄),
        iprop(owns (c : Thread nD τ) arg2 fullShare xh ∗ owns (c : Thread nD τ) arg3 fullShare xwy ∗ owns (c : Thread nD τ) arg4 fullShare xb ∗ owns (c : Thread nD τ) arg5 fullShare xout ∗ owns (c : Thread nD τ) arg6 fullShare xa
            ∗ (iprop(owns (c : Thread nD τ) arg2 fullShare xh ∗ owns (c : Thread nD τ) arg3 fullShare xwy ∗ owns (c : Thread nD τ) arg4 fullShare xb ∗ owns (c : Thread nD τ) arg5 fullShare xout ∗ (∃ f, arg6.view.loc (c : Thread nD τ) ↦[arg6.view.set]{fullShare} arg6.view.writes (Elt F) f LA)) -∗ K ⟨⟩))
          ⊢ wp frame (wpE (defs₀ (F := F)) Variants.none c none) E (cc6_matmul_bias_hp_kernel i arg2 harg2 arg3 harg3 arg4 harg4 arg5 harg5 arg6 harg6) K } := by
  refine ⟨?_, fun xout E K => ?run⟩
  case run =>
    simp only [cc6_matmul_bias_hp_kernel_eq_skeleton]; unfold cc6_matmul_bias_hp_kernel_skel
    unfold owns
    iintro ⟨⟨%f0, %hf0, H0⟩, ⟨%f1, %hf1, H1⟩, ⟨%f2, %hf2, H2⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hfo; obtain rfl := harg6.eq_unread hfs
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS

set_option maxHeartbeats 2000000 in
/-- k = 7. -/
noncomputable def runLast (c : Dev nD) (i : grid6.Coords) (arg2 : Memref sig .tc .vmem S1024x256 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (h0 : ¬atFirst i) (h7 : atLast i)
    (xh : Vec F S1024x256 .f32) (xwy : Vec F S256x2048 .f32) (xb : Vec F S1x2048 .f32) (xa : Vec F S1024x2048 .f32) :
    Σ' (LO : List (View.Piece (Elt F) S1024x2048 .f32)), { LA : List (View.Piece (Elt F) S1024x2048 .f32) //
      ∀ (E : Set ℕ) (K : PUnit → sProp 𝕄),
        iprop(owns (c : Thread nD τ) arg2 fullShare xh ∗ owns (c : Thread nD τ) arg3 fullShare xwy ∗ owns (c : Thread nD τ) arg4 fullShare xb ∗ (∃ d, owns (c : Thread nD τ) arg5 fullShare d) ∗ owns (c : Thread nD τ) arg6 fullShare xa
            ∗ (iprop(owns (c : Thread nD τ) arg2 fullShare xh ∗ owns (c : Thread nD τ) arg3 fullShare xwy ∗ owns (c : Thread nD τ) arg4 fullShare xb ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LA)) -∗ K ⟨⟩))
          ⊢ wp frame (wpE (defs₀ (F := F)) Variants.none c none) E (cc6_matmul_bias_hp_kernel i arg2 harg2 arg3 harg3 arg4 harg4 arg5 harg5 arg6 harg6) K } := by
  refine ⟨?_, ?_, fun E K => ?run⟩
  case run =>
    simp only [cc6_matmul_bias_hp_kernel_eq_skeleton]; unfold cc6_matmul_bias_hp_kernel_skel
    unfold owns
    iintro ⟨⟨%f0, %hf0, H0⟩, ⟨%f1, %hf1, H1⟩, ⟨%f2, %hf2, H2⟩, ⟨%dO, %fo, -, HO⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]; · iexists _; iexact HO
    iexists _; iexact HS

end Cert.Kernel.R6

end
-- ==== Proof.K.R6.Data.lean ====
/-
  The output y = h'·W_y + b_y, in the kernel as printed (pallas_call 6).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part three: what the buffers hold point by point.  After the body at position n the accumulator holds what that
  point's case leaves in it — at k = 0 from nothing, at every later k from what position n − 1 left — and, at k = 7,
  the output buffer holds what its one store leaves.  The region's invariant carries the accumulator at these contents
  from one point to the next, beside the other scoped buffers no window stages and the generator register, neither of
  which the body touches.
-/
import proofs.«116394_j17480516895034_2_alg».proof.Proof.K.R6.Runs

set_option maxRecDepth 16384

noncomputable section

namespace Cert.Kernel.R6

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem accCover_first (c : Dev nD) (i : grid6.Coords) (arg2 : Memref sig .tc .vmem S1024x256 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (h0 : atFirst i) (h7 : ¬atLast i) (xh : Vec F S1024x256 .f32) (xwy : Vec F S256x2048 .f32) (xb : Vec F S1x2048 .f32) (y : S1024x2048.Idx) :
    ∃ pc ∈ (runFirst c i arg2 harg2 arg3 harg3 arg4 harg4 arg5 harg5 arg6 harg6 h0 h7 xh xwy xb).1, y ∈ pc.1.set :=
  View.cover_of_tiledL (runFirst c i arg2 harg2 arg3 harg3 arg4 harg4 arg5 harg5 arg6 harg6 h0 h7 xh xwy xb).1 S1024x2048.size (by sl_kernel_rfl) y

/-- The accumulator after a point with k = 0. -/
def accFirst (c : Dev nD) (i : grid6.Coords) (arg2 : Memref sig .tc .vmem S1024x256 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (h0 : atFirst i) (h7 : ¬atLast i) (xh : Vec F S1024x256 .f32) (xwy : Vec F S256x2048 .f32) (xb : Vec F S1x2048 .f32) : Vec F S1024x2048 .f32 :=
  accView.read (Elt F) (accView.writes (Elt F) accView.junk (runFirst c i arg2 harg2 arg3 harg3 arg4 harg4 arg5 harg5 arg6 harg6 h0 h7 xh xwy xb).1)

theorem accCover_mid (c : Dev nD) (i : grid6.Coords) (arg2 : Memref sig .tc .vmem S1024x256 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (h0 : ¬atFirst i) (h7 : ¬atLast i) (xh : Vec F S1024x256 .f32) (xwy : Vec F S256x2048 .f32) (xb : Vec F S1x2048 .f32) (xa : Vec F S1024x2048 .f32) (y : S1024x2048.Idx) :
    ∃ pc ∈ (runMid c i arg2 harg2 arg3 harg3 arg4 harg4 arg5 harg5 arg6 harg6 h0 h7 xh xwy xb xa).1, y ∈ pc.1.set :=
  View.cover_of_tiledL (runMid c i arg2 harg2 arg3 harg3 arg4 harg4 arg5 harg5 arg6 harg6 h0 h7 xh xwy xb xa).1 S1024x2048.size (by sl_kernel_rfl) y

/-- The accumulator after a point with 0 < k < 7. -/
def accMid (c : Dev nD) (i : grid6.Coords) (arg2 : Memref sig .tc .vmem S1024x256 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (h0 : ¬atFirst i) (h7 : ¬atLast i) (xh : Vec F S1024x256 .f32) (xwy : Vec F S256x2048 .f32) (xb : Vec F S1x2048 .f32) (xa : Vec F S1024x2048 .f32) : Vec F S1024x2048 .f32 :=
  accView.read (Elt F) (accView.writes (Elt F) accView.junk (runMid c i arg2 harg2 arg3 harg3 arg4 harg4 arg5 harg5 arg6 harg6 h0 h7 xh xwy xb xa).1)

theorem outCover_last (c : Dev nD) (i : grid6.Coords) (arg2 : Memref sig .tc .vmem S1024x256 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (h0 : ¬atFirst i) (h7 : atLast i) (xh : Vec F S1024x256 .f32) (xwy : Vec F S256x2048 .f32) (xb : Vec F S1x2048 .f32) (xa : Vec F S1024x2048 .f32) (y : S1024x2048.Idx) :
    ∃ pc ∈ (runLast c i arg2 harg2 arg3 harg3 arg4 harg4 arg5 harg5 arg6 harg6 h0 h7 xh xwy xb xa).1, y ∈ pc.1.set :=
  View.cover_of_tiledL (runLast c i arg2 harg2 arg3 harg3 arg4 harg4 arg5 harg5 arg6 harg6 h0 h7 xh xwy xb xa).1 S1024x2048.size (by sl_kernel_rfl) y

/-- The output buffer after a point with k = 7. -/
def outLast (c : Dev nD) (i : grid6.Coords) (arg2 : Memref sig .tc .vmem S1024x256 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (h0 : ¬atFirst i) (h7 : atLast i) (xh : Vec F S1024x256 .f32) (xwy : Vec F S256x2048 .f32) (xb : Vec F S1x2048 .f32) (xa : Vec F S1024x2048 .f32) : Vec F S1024x2048 .f32 :=
  outView.read (Elt F) (outView.writes (Elt F) outView.junk (runLast c i arg2 harg2 arg3 harg3 arg4 harg4 arg5 harg5 arg6 harg6 h0 h7 xh xwy xb xa).1)

theorem accCover_last (c : Dev nD) (i : grid6.Coords) (arg2 : Memref sig .tc .vmem S1024x256 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (h0 : ¬atFirst i) (h7 : atLast i) (xh : Vec F S1024x256 .f32) (xwy : Vec F S256x2048 .f32) (xb : Vec F S1x2048 .f32) (xa : Vec F S1024x2048 .f32) (y : S1024x2048.Idx) :
    ∃ pc ∈ (runLast c i arg2 harg2 arg3 harg3 arg4 harg4 arg5 harg5 arg6 harg6 h0 h7 xh xwy xb xa).2.1, y ∈ pc.1.set :=
  View.cover_of_tiledL (runLast c i arg2 harg2 arg3 harg3 arg4 harg4 arg5 harg5 arg6 harg6 h0 h7 xh xwy xb xa).2.1 S1024x2048.size (by sl_kernel_rfl) y

/-- The accumulator after a point with k = 7. -/
def accLast (c : Dev nD) (i : grid6.Coords) (arg2 : Memref sig .tc .vmem S1024x256 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (h0 : ¬atFirst i) (h7 : atLast i) (xh : Vec F S1024x256 .f32) (xwy : Vec F S256x2048 .f32) (xb : Vec F S1x2048 .f32) (xa : Vec F S1024x2048 .f32) : Vec F S1024x2048 .f32 :=
  accView.read (Elt F) (accView.writes (Elt F) accView.junk (runLast c i arg2 harg2 arg3 harg3 arg4 harg4 arg5 harg5 arg6 harg6 h0 h7 xh xwy xb xa).2.1)

/-! ## Point by point -/

/-- After the body at position `n`: the output buffer (meaningful at k = 7 only; elsewhere nothing consults it) and the
    accumulator. -/
def heldAt (c : Dev nD) : (n : ℕ) → n < cfg6.N → Vec F S1024x2048 .f32 × Vec F S1024x2048 .f32
  | 0, hn => (outView.read (Elt F) outView.junk,
      accFirst c (grid6.coords ⟨0, hn⟩) (m_h ⟨0, hn⟩) (hm_h ⟨0, hn⟩) (m_wy ⟨0, hn⟩) (hm_wy ⟨0, hn⟩) (m_b ⟨0, hn⟩) (hm_b ⟨0, hn⟩) (m_out ⟨0, hn⟩) (hm_out ⟨0, hn⟩) accM (Memref.isWhole_whole _) ((atFirst_iff ⟨0, hn⟩).mpr (Nat.zero_mod _)) (fun h => (fun h => by (try dsimp only at h); omega) ((atLast_iff ⟨0, hn⟩).mp h)) (blockAt V c 0 ⟨0, hn⟩) (blockAt V c 1 ⟨0, hn⟩) (blockAt V c 2 ⟨0, hn⟩))
  | n + 1, hn =>
    if h0 : (n + 1) % 8 = 0 then
      if h7 : (n + 1) % 8 = 7 then
        False.elim (by omega)
      else
        (outView.read (Elt F) outView.junk,
          accFirst c (grid6.coords ⟨n + 1, hn⟩) (m_h ⟨n + 1, hn⟩) (hm_h ⟨n + 1, hn⟩) (m_wy ⟨n + 1, hn⟩) (hm_wy ⟨n + 1, hn⟩) (m_b ⟨n + 1, hn⟩) (hm_b ⟨n + 1, hn⟩) (m_out ⟨n + 1, hn⟩) (hm_out ⟨n + 1, hn⟩) accM (Memref.isWhole_whole _) ((atFirst_iff ⟨n + 1, hn⟩).mpr h0) (fun h => h7 ((atLast_iff ⟨n + 1, hn⟩).mp h)) (blockAt V c 0 ⟨n + 1, hn⟩) (blockAt V c 1 ⟨n + 1, hn⟩) (blockAt V c 2 ⟨n + 1, hn⟩))
    else
      if h7 : (n + 1) % 8 = 7 then
        (outLast c (grid6.coords ⟨n + 1, hn⟩) (m_h ⟨n + 1, hn⟩) (hm_h ⟨n + 1, hn⟩) (m_wy ⟨n + 1, hn⟩) (hm_wy ⟨n + 1, hn⟩) (m_b ⟨n + 1, hn⟩) (hm_b ⟨n + 1, hn⟩) (m_out ⟨n + 1, hn⟩) (hm_out ⟨n + 1, hn⟩) accM (Memref.isWhole_whole _) (fun h => h0 ((atFirst_iff ⟨n + 1, hn⟩).mp h)) ((atLast_iff ⟨n + 1, hn⟩).mpr h7) (blockAt V c 0 ⟨n + 1, hn⟩) (blockAt V c 1 ⟨n + 1, hn⟩) (blockAt V c 2 ⟨n + 1, hn⟩) (heldAt c n (Nat.lt_of_succ_lt hn)).2,
          accLast c (grid6.coords ⟨n + 1, hn⟩) (m_h ⟨n + 1, hn⟩) (hm_h ⟨n + 1, hn⟩) (m_wy ⟨n + 1, hn⟩) (hm_wy ⟨n + 1, hn⟩) (m_b ⟨n + 1, hn⟩) (hm_b ⟨n + 1, hn⟩) (m_out ⟨n + 1, hn⟩) (hm_out ⟨n + 1, hn⟩) accM (Memref.isWhole_whole _) (fun h => h0 ((atFirst_iff ⟨n + 1, hn⟩).mp h)) ((atLast_iff ⟨n + 1, hn⟩).mpr h7) (blockAt V c 0 ⟨n + 1, hn⟩) (blockAt V c 1 ⟨n + 1, hn⟩) (blockAt V c 2 ⟨n + 1, hn⟩) (heldAt c n (Nat.lt_of_succ_lt hn)).2)
      else
        (outView.read (Elt F) outView.junk,
          accMid c (grid6.coords ⟨n + 1, hn⟩) (m_h ⟨n + 1, hn⟩) (hm_h ⟨n + 1, hn⟩) (m_wy ⟨n + 1, hn⟩) (hm_wy ⟨n + 1, hn⟩) (m_b ⟨n + 1, hn⟩) (hm_b ⟨n + 1, hn⟩) (m_out ⟨n + 1, hn⟩) (hm_out ⟨n + 1, hn⟩) accM (Memref.isWhole_whole _) (fun h => h0 ((atFirst_iff ⟨n + 1, hn⟩).mp h)) (fun h => h7 ((atLast_iff ⟨n + 1, hn⟩).mp h)) (blockAt V c 0 ⟨n + 1, hn⟩) (blockAt V c 1 ⟨n + 1, hn⟩) (blockAt V c 2 ⟨n + 1, hn⟩) (heldAt c n (Nat.lt_of_succ_lt hn)).2)

theorem heldAt_first (c : Dev nD) (t : Fin cfg6.N) (h0 : t.val % 8 = 0) (h7 : ¬t.val % 8 = 7) :
    heldAt V c t.val t.isLt = (outView.read (Elt F) outView.junk,
      accFirst c (grid6.coords t) (m_h t) (hm_h t) (m_wy t) (hm_wy t) (m_b t) (hm_b t) (m_out t) (hm_out t) accM (Memref.isWhole_whole _) ((atFirst_iff t).mpr h0) (fun h => h7 ((atLast_iff t).mp h)) (blockAt V c 0 t) (blockAt V c 1 t) (blockAt V c 2 t)) := by
  obtain ⟨n, hn⟩ := t
  cases n with
  | zero => exact rfl
  | succ n => exact (dif_pos h0).trans ((dif_neg h7).trans rfl)

theorem heldAt_mid (c : Dev nD) (t : Fin cfg6.N) (h0 : ¬t.val % 8 = 0) (h7 : ¬t.val % 8 = 7) :
    heldAt V c t.val t.isLt = (outView.read (Elt F) outView.junk,
      accMid c (grid6.coords t) (m_h t) (hm_h t) (m_wy t) (hm_wy t) (m_b t) (hm_b t) (m_out t) (hm_out t) accM (Memref.isWhole_whole _) (fun h => h0 ((atFirst_iff t).mp h)) (fun h => h7 ((atLast_iff t).mp h)) (blockAt V c 0 t) (blockAt V c 1 t) (blockAt V c 2 t)
        (heldAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h7).trans rfl)

theorem heldAt_last (c : Dev nD) (t : Fin cfg6.N) (h0 : ¬t.val % 8 = 0) (h7 : t.val % 8 = 7) :
    heldAt V c t.val t.isLt = (outLast c (grid6.coords t) (m_h t) (hm_h t) (m_wy t) (hm_wy t) (m_b t) (hm_b t) (m_out t) (hm_out t) accM (Memref.isWhole_whole _) (fun h => h0 ((atFirst_iff t).mp h)) ((atLast_iff t).mpr h7) (blockAt V c 0 t) (blockAt V c 1 t) (blockAt V c 2 t)
        (heldAt V c (t.val - 1) (Nat.lt_of_le_of_lt (Nat.sub_le _ _) t.isLt)).2,
      accLast c (grid6.coords t) (m_h t) (hm_h t) (m_wy t) (hm_wy t) (m_b t) (hm_b t) (m_out t) (hm_out t) accM (Memref.isWhole_whole _) (fun h => h0 ((atFirst_iff t).mp h)) ((atLast_iff t).mpr h7) (blockAt V c 0 t) (blockAt V c 1 t) (blockAt V c 2 t)
        (heldAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h7).trans rfl)

/-! ## The invariant -/

/-- Before position `n`: at the start what the launch hands the region; afterwards the accumulator at what position
    `n − 1` left in it, the other scoped buffers no window stages, and the generator register. -/
def inv (c : Dev nD) : (n : ℕ) → n ≤ cfg6.N → sProp 𝕄
  | 0, _ => Pipeline.ΦA spec6 c
  | n + 1, hn => iprop(iprop(owns (c : Thread nD τ) accM fullShare ((heldAt V c n hn).2)
      ∗ Pipeline.scopedRestBut (Ix := Unit) (Name := ℕ) (U := UR sig nD τ) (Lvl := ℕ) (Val := Elt F) spec6 c [cc6_scratch0]) ∗ (∃ r, prngReg c r))

theorem inv_zero (c : Dev nD) (n : ℕ) (h : n ≤ cfg6.N) (hz : n = 0) : inv V c n h = Pipeline.ΦA spec6 c := by
  subst hz; rfl

theorem inv_succ (c : Dev nD) (n : ℕ) (hn : n < cfg6.N) :
    inv V c (n + 1) hn = iprop(iprop(owns (c : Thread nD τ) accM fullShare ((heldAt V c n hn).2)
      ∗ Pipeline.scopedRestBut (Ix := Unit) (Name := ℕ) (U := UR sig nD τ) (Lvl := ℕ) (Val := Elt F) spec6 c [cc6_scratch0]) ∗ (∃ r, prngReg c r)) := rfl

theorem inv_pos (c : Dev nD) (n : ℕ) (h : n ≤ cfg6.N) (hz : n ≠ 0) :
    inv V c n h = iprop(iprop(owns (c : Thread nD τ) accM fullShare ((heldAt V c (n - 1) (by omega)).2)
      ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

/-! ## The proof data -/

/-- The region's proof data on core `c`: the arrays as the region finds them; after the body each input's buffer at its
    block and the output's at `heldAt`; the invariant above; nothing owed; full shares. -/
def dat (c : Dev nD) : Dat τ (Elt F) Unit ℕ (UR sig nD τ) ℕ cfg6 c where
  A w := V c (Pipeline.arrRef spec6 w)
  after w t := match w with
    | ⟨0, _⟩ => blockAt V c 0 t
    | ⟨1, _⟩ => blockAt V c 1 t
    | ⟨2, _⟩ => blockAt V c 2 t
    | ⟨3, _⟩ => (heldAt V c t.val t.isLt).1
  Φ t := inv V c t.val (Nat.le_of_lt_succ t.isLt)
  q _ := fullShare
  owed _ := 0

theorem dat_A (c : Dev nD) (w : Fin cfg6.W) : (dat V c).A w = V c (Pipeline.arrRef spec6 w) := by
  dsimp only [dat]

theorem inv_castSucc (c : Dev nD) (t : Fin cfg6.N) :
    (dat V c).Φ t.castSucc = inv V c t.val (Nat.le_of_lt t.isLt) := by
  dsimp only [dat]; simp only [Fin.coe_castSucc]

theorem after_h (c : Dev nD) (t : Fin cfg6.N) : (dat V c).after 0 t = blockAt V c 0 t := by dsimp only [dat]
theorem after_wy (c : Dev nD) (t : Fin cfg6.N) : (dat V c).after 1 t = blockAt V c 1 t := by dsimp only [dat]
theorem after_b (c : Dev nD) (t : Fin cfg6.N) : (dat V c).after 2 t = blockAt V c 2 t := by dsimp only [dat]
theorem after_out (c : Dev nD) (t : Fin cfg6.N) : (dat V c).after 3 t = (heldAt V c t.val t.isLt).1 := by dsimp only [dat]

theorem before_h (c : Dev nD) (t : Fin cfg6.N) (d) : (dat V c).before 0 t d = blockAt V c 0 t :=
  in_h_of V (dat V c) (dat_A V c 0) (after_h V c) t d
theorem before_wy (c : Dev nD) (t : Fin cfg6.N) (d) : (dat V c).before 1 t d = blockAt V c 1 t :=
  in_wy_of V (dat V c) (dat_A V c 1) (after_wy V c) t d
theorem before_b (c : Dev nD) (t : Fin cfg6.N) (d) : (dat V c).before 2 t d = blockAt V c 2 t :=
  in_b_of V (dat V c) (dat_A V c 2) (after_b V c) t d

end Cert.Kernel.R6

end
-- ==== Proof.K.R6.Body.lean ====
/-
  The output y = h'·W_y + b_y, in the kernel as printed (pallas_call 6).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part four: the body obligation at every point.  The pipeline hands the body the invariant, the input buffers (each
  holding its block) and the output buffer.  Which case the point is in is decided by its position modulo 8; the case's
  triple then applies.  The accumulator comes out of the invariant at what the previous point left (at anything at the
  very first point) and goes back in at this point's contents; the remaining scoped buffers and the generator register
  pass through untouched.
-/
import proofs.«116394_j17480516895034_2_alg».proof.Proof.K.R6.Data

set_option maxRecDepth 16384

noncomputable section

namespace Cert.Kernel.R6

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg6.N) : sProp 𝕄 :=
  iprop((dat V c).Φ t.castSucc ∗ (dat V c).owesAt () t.castSucc
    ∗ (∃ d, owns (c : Thread nD τ) (m_h t) fullShare ((dat V c).before 0 t d))
    ∗ (∃ d, owns (c : Thread nD τ) (m_wy t) fullShare ((dat V c).before 1 t d))
    ∗ (∃ d, owns (c : Thread nD τ) (m_b t) fullShare ((dat V c).before 2 t d))
    ∗ (∃ d, owns (c : Thread nD τ) (m_out t) fullShare ((dat V c).before 3 t d)))

/-- and what it returns. -/
def bodyPost (c : Dev nD) (t : Fin cfg6.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
theorem sound_body (c : Dev nD) (t : Fin cfg6.N) :
    bodyPre V c t ⊢ wp frame (wpE (defs₀ (F := F)) Variants.none c none) Set.univ (bodyAt6 t) (fun _ => bodyPost V c t) := by
  unfold bodyPre bodyPost bodyAt6
  simp only [before_h, before_wy, before_b]
  rw [show (dat V c).owesAt () t.succ = (dat V c).owesAt () t.castSucc from rfl]
  rw [show (dat V c).Φ t.succ = inv V c (t.val + 1) t.isLt from rfl, inv_succ]
  have hN : t.val < 16 := lt_of_lt_of_eq t.isLt (show cfg6.N = 16 from N_6)
  rw [show (dat V c).leavesExact 0 t = owns (c : Thread nD τ) (m_h t) fullShare ((dat V c).after 0 t) from by
    unfold Dat.leavesExact; rw [live_h t], after_h]
  rw [show (dat V c).leavesExact 1 t = owns (c : Thread nD τ) (m_wy t) fullShare ((dat V c).after 1 t) from by
    unfold Dat.leavesExact; rw [live_wy t], after_wy]
  rw [show (dat V c).leavesExact 2 t = owns (c : Thread nD τ) (m_b t) fullShare ((dat V c).after 2 t) from by
    unfold Dat.leavesExact; rw [live_b t], after_b]
  by_cases h0 : t.val % 8 = 0
  · have h7 : ¬t.val % 8 = 7 := by omega
    rw [Dat.leavesExact_idle (dat V c) 3 t (idle_out t (fun h => h7 ((atLast_iff t).mp h))) (noFlush_out t (fun h => h7 ((atLast_iff t).mp h)))]
    rw [heldAt_first V c t h0 h7]
    unfold accFirst; (try dsimp only)
    by_cases hz : t.val = 0
    · rw [inv_castSucc V c t, inv_zero V c _ _ hz, handed_eq]
      iintro ⟨⟨⟨HA, Hrest⟩, Hg⟩, Ho, ⟨%d0, H0⟩, ⟨%d1, H1⟩, ⟨%d2, H2⟩, ⟨%dO, HO⟩⟩
      iapply ((runFirst c (grid6.coords t) _ _ _ _ _ _ _ _ _ _ ((atFirst_iff t).mpr h0) (fun h => h7 ((atLast_iff t).mp h)) (blockAt V c 0 t) (blockAt V c 1 t) (blockAt V c 2 t)).2 _ Set.univ _)
      isplitl [H0]; · iexact H0
      isplitl [H1]; · iexact H1
      isplitl [H2]; · iexact H2
      isplitl [HO]; · iexact HO
      isplitl [HA]; · iexact HA
      iintro ⟨H0, H1, H2, HO, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_first c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact HO
    · rw [inv_castSucc V c t, inv_pos V c _ _ hz]
      iintro ⟨⟨⟨HA, Hrest⟩, Hg⟩, Ho, ⟨%d0, H0⟩, ⟨%d1, H1⟩, ⟨%d2, H2⟩, ⟨%dO, HO⟩⟩
      iapply ((runFirst c (grid6.coords t) _ _ _ _ _ _ _ _ _ _ ((atFirst_iff t).mpr h0) (fun h => h7 ((atLast_iff t).mp h)) (blockAt V c 0 t) (blockAt V c 1 t) (blockAt V c 2 t)).2 _ Set.univ _)
      isplitl [H0]; · iexact H0
      isplitl [H1]; · iexact H1
      isplitl [H2]; · iexact H2
      isplitl [HO]; · iexact HO
      isplitl [HA]; · iexists _; iexact HA
      iintro ⟨H0, H1, H2, HO, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_first c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact HO
  · have hz : t.val ≠ 0 := fun e => h0 (by rw [e])
    by_cases h7 : t.val % 8 = 7
    · rw [show (dat V c).leavesExact 3 t = owns (c : Thread nD τ) (m_out t) fullShare ((dat V c).after 3 t) from by
        unfold Dat.leavesExact; rw [live_out t ((atLast_iff t).mpr h7)], after_out]
      rw [heldAt_last V c t h0 h7]
      unfold outLast accLast; (try dsimp only)
      rw [inv_castSucc V c t, inv_pos V c _ _ hz]
      iintro ⟨⟨⟨HA, Hrest⟩, Hg⟩, Ho, ⟨%d0, H0⟩, ⟨%d1, H1⟩, ⟨%d2, H2⟩, ⟨%dO, HO⟩⟩
      iapply ((runLast c (grid6.coords t) _ _ _ _ _ _ _ _ _ _ (fun h => h0 ((atFirst_iff t).mp h)) ((atLast_iff t).mpr h7) (blockAt V c 0 t) (blockAt V c 1 t) (blockAt V c 2 t) _).2.2 Set.univ _)
      isplitl [H0]; · iexact H0
      isplitl [H1]; · iexact H1
      isplitl [H2]; · iexact H2
      isplitl [HO]; · iexists _; iexact HO
      isplitl [HA]; · iexact HA
      iintro ⟨H0, H1, H2, ⟨%eO, HO⟩, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_last c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact HO
      ipureintro; exact View.read_writes_of_cover _ _ _ _ _ (outCover_last c _ _ _ _ _ _ _ _ _ _ _ _ _ _ _ _ _)
    · rw [Dat.leavesExact_idle (dat V c) 3 t (idle_out t (fun h => h7 ((atLast_iff t).mp h))) (noFlush_out t (fun h => h7 ((atLast_iff t).mp h)))]
      rw [heldAt_mid V c t h0 h7]
      unfold accMid; (try dsimp only)
      rw [inv_castSucc V c t, inv_pos V c _ _ hz]
      iintro ⟨⟨⟨HA, Hrest⟩, Hg⟩, Ho, ⟨%d0, H0⟩, ⟨%d1, H1⟩, ⟨%d2, H2⟩, ⟨%dO, HO⟩⟩
      iapply ((runMid c (grid6.coords t) _ _ _ _ _ _ _ _ _ _ (fun h => h0 ((atFirst_iff t).mp h)) (fun h => h7 ((atLast_iff t).mp h)) (blockAt V c 0 t) (blockAt V c 1 t) (blockAt V c 2 t) _).2 _ Set.univ _)
      isplitl [H0]; · iexact H0
      isplitl [H1]; · iexact H1
      isplitl [H2]; · iexact H2
      isplitl [HO]; · iexact HO
      isplitl [HA]; · iexact HA
      iintro ⟨H0, H1, H2, HO, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_mid c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact HO

/-- The body obligation, at every point. -/
theorem body_obligation (c : Dev nD) : BodyObligation (dat (F := F) V c) (defs₀ (F := F)) Variants.none () Set.univ := fun t => by
  rw [bigSep_W6, bigSep_W6]
  exact sound_body V c t

/-- What the launch hands the region is the invariant before the first point. -/
theorem inv_enter (c : Dev nD) : Pipeline.ΦA spec6 c ⊢ (dat V c).Φ 0 := by
  rw [show (dat V c).Φ 0 = inv V c 0 (Nat.zero_le _) from rfl, inv_zero V c 0 _ rfl]
  try exact Idealize.SL.BI.Entails.refl _

/-- After the last point the invariant gives that back: what the accumulator holds is forgotten. -/
theorem inv_leave (c : Dev nD) : (dat V c).Φ (Fin.last cfg6.N) ⊢ Pipeline.ΦA spec6 c := by
  have ht : (Fin.last cfg6.N).val ≠ 0 := by rw [Fin.val_last]; have : cfg6.N = 16 := N_6; omega
  rw [show (dat V c).Φ (Fin.last cfg6.N) = inv V c (Fin.last cfg6.N).val (Nat.le_of_lt_succ (Fin.last cfg6.N).isLt) from rfl,
    inv_pos V c _ _ ht, handed_eq]
  iintro ⟨⟨HA, Hrest⟩, Hg⟩
  isplitl [HA Hrest]
  · isplitl [HA]
    · iexists _; iexact HA
    iexact Hrest
  iexact Hg

end Cert.Kernel.R6

end
-- ==== Proof.K.Whole.Chain.lean ====
/-
  The whole program of the kernel as printed: what every buffer holds between two items of @main.

  @main is twelve items: stretches of host operations (reshapes of the bias, gain and offset vectors into rows) and the
  seven pallas_calls.  From the launch memory, a host stretch leaves what its operations compute, and a pallas_call
  leaves its output array at what its write-backs fold to and every other buffer as it found it.  So an argument
  array, which nothing writes, is found at every boundary as launched, and an intermediate array is found by every
  later item as the call that produced it left it.
-/
import proofs.«116394_j17480516895034_2_alg».proof.Proof.K.R0.Body
import proofs.«116394_j17480516895034_2_alg».proof.Proof.K.R1.Body
import proofs.«116394_j17480516895034_2_alg».proof.Proof.K.R2.Body
import proofs.«116394_j17480516895034_2_alg».proof.Proof.K.R3.Body
import proofs.«116394_j17480516895034_2_alg».proof.Proof.K.R4.Body
import proofs.«116394_j17480516895034_2_alg».proof.Proof.K.R5.Body
import proofs.«116394_j17480516895034_2_alg».proof.Proof.K.R6.Body
import proofs.«116394_j17480516895034_2_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch. -/
abbrev B0 : Dev nD → Valuation τ sig (Elt F) := fun c b => (s₀ m ρ).mem ((c : Dev nD), b)
abbrev T0 : (c : Dev nD) → (b : Ref sig .tc) → Buf (Elt F) ((c : Thread nD τ).loc b) := fun c b => B0 m ρ c b

/-- After the host stretch `hostOps0`. -/
abbrev B1 : Dev nD → Valuation τ sig (Elt F) := fun c => StableHlo.after hostOps0 (B0 m ρ c)
abbrev T1 : (c : Dev nD) → (b : Ref sig .tc) → Buf (Elt F) ((c : Thread nD τ).loc b) := fun c b => B1 m ρ c b
/-- A buffer the stretch does not write is kept. -/
theorem B1_keep (c : Dev nD) (r : Ref sig .tc) (h : r ∉ hostOps0_W) : B1 m ρ c (Proc.devRef .tc r) = B0 m ρ c (Proc.devRef .tc r) :=
  StableHlo.after_of_writes_sub hostOps0 _ hostOps0_writes h

/-- After pallas_call 0: its arrays at what the pipeline leaves, every other buffer as entered. -/
def B2 (c : Dev nD) : Valuation τ sig (Elt F) :=
  Pipeline.withArrays spec0 c (B1 m ρ c) fun w => (R0.dat (T1 m ρ) c).arrAt w cfg0.N
theorem B2_arr (c : Dev nD) (w : Fin cfg0.W) :
    B2 m ρ c (Proc.devRef .tc (Pipeline.arrRef spec0 w)) = (R0.dat (T1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev T2 : (c : Dev nD) → (b : Ref sig .tc) → Buf (Elt F) ((c : Thread nD τ).loc b) := fun c b => B2 m ρ c b
theorem hF0 (c : Dev nD) (w : Fin cfg0.W) : (R0.dat (T1 m ρ) c).arrAt w cfg0.N = T2 m ρ c (Pipeline.arrRef spec0 w) :=
  (B2_arr m ρ c w).symm
theorem hrest0 (c : Dev nD) : ∀ b, b ∉ Finset.univ.image (Pipeline.arrRef spec0) → T2 m ρ c b = T1 m ρ c b :=
  fun b hb => B2_of_ne m ρ c b fun w e => hb (Finset.mem_image.mpr ⟨w, Finset.mem_univ _, e⟩)
/-- Every buffer but the call's output array is kept: an input array is read, not written, and the rest bypass the call. -/
theorem B2_keep (c : Dev nD) (r : Ref sig .tc) (h : r ≠ main_v3) : B2 m ρ c (Proc.devRef .tc r) = B1 m ρ c (Proc.devRef .tc r) := by
  by_cases hw : ∃ w, Pipeline.arrRef spec0 w = r
  · obtain ⟨w, rfl⟩ := hw
    have hin : (cfg0.win w).isOut = false := by
      revert h; revert w; decide
    exact (B2_arr m ρ c w).trans (((R0.dat (T1 m ρ) c).arrAt_in w hin _).trans (R0.dat_A (T1 m ρ) c w))
  · exact B2_of_ne m ρ c r (fun w e => hw ⟨w, e⟩)

/-- After the host stretch `hostOps1`. -/
abbrev B3 : Dev nD → Valuation τ sig (Elt F) := fun c => StableHlo.after hostOps1 (B2 m ρ c)
abbrev T3 : (c : Dev nD) → (b : Ref sig .tc) → Buf (Elt F) ((c : Thread nD τ).loc b) := fun c b => B3 m ρ c b
/-- A buffer the stretch does not write is kept. -/
theorem B3_keep (c : Dev nD) (r : Ref sig .tc) (h : r ∉ hostOps1_W) : B3 m ρ c (Proc.devRef .tc r) = B2 m ρ c (Proc.devRef .tc r) :=
  StableHlo.after_of_writes_sub hostOps1 _ hostOps1_writes h

/-- After pallas_call 1: its arrays at what the pipeline leaves, every other buffer as entered. -/
def B4 (c : Dev nD) : Valuation τ sig (Elt F) :=
  Pipeline.withArrays spec1 c (B3 m ρ c) fun w => (R1.dat (T3 m ρ) c).arrAt w cfg1.N
theorem B4_arr (c : Dev nD) (w : Fin cfg1.W) :
    B4 m ρ c (Proc.devRef .tc (Pipeline.arrRef spec1 w)) = (R1.dat (T3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev T4 : (c : Dev nD) → (b : Ref sig .tc) → Buf (Elt F) ((c : Thread nD τ).loc b) := fun c b => B4 m ρ c b
theorem hF1 (c : Dev nD) (w : Fin cfg1.W) : (R1.dat (T3 m ρ) c).arrAt w cfg1.N = T4 m ρ c (Pipeline.arrRef spec1 w) :=
  (B4_arr m ρ c w).symm
theorem hrest1 (c : Dev nD) : ∀ b, b ∉ Finset.univ.image (Pipeline.arrRef spec1) → T4 m ρ c b = T3 m ρ c b :=
  fun b hb => B4_of_ne m ρ c b fun w e => hb (Finset.mem_image.mpr ⟨w, Finset.mem_univ _, e⟩)
/-- Every buffer but the call's output array is kept: an input array is read, not written, and the rest bypass the call. -/
theorem B4_keep (c : Dev nD) (r : Ref sig .tc) (h : r ≠ main_v7) : B4 m ρ c (Proc.devRef .tc r) = B3 m ρ c (Proc.devRef .tc r) := by
  by_cases hw : ∃ w, Pipeline.arrRef spec1 w = r
  · obtain ⟨w, rfl⟩ := hw
    have hin : (cfg1.win w).isOut = false := by
      revert h; revert w; decide
    exact (B4_arr m ρ c w).trans (((R1.dat (T3 m ρ) c).arrAt_in w hin _).trans (R1.dat_A (T3 m ρ) c w))
  · exact B4_of_ne m ρ c r (fun w e => hw ⟨w, e⟩)

/-- After the host stretch `hostOps2`. -/
abbrev B5 : Dev nD → Valuation τ sig (Elt F) := fun c => StableHlo.after hostOps2 (B4 m ρ c)
abbrev T5 : (c : Dev nD) → (b : Ref sig .tc) → Buf (Elt F) ((c : Thread nD τ).loc b) := fun c b => B5 m ρ c b
/-- A buffer the stretch does not write is kept. -/
theorem B5_keep (c : Dev nD) (r : Ref sig .tc) (h : r ∉ hostOps2_W) : B5 m ρ c (Proc.devRef .tc r) = B4 m ρ c (Proc.devRef .tc r) :=
  StableHlo.after_of_writes_sub hostOps2 _ hostOps2_writes h

/-- After pallas_call 2: its arrays at what the pipeline leaves, every other buffer as entered. -/
def B6 (c : Dev nD) : Valuation τ sig (Elt F) :=
  Pipeline.withArrays spec2 c (B5 m ρ c) fun w => (R2.dat (T5 m ρ) c).arrAt w cfg2.N
theorem B6_arr (c : Dev nD) (w : Fin cfg2.W) :
    B6 m ρ c (Proc.devRef .tc (Pipeline.arrRef spec2 w)) = (R2.dat (T5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev T6 : (c : Dev nD) → (b : Ref sig .tc) → Buf (Elt F) ((c : Thread nD τ).loc b) := fun c b => B6 m ρ c b
theorem hF2 (c : Dev nD) (w : Fin cfg2.W) : (R2.dat (T5 m ρ) c).arrAt w cfg2.N = T6 m ρ c (Pipeline.arrRef spec2 w) :=
  (B6_arr m ρ c w).symm
theorem hrest2 (c : Dev nD) : ∀ b, b ∉ Finset.univ.image (Pipeline.arrRef spec2) → T6 m ρ c b = T5 m ρ c b :=
  fun b hb => B6_of_ne m ρ c b fun w e => hb (Finset.mem_image.mpr ⟨w, Finset.mem_univ _, e⟩)
/-- Every buffer but the call's output array is kept: an input array is read, not written, and the rest bypass the call. -/
theorem B6_keep (c : Dev nD) (r : Ref sig .tc) (h : r ≠ main_v11) : B6 m ρ c (Proc.devRef .tc r) = B5 m ρ c (Proc.devRef .tc r) := by
  by_cases hw : ∃ w, Pipeline.arrRef spec2 w = r
  · obtain ⟨w, rfl⟩ := hw
    have hin : (cfg2.win w).isOut = false := by
      revert h; revert w; decide
    exact (B6_arr m ρ c w).trans (((R2.dat (T5 m ρ) c).arrAt_in w hin _).trans (R2.dat_A (T5 m ρ) c w))
  · exact B6_of_ne m ρ c r (fun w e => hw ⟨w, e⟩)

/-- After the host stretch `hostOps3`. -/
abbrev B7 : Dev nD → Valuation τ sig (Elt F) := fun c => StableHlo.after hostOps3 (B6 m ρ c)
abbrev T7 : (c : Dev nD) → (b : Ref sig .tc) → Buf (Elt F) ((c : Thread nD τ).loc b) := fun c b => B7 m ρ c b
/-- A buffer the stretch does not write is kept. -/
theorem B7_keep (c : Dev nD) (r : Ref sig .tc) (h : r ∉ hostOps3_W) : B7 m ρ c (Proc.devRef .tc r) = B6 m ρ c (Proc.devRef .tc r) :=
  StableHlo.after_of_writes_sub hostOps3 _ hostOps3_writes h

/-- After pallas_call 3: its arrays at what the pipeline leaves, every other buffer as entered. -/
def B8 (c : Dev nD) : Valuation τ sig (Elt F) :=
  Pipeline.withArrays spec3 c (B7 m ρ c) fun w => (R3.dat (T7 m ρ) c).arrAt w cfg3.N
theorem B8_arr (c : Dev nD) (w : Fin cfg3.W) :
    B8 m ρ c (Proc.devRef .tc (Pipeline.arrRef spec3 w)) = (R3.dat (T7 m ρ) c).arrAt w cfg3.N := by
  unfold B8; exact Pipeline.withArrays_arr spec3 launch3.win.arr_inj c _ _ w
theorem B8_of_ne (c : Dev nD) (b : Ref sig .tc) (hb : ∀ w, Pipeline.arrRef spec3 w ≠ b) :
    B8 m ρ c (Proc.devRef .tc b) = B7 m ρ c (Proc.devRef .tc b) := by
  unfold B8; exact Pipeline.withArrays_of_ne spec3 c _ _ b hb
abbrev T8 : (c : Dev nD) → (b : Ref sig .tc) → Buf (Elt F) ((c : Thread nD τ).loc b) := fun c b => B8 m ρ c b
theorem hF3 (c : Dev nD) (w : Fin cfg3.W) : (R3.dat (T7 m ρ) c).arrAt w cfg3.N = T8 m ρ c (Pipeline.arrRef spec3 w) :=
  (B8_arr m ρ c w).symm
theorem hrest3 (c : Dev nD) : ∀ b, b ∉ Finset.univ.image (Pipeline.arrRef spec3) → T8 m ρ c b = T7 m ρ c b :=
  fun b hb => B8_of_ne m ρ c b fun w e => hb (Finset.mem_image.mpr ⟨w, Finset.mem_univ _, e⟩)
/-- Every buffer but the call's output array is kept: an input array is read, not written, and the rest bypass the call. -/
theorem B8_keep (c : Dev nD) (r : Ref sig .tc) (h : r ≠ main_v15) : B8 m ρ c (Proc.devRef .tc r) = B7 m ρ c (Proc.devRef .tc r) := by
  by_cases hw : ∃ w, Pipeline.arrRef spec3 w = r
  · obtain ⟨w, rfl⟩ := hw
    have hin : (cfg3.win w).isOut = false := by
      revert h; revert w; decide
    exact (B8_arr m ρ c w).trans (((R3.dat (T7 m ρ) c).arrAt_in w hin _).trans (R3.dat_A (T7 m ρ) c w))
  · exact B8_of_ne m ρ c r (fun w e => hw ⟨w, e⟩)

/-- After pallas_call 4: its arrays at what the pipeline leaves, every other buffer as entered. -/
def B9 (c : Dev nD) : Valuation τ sig (Elt F) :=
  Pipeline.withArrays spec4 c (B8 m ρ c) fun w => (R4.dat (T8 m ρ) c).arrAt w cfg4.N
theorem B9_arr (c : Dev nD) (w : Fin cfg4.W) :
    B9 m ρ c (Proc.devRef .tc (Pipeline.arrRef spec4 w)) = (R4.dat (T8 m ρ) c).arrAt w cfg4.N := by
  unfold B9; exact Pipeline.withArrays_arr spec4 launch4.win.arr_inj c _ _ w
theorem B9_of_ne (c : Dev nD) (b : Ref sig .tc) (hb : ∀ w, Pipeline.arrRef spec4 w ≠ b) :
    B9 m ρ c (Proc.devRef .tc b) = B8 m ρ c (Proc.devRef .tc b) := by
  unfold B9; exact Pipeline.withArrays_of_ne spec4 c _ _ b hb
abbrev T9 : (c : Dev nD) → (b : Ref sig .tc) → Buf (Elt F) ((c : Thread nD τ).loc b) := fun c b => B9 m ρ c b
theorem hF4 (c : Dev nD) (w : Fin cfg4.W) : (R4.dat (T8 m ρ) c).arrAt w cfg4.N = T9 m ρ c (Pipeline.arrRef spec4 w) :=
  (B9_arr m ρ c w).symm
theorem hrest4 (c : Dev nD) : ∀ b, b ∉ Finset.univ.image (Pipeline.arrRef spec4) → T9 m ρ c b = T8 m ρ c b :=
  fun b hb => B9_of_ne m ρ c b fun w e => hb (Finset.mem_image.mpr ⟨w, Finset.mem_univ _, e⟩)
/-- Every buffer but the call's output array is kept: an input array is read, not written, and the rest bypass the call. -/
theorem B9_keep (c : Dev nD) (r : Ref sig .tc) (h : r ≠ main_v16) : B9 m ρ c (Proc.devRef .tc r) = B8 m ρ c (Proc.devRef .tc r) := by
  by_cases hw : ∃ w, Pipeline.arrRef spec4 w = r
  · obtain ⟨w, rfl⟩ := hw
    have hin : (cfg4.win w).isOut = false := by
      revert h; revert w; decide
    exact (B9_arr m ρ c w).trans (((R4.dat (T8 m ρ) c).arrAt_in w hin _).trans (R4.dat_A (T8 m ρ) c w))
  · exact B9_of_ne m ρ c r (fun w e => hw ⟨w, e⟩)

/-- After pallas_call 5: its arrays at what the pipeline leaves, every other buffer as entered. -/
def B10 (c : Dev nD) : Valuation τ sig (Elt F) :=
  Pipeline.withArrays spec5 c (B9 m ρ c) fun w => (R5.dat (T9 m ρ) c).arrAt w cfg5.N
theorem B10_arr (c : Dev nD) (w : Fin cfg5.W) :
    B10 m ρ c (Proc.devRef .tc (Pipeline.arrRef spec5 w)) = (R5.dat (T9 m ρ) c).arrAt w cfg5.N := by
  unfold B10; exact Pipeline.withArrays_arr spec5 launch5.win.arr_inj c _ _ w
theorem B10_of_ne (c : Dev nD) (b : Ref sig .tc) (hb : ∀ w, Pipeline.arrRef spec5 w ≠ b) :
    B10 m ρ c (Proc.devRef .tc b) = B9 m ρ c (Proc.devRef .tc b) := by
  unfold B10; exact Pipeline.withArrays_of_ne spec5 c _ _ b hb
abbrev T10 : (c : Dev nD) → (b : Ref sig .tc) → Buf (Elt F) ((c : Thread nD τ).loc b) := fun c b => B10 m ρ c b
theorem hF5 (c : Dev nD) (w : Fin cfg5.W) : (R5.dat (T9 m ρ) c).arrAt w cfg5.N = T10 m ρ c (Pipeline.arrRef spec5 w) :=
  (B10_arr m ρ c w).symm
theorem hrest5 (c : Dev nD) : ∀ b, b ∉ Finset.univ.image (Pipeline.arrRef spec5) → T10 m ρ c b = T9 m ρ c b :=
  fun b hb => B10_of_ne m ρ c b fun w e => hb (Finset.mem_image.mpr ⟨w, Finset.mem_univ _, e⟩)
/-- Every buffer but the call's output array is kept: an input array is read, not written, and the rest bypass the call. -/
theorem B10_keep (c : Dev nD) (r : Ref sig .tc) (h : r ≠ main_v17) : B10 m ρ c (Proc.devRef .tc r) = B9 m ρ c (Proc.devRef .tc r) := by
  by_cases hw : ∃ w, Pipeline.arrRef spec5 w = r
  · obtain ⟨w, rfl⟩ := hw
    have hin : (cfg5.win w).isOut = false := by
      revert h; revert w; decide
    exact (B10_arr m ρ c w).trans (((R5.dat (T9 m ρ) c).arrAt_in w hin _).trans (R5.dat_A (T9 m ρ) c w))
  · exact B10_of_ne m ρ c r (fun w e => hw ⟨w, e⟩)

/-- After the host stretch `hostOps6`. -/
abbrev B11 : Dev nD → Valuation τ sig (Elt F) := fun c => StableHlo.after hostOps6 (B10 m ρ c)
abbrev T11 : (c : Dev nD) → (b : Ref sig .tc) → Buf (Elt F) ((c : Thread nD τ).loc b) := fun c b => B11 m ρ c b
/-- A buffer the stretch does not write is kept. -/
theorem B11_keep (c : Dev nD) (r : Ref sig .tc) (h : r ∉ hostOps6_W) : B11 m ρ c (Proc.devRef .tc r) = B10 m ρ c (Proc.devRef .tc r) :=
  StableHlo.after_of_writes_sub hostOps6 _ hostOps6_writes h

/-- After pallas_call 6: its arrays at what the pipeline leaves, every other buffer as entered. -/
def B12 (c : Dev nD) : Valuation τ sig (Elt F) :=
  Pipeline.withArrays spec6 c (B11 m ρ c) fun w => (R6.dat (T11 m ρ) c).arrAt w cfg6.N
theorem B12_arr (c : Dev nD) (w : Fin cfg6.W) :
    B12 m ρ c (Proc.devRef .tc (Pipeline.arrRef spec6 w)) = (R6.dat (T11 m ρ) c).arrAt w cfg6.N := by
  unfold B12; exact Pipeline.withArrays_arr spec6 launch6.win.arr_inj c _ _ w
theorem B12_of_ne (c : Dev nD) (b : Ref sig .tc) (hb : ∀ w, Pipeline.arrRef spec6 w ≠ b) :
    B12 m ρ c (Proc.devRef .tc b) = B11 m ρ c (Proc.devRef .tc b) := by
  unfold B12; exact Pipeline.withArrays_of_ne spec6 c _ _ b hb
abbrev T12 : (c : Dev nD) → (b : Ref sig .tc) → Buf (Elt F) ((c : Thread nD τ).loc b) := fun c b => B12 m ρ c b
theorem hF6 (c : Dev nD) (w : Fin cfg6.W) : (R6.dat (T11 m ρ) c).arrAt w cfg6.N = T12 m ρ c (Pipeline.arrRef spec6 w) :=
  (B12_arr m ρ c w).symm
theorem hrest6 (c : Dev nD) : ∀ b, b ∉ Finset.univ.image (Pipeline.arrRef spec6) → T12 m ρ c b = T11 m ρ c b :=
  fun b hb => B12_of_ne m ρ c b fun w e => hb (Finset.mem_image.mpr ⟨w, Finset.mem_univ _, e⟩)
/-- Every buffer but the call's output array is kept: an input array is read, not written, and the rest bypass the call. -/
theorem B12_keep (c : Dev nD) (r : Ref sig .tc) (h : r ≠ main_v19) : B12 m ρ c (Proc.devRef .tc r) = B11 m ρ c (Proc.devRef .tc r) := by
  by_cases hw : ∃ w, Pipeline.arrRef spec6 w = r
  · obtain ⟨w, rfl⟩ := hw
    have hin : (cfg6.win w).isOut = false := by
      revert h; revert w; decide
    exact (B12_arr m ρ c w).trans (((R6.dat (T11 m ρ) c).arrAt_in w hin _).trans (R6.dat_A (T11 m ρ) c w))
  · exact B12_of_ne m ρ c r (fun w e => hw ⟨w, e⟩)

/-! ## A buffer nothing writes is found at the end as launched -/

theorem B12_untouched (c : Dev nD) (r : Ref sig .tc)
    (hhostOps0 : r ∉ hostOps0_W) (hhostOps1 : r ∉ hostOps1_W) (hhostOps2 : r ∉ hostOps2_W) (hhostOps3 : r ∉ hostOps3_W) (hhostOps6 : r ∉ hostOps6_W)
    (hout : r ∉ ([main_v3, main_v7, main_v11, main_v15, main_v16, main_v17, main_v19] : List (Ref sig .tc))) :
    B12 m ρ c (Proc.devRef .tc r) = m ((c : Thread nD τ).loc r) := by
  have hne : ∀ o ∈ ([main_v3, main_v7, main_v11, main_v15, main_v16, main_v17, main_v19] : List (Ref sig .tc)), r ≠ o := fun o ho e => hout (e ▸ ho)
  calc B12 m ρ c (Proc.devRef .tc r)
    _ = B11 m ρ c (Proc.devRef .tc r) := B12_keep m ρ c r (hne main_v19 (by decide))
    _ = B10 m ρ c (Proc.devRef .tc r) := B11_keep m ρ c r hhostOps6
    _ = B9 m ρ c (Proc.devRef .tc r) := B10_keep m ρ c r (hne main_v17 (by decide))
    _ = B8 m ρ c (Proc.devRef .tc r) := B9_keep m ρ c r (hne main_v16 (by decide))
    _ = B7 m ρ c (Proc.devRef .tc r) := B8_keep m ρ c r (hne main_v15 (by decide))
    _ = B6 m ρ c (Proc.devRef .tc r) := B7_keep m ρ c r hhostOps3
    _ = B5 m ρ c (Proc.devRef .tc r) := B6_keep m ρ c r (hne main_v11 (by decide))
    _ = B4 m ρ c (Proc.devRef .tc r) := B5_keep m ρ c r hhostOps2
    _ = B3 m ρ c (Proc.devRef .tc r) := B4_keep m ρ c r (hne main_v7 (by decide))
    _ = B2 m ρ c (Proc.devRef .tc r) := B3_keep m ρ c r hhostOps1
    _ = B1 m ρ c (Proc.devRef .tc r) := B2_keep m ρ c r (hne main_v3 (by decide))
    _ = B0 m ρ c (Proc.devRef .tc r) := B1_keep m ρ c r hhostOps0
    _ = m ((c : Thread nD τ).loc r) := rfl

/-! ## The proof data family and the thread state -/

/-- Every pipeline's proof data, each at its call's entry contents. -/
def pd : (p : Fin 7) → (c : Dev nD) → Dat τ (Elt F) Unit ℕ (UR sig nD τ) ℕ (Pipeline.pin (pcfgs (F := F)) adm p) c
  | ⟨0, _⟩ => fun c => R0.dat (T1 m ρ) c
  | ⟨1, _⟩ => fun c => R1.dat (T3 m ρ) c
  | ⟨2, _⟩ => fun c => R2.dat (T5 m ρ) c
  | ⟨3, _⟩ => fun c => R3.dat (T7 m ρ) c
  | ⟨4, _⟩ => fun c => R4.dat (T8 m ρ) c
  | ⟨5, _⟩ => fun c => R5.dat (T9 m ρ) c
  | ⟨6, _⟩ => fun c => R6.dat (T11 m ρ) c

abbrev noVariants : Variants := Variants.none
/-- No core owes another anything: no level is assigned. -/
abbrev noLevels : GSem nD τ sig → Finset Unit := fun _ => ∅
abbrev levelZero : GSem nD τ sig → Unit → ℕ := fun _ _ => 0
/-- What rides beside the buffers through every item: the core's generator register at some state and its `owes`, at nothing. -/
abbrev riding (c : Dev nD) : sProp 𝕄 := iprop((∃ r, prngReg c r) ∗ ∃ W, owes (c : Thread nD τ) (0 : CellTallies nD τ sig Unit) W)

/-- A host stretch as a segment over the unscoped references from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels levelZero :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Whole

end
-- ==== Proof.K.R0.Leave.lean ====
/-
  The forget gate logistic(LayerNorm(h·W_hf + x·W_xf + b_xf)), in the kernel as printed (pallas_call 0): what the invariant gives back after the last point, sorted as the
  region's exit wants it — the generator register, nothing for the kernel's own semaphores (it has none), and the scoped
  buffers no window stages, the accumulator among them at contents no longer named.
-/
import proofs.«116394_j17480516895034_2_alg».proof.Proof.K.R0.Body

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem handed_parts (c : Dev nD) :
    (Pipeline.ΦA spec0 c : sProp 𝕄) ⊢ iprop((∃ r, prngReg c r) ∗ (BI.emp : sProp 𝕄)
      ∗ Pipeline.scopedRest (Ix := Unit) (Name := ℕ) (U := UR sig nD τ) (Lvl := ℕ) (Val := Elt F) spec0 c) := by
  unfold Pipeline.ΦA
  iintro ⟨Hr, Hp⟩
  isplitl [Hp]; · iexact Hp
  isplitr; · iempintro
  iexact Hr

theorem leave_parts (c : Dev nD) :
    (dat V c).Φ (Fin.last cfg0.N) ⊢ iprop((∃ r, prngReg c r) ∗ (BI.emp : sProp 𝕄)
      ∗ Pipeline.scopedRest (Ix := Unit) (Name := ℕ) (U := UR sig nD τ) (Lvl := ℕ) (Val := Elt F) spec0 c) :=
  (inv_leave V c).trans (handed_parts c)

end Cert.Kernel.R0

end
-- ==== Proof.K.Whole.Reg0.lean ====
/-
  The whole program of the kernel as printed: pallas_call 0 as an item of @main.

  The call is entered with every unscoped buffer at the contents of the boundary before it and left with them at the
  contents of the boundary after it.  Its arrays are split out of the unscoped buffers on entry and put back, at what
  the pipeline's write-backs leave, on exit; the generator register goes into the call's invariant and comes back;
  the accumulator is one of the scoped buffers no window stages, which the invariant takes and returns; nothing is
  owed, and the kernel has no semaphore of its own.
-/
import proofs.«116394_j17480516895034_2_alg».proof.Proof.K.Whole.Chain
import proofs.«116394_j17480516895034_2_alg».proof.Proof.K.R0.Leave

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pd m ρ) () defs₀ noVariants noLevels levelZero 0 where
  win := launch0.win.to₀
  block_pos := launch0.block_pos
  stage_whole := launch0.stage_whole
  K := PEmpty
  osem k := k.elim
  ho := Pipeline.OwnSemFacts.none _
  hbody c := (R0.body_obligation (T1 m ρ) c).loose
  hwaits := Pipeline.hwaits_of_owed_zero _ _ _ _ noLevels levelZero 0 fun _ _ => rfl
  pre c := iprop(StableHlo.held (c : Thread nD τ) (Pipeline.ucRefs τ sig) (B1 m ρ c) ∗ riding c)
  post c := iprop(StableHlo.held (c : Thread nD τ) (Pipeline.ucRefs τ sig) (B2 m ρ c) ∗ riding c)
  X c := iprop(∃ r, prngReg c r)
  Y c := iprop(∃ r, prngReg c r)
  Z c := Pipeline.unscopedRest (Ix := Unit) (Name := ℕ) (U := UR sig nD τ) (Lvl := ℕ) spec0 c (T1 m ρ c)
  hentry c := by
    rw [Pipeline.ownSems0_none]
    have hsplit := Pipeline.arrays_of_unscopedBufs (p := 0) (pcfgs (F := F)) adm (pd m ρ) launch0.win launch0.arr_whole c
      ((pd m ρ 0 c).share_full fun _ => rfl) (T1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    exact R0.leave_parts (T1 m ρ) c
  hexit c := by
    have hjoin := Pipeline.unscopedBufs_of_arrays (p := 0) (pcfgs (F := F)) adm (Ix := Unit) (Name := ℕ) (U := UR sig nD τ) (Lvl := ℕ)
      launch0.win launch0.arr_whole c (pd m ρ) ((pd m ρ 0 c).share_full fun _ => rfl)
      (T1 m ρ c) (T2 m ρ c) ((pd m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Whole

end
-- ==== Proof.K.R1.Leave.lean ====
/-
  The candidate gate tanh(LayerNorm(h·W_hg + x·W_xg + b_xg)), in the kernel as printed (pallas_call 1): what the invariant gives back after the last point, sorted as the
  region's exit wants it — the generator register, nothing for the kernel's own semaphores (it has none), and the scoped
  buffers no window stages, the accumulator among them at contents no longer named.
-/
import proofs.«116394_j17480516895034_2_alg».proof.Proof.K.R1.Body

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem handed_parts (c : Dev nD) :
    (Pipeline.ΦA spec1 c : sProp 𝕄) ⊢ iprop((∃ r, prngReg c r) ∗ (BI.emp : sProp 𝕄)
      ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

theorem leave_parts (c : Dev nD) :
    (dat V c).Φ (Fin.last cfg1.N) ⊢ iprop((∃ r, prngReg c r) ∗ (BI.emp : sProp 𝕄)
      ∗ Pipeline.scopedRest (Ix := Unit) (Name := ℕ) (U := UR sig nD τ) (Lvl := ℕ) (Val := Elt F) spec1 c) :=
  (inv_leave V c).trans (handed_parts c)

end Cert.Kernel.R1

end
-- ==== Proof.K.Whole.Reg1.lean ====
/-
  The whole program of the kernel as printed: pallas_call 1 as an item of @main.

  The call is entered with every unscoped buffer at the contents of the boundary before it and left with them at the
  contents of the boundary after it.  Its arrays are split out of the unscoped buffers on entry and put back, at what
  the pipeline's write-backs leave, on exit; the generator register goes into the call's invariant and comes back;
  the accumulator is one of the scoped buffers no window stages, which the invariant takes and returns; nothing is
  owed, and the kernel has no semaphore of its own.
-/
import proofs.«116394_j17480516895034_2_alg».proof.Proof.K.Whole.Chain
import proofs.«116394_j17480516895034_2_alg».proof.Proof.K.R1.Leave

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pd m ρ) () defs₀ noVariants noLevels levelZero 1 where
  win := launch1.win.to₀
  block_pos := launch1.block_pos
  stage_whole := launch1.stage_whole
  K := PEmpty
  osem k := k.elim
  ho := Pipeline.OwnSemFacts.none _
  hbody c := (R1.body_obligation (T3 m ρ) c).loose
  hwaits := Pipeline.hwaits_of_owed_zero _ _ _ _ noLevels levelZero 1 fun _ _ => rfl
  pre c := iprop(StableHlo.held (c : Thread nD τ) (Pipeline.ucRefs τ sig) (B3 m ρ c) ∗ riding c)
  post c := iprop(StableHlo.held (c : Thread nD τ) (Pipeline.ucRefs τ sig) (B4 m ρ c) ∗ riding c)
  X c := iprop(∃ r, prngReg c r)
  Y c := iprop(∃ r, prngReg c r)
  Z c := Pipeline.unscopedRest (Ix := Unit) (Name := ℕ) (U := UR sig nD τ) (Lvl := ℕ) spec1 c (T3 m ρ c)
  hentry c := by
    rw [Pipeline.ownSems0_none]
    have hsplit := Pipeline.arrays_of_unscopedBufs (p := 1) (pcfgs (F := F)) adm (pd m ρ) launch1.win launch1.arr_whole c
      ((pd m ρ 1 c).share_full fun _ => rfl) (T3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    exact R1.leave_parts (T3 m ρ) c
  hexit c := by
    have hjoin := Pipeline.unscopedBufs_of_arrays (p := 1) (pcfgs (F := F)) adm (Ix := Unit) (Name := ℕ) (U := UR sig nD τ) (Lvl := ℕ)
      launch1.win launch1.arr_whole c (pd m ρ) ((pd m ρ 1 c).share_full fun _ => rfl)
      (T3 m ρ c) (T4 m ρ c) ((pd m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Whole

end
-- ==== Proof.K.R2.Leave.lean ====
/-
  The input gate logistic(LayerNorm(h·W_hi + x·W_xi + b_xi)), in the kernel as printed (pallas_call 2): what the invariant gives back after the last point, sorted as the
  region's exit wants it — the generator register, nothing for the kernel's own semaphores (it has none), and the scoped
  buffers no window stages, the accumulator among them at contents no longer named.
-/
import proofs.«116394_j17480516895034_2_alg».proof.Proof.K.R2.Body

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem handed_parts (c : Dev nD) :
    (Pipeline.ΦA spec2 c : sProp 𝕄) ⊢ iprop((∃ r, prngReg c r) ∗ (BI.emp : sProp 𝕄)
      ∗ Pipeline.scopedRest (Ix := Unit) (Name := ℕ) (U := UR sig nD τ) (Lvl := ℕ) (Val := Elt F) spec2 c) := by
  unfold Pipeline.ΦA
  iintro ⟨Hr, Hp⟩
  isplitl [Hp]; · iexact Hp
  isplitr; · iempintro
  iexact Hr

theorem leave_parts (c : Dev nD) :
    (dat V c).Φ (Fin.last cfg2.N) ⊢ iprop((∃ r, prngReg c r) ∗ (BI.emp : sProp 𝕄)
      ∗ Pipeline.scopedRest (Ix := Unit) (Name := ℕ) (U := UR sig nD τ) (Lvl := ℕ) (Val := Elt F) spec2 c) :=
  (inv_leave V c).trans (handed_parts c)

end Cert.Kernel.R2

end
-- ==== Proof.K.Whole.Reg2.lean ====
/-
  The whole program of the kernel as printed: pallas_call 2 as an item of @main.

  The call is entered with every unscoped buffer at the contents of the boundary before it and left with them at the
  contents of the boundary after it.  Its arrays are split out of the unscoped buffers on entry and put back, at what
  the pipeline's write-backs leave, on exit; the generator register goes into the call's invariant and comes back;
  the accumulator is one of the scoped buffers no window stages, which the invariant takes and returns; nothing is
  owed, and the kernel has no semaphore of its own.
-/
import proofs.«116394_j17480516895034_2_alg».proof.Proof.K.Whole.Chain
import proofs.«116394_j17480516895034_2_alg».proof.Proof.K.R2.Leave

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) adm (pd m ρ) () defs₀ noVariants noLevels levelZero 2 where
  win := launch2.win.to₀
  block_pos := launch2.block_pos
  stage_whole := launch2.stage_whole
  K := PEmpty
  osem k := k.elim
  ho := Pipeline.OwnSemFacts.none _
  hbody c := (R2.body_obligation (T5 m ρ) c).loose
  hwaits := Pipeline.hwaits_of_owed_zero _ _ _ _ noLevels levelZero 2 fun _ _ => rfl
  pre c := iprop(StableHlo.held (c : Thread nD τ) (Pipeline.ucRefs τ sig) (B5 m ρ c) ∗ riding c)
  post c := iprop(StableHlo.held (c : Thread nD τ) (Pipeline.ucRefs τ sig) (B6 m ρ c) ∗ riding c)
  X c := iprop(∃ r, prngReg c r)
  Y c := iprop(∃ r, prngReg c r)
  Z c := Pipeline.unscopedRest (Ix := Unit) (Name := ℕ) (U := UR sig nD τ) (Lvl := ℕ) spec2 c (T5 m ρ c)
  hentry c := by
    rw [Pipeline.ownSems0_none]
    have hsplit := Pipeline.arrays_of_unscopedBufs (p := 2) (pcfgs (F := F)) adm (pd m ρ) launch2.win launch2.arr_whole c
      ((pd m ρ 2 c).share_full fun _ => rfl) (T5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    exact R2.leave_parts (T5 m ρ) c
  hexit c := by
    have hjoin := Pipeline.unscopedBufs_of_arrays (p := 2) (pcfgs (F := F)) adm (Ix := Unit) (Name := ℕ) (U := UR sig nD τ) (Lvl := ℕ)
      launch2.win launch2.arr_whole c (pd m ρ) ((pd m ρ 2 c).share_full fun _ => rfl)
      (T5 m ρ c) (T6 m ρ c) ((pd m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Whole

end
-- ==== Proof.K.R3.Leave.lean ====
/-
  The output gate logistic(LayerNorm(h·W_ho + x·W_xo + b_xo)), in the kernel as printed (pallas_call 3): what the invariant gives back after the last point, sorted as the
  region's exit wants it — the generator register, nothing for the kernel's own semaphores (it has none), and the scoped
  buffers no window stages, the accumulator among them at contents no longer named.
-/
import proofs.«116394_j17480516895034_2_alg».proof.Proof.K.R3.Body

set_option maxRecDepth 16384

noncomputable section

namespace Cert.Kernel.R3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem handed_parts (c : Dev nD) :
    (Pipeline.ΦA spec3 c : sProp 𝕄) ⊢ iprop((∃ r, prngReg c r) ∗ (BI.emp : sProp 𝕄)
      ∗ Pipeline.scopedRest (Ix := Unit) (Name := ℕ) (U := UR sig nD τ) (Lvl := ℕ) (Val := Elt F) spec3 c) := by
  unfold Pipeline.ΦA
  iintro ⟨Hr, Hp⟩
  isplitl [Hp]; · iexact Hp
  isplitr; · iempintro
  iexact Hr

theorem leave_parts (c : Dev nD) :
    (dat V c).Φ (Fin.last cfg3.N) ⊢ iprop((∃ r, prngReg c r) ∗ (BI.emp : sProp 𝕄)
      ∗ Pipeline.scopedRest (Ix := Unit) (Name := ℕ) (U := UR sig nD τ) (Lvl := ℕ) (Val := Elt F) spec3 c) :=
  (inv_leave V c).trans (handed_parts c)

end Cert.Kernel.R3

end
-- ==== Proof.K.Whole.Reg3.lean ====
/-
  The whole program of the kernel as printed: pallas_call 3 as an item of @main.

  The call is entered with every unscoped buffer at the contents of the boundary before it and left with them at the
  contents of the boundary after it.  Its arrays are split out of the unscoped buffers on entry and put back, at what
  the pipeline's write-backs leave, on exit; the generator register goes into the call's invariant and comes back;
  the accumulator is one of the scoped buffers no window stages, which the invariant takes and returns; nothing is
  owed, and the kernel has no semaphore of its own.
-/
import proofs.«116394_j17480516895034_2_alg».proof.Proof.K.Whole.Chain
import proofs.«116394_j17480516895034_2_alg».proof.Proof.K.R3.Leave

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RegionSeg (pcfgs (F := F)) adm (pd m ρ) () defs₀ noVariants noLevels levelZero 3 where
  win := launch3.win.to₀
  block_pos := launch3.block_pos
  stage_whole := launch3.stage_whole
  K := PEmpty
  osem k := k.elim
  ho := Pipeline.OwnSemFacts.none _
  hbody c := (R3.body_obligation (T7 m ρ) c).loose
  hwaits := Pipeline.hwaits_of_owed_zero _ _ _ _ noLevels levelZero 3 fun _ _ => rfl
  pre c := iprop(StableHlo.held (c : Thread nD τ) (Pipeline.ucRefs τ sig) (B7 m ρ c) ∗ riding c)
  post c := iprop(StableHlo.held (c : Thread nD τ) (Pipeline.ucRefs τ sig) (B8 m ρ c) ∗ riding c)
  X c := iprop(∃ r, prngReg c r)
  Y c := iprop(∃ r, prngReg c r)
  Z c := Pipeline.unscopedRest (Ix := Unit) (Name := ℕ) (U := UR sig nD τ) (Lvl := ℕ) spec3 c (T7 m ρ c)
  hentry c := by
    rw [Pipeline.ownSems0_none]
    have hsplit := Pipeline.arrays_of_unscopedBufs (p := 3) (pcfgs (F := F)) adm (pd m ρ) launch3.win launch3.arr_whole c
      ((pd m ρ 3 c).share_full fun _ => rfl) (T7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    exact R3.leave_parts (T7 m ρ) c
  hexit c := by
    have hjoin := Pipeline.unscopedBufs_of_arrays (p := 3) (pcfgs (F := F)) adm (Ix := Unit) (Name := ℕ) (U := UR sig nD τ) (Lvl := ℕ)
      launch3.win launch3.arr_whole c (pd m ρ) ((pd m ρ 3 c).share_full fun _ => rfl)
      (T7 m ρ c) (T8 m ρ c) ((pd m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Whole

end
-- ==== Proof.K.R4.Leave.lean ====
/-
  The cell state c' = f·c + g·i, in the kernel as printed (pallas_call 4): what the invariant gives back after the last point, sorted as the
  region's exit wants it — the generator register, nothing for the kernel's own semaphores (it has none), and the scoped
  buffers no window stages, the accumulator among them at contents no longer named.
-/
import proofs.«116394_j17480516895034_2_alg».proof.Proof.K.R4.Body

set_option maxRecDepth 16384

noncomputable section

namespace Cert.Kernel.R4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem handed_parts (c : Dev nD) :
    (Pipeline.ΦA spec4 c : sProp 𝕄) ⊢ iprop((∃ r, prngReg c r) ∗ (BI.emp : sProp 𝕄)
      ∗ Pipeline.scopedRest (Ix := Unit) (Name := ℕ) (U := UR sig nD τ) (Lvl := ℕ) (Val := Elt F) spec4 c) := by
  unfold Pipeline.ΦA
  iintro ⟨Hr, Hp⟩
  isplitl [Hp]; · iexact Hp
  isplitr; · iempintro
  iexact Hr

theorem leave_parts (c : Dev nD) :
    (dat V c).Φ (Fin.last cfg4.N) ⊢ iprop((∃ r, prngReg c r) ∗ (BI.emp : sProp 𝕄)
      ∗ Pipeline.scopedRest (Ix := Unit) (Name := ℕ) (U := UR sig nD τ) (Lvl := ℕ) (Val := Elt F) spec4 c) :=
  (inv_leave V c).trans (handed_parts c)

end Cert.Kernel.R4

end
-- ==== Proof.K.Whole.Reg4.lean ====
/-
  The whole program of the kernel as printed: pallas_call 4 as an item of @main.

  The call is entered with every unscoped buffer at the contents of the boundary before it and left with them at the
  contents of the boundary after it.  Its arrays are split out of the unscoped buffers on entry and put back, at what
  the pipeline's write-backs leave, on exit; the generator register goes into the call's invariant and comes back;
  the accumulator is one of the scoped buffers no window stages, which the invariant takes and returns; nothing is
  owed, and the kernel has no semaphore of its own.
-/
import proofs.«116394_j17480516895034_2_alg».proof.Proof.K.Whole.Chain
import proofs.«116394_j17480516895034_2_alg».proof.Proof.K.R4.Leave

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg4 : Pipeline.RegionSeg (pcfgs (F := F)) adm (pd m ρ) () defs₀ noVariants noLevels levelZero 4 where
  win := launch4.win.to₀
  block_pos := launch4.block_pos
  stage_whole := launch4.stage_whole
  K := PEmpty
  osem k := k.elim
  ho := Pipeline.OwnSemFacts.none _
  hbody c := (R4.body_obligation (T8 m ρ) c).loose
  hwaits := Pipeline.hwaits_of_owed_zero _ _ _ _ noLevels levelZero 4 fun _ _ => rfl
  pre c := iprop(StableHlo.held (c : Thread nD τ) (Pipeline.ucRefs τ sig) (B8 m ρ c) ∗ riding c)
  post c := iprop(StableHlo.held (c : Thread nD τ) (Pipeline.ucRefs τ sig) (B9 m ρ c) ∗ riding c)
  X c := iprop(∃ r, prngReg c r)
  Y c := iprop(∃ r, prngReg c r)
  Z c := Pipeline.unscopedRest (Ix := Unit) (Name := ℕ) (U := UR sig nD τ) (Lvl := ℕ) spec4 c (T8 m ρ c)
  hentry c := by
    rw [Pipeline.ownSems0_none]
    have hsplit := Pipeline.arrays_of_unscopedBufs (p := 4) (pcfgs (F := F)) adm (pd m ρ) launch4.win launch4.arr_whole c
      ((pd m ρ 4 c).share_full fun _ => rfl) (T8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 4 c).Φ 0 = Pipeline.ΦA spec4 c from rfl]; unfold Pipeline.ΦA
    iintro ⟨Hp, -, Hr⟩
    isplitl [Hr]; · iexact Hr
    iexact Hp
  hout c := by
    rw [Pipeline.ownSems0_none]
    exact R4.leave_parts (T8 m ρ) c
  hexit c := by
    have hjoin := Pipeline.unscopedBufs_of_arrays (p := 4) (pcfgs (F := F)) adm (Ix := Unit) (Name := ℕ) (U := UR sig nD τ) (Lvl := ℕ)
      launch4.win launch4.arr_whole c (pd m ρ) ((pd m ρ 4 c).share_full fun _ => rfl)
      (T8 m ρ c) (T9 m ρ c) ((pd m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Whole

end
-- ==== Proof.K.R5.Leave.lean ====
/-
  The hidden state h' = tanh(c')·o, in the kernel as printed (pallas_call 5): what the invariant gives back after the last point, sorted as the
  region's exit wants it — the generator register, nothing for the kernel's own semaphores (it has none), and the scoped
  buffers no window stages, the accumulator among them at contents no longer named.
-/
import proofs.«116394_j17480516895034_2_alg».proof.Proof.K.R5.Body

set_option maxRecDepth 16384

noncomputable section

namespace Cert.Kernel.R5

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem handed_parts (c : Dev nD) :
    (Pipeline.ΦA spec5 c : sProp 𝕄) ⊢ iprop((∃ r, prngReg c r) ∗ (BI.emp : sProp 𝕄)
      ∗ Pipeline.scopedRest (Ix := Unit) (Name := ℕ) (U := UR sig nD τ) (Lvl := ℕ) (Val := Elt F) spec5 c) := by
  unfold Pipeline.ΦA
  iintro ⟨Hr, Hp⟩
  isplitl [Hp]; · iexact Hp
  isplitr; · iempintro
  iexact Hr

theorem leave_parts (c : Dev nD) :
    (dat V c).Φ (Fin.last cfg5.N) ⊢ iprop((∃ r, prngReg c r) ∗ (BI.emp : sProp 𝕄)
      ∗ Pipeline.scopedRest (Ix := Unit) (Name := ℕ) (U := UR sig nD τ) (Lvl := ℕ) (Val := Elt F) spec5 c) :=
  (inv_leave V c).trans (handed_parts c)

end Cert.Kernel.R5

end
-- ==== Proof.K.Whole.Reg5.lean ====
/-
  The whole program of the kernel as printed: pallas_call 5 as an item of @main.

  The call is entered with every unscoped buffer at the contents of the boundary before it and left with them at the
  contents of the boundary after it.  Its arrays are split out of the unscoped buffers on entry and put back, at what
  the pipeline's write-backs leave, on exit; the generator register goes into the call's invariant and comes back;
  the accumulator is one of the scoped buffers no window stages, which the invariant takes and returns; nothing is
  owed, and the kernel has no semaphore of its own.
-/
import proofs.«116394_j17480516895034_2_alg».proof.Proof.K.Whole.Chain
import proofs.«116394_j17480516895034_2_alg».proof.Proof.K.R5.Leave

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg5 : Pipeline.RegionSeg (pcfgs (F := F)) adm (pd m ρ) () defs₀ noVariants noLevels levelZero 5 where
  win := launch5.win.to₀
  block_pos := launch5.block_pos
  stage_whole := launch5.stage_whole
  K := PEmpty
  osem k := k.elim
  ho := Pipeline.OwnSemFacts.none _
  hbody c := (R5.body_obligation (T9 m ρ) c).loose
  hwaits := Pipeline.hwaits_of_owed_zero _ _ _ _ noLevels levelZero 5 fun _ _ => rfl
  pre c := iprop(StableHlo.held (c : Thread nD τ) (Pipeline.ucRefs τ sig) (B9 m ρ c) ∗ riding c)
  post c := iprop(StableHlo.held (c : Thread nD τ) (Pipeline.ucRefs τ sig) (B10 m ρ c) ∗ riding c)
  X c := iprop(∃ r, prngReg c r)
  Y c := iprop(∃ r, prngReg c r)
  Z c := Pipeline.unscopedRest (Ix := Unit) (Name := ℕ) (U := UR sig nD τ) (Lvl := ℕ) spec5 c (T9 m ρ c)
  hentry c := by
    rw [Pipeline.ownSems0_none]
    have hsplit := Pipeline.arrays_of_unscopedBufs (p := 5) (pcfgs (F := F)) adm (pd m ρ) launch5.win launch5.arr_whole c
      ((pd m ρ 5 c).share_full fun _ => rfl) (T9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 5 c).Φ 0 = Pipeline.ΦA spec5 c from rfl]; unfold Pipeline.ΦA
    iintro ⟨Hp, -, Hr⟩
    isplitl [Hr]; · iexact Hr
    iexact Hp
  hout c := by
    rw [Pipeline.ownSems0_none]
    exact R5.leave_parts (T9 m ρ) c
  hexit c := by
    have hjoin := Pipeline.unscopedBufs_of_arrays (p := 5) (pcfgs (F := F)) adm (Ix := Unit) (Name := ℕ) (U := UR sig nD τ) (Lvl := ℕ)
      launch5.win launch5.arr_whole c (pd m ρ) ((pd m ρ 5 c).share_full fun _ => rfl)
      (T9 m ρ c) (T10 m ρ c) ((pd m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Whole

end
-- ==== Proof.K.R6.Leave.lean ====
/-
  The output y = h'·W_y + b_y, in the kernel as printed (pallas_call 6): what the invariant gives back after the last point, sorted as the
  region's exit wants it — the generator register, nothing for the kernel's own semaphores (it has none), and the scoped
  buffers no window stages, the accumulator among them at contents no longer named.
-/
import proofs.«116394_j17480516895034_2_alg».proof.Proof.K.R6.Body

set_option maxRecDepth 16384

noncomputable section

namespace Cert.Kernel.R6

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem handed_parts (c : Dev nD) :
    (Pipeline.ΦA spec6 c : sProp 𝕄) ⊢ iprop((∃ r, prngReg c r) ∗ (BI.emp : sProp 𝕄)
      ∗ Pipeline.scopedRest (Ix := Unit) (Name := ℕ) (U := UR sig nD τ) (Lvl := ℕ) (Val := Elt F) spec6 c) := by
  unfold Pipeline.ΦA
  iintro ⟨Hr, Hp⟩
  isplitl [Hp]; · iexact Hp
  isplitr; · iempintro
  iexact Hr

theorem leave_parts (c : Dev nD) :
    (dat V c).Φ (Fin.last cfg6.N) ⊢ iprop((∃ r, prngReg c r) ∗ (BI.emp : sProp 𝕄)
      ∗ Pipeline.scopedRest (Ix := Unit) (Name := ℕ) (U := UR sig nD τ) (Lvl := ℕ) (Val := Elt F) spec6 c) :=
  (inv_leave V c).trans (handed_parts c)

end Cert.Kernel.R6

end
-- ==== Proof.K.Whole.Reg6.lean ====
/-
  The whole program of the kernel as printed: pallas_call 6 as an item of @main.

  The call is entered with every unscoped buffer at the contents of the boundary before it and left with them at the
  contents of the boundary after it.  Its arrays are split out of the unscoped buffers on entry and put back, at what
  the pipeline's write-backs leave, on exit; the generator register goes into the call's invariant and comes back;
  the accumulator is one of the scoped buffers no window stages, which the invariant takes and returns; nothing is
  owed, and the kernel has no semaphore of its own.
-/
import proofs.«116394_j17480516895034_2_alg».proof.Proof.K.Whole.Chain
import proofs.«116394_j17480516895034_2_alg».proof.Proof.K.R6.Leave

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg6 : Pipeline.RegionSeg (pcfgs (F := F)) adm (pd m ρ) () defs₀ noVariants noLevels levelZero 6 where
  win := launch6.win.to₀
  block_pos := launch6.block_pos
  stage_whole := launch6.stage_whole
  K := PEmpty
  osem k := k.elim
  ho := Pipeline.OwnSemFacts.none _
  hbody c := (R6.body_obligation (T11 m ρ) c).loose
  hwaits := Pipeline.hwaits_of_owed_zero _ _ _ _ noLevels levelZero 6 fun _ _ => rfl
  pre c := iprop(StableHlo.held (c : Thread nD τ) (Pipeline.ucRefs τ sig) (B11 m ρ c) ∗ riding c)
  post c := iprop(StableHlo.held (c : Thread nD τ) (Pipeline.ucRefs τ sig) (B12 m ρ c) ∗ riding c)
  X c := iprop(∃ r, prngReg c r)
  Y c := iprop(∃ r, prngReg c r)
  Z c := Pipeline.unscopedRest (Ix := Unit) (Name := ℕ) (U := UR sig nD τ) (Lvl := ℕ) spec6 c (T11 m ρ c)
  hentry c := by
    rw [Pipeline.ownSems0_none]
    have hsplit := Pipeline.arrays_of_unscopedBufs (p := 6) (pcfgs (F := F)) adm (pd m ρ) launch6.win launch6.arr_whole c
      ((pd m ρ 6 c).share_full fun _ => rfl) (T11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 6 c).Φ 0 = Pipeline.ΦA spec6 c from rfl]; unfold Pipeline.ΦA
    iintro ⟨Hp, -, Hr⟩
    isplitl [Hr]; · iexact Hr
    iexact Hp
  hout c := by
    rw [Pipeline.ownSems0_none]
    exact R6.leave_parts (T11 m ρ) c
  hexit c := by
    have hjoin := Pipeline.unscopedBufs_of_arrays (p := 6) (pcfgs (F := F)) adm (Ix := Unit) (Name := ℕ) (U := UR sig nD τ) (Lvl := ℕ)
      launch6.win launch6.arr_whole c (pd m ρ) ((pd m ρ 6 c).share_full fun _ => rfl)
      (T11 m ρ c) (T12 m ρ c) ((pd m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Whole

end
-- ==== Proof.K.Whole.Run.lean ====
/-
  The whole program of the kernel as printed: the run.

  @main is the run of its twelve items in order.  From any launch memory with zero counters every weakly fair execution
  terminates, nothing faulting, and in every final state every unscoped buffer holds the contents of the last boundary.
  Read at the argument arrays, which nothing writes, that is the frame claim.
-/
import proofs.«116394_j17480516895034_2_alg».proof.Proof.K.Whole.Reg0
import proofs.«116394_j17480516895034_2_alg».proof.Proof.K.Whole.Reg1
import proofs.«116394_j17480516895034_2_alg».proof.Proof.K.Whole.Reg2
import proofs.«116394_j17480516895034_2_alg».proof.Proof.K.Whole.Reg3
import proofs.«116394_j17480516895034_2_alg».proof.Proof.K.Whole.Reg4
import proofs.«116394_j17480516895034_2_alg».proof.Proof.K.Whole.Reg5
import proofs.«116394_j17480516895034_2_alg».proof.Proof.K.Whole.Reg6

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's twelve items in order. -/
abbrev items : List (Pipeline.Seg (pcfgs (F := F)) adm (pd m ρ) () defs₀ noVariants noLevels levelZero) :=
  [
    .host (hostSeg hostOps0 hostOps0_sub hostOps0_fresh (B0 m ρ)),
    .region (reg0 m ρ),
    .host (hostSeg hostOps1 hostOps1_sub hostOps1_fresh (B2 m ρ)),
    .region (reg1 m ρ),
    .host (hostSeg hostOps2 hostOps2_sub hostOps2_fresh (B4 m ρ)),
    .region (reg2 m ρ),
    .host (hostSeg hostOps3 hostOps3_sub hostOps3_fresh (B6 m ρ)),
    .region (reg3 m ρ),
    .region (reg4 m ρ),
    .region (reg5 m ρ),
    .host (hostSeg hostOps6 hostOps6_sub hostOps6_fresh (B10 m ρ)),
    .region (reg6 m ρ) ]

theorem main_items (c : Dev nD) : main (F := F) c = Pipeline.Seg.run (items m ρ) := (main_chain c).trans (by chain_rfl)

set_option backward.isDefEq.respectTransparency.types false in
/-- Every execution ends with every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B12 m ρ c b) :=
  Pipeline.θ_run_regions_kit (pcfgs (F := F)) adm (pd m ρ) () cellOf_inj emb₁ defs₀ noVariants noLevels levelZero m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ riding c))
    (Tₙ := fun c => iprop(StableHlo.held (c : Thread nD τ) (Pipeline.ucRefs τ sig) (B12 m ρ c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => Idealize.SL.BI.sep_assoc'⟩)
    (hinit := by
      refine Pipeline.initEach noLevels levelZero fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B12 m ρ c b)
    (hfin := fun c s' => by
      iintro ⟨⟨Hh, -⟩, HSI⟩
      unfold StableHlo.held
      imodintro
      iapply (pointsTo_read_all (Pipeline.ucRefs τ sig) (fun b => (((c : Thread nD τ)).1, b)) (B12 m ρ c) s')
      isplitl [Hh] <;> iassumption)
    (hQ := fun s h c => h c)

/-- An argument array is found at the end as launched. -/
theorem arg_kept (r : Ref sig .tc) (huc : ¬ (Proc.devRef .tc r : DevRef τ sig).isScoped)
    (h0 : r ∉ hostOps0_W) (h1 : r ∉ hostOps1_W) (h2 : r ∉ hostOps2_W) (h3 : r ∉ hostOps3_W) (h6 : r ∉ hostOps6_W)
    (hout : r ∉ ([main_v3, main_v7, main_v11, main_v15, main_v16, main_v17, main_v19] : List (Ref sig .tc)))
    (mem : (ℓ : Loc nD τ sig) → Buf (Elt F) ℓ) (c : Dev nD)
    (h : ∀ b ∈ Pipeline.ucRefs τ sig, mem (((c : Thread nD τ)).1, b) = B12 m ρ c b) :
    mem ((c.tc : Thread nD τ).loc r) = m ((c.tc : Thread nD τ).loc r) :=
  (h _ (mem_uc r huc)).trans (B12_untouched m ρ c r h0 h1 h2 h3 h6 hout)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c => ⟨arg_kept m ρ main_arg0 (by decide) (by decide) (by decide) (by decide) (by decide) (by decide) (by decide) _ c (h c),
    arg_kept m ρ main_arg1 (by decide) (by decide) (by decide) (by decide) (by decide) (by decide) (by decide) _ c (h c),
    arg_kept m ρ main_arg2 (by decide) (by decide) (by decide) (by decide) (by decide) (by decide) (by decide) _ c (h c),
    arg_kept m ρ main_arg3 (by decide) (by decide) (by decide) (by decide) (by decide) (by decide) (by decide) _ c (h c),
    arg_kept m ρ main_arg4 (by decide) (by decide) (by decide) (by decide) (by decide) (by decide) (by decide) _ c (h c),
    arg_kept m ρ main_arg5 (by decide) (by decide) (by decide) (by decide) (by decide) (by decide) (by decide) _ c (h c),
    arg_kept m ρ main_arg6 (by decide) (by decide) (by decide) (by decide) (by decide) (by decide) (by decide) _ c (h c),
    arg_kept m ρ main_arg7 (by decide) (by decide) (by decide) (by decide) (by decide) (by decide) (by decide) _ c (h c),
    arg_kept m ρ main_arg8 (by decide) (by decide) (by decide) (by decide) (by decide) (by decide) (by decide) _ c (h c),
    arg_kept m ρ main_arg9 (by decide) (by decide) (by decide) (by decide) (by decide) (by decide) (by decide) _ c (h c),
    arg_kept m ρ main_arg10 (by decide) (by decide) (by decide) (by decide) (by decide) (by decide) (by decide) _ c (h c),
    arg_kept m ρ main_arg11 (by decide) (by decide) (by decide) (by decide) (by decide) (by decide) (by decide) _ c (h c),
    arg_kept m ρ main_arg12 (by decide) (by decide) (by decide) (by decide) (by decide) (by decide) (by decide) _ c (h c),
    arg_kept m ρ main_arg13 (by decide) (by decide) (by decide) (by decide) (by decide) (by decide) (by decide) _ c (h c),
    arg_kept m ρ main_arg14 (by decide) (by decide) (by decide) (by decide) (by decide) (by decide) (by decide) _ c (h c),
    arg_kept m ρ main_arg15 (by decide) (by decide) (by decide) (by decide) (by decide) (by decide) (by decide) _ c (h c),
    arg_kept m ρ main_arg16 (by decide) (by decide) (by decide) (by decide) (by decide) (by decide) (by decide) _ c (h c),
    arg_kept m ρ main_arg17 (by decide) (by decide) (by decide) (by decide) (by decide) (by decide) (by decide) _ c (h c),
    arg_kept m ρ main_arg18 (by decide) (by decide) (by decide) (by decide) (by decide) (by decide) (by decide) _ c (h c),
    arg_kept m ρ main_arg19 (by decide) (by decide) (by decide) (by decide) (by decide) (by decide) (by decide) _ c (h c),
    arg_kept m ρ main_arg20 (by decide) (by decide) (by decide) (by decide) (by decide) (by decide) (by decide) _ c (h c),
    arg_kept m ρ main_arg21 (by decide) (by decide) (by decide) (by decide) (by decide) (by decide) (by decide) _ c (h c),
    arg_kept m ρ main_arg22 (by decide) (by decide) (by decide) (by decide) (by decide) (by decide) (by decide) _ c (h c),
    arg_kept m ρ main_arg23 (by decide) (by decide) (by decide) (by decide) (by decide) (by decide) (by decide) _ c (h c),
    arg_kept m ρ main_arg24 (by decide) (by decide) (by decide) (by decide) (by decide) (by decide) (by decide) _ c (h c)⟩) (run_all m ρ)

end Cert.Kernel.Whole

end
-- ==== Proof.KI.R0.Base.lean ====
/-
  The forget gate logistic(LayerNorm(h·W_hf + x·W_xf + b_xf)), in the idealized kernel (pallas_call 0).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part one, names: a window's block at a point read off the array as the region finds it; that an input's staging
  buffer holds its block at every point, fetched there or not; the two conditions k = 0 and k = 7 in closed form over
  the sixteen points; where the output window is idle; the staging and scratch memrefs the body is called with.
  Everything is stated at any float instance.
-/
import proofs.«116394_j17480516895034_2_alg».proof.Proof.Gen.KernelIdeal.Launch
import proofs.«116394_j17480516895034_2_alg».proof.Proof.Gen.KernelIdeal.Skeleton
import proofs.«116394_j17480516895034_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's block is in its staging buffer at every point, for any proof data over these arrays whose body leaves it there. -/
theorem in_h_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's block is in its staging buffer at every point, for any proof data over these arrays whose body leaves it there. -/
theorem in_wh_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's block is in its staging buffer at every point, for any proof data over these arrays whose body leaves it there. -/
theorem in_x_of {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's block is in its staging buffer at every point, for any proof data over these arrays whose body leaves it there. -/
theorem in_wx_of {c : Dev nD} (dat : Dat τ (Elt F) Unit ℕ (UR sig nD τ) ℕ cfg0 c) (hA : dat.A 3 = V c (Pipeline.arrRef spec0 3))
    (hafter : ∀ t, dat.after 3 t = blockAt V c 3 t) (t : Fin cfg0.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's block is in its staging buffer at every point, for any proof data over these arrays whose body leaves it there. -/
theorem in_b_of {c : Dev nD} (dat : Dat τ (Elt F) Unit ℕ (UR sig nD τ) ℕ cfg0 c) (hA : dat.A 4 = V c (Pipeline.arrRef spec0 4))
    (hafter : ∀ t, dat.after 4 t = blockAt V c 4 t) (t : Fin cfg0.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- Input window 5's block is in its staging buffer at every point, for any proof data over these arrays whose body leaves it there. -/
theorem in_g_of {c : Dev nD} (dat : Dat τ (Elt F) Unit ℕ (UR sig nD τ) ℕ cfg0 c) (hA : dat.A 5 = V c (Pipeline.arrRef spec0 5))
    (hafter : ∀ t, dat.after 5 t = blockAt V c 5 t) (t : Fin cfg0.N) (d) : dat.before 5 t d = blockAt V c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-- Input window 6's block is in its staging buffer at every point, for any proof data over these arrays whose body leaves it there. -/
theorem in_be_of {c : Dev nD} (dat : Dat τ (Elt F) Unit ℕ (UR sig nD τ) ℕ cfg0 c) (hA : dat.A 6 = V c (Pipeline.arrRef spec0 6))
    (hafter : ∀ t, dat.after 6 t = blockAt V c 6 t) (t : Fin cfg0.N) (d) : dat.before 6 t d = blockAt V c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## The two conditions -/

/-- k = 0: the accumulator is cleared. -/
abbrev atFirst (i : grid0.Coords) : Prop := (Scalar.cmpi .ne (Scalar.extui (Scalar.cmpi .eq (BitVec.ofNat 32 (i 1).val) 0#32)) 0#32) = 1#1
theorem atFirst_iff : ∀ t : Fin cfg0.N, atFirst (grid0.coords t) ↔ t.val % 8 = 0 :=
  (by decide +kernel : ∀ t : Fin grid0.N, atFirst (grid0.coords t) ↔ t.val % 8 = 0)

/-- k = 7: the result is stored. -/
abbrev atLast (i : grid0.Coords) : Prop := k0_cond2 i = 1#1
theorem atLast_iff : ∀ t : Fin cfg0.N, atLast (grid0.coords t) ↔ t.val % 8 = 7 :=
  (by decide +kernel : ∀ t : Fin grid0.N, atLast (grid0.coords t) ↔ t.val % 8 = 7)

/-! ## Where the windows are idle -/

theorem live_h : ∀ t : Fin cfg0.N, cfg0.idle 0 (grid0.coords t) = false := by decide +kernel
theorem live_wh : ∀ t : Fin cfg0.N, cfg0.idle 1 (grid0.coords t) = false := by decide +kernel
theorem live_x : ∀ t : Fin cfg0.N, cfg0.idle 2 (grid0.coords t) = false := by decide +kernel
theorem live_wx : ∀ t : Fin cfg0.N, cfg0.idle 3 (grid0.coords t) = false := by decide +kernel
theorem live_b : ∀ t : Fin cfg0.N, cfg0.idle 4 (grid0.coords t) = false := by decide +kernel
theorem live_g : ∀ t : Fin cfg0.N, cfg0.idle 5 (grid0.coords t) = false := by decide +kernel
theorem live_be : ∀ t : Fin cfg0.N, cfg0.idle 6 (grid0.coords t) = false := by decide +kernel
/-- Away from k = 7 the output window is idle and not written back. -/
theorem idle_out : ∀ t : Fin cfg0.N, ¬atLast (grid0.coords t) → cfg0.idle 7 (grid0.coords t) = true := by decide +kernel
theorem noFlush_out : ∀ t : Fin cfg0.N, ¬atLast (grid0.coords t) → (cfg0.win 7).flush t = false := by decide +kernel
/-- At k = 7 it is live. -/
theorem live_out : ∀ t : Fin cfg0.N, atLast (grid0.coords t) → cfg0.idle 7 (grid0.coords t) = false := by decide +kernel

/-! ## The memrefs the body is called with -/

/-- One staging buffer of the output window, through which its contents are stated. -/
abbrev outView : View sig .tc .vmem S1024x2048 .f32 := (Memref.whole cc0_stg7_0 : Memref sig .tc .vmem S1024x2048 .f32).view
abbrev m_h (t : Fin cfg0.N) : Memref sig .tc .vmem S1024x256 .f32 := win0_0.stage (cfg0.slots t 0)
abbrev hm_h (t : Fin cfg0.N) : (m_h t).IsWhole := hstage0_0 ((cfg0.slots t 0).cast nbuf0_0)
abbrev m_wh (t : Fin cfg0.N) : Memref sig .tc .vmem S256x2048 .f32 := win0_1.stage (cfg0.slots t 1)
abbrev hm_wh (t : Fin cfg0.N) : (m_wh t).IsWhole := hstage0_1 ((cfg0.slots t 1).cast nbuf0_1)
abbrev m_x (t : Fin cfg0.N) : Memref sig .tc .vmem S1024x256 .f32 := win0_2.stage (cfg0.slots t 2)
abbrev hm_x (t : Fin cfg0.N) : (m_x t).IsWhole := hstage0_2 ((cfg0.slots t 2).cast nbuf0_2)
abbrev m_wx (t : Fin cfg0.N) : Memref sig .tc .vmem S256x2048 .f32 := win0_3.stage (cfg0.slots t 3)
abbrev hm_wx (t : Fin cfg0.N) : (m_wx t).IsWhole := hstage0_3 ((cfg0.slots t 3).cast nbuf0_3)
abbrev m_b (t : Fin cfg0.N) : Memref sig .tc .vmem S1x2048 .f32 := win0_4.stage (cfg0.slots t 4)
abbrev hm_b (t : Fin cfg0.N) : (m_b t).IsWhole := hstage0_4 ((cfg0.slots t 4).cast nbuf0_4)
abbrev m_g (t : Fin cfg0.N) : Memref sig .tc .vmem S1x2048 .f32 := win0_5.stage (cfg0.slots t 5)
abbrev hm_g (t : Fin cfg0.N) : (m_g t).IsWhole := hstage0_5 ((cfg0.slots t 5).cast nbuf0_5)
abbrev m_be (t : Fin cfg0.N) : Memref sig .tc .vmem S1x2048 .f32 := win0_6.stage (cfg0.slots t 6)
abbrev hm_be (t : Fin cfg0.N) : (m_be t).IsWhole := hstage0_6 ((cfg0.slots t 6).cast nbuf0_6)
abbrev m_out (t : Fin cfg0.N) : Memref sig .tc .vmem S1024x2048 .f32 := win0_7.stage (cfg0.slots t 7)
abbrev hm_out (t : Fin cfg0.N) : (m_out t).IsWhole := hstage0_7 ((cfg0.slots t 7).cast nbuf0_7)
/-- The accumulator: a whole scoped buffer of the kernel's own. -/
abbrev accM : Memref sig .tc .vmem S1024x2048 .f32 := Memref.whole cc0_scratch0
abbrev accView : View sig .tc .vmem S1024x2048 .f32 := accM.view

/-- What the launch hands the region, with the accumulator taken out of the scoped buffers no window stages. -/
theorem handed_eq (c : Dev nD) :
    (Pipeline.ΦA spec0 c : sProp 𝕄)
      = iprop(iprop(iprop((∃ d, owns (c : Thread nD τ) accM fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [accM, owns_whole]; try rfl

end Cert.KernelIdeal.R0

end
-- ==== Proof.KI.R0.Runs.lean ====
/-
  The forget gate logistic(LayerNorm(h·W_hf + x·W_xf + b_xf)), in the idealized kernel (pallas_call 0).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part two: the body's triple in each of its three cases.  On whole staging memrefs holding the input blocks the body
  runs without fault and gives the input buffers back unchanged.  What it does to the accumulator and to the output
  buffer depends on the point:
    k = 0      the accumulator, whatever it held, ends as its stores leave it; the output buffer is not touched;
    0 < k < 7  the accumulator, at known contents, ends as its stores leave it; the output buffer is not touched;
    k = 7      as before, and the output buffer, whatever it held, ends as its one store leaves it.
  The stores are not transcribed: each case is a subtype whose witness — the list of pieces stored, last first — the
  symbolic run of the body finds.
-/
import proofs.«116394_j17480516895034_2_alg».proof.Proof.KI.R0.Base

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- k = 0. -/
noncomputable def runFirst (c : Dev nD) (i : grid0.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : atFirst i) (h7 : ¬atLast i)
    (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) :
    { LA : List (View.Piece (Elt F) S1024x2048 .f32) //
      ∀ (xout : Vec F S1024x2048 .f32) (E : Set ℕ) (K : PUnit → sProp 𝕄),
        iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ owns (c : Thread nD τ) arg9 fullShare xout ∗ (∃ d, owns (c : Thread nD τ) arg10 fullShare d)
            ∗ (iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ owns (c : Thread nD τ) arg9 fullShare xout ∗ (∃ f, arg10.view.loc (c : Thread nD τ) ↦[arg10.view.set]{fullShare} arg10.view.writes (Elt F) f LA)) -∗ K ⟨⟩))
          ⊢ wp frame (wpE (defs₀ (F := F)) Variants.none c none) E (cc0_gate_kernel i arg2 harg2 arg3 harg3 arg4 harg4 arg5 harg5 arg6 harg6 arg7 harg7 arg8 harg8 arg9 harg9 arg10 harg10) K } := by
  refine ⟨?_, fun xout E K => ?run⟩
  case run =>
    simp only [cc0_gate_kernel_eq_skeleton]; unfold cc0_gate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo, %hfo, HO⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfo
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO]
    · iexists _; isplitr; · ipureintro; exact harg9.read_unread _
      iexact HO
    iexists _; iexact HS

set_option maxHeartbeats 2000000 in
/-- 0 < k < 7. -/
noncomputable def runMid (c : Dev nD) (i : grid0.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : ¬atLast i)
    (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) :
    { LA : List (View.Piece (Elt F) S1024x2048 .f32) //
      ∀ (xout : Vec F S1024x2048 .f32) (E : Set ℕ) (K : PUnit → sProp 𝕄),
        iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ owns (c : Thread nD τ) arg9 fullShare xout ∗ owns (c : Thread nD τ) arg10 fullShare xa
            ∗ (iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ owns (c : Thread nD τ) arg9 fullShare xout ∗ (∃ f, arg10.view.loc (c : Thread nD τ) ↦[arg10.view.set]{fullShare} arg10.view.writes (Elt F) f LA)) -∗ K ⟨⟩))
          ⊢ wp frame (wpE (defs₀ (F := F)) Variants.none c none) E (cc0_gate_kernel i arg2 harg2 arg3 harg3 arg4 harg4 arg5 harg5 arg6 harg6 arg7 harg7 arg8 harg8 arg9 harg9 arg10 harg10) K } := by
  refine ⟨?_, fun xout E K => ?run⟩
  case run =>
    simp only [cc0_gate_kernel_eq_skeleton]; unfold cc0_gate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfo; obtain rfl := harg10.eq_unread hfs
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO]
    · iexists _; isplitr; · ipureintro; exact harg9.read_unread _
      iexact HO
    iexists _; iexact HS

set_option maxHeartbeats 2000000 in
/-- k = 7. -/
noncomputable def runLast (c : Dev nD) (i : grid0.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i)
    (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) :
    Σ' (LO : List (View.Piece (Elt F) S1024x2048 .f32)), { LA : List (View.Piece (Elt F) S1024x2048 .f32) //
      ∀ (E : Set ℕ) (K : PUnit → sProp 𝕄),
        iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ (∃ d, owns (c : Thread nD τ) arg9 fullShare d) ∗ owns (c : Thread nD τ) arg10 fullShare xa
            ∗ (iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ (∃ f, arg9.view.loc (c : Thread nD τ) ↦[arg9.view.set]{fullShare} arg9.view.writes (Elt F) f LO) ∗ (∃ f, arg10.view.loc (c : Thread nD τ) ↦[arg10.view.set]{fullShare} arg10.view.writes (Elt F) f LA)) -∗ K ⟨⟩))
          ⊢ wp frame (wpE (defs₀ (F := F)) Variants.none c none) E (cc0_gate_kernel i arg2 harg2 arg3 harg3 arg4 harg4 arg5 harg5 arg6 harg6 arg7 harg7 arg8 harg8 arg9 harg9 arg10 harg10) K } := by
  refine ⟨?_, ?_, fun E K => ?run⟩
  case run =>
    simp only [cc0_gate_kernel_eq_skeleton]; unfold cc0_gate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%dO, %fo, -, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO]; · iexists _; iexact HO
    iexists _; iexact HS

end Cert.KernelIdeal.R0

end
-- ==== Proof.KI.R0.Data.lean ====
/-
  The forget gate logistic(LayerNorm(h·W_hf + x·W_xf + b_xf)), in the idealized kernel (pallas_call 0).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part three: what the buffers hold point by point.  After the body at position n the accumulator holds what that
  point's case leaves in it — at k = 0 from nothing, at every later k from what position n − 1 left — and, at k = 7,
  the output buffer holds what its one store leaves.  The region's invariant carries the accumulator at these contents
  from one point to the next, beside the other scoped buffers no window stages and the generator register, neither of
  which the body touches.
-/
import proofs.«116394_j17480516895034_2_alg».proof.Proof.KI.R0.Runs

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem accCover_first (c : Dev nD) (i : grid0.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : atFirst i) (h7 : ¬atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (y : S1024x2048.Idx) :
    ∃ pc ∈ (runFirst c i arg2 harg2 arg3 harg3 arg4 harg4 arg5 harg5 arg6 harg6 arg7 harg7 arg8 harg8 arg9 harg9 arg10 harg10 h0 h7 xh xwh xx xwx xb xg xbe).1, y ∈ pc.1.set :=
  View.cover_of_tiledL (runFirst c i arg2 harg2 arg3 harg3 arg4 harg4 arg5 harg5 arg6 harg6 arg7 harg7 arg8 harg8 arg9 harg9 arg10 harg10 h0 h7 xh xwh xx xwx xb xg xbe).1 S1024x2048.size (by sl_kernel_rfl) y

/-- The accumulator after a point with k = 0. -/
def accFirst (c : Dev nD) (i : grid0.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : atFirst i) (h7 : ¬atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) : Vec F S1024x2048 .f32 :=
  accView.read (Elt F) (accView.writes (Elt F) accView.junk (runFirst c i arg2 harg2 arg3 harg3 arg4 harg4 arg5 harg5 arg6 harg6 arg7 harg7 arg8 harg8 arg9 harg9 arg10 harg10 h0 h7 xh xwh xx xwx xb xg xbe).1)

theorem accCover_mid (c : Dev nD) (i : grid0.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : ¬atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) (y : S1024x2048.Idx) :
    ∃ pc ∈ (runMid c i arg2 harg2 arg3 harg3 arg4 harg4 arg5 harg5 arg6 harg6 arg7 harg7 arg8 harg8 arg9 harg9 arg10 harg10 h0 h7 xh xwh xx xwx xb xg xbe xa).1, y ∈ pc.1.set :=
  View.cover_of_tiledL (runMid c i arg2 harg2 arg3 harg3 arg4 harg4 arg5 harg5 arg6 harg6 arg7 harg7 arg8 harg8 arg9 harg9 arg10 harg10 h0 h7 xh xwh xx xwx xb xg xbe xa).1 S1024x2048.size (by sl_kernel_rfl) y

/-- The accumulator after a point with 0 < k < 7. -/
def accMid (c : Dev nD) (i : grid0.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : ¬atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) : Vec F S1024x2048 .f32 :=
  accView.read (Elt F) (accView.writes (Elt F) accView.junk (runMid c i arg2 harg2 arg3 harg3 arg4 harg4 arg5 harg5 arg6 harg6 arg7 harg7 arg8 harg8 arg9 harg9 arg10 harg10 h0 h7 xh xwh xx xwx xb xg xbe xa).1)

theorem outCover_last (c : Dev nD) (i : grid0.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) (y : S1024x2048.Idx) :
    ∃ pc ∈ (runLast c i arg2 harg2 arg3 harg3 arg4 harg4 arg5 harg5 arg6 harg6 arg7 harg7 arg8 harg8 arg9 harg9 arg10 harg10 h0 h7 xh xwh xx xwx xb xg xbe xa).1, y ∈ pc.1.set :=
  View.cover_of_tiledL (runLast c i arg2 harg2 arg3 harg3 arg4 harg4 arg5 harg5 arg6 harg6 arg7 harg7 arg8 harg8 arg9 harg9 arg10 harg10 h0 h7 xh xwh xx xwx xb xg xbe xa).1 S1024x2048.size (by sl_kernel_rfl) y

/-- The output buffer after a point with k = 7. -/
def outLast (c : Dev nD) (i : grid0.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) : Vec F S1024x2048 .f32 :=
  outView.read (Elt F) (outView.writes (Elt F) outView.junk (runLast c i arg2 harg2 arg3 harg3 arg4 harg4 arg5 harg5 arg6 harg6 arg7 harg7 arg8 harg8 arg9 harg9 arg10 harg10 h0 h7 xh xwh xx xwx xb xg xbe xa).1)

theorem accCover_last (c : Dev nD) (i : grid0.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) (y : S1024x2048.Idx) :
    ∃ pc ∈ (runLast c i arg2 harg2 arg3 harg3 arg4 harg4 arg5 harg5 arg6 harg6 arg7 harg7 arg8 harg8 arg9 harg9 arg10 harg10 h0 h7 xh xwh xx xwx xb xg xbe xa).2.1, y ∈ pc.1.set :=
  View.cover_of_tiledL (runLast c i arg2 harg2 arg3 harg3 arg4 harg4 arg5 harg5 arg6 harg6 arg7 harg7 arg8 harg8 arg9 harg9 arg10 harg10 h0 h7 xh xwh xx xwx xb xg xbe xa).2.1 S1024x2048.size (by sl_kernel_rfl) y

/-- The accumulator after a point with k = 7. -/
def accLast (c : Dev nD) (i : grid0.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) : Vec F S1024x2048 .f32 :=
  accView.read (Elt F) (accView.writes (Elt F) accView.junk (runLast c i arg2 harg2 arg3 harg3 arg4 harg4 arg5 harg5 arg6 harg6 arg7 harg7 arg8 harg8 arg9 harg9 arg10 harg10 h0 h7 xh xwh xx xwx xb xg xbe xa).2.1)

/-! ## Point by point -/

/-- After the body at position `n`: the output buffer (meaningful at k = 7 only; elsewhere nothing consults it) and the
    accumulator. -/
def heldAt (c : Dev nD) : (n : ℕ) → n < cfg0.N → Vec F S1024x2048 .f32 × Vec F S1024x2048 .f32
  | 0, hn => (outView.read (Elt F) outView.junk,
      accFirst c (grid0.coords ⟨0, hn⟩) (m_h ⟨0, hn⟩) (hm_h ⟨0, hn⟩) (m_wh ⟨0, hn⟩) (hm_wh ⟨0, hn⟩) (m_x ⟨0, hn⟩) (hm_x ⟨0, hn⟩) (m_wx ⟨0, hn⟩) (hm_wx ⟨0, hn⟩) (m_b ⟨0, hn⟩) (hm_b ⟨0, hn⟩) (m_g ⟨0, hn⟩) (hm_g ⟨0, hn⟩) (m_be ⟨0, hn⟩) (hm_be ⟨0, hn⟩) (m_out ⟨0, hn⟩) (hm_out ⟨0, hn⟩) accM (Memref.isWhole_whole _) ((atFirst_iff ⟨0, hn⟩).mpr (Nat.zero_mod _)) (fun h => (fun h => by (try dsimp only at h); omega) ((atLast_iff ⟨0, hn⟩).mp h)) (blockAt V c 0 ⟨0, hn⟩) (blockAt V c 1 ⟨0, hn⟩) (blockAt V c 2 ⟨0, hn⟩) (blockAt V c 3 ⟨0, hn⟩) (blockAt V c 4 ⟨0, hn⟩) (blockAt V c 5 ⟨0, hn⟩) (blockAt V c 6 ⟨0, hn⟩))
  | n + 1, hn =>
    if h0 : (n + 1) % 8 = 0 then
      if h7 : (n + 1) % 8 = 7 then
        False.elim (by omega)
      else
        (outView.read (Elt F) outView.junk,
          accFirst c (grid0.coords ⟨n + 1, hn⟩) (m_h ⟨n + 1, hn⟩) (hm_h ⟨n + 1, hn⟩) (m_wh ⟨n + 1, hn⟩) (hm_wh ⟨n + 1, hn⟩) (m_x ⟨n + 1, hn⟩) (hm_x ⟨n + 1, hn⟩) (m_wx ⟨n + 1, hn⟩) (hm_wx ⟨n + 1, hn⟩) (m_b ⟨n + 1, hn⟩) (hm_b ⟨n + 1, hn⟩) (m_g ⟨n + 1, hn⟩) (hm_g ⟨n + 1, hn⟩) (m_be ⟨n + 1, hn⟩) (hm_be ⟨n + 1, hn⟩) (m_out ⟨n + 1, hn⟩) (hm_out ⟨n + 1, hn⟩) accM (Memref.isWhole_whole _) ((atFirst_iff ⟨n + 1, hn⟩).mpr h0) (fun h => h7 ((atLast_iff ⟨n + 1, hn⟩).mp h)) (blockAt V c 0 ⟨n + 1, hn⟩) (blockAt V c 1 ⟨n + 1, hn⟩) (blockAt V c 2 ⟨n + 1, hn⟩) (blockAt V c 3 ⟨n + 1, hn⟩) (blockAt V c 4 ⟨n + 1, hn⟩) (blockAt V c 5 ⟨n + 1, hn⟩) (blockAt V c 6 ⟨n + 1, hn⟩))
    else
      if h7 : (n + 1) % 8 = 7 then
        (outLast c (grid0.coords ⟨n + 1, hn⟩) (m_h ⟨n + 1, hn⟩) (hm_h ⟨n + 1, hn⟩) (m_wh ⟨n + 1, hn⟩) (hm_wh ⟨n + 1, hn⟩) (m_x ⟨n + 1, hn⟩) (hm_x ⟨n + 1, hn⟩) (m_wx ⟨n + 1, hn⟩) (hm_wx ⟨n + 1, hn⟩) (m_b ⟨n + 1, hn⟩) (hm_b ⟨n + 1, hn⟩) (m_g ⟨n + 1, hn⟩) (hm_g ⟨n + 1, hn⟩) (m_be ⟨n + 1, hn⟩) (hm_be ⟨n + 1, hn⟩) (m_out ⟨n + 1, hn⟩) (hm_out ⟨n + 1, hn⟩) accM (Memref.isWhole_whole _) (fun h => h0 ((atFirst_iff ⟨n + 1, hn⟩).mp h)) ((atLast_iff ⟨n + 1, hn⟩).mpr h7) (blockAt V c 0 ⟨n + 1, hn⟩) (blockAt V c 1 ⟨n + 1, hn⟩) (blockAt V c 2 ⟨n + 1, hn⟩) (blockAt V c 3 ⟨n + 1, hn⟩) (blockAt V c 4 ⟨n + 1, hn⟩) (blockAt V c 5 ⟨n + 1, hn⟩) (blockAt V c 6 ⟨n + 1, hn⟩) (heldAt c n (Nat.lt_of_succ_lt hn)).2,
          accLast c (grid0.coords ⟨n + 1, hn⟩) (m_h ⟨n + 1, hn⟩) (hm_h ⟨n + 1, hn⟩) (m_wh ⟨n + 1, hn⟩) (hm_wh ⟨n + 1, hn⟩) (m_x ⟨n + 1, hn⟩) (hm_x ⟨n + 1, hn⟩) (m_wx ⟨n + 1, hn⟩) (hm_wx ⟨n + 1, hn⟩) (m_b ⟨n + 1, hn⟩) (hm_b ⟨n + 1, hn⟩) (m_g ⟨n + 1, hn⟩) (hm_g ⟨n + 1, hn⟩) (m_be ⟨n + 1, hn⟩) (hm_be ⟨n + 1, hn⟩) (m_out ⟨n + 1, hn⟩) (hm_out ⟨n + 1, hn⟩) accM (Memref.isWhole_whole _) (fun h => h0 ((atFirst_iff ⟨n + 1, hn⟩).mp h)) ((atLast_iff ⟨n + 1, hn⟩).mpr h7) (blockAt V c 0 ⟨n + 1, hn⟩) (blockAt V c 1 ⟨n + 1, hn⟩) (blockAt V c 2 ⟨n + 1, hn⟩) (blockAt V c 3 ⟨n + 1, hn⟩) (blockAt V c 4 ⟨n + 1, hn⟩) (blockAt V c 5 ⟨n + 1, hn⟩) (blockAt V c 6 ⟨n + 1, hn⟩) (heldAt c n (Nat.lt_of_succ_lt hn)).2)
      else
        (outView.read (Elt F) outView.junk,
          accMid c (grid0.coords ⟨n + 1, hn⟩) (m_h ⟨n + 1, hn⟩) (hm_h ⟨n + 1, hn⟩) (m_wh ⟨n + 1, hn⟩) (hm_wh ⟨n + 1, hn⟩) (m_x ⟨n + 1, hn⟩) (hm_x ⟨n + 1, hn⟩) (m_wx ⟨n + 1, hn⟩) (hm_wx ⟨n + 1, hn⟩) (m_b ⟨n + 1, hn⟩) (hm_b ⟨n + 1, hn⟩) (m_g ⟨n + 1, hn⟩) (hm_g ⟨n + 1, hn⟩) (m_be ⟨n + 1, hn⟩) (hm_be ⟨n + 1, hn⟩) (m_out ⟨n + 1, hn⟩) (hm_out ⟨n + 1, hn⟩) accM (Memref.isWhole_whole _) (fun h => h0 ((atFirst_iff ⟨n + 1, hn⟩).mp h)) (fun h => h7 ((atLast_iff ⟨n + 1, hn⟩).mp h)) (blockAt V c 0 ⟨n + 1, hn⟩) (blockAt V c 1 ⟨n + 1, hn⟩) (blockAt V c 2 ⟨n + 1, hn⟩) (blockAt V c 3 ⟨n + 1, hn⟩) (blockAt V c 4 ⟨n + 1, hn⟩) (blockAt V c 5 ⟨n + 1, hn⟩) (blockAt V c 6 ⟨n + 1, hn⟩) (heldAt c n (Nat.lt_of_succ_lt hn)).2)

theorem heldAt_first (c : Dev nD) (t : Fin cfg0.N) (h0 : t.val % 8 = 0) (h7 : ¬t.val % 8 = 7) :
    heldAt V c t.val t.isLt = (outView.read (Elt F) outView.junk,
      accFirst c (grid0.coords t) (m_h t) (hm_h t) (m_wh t) (hm_wh t) (m_x t) (hm_x t) (m_wx t) (hm_wx t) (m_b t) (hm_b t) (m_g t) (hm_g t) (m_be t) (hm_be t) (m_out t) (hm_out t) accM (Memref.isWhole_whole _) ((atFirst_iff t).mpr h0) (fun h => h7 ((atLast_iff t).mp h)) (blockAt V c 0 t) (blockAt V c 1 t) (blockAt V c 2 t) (blockAt V c 3 t) (blockAt V c 4 t) (blockAt V c 5 t) (blockAt V c 6 t)) := by
  obtain ⟨n, hn⟩ := t
  cases n with
  | zero => exact rfl
  | succ n => exact (dif_pos h0).trans ((dif_neg h7).trans rfl)

theorem heldAt_mid (c : Dev nD) (t : Fin cfg0.N) (h0 : ¬t.val % 8 = 0) (h7 : ¬t.val % 8 = 7) :
    heldAt V c t.val t.isLt = (outView.read (Elt F) outView.junk,
      accMid c (grid0.coords t) (m_h t) (hm_h t) (m_wh t) (hm_wh t) (m_x t) (hm_x t) (m_wx t) (hm_wx t) (m_b t) (hm_b t) (m_g t) (hm_g t) (m_be t) (hm_be t) (m_out t) (hm_out t) accM (Memref.isWhole_whole _) (fun h => h0 ((atFirst_iff t).mp h)) (fun h => h7 ((atLast_iff t).mp h)) (blockAt V c 0 t) (blockAt V c 1 t) (blockAt V c 2 t) (blockAt V c 3 t) (blockAt V c 4 t) (blockAt V c 5 t) (blockAt V c 6 t)
        (heldAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h7).trans rfl)

theorem heldAt_last (c : Dev nD) (t : Fin cfg0.N) (h0 : ¬t.val % 8 = 0) (h7 : t.val % 8 = 7) :
    heldAt V c t.val t.isLt = (outLast c (grid0.coords t) (m_h t) (hm_h t) (m_wh t) (hm_wh t) (m_x t) (hm_x t) (m_wx t) (hm_wx t) (m_b t) (hm_b t) (m_g t) (hm_g t) (m_be t) (hm_be t) (m_out t) (hm_out t) accM (Memref.isWhole_whole _) (fun h => h0 ((atFirst_iff t).mp h)) ((atLast_iff t).mpr h7) (blockAt V c 0 t) (blockAt V c 1 t) (blockAt V c 2 t) (blockAt V c 3 t) (blockAt V c 4 t) (blockAt V c 5 t) (blockAt V c 6 t)
        (heldAt V c (t.val - 1) (Nat.lt_of_le_of_lt (Nat.sub_le _ _) t.isLt)).2,
      accLast c (grid0.coords t) (m_h t) (hm_h t) (m_wh t) (hm_wh t) (m_x t) (hm_x t) (m_wx t) (hm_wx t) (m_b t) (hm_b t) (m_g t) (hm_g t) (m_be t) (hm_be t) (m_out t) (hm_out t) accM (Memref.isWhole_whole _) (fun h => h0 ((atFirst_iff t).mp h)) ((atLast_iff t).mpr h7) (blockAt V c 0 t) (blockAt V c 1 t) (blockAt V c 2 t) (blockAt V c 3 t) (blockAt V c 4 t) (blockAt V c 5 t) (blockAt V c 6 t)
        (heldAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h7).trans rfl)

/-! ## The invariant -/

/-- Before position `n`: at the start what the launch hands the region; afterwards the accumulator at what position
    `n − 1` left in it, the other scoped buffers no window stages, and the generator register. -/
def inv (c : Dev nD) : (n : ℕ) → n ≤ cfg0.N → sProp 𝕄
  | 0, _ => Pipeline.ΦA spec0 c
  | n + 1, hn => iprop(iprop(owns (c : Thread nD τ) accM fullShare ((heldAt V c n hn).2)
      ∗ Pipeline.scopedRestBut (Ix := Unit) (Name := ℕ) (U := UR sig nD τ) (Lvl := ℕ) (Val := Elt F) spec0 c [cc0_scratch0]) ∗ (∃ r, prngReg c r))

theorem inv_zero (c : Dev nD) (n : ℕ) (h : n ≤ cfg0.N) (hz : n = 0) : inv V c n h = Pipeline.ΦA spec0 c := by
  subst hz; rfl

theorem inv_succ (c : Dev nD) (n : ℕ) (hn : n < cfg0.N) :
    inv V c (n + 1) hn = iprop(iprop(owns (c : Thread nD τ) accM fullShare ((heldAt V c n hn).2)
      ∗ Pipeline.scopedRestBut (Ix := Unit) (Name := ℕ) (U := UR sig nD τ) (Lvl := ℕ) (Val := Elt F) spec0 c [cc0_scratch0]) ∗ (∃ r, prngReg c r)) := rfl

theorem inv_pos (c : Dev nD) (n : ℕ) (h : n ≤ cfg0.N) (hz : n ≠ 0) :
    inv V c n h = iprop(iprop(owns (c : Thread nD τ) accM fullShare ((heldAt V c (n - 1) (by omega)).2)
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- The region's proof data on core `c`: the arrays as the region finds them; after the body each input's buffer at its
    block and the output's at `heldAt`; the invariant above; nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => blockAt V c 6 t
    | ⟨7, _⟩ => (heldAt V c t.val t.isLt).1
  Φ t := inv V c t.val (Nat.le_of_lt_succ t.isLt)
  q _ := fullShare
  owed _ := 0

theorem dat_A (c : Dev nD) (w : Fin cfg0.W) : (dat V c).A w = V c (Pipeline.arrRef spec0 w) := by
  dsimp only [dat]

theorem inv_castSucc (c : Dev nD) (t : Fin cfg0.N) :
    (dat V c).Φ t.castSucc = inv V c t.val (Nat.le_of_lt t.isLt) := by
  dsimp only [dat]; simp only [Fin.coe_castSucc]

theorem after_h (c : Dev nD) (t : Fin cfg0.N) : (dat V c).after 0 t = blockAt V c 0 t := by dsimp only [dat]
theorem after_wh (c : Dev nD) (t : Fin cfg0.N) : (dat V c).after 1 t = blockAt V c 1 t := by dsimp only [dat]
theorem after_x (c : Dev nD) (t : Fin cfg0.N) : (dat V c).after 2 t = blockAt V c 2 t := by dsimp only [dat]
theorem after_wx (c : Dev nD) (t : Fin cfg0.N) : (dat V c).after 3 t = blockAt V c 3 t := by dsimp only [dat]
theorem after_b (c : Dev nD) (t : Fin cfg0.N) : (dat V c).after 4 t = blockAt V c 4 t := by dsimp only [dat]
theorem after_g (c : Dev nD) (t : Fin cfg0.N) : (dat V c).after 5 t = blockAt V c 5 t := by dsimp only [dat]
theorem after_be (c : Dev nD) (t : Fin cfg0.N) : (dat V c).after 6 t = blockAt V c 6 t := by dsimp only [dat]
theorem after_out (c : Dev nD) (t : Fin cfg0.N) : (dat V c).after 7 t = (heldAt V c t.val t.isLt).1 := by dsimp only [dat]

theorem before_h (c : Dev nD) (t : Fin cfg0.N) (d) : (dat V c).before 0 t d = blockAt V c 0 t :=
  in_h_of V (dat V c) (dat_A V c 0) (after_h V c) t d
theorem before_wh (c : Dev nD) (t : Fin cfg0.N) (d) : (dat V c).before 1 t d = blockAt V c 1 t :=
  in_wh_of V (dat V c) (dat_A V c 1) (after_wh V c) t d
theorem before_x (c : Dev nD) (t : Fin cfg0.N) (d) : (dat V c).before 2 t d = blockAt V c 2 t :=
  in_x_of V (dat V c) (dat_A V c 2) (after_x V c) t d
theorem before_wx (c : Dev nD) (t : Fin cfg0.N) (d) : (dat V c).before 3 t d = blockAt V c 3 t :=
  in_wx_of V (dat V c) (dat_A V c 3) (after_wx V c) t d
theorem before_b (c : Dev nD) (t : Fin cfg0.N) (d) : (dat V c).before 4 t d = blockAt V c 4 t :=
  in_b_of V (dat V c) (dat_A V c 4) (after_b V c) t d
theorem before_g (c : Dev nD) (t : Fin cfg0.N) (d) : (dat V c).before 5 t d = blockAt V c 5 t :=
  in_g_of V (dat V c) (dat_A V c 5) (after_g V c) t d
theorem before_be (c : Dev nD) (t : Fin cfg0.N) (d) : (dat V c).before 6 t d = blockAt V c 6 t :=
  in_be_of V (dat V c) (dat_A V c 6) (after_be V c) t d

end Cert.KernelIdeal.R0

end
-- ==== Proof.KI.R0.Body.lean ====
/-
  The forget gate logistic(LayerNorm(h·W_hf + x·W_xf + b_xf)), in the idealized kernel (pallas_call 0).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part four: the body obligation at every point.  The pipeline hands the body the invariant, the input buffers (each
  holding its block) and the output buffer.  Which case the point is in is decided by its position modulo 8; the case's
  triple then applies.  The accumulator comes out of the invariant at what the previous point left (at anything at the
  very first point) and goes back in at this point's contents; the remaining scoped buffers and the generator register
  pass through untouched.
-/
import proofs.«116394_j17480516895034_2_alg».proof.Proof.KI.R0.Data

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (m_h t) fullShare ((dat V c).before 0 t d))
    ∗ (∃ d, owns (c : Thread nD τ) (m_wh t) fullShare ((dat V c).before 1 t d))
    ∗ (∃ d, owns (c : Thread nD τ) (m_x t) fullShare ((dat V c).before 2 t d))
    ∗ (∃ d, owns (c : Thread nD τ) (m_wx t) fullShare ((dat V c).before 3 t d))
    ∗ (∃ d, owns (c : Thread nD τ) (m_b t) fullShare ((dat V c).before 4 t d))
    ∗ (∃ d, owns (c : Thread nD τ) (m_g t) fullShare ((dat V c).before 5 t d))
    ∗ (∃ d, owns (c : Thread nD τ) (m_be t) fullShare ((dat V c).before 6 t d))
    ∗ (∃ d, owns (c : Thread nD τ) (m_out t) fullShare ((dat V c).before 7 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_h, before_wh, before_x, before_wx, before_b, before_g, before_be]
  rw [show (dat V c).owesAt () t.succ = (dat V c).owesAt () t.castSucc from rfl]
  rw [show (dat V c).Φ t.succ = inv V c (t.val + 1) t.isLt from rfl, inv_succ]
  have hN : t.val < 16 := lt_of_lt_of_eq t.isLt (show cfg0.N = 16 from N_0)
  rw [show (dat V c).leavesExact 0 t = owns (c : Thread nD τ) (m_h t) fullShare ((dat V c).after 0 t) from by
    unfold Dat.leavesExact; rw [live_h t], after_h]
  rw [show (dat V c).leavesExact 1 t = owns (c : Thread nD τ) (m_wh t) fullShare ((dat V c).after 1 t) from by
    unfold Dat.leavesExact; rw [live_wh t], after_wh]
  rw [show (dat V c).leavesExact 2 t = owns (c : Thread nD τ) (m_x t) fullShare ((dat V c).after 2 t) from by
    unfold Dat.leavesExact; rw [live_x t], after_x]
  rw [show (dat V c).leavesExact 3 t = owns (c : Thread nD τ) (m_wx t) fullShare ((dat V c).after 3 t) from by
    unfold Dat.leavesExact; rw [live_wx t], after_wx]
  rw [show (dat V c).leavesExact 4 t = owns (c : Thread nD τ) (m_b t) fullShare ((dat V c).after 4 t) from by
    unfold Dat.leavesExact; rw [live_b t], after_b]
  rw [show (dat V c).leavesExact 5 t = owns (c : Thread nD τ) (m_g t) fullShare ((dat V c).after 5 t) from by
    unfold Dat.leavesExact; rw [live_g t], after_g]
  rw [show (dat V c).leavesExact 6 t = owns (c : Thread nD τ) (m_be t) fullShare ((dat V c).after 6 t) from by
    unfold Dat.leavesExact; rw [live_be t], after_be]
  by_cases h0 : t.val % 8 = 0
  · have h7 : ¬t.val % 8 = 7 := by omega
    rw [Dat.leavesExact_idle (dat V c) 7 t (idle_out t (fun h => h7 ((atLast_iff t).mp h))) (noFlush_out t (fun h => h7 ((atLast_iff t).mp h)))]
    rw [heldAt_first V c t h0 h7]
    unfold accFirst; (try dsimp only)
    by_cases hz : t.val = 0
    · rw [inv_castSucc V c t, inv_zero V c _ _ hz, handed_eq]
      iintro ⟨⟨⟨HA, Hrest⟩, Hg⟩, Ho, ⟨%d0, H0⟩, ⟨%d1, H1⟩, ⟨%d2, H2⟩, ⟨%d3, H3⟩, ⟨%d4, H4⟩, ⟨%d5, H5⟩, ⟨%d6, H6⟩, ⟨%dO, HO⟩⟩
      iapply ((runFirst c (grid0.coords t) _ _ _ _ _ _ _ _ _ _ _ _ _ _ _ _ _ _ ((atFirst_iff t).mpr h0) (fun h => h7 ((atLast_iff t).mp h)) (blockAt V c 0 t) (blockAt V c 1 t) (blockAt V c 2 t) (blockAt V c 3 t) (blockAt V c 4 t) (blockAt V c 5 t) (blockAt V c 6 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HO]; · iexact HO
      isplitl [HA]; · iexact HA
      iintro ⟨H0, H1, H2, H3, H4, H5, H6, HO, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_first c _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact HO
    · rw [inv_castSucc V c t, inv_pos V c _ _ hz]
      iintro ⟨⟨⟨HA, Hrest⟩, Hg⟩, Ho, ⟨%d0, H0⟩, ⟨%d1, H1⟩, ⟨%d2, H2⟩, ⟨%d3, H3⟩, ⟨%d4, H4⟩, ⟨%d5, H5⟩, ⟨%d6, H6⟩, ⟨%dO, HO⟩⟩
      iapply ((runFirst c (grid0.coords t) _ _ _ _ _ _ _ _ _ _ _ _ _ _ _ _ _ _ ((atFirst_iff t).mpr h0) (fun h => h7 ((atLast_iff t).mp h)) (blockAt V c 0 t) (blockAt V c 1 t) (blockAt V c 2 t) (blockAt V c 3 t) (blockAt V c 4 t) (blockAt V c 5 t) (blockAt V c 6 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HO]; · iexact HO
      isplitl [HA]; · iexists _; iexact HA
      iintro ⟨H0, H1, H2, H3, H4, H5, H6, HO, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_first c _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact HO
  · have hz : t.val ≠ 0 := fun e => h0 (by rw [e])
    by_cases h7 : t.val % 8 = 7
    · rw [show (dat V c).leavesExact 7 t = owns (c : Thread nD τ) (m_out t) fullShare ((dat V c).after 7 t) from by
        unfold Dat.leavesExact; rw [live_out t ((atLast_iff t).mpr h7)], after_out]
      rw [heldAt_last V c t h0 h7]
      unfold outLast accLast; (try dsimp only)
      rw [inv_castSucc V c t, inv_pos V c _ _ hz]
      iintro ⟨⟨⟨HA, Hrest⟩, Hg⟩, Ho, ⟨%d0, H0⟩, ⟨%d1, H1⟩, ⟨%d2, H2⟩, ⟨%d3, H3⟩, ⟨%d4, H4⟩, ⟨%d5, H5⟩, ⟨%d6, H6⟩, ⟨%dO, HO⟩⟩
      iapply ((runLast c (grid0.coords t) _ _ _ _ _ _ _ _ _ _ _ _ _ _ _ _ _ _ (fun h => h0 ((atFirst_iff t).mp h)) ((atLast_iff t).mpr h7) (blockAt V c 0 t) (blockAt V c 1 t) (blockAt V c 2 t) (blockAt V c 3 t) (blockAt V c 4 t) (blockAt V c 5 t) (blockAt V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HO]; · iexists _; iexact HO
      isplitl [HA]; · iexact HA
      iintro ⟨H0, H1, H2, H3, H4, H5, H6, ⟨%eO, HO⟩, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_last c _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact HO
      ipureintro; exact View.read_writes_of_cover _ _ _ _ _ (outCover_last c _ _ _ _ _ _ _ _ _ _ _ _ _ _ _ _ _ _ _ _ _ _ _ _ _ _ _ _ _)
    · rw [Dat.leavesExact_idle (dat V c) 7 t (idle_out t (fun h => h7 ((atLast_iff t).mp h))) (noFlush_out t (fun h => h7 ((atLast_iff t).mp h)))]
      rw [heldAt_mid V c t h0 h7]
      unfold accMid; (try dsimp only)
      rw [inv_castSucc V c t, inv_pos V c _ _ hz]
      iintro ⟨⟨⟨HA, Hrest⟩, Hg⟩, Ho, ⟨%d0, H0⟩, ⟨%d1, H1⟩, ⟨%d2, H2⟩, ⟨%d3, H3⟩, ⟨%d4, H4⟩, ⟨%d5, H5⟩, ⟨%d6, H6⟩, ⟨%dO, HO⟩⟩
      iapply ((runMid c (grid0.coords t) _ _ _ _ _ _ _ _ _ _ _ _ _ _ _ _ _ _ (fun h => h0 ((atFirst_iff t).mp h)) (fun h => h7 ((atLast_iff t).mp h)) (blockAt V c 0 t) (blockAt V c 1 t) (blockAt V c 2 t) (blockAt V c 3 t) (blockAt V c 4 t) (blockAt V c 5 t) (blockAt V c 6 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HO]; · iexact HO
      isplitl [HA]; · iexact HA
      iintro ⟨H0, H1, H2, H3, H4, H5, H6, HO, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_mid c _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact HO

/-- The body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem inv_enter (c : Dev nD) : Pipeline.ΦA spec0 c ⊢ (dat V c).Φ 0 := by
  rw [show (dat V c).Φ 0 = inv V c 0 (Nat.zero_le _) from rfl, inv_zero V c 0 _ rfl]
  try exact Idealize.SL.BI.Entails.refl _

/-- After the last point the invariant gives that back: what the accumulator holds is forgotten. -/
theorem inv_leave (c : Dev nD) : (dat V c).Φ (Fin.last cfg0.N) ⊢ Pipeline.ΦA spec0 c := by
  have ht : (Fin.last cfg0.N).val ≠ 0 := by rw [Fin.val_last]; have : cfg0.N = 16 := N_0; omega
  rw [show (dat V c).Φ (Fin.last cfg0.N) = inv V c (Fin.last cfg0.N).val (Nat.le_of_lt_succ (Fin.last cfg0.N).isLt) from rfl,
    inv_pos V c _ _ ht, handed_eq]
  iintro ⟨⟨HA, Hrest⟩, Hg⟩
  isplitl [HA Hrest]
  · isplitl [HA]
    · iexists _; iexact HA
    iexact Hrest
  iexact Hg

end Cert.KernelIdeal.R0

end
-- ==== Proof.KI.R1.Base.lean ====
/-
  The candidate gate tanh(LayerNorm(h·W_hg + x·W_xg + b_xg)), in the idealized kernel (pallas_call 1).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part one, names: a window's block at a point read off the array as the region finds it; that an input's staging
  buffer holds its block at every point, fetched there or not; the two conditions k = 0 and k = 7 in closed form over
  the sixteen points; where the output window is idle; the staging and scratch memrefs the body is called with.
  Everything is stated at any float instance.
-/
import proofs.«116394_j17480516895034_2_alg».proof.Proof.Gen.KernelIdeal.Launch
import proofs.«116394_j17480516895034_2_alg».proof.Proof.Gen.KernelIdeal.Skeleton
import proofs.«116394_j17480516895034_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-- Window `w`'s block at point `t`, read off its array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's block is in its staging buffer at every point, for any proof data over these arrays whose body leaves it there. -/
theorem in_h_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's block is in its staging buffer at every point, for any proof data over these arrays whose body leaves it there. -/
theorem in_wh_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's block is in its staging buffer at every point, for any proof data over these arrays whose body leaves it there. -/
theorem in_x_of {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's block is in its staging buffer at every point, for any proof data over these arrays whose body leaves it there. -/
theorem in_wx_of {c : Dev nD} (dat : Dat τ (Elt F) Unit ℕ (UR sig nD τ) ℕ cfg1 c) (hA : dat.A 3 = V c (Pipeline.arrRef spec1 3))
    (hafter : ∀ t, dat.after 3 t = blockAt V c 3 t) (t : Fin cfg1.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's block is in its staging buffer at every point, for any proof data over these arrays whose body leaves it there. -/
theorem in_b_of {c : Dev nD} (dat : Dat τ (Elt F) Unit ℕ (UR sig nD τ) ℕ cfg1 c) (hA : dat.A 4 = V c (Pipeline.arrRef spec1 4))
    (hafter : ∀ t, dat.after 4 t = blockAt V c 4 t) (t : Fin cfg1.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- Input window 5's block is in its staging buffer at every point, for any proof data over these arrays whose body leaves it there. -/
theorem in_g_of {c : Dev nD} (dat : Dat τ (Elt F) Unit ℕ (UR sig nD τ) ℕ cfg1 c) (hA : dat.A 5 = V c (Pipeline.arrRef spec1 5))
    (hafter : ∀ t, dat.after 5 t = blockAt V c 5 t) (t : Fin cfg1.N) (d) : dat.before 5 t d = blockAt V c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-- Input window 6's block is in its staging buffer at every point, for any proof data over these arrays whose body leaves it there. -/
theorem in_be_of {c : Dev nD} (dat : Dat τ (Elt F) Unit ℕ (UR sig nD τ) ℕ cfg1 c) (hA : dat.A 6 = V c (Pipeline.arrRef spec1 6))
    (hafter : ∀ t, dat.after 6 t = blockAt V c 6 t) (t : Fin cfg1.N) (d) : dat.before 6 t d = blockAt V c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## The two conditions -/

/-- k = 0: the accumulator is cleared. -/
abbrev atFirst (i : grid1.Coords) : Prop := (Scalar.cmpi .ne (Scalar.extui (Scalar.cmpi .eq (BitVec.ofNat 32 (i 1).val) 0#32)) 0#32) = 1#1
theorem atFirst_iff : ∀ t : Fin cfg1.N, atFirst (grid1.coords t) ↔ t.val % 8 = 0 :=
  (by decide +kernel : ∀ t : Fin grid1.N, atFirst (grid1.coords t) ↔ t.val % 8 = 0)

/-- k = 7: the result is stored. -/
abbrev atLast (i : grid1.Coords) : Prop := k1_cond2 i = 1#1
theorem atLast_iff : ∀ t : Fin cfg1.N, atLast (grid1.coords t) ↔ t.val % 8 = 7 :=
  (by decide +kernel : ∀ t : Fin grid1.N, atLast (grid1.coords t) ↔ t.val % 8 = 7)

/-! ## Where the windows are idle -/

theorem live_h : ∀ t : Fin cfg1.N, cfg1.idle 0 (grid1.coords t) = false := by decide +kernel
theorem live_wh : ∀ t : Fin cfg1.N, cfg1.idle 1 (grid1.coords t) = false := by decide +kernel
theorem live_x : ∀ t : Fin cfg1.N, cfg1.idle 2 (grid1.coords t) = false := by decide +kernel
theorem live_wx : ∀ t : Fin cfg1.N, cfg1.idle 3 (grid1.coords t) = false := by decide +kernel
theorem live_b : ∀ t : Fin cfg1.N, cfg1.idle 4 (grid1.coords t) = false := by decide +kernel
theorem live_g : ∀ t : Fin cfg1.N, cfg1.idle 5 (grid1.coords t) = false := by decide +kernel
theorem live_be : ∀ t : Fin cfg1.N, cfg1.idle 6 (grid1.coords t) = false := by decide +kernel
/-- Away from k = 7 the output window is idle and not written back. -/
theorem idle_out : ∀ t : Fin cfg1.N, ¬atLast (grid1.coords t) → cfg1.idle 7 (grid1.coords t) = true := by decide +kernel
theorem noFlush_out : ∀ t : Fin cfg1.N, ¬atLast (grid1.coords t) → (cfg1.win 7).flush t = false := by decide +kernel
/-- At k = 7 it is live. -/
theorem live_out : ∀ t : Fin cfg1.N, atLast (grid1.coords t) → cfg1.idle 7 (grid1.coords t) = false := by decide +kernel

/-! ## The memrefs the body is called with -/

/-- One staging buffer of the output window, through which its contents are stated. -/
abbrev outView : View sig .tc .vmem S1024x2048 .f32 := (Memref.whole cc1_stg7_0 : Memref sig .tc .vmem S1024x2048 .f32).view
abbrev m_h (t : Fin cfg1.N) : Memref sig .tc .vmem S1024x256 .f32 := win1_0.stage (cfg1.slots t 0)
abbrev hm_h (t : Fin cfg1.N) : (m_h t).IsWhole := hstage1_0 ((cfg1.slots t 0).cast nbuf1_0)
abbrev m_wh (t : Fin cfg1.N) : Memref sig .tc .vmem S256x2048 .f32 := win1_1.stage (cfg1.slots t 1)
abbrev hm_wh (t : Fin cfg1.N) : (m_wh t).IsWhole := hstage1_1 ((cfg1.slots t 1).cast nbuf1_1)
abbrev m_x (t : Fin cfg1.N) : Memref sig .tc .vmem S1024x256 .f32 := win1_2.stage (cfg1.slots t 2)
abbrev hm_x (t : Fin cfg1.N) : (m_x t).IsWhole := hstage1_2 ((cfg1.slots t 2).cast nbuf1_2)
abbrev m_wx (t : Fin cfg1.N) : Memref sig .tc .vmem S256x2048 .f32 := win1_3.stage (cfg1.slots t 3)
abbrev hm_wx (t : Fin cfg1.N) : (m_wx t).IsWhole := hstage1_3 ((cfg1.slots t 3).cast nbuf1_3)
abbrev m_b (t : Fin cfg1.N) : Memref sig .tc .vmem S1x2048 .f32 := win1_4.stage (cfg1.slots t 4)
abbrev hm_b (t : Fin cfg1.N) : (m_b t).IsWhole := hstage1_4 ((cfg1.slots t 4).cast nbuf1_4)
abbrev m_g (t : Fin cfg1.N) : Memref sig .tc .vmem S1x2048 .f32 := win1_5.stage (cfg1.slots t 5)
abbrev hm_g (t : Fin cfg1.N) : (m_g t).IsWhole := hstage1_5 ((cfg1.slots t 5).cast nbuf1_5)
abbrev m_be (t : Fin cfg1.N) : Memref sig .tc .vmem S1x2048 .f32 := win1_6.stage (cfg1.slots t 6)
abbrev hm_be (t : Fin cfg1.N) : (m_be t).IsWhole := hstage1_6 ((cfg1.slots t 6).cast nbuf1_6)
abbrev m_out (t : Fin cfg1.N) : Memref sig .tc .vmem S1024x2048 .f32 := win1_7.stage (cfg1.slots t 7)
abbrev hm_out (t : Fin cfg1.N) : (m_out t).IsWhole := hstage1_7 ((cfg1.slots t 7).cast nbuf1_7)
/-- The accumulator: a whole scoped buffer of the kernel's own. -/
abbrev accM : Memref sig .tc .vmem S1024x2048 .f32 := Memref.whole cc1_scratch0
abbrev accView : View sig .tc .vmem S1024x2048 .f32 := accM.view

/-- What the launch hands the region, with the accumulator taken out of the scoped buffers no window stages. -/
theorem handed_eq (c : Dev nD) :
    (Pipeline.ΦA spec1 c : sProp 𝕄)
      = iprop(iprop(iprop((∃ d, owns (c : Thread nD τ) accM fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [accM, owns_whole]; try rfl

end Cert.KernelIdeal.R1

end
-- ==== Proof.KI.R1.Runs.lean ====
/-
  The candidate gate tanh(LayerNorm(h·W_hg + x·W_xg + b_xg)), in the idealized kernel (pallas_call 1).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part two: the body's triple in each of its three cases.  On whole staging memrefs holding the input blocks the body
  runs without fault and gives the input buffers back unchanged.  What it does to the accumulator and to the output
  buffer depends on the point:
    k = 0      the accumulator, whatever it held, ends as its stores leave it; the output buffer is not touched;
    0 < k < 7  the accumulator, at known contents, ends as its stores leave it; the output buffer is not touched;
    k = 7      as before, and the output buffer, whatever it held, ends as its one store leaves it.
  The stores are not transcribed: each case is a subtype whose witness — the list of pieces stored, last first — the
  symbolic run of the body finds.
-/
import proofs.«116394_j17480516895034_2_alg».proof.Proof.KI.R1.Base

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- k = 0. -/
noncomputable def runFirst (c : Dev nD) (i : grid1.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : atFirst i) (h7 : ¬atLast i)
    (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) :
    { LA : List (View.Piece (Elt F) S1024x2048 .f32) //
      ∀ (xout : Vec F S1024x2048 .f32) (E : Set ℕ) (K : PUnit → sProp 𝕄),
        iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ owns (c : Thread nD τ) arg9 fullShare xout ∗ (∃ d, owns (c : Thread nD τ) arg10 fullShare d)
            ∗ (iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ owns (c : Thread nD τ) arg9 fullShare xout ∗ (∃ f, arg10.view.loc (c : Thread nD τ) ↦[arg10.view.set]{fullShare} arg10.view.writes (Elt F) f LA)) -∗ K ⟨⟩))
          ⊢ wp frame (wpE (defs₀ (F := F)) Variants.none c none) E (cc1_gate_kernel i arg2 harg2 arg3 harg3 arg4 harg4 arg5 harg5 arg6 harg6 arg7 harg7 arg8 harg8 arg9 harg9 arg10 harg10) K } := by
  refine ⟨?_, fun xout E K => ?run⟩
  case run =>
    simp only [cc1_gate_kernel_eq_skeleton]; unfold cc1_gate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo, %hfo, HO⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfo
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO]
    · iexists _; isplitr; · ipureintro; exact harg9.read_unread _
      iexact HO
    iexists _; iexact HS

set_option maxHeartbeats 2000000 in
/-- 0 < k < 7. -/
noncomputable def runMid (c : Dev nD) (i : grid1.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : ¬atLast i)
    (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) :
    { LA : List (View.Piece (Elt F) S1024x2048 .f32) //
      ∀ (xout : Vec F S1024x2048 .f32) (E : Set ℕ) (K : PUnit → sProp 𝕄),
        iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ owns (c : Thread nD τ) arg9 fullShare xout ∗ owns (c : Thread nD τ) arg10 fullShare xa
            ∗ (iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ owns (c : Thread nD τ) arg9 fullShare xout ∗ (∃ f, arg10.view.loc (c : Thread nD τ) ↦[arg10.view.set]{fullShare} arg10.view.writes (Elt F) f LA)) -∗ K ⟨⟩))
          ⊢ wp frame (wpE (defs₀ (F := F)) Variants.none c none) E (cc1_gate_kernel i arg2 harg2 arg3 harg3 arg4 harg4 arg5 harg5 arg6 harg6 arg7 harg7 arg8 harg8 arg9 harg9 arg10 harg10) K } := by
  refine ⟨?_, fun xout E K => ?run⟩
  case run =>
    simp only [cc1_gate_kernel_eq_skeleton]; unfold cc1_gate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfo; obtain rfl := harg10.eq_unread hfs
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO]
    · iexists _; isplitr; · ipureintro; exact harg9.read_unread _
      iexact HO
    iexists _; iexact HS

set_option maxHeartbeats 2000000 in
/-- k = 7. -/
noncomputable def runLast (c : Dev nD) (i : grid1.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i)
    (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) :
    Σ' (LO : List (View.Piece (Elt F) S1024x2048 .f32)), { LA : List (View.Piece (Elt F) S1024x2048 .f32) //
      ∀ (E : Set ℕ) (K : PUnit → sProp 𝕄),
        iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ (∃ d, owns (c : Thread nD τ) arg9 fullShare d) ∗ owns (c : Thread nD τ) arg10 fullShare xa
            ∗ (iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ (∃ f, arg9.view.loc (c : Thread nD τ) ↦[arg9.view.set]{fullShare} arg9.view.writes (Elt F) f LO) ∗ (∃ f, arg10.view.loc (c : Thread nD τ) ↦[arg10.view.set]{fullShare} arg10.view.writes (Elt F) f LA)) -∗ K ⟨⟩))
          ⊢ wp frame (wpE (defs₀ (F := F)) Variants.none c none) E (cc1_gate_kernel i arg2 harg2 arg3 harg3 arg4 harg4 arg5 harg5 arg6 harg6 arg7 harg7 arg8 harg8 arg9 harg9 arg10 harg10) K } := by
  refine ⟨?_, ?_, fun E K => ?run⟩
  case run =>
    simp only [cc1_gate_kernel_eq_skeleton]; unfold cc1_gate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%dO, %fo, -, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO]; · iexists _; iexact HO
    iexists _; iexact HS

end Cert.KernelIdeal.R1

end
-- ==== Proof.KI.R1.Data.lean ====
/-
  The candidate gate tanh(LayerNorm(h·W_hg + x·W_xg + b_xg)), in the idealized kernel (pallas_call 1).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part three: what the buffers hold point by point.  After the body at position n the accumulator holds what that
  point's case leaves in it — at k = 0 from nothing, at every later k from what position n − 1 left — and, at k = 7,
  the output buffer holds what its one store leaves.  The region's invariant carries the accumulator at these contents
  from one point to the next, beside the other scoped buffers no window stages and the generator register, neither of
  which the body touches.
-/
import proofs.«116394_j17480516895034_2_alg».proof.Proof.KI.R1.Runs

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem accCover_first (c : Dev nD) (i : grid1.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : atFirst i) (h7 : ¬atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (y : S1024x2048.Idx) :
    ∃ pc ∈ (runFirst c i arg2 harg2 arg3 harg3 arg4 harg4 arg5 harg5 arg6 harg6 arg7 harg7 arg8 harg8 arg9 harg9 arg10 harg10 h0 h7 xh xwh xx xwx xb xg xbe).1, y ∈ pc.1.set :=
  View.cover_of_tiledL (runFirst c i arg2 harg2 arg3 harg3 arg4 harg4 arg5 harg5 arg6 harg6 arg7 harg7 arg8 harg8 arg9 harg9 arg10 harg10 h0 h7 xh xwh xx xwx xb xg xbe).1 S1024x2048.size (by sl_kernel_rfl) y

/-- The accumulator after a point with k = 0. -/
def accFirst (c : Dev nD) (i : grid1.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : atFirst i) (h7 : ¬atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) : Vec F S1024x2048 .f32 :=
  accView.read (Elt F) (accView.writes (Elt F) accView.junk (runFirst c i arg2 harg2 arg3 harg3 arg4 harg4 arg5 harg5 arg6 harg6 arg7 harg7 arg8 harg8 arg9 harg9 arg10 harg10 h0 h7 xh xwh xx xwx xb xg xbe).1)

theorem accCover_mid (c : Dev nD) (i : grid1.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : ¬atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) (y : S1024x2048.Idx) :
    ∃ pc ∈ (runMid c i arg2 harg2 arg3 harg3 arg4 harg4 arg5 harg5 arg6 harg6 arg7 harg7 arg8 harg8 arg9 harg9 arg10 harg10 h0 h7 xh xwh xx xwx xb xg xbe xa).1, y ∈ pc.1.set :=
  View.cover_of_tiledL (runMid c i arg2 harg2 arg3 harg3 arg4 harg4 arg5 harg5 arg6 harg6 arg7 harg7 arg8 harg8 arg9 harg9 arg10 harg10 h0 h7 xh xwh xx xwx xb xg xbe xa).1 S1024x2048.size (by sl_kernel_rfl) y

/-- The accumulator after a point with 0 < k < 7. -/
def accMid (c : Dev nD) (i : grid1.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : ¬atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) : Vec F S1024x2048 .f32 :=
  accView.read (Elt F) (accView.writes (Elt F) accView.junk (runMid c i arg2 harg2 arg3 harg3 arg4 harg4 arg5 harg5 arg6 harg6 arg7 harg7 arg8 harg8 arg9 harg9 arg10 harg10 h0 h7 xh xwh xx xwx xb xg xbe xa).1)

theorem outCover_last (c : Dev nD) (i : grid1.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) (y : S1024x2048.Idx) :
    ∃ pc ∈ (runLast c i arg2 harg2 arg3 harg3 arg4 harg4 arg5 harg5 arg6 harg6 arg7 harg7 arg8 harg8 arg9 harg9 arg10 harg10 h0 h7 xh xwh xx xwx xb xg xbe xa).1, y ∈ pc.1.set :=
  View.cover_of_tiledL (runLast c i arg2 harg2 arg3 harg3 arg4 harg4 arg5 harg5 arg6 harg6 arg7 harg7 arg8 harg8 arg9 harg9 arg10 harg10 h0 h7 xh xwh xx xwx xb xg xbe xa).1 S1024x2048.size (by sl_kernel_rfl) y

/-- The output buffer after a point with k = 7. -/
def outLast (c : Dev nD) (i : grid1.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) : Vec F S1024x2048 .f32 :=
  outView.read (Elt F) (outView.writes (Elt F) outView.junk (runLast c i arg2 harg2 arg3 harg3 arg4 harg4 arg5 harg5 arg6 harg6 arg7 harg7 arg8 harg8 arg9 harg9 arg10 harg10 h0 h7 xh xwh xx xwx xb xg xbe xa).1)

theorem accCover_last (c : Dev nD) (i : grid1.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) (y : S1024x2048.Idx) :
    ∃ pc ∈ (runLast c i arg2 harg2 arg3 harg3 arg4 harg4 arg5 harg5 arg6 harg6 arg7 harg7 arg8 harg8 arg9 harg9 arg10 harg10 h0 h7 xh xwh xx xwx xb xg xbe xa).2.1, y ∈ pc.1.set :=
  View.cover_of_tiledL (runLast c i arg2 harg2 arg3 harg3 arg4 harg4 arg5 harg5 arg6 harg6 arg7 harg7 arg8 harg8 arg9 harg9 arg10 harg10 h0 h7 xh xwh xx xwx xb xg xbe xa).2.1 S1024x2048.size (by sl_kernel_rfl) y

/-- The accumulator after a point with k = 7. -/
def accLast (c : Dev nD) (i : grid1.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) : Vec F S1024x2048 .f32 :=
  accView.read (Elt F) (accView.writes (Elt F) accView.junk (runLast c i arg2 harg2 arg3 harg3 arg4 harg4 arg5 harg5 arg6 harg6 arg7 harg7 arg8 harg8 arg9 harg9 arg10 harg10 h0 h7 xh xwh xx xwx xb xg xbe xa).2.1)

/-! ## Point by point -/

/-- After the body at position `n`: the output buffer (meaningful at k = 7 only; elsewhere nothing consults it) and the
    accumulator. -/
def heldAt (c : Dev nD) : (n : ℕ) → n < cfg1.N → Vec F S1024x2048 .f32 × Vec F S1024x2048 .f32
  | 0, hn => (outView.read (Elt F) outView.junk,
      accFirst c (grid1.coords ⟨0, hn⟩) (m_h ⟨0, hn⟩) (hm_h ⟨0, hn⟩) (m_wh ⟨0, hn⟩) (hm_wh ⟨0, hn⟩) (m_x ⟨0, hn⟩) (hm_x ⟨0, hn⟩) (m_wx ⟨0, hn⟩) (hm_wx ⟨0, hn⟩) (m_b ⟨0, hn⟩) (hm_b ⟨0, hn⟩) (m_g ⟨0, hn⟩) (hm_g ⟨0, hn⟩) (m_be ⟨0, hn⟩) (hm_be ⟨0, hn⟩) (m_out ⟨0, hn⟩) (hm_out ⟨0, hn⟩) accM (Memref.isWhole_whole _) ((atFirst_iff ⟨0, hn⟩).mpr (Nat.zero_mod _)) (fun h => (fun h => by (try dsimp only at h); omega) ((atLast_iff ⟨0, hn⟩).mp h)) (blockAt V c 0 ⟨0, hn⟩) (blockAt V c 1 ⟨0, hn⟩) (blockAt V c 2 ⟨0, hn⟩) (blockAt V c 3 ⟨0, hn⟩) (blockAt V c 4 ⟨0, hn⟩) (blockAt V c 5 ⟨0, hn⟩) (blockAt V c 6 ⟨0, hn⟩))
  | n + 1, hn =>
    if h0 : (n + 1) % 8 = 0 then
      if h7 : (n + 1) % 8 = 7 then
        False.elim (by omega)
      else
        (outView.read (Elt F) outView.junk,
          accFirst c (grid1.coords ⟨n + 1, hn⟩) (m_h ⟨n + 1, hn⟩) (hm_h ⟨n + 1, hn⟩) (m_wh ⟨n + 1, hn⟩) (hm_wh ⟨n + 1, hn⟩) (m_x ⟨n + 1, hn⟩) (hm_x ⟨n + 1, hn⟩) (m_wx ⟨n + 1, hn⟩) (hm_wx ⟨n + 1, hn⟩) (m_b ⟨n + 1, hn⟩) (hm_b ⟨n + 1, hn⟩) (m_g ⟨n + 1, hn⟩) (hm_g ⟨n + 1, hn⟩) (m_be ⟨n + 1, hn⟩) (hm_be ⟨n + 1, hn⟩) (m_out ⟨n + 1, hn⟩) (hm_out ⟨n + 1, hn⟩) accM (Memref.isWhole_whole _) ((atFirst_iff ⟨n + 1, hn⟩).mpr h0) (fun h => h7 ((atLast_iff ⟨n + 1, hn⟩).mp h)) (blockAt V c 0 ⟨n + 1, hn⟩) (blockAt V c 1 ⟨n + 1, hn⟩) (blockAt V c 2 ⟨n + 1, hn⟩) (blockAt V c 3 ⟨n + 1, hn⟩) (blockAt V c 4 ⟨n + 1, hn⟩) (blockAt V c 5 ⟨n + 1, hn⟩) (blockAt V c 6 ⟨n + 1, hn⟩))
    else
      if h7 : (n + 1) % 8 = 7 then
        (outLast c (grid1.coords ⟨n + 1, hn⟩) (m_h ⟨n + 1, hn⟩) (hm_h ⟨n + 1, hn⟩) (m_wh ⟨n + 1, hn⟩) (hm_wh ⟨n + 1, hn⟩) (m_x ⟨n + 1, hn⟩) (hm_x ⟨n + 1, hn⟩) (m_wx ⟨n + 1, hn⟩) (hm_wx ⟨n + 1, hn⟩) (m_b ⟨n + 1, hn⟩) (hm_b ⟨n + 1, hn⟩) (m_g ⟨n + 1, hn⟩) (hm_g ⟨n + 1, hn⟩) (m_be ⟨n + 1, hn⟩) (hm_be ⟨n + 1, hn⟩) (m_out ⟨n + 1, hn⟩) (hm_out ⟨n + 1, hn⟩) accM (Memref.isWhole_whole _) (fun h => h0 ((atFirst_iff ⟨n + 1, hn⟩).mp h)) ((atLast_iff ⟨n + 1, hn⟩).mpr h7) (blockAt V c 0 ⟨n + 1, hn⟩) (blockAt V c 1 ⟨n + 1, hn⟩) (blockAt V c 2 ⟨n + 1, hn⟩) (blockAt V c 3 ⟨n + 1, hn⟩) (blockAt V c 4 ⟨n + 1, hn⟩) (blockAt V c 5 ⟨n + 1, hn⟩) (blockAt V c 6 ⟨n + 1, hn⟩) (heldAt c n (Nat.lt_of_succ_lt hn)).2,
          accLast c (grid1.coords ⟨n + 1, hn⟩) (m_h ⟨n + 1, hn⟩) (hm_h ⟨n + 1, hn⟩) (m_wh ⟨n + 1, hn⟩) (hm_wh ⟨n + 1, hn⟩) (m_x ⟨n + 1, hn⟩) (hm_x ⟨n + 1, hn⟩) (m_wx ⟨n + 1, hn⟩) (hm_wx ⟨n + 1, hn⟩) (m_b ⟨n + 1, hn⟩) (hm_b ⟨n + 1, hn⟩) (m_g ⟨n + 1, hn⟩) (hm_g ⟨n + 1, hn⟩) (m_be ⟨n + 1, hn⟩) (hm_be ⟨n + 1, hn⟩) (m_out ⟨n + 1, hn⟩) (hm_out ⟨n + 1, hn⟩) accM (Memref.isWhole_whole _) (fun h => h0 ((atFirst_iff ⟨n + 1, hn⟩).mp h)) ((atLast_iff ⟨n + 1, hn⟩).mpr h7) (blockAt V c 0 ⟨n + 1, hn⟩) (blockAt V c 1 ⟨n + 1, hn⟩) (blockAt V c 2 ⟨n + 1, hn⟩) (blockAt V c 3 ⟨n + 1, hn⟩) (blockAt V c 4 ⟨n + 1, hn⟩) (blockAt V c 5 ⟨n + 1, hn⟩) (blockAt V c 6 ⟨n + 1, hn⟩) (heldAt c n (Nat.lt_of_succ_lt hn)).2)
      else
        (outView.read (Elt F) outView.junk,
          accMid c (grid1.coords ⟨n + 1, hn⟩) (m_h ⟨n + 1, hn⟩) (hm_h ⟨n + 1, hn⟩) (m_wh ⟨n + 1, hn⟩) (hm_wh ⟨n + 1, hn⟩) (m_x ⟨n + 1, hn⟩) (hm_x ⟨n + 1, hn⟩) (m_wx ⟨n + 1, hn⟩) (hm_wx ⟨n + 1, hn⟩) (m_b ⟨n + 1, hn⟩) (hm_b ⟨n + 1, hn⟩) (m_g ⟨n + 1, hn⟩) (hm_g ⟨n + 1, hn⟩) (m_be ⟨n + 1, hn⟩) (hm_be ⟨n + 1, hn⟩) (m_out ⟨n + 1, hn⟩) (hm_out ⟨n + 1, hn⟩) accM (Memref.isWhole_whole _) (fun h => h0 ((atFirst_iff ⟨n + 1, hn⟩).mp h)) (fun h => h7 ((atLast_iff ⟨n + 1, hn⟩).mp h)) (blockAt V c 0 ⟨n + 1, hn⟩) (blockAt V c 1 ⟨n + 1, hn⟩) (blockAt V c 2 ⟨n + 1, hn⟩) (blockAt V c 3 ⟨n + 1, hn⟩) (blockAt V c 4 ⟨n + 1, hn⟩) (blockAt V c 5 ⟨n + 1, hn⟩) (blockAt V c 6 ⟨n + 1, hn⟩) (heldAt c n (Nat.lt_of_succ_lt hn)).2)

theorem heldAt_first (c : Dev nD) (t : Fin cfg1.N) (h0 : t.val % 8 = 0) (h7 : ¬t.val % 8 = 7) :
    heldAt V c t.val t.isLt = (outView.read (Elt F) outView.junk,
      accFirst c (grid1.coords t) (m_h t) (hm_h t) (m_wh t) (hm_wh t) (m_x t) (hm_x t) (m_wx t) (hm_wx t) (m_b t) (hm_b t) (m_g t) (hm_g t) (m_be t) (hm_be t) (m_out t) (hm_out t) accM (Memref.isWhole_whole _) ((atFirst_iff t).mpr h0) (fun h => h7 ((atLast_iff t).mp h)) (blockAt V c 0 t) (blockAt V c 1 t) (blockAt V c 2 t) (blockAt V c 3 t) (blockAt V c 4 t) (blockAt V c 5 t) (blockAt V c 6 t)) := by
  obtain ⟨n, hn⟩ := t
  cases n with
  | zero => exact rfl
  | succ n => exact (dif_pos h0).trans ((dif_neg h7).trans rfl)

theorem heldAt_mid (c : Dev nD) (t : Fin cfg1.N) (h0 : ¬t.val % 8 = 0) (h7 : ¬t.val % 8 = 7) :
    heldAt V c t.val t.isLt = (outView.read (Elt F) outView.junk,
      accMid c (grid1.coords t) (m_h t) (hm_h t) (m_wh t) (hm_wh t) (m_x t) (hm_x t) (m_wx t) (hm_wx t) (m_b t) (hm_b t) (m_g t) (hm_g t) (m_be t) (hm_be t) (m_out t) (hm_out t) accM (Memref.isWhole_whole _) (fun h => h0 ((atFirst_iff t).mp h)) (fun h => h7 ((atLast_iff t).mp h)) (blockAt V c 0 t) (blockAt V c 1 t) (blockAt V c 2 t) (blockAt V c 3 t) (blockAt V c 4 t) (blockAt V c 5 t) (blockAt V c 6 t)
        (heldAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h7).trans rfl)

theorem heldAt_last (c : Dev nD) (t : Fin cfg1.N) (h0 : ¬t.val % 8 = 0) (h7 : t.val % 8 = 7) :
    heldAt V c t.val t.isLt = (outLast c (grid1.coords t) (m_h t) (hm_h t) (m_wh t) (hm_wh t) (m_x t) (hm_x t) (m_wx t) (hm_wx t) (m_b t) (hm_b t) (m_g t) (hm_g t) (m_be t) (hm_be t) (m_out t) (hm_out t) accM (Memref.isWhole_whole _) (fun h => h0 ((atFirst_iff t).mp h)) ((atLast_iff t).mpr h7) (blockAt V c 0 t) (blockAt V c 1 t) (blockAt V c 2 t) (blockAt V c 3 t) (blockAt V c 4 t) (blockAt V c 5 t) (blockAt V c 6 t)
        (heldAt V c (t.val - 1) (Nat.lt_of_le_of_lt (Nat.sub_le _ _) t.isLt)).2,
      accLast c (grid1.coords t) (m_h t) (hm_h t) (m_wh t) (hm_wh t) (m_x t) (hm_x t) (m_wx t) (hm_wx t) (m_b t) (hm_b t) (m_g t) (hm_g t) (m_be t) (hm_be t) (m_out t) (hm_out t) accM (Memref.isWhole_whole _) (fun h => h0 ((atFirst_iff t).mp h)) ((atLast_iff t).mpr h7) (blockAt V c 0 t) (blockAt V c 1 t) (blockAt V c 2 t) (blockAt V c 3 t) (blockAt V c 4 t) (blockAt V c 5 t) (blockAt V c 6 t)
        (heldAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h7).trans rfl)

/-! ## The invariant -/

/-- Before position `n`: at the start what the launch hands the region; afterwards the accumulator at what position
    `n − 1` left in it, the other scoped buffers no window stages, and the generator register. -/
def inv (c : Dev nD) : (n : ℕ) → n ≤ cfg1.N → sProp 𝕄
  | 0, _ => Pipeline.ΦA spec1 c
  | n + 1, hn => iprop(iprop(owns (c : Thread nD τ) accM fullShare ((heldAt V c n hn).2)
      ∗ Pipeline.scopedRestBut (Ix := Unit) (Name := ℕ) (U := UR sig nD τ) (Lvl := ℕ) (Val := Elt F) spec1 c [cc1_scratch0]) ∗ (∃ r, prngReg c r))

theorem inv_zero (c : Dev nD) (n : ℕ) (h : n ≤ cfg1.N) (hz : n = 0) : inv V c n h = Pipeline.ΦA spec1 c := by
  subst hz; rfl

theorem inv_succ (c : Dev nD) (n : ℕ) (hn : n < cfg1.N) :
    inv V c (n + 1) hn = iprop(iprop(owns (c : Thread nD τ) accM fullShare ((heldAt V c n hn).2)
      ∗ Pipeline.scopedRestBut (Ix := Unit) (Name := ℕ) (U := UR sig nD τ) (Lvl := ℕ) (Val := Elt F) spec1 c [cc1_scratch0]) ∗ (∃ r, prngReg c r)) := rfl

theorem inv_pos (c : Dev nD) (n : ℕ) (h : n ≤ cfg1.N) (hz : n ≠ 0) :
    inv V c n h = iprop(iprop(owns (c : Thread nD τ) accM fullShare ((heldAt V c (n - 1) (by omega)).2)
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The region's proof data on core `c`: the arrays as the region finds them; after the body each input's buffer at its
    block and the output's at `heldAt`; the invariant above; nothing owed; full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => blockAt V c 6 t
    | ⟨7, _⟩ => (heldAt V c t.val t.isLt).1
  Φ t := inv V c t.val (Nat.le_of_lt_succ t.isLt)
  q _ := fullShare
  owed _ := 0

theorem dat_A (c : Dev nD) (w : Fin cfg1.W) : (dat V c).A w = V c (Pipeline.arrRef spec1 w) := by
  dsimp only [dat]

theorem inv_castSucc (c : Dev nD) (t : Fin cfg1.N) :
    (dat V c).Φ t.castSucc = inv V c t.val (Nat.le_of_lt t.isLt) := by
  dsimp only [dat]; simp only [Fin.coe_castSucc]

theorem after_h (c : Dev nD) (t : Fin cfg1.N) : (dat V c).after 0 t = blockAt V c 0 t := by dsimp only [dat]
theorem after_wh (c : Dev nD) (t : Fin cfg1.N) : (dat V c).after 1 t = blockAt V c 1 t := by dsimp only [dat]
theorem after_x (c : Dev nD) (t : Fin cfg1.N) : (dat V c).after 2 t = blockAt V c 2 t := by dsimp only [dat]
theorem after_wx (c : Dev nD) (t : Fin cfg1.N) : (dat V c).after 3 t = blockAt V c 3 t := by dsimp only [dat]
theorem after_b (c : Dev nD) (t : Fin cfg1.N) : (dat V c).after 4 t = blockAt V c 4 t := by dsimp only [dat]
theorem after_g (c : Dev nD) (t : Fin cfg1.N) : (dat V c).after 5 t = blockAt V c 5 t := by dsimp only [dat]
theorem after_be (c : Dev nD) (t : Fin cfg1.N) : (dat V c).after 6 t = blockAt V c 6 t := by dsimp only [dat]
theorem after_out (c : Dev nD) (t : Fin cfg1.N) : (dat V c).after 7 t = (heldAt V c t.val t.isLt).1 := by dsimp only [dat]

theorem before_h (c : Dev nD) (t : Fin cfg1.N) (d) : (dat V c).before 0 t d = blockAt V c 0 t :=
  in_h_of V (dat V c) (dat_A V c 0) (after_h V c) t d
theorem before_wh (c : Dev nD) (t : Fin cfg1.N) (d) : (dat V c).before 1 t d = blockAt V c 1 t :=
  in_wh_of V (dat V c) (dat_A V c 1) (after_wh V c) t d
theorem before_x (c : Dev nD) (t : Fin cfg1.N) (d) : (dat V c).before 2 t d = blockAt V c 2 t :=
  in_x_of V (dat V c) (dat_A V c 2) (after_x V c) t d
theorem before_wx (c : Dev nD) (t : Fin cfg1.N) (d) : (dat V c).before 3 t d = blockAt V c 3 t :=
  in_wx_of V (dat V c) (dat_A V c 3) (after_wx V c) t d
theorem before_b (c : Dev nD) (t : Fin cfg1.N) (d) : (dat V c).before 4 t d = blockAt V c 4 t :=
  in_b_of V (dat V c) (dat_A V c 4) (after_b V c) t d
theorem before_g (c : Dev nD) (t : Fin cfg1.N) (d) : (dat V c).before 5 t d = blockAt V c 5 t :=
  in_g_of V (dat V c) (dat_A V c 5) (after_g V c) t d
theorem before_be (c : Dev nD) (t : Fin cfg1.N) (d) : (dat V c).before 6 t d = blockAt V c 6 t :=
  in_be_of V (dat V c) (dat_A V c 6) (after_be V c) t d

end Cert.KernelIdeal.R1

end
-- ==== Proof.KI.R1.Body.lean ====
/-
  The candidate gate tanh(LayerNorm(h·W_hg + x·W_xg + b_xg)), in the idealized kernel (pallas_call 1).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part four: the body obligation at every point.  The pipeline hands the body the invariant, the input buffers (each
  holding its block) and the output buffer.  Which case the point is in is decided by its position modulo 8; the case's
  triple then applies.  The accumulator comes out of the invariant at what the previous point left (at anything at the
  very first point) and goes back in at this point's contents; the remaining scoped buffers and the generator register
  pass through untouched.
-/
import proofs.«116394_j17480516895034_2_alg».proof.Proof.KI.R1.Data

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (m_h t) fullShare ((dat V c).before 0 t d))
    ∗ (∃ d, owns (c : Thread nD τ) (m_wh t) fullShare ((dat V c).before 1 t d))
    ∗ (∃ d, owns (c : Thread nD τ) (m_x t) fullShare ((dat V c).before 2 t d))
    ∗ (∃ d, owns (c : Thread nD τ) (m_wx t) fullShare ((dat V c).before 3 t d))
    ∗ (∃ d, owns (c : Thread nD τ) (m_b t) fullShare ((dat V c).before 4 t d))
    ∗ (∃ d, owns (c : Thread nD τ) (m_g t) fullShare ((dat V c).before 5 t d))
    ∗ (∃ d, owns (c : Thread nD τ) (m_be t) fullShare ((dat V c).before 6 t d))
    ∗ (∃ d, owns (c : Thread nD τ) (m_out t) fullShare ((dat V c).before 7 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_h, before_wh, before_x, before_wx, before_b, before_g, before_be]
  rw [show (dat V c).owesAt () t.succ = (dat V c).owesAt () t.castSucc from rfl]
  rw [show (dat V c).Φ t.succ = inv V c (t.val + 1) t.isLt from rfl, inv_succ]
  have hN : t.val < 16 := lt_of_lt_of_eq t.isLt (show cfg1.N = 16 from N_1)
  rw [show (dat V c).leavesExact 0 t = owns (c : Thread nD τ) (m_h t) fullShare ((dat V c).after 0 t) from by
    unfold Dat.leavesExact; rw [live_h t], after_h]
  rw [show (dat V c).leavesExact 1 t = owns (c : Thread nD τ) (m_wh t) fullShare ((dat V c).after 1 t) from by
    unfold Dat.leavesExact; rw [live_wh t], after_wh]
  rw [show (dat V c).leavesExact 2 t = owns (c : Thread nD τ) (m_x t) fullShare ((dat V c).after 2 t) from by
    unfold Dat.leavesExact; rw [live_x t], after_x]
  rw [show (dat V c).leavesExact 3 t = owns (c : Thread nD τ) (m_wx t) fullShare ((dat V c).after 3 t) from by
    unfold Dat.leavesExact; rw [live_wx t], after_wx]
  rw [show (dat V c).leavesExact 4 t = owns (c : Thread nD τ) (m_b t) fullShare ((dat V c).after 4 t) from by
    unfold Dat.leavesExact; rw [live_b t], after_b]
  rw [show (dat V c).leavesExact 5 t = owns (c : Thread nD τ) (m_g t) fullShare ((dat V c).after 5 t) from by
    unfold Dat.leavesExact; rw [live_g t], after_g]
  rw [show (dat V c).leavesExact 6 t = owns (c : Thread nD τ) (m_be t) fullShare ((dat V c).after 6 t) from by
    unfold Dat.leavesExact; rw [live_be t], after_be]
  by_cases h0 : t.val % 8 = 0
  · have h7 : ¬t.val % 8 = 7 := by omega
    rw [Dat.leavesExact_idle (dat V c) 7 t (idle_out t (fun h => h7 ((atLast_iff t).mp h))) (noFlush_out t (fun h => h7 ((atLast_iff t).mp h)))]
    rw [heldAt_first V c t h0 h7]
    unfold accFirst; (try dsimp only)
    by_cases hz : t.val = 0
    · rw [inv_castSucc V c t, inv_zero V c _ _ hz, handed_eq]
      iintro ⟨⟨⟨HA, Hrest⟩, Hg⟩, Ho, ⟨%d0, H0⟩, ⟨%d1, H1⟩, ⟨%d2, H2⟩, ⟨%d3, H3⟩, ⟨%d4, H4⟩, ⟨%d5, H5⟩, ⟨%d6, H6⟩, ⟨%dO, HO⟩⟩
      iapply ((runFirst c (grid1.coords t) _ _ _ _ _ _ _ _ _ _ _ _ _ _ _ _ _ _ ((atFirst_iff t).mpr h0) (fun h => h7 ((atLast_iff t).mp h)) (blockAt V c 0 t) (blockAt V c 1 t) (blockAt V c 2 t) (blockAt V c 3 t) (blockAt V c 4 t) (blockAt V c 5 t) (blockAt V c 6 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HO]; · iexact HO
      isplitl [HA]; · iexact HA
      iintro ⟨H0, H1, H2, H3, H4, H5, H6, HO, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_first c _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact HO
    · rw [inv_castSucc V c t, inv_pos V c _ _ hz]
      iintro ⟨⟨⟨HA, Hrest⟩, Hg⟩, Ho, ⟨%d0, H0⟩, ⟨%d1, H1⟩, ⟨%d2, H2⟩, ⟨%d3, H3⟩, ⟨%d4, H4⟩, ⟨%d5, H5⟩, ⟨%d6, H6⟩, ⟨%dO, HO⟩⟩
      iapply ((runFirst c (grid1.coords t) _ _ _ _ _ _ _ _ _ _ _ _ _ _ _ _ _ _ ((atFirst_iff t).mpr h0) (fun h => h7 ((atLast_iff t).mp h)) (blockAt V c 0 t) (blockAt V c 1 t) (blockAt V c 2 t) (blockAt V c 3 t) (blockAt V c 4 t) (blockAt V c 5 t) (blockAt V c 6 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HO]; · iexact HO
      isplitl [HA]; · iexists _; iexact HA
      iintro ⟨H0, H1, H2, H3, H4, H5, H6, HO, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_first c _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact HO
  · have hz : t.val ≠ 0 := fun e => h0 (by rw [e])
    by_cases h7 : t.val % 8 = 7
    · rw [show (dat V c).leavesExact 7 t = owns (c : Thread nD τ) (m_out t) fullShare ((dat V c).after 7 t) from by
        unfold Dat.leavesExact; rw [live_out t ((atLast_iff t).mpr h7)], after_out]
      rw [heldAt_last V c t h0 h7]
      unfold outLast accLast; (try dsimp only)
      rw [inv_castSucc V c t, inv_pos V c _ _ hz]
      iintro ⟨⟨⟨HA, Hrest⟩, Hg⟩, Ho, ⟨%d0, H0⟩, ⟨%d1, H1⟩, ⟨%d2, H2⟩, ⟨%d3, H3⟩, ⟨%d4, H4⟩, ⟨%d5, H5⟩, ⟨%d6, H6⟩, ⟨%dO, HO⟩⟩
      iapply ((runLast c (grid1.coords t) _ _ _ _ _ _ _ _ _ _ _ _ _ _ _ _ _ _ (fun h => h0 ((atFirst_iff t).mp h)) ((atLast_iff t).mpr h7) (blockAt V c 0 t) (blockAt V c 1 t) (blockAt V c 2 t) (blockAt V c 3 t) (blockAt V c 4 t) (blockAt V c 5 t) (blockAt V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HO]; · iexists _; iexact HO
      isplitl [HA]; · iexact HA
      iintro ⟨H0, H1, H2, H3, H4, H5, H6, ⟨%eO, HO⟩, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_last c _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact HO
      ipureintro; exact View.read_writes_of_cover _ _ _ _ _ (outCover_last c _ _ _ _ _ _ _ _ _ _ _ _ _ _ _ _ _ _ _ _ _ _ _ _ _ _ _ _ _)
    · rw [Dat.leavesExact_idle (dat V c) 7 t (idle_out t (fun h => h7 ((atLast_iff t).mp h))) (noFlush_out t (fun h => h7 ((atLast_iff t).mp h)))]
      rw [heldAt_mid V c t h0 h7]
      unfold accMid; (try dsimp only)
      rw [inv_castSucc V c t, inv_pos V c _ _ hz]
      iintro ⟨⟨⟨HA, Hrest⟩, Hg⟩, Ho, ⟨%d0, H0⟩, ⟨%d1, H1⟩, ⟨%d2, H2⟩, ⟨%d3, H3⟩, ⟨%d4, H4⟩, ⟨%d5, H5⟩, ⟨%d6, H6⟩, ⟨%dO, HO⟩⟩
      iapply ((runMid c (grid1.coords t) _ _ _ _ _ _ _ _ _ _ _ _ _ _ _ _ _ _ (fun h => h0 ((atFirst_iff t).mp h)) (fun h => h7 ((atLast_iff t).mp h)) (blockAt V c 0 t) (blockAt V c 1 t) (blockAt V c 2 t) (blockAt V c 3 t) (blockAt V c 4 t) (blockAt V c 5 t) (blockAt V c 6 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HO]; · iexact HO
      isplitl [HA]; · iexact HA
      iintro ⟨H0, H1, H2, H3, H4, H5, H6, HO, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_mid c _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact HO

/-- The body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem inv_enter (c : Dev nD) : Pipeline.ΦA spec1 c ⊢ (dat V c).Φ 0 := by
  rw [show (dat V c).Φ 0 = inv V c 0 (Nat.zero_le _) from rfl, inv_zero V c 0 _ rfl]
  try exact Idealize.SL.BI.Entails.refl _

/-- After the last point the invariant gives that back: what the accumulator holds is forgotten. -/
theorem inv_leave (c : Dev nD) : (dat V c).Φ (Fin.last cfg1.N) ⊢ Pipeline.ΦA spec1 c := by
  have ht : (Fin.last cfg1.N).val ≠ 0 := by rw [Fin.val_last]; have : cfg1.N = 16 := N_1; omega
  rw [show (dat V c).Φ (Fin.last cfg1.N) = inv V c (Fin.last cfg1.N).val (Nat.le_of_lt_succ (Fin.last cfg1.N).isLt) from rfl,
    inv_pos V c _ _ ht, handed_eq]
  iintro ⟨⟨HA, Hrest⟩, Hg⟩
  isplitl [HA Hrest]
  · isplitl [HA]
    · iexists _; iexact HA
    iexact Hrest
  iexact Hg

end Cert.KernelIdeal.R1

end
-- ==== Proof.KI.R2.Base.lean ====
/-
  The input gate logistic(LayerNorm(h·W_hi + x·W_xi + b_xi)), in the idealized kernel (pallas_call 2).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part one, names: a window's block at a point read off the array as the region finds it; that an input's staging
  buffer holds its block at every point, fetched there or not; the two conditions k = 0 and k = 7 in closed form over
  the sixteen points; where the output window is idle; the staging and scratch memrefs the body is called with.
  Everything is stated at any float instance.
-/
import proofs.«116394_j17480516895034_2_alg».proof.Proof.Gen.KernelIdeal.Launch
import proofs.«116394_j17480516895034_2_alg».proof.Proof.Gen.KernelIdeal.Skeleton
import proofs.«116394_j17480516895034_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-- Window `w`'s block at point `t`, read off its array as the region finds it. -/
def blockAt (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's block is in its staging buffer at every point, for any proof data over these arrays whose body leaves it there. -/
theorem in_h_of {c : Dev nD} (dat : Dat τ (Elt F) Unit ℕ (UR sig nD τ) ℕ cfg2 c) (hA : dat.A 0 = V c (Pipeline.arrRef spec2 0))
    (hafter : ∀ t, dat.after 0 t = blockAt V c 0 t) (t : Fin cfg2.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's block is in its staging buffer at every point, for any proof data over these arrays whose body leaves it there. -/
theorem in_wh_of {c : Dev nD} (dat : Dat τ (Elt F) Unit ℕ (UR sig nD τ) ℕ cfg2 c) (hA : dat.A 1 = V c (Pipeline.arrRef spec2 1))
    (hafter : ∀ t, dat.after 1 t = blockAt V c 1 t) (t : Fin cfg2.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's block is in its staging buffer at every point, for any proof data over these arrays whose body leaves it there. -/
theorem in_x_of {c : Dev nD} (dat : Dat τ (Elt F) Unit ℕ (UR sig nD τ) ℕ cfg2 c) (hA : dat.A 2 = V c (Pipeline.arrRef spec2 2))
    (hafter : ∀ t, dat.after 2 t = blockAt V c 2 t) (t : Fin cfg2.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's block is in its staging buffer at every point, for any proof data over these arrays whose body leaves it there. -/
theorem in_wx_of {c : Dev nD} (dat : Dat τ (Elt F) Unit ℕ (UR sig nD τ) ℕ cfg2 c) (hA : dat.A 3 = V c (Pipeline.arrRef spec2 3))
    (hafter : ∀ t, dat.after 3 t = blockAt V c 3 t) (t : Fin cfg2.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's block is in its staging buffer at every point, for any proof data over these arrays whose body leaves it there. -/
theorem in_b_of {c : Dev nD} (dat : Dat τ (Elt F) Unit ℕ (UR sig nD τ) ℕ cfg2 c) (hA : dat.A 4 = V c (Pipeline.arrRef spec2 4))
    (hafter : ∀ t, dat.after 4 t = blockAt V c 4 t) (t : Fin cfg2.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- Input window 5's block is in its staging buffer at every point, for any proof data over these arrays whose body leaves it there. -/
theorem in_g_of {c : Dev nD} (dat : Dat τ (Elt F) Unit ℕ (UR sig nD τ) ℕ cfg2 c) (hA : dat.A 5 = V c (Pipeline.arrRef spec2 5))
    (hafter : ∀ t, dat.after 5 t = blockAt V c 5 t) (t : Fin cfg2.N) (d) : dat.before 5 t d = blockAt V c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-- Input window 6's block is in its staging buffer at every point, for any proof data over these arrays whose body leaves it there. -/
theorem in_be_of {c : Dev nD} (dat : Dat τ (Elt F) Unit ℕ (UR sig nD τ) ℕ cfg2 c) (hA : dat.A 6 = V c (Pipeline.arrRef spec2 6))
    (hafter : ∀ t, dat.after 6 t = blockAt V c 6 t) (t : Fin cfg2.N) (d) : dat.before 6 t d = blockAt V c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## The two conditions -/

/-- k = 0: the accumulator is cleared. -/
abbrev atFirst (i : grid2.Coords) : Prop := (Scalar.cmpi .ne (Scalar.extui (Scalar.cmpi .eq (BitVec.ofNat 32 (i 1).val) 0#32)) 0#32) = 1#1
theorem atFirst_iff : ∀ t : Fin cfg2.N, atFirst (grid2.coords t) ↔ t.val % 8 = 0 :=
  (by decide +kernel : ∀ t : Fin grid2.N, atFirst (grid2.coords t) ↔ t.val % 8 = 0)

/-- k = 7: the result is stored. -/
abbrev atLast (i : grid2.Coords) : Prop := k2_cond2 i = 1#1
theorem atLast_iff : ∀ t : Fin cfg2.N, atLast (grid2.coords t) ↔ t.val % 8 = 7 :=
  (by decide +kernel : ∀ t : Fin grid2.N, atLast (grid2.coords t) ↔ t.val % 8 = 7)

/-! ## Where the windows are idle -/

theorem live_h : ∀ t : Fin cfg2.N, cfg2.idle 0 (grid2.coords t) = false := by decide +kernel
theorem live_wh : ∀ t : Fin cfg2.N, cfg2.idle 1 (grid2.coords t) = false := by decide +kernel
theorem live_x : ∀ t : Fin cfg2.N, cfg2.idle 2 (grid2.coords t) = false := by decide +kernel
theorem live_wx : ∀ t : Fin cfg2.N, cfg2.idle 3 (grid2.coords t) = false := by decide +kernel
theorem live_b : ∀ t : Fin cfg2.N, cfg2.idle 4 (grid2.coords t) = false := by decide +kernel
theorem live_g : ∀ t : Fin cfg2.N, cfg2.idle 5 (grid2.coords t) = false := by decide +kernel
theorem live_be : ∀ t : Fin cfg2.N, cfg2.idle 6 (grid2.coords t) = false := by decide +kernel
/-- Away from k = 7 the output window is idle and not written back. -/
theorem idle_out : ∀ t : Fin cfg2.N, ¬atLast (grid2.coords t) → cfg2.idle 7 (grid2.coords t) = true := by decide +kernel
theorem noFlush_out : ∀ t : Fin cfg2.N, ¬atLast (grid2.coords t) → (cfg2.win 7).flush t = false := by decide +kernel
/-- At k = 7 it is live. -/
theorem live_out : ∀ t : Fin cfg2.N, atLast (grid2.coords t) → cfg2.idle 7 (grid2.coords t) = false := by decide +kernel

/-! ## The memrefs the body is called with -/

/-- One staging buffer of the output window, through which its contents are stated. -/
abbrev outView : View sig .tc .vmem S1024x2048 .f32 := (Memref.whole cc2_stg7_0 : Memref sig .tc .vmem S1024x2048 .f32).view
abbrev m_h (t : Fin cfg2.N) : Memref sig .tc .vmem S1024x256 .f32 := win2_0.stage (cfg2.slots t 0)
abbrev hm_h (t : Fin cfg2.N) : (m_h t).IsWhole := hstage2_0 ((cfg2.slots t 0).cast nbuf2_0)
abbrev m_wh (t : Fin cfg2.N) : Memref sig .tc .vmem S256x2048 .f32 := win2_1.stage (cfg2.slots t 1)
abbrev hm_wh (t : Fin cfg2.N) : (m_wh t).IsWhole := hstage2_1 ((cfg2.slots t 1).cast nbuf2_1)
abbrev m_x (t : Fin cfg2.N) : Memref sig .tc .vmem S1024x256 .f32 := win2_2.stage (cfg2.slots t 2)
abbrev hm_x (t : Fin cfg2.N) : (m_x t).IsWhole := hstage2_2 ((cfg2.slots t 2).cast nbuf2_2)
abbrev m_wx (t : Fin cfg2.N) : Memref sig .tc .vmem S256x2048 .f32 := win2_3.stage (cfg2.slots t 3)
abbrev hm_wx (t : Fin cfg2.N) : (m_wx t).IsWhole := hstage2_3 ((cfg2.slots t 3).cast nbuf2_3)
abbrev m_b (t : Fin cfg2.N) : Memref sig .tc .vmem S1x2048 .f32 := win2_4.stage (cfg2.slots t 4)
abbrev hm_b (t : Fin cfg2.N) : (m_b t).IsWhole := hstage2_4 ((cfg2.slots t 4).cast nbuf2_4)
abbrev m_g (t : Fin cfg2.N) : Memref sig .tc .vmem S1x2048 .f32 := win2_5.stage (cfg2.slots t 5)
abbrev hm_g (t : Fin cfg2.N) : (m_g t).IsWhole := hstage2_5 ((cfg2.slots t 5).cast nbuf2_5)
abbrev m_be (t : Fin cfg2.N) : Memref sig .tc .vmem S1x2048 .f32 := win2_6.stage (cfg2.slots t 6)
abbrev hm_be (t : Fin cfg2.N) : (m_be t).IsWhole := hstage2_6 ((cfg2.slots t 6).cast nbuf2_6)
abbrev m_out (t : Fin cfg2.N) : Memref sig .tc .vmem S1024x2048 .f32 := win2_7.stage (cfg2.slots t 7)
abbrev hm_out (t : Fin cfg2.N) : (m_out t).IsWhole := hstage2_7 ((cfg2.slots t 7).cast nbuf2_7)
/-- The accumulator: a whole scoped buffer of the kernel's own. -/
abbrev accM : Memref sig .tc .vmem S1024x2048 .f32 := Memref.whole cc2_scratch0
abbrev accView : View sig .tc .vmem S1024x2048 .f32 := accM.view

/-- What the launch hands the region, with the accumulator taken out of the scoped buffers no window stages. -/
theorem handed_eq (c : Dev nD) :
    (Pipeline.ΦA spec2 c : sProp 𝕄)
      = iprop(iprop(iprop((∃ d, owns (c : Thread nD τ) accM fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [accM, owns_whole]; try rfl

end Cert.KernelIdeal.R2

end
-- ==== Proof.KI.R2.Runs.lean ====
/-
  The input gate logistic(LayerNorm(h·W_hi + x·W_xi + b_xi)), in the idealized kernel (pallas_call 2).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part two: the body's triple in each of its three cases.  On whole staging memrefs holding the input blocks the body
  runs without fault and gives the input buffers back unchanged.  What it does to the accumulator and to the output
  buffer depends on the point:
    k = 0      the accumulator, whatever it held, ends as its stores leave it; the output buffer is not touched;
    0 < k < 7  the accumulator, at known contents, ends as its stores leave it; the output buffer is not touched;
    k = 7      as before, and the output buffer, whatever it held, ends as its one store leaves it.
  The stores are not transcribed: each case is a subtype whose witness — the list of pieces stored, last first — the
  symbolic run of the body finds.
-/
import proofs.«116394_j17480516895034_2_alg».proof.Proof.KI.R2.Base

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- k = 0. -/
noncomputable def runFirst (c : Dev nD) (i : grid2.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : atFirst i) (h7 : ¬atLast i)
    (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) :
    { LA : List (View.Piece (Elt F) S1024x2048 .f32) //
      ∀ (xout : Vec F S1024x2048 .f32) (E : Set ℕ) (K : PUnit → sProp 𝕄),
        iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ owns (c : Thread nD τ) arg9 fullShare xout ∗ (∃ d, owns (c : Thread nD τ) arg10 fullShare d)
            ∗ (iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ owns (c : Thread nD τ) arg9 fullShare xout ∗ (∃ f, arg10.view.loc (c : Thread nD τ) ↦[arg10.view.set]{fullShare} arg10.view.writes (Elt F) f LA)) -∗ K ⟨⟩))
          ⊢ wp frame (wpE (defs₀ (F := F)) Variants.none c none) E (cc2_gate_kernel i arg2 harg2 arg3 harg3 arg4 harg4 arg5 harg5 arg6 harg6 arg7 harg7 arg8 harg8 arg9 harg9 arg10 harg10) K } := by
  refine ⟨?_, fun xout E K => ?run⟩
  case run =>
    simp only [cc2_gate_kernel_eq_skeleton]; unfold cc2_gate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo, %hfo, HO⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfo
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO]
    · iexists _; isplitr; · ipureintro; exact harg9.read_unread _
      iexact HO
    iexists _; iexact HS

set_option maxHeartbeats 2000000 in
/-- 0 < k < 7. -/
noncomputable def runMid (c : Dev nD) (i : grid2.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : ¬atLast i)
    (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) :
    { LA : List (View.Piece (Elt F) S1024x2048 .f32) //
      ∀ (xout : Vec F S1024x2048 .f32) (E : Set ℕ) (K : PUnit → sProp 𝕄),
        iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ owns (c : Thread nD τ) arg9 fullShare xout ∗ owns (c : Thread nD τ) arg10 fullShare xa
            ∗ (iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ owns (c : Thread nD τ) arg9 fullShare xout ∗ (∃ f, arg10.view.loc (c : Thread nD τ) ↦[arg10.view.set]{fullShare} arg10.view.writes (Elt F) f LA)) -∗ K ⟨⟩))
          ⊢ wp frame (wpE (defs₀ (F := F)) Variants.none c none) E (cc2_gate_kernel i arg2 harg2 arg3 harg3 arg4 harg4 arg5 harg5 arg6 harg6 arg7 harg7 arg8 harg8 arg9 harg9 arg10 harg10) K } := by
  refine ⟨?_, fun xout E K => ?run⟩
  case run =>
    simp only [cc2_gate_kernel_eq_skeleton]; unfold cc2_gate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfo; obtain rfl := harg10.eq_unread hfs
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO]
    · iexists _; isplitr; · ipureintro; exact harg9.read_unread _
      iexact HO
    iexists _; iexact HS

set_option maxHeartbeats 2000000 in
/-- k = 7. -/
noncomputable def runLast (c : Dev nD) (i : grid2.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i)
    (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) :
    Σ' (LO : List (View.Piece (Elt F) S1024x2048 .f32)), { LA : List (View.Piece (Elt F) S1024x2048 .f32) //
      ∀ (E : Set ℕ) (K : PUnit → sProp 𝕄),
        iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ (∃ d, owns (c : Thread nD τ) arg9 fullShare d) ∗ owns (c : Thread nD τ) arg10 fullShare xa
            ∗ (iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ (∃ f, arg9.view.loc (c : Thread nD τ) ↦[arg9.view.set]{fullShare} arg9.view.writes (Elt F) f LO) ∗ (∃ f, arg10.view.loc (c : Thread nD τ) ↦[arg10.view.set]{fullShare} arg10.view.writes (Elt F) f LA)) -∗ K ⟨⟩))
          ⊢ wp frame (wpE (defs₀ (F := F)) Variants.none c none) E (cc2_gate_kernel i arg2 harg2 arg3 harg3 arg4 harg4 arg5 harg5 arg6 harg6 arg7 harg7 arg8 harg8 arg9 harg9 arg10 harg10) K } := by
  refine ⟨?_, ?_, fun E K => ?run⟩
  case run =>
    simp only [cc2_gate_kernel_eq_skeleton]; unfold cc2_gate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%dO, %fo, -, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO]; · iexists _; iexact HO
    iexists _; iexact HS

end Cert.KernelIdeal.R2

end
-- ==== Proof.KI.R2.Data.lean ====
/-
  The input gate logistic(LayerNorm(h·W_hi + x·W_xi + b_xi)), in the idealized kernel (pallas_call 2).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part three: what the buffers hold point by point.  After the body at position n the accumulator holds what that
  point's case leaves in it — at k = 0 from nothing, at every later k from what position n − 1 left — and, at k = 7,
  the output buffer holds what its one store leaves.  The region's invariant carries the accumulator at these contents
  from one point to the next, beside the other scoped buffers no window stages and the generator register, neither of
  which the body touches.
-/
import proofs.«116394_j17480516895034_2_alg».proof.Proof.KI.R2.Runs

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem accCover_first (c : Dev nD) (i : grid2.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : atFirst i) (h7 : ¬atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (y : S1024x2048.Idx) :
    ∃ pc ∈ (runFirst c i arg2 harg2 arg3 harg3 arg4 harg4 arg5 harg5 arg6 harg6 arg7 harg7 arg8 harg8 arg9 harg9 arg10 harg10 h0 h7 xh xwh xx xwx xb xg xbe).1, y ∈ pc.1.set :=
  View.cover_of_tiledL (runFirst c i arg2 harg2 arg3 harg3 arg4 harg4 arg5 harg5 arg6 harg6 arg7 harg7 arg8 harg8 arg9 harg9 arg10 harg10 h0 h7 xh xwh xx xwx xb xg xbe).1 S1024x2048.size (by sl_kernel_rfl) y

/-- The accumulator after a point with k = 0. -/
def accFirst (c : Dev nD) (i : grid2.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : atFirst i) (h7 : ¬atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) : Vec F S1024x2048 .f32 :=
  accView.read (Elt F) (accView.writes (Elt F) accView.junk (runFirst c i arg2 harg2 arg3 harg3 arg4 harg4 arg5 harg5 arg6 harg6 arg7 harg7 arg8 harg8 arg9 harg9 arg10 harg10 h0 h7 xh xwh xx xwx xb xg xbe).1)

theorem accCover_mid (c : Dev nD) (i : grid2.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : ¬atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) (y : S1024x2048.Idx) :
    ∃ pc ∈ (runMid c i arg2 harg2 arg3 harg3 arg4 harg4 arg5 harg5 arg6 harg6 arg7 harg7 arg8 harg8 arg9 harg9 arg10 harg10 h0 h7 xh xwh xx xwx xb xg xbe xa).1, y ∈ pc.1.set :=
  View.cover_of_tiledL (runMid c i arg2 harg2 arg3 harg3 arg4 harg4 arg5 harg5 arg6 harg6 arg7 harg7 arg8 harg8 arg9 harg9 arg10 harg10 h0 h7 xh xwh xx xwx xb xg xbe xa).1 S1024x2048.size (by sl_kernel_rfl) y

/-- The accumulator after a point with 0 < k < 7. -/
def accMid (c : Dev nD) (i : grid2.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : ¬atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) : Vec F S1024x2048 .f32 :=
  accView.read (Elt F) (accView.writes (Elt F) accView.junk (runMid c i arg2 harg2 arg3 harg3 arg4 harg4 arg5 harg5 arg6 harg6 arg7 harg7 arg8 harg8 arg9 harg9 arg10 harg10 h0 h7 xh xwh xx xwx xb xg xbe xa).1)

theorem outCover_last (c : Dev nD) (i : grid2.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) (y : S1024x2048.Idx) :
    ∃ pc ∈ (runLast c i arg2 harg2 arg3 harg3 arg4 harg4 arg5 harg5 arg6 harg6 arg7 harg7 arg8 harg8 arg9 harg9 arg10 harg10 h0 h7 xh xwh xx xwx xb xg xbe xa).1, y ∈ pc.1.set :=
  View.cover_of_tiledL (runLast c i arg2 harg2 arg3 harg3 arg4 harg4 arg5 harg5 arg6 harg6 arg7 harg7 arg8 harg8 arg9 harg9 arg10 harg10 h0 h7 xh xwh xx xwx xb xg xbe xa).1 S1024x2048.size (by sl_kernel_rfl) y

/-- The output buffer after a point with k = 7. -/
def outLast (c : Dev nD) (i : grid2.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) : Vec F S1024x2048 .f32 :=
  outView.read (Elt F) (outView.writes (Elt F) outView.junk (runLast c i arg2 harg2 arg3 harg3 arg4 harg4 arg5 harg5 arg6 harg6 arg7 harg7 arg8 harg8 arg9 harg9 arg10 harg10 h0 h7 xh xwh xx xwx xb xg xbe xa).1)

theorem accCover_last (c : Dev nD) (i : grid2.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) (y : S1024x2048.Idx) :
    ∃ pc ∈ (runLast c i arg2 harg2 arg3 harg3 arg4 harg4 arg5 harg5 arg6 harg6 arg7 harg7 arg8 harg8 arg9 harg9 arg10 harg10 h0 h7 xh xwh xx xwx xb xg xbe xa).2.1, y ∈ pc.1.set :=
  View.cover_of_tiledL (runLast c i arg2 harg2 arg3 harg3 arg4 harg4 arg5 harg5 arg6 harg6 arg7 harg7 arg8 harg8 arg9 harg9 arg10 harg10 h0 h7 xh xwh xx xwx xb xg xbe xa).2.1 S1024x2048.size (by sl_kernel_rfl) y

/-- The accumulator after a point with k = 7. -/
def accLast (c : Dev nD) (i : grid2.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) : Vec F S1024x2048 .f32 :=
  accView.read (Elt F) (accView.writes (Elt F) accView.junk (runLast c i arg2 harg2 arg3 harg3 arg4 harg4 arg5 harg5 arg6 harg6 arg7 harg7 arg8 harg8 arg9 harg9 arg10 harg10 h0 h7 xh xwh xx xwx xb xg xbe xa).2.1)

/-! ## Point by point -/

/-- After the body at position `n`: the output buffer (meaningful at k = 7 only; elsewhere nothing consults it) and the
    accumulator. -/
def heldAt (c : Dev nD) : (n : ℕ) → n < cfg2.N → Vec F S1024x2048 .f32 × Vec F S1024x2048 .f32
  | 0, hn => (outView.read (Elt F) outView.junk,
      accFirst c (grid2.coords ⟨0, hn⟩) (m_h ⟨0, hn⟩) (hm_h ⟨0, hn⟩) (m_wh ⟨0, hn⟩) (hm_wh ⟨0, hn⟩) (m_x ⟨0, hn⟩) (hm_x ⟨0, hn⟩) (m_wx ⟨0, hn⟩) (hm_wx ⟨0, hn⟩) (m_b ⟨0, hn⟩) (hm_b ⟨0, hn⟩) (m_g ⟨0, hn⟩) (hm_g ⟨0, hn⟩) (m_be ⟨0, hn⟩) (hm_be ⟨0, hn⟩) (m_out ⟨0, hn⟩) (hm_out ⟨0, hn⟩) accM (Memref.isWhole_whole _) ((atFirst_iff ⟨0, hn⟩).mpr (Nat.zero_mod _)) (fun h => (fun h => by (try dsimp only at h); omega) ((atLast_iff ⟨0, hn⟩).mp h)) (blockAt V c 0 ⟨0, hn⟩) (blockAt V c 1 ⟨0, hn⟩) (blockAt V c 2 ⟨0, hn⟩) (blockAt V c 3 ⟨0, hn⟩) (blockAt V c 4 ⟨0, hn⟩) (blockAt V c 5 ⟨0, hn⟩) (blockAt V c 6 ⟨0, hn⟩))
  | n + 1, hn =>
    if h0 : (n + 1) % 8 = 0 then
      if h7 : (n + 1) % 8 = 7 then
        False.elim (by omega)
      else
        (outView.read (Elt F) outView.junk,
          accFirst c (grid2.coords ⟨n + 1, hn⟩) (m_h ⟨n + 1, hn⟩) (hm_h ⟨n + 1, hn⟩) (m_wh ⟨n + 1, hn⟩) (hm_wh ⟨n + 1, hn⟩) (m_x ⟨n + 1, hn⟩) (hm_x ⟨n + 1, hn⟩) (m_wx ⟨n + 1, hn⟩) (hm_wx ⟨n + 1, hn⟩) (m_b ⟨n + 1, hn⟩) (hm_b ⟨n + 1, hn⟩) (m_g ⟨n + 1, hn⟩) (hm_g ⟨n + 1, hn⟩) (m_be ⟨n + 1, hn⟩) (hm_be ⟨n + 1, hn⟩) (m_out ⟨n + 1, hn⟩) (hm_out ⟨n + 1, hn⟩) accM (Memref.isWhole_whole _) ((atFirst_iff ⟨n + 1, hn⟩).mpr h0) (fun h => h7 ((atLast_iff ⟨n + 1, hn⟩).mp h)) (blockAt V c 0 ⟨n + 1, hn⟩) (blockAt V c 1 ⟨n + 1, hn⟩) (blockAt V c 2 ⟨n + 1, hn⟩) (blockAt V c 3 ⟨n + 1, hn⟩) (blockAt V c 4 ⟨n + 1, hn⟩) (blockAt V c 5 ⟨n + 1, hn⟩) (blockAt V c 6 ⟨n + 1, hn⟩))
    else
      if h7 : (n + 1) % 8 = 7 then
        (outLast c (grid2.coords ⟨n + 1, hn⟩) (m_h ⟨n + 1, hn⟩) (hm_h ⟨n + 1, hn⟩) (m_wh ⟨n + 1, hn⟩) (hm_wh ⟨n + 1, hn⟩) (m_x ⟨n + 1, hn⟩) (hm_x ⟨n + 1, hn⟩) (m_wx ⟨n + 1, hn⟩) (hm_wx ⟨n + 1, hn⟩) (m_b ⟨n + 1, hn⟩) (hm_b ⟨n + 1, hn⟩) (m_g ⟨n + 1, hn⟩) (hm_g ⟨n + 1, hn⟩) (m_be ⟨n + 1, hn⟩) (hm_be ⟨n + 1, hn⟩) (m_out ⟨n + 1, hn⟩) (hm_out ⟨n + 1, hn⟩) accM (Memref.isWhole_whole _) (fun h => h0 ((atFirst_iff ⟨n + 1, hn⟩).mp h)) ((atLast_iff ⟨n + 1, hn⟩).mpr h7) (blockAt V c 0 ⟨n + 1, hn⟩) (blockAt V c 1 ⟨n + 1, hn⟩) (blockAt V c 2 ⟨n + 1, hn⟩) (blockAt V c 3 ⟨n + 1, hn⟩) (blockAt V c 4 ⟨n + 1, hn⟩) (blockAt V c 5 ⟨n + 1, hn⟩) (blockAt V c 6 ⟨n + 1, hn⟩) (heldAt c n (Nat.lt_of_succ_lt hn)).2,
          accLast c (grid2.coords ⟨n + 1, hn⟩) (m_h ⟨n + 1, hn⟩) (hm_h ⟨n + 1, hn⟩) (m_wh ⟨n + 1, hn⟩) (hm_wh ⟨n + 1, hn⟩) (m_x ⟨n + 1, hn⟩) (hm_x ⟨n + 1, hn⟩) (m_wx ⟨n + 1, hn⟩) (hm_wx ⟨n + 1, hn⟩) (m_b ⟨n + 1, hn⟩) (hm_b ⟨n + 1, hn⟩) (m_g ⟨n + 1, hn⟩) (hm_g ⟨n + 1, hn⟩) (m_be ⟨n + 1, hn⟩) (hm_be ⟨n + 1, hn⟩) (m_out ⟨n + 1, hn⟩) (hm_out ⟨n + 1, hn⟩) accM (Memref.isWhole_whole _) (fun h => h0 ((atFirst_iff ⟨n + 1, hn⟩).mp h)) ((atLast_iff ⟨n + 1, hn⟩).mpr h7) (blockAt V c 0 ⟨n + 1, hn⟩) (blockAt V c 1 ⟨n + 1, hn⟩) (blockAt V c 2 ⟨n + 1, hn⟩) (blockAt V c 3 ⟨n + 1, hn⟩) (blockAt V c 4 ⟨n + 1, hn⟩) (blockAt V c 5 ⟨n + 1, hn⟩) (blockAt V c 6 ⟨n + 1, hn⟩) (heldAt c n (Nat.lt_of_succ_lt hn)).2)
      else
        (outView.read (Elt F) outView.junk,
          accMid c (grid2.coords ⟨n + 1, hn⟩) (m_h ⟨n + 1, hn⟩) (hm_h ⟨n + 1, hn⟩) (m_wh ⟨n + 1, hn⟩) (hm_wh ⟨n + 1, hn⟩) (m_x ⟨n + 1, hn⟩) (hm_x ⟨n + 1, hn⟩) (m_wx ⟨n + 1, hn⟩) (hm_wx ⟨n + 1, hn⟩) (m_b ⟨n + 1, hn⟩) (hm_b ⟨n + 1, hn⟩) (m_g ⟨n + 1, hn⟩) (hm_g ⟨n + 1, hn⟩) (m_be ⟨n + 1, hn⟩) (hm_be ⟨n + 1, hn⟩) (m_out ⟨n + 1, hn⟩) (hm_out ⟨n + 1, hn⟩) accM (Memref.isWhole_whole _) (fun h => h0 ((atFirst_iff ⟨n + 1, hn⟩).mp h)) (fun h => h7 ((atLast_iff ⟨n + 1, hn⟩).mp h)) (blockAt V c 0 ⟨n + 1, hn⟩) (blockAt V c 1 ⟨n + 1, hn⟩) (blockAt V c 2 ⟨n + 1, hn⟩) (blockAt V c 3 ⟨n + 1, hn⟩) (blockAt V c 4 ⟨n + 1, hn⟩) (blockAt V c 5 ⟨n + 1, hn⟩) (blockAt V c 6 ⟨n + 1, hn⟩) (heldAt c n (Nat.lt_of_succ_lt hn)).2)

theorem heldAt_first (c : Dev nD) (t : Fin cfg2.N) (h0 : t.val % 8 = 0) (h7 : ¬t.val % 8 = 7) :
    heldAt V c t.val t.isLt = (outView.read (Elt F) outView.junk,
      accFirst c (grid2.coords t) (m_h t) (hm_h t) (m_wh t) (hm_wh t) (m_x t) (hm_x t) (m_wx t) (hm_wx t) (m_b t) (hm_b t) (m_g t) (hm_g t) (m_be t) (hm_be t) (m_out t) (hm_out t) accM (Memref.isWhole_whole _) ((atFirst_iff t).mpr h0) (fun h => h7 ((atLast_iff t).mp h)) (blockAt V c 0 t) (blockAt V c 1 t) (blockAt V c 2 t) (blockAt V c 3 t) (blockAt V c 4 t) (blockAt V c 5 t) (blockAt V c 6 t)) := by
  obtain ⟨n, hn⟩ := t
  cases n with
  | zero => exact rfl
  | succ n => exact (dif_pos h0).trans ((dif_neg h7).trans rfl)

theorem heldAt_mid (c : Dev nD) (t : Fin cfg2.N) (h0 : ¬t.val % 8 = 0) (h7 : ¬t.val % 8 = 7) :
    heldAt V c t.val t.isLt = (outView.read (Elt F) outView.junk,
      accMid c (grid2.coords t) (m_h t) (hm_h t) (m_wh t) (hm_wh t) (m_x t) (hm_x t) (m_wx t) (hm_wx t) (m_b t) (hm_b t) (m_g t) (hm_g t) (m_be t) (hm_be t) (m_out t) (hm_out t) accM (Memref.isWhole_whole _) (fun h => h0 ((atFirst_iff t).mp h)) (fun h => h7 ((atLast_iff t).mp h)) (blockAt V c 0 t) (blockAt V c 1 t) (blockAt V c 2 t) (blockAt V c 3 t) (blockAt V c 4 t) (blockAt V c 5 t) (blockAt V c 6 t)
        (heldAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h7).trans rfl)

theorem heldAt_last (c : Dev nD) (t : Fin cfg2.N) (h0 : ¬t.val % 8 = 0) (h7 : t.val % 8 = 7) :
    heldAt V c t.val t.isLt = (outLast c (grid2.coords t) (m_h t) (hm_h t) (m_wh t) (hm_wh t) (m_x t) (hm_x t) (m_wx t) (hm_wx t) (m_b t) (hm_b t) (m_g t) (hm_g t) (m_be t) (hm_be t) (m_out t) (hm_out t) accM (Memref.isWhole_whole _) (fun h => h0 ((atFirst_iff t).mp h)) ((atLast_iff t).mpr h7) (blockAt V c 0 t) (blockAt V c 1 t) (blockAt V c 2 t) (blockAt V c 3 t) (blockAt V c 4 t) (blockAt V c 5 t) (blockAt V c 6 t)
        (heldAt V c (t.val - 1) (Nat.lt_of_le_of_lt (Nat.sub_le _ _) t.isLt)).2,
      accLast c (grid2.coords t) (m_h t) (hm_h t) (m_wh t) (hm_wh t) (m_x t) (hm_x t) (m_wx t) (hm_wx t) (m_b t) (hm_b t) (m_g t) (hm_g t) (m_be t) (hm_be t) (m_out t) (hm_out t) accM (Memref.isWhole_whole _) (fun h => h0 ((atFirst_iff t).mp h)) ((atLast_iff t).mpr h7) (blockAt V c 0 t) (blockAt V c 1 t) (blockAt V c 2 t) (blockAt V c 3 t) (blockAt V c 4 t) (blockAt V c 5 t) (blockAt V c 6 t)
        (heldAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h7).trans rfl)

/-! ## The invariant -/

/-- Before position `n`: at the start what the launch hands the region; afterwards the accumulator at what position
    `n − 1` left in it, the other scoped buffers no window stages, and the generator register. -/
def inv (c : Dev nD) : (n : ℕ) → n ≤ cfg2.N → sProp 𝕄
  | 0, _ => Pipeline.ΦA spec2 c
  | n + 1, hn => iprop(iprop(owns (c : Thread nD τ) accM fullShare ((heldAt V c n hn).2)
      ∗ Pipeline.scopedRestBut (Ix := Unit) (Name := ℕ) (U := UR sig nD τ) (Lvl := ℕ) (Val := Elt F) spec2 c [cc2_scratch0]) ∗ (∃ r, prngReg c r))

theorem inv_zero (c : Dev nD) (n : ℕ) (h : n ≤ cfg2.N) (hz : n = 0) : inv V c n h = Pipeline.ΦA spec2 c := by
  subst hz; rfl

theorem inv_succ (c : Dev nD) (n : ℕ) (hn : n < cfg2.N) :
    inv V c (n + 1) hn = iprop(iprop(owns (c : Thread nD τ) accM fullShare ((heldAt V c n hn).2)
      ∗ Pipeline.scopedRestBut (Ix := Unit) (Name := ℕ) (U := UR sig nD τ) (Lvl := ℕ) (Val := Elt F) spec2 c [cc2_scratch0]) ∗ (∃ r, prngReg c r)) := rfl

theorem inv_pos (c : Dev nD) (n : ℕ) (h : n ≤ cfg2.N) (hz : n ≠ 0) :
    inv V c n h = iprop(iprop(owns (c : Thread nD τ) accM fullShare ((heldAt V c (n - 1) (by omega)).2)
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The region's proof data on core `c`: the arrays as the region finds them; after the body each input's buffer at its
    block and the output's at `heldAt`; the invariant above; nothing owed; full shares. -/
def dat (c : Dev nD) : Dat τ (Elt F) Unit ℕ (UR sig nD τ) ℕ cfg2 c where
  A w := V c (Pipeline.arrRef spec2 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => blockAt V c 6 t
    | ⟨7, _⟩ => (heldAt V c t.val t.isLt).1
  Φ t := inv V c t.val (Nat.le_of_lt_succ t.isLt)
  q _ := fullShare
  owed _ := 0

theorem dat_A (c : Dev nD) (w : Fin cfg2.W) : (dat V c).A w = V c (Pipeline.arrRef spec2 w) := by
  dsimp only [dat]

theorem inv_castSucc (c : Dev nD) (t : Fin cfg2.N) :
    (dat V c).Φ t.castSucc = inv V c t.val (Nat.le_of_lt t.isLt) := by
  dsimp only [dat]; simp only [Fin.coe_castSucc]

theorem after_h (c : Dev nD) (t : Fin cfg2.N) : (dat V c).after 0 t = blockAt V c 0 t := by dsimp only [dat]
theorem after_wh (c : Dev nD) (t : Fin cfg2.N) : (dat V c).after 1 t = blockAt V c 1 t := by dsimp only [dat]
theorem after_x (c : Dev nD) (t : Fin cfg2.N) : (dat V c).after 2 t = blockAt V c 2 t := by dsimp only [dat]
theorem after_wx (c : Dev nD) (t : Fin cfg2.N) : (dat V c).after 3 t = blockAt V c 3 t := by dsimp only [dat]
theorem after_b (c : Dev nD) (t : Fin cfg2.N) : (dat V c).after 4 t = blockAt V c 4 t := by dsimp only [dat]
theorem after_g (c : Dev nD) (t : Fin cfg2.N) : (dat V c).after 5 t = blockAt V c 5 t := by dsimp only [dat]
theorem after_be (c : Dev nD) (t : Fin cfg2.N) : (dat V c).after 6 t = blockAt V c 6 t := by dsimp only [dat]
theorem after_out (c : Dev nD) (t : Fin cfg2.N) : (dat V c).after 7 t = (heldAt V c t.val t.isLt).1 := by dsimp only [dat]

theorem before_h (c : Dev nD) (t : Fin cfg2.N) (d) : (dat V c).before 0 t d = blockAt V c 0 t :=
  in_h_of V (dat V c) (dat_A V c 0) (after_h V c) t d
theorem before_wh (c : Dev nD) (t : Fin cfg2.N) (d) : (dat V c).before 1 t d = blockAt V c 1 t :=
  in_wh_of V (dat V c) (dat_A V c 1) (after_wh V c) t d
theorem before_x (c : Dev nD) (t : Fin cfg2.N) (d) : (dat V c).before 2 t d = blockAt V c 2 t :=
  in_x_of V (dat V c) (dat_A V c 2) (after_x V c) t d
theorem before_wx (c : Dev nD) (t : Fin cfg2.N) (d) : (dat V c).before 3 t d = blockAt V c 3 t :=
  in_wx_of V (dat V c) (dat_A V c 3) (after_wx V c) t d
theorem before_b (c : Dev nD) (t : Fin cfg2.N) (d) : (dat V c).before 4 t d = blockAt V c 4 t :=
  in_b_of V (dat V c) (dat_A V c 4) (after_b V c) t d
theorem before_g (c : Dev nD) (t : Fin cfg2.N) (d) : (dat V c).before 5 t d = blockAt V c 5 t :=
  in_g_of V (dat V c) (dat_A V c 5) (after_g V c) t d
theorem before_be (c : Dev nD) (t : Fin cfg2.N) (d) : (dat V c).before 6 t d = blockAt V c 6 t :=
  in_be_of V (dat V c) (dat_A V c 6) (after_be V c) t d

end Cert.KernelIdeal.R2

end
-- ==== Proof.KI.R2.Body.lean ====
/-
  The input gate logistic(LayerNorm(h·W_hi + x·W_xi + b_xi)), in the idealized kernel (pallas_call 2).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part four: the body obligation at every point.  The pipeline hands the body the invariant, the input buffers (each
  holding its block) and the output buffer.  Which case the point is in is decided by its position modulo 8; the case's
  triple then applies.  The accumulator comes out of the invariant at what the previous point left (at anything at the
  very first point) and goes back in at this point's contents; the remaining scoped buffers and the generator register
  pass through untouched.
-/
import proofs.«116394_j17480516895034_2_alg».proof.Proof.KI.R2.Data

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (m_h t) fullShare ((dat V c).before 0 t d))
    ∗ (∃ d, owns (c : Thread nD τ) (m_wh t) fullShare ((dat V c).before 1 t d))
    ∗ (∃ d, owns (c : Thread nD τ) (m_x t) fullShare ((dat V c).before 2 t d))
    ∗ (∃ d, owns (c : Thread nD τ) (m_wx t) fullShare ((dat V c).before 3 t d))
    ∗ (∃ d, owns (c : Thread nD τ) (m_b t) fullShare ((dat V c).before 4 t d))
    ∗ (∃ d, owns (c : Thread nD τ) (m_g t) fullShare ((dat V c).before 5 t d))
    ∗ (∃ d, owns (c : Thread nD τ) (m_be t) fullShare ((dat V c).before 6 t d))
    ∗ (∃ d, owns (c : Thread nD τ) (m_out t) fullShare ((dat V c).before 7 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 4800000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_h, before_wh, before_x, before_wx, before_b, before_g, before_be]
  rw [show (dat V c).owesAt () t.succ = (dat V c).owesAt () t.castSucc from rfl]
  rw [show (dat V c).Φ t.succ = inv V c (t.val + 1) t.isLt from rfl, inv_succ]
  have hN : t.val < 16 := lt_of_lt_of_eq t.isLt (show cfg2.N = 16 from N_2)
  rw [show (dat V c).leavesExact 0 t = owns (c : Thread nD τ) (m_h t) fullShare ((dat V c).after 0 t) from by
    unfold Dat.leavesExact; rw [live_h t], after_h]
  rw [show (dat V c).leavesExact 1 t = owns (c : Thread nD τ) (m_wh t) fullShare ((dat V c).after 1 t) from by
    unfold Dat.leavesExact; rw [live_wh t], after_wh]
  rw [show (dat V c).leavesExact 2 t = owns (c : Thread nD τ) (m_x t) fullShare ((dat V c).after 2 t) from by
    unfold Dat.leavesExact; rw [live_x t], after_x]
  rw [show (dat V c).leavesExact 3 t = owns (c : Thread nD τ) (m_wx t) fullShare ((dat V c).after 3 t) from by
    unfold Dat.leavesExact; rw [live_wx t], after_wx]
  rw [show (dat V c).leavesExact 4 t = owns (c : Thread nD τ) (m_b t) fullShare ((dat V c).after 4 t) from by
    unfold Dat.leavesExact; rw [live_b t], after_b]
  rw [show (dat V c).leavesExact 5 t = owns (c : Thread nD τ) (m_g t) fullShare ((dat V c).after 5 t) from by
    unfold Dat.leavesExact; rw [live_g t], after_g]
  rw [show (dat V c).leavesExact 6 t = owns (c : Thread nD τ) (m_be t) fullShare ((dat V c).after 6 t) from by
    unfold Dat.leavesExact; rw [live_be t], after_be]
  by_cases h0 : t.val % 8 = 0
  · have h7 : ¬t.val % 8 = 7 := by omega
    rw [Dat.leavesExact_idle (dat V c) 7 t (idle_out t (fun h => h7 ((atLast_iff t).mp h))) (noFlush_out t (fun h => h7 ((atLast_iff t).mp h)))]
    rw [heldAt_first V c t h0 h7]
    unfold accFirst; (try dsimp only)
    by_cases hz : t.val = 0
    · rw [inv_castSucc V c t, inv_zero V c _ _ hz, handed_eq]
      iintro ⟨⟨⟨HA, Hrest⟩, Hg⟩, Ho, ⟨%d0, H0⟩, ⟨%d1, H1⟩, ⟨%d2, H2⟩, ⟨%d3, H3⟩, ⟨%d4, H4⟩, ⟨%d5, H5⟩, ⟨%d6, H6⟩, ⟨%dO, HO⟩⟩
      iapply ((runFirst c (grid2.coords t) _ _ _ _ _ _ _ _ _ _ _ _ _ _ _ _ _ _ ((atFirst_iff t).mpr h0) (fun h => h7 ((atLast_iff t).mp h)) (blockAt V c 0 t) (blockAt V c 1 t) (blockAt V c 2 t) (blockAt V c 3 t) (blockAt V c 4 t) (blockAt V c 5 t) (blockAt V c 6 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HO]; · iexact HO
      isplitl [HA]; · iexact HA
      iintro ⟨H0, H1, H2, H3, H4, H5, H6, HO, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_first c _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact HO
    · rw [inv_castSucc V c t, inv_pos V c _ _ hz]
      iintro ⟨⟨⟨HA, Hrest⟩, Hg⟩, Ho, ⟨%d0, H0⟩, ⟨%d1, H1⟩, ⟨%d2, H2⟩, ⟨%d3, H3⟩, ⟨%d4, H4⟩, ⟨%d5, H5⟩, ⟨%d6, H6⟩, ⟨%dO, HO⟩⟩
      iapply ((runFirst c (grid2.coords t) _ _ _ _ _ _ _ _ _ _ _ _ _ _ _ _ _ _ ((atFirst_iff t).mpr h0) (fun h => h7 ((atLast_iff t).mp h)) (blockAt V c 0 t) (blockAt V c 1 t) (blockAt V c 2 t) (blockAt V c 3 t) (blockAt V c 4 t) (blockAt V c 5 t) (blockAt V c 6 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HO]; · iexact HO
      isplitl [HA]; · iexists _; iexact HA
      iintro ⟨H0, H1, H2, H3, H4, H5, H6, HO, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_first c _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact HO
  · have hz : t.val ≠ 0 := fun e => h0 (by rw [e])
    by_cases h7 : t.val % 8 = 7
    · rw [show (dat V c).leavesExact 7 t = owns (c : Thread nD τ) (m_out t) fullShare ((dat V c).after 7 t) from by
        unfold Dat.leavesExact; rw [live_out t ((atLast_iff t).mpr h7)], after_out]
      rw [heldAt_last V c t h0 h7]
      unfold outLast accLast; (try dsimp only)
      rw [inv_castSucc V c t, inv_pos V c _ _ hz]
      iintro ⟨⟨⟨HA, Hrest⟩, Hg⟩, Ho, ⟨%d0, H0⟩, ⟨%d1, H1⟩, ⟨%d2, H2⟩, ⟨%d3, H3⟩, ⟨%d4, H4⟩, ⟨%d5, H5⟩, ⟨%d6, H6⟩, ⟨%dO, HO⟩⟩
      iapply ((runLast c (grid2.coords t) _ _ _ _ _ _ _ _ _ _ _ _ _ _ _ _ _ _ (fun h => h0 ((atFirst_iff t).mp h)) ((atLast_iff t).mpr h7) (blockAt V c 0 t) (blockAt V c 1 t) (blockAt V c 2 t) (blockAt V c 3 t) (blockAt V c 4 t) (blockAt V c 5 t) (blockAt V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HO]; · iexists _; iexact HO
      isplitl [HA]; · iexact HA
      iintro ⟨H0, H1, H2, H3, H4, H5, H6, ⟨%eO, HO⟩, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_last c _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact HO
      ipureintro; exact View.read_writes_of_cover _ _ _ _ _ (outCover_last c _ _ _ _ _ _ _ _ _ _ _ _ _ _ _ _ _ _ _ _ _ _ _ _ _ _ _ _ _)
    · rw [Dat.leavesExact_idle (dat V c) 7 t (idle_out t (fun h => h7 ((atLast_iff t).mp h))) (noFlush_out t (fun h => h7 ((atLast_iff t).mp h)))]
      rw [heldAt_mid V c t h0 h7]
      unfold accMid; (try dsimp only)
      rw [inv_castSucc V c t, inv_pos V c _ _ hz]
      iintro ⟨⟨⟨HA, Hrest⟩, Hg⟩, Ho, ⟨%d0, H0⟩, ⟨%d1, H1⟩, ⟨%d2, H2⟩, ⟨%d3, H3⟩, ⟨%d4, H4⟩, ⟨%d5, H5⟩, ⟨%d6, H6⟩, ⟨%dO, HO⟩⟩
      iapply ((runMid c (grid2.coords t) _ _ _ _ _ _ _ _ _ _ _ _ _ _ _ _ _ _ (fun h => h0 ((atFirst_iff t).mp h)) (fun h => h7 ((atLast_iff t).mp h)) (blockAt V c 0 t) (blockAt V c 1 t) (blockAt V c 2 t) (blockAt V c 3 t) (blockAt V c 4 t) (blockAt V c 5 t) (blockAt V c 6 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HO]; · iexact HO
      isplitl [HA]; · iexact HA
      iintro ⟨H0, H1, H2, H3, H4, H5, H6, HO, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_mid c _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact HO

/-- The body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem inv_enter (c : Dev nD) : Pipeline.ΦA spec2 c ⊢ (dat V c).Φ 0 := by
  rw [show (dat V c).Φ 0 = inv V c 0 (Nat.zero_le _) from rfl, inv_zero V c 0 _ rfl]
  try exact Idealize.SL.BI.Entails.refl _

/-- After the last point the invariant gives that back: what the accumulator holds is forgotten. -/
theorem inv_leave (c : Dev nD) : (dat V c).Φ (Fin.last cfg2.N) ⊢ Pipeline.ΦA spec2 c := by
  have ht : (Fin.last cfg2.N).val ≠ 0 := by rw [Fin.val_last]; have : cfg2.N = 16 := N_2; omega
  rw [show (dat V c).Φ (Fin.last cfg2.N) = inv V c (Fin.last cfg2.N).val (Nat.le_of_lt_succ (Fin.last cfg2.N).isLt) from rfl,
    inv_pos V c _ _ ht, handed_eq]
  iintro ⟨⟨HA, Hrest⟩, Hg⟩
  isplitl [HA Hrest]
  · isplitl [HA]
    · iexists _; iexact HA
    iexact Hrest
  iexact Hg

end Cert.KernelIdeal.R2

end
-- ==== Proof.KI.R3.Base.lean ====
/-
  The output gate logistic(LayerNorm(h·W_ho + x·W_xo + b_xo)), in the idealized kernel (pallas_call 3).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part one, names: a window's block at a point read off the array as the region finds it; that an input's staging
  buffer holds its block at every point, fetched there or not; the two conditions k = 0 and k = 7 in closed form over
  the sixteen points; where the output window is idle; the staging and scratch memrefs the body is called with.
  Everything is stated at any float instance.
-/
import proofs.«116394_j17480516895034_2_alg».proof.Proof.Gen.KernelIdeal.Launch
import proofs.«116394_j17480516895034_2_alg».proof.Proof.Gen.KernelIdeal.Skeleton
import proofs.«116394_j17480516895034_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-- Window `w`'s block at point `t`, read off its array as the region finds it. -/
def blockAt (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's block is in its staging buffer at every point, for any proof data over these arrays whose body leaves it there. -/
theorem in_h_of {c : Dev nD} (dat : Dat τ (Elt F) Unit ℕ (UR sig nD τ) ℕ cfg3 c) (hA : dat.A 0 = V c (Pipeline.arrRef spec3 0))
    (hafter : ∀ t, dat.after 0 t = blockAt V c 0 t) (t : Fin cfg3.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's block is in its staging buffer at every point, for any proof data over these arrays whose body leaves it there. -/
theorem in_wh_of {c : Dev nD} (dat : Dat τ (Elt F) Unit ℕ (UR sig nD τ) ℕ cfg3 c) (hA : dat.A 1 = V c (Pipeline.arrRef spec3 1))
    (hafter : ∀ t, dat.after 1 t = blockAt V c 1 t) (t : Fin cfg3.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's block is in its staging buffer at every point, for any proof data over these arrays whose body leaves it there. -/
theorem in_x_of {c : Dev nD} (dat : Dat τ (Elt F) Unit ℕ (UR sig nD τ) ℕ cfg3 c) (hA : dat.A 2 = V c (Pipeline.arrRef spec3 2))
    (hafter : ∀ t, dat.after 2 t = blockAt V c 2 t) (t : Fin cfg3.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's block is in its staging buffer at every point, for any proof data over these arrays whose body leaves it there. -/
theorem in_wx_of {c : Dev nD} (dat : Dat τ (Elt F) Unit ℕ (UR sig nD τ) ℕ cfg3 c) (hA : dat.A 3 = V c (Pipeline.arrRef spec3 3))
    (hafter : ∀ t, dat.after 3 t = blockAt V c 3 t) (t : Fin cfg3.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's block is in its staging buffer at every point, for any proof data over these arrays whose body leaves it there. -/
theorem in_b_of {c : Dev nD} (dat : Dat τ (Elt F) Unit ℕ (UR sig nD τ) ℕ cfg3 c) (hA : dat.A 4 = V c (Pipeline.arrRef spec3 4))
    (hafter : ∀ t, dat.after 4 t = blockAt V c 4 t) (t : Fin cfg3.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- Input window 5's block is in its staging buffer at every point, for any proof data over these arrays whose body leaves it there. -/
theorem in_g_of {c : Dev nD} (dat : Dat τ (Elt F) Unit ℕ (UR sig nD τ) ℕ cfg3 c) (hA : dat.A 5 = V c (Pipeline.arrRef spec3 5))
    (hafter : ∀ t, dat.after 5 t = blockAt V c 5 t) (t : Fin cfg3.N) (d) : dat.before 5 t d = blockAt V c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-- Input window 6's block is in its staging buffer at every point, for any proof data over these arrays whose body leaves it there. -/
theorem in_be_of {c : Dev nD} (dat : Dat τ (Elt F) Unit ℕ (UR sig nD τ) ℕ cfg3 c) (hA : dat.A 6 = V c (Pipeline.arrRef spec3 6))
    (hafter : ∀ t, dat.after 6 t = blockAt V c 6 t) (t : Fin cfg3.N) (d) : dat.before 6 t d = blockAt V c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## The two conditions -/

/-- k = 0: the accumulator is cleared. -/
abbrev atFirst (i : grid3.Coords) : Prop := (Scalar.cmpi .ne (Scalar.extui (Scalar.cmpi .eq (BitVec.ofNat 32 (i 1).val) 0#32)) 0#32) = 1#1
theorem atFirst_iff : ∀ t : Fin cfg3.N, atFirst (grid3.coords t) ↔ t.val % 8 = 0 :=
  (by decide +kernel : ∀ t : Fin grid3.N, atFirst (grid3.coords t) ↔ t.val % 8 = 0)

/-- k = 7: the result is stored. -/
abbrev atLast (i : grid3.Coords) : Prop := k3_cond2 i = 1#1
theorem atLast_iff : ∀ t : Fin cfg3.N, atLast (grid3.coords t) ↔ t.val % 8 = 7 :=
  (by decide +kernel : ∀ t : Fin grid3.N, atLast (grid3.coords t) ↔ t.val % 8 = 7)

/-! ## Where the windows are idle -/

theorem live_h : ∀ t : Fin cfg3.N, cfg3.idle 0 (grid3.coords t) = false := by decide +kernel
theorem live_wh : ∀ t : Fin cfg3.N, cfg3.idle 1 (grid3.coords t) = false := by decide +kernel
theorem live_x : ∀ t : Fin cfg3.N, cfg3.idle 2 (grid3.coords t) = false := by decide +kernel
theorem live_wx : ∀ t : Fin cfg3.N, cfg3.idle 3 (grid3.coords t) = false := by decide +kernel
theorem live_b : ∀ t : Fin cfg3.N, cfg3.idle 4 (grid3.coords t) = false := by decide +kernel
theorem live_g : ∀ t : Fin cfg3.N, cfg3.idle 5 (grid3.coords t) = false := by decide +kernel
theorem live_be : ∀ t : Fin cfg3.N, cfg3.idle 6 (grid3.coords t) = false := by decide +kernel
/-- Away from k = 7 the output window is idle and not written back. -/
theorem idle_out : ∀ t : Fin cfg3.N, ¬atLast (grid3.coords t) → cfg3.idle 7 (grid3.coords t) = true := by decide +kernel
theorem noFlush_out : ∀ t : Fin cfg3.N, ¬atLast (grid3.coords t) → (cfg3.win 7).flush t = false := by decide +kernel
/-- At k = 7 it is live. -/
theorem live_out : ∀ t : Fin cfg3.N, atLast (grid3.coords t) → cfg3.idle 7 (grid3.coords t) = false := by decide +kernel

/-! ## The memrefs the body is called with -/

/-- One staging buffer of the output window, through which its contents are stated. -/
abbrev outView : View sig .tc .vmem S1024x2048 .f32 := (Memref.whole cc3_stg7_0 : Memref sig .tc .vmem S1024x2048 .f32).view
abbrev m_h (t : Fin cfg3.N) : Memref sig .tc .vmem S1024x256 .f32 := win3_0.stage (cfg3.slots t 0)
abbrev hm_h (t : Fin cfg3.N) : (m_h t).IsWhole := hstage3_0 ((cfg3.slots t 0).cast nbuf3_0)
abbrev m_wh (t : Fin cfg3.N) : Memref sig .tc .vmem S256x2048 .f32 := win3_1.stage (cfg3.slots t 1)
abbrev hm_wh (t : Fin cfg3.N) : (m_wh t).IsWhole := hstage3_1 ((cfg3.slots t 1).cast nbuf3_1)
abbrev m_x (t : Fin cfg3.N) : Memref sig .tc .vmem S1024x256 .f32 := win3_2.stage (cfg3.slots t 2)
abbrev hm_x (t : Fin cfg3.N) : (m_x t).IsWhole := hstage3_2 ((cfg3.slots t 2).cast nbuf3_2)
abbrev m_wx (t : Fin cfg3.N) : Memref sig .tc .vmem S256x2048 .f32 := win3_3.stage (cfg3.slots t 3)
abbrev hm_wx (t : Fin cfg3.N) : (m_wx t).IsWhole := hstage3_3 ((cfg3.slots t 3).cast nbuf3_3)
abbrev m_b (t : Fin cfg3.N) : Memref sig .tc .vmem S1x2048 .f32 := win3_4.stage (cfg3.slots t 4)
abbrev hm_b (t : Fin cfg3.N) : (m_b t).IsWhole := hstage3_4 ((cfg3.slots t 4).cast nbuf3_4)
abbrev m_g (t : Fin cfg3.N) : Memref sig .tc .vmem S1x2048 .f32 := win3_5.stage (cfg3.slots t 5)
abbrev hm_g (t : Fin cfg3.N) : (m_g t).IsWhole := hstage3_5 ((cfg3.slots t 5).cast nbuf3_5)
abbrev m_be (t : Fin cfg3.N) : Memref sig .tc .vmem S1x2048 .f32 := win3_6.stage (cfg3.slots t 6)
abbrev hm_be (t : Fin cfg3.N) : (m_be t).IsWhole := hstage3_6 ((cfg3.slots t 6).cast nbuf3_6)
abbrev m_out (t : Fin cfg3.N) : Memref sig .tc .vmem S1024x2048 .f32 := win3_7.stage (cfg3.slots t 7)
abbrev hm_out (t : Fin cfg3.N) : (m_out t).IsWhole := hstage3_7 ((cfg3.slots t 7).cast nbuf3_7)
/-- The accumulator: a whole scoped buffer of the kernel's own. -/
abbrev accM : Memref sig .tc .vmem S1024x2048 .f32 := Memref.whole cc3_scratch0
abbrev accView : View sig .tc .vmem S1024x2048 .f32 := accM.view

/-- What the launch hands the region, with the accumulator taken out of the scoped buffers no window stages. -/
theorem handed_eq (c : Dev nD) :
    (Pipeline.ΦA spec3 c : sProp 𝕄)
      = iprop(iprop(iprop((∃ d, owns (c : Thread nD τ) accM fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [accM, owns_whole]; try rfl

end Cert.KernelIdeal.R3

end
-- ==== Proof.KI.R3.Runs.lean ====
/-
  The output gate logistic(LayerNorm(h·W_ho + x·W_xo + b_xo)), in the idealized kernel (pallas_call 3).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part two: the body's triple in each of its three cases.  On whole staging memrefs holding the input blocks the body
  runs without fault and gives the input buffers back unchanged.  What it does to the accumulator and to the output
  buffer depends on the point:
    k = 0      the accumulator, whatever it held, ends as its stores leave it; the output buffer is not touched;
    0 < k < 7  the accumulator, at known contents, ends as its stores leave it; the output buffer is not touched;
    k = 7      as before, and the output buffer, whatever it held, ends as its one store leaves it.
  The stores are not transcribed: each case is a subtype whose witness — the list of pieces stored, last first — the
  symbolic run of the body finds.
-/
import proofs.«116394_j17480516895034_2_alg».proof.Proof.KI.R3.Base

set_option maxRecDepth 16384

noncomputable section

namespace Cert.KernelIdeal.R3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- k = 0. -/
noncomputable def runFirst (c : Dev nD) (i : grid3.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : atFirst i) (h7 : ¬atLast i)
    (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) :
    { LA : List (View.Piece (Elt F) S1024x2048 .f32) //
      ∀ (xout : Vec F S1024x2048 .f32) (E : Set ℕ) (K : PUnit → sProp 𝕄),
        iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ owns (c : Thread nD τ) arg9 fullShare xout ∗ (∃ d, owns (c : Thread nD τ) arg10 fullShare d)
            ∗ (iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ owns (c : Thread nD τ) arg9 fullShare xout ∗ (∃ f, arg10.view.loc (c : Thread nD τ) ↦[arg10.view.set]{fullShare} arg10.view.writes (Elt F) f LA)) -∗ K ⟨⟩))
          ⊢ wp frame (wpE (defs₀ (F := F)) Variants.none c none) E (cc3_gate_kernel i arg2 harg2 arg3 harg3 arg4 harg4 arg5 harg5 arg6 harg6 arg7 harg7 arg8 harg8 arg9 harg9 arg10 harg10) K } := by
  refine ⟨?_, fun xout E K => ?run⟩
  case run =>
    simp only [cc3_gate_kernel_eq_skeleton]; unfold cc3_gate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo, %hfo, HO⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfo
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO]
    · iexists _; isplitr; · ipureintro; exact harg9.read_unread _
      iexact HO
    iexists _; iexact HS

set_option maxHeartbeats 2000000 in
/-- 0 < k < 7. -/
noncomputable def runMid (c : Dev nD) (i : grid3.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : ¬atLast i)
    (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) :
    { LA : List (View.Piece (Elt F) S1024x2048 .f32) //
      ∀ (xout : Vec F S1024x2048 .f32) (E : Set ℕ) (K : PUnit → sProp 𝕄),
        iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ owns (c : Thread nD τ) arg9 fullShare xout ∗ owns (c : Thread nD τ) arg10 fullShare xa
            ∗ (iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ owns (c : Thread nD τ) arg9 fullShare xout ∗ (∃ f, arg10.view.loc (c : Thread nD τ) ↦[arg10.view.set]{fullShare} arg10.view.writes (Elt F) f LA)) -∗ K ⟨⟩))
          ⊢ wp frame (wpE (defs₀ (F := F)) Variants.none c none) E (cc3_gate_kernel i arg2 harg2 arg3 harg3 arg4 harg4 arg5 harg5 arg6 harg6 arg7 harg7 arg8 harg8 arg9 harg9 arg10 harg10) K } := by
  refine ⟨?_, fun xout E K => ?run⟩
  case run =>
    simp only [cc3_gate_kernel_eq_skeleton]; unfold cc3_gate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfo; obtain rfl := harg10.eq_unread hfs
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO]
    · iexists _; isplitr; · ipureintro; exact harg9.read_unread _
      iexact HO
    iexists _; iexact HS

set_option maxHeartbeats 2000000 in
/-- k = 7. -/
noncomputable def runLast (c : Dev nD) (i : grid3.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i)
    (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) :
    Σ' (LO : List (View.Piece (Elt F) S1024x2048 .f32)), { LA : List (View.Piece (Elt F) S1024x2048 .f32) //
      ∀ (E : Set ℕ) (K : PUnit → sProp 𝕄),
        iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ (∃ d, owns (c : Thread nD τ) arg9 fullShare d) ∗ owns (c : Thread nD τ) arg10 fullShare xa
            ∗ (iprop(owns (c : Thread nD τ) arg2 fullShare xh ∗ owns (c : Thread nD τ) arg3 fullShare xwh ∗ owns (c : Thread nD τ) arg4 fullShare xx ∗ owns (c : Thread nD τ) arg5 fullShare xwx ∗ owns (c : Thread nD τ) arg6 fullShare xb ∗ owns (c : Thread nD τ) arg7 fullShare xg ∗ owns (c : Thread nD τ) arg8 fullShare xbe ∗ (∃ f, arg9.view.loc (c : Thread nD τ) ↦[arg9.view.set]{fullShare} arg9.view.writes (Elt F) f LO) ∗ (∃ f, arg10.view.loc (c : Thread nD τ) ↦[arg10.view.set]{fullShare} arg10.view.writes (Elt F) f LA)) -∗ K ⟨⟩))
          ⊢ wp frame (wpE (defs₀ (F := F)) Variants.none c none) E (cc3_gate_kernel i arg2 harg2 arg3 harg3 arg4 harg4 arg5 harg5 arg6 harg6 arg7 harg7 arg8 harg8 arg9 harg9 arg10 harg10) K } := by
  refine ⟨?_, ?_, fun E K => ?run⟩
  case run =>
    simp only [cc3_gate_kernel_eq_skeleton]; unfold cc3_gate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%dO, %fo, -, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO]; · iexists _; iexact HO
    iexists _; iexact HS

end Cert.KernelIdeal.R3

end
-- ==== Proof.KI.R3.Data.lean ====
/-
  The output gate logistic(LayerNorm(h·W_ho + x·W_xo + b_xo)), in the idealized kernel (pallas_call 3).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part three: what the buffers hold point by point.  After the body at position n the accumulator holds what that
  point's case leaves in it — at k = 0 from nothing, at every later k from what position n − 1 left — and, at k = 7,
  the output buffer holds what its one store leaves.  The region's invariant carries the accumulator at these contents
  from one point to the next, beside the other scoped buffers no window stages and the generator register, neither of
  which the body touches.
-/
import proofs.«116394_j17480516895034_2_alg».proof.Proof.KI.R3.Runs

set_option maxRecDepth 16384

noncomputable section

namespace Cert.KernelIdeal.R3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem accCover_first (c : Dev nD) (i : grid3.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : atFirst i) (h7 : ¬atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (y : S1024x2048.Idx) :
    ∃ pc ∈ (runFirst c i arg2 harg2 arg3 harg3 arg4 harg4 arg5 harg5 arg6 harg6 arg7 harg7 arg8 harg8 arg9 harg9 arg10 harg10 h0 h7 xh xwh xx xwx xb xg xbe).1, y ∈ pc.1.set :=
  View.cover_of_tiledL (runFirst c i arg2 harg2 arg3 harg3 arg4 harg4 arg5 harg5 arg6 harg6 arg7 harg7 arg8 harg8 arg9 harg9 arg10 harg10 h0 h7 xh xwh xx xwx xb xg xbe).1 S1024x2048.size (by sl_kernel_rfl) y

/-- The accumulator after a point with k = 0. -/
def accFirst (c : Dev nD) (i : grid3.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : atFirst i) (h7 : ¬atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) : Vec F S1024x2048 .f32 :=
  accView.read (Elt F) (accView.writes (Elt F) accView.junk (runFirst c i arg2 harg2 arg3 harg3 arg4 harg4 arg5 harg5 arg6 harg6 arg7 harg7 arg8 harg8 arg9 harg9 arg10 harg10 h0 h7 xh xwh xx xwx xb xg xbe).1)

theorem accCover_mid (c : Dev nD) (i : grid3.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : ¬atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) (y : S1024x2048.Idx) :
    ∃ pc ∈ (runMid c i arg2 harg2 arg3 harg3 arg4 harg4 arg5 harg5 arg6 harg6 arg7 harg7 arg8 harg8 arg9 harg9 arg10 harg10 h0 h7 xh xwh xx xwx xb xg xbe xa).1, y ∈ pc.1.set :=
  View.cover_of_tiledL (runMid c i arg2 harg2 arg3 harg3 arg4 harg4 arg5 harg5 arg6 harg6 arg7 harg7 arg8 harg8 arg9 harg9 arg10 harg10 h0 h7 xh xwh xx xwx xb xg xbe xa).1 S1024x2048.size (by sl_kernel_rfl) y

/-- The accumulator after a point with 0 < k < 7. -/
def accMid (c : Dev nD) (i : grid3.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : ¬atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) : Vec F S1024x2048 .f32 :=
  accView.read (Elt F) (accView.writes (Elt F) accView.junk (runMid c i arg2 harg2 arg3 harg3 arg4 harg4 arg5 harg5 arg6 harg6 arg7 harg7 arg8 harg8 arg9 harg9 arg10 harg10 h0 h7 xh xwh xx xwx xb xg xbe xa).1)

theorem outCover_last (c : Dev nD) (i : grid3.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) (y : S1024x2048.Idx) :
    ∃ pc ∈ (runLast c i arg2 harg2 arg3 harg3 arg4 harg4 arg5 harg5 arg6 harg6 arg7 harg7 arg8 harg8 arg9 harg9 arg10 harg10 h0 h7 xh xwh xx xwx xb xg xbe xa).1, y ∈ pc.1.set :=
  View.cover_of_tiledL (runLast c i arg2 harg2 arg3 harg3 arg4 harg4 arg5 harg5 arg6 harg6 arg7 harg7 arg8 harg8 arg9 harg9 arg10 harg10 h0 h7 xh xwh xx xwx xb xg xbe xa).1 S1024x2048.size (by sl_kernel_rfl) y

/-- The output buffer after a point with k = 7. -/
def outLast (c : Dev nD) (i : grid3.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) : Vec F S1024x2048 .f32 :=
  outView.read (Elt F) (outView.writes (Elt F) outView.junk (runLast c i arg2 harg2 arg3 harg3 arg4 harg4 arg5 harg5 arg6 harg6 arg7 harg7 arg8 harg8 arg9 harg9 arg10 harg10 h0 h7 xh xwh xx xwx xb xg xbe xa).1)

theorem accCover_last (c : Dev nD) (i : grid3.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) (y : S1024x2048.Idx) :
    ∃ pc ∈ (runLast c i arg2 harg2 arg3 harg3 arg4 harg4 arg5 harg5 arg6 harg6 arg7 harg7 arg8 harg8 arg9 harg9 arg10 harg10 h0 h7 xh xwh xx xwx xb xg xbe xa).2.1, y ∈ pc.1.set :=
  View.cover_of_tiledL (runLast c i arg2 harg2 arg3 harg3 arg4 harg4 arg5 harg5 arg6 harg6 arg7 harg7 arg8 harg8 arg9 harg9 arg10 harg10 h0 h7 xh xwh xx xwx xb xg xbe xa).2.1 S1024x2048.size (by sl_kernel_rfl) y

/-- The accumulator after a point with k = 7. -/
def accLast (c : Dev nD) (i : grid3.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) : Vec F S1024x2048 .f32 :=
  accView.read (Elt F) (accView.writes (Elt F) accView.junk (runLast c i arg2 harg2 arg3 harg3 arg4 harg4 arg5 harg5 arg6 harg6 arg7 harg7 arg8 harg8 arg9 harg9 arg10 harg10 h0 h7 xh xwh xx xwx xb xg xbe xa).2.1)

/-! ## Point by point -/

/-- After the body at position `n`: the output buffer (meaningful at k = 7 only; elsewhere nothing consults it) and the
    accumulator. -/
def heldAt (c : Dev nD) : (n : ℕ) → n < cfg3.N → Vec F S1024x2048 .f32 × Vec F S1024x2048 .f32
  | 0, hn => (outView.read (Elt F) outView.junk,
      accFirst c (grid3.coords ⟨0, hn⟩) (m_h ⟨0, hn⟩) (hm_h ⟨0, hn⟩) (m_wh ⟨0, hn⟩) (hm_wh ⟨0, hn⟩) (m_x ⟨0, hn⟩) (hm_x ⟨0, hn⟩) (m_wx ⟨0, hn⟩) (hm_wx ⟨0, hn⟩) (m_b ⟨0, hn⟩) (hm_b ⟨0, hn⟩) (m_g ⟨0, hn⟩) (hm_g ⟨0, hn⟩) (m_be ⟨0, hn⟩) (hm_be ⟨0, hn⟩) (m_out ⟨0, hn⟩) (hm_out ⟨0, hn⟩) accM (Memref.isWhole_whole _) ((atFirst_iff ⟨0, hn⟩).mpr (Nat.zero_mod _)) (fun h => (fun h => by (try dsimp only at h); omega) ((atLast_iff ⟨0, hn⟩).mp h)) (blockAt V c 0 ⟨0, hn⟩) (blockAt V c 1 ⟨0, hn⟩) (blockAt V c 2 ⟨0, hn⟩) (blockAt V c 3 ⟨0, hn⟩) (blockAt V c 4 ⟨0, hn⟩) (blockAt V c 5 ⟨0, hn⟩) (blockAt V c 6 ⟨0, hn⟩))
  | n + 1, hn =>
    if h0 : (n + 1) % 8 = 0 then
      if h7 : (n + 1) % 8 = 7 then
        False.elim (by omega)
      else
        (outView.read (Elt F) outView.junk,
          accFirst c (grid3.coords ⟨n + 1, hn⟩) (m_h ⟨n + 1, hn⟩) (hm_h ⟨n + 1, hn⟩) (m_wh ⟨n + 1, hn⟩) (hm_wh ⟨n + 1, hn⟩) (m_x ⟨n + 1, hn⟩) (hm_x ⟨n + 1, hn⟩) (m_wx ⟨n + 1, hn⟩) (hm_wx ⟨n + 1, hn⟩) (m_b ⟨n + 1, hn⟩) (hm_b ⟨n + 1, hn⟩) (m_g ⟨n + 1, hn⟩) (hm_g ⟨n + 1, hn⟩) (m_be ⟨n + 1, hn⟩) (hm_be ⟨n + 1, hn⟩) (m_out ⟨n + 1, hn⟩) (hm_out ⟨n + 1, hn⟩) accM (Memref.isWhole_whole _) ((atFirst_iff ⟨n + 1, hn⟩).mpr h0) (fun h => h7 ((atLast_iff ⟨n + 1, hn⟩).mp h)) (blockAt V c 0 ⟨n + 1, hn⟩) (blockAt V c 1 ⟨n + 1, hn⟩) (blockAt V c 2 ⟨n + 1, hn⟩) (blockAt V c 3 ⟨n + 1, hn⟩) (blockAt V c 4 ⟨n + 1, hn⟩) (blockAt V c 5 ⟨n + 1, hn⟩) (blockAt V c 6 ⟨n + 1, hn⟩))
    else
      if h7 : (n + 1) % 8 = 7 then
        (outLast c (grid3.coords ⟨n + 1, hn⟩) (m_h ⟨n + 1, hn⟩) (hm_h ⟨n + 1, hn⟩) (m_wh ⟨n + 1, hn⟩) (hm_wh ⟨n + 1, hn⟩) (m_x ⟨n + 1, hn⟩) (hm_x ⟨n + 1, hn⟩) (m_wx ⟨n + 1, hn⟩) (hm_wx ⟨n + 1, hn⟩) (m_b ⟨n + 1, hn⟩) (hm_b ⟨n + 1, hn⟩) (m_g ⟨n + 1, hn⟩) (hm_g ⟨n + 1, hn⟩) (m_be ⟨n + 1, hn⟩) (hm_be ⟨n + 1, hn⟩) (m_out ⟨n + 1, hn⟩) (hm_out ⟨n + 1, hn⟩) accM (Memref.isWhole_whole _) (fun h => h0 ((atFirst_iff ⟨n + 1, hn⟩).mp h)) ((atLast_iff ⟨n + 1, hn⟩).mpr h7) (blockAt V c 0 ⟨n + 1, hn⟩) (blockAt V c 1 ⟨n + 1, hn⟩) (blockAt V c 2 ⟨n + 1, hn⟩) (blockAt V c 3 ⟨n + 1, hn⟩) (blockAt V c 4 ⟨n + 1, hn⟩) (blockAt V c 5 ⟨n + 1, hn⟩) (blockAt V c 6 ⟨n + 1, hn⟩) (heldAt c n (Nat.lt_of_succ_lt hn)).2,
          accLast c (grid3.coords ⟨n + 1, hn⟩) (m_h ⟨n + 1, hn⟩) (hm_h ⟨n + 1, hn⟩) (m_wh ⟨n + 1, hn⟩) (hm_wh ⟨n + 1, hn⟩) (m_x ⟨n + 1, hn⟩) (hm_x ⟨n + 1, hn⟩) (m_wx ⟨n + 1, hn⟩) (hm_wx ⟨n + 1, hn⟩) (m_b ⟨n + 1, hn⟩) (hm_b ⟨n + 1, hn⟩) (m_g ⟨n + 1, hn⟩) (hm_g ⟨n + 1, hn⟩) (m_be ⟨n + 1, hn⟩) (hm_be ⟨n + 1, hn⟩) (m_out ⟨n + 1, hn⟩) (hm_out ⟨n + 1, hn⟩) accM (Memref.isWhole_whole _) (fun h => h0 ((atFirst_iff ⟨n + 1, hn⟩).mp h)) ((atLast_iff ⟨n + 1, hn⟩).mpr h7) (blockAt V c 0 ⟨n + 1, hn⟩) (blockAt V c 1 ⟨n + 1, hn⟩) (blockAt V c 2 ⟨n + 1, hn⟩) (blockAt V c 3 ⟨n + 1, hn⟩) (blockAt V c 4 ⟨n + 1, hn⟩) (blockAt V c 5 ⟨n + 1, hn⟩) (blockAt V c 6 ⟨n + 1, hn⟩) (heldAt c n (Nat.lt_of_succ_lt hn)).2)
      else
        (outView.read (Elt F) outView.junk,
          accMid c (grid3.coords ⟨n + 1, hn⟩) (m_h ⟨n + 1, hn⟩) (hm_h ⟨n + 1, hn⟩) (m_wh ⟨n + 1, hn⟩) (hm_wh ⟨n + 1, hn⟩) (m_x ⟨n + 1, hn⟩) (hm_x ⟨n + 1, hn⟩) (m_wx ⟨n + 1, hn⟩) (hm_wx ⟨n + 1, hn⟩) (m_b ⟨n + 1, hn⟩) (hm_b ⟨n + 1, hn⟩) (m_g ⟨n + 1, hn⟩) (hm_g ⟨n + 1, hn⟩) (m_be ⟨n + 1, hn⟩) (hm_be ⟨n + 1, hn⟩) (m_out ⟨n + 1, hn⟩) (hm_out ⟨n + 1, hn⟩) accM (Memref.isWhole_whole _) (fun h => h0 ((atFirst_iff ⟨n + 1, hn⟩).mp h)) (fun h => h7 ((atLast_iff ⟨n + 1, hn⟩).mp h)) (blockAt V c 0 ⟨n + 1, hn⟩) (blockAt V c 1 ⟨n + 1, hn⟩) (blockAt V c 2 ⟨n + 1, hn⟩) (blockAt V c 3 ⟨n + 1, hn⟩) (blockAt V c 4 ⟨n + 1, hn⟩) (blockAt V c 5 ⟨n + 1, hn⟩) (blockAt V c 6 ⟨n + 1, hn⟩) (heldAt c n (Nat.lt_of_succ_lt hn)).2)

theorem heldAt_first (c : Dev nD) (t : Fin cfg3.N) (h0 : t.val % 8 = 0) (h7 : ¬t.val % 8 = 7) :
    heldAt V c t.val t.isLt = (outView.read (Elt F) outView.junk,
      accFirst c (grid3.coords t) (m_h t) (hm_h t) (m_wh t) (hm_wh t) (m_x t) (hm_x t) (m_wx t) (hm_wx t) (m_b t) (hm_b t) (m_g t) (hm_g t) (m_be t) (hm_be t) (m_out t) (hm_out t) accM (Memref.isWhole_whole _) ((atFirst_iff t).mpr h0) (fun h => h7 ((atLast_iff t).mp h)) (blockAt V c 0 t) (blockAt V c 1 t) (blockAt V c 2 t) (blockAt V c 3 t) (blockAt V c 4 t) (blockAt V c 5 t) (blockAt V c 6 t)) := by
  obtain ⟨n, hn⟩ := t
  cases n with
  | zero => exact rfl
  | succ n => exact (dif_pos h0).trans ((dif_neg h7).trans rfl)

theorem heldAt_mid (c : Dev nD) (t : Fin cfg3.N) (h0 : ¬t.val % 8 = 0) (h7 : ¬t.val % 8 = 7) :
    heldAt V c t.val t.isLt = (outView.read (Elt F) outView.junk,
      accMid c (grid3.coords t) (m_h t) (hm_h t) (m_wh t) (hm_wh t) (m_x t) (hm_x t) (m_wx t) (hm_wx t) (m_b t) (hm_b t) (m_g t) (hm_g t) (m_be t) (hm_be t) (m_out t) (hm_out t) accM (Memref.isWhole_whole _) (fun h => h0 ((atFirst_iff t).mp h)) (fun h => h7 ((atLast_iff t).mp h)) (blockAt V c 0 t) (blockAt V c 1 t) (blockAt V c 2 t) (blockAt V c 3 t) (blockAt V c 4 t) (blockAt V c 5 t) (blockAt V c 6 t)
        (heldAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h7).trans rfl)

theorem heldAt_last (c : Dev nD) (t : Fin cfg3.N) (h0 : ¬t.val % 8 = 0) (h7 : t.val % 8 = 7) :
    heldAt V c t.val t.isLt = (outLast c (grid3.coords t) (m_h t) (hm_h t) (m_wh t) (hm_wh t) (m_x t) (hm_x t) (m_wx t) (hm_wx t) (m_b t) (hm_b t) (m_g t) (hm_g t) (m_be t) (hm_be t) (m_out t) (hm_out t) accM (Memref.isWhole_whole _) (fun h => h0 ((atFirst_iff t).mp h)) ((atLast_iff t).mpr h7) (blockAt V c 0 t) (blockAt V c 1 t) (blockAt V c 2 t) (blockAt V c 3 t) (blockAt V c 4 t) (blockAt V c 5 t) (blockAt V c 6 t)
        (heldAt V c (t.val - 1) (Nat.lt_of_le_of_lt (Nat.sub_le _ _) t.isLt)).2,
      accLast c (grid3.coords t) (m_h t) (hm_h t) (m_wh t) (hm_wh t) (m_x t) (hm_x t) (m_wx t) (hm_wx t) (m_b t) (hm_b t) (m_g t) (hm_g t) (m_be t) (hm_be t) (m_out t) (hm_out t) accM (Memref.isWhole_whole _) (fun h => h0 ((atFirst_iff t).mp h)) ((atLast_iff t).mpr h7) (blockAt V c 0 t) (blockAt V c 1 t) (blockAt V c 2 t) (blockAt V c 3 t) (blockAt V c 4 t) (blockAt V c 5 t) (blockAt V c 6 t)
        (heldAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h7).trans rfl)

/-! ## The invariant -/

/-- Before position `n`: at the start what the launch hands the region; afterwards the accumulator at what position
    `n − 1` left in it, the other scoped buffers no window stages, and the generator register. -/
def inv (c : Dev nD) : (n : ℕ) → n ≤ cfg3.N → sProp 𝕄
  | 0, _ => Pipeline.ΦA spec3 c
  | n + 1, hn => iprop(iprop(owns (c : Thread nD τ) accM fullShare ((heldAt V c n hn).2)
      ∗ Pipeline.scopedRestBut (Ix := Unit) (Name := ℕ) (U := UR sig nD τ) (Lvl := ℕ) (Val := Elt F) spec3 c [cc3_scratch0]) ∗ (∃ r, prngReg c r))

theorem inv_zero (c : Dev nD) (n : ℕ) (h : n ≤ cfg3.N) (hz : n = 0) : inv V c n h = Pipeline.ΦA spec3 c := by
  subst hz; rfl

theorem inv_succ (c : Dev nD) (n : ℕ) (hn : n < cfg3.N) :
    inv V c (n + 1) hn = iprop(iprop(owns (c : Thread nD τ) accM fullShare ((heldAt V c n hn).2)
      ∗ Pipeline.scopedRestBut (Ix := Unit) (Name := ℕ) (U := UR sig nD τ) (Lvl := ℕ) (Val := Elt F) spec3 c [cc3_scratch0]) ∗ (∃ r, prngReg c r)) := rfl

theorem inv_pos (c : Dev nD) (n : ℕ) (h : n ≤ cfg3.N) (hz : n ≠ 0) :
    inv V c n h = iprop(iprop(owns (c : Thread nD τ) accM fullShare ((heldAt V c (n - 1) (by omega)).2)
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

/-- The region's proof data on core `c`: the arrays as the region finds them; after the body each input's buffer at its
    block and the output's at `heldAt`; the invariant above; nothing owed; full shares. -/
def dat (c : Dev nD) : Dat τ (Elt F) Unit ℕ (UR sig nD τ) ℕ cfg3 c where
  A w := V c (Pipeline.arrRef spec3 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => blockAt V c 6 t
    | ⟨7, _⟩ => (heldAt V c t.val t.isLt).1
  Φ t := inv V c t.val (Nat.le_of_lt_succ t.isLt)
  q _ := fullShare
  owed _ := 0

theorem dat_A (c : Dev nD) (w : Fin cfg3.W) : (dat V c).A w = V c (Pipeline.arrRef spec3 w) := by
  dsimp only [dat]

theorem inv_castSucc (c : Dev nD) (t : Fin cfg3.N) :
    (dat V c).Φ t.castSucc = inv V c t.val (Nat.le_of_lt t.isLt) := by
  dsimp only [dat]; simp only [Fin.coe_castSucc]

theorem after_h (c : Dev nD) (t : Fin cfg3.N) : (dat V c).after 0 t = blockAt V c 0 t := by dsimp only [dat]
theorem after_wh (c : Dev nD) (t : Fin cfg3.N) : (dat V c).after 1 t = blockAt V c 1 t := by dsimp only [dat]
theorem after_x (c : Dev nD) (t : Fin cfg3.N) : (dat V c).after 2 t = blockAt V c 2 t := by dsimp only [dat]
theorem after_wx (c : Dev nD) (t : Fin cfg3.N) : (dat V c).after 3 t = blockAt V c 3 t := by dsimp only [dat]
theorem after_b (c : Dev nD) (t : Fin cfg3.N) : (dat V c).after 4 t = blockAt V c 4 t := by dsimp only [dat]
theorem after_g (c : Dev nD) (t : Fin cfg3.N) : (dat V c).after 5 t = blockAt V c 5 t := by dsimp only [dat]
theorem after_be (c : Dev nD) (t : Fin cfg3.N) : (dat V c).after 6 t = blockAt V c 6 t := by dsimp only [dat]
theorem after_out (c : Dev nD) (t : Fin cfg3.N) : (dat V c).after 7 t = (heldAt V c t.val t.isLt).1 := by dsimp only [dat]

theorem before_h (c : Dev nD) (t : Fin cfg3.N) (d) : (dat V c).before 0 t d = blockAt V c 0 t :=
  in_h_of V (dat V c) (dat_A V c 0) (after_h V c) t d
theorem before_wh (c : Dev nD) (t : Fin cfg3.N) (d) : (dat V c).before 1 t d = blockAt V c 1 t :=
  in_wh_of V (dat V c) (dat_A V c 1) (after_wh V c) t d
theorem before_x (c : Dev nD) (t : Fin cfg3.N) (d) : (dat V c).before 2 t d = blockAt V c 2 t :=
  in_x_of V (dat V c) (dat_A V c 2) (after_x V c) t d
theorem before_wx (c : Dev nD) (t : Fin cfg3.N) (d) : (dat V c).before 3 t d = blockAt V c 3 t :=
  in_wx_of V (dat V c) (dat_A V c 3) (after_wx V c) t d
theorem before_b (c : Dev nD) (t : Fin cfg3.N) (d) : (dat V c).before 4 t d = blockAt V c 4 t :=
  in_b_of V (dat V c) (dat_A V c 4) (after_b V c) t d
theorem before_g (c : Dev nD) (t : Fin cfg3.N) (d) : (dat V c).before 5 t d = blockAt V c 5 t :=
  in_g_of V (dat V c) (dat_A V c 5) (after_g V c) t d
theorem before_be (c : Dev nD) (t : Fin cfg3.N) (d) : (dat V c).before 6 t d = blockAt V c 6 t :=
  in_be_of V (dat V c) (dat_A V c 6) (after_be V c) t d

end Cert.KernelIdeal.R3

end
-- ==== Proof.KI.R3.Body.lean ====
/-
  The output gate logistic(LayerNorm(h·W_ho + x·W_xo + b_xo)), in the idealized kernel (pallas_call 3).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part four: the body obligation at every point.  The pipeline hands the body the invariant, the input buffers (each
  holding its block) and the output buffer.  Which case the point is in is decided by its position modulo 8; the case's
  triple then applies.  The accumulator comes out of the invariant at what the previous point left (at anything at the
  very first point) and goes back in at this point's contents; the remaining scoped buffers and the generator register
  pass through untouched.
-/
import proofs.«116394_j17480516895034_2_alg».proof.Proof.KI.R3.Data

set_option maxRecDepth 16384

noncomputable section

namespace Cert.KernelIdeal.R3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg3.N) : sProp 𝕄 :=
  iprop((dat V c).Φ t.castSucc ∗ (dat V c).owesAt () t.castSucc
    ∗ (∃ d, owns (c : Thread nD τ) (m_h t) fullShare ((dat V c).before 0 t d))
    ∗ (∃ d, owns (c : Thread nD τ) (m_wh t) fullShare ((dat V c).before 1 t d))
    ∗ (∃ d, owns (c : Thread nD τ) (m_x t) fullShare ((dat V c).before 2 t d))
    ∗ (∃ d, owns (c : Thread nD τ) (m_wx t) fullShare ((dat V c).before 3 t d))
    ∗ (∃ d, owns (c : Thread nD τ) (m_b t) fullShare ((dat V c).before 4 t d))
    ∗ (∃ d, owns (c : Thread nD τ) (m_g t) fullShare ((dat V c).before 5 t d))
    ∗ (∃ d, owns (c : Thread nD τ) (m_be t) fullShare ((dat V c).before 6 t d))
    ∗ (∃ d, owns (c : Thread nD τ) (m_out t) fullShare ((dat V c).before 7 t d)))

/-- and what it returns. -/
def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 4800000 in
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_h, before_wh, before_x, before_wx, before_b, before_g, before_be]
  rw [show (dat V c).owesAt () t.succ = (dat V c).owesAt () t.castSucc from rfl]
  rw [show (dat V c).Φ t.succ = inv V c (t.val + 1) t.isLt from rfl, inv_succ]
  have hN : t.val < 16 := lt_of_lt_of_eq t.isLt (show cfg3.N = 16 from N_3)
  rw [show (dat V c).leavesExact 0 t = owns (c : Thread nD τ) (m_h t) fullShare ((dat V c).after 0 t) from by
    unfold Dat.leavesExact; rw [live_h t], after_h]
  rw [show (dat V c).leavesExact 1 t = owns (c : Thread nD τ) (m_wh t) fullShare ((dat V c).after 1 t) from by
    unfold Dat.leavesExact; rw [live_wh t], after_wh]
  rw [show (dat V c).leavesExact 2 t = owns (c : Thread nD τ) (m_x t) fullShare ((dat V c).after 2 t) from by
    unfold Dat.leavesExact; rw [live_x t], after_x]
  rw [show (dat V c).leavesExact 3 t = owns (c : Thread nD τ) (m_wx t) fullShare ((dat V c).after 3 t) from by
    unfold Dat.leavesExact; rw [live_wx t], after_wx]
  rw [show (dat V c).leavesExact 4 t = owns (c : Thread nD τ) (m_b t) fullShare ((dat V c).after 4 t) from by
    unfold Dat.leavesExact; rw [live_b t], after_b]
  rw [show (dat V c).leavesExact 5 t = owns (c : Thread nD τ) (m_g t) fullShare ((dat V c).after 5 t) from by
    unfold Dat.leavesExact; rw [live_g t], after_g]
  rw [show (dat V c).leavesExact 6 t = owns (c : Thread nD τ) (m_be t) fullShare ((dat V c).after 6 t) from by
    unfold Dat.leavesExact; rw [live_be t], after_be]
  by_cases h0 : t.val % 8 = 0
  · have h7 : ¬t.val % 8 = 7 := by omega
    rw [Dat.leavesExact_idle (dat V c) 7 t (idle_out t (fun h => h7 ((atLast_iff t).mp h))) (noFlush_out t (fun h => h7 ((atLast_iff t).mp h)))]
    rw [heldAt_first V c t h0 h7]
    unfold accFirst; (try dsimp only)
    by_cases hz : t.val = 0
    · rw [inv_castSucc V c t, inv_zero V c _ _ hz, handed_eq]
      iintro ⟨⟨⟨HA, Hrest⟩, Hg⟩, Ho, ⟨%d0, H0⟩, ⟨%d1, H1⟩, ⟨%d2, H2⟩, ⟨%d3, H3⟩, ⟨%d4, H4⟩, ⟨%d5, H5⟩, ⟨%d6, H6⟩, ⟨%dO, HO⟩⟩
      iapply ((runFirst c (grid3.coords t) _ _ _ _ _ _ _ _ _ _ _ _ _ _ _ _ _ _ ((atFirst_iff t).mpr h0) (fun h => h7 ((atLast_iff t).mp h)) (blockAt V c 0 t) (blockAt V c 1 t) (blockAt V c 2 t) (blockAt V c 3 t) (blockAt V c 4 t) (blockAt V c 5 t) (blockAt V c 6 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HO]; · iexact HO
      isplitl [HA]; · iexact HA
      iintro ⟨H0, H1, H2, H3, H4, H5, H6, HO, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_first c _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact HO
    · rw [inv_castSucc V c t, inv_pos V c _ _ hz]
      iintro ⟨⟨⟨HA, Hrest⟩, Hg⟩, Ho, ⟨%d0, H0⟩, ⟨%d1, H1⟩, ⟨%d2, H2⟩, ⟨%d3, H3⟩, ⟨%d4, H4⟩, ⟨%d5, H5⟩, ⟨%d6, H6⟩, ⟨%dO, HO⟩⟩
      iapply ((runFirst c (grid3.coords t) _ _ _ _ _ _ _ _ _ _ _ _ _ _ _ _ _ _ ((atFirst_iff t).mpr h0) (fun h => h7 ((atLast_iff t).mp h)) (blockAt V c 0 t) (blockAt V c 1 t) (blockAt V c 2 t) (blockAt V c 3 t) (blockAt V c 4 t) (blockAt V c 5 t) (blockAt V c 6 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HO]; · iexact HO
      isplitl [HA]; · iexists _; iexact HA
      iintro ⟨H0, H1, H2, H3, H4, H5, H6, HO, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_first c _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact HO
  · have hz : t.val ≠ 0 := fun e => h0 (by rw [e])
    by_cases h7 : t.val % 8 = 7
    · rw [show (dat V c).leavesExact 7 t = owns (c : Thread nD τ) (m_out t) fullShare ((dat V c).after 7 t) from by
        unfold Dat.leavesExact; rw [live_out t ((atLast_iff t).mpr h7)], after_out]
      rw [heldAt_last V c t h0 h7]
      unfold outLast accLast; (try dsimp only)
      rw [inv_castSucc V c t, inv_pos V c _ _ hz]
      iintro ⟨⟨⟨HA, Hrest⟩, Hg⟩, Ho, ⟨%d0, H0⟩, ⟨%d1, H1⟩, ⟨%d2, H2⟩, ⟨%d3, H3⟩, ⟨%d4, H4⟩, ⟨%d5, H5⟩, ⟨%d6, H6⟩, ⟨%dO, HO⟩⟩
      iapply ((runLast c (grid3.coords t) _ _ _ _ _ _ _ _ _ _ _ _ _ _ _ _ _ _ (fun h => h0 ((atFirst_iff t).mp h)) ((atLast_iff t).mpr h7) (blockAt V c 0 t) (blockAt V c 1 t) (blockAt V c 2 t) (blockAt V c 3 t) (blockAt V c 4 t) (blockAt V c 5 t) (blockAt V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HO]; · iexists _; iexact HO
      isplitl [HA]; · iexact HA
      iintro ⟨H0, H1, H2, H3, H4, H5, H6, ⟨%eO, HO⟩, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_last c _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact HO
      ipureintro; exact View.read_writes_of_cover _ _ _ _ _ (outCover_last c _ _ _ _ _ _ _ _ _ _ _ _ _ _ _ _ _ _ _ _ _ _ _ _ _ _ _ _ _)
    · rw [Dat.leavesExact_idle (dat V c) 7 t (idle_out t (fun h => h7 ((atLast_iff t).mp h))) (noFlush_out t (fun h => h7 ((atLast_iff t).mp h)))]
      rw [heldAt_mid V c t h0 h7]
      unfold accMid; (try dsimp only)
      rw [inv_castSucc V c t, inv_pos V c _ _ hz]
      iintro ⟨⟨⟨HA, Hrest⟩, Hg⟩, Ho, ⟨%d0, H0⟩, ⟨%d1, H1⟩, ⟨%d2, H2⟩, ⟨%d3, H3⟩, ⟨%d4, H4⟩, ⟨%d5, H5⟩, ⟨%d6, H6⟩, ⟨%dO, HO⟩⟩
      iapply ((runMid c (grid3.coords t) _ _ _ _ _ _ _ _ _ _ _ _ _ _ _ _ _ _ (fun h => h0 ((atFirst_iff t).mp h)) (fun h => h7 ((atLast_iff t).mp h)) (blockAt V c 0 t) (blockAt V c 1 t) (blockAt V c 2 t) (blockAt V c 3 t) (blockAt V c 4 t) (blockAt V c 5 t) (blockAt V c 6 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HO]; · iexact HO
      isplitl [HA]; · iexact HA
      iintro ⟨H0, H1, H2, H3, H4, H5, H6, HO, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_mid c _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact HO

/-- The body obligation, at every point. -/
theorem body_obligation (c : Dev nD) : BodyObligation (dat (F := F) V c) (defs₀ (F := F)) Variants.none () Set.univ := fun t => by
  rw [bigSep_W3, bigSep_W3]
  exact sound_body V c t

/-- What the launch hands the region is the invariant before the first point. -/
theorem inv_enter (c : Dev nD) : Pipeline.ΦA spec3 c ⊢ (dat V c).Φ 0 := by
  rw [show (dat V c).Φ 0 = inv V c 0 (Nat.zero_le _) from rfl, inv_zero V c 0 _ rfl]
  try exact Idealize.SL.BI.Entails.refl _

/-- After the last point the invariant gives that back: what the accumulator holds is forgotten. -/
theorem inv_leave (c : Dev nD) : (dat V c).Φ (Fin.last cfg3.N) ⊢ Pipeline.ΦA spec3 c := by
  have ht : (Fin.last cfg3.N).val ≠ 0 := by rw [Fin.val_last]; have : cfg3.N = 16 := N_3; omega
  rw [show (dat V c).Φ (Fin.last cfg3.N) = inv V c (Fin.last cfg3.N).val (Nat.le_of_lt_succ (Fin.last cfg3.N).isLt) from rfl,
    inv_pos V c _ _ ht, handed_eq]
  iintro ⟨⟨HA, Hrest⟩, Hg⟩
  isplitl [HA Hrest]
  · isplitl [HA]
    · iexists _; iexact HA
    iexact Hrest
  iexact Hg

end Cert.KernelIdeal.R3

end
-- ==== Proof.KI.R4.Base.lean ====
/-
  The cell state c' = f·c + g·i, in the idealized kernel (pallas_call 4).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part one, names: a window's block at a point read off the array as the region finds it; that an input's staging
  buffer holds its block at every point, fetched there or not; the two conditions k = 0 and k = 7 in closed form over
  the sixteen points; where the output window is idle; the staging and scratch memrefs the body is called with.
  Everything is stated at any float instance.
-/
import proofs.«116394_j17480516895034_2_alg».proof.Proof.Gen.KernelIdeal.Launch
import proofs.«116394_j17480516895034_2_alg».proof.Proof.Gen.KernelIdeal.Skeleton
import proofs.«116394_j17480516895034_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-- Window `w`'s block at point `t`, read off its array as the region finds it. -/
def blockAt (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's block is in its staging buffer at every point, for any proof data over these arrays whose body leaves it there. -/
theorem in_f_of {c : Dev nD} (dat : Dat τ (Elt F) Unit ℕ (UR sig nD τ) ℕ cfg4 c) (hA : dat.A 0 = V c (Pipeline.arrRef spec4 0))
    (hafter : ∀ t, dat.after 0 t = blockAt V c 0 t) (t : Fin cfg4.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's block is in its staging buffer at every point, for any proof data over these arrays whose body leaves it there. -/
theorem in_c_of {c : Dev nD} (dat : Dat τ (Elt F) Unit ℕ (UR sig nD τ) ℕ cfg4 c) (hA : dat.A 1 = V c (Pipeline.arrRef spec4 1))
    (hafter : ∀ t, dat.after 1 t = blockAt V c 1 t) (t : Fin cfg4.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's block is in its staging buffer at every point, for any proof data over these arrays whose body leaves it there. -/
theorem in_g_of {c : Dev nD} (dat : Dat τ (Elt F) Unit ℕ (UR sig nD τ) ℕ cfg4 c) (hA : dat.A 2 = V c (Pipeline.arrRef spec4 2))
    (hafter : ∀ t, dat.after 2 t = blockAt V c 2 t) (t : Fin cfg4.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's block is in its staging buffer at every point, for any proof data over these arrays whose body leaves it there. -/
theorem in_i_of {c : Dev nD} (dat : Dat τ (Elt F) Unit ℕ (UR sig nD τ) ℕ cfg4 c) (hA : dat.A 3 = V c (Pipeline.arrRef spec4 3))
    (hafter : ∀ t, dat.after 3 t = blockAt V c 3 t) (t : Fin cfg4.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## The two conditions -/

/-- k = 0: the accumulator is cleared. -/
abbrev atFirst (i : grid4.Coords) : Prop := (Scalar.cmpi .ne (Scalar.extui (Scalar.cmpi .eq (BitVec.ofNat 32 (i 1).val) 0#32)) 0#32) = 1#1
theorem atFirst_iff : ∀ t : Fin cfg4.N, atFirst (grid4.coords t) ↔ t.val % 8 = 0 :=
  (by decide +kernel : ∀ t : Fin grid4.N, atFirst (grid4.coords t) ↔ t.val % 8 = 0)

/-- k = 7: the result is stored. -/
abbrev atLast (i : grid4.Coords) : Prop := k4_cond2 i = 1#1
theorem atLast_iff : ∀ t : Fin cfg4.N, atLast (grid4.coords t) ↔ t.val % 8 = 7 :=
  (by decide +kernel : ∀ t : Fin grid4.N, atLast (grid4.coords t) ↔ t.val % 8 = 7)

/-! ## Where the windows are idle -/

theorem live_f : ∀ t : Fin cfg4.N, cfg4.idle 0 (grid4.coords t) = false := by decide +kernel
theorem live_c : ∀ t : Fin cfg4.N, cfg4.idle 1 (grid4.coords t) = false := by decide +kernel
theorem live_g : ∀ t : Fin cfg4.N, cfg4.idle 2 (grid4.coords t) = false := by decide +kernel
theorem live_i : ∀ t : Fin cfg4.N, cfg4.idle 3 (grid4.coords t) = false := by decide +kernel
/-- Away from k = 7 the output window is idle and not written back. -/
theorem idle_out : ∀ t : Fin cfg4.N, ¬atLast (grid4.coords t) → cfg4.idle 4 (grid4.coords t) = true := by decide +kernel
theorem noFlush_out : ∀ t : Fin cfg4.N, ¬atLast (grid4.coords t) → (cfg4.win 4).flush t = false := by decide +kernel
/-- At k = 7 it is live. -/
theorem live_out : ∀ t : Fin cfg4.N, atLast (grid4.coords t) → cfg4.idle 4 (grid4.coords t) = false := by decide +kernel

/-! ## The memrefs the body is called with -/

/-- One staging buffer of the output window, through which its contents are stated. -/
abbrev outView : View sig .tc .vmem S1024x2048 .f32 := (Memref.whole cc4_stg4_0 : Memref sig .tc .vmem S1024x2048 .f32).view
abbrev m_f (t : Fin cfg4.N) : Memref sig .tc .vmem S1024x256 .f32 := win4_0.stage (cfg4.slots t 0)
abbrev hm_f (t : Fin cfg4.N) : (m_f t).IsWhole := hstage4_0 ((cfg4.slots t 0).cast nbuf4_0)
abbrev m_c (t : Fin cfg4.N) : Memref sig .tc .vmem S256x2048 .f32 := win4_1.stage (cfg4.slots t 1)
abbrev hm_c (t : Fin cfg4.N) : (m_c t).IsWhole := hstage4_1 ((cfg4.slots t 1).cast nbuf4_1)
abbrev m_g (t : Fin cfg4.N) : Memref sig .tc .vmem S1024x256 .f32 := win4_2.stage (cfg4.slots t 2)
abbrev hm_g (t : Fin cfg4.N) : (m_g t).IsWhole := hstage4_2 ((cfg4.slots t 2).cast nbuf4_2)
abbrev m_i (t : Fin cfg4.N) : Memref sig .tc .vmem S256x2048 .f32 := win4_3.stage (cfg4.slots t 3)
abbrev hm_i (t : Fin cfg4.N) : (m_i t).IsWhole := hstage4_3 ((cfg4.slots t 3).cast nbuf4_3)
abbrev m_out (t : Fin cfg4.N) : Memref sig .tc .vmem S1024x2048 .f32 := win4_4.stage (cfg4.slots t 4)
abbrev hm_out (t : Fin cfg4.N) : (m_out t).IsWhole := hstage4_4 ((cfg4.slots t 4).cast nbuf4_4)
/-- The accumulator: a whole scoped buffer of the kernel's own. -/
abbrev accM : Memref sig .tc .vmem S1024x2048 .f32 := Memref.whole cc4_scratch0
abbrev accView : View sig .tc .vmem S1024x2048 .f32 := accM.view

/-- What the launch hands the region, with the accumulator taken out of the scoped buffers no window stages. -/
theorem handed_eq (c : Dev nD) :
    (Pipeline.ΦA spec4 c : sProp 𝕄)
      = iprop(iprop(iprop((∃ d, owns (c : Thread nD τ) accM fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [accM, owns_whole]; try rfl

end Cert.KernelIdeal.R4

end
-- ==== Proof.KI.R4.Runs.lean ====
/-
  The cell state c' = f·c + g·i, in the idealized kernel (pallas_call 4).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part two: the body's triple in each of its three cases.  On whole staging memrefs holding the input blocks the body
  runs without fault and gives the input buffers back unchanged.  What it does to the accumulator and to the output
  buffer depends on the point:
    k = 0      the accumulator, whatever it held, ends as its stores leave it; the output buffer is not touched;
    0 < k < 7  the accumulator, at known contents, ends as its stores leave it; the output buffer is not touched;
    k = 7      as before, and the output buffer, whatever it held, ends as its one store leaves it.
  The stores are not transcribed: each case is a subtype whose witness — the list of pieces stored, last first — the
  symbolic run of the body finds.
-/
import proofs.«116394_j17480516895034_2_alg».proof.Proof.KI.R4.Base

set_option maxRecDepth 16384

noncomputable section

namespace Cert.KernelIdeal.R4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- k = 0. -/
noncomputable def runFirst (c : Dev nD) (i : grid4.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1024x2048 .f32) (harg6 : arg6.IsWhole) (arg7 : Memref sig .tc .vmem S1024x2048 .f32) (harg7 : arg7.IsWhole) (h0 : atFirst i) (h7 : ¬atLast i)
    (xf : Vec F S1024x256 .f32) (xc : Vec F S256x2048 .f32) (xg : Vec F S1024x256 .f32) (xi : Vec F S256x2048 .f32) :
    { LA : List (View.Piece (Elt F) S1024x2048 .f32) //
      ∀ (xout : Vec F S1024x2048 .f32) (E : Set ℕ) (K : PUnit → sProp 𝕄),
        iprop(owns (c : Thread nD τ) arg2 fullShare xf ∗ owns (c : Thread nD τ) arg3 fullShare xc ∗ owns (c : Thread nD τ) arg4 fullShare xg ∗ owns (c : Thread nD τ) arg5 fullShare xi ∗ owns (c : Thread nD τ) arg6 fullShare xout ∗ (∃ d, owns (c : Thread nD τ) arg7 fullShare d)
            ∗ (iprop(owns (c : Thread nD τ) arg2 fullShare xf ∗ owns (c : Thread nD τ) arg3 fullShare xc ∗ owns (c : Thread nD τ) arg4 fullShare xg ∗ owns (c : Thread nD τ) arg5 fullShare xi ∗ owns (c : Thread nD τ) arg6 fullShare xout ∗ (∃ f, arg7.view.loc (c : Thread nD τ) ↦[arg7.view.set]{fullShare} arg7.view.writes (Elt F) f LA)) -∗ K ⟨⟩))
          ⊢ wp frame (wpE (defs₀ (F := F)) Variants.none c none) E (cc4_matmul2_hp_kernel i arg2 harg2 arg3 harg3 arg4 harg4 arg5 harg5 arg6 harg6 arg7 harg7) K } := by
  refine ⟨?_, fun xout E K => ?run⟩
  case run =>
    simp only [cc4_matmul2_hp_kernel_eq_skeleton]; unfold cc4_matmul2_hp_kernel_skel
    simp only [k4_part1_eq_skeleton]; unfold k4_part1_skel
    unfold owns
    iintro ⟨⟨%f0, %hf0, H0⟩, ⟨%f1, %hf1, H1⟩, ⟨%f2, %hf2, H2⟩, ⟨%f3, %hf3, H3⟩, ⟨%fo, %hfo, HO⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hfo
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]
    · iexists _; isplitr; · ipureintro; exact harg6.read_unread _
      iexact HO
    iexists _; iexact HS

set_option maxHeartbeats 2000000 in
/-- 0 < k < 7. -/
noncomputable def runMid (c : Dev nD) (i : grid4.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1024x2048 .f32) (harg6 : arg6.IsWhole) (arg7 : Memref sig .tc .vmem S1024x2048 .f32) (harg7 : arg7.IsWhole) (h0 : ¬atFirst i) (h7 : ¬atLast i)
    (xf : Vec F S1024x256 .f32) (xc : Vec F S256x2048 .f32) (xg : Vec F S1024x256 .f32) (xi : Vec F S256x2048 .f32) (xa : Vec F S1024x2048 .f32) :
    { LA : List (View.Piece (Elt F) S1024x2048 .f32) //
      ∀ (xout : Vec F S1024x2048 .f32) (E : Set ℕ) (K : PUnit → sProp 𝕄),
        iprop(owns (c : Thread nD τ) arg2 fullShare xf ∗ owns (c : Thread nD τ) arg3 fullShare xc ∗ owns (c : Thread nD τ) arg4 fullShare xg ∗ owns (c : Thread nD τ) arg5 fullShare xi ∗ owns (c : Thread nD τ) arg6 fullShare xout ∗ owns (c : Thread nD τ) arg7 fullShare xa
            ∗ (iprop(owns (c : Thread nD τ) arg2 fullShare xf ∗ owns (c : Thread nD τ) arg3 fullShare xc ∗ owns (c : Thread nD τ) arg4 fullShare xg ∗ owns (c : Thread nD τ) arg5 fullShare xi ∗ owns (c : Thread nD τ) arg6 fullShare xout ∗ (∃ f, arg7.view.loc (c : Thread nD τ) ↦[arg7.view.set]{fullShare} arg7.view.writes (Elt F) f LA)) -∗ K ⟨⟩))
          ⊢ wp frame (wpE (defs₀ (F := F)) Variants.none c none) E (cc4_matmul2_hp_kernel i arg2 harg2 arg3 harg3 arg4 harg4 arg5 harg5 arg6 harg6 arg7 harg7) K } := by
  refine ⟨?_, fun xout E K => ?run⟩
  case run =>
    simp only [cc4_matmul2_hp_kernel_eq_skeleton]; unfold cc4_matmul2_hp_kernel_skel
    simp only [k4_part1_eq_skeleton]; unfold k4_part1_skel
    unfold owns
    iintro ⟨⟨%f0, %hf0, H0⟩, ⟨%f1, %hf1, H1⟩, ⟨%f2, %hf2, H2⟩, ⟨%f3, %hf3, H3⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfo; obtain rfl := harg7.eq_unread hfs
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]
    · iexists _; isplitr; · ipureintro; exact harg6.read_unread _
      iexact HO
    iexists _; iexact HS

set_option maxHeartbeats 2000000 in
/-- k = 7. -/
noncomputable def runLast (c : Dev nD) (i : grid4.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1024x2048 .f32) (harg6 : arg6.IsWhole) (arg7 : Memref sig .tc .vmem S1024x2048 .f32) (harg7 : arg7.IsWhole) (h0 : ¬atFirst i) (h7 : atLast i)
    (xf : Vec F S1024x256 .f32) (xc : Vec F S256x2048 .f32) (xg : Vec F S1024x256 .f32) (xi : Vec F S256x2048 .f32) (xa : Vec F S1024x2048 .f32) :
    Σ' (LO : List (View.Piece (Elt F) S1024x2048 .f32)), { LA : List (View.Piece (Elt F) S1024x2048 .f32) //
      ∀ (E : Set ℕ) (K : PUnit → sProp 𝕄),
        iprop(owns (c : Thread nD τ) arg2 fullShare xf ∗ owns (c : Thread nD τ) arg3 fullShare xc ∗ owns (c : Thread nD τ) arg4 fullShare xg ∗ owns (c : Thread nD τ) arg5 fullShare xi ∗ (∃ d, owns (c : Thread nD τ) arg6 fullShare d) ∗ owns (c : Thread nD τ) arg7 fullShare xa
            ∗ (iprop(owns (c : Thread nD τ) arg2 fullShare xf ∗ owns (c : Thread nD τ) arg3 fullShare xc ∗ owns (c : Thread nD τ) arg4 fullShare xg ∗ owns (c : Thread nD τ) arg5 fullShare xi ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LA)) -∗ K ⟨⟩))
          ⊢ wp frame (wpE (defs₀ (F := F)) Variants.none c none) E (cc4_matmul2_hp_kernel i arg2 harg2 arg3 harg3 arg4 harg4 arg5 harg5 arg6 harg6 arg7 harg7) K } := by
  refine ⟨?_, ?_, fun E K => ?run⟩
  case run =>
    simp only [cc4_matmul2_hp_kernel_eq_skeleton]; unfold cc4_matmul2_hp_kernel_skel
    simp only [k4_part1_eq_skeleton]; unfold k4_part1_skel
    unfold owns
    iintro ⟨⟨%f0, %hf0, H0⟩, ⟨%f1, %hf1, H1⟩, ⟨%f2, %hf2, H2⟩, ⟨%f3, %hf3, H3⟩, ⟨%dO, %fo, -, HO⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]; · iexists _; iexact HO
    iexists _; iexact HS

end Cert.KernelIdeal.R4

end
-- ==== Proof.KI.R4.Data.lean ====
/-
  The cell state c' = f·c + g·i, in the idealized kernel (pallas_call 4).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part three: what the buffers hold point by point.  After the body at position n the accumulator holds what that
  point's case leaves in it — at k = 0 from nothing, at every later k from what position n − 1 left — and, at k = 7,
  the output buffer holds what its one store leaves.  The region's invariant carries the accumulator at these contents
  from one point to the next, beside the other scoped buffers no window stages and the generator register, neither of
  which the body touches.
-/
import proofs.«116394_j17480516895034_2_alg».proof.Proof.KI.R4.Runs

set_option maxRecDepth 16384

noncomputable section

namespace Cert.KernelIdeal.R4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem accCover_first (c : Dev nD) (i : grid4.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1024x2048 .f32) (harg6 : arg6.IsWhole) (arg7 : Memref sig .tc .vmem S1024x2048 .f32) (harg7 : arg7.IsWhole) (h0 : atFirst i) (h7 : ¬atLast i) (xf : Vec F S1024x256 .f32) (xc : Vec F S256x2048 .f32) (xg : Vec F S1024x256 .f32) (xi : Vec F S256x2048 .f32) (y : S1024x2048.Idx) :
    ∃ pc ∈ (runFirst c i arg2 harg2 arg3 harg3 arg4 harg4 arg5 harg5 arg6 harg6 arg7 harg7 h0 h7 xf xc xg xi).1, y ∈ pc.1.set :=
  View.cover_of_tiledL (runFirst c i arg2 harg2 arg3 harg3 arg4 harg4 arg5 harg5 arg6 harg6 arg7 harg7 h0 h7 xf xc xg xi).1 S1024x2048.size (by sl_kernel_rfl) y

/-- The accumulator after a point with k = 0. -/
def accFirst (c : Dev nD) (i : grid4.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1024x2048 .f32) (harg6 : arg6.IsWhole) (arg7 : Memref sig .tc .vmem S1024x2048 .f32) (harg7 : arg7.IsWhole) (h0 : atFirst i) (h7 : ¬atLast i) (xf : Vec F S1024x256 .f32) (xc : Vec F S256x2048 .f32) (xg : Vec F S1024x256 .f32) (xi : Vec F S256x2048 .f32) : Vec F S1024x2048 .f32 :=
  accView.read (Elt F) (accView.writes (Elt F) accView.junk (runFirst c i arg2 harg2 arg3 harg3 arg4 harg4 arg5 harg5 arg6 harg6 arg7 harg7 h0 h7 xf xc xg xi).1)

theorem accCover_mid (c : Dev nD) (i : grid4.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1024x2048 .f32) (harg6 : arg6.IsWhole) (arg7 : Memref sig .tc .vmem S1024x2048 .f32) (harg7 : arg7.IsWhole) (h0 : ¬atFirst i) (h7 : ¬atLast i) (xf : Vec F S1024x256 .f32) (xc : Vec F S256x2048 .f32) (xg : Vec F S1024x256 .f32) (xi : Vec F S256x2048 .f32) (xa : Vec F S1024x2048 .f32) (y : S1024x2048.Idx) :
    ∃ pc ∈ (runMid c i arg2 harg2 arg3 harg3 arg4 harg4 arg5 harg5 arg6 harg6 arg7 harg7 h0 h7 xf xc xg xi xa).1, y ∈ pc.1.set :=
  View.cover_of_tiledL (runMid c i arg2 harg2 arg3 harg3 arg4 harg4 arg5 harg5 arg6 harg6 arg7 harg7 h0 h7 xf xc xg xi xa).1 S1024x2048.size (by sl_kernel_rfl) y

/-- The accumulator after a point with 0 < k < 7. -/
def accMid (c : Dev nD) (i : grid4.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1024x2048 .f32) (harg6 : arg6.IsWhole) (arg7 : Memref sig .tc .vmem S1024x2048 .f32) (harg7 : arg7.IsWhole) (h0 : ¬atFirst i) (h7 : ¬atLast i) (xf : Vec F S1024x256 .f32) (xc : Vec F S256x2048 .f32) (xg : Vec F S1024x256 .f32) (xi : Vec F S256x2048 .f32) (xa : Vec F S1024x2048 .f32) : Vec F S1024x2048 .f32 :=
  accView.read (Elt F) (accView.writes (Elt F) accView.junk (runMid c i arg2 harg2 arg3 harg3 arg4 harg4 arg5 harg5 arg6 harg6 arg7 harg7 h0 h7 xf xc xg xi xa).1)

theorem outCover_last (c : Dev nD) (i : grid4.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1024x2048 .f32) (harg6 : arg6.IsWhole) (arg7 : Memref sig .tc .vmem S1024x2048 .f32) (harg7 : arg7.IsWhole) (h0 : ¬atFirst i) (h7 : atLast i) (xf : Vec F S1024x256 .f32) (xc : Vec F S256x2048 .f32) (xg : Vec F S1024x256 .f32) (xi : Vec F S256x2048 .f32) (xa : Vec F S1024x2048 .f32) (y : S1024x2048.Idx) :
    ∃ pc ∈ (runLast c i arg2 harg2 arg3 harg3 arg4 harg4 arg5 harg5 arg6 harg6 arg7 harg7 h0 h7 xf xc xg xi xa).1, y ∈ pc.1.set :=
  View.cover_of_tiledL (runLast c i arg2 harg2 arg3 harg3 arg4 harg4 arg5 harg5 arg6 harg6 arg7 harg7 h0 h7 xf xc xg xi xa).1 S1024x2048.size (by sl_kernel_rfl) y

/-- The output buffer after a point with k = 7. -/
def outLast (c : Dev nD) (i : grid4.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1024x2048 .f32) (harg6 : arg6.IsWhole) (arg7 : Memref sig .tc .vmem S1024x2048 .f32) (harg7 : arg7.IsWhole) (h0 : ¬atFirst i) (h7 : atLast i) (xf : Vec F S1024x256 .f32) (xc : Vec F S256x2048 .f32) (xg : Vec F S1024x256 .f32) (xi : Vec F S256x2048 .f32) (xa : Vec F S1024x2048 .f32) : Vec F S1024x2048 .f32 :=
  outView.read (Elt F) (outView.writes (Elt F) outView.junk (runLast c i arg2 harg2 arg3 harg3 arg4 harg4 arg5 harg5 arg6 harg6 arg7 harg7 h0 h7 xf xc xg xi xa).1)

theorem accCover_last (c : Dev nD) (i : grid4.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1024x2048 .f32) (harg6 : arg6.IsWhole) (arg7 : Memref sig .tc .vmem S1024x2048 .f32) (harg7 : arg7.IsWhole) (h0 : ¬atFirst i) (h7 : atLast i) (xf : Vec F S1024x256 .f32) (xc : Vec F S256x2048 .f32) (xg : Vec F S1024x256 .f32) (xi : Vec F S256x2048 .f32) (xa : Vec F S1024x2048 .f32) (y : S1024x2048.Idx) :
    ∃ pc ∈ (runLast c i arg2 harg2 arg3 harg3 arg4 harg4 arg5 harg5 arg6 harg6 arg7 harg7 h0 h7 xf xc xg xi xa).2.1, y ∈ pc.1.set :=
  View.cover_of_tiledL (runLast c i arg2 harg2 arg3 harg3 arg4 harg4 arg5 harg5 arg6 harg6 arg7 harg7 h0 h7 xf xc xg xi xa).2.1 S1024x2048.size (by sl_kernel_rfl) y

/-- The accumulator after a point with k = 7. -/
def accLast (c : Dev nD) (i : grid4.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1024x2048 .f32) (harg6 : arg6.IsWhole) (arg7 : Memref sig .tc .vmem S1024x2048 .f32) (harg7 : arg7.IsWhole) (h0 : ¬atFirst i) (h7 : atLast i) (xf : Vec F S1024x256 .f32) (xc : Vec F S256x2048 .f32) (xg : Vec F S1024x256 .f32) (xi : Vec F S256x2048 .f32) (xa : Vec F S1024x2048 .f32) : Vec F S1024x2048 .f32 :=
  accView.read (Elt F) (accView.writes (Elt F) accView.junk (runLast c i arg2 harg2 arg3 harg3 arg4 harg4 arg5 harg5 arg6 harg6 arg7 harg7 h0 h7 xf xc xg xi xa).2.1)

/-! ## Point by point -/

/-- After the body at position `n`: the output buffer (meaningful at k = 7 only; elsewhere nothing consults it) and the
    accumulator. -/
def heldAt (c : Dev nD) : (n : ℕ) → n < cfg4.N → Vec F S1024x2048 .f32 × Vec F S1024x2048 .f32
  | 0, hn => (outView.read (Elt F) outView.junk,
      accFirst c (grid4.coords ⟨0, hn⟩) (m_f ⟨0, hn⟩) (hm_f ⟨0, hn⟩) (m_c ⟨0, hn⟩) (hm_c ⟨0, hn⟩) (m_g ⟨0, hn⟩) (hm_g ⟨0, hn⟩) (m_i ⟨0, hn⟩) (hm_i ⟨0, hn⟩) (m_out ⟨0, hn⟩) (hm_out ⟨0, hn⟩) accM (Memref.isWhole_whole _) ((atFirst_iff ⟨0, hn⟩).mpr (Nat.zero_mod _)) (fun h => (fun h => by (try dsimp only at h); omega) ((atLast_iff ⟨0, hn⟩).mp h)) (blockAt V c 0 ⟨0, hn⟩) (blockAt V c 1 ⟨0, hn⟩) (blockAt V c 2 ⟨0, hn⟩) (blockAt V c 3 ⟨0, hn⟩))
  | n + 1, hn =>
    if h0 : (n + 1) % 8 = 0 then
      if h7 : (n + 1) % 8 = 7 then
        False.elim (by omega)
      else
        (outView.read (Elt F) outView.junk,
          accFirst c (grid4.coords ⟨n + 1, hn⟩) (m_f ⟨n + 1, hn⟩) (hm_f ⟨n + 1, hn⟩) (m_c ⟨n + 1, hn⟩) (hm_c ⟨n + 1, hn⟩) (m_g ⟨n + 1, hn⟩) (hm_g ⟨n + 1, hn⟩) (m_i ⟨n + 1, hn⟩) (hm_i ⟨n + 1, hn⟩) (m_out ⟨n + 1, hn⟩) (hm_out ⟨n + 1, hn⟩) accM (Memref.isWhole_whole _) ((atFirst_iff ⟨n + 1, hn⟩).mpr h0) (fun h => h7 ((atLast_iff ⟨n + 1, hn⟩).mp h)) (blockAt V c 0 ⟨n + 1, hn⟩) (blockAt V c 1 ⟨n + 1, hn⟩) (blockAt V c 2 ⟨n + 1, hn⟩) (blockAt V c 3 ⟨n + 1, hn⟩))
    else
      if h7 : (n + 1) % 8 = 7 then
        (outLast c (grid4.coords ⟨n + 1, hn⟩) (m_f ⟨n + 1, hn⟩) (hm_f ⟨n + 1, hn⟩) (m_c ⟨n + 1, hn⟩) (hm_c ⟨n + 1, hn⟩) (m_g ⟨n + 1, hn⟩) (hm_g ⟨n + 1, hn⟩) (m_i ⟨n + 1, hn⟩) (hm_i ⟨n + 1, hn⟩) (m_out ⟨n + 1, hn⟩) (hm_out ⟨n + 1, hn⟩) accM (Memref.isWhole_whole _) (fun h => h0 ((atFirst_iff ⟨n + 1, hn⟩).mp h)) ((atLast_iff ⟨n + 1, hn⟩).mpr h7) (blockAt V c 0 ⟨n + 1, hn⟩) (blockAt V c 1 ⟨n + 1, hn⟩) (blockAt V c 2 ⟨n + 1, hn⟩) (blockAt V c 3 ⟨n + 1, hn⟩) (heldAt c n (Nat.lt_of_succ_lt hn)).2,
          accLast c (grid4.coords ⟨n + 1, hn⟩) (m_f ⟨n + 1, hn⟩) (hm_f ⟨n + 1, hn⟩) (m_c ⟨n + 1, hn⟩) (hm_c ⟨n + 1, hn⟩) (m_g ⟨n + 1, hn⟩) (hm_g ⟨n + 1, hn⟩) (m_i ⟨n + 1, hn⟩) (hm_i ⟨n + 1, hn⟩) (m_out ⟨n + 1, hn⟩) (hm_out ⟨n + 1, hn⟩) accM (Memref.isWhole_whole _) (fun h => h0 ((atFirst_iff ⟨n + 1, hn⟩).mp h)) ((atLast_iff ⟨n + 1, hn⟩).mpr h7) (blockAt V c 0 ⟨n + 1, hn⟩) (blockAt V c 1 ⟨n + 1, hn⟩) (blockAt V c 2 ⟨n + 1, hn⟩) (blockAt V c 3 ⟨n + 1, hn⟩) (heldAt c n (Nat.lt_of_succ_lt hn)).2)
      else
        (outView.read (Elt F) outView.junk,
          accMid c (grid4.coords ⟨n + 1, hn⟩) (m_f ⟨n + 1, hn⟩) (hm_f ⟨n + 1, hn⟩) (m_c ⟨n + 1, hn⟩) (hm_c ⟨n + 1, hn⟩) (m_g ⟨n + 1, hn⟩) (hm_g ⟨n + 1, hn⟩) (m_i ⟨n + 1, hn⟩) (hm_i ⟨n + 1, hn⟩) (m_out ⟨n + 1, hn⟩) (hm_out ⟨n + 1, hn⟩) accM (Memref.isWhole_whole _) (fun h => h0 ((atFirst_iff ⟨n + 1, hn⟩).mp h)) (fun h => h7 ((atLast_iff ⟨n + 1, hn⟩).mp h)) (blockAt V c 0 ⟨n + 1, hn⟩) (blockAt V c 1 ⟨n + 1, hn⟩) (blockAt V c 2 ⟨n + 1, hn⟩) (blockAt V c 3 ⟨n + 1, hn⟩) (heldAt c n (Nat.lt_of_succ_lt hn)).2)

theorem heldAt_first (c : Dev nD) (t : Fin cfg4.N) (h0 : t.val % 8 = 0) (h7 : ¬t.val % 8 = 7) :
    heldAt V c t.val t.isLt = (outView.read (Elt F) outView.junk,
      accFirst c (grid4.coords t) (m_f t) (hm_f t) (m_c t) (hm_c t) (m_g t) (hm_g t) (m_i t) (hm_i t) (m_out t) (hm_out t) accM (Memref.isWhole_whole _) ((atFirst_iff t).mpr h0) (fun h => h7 ((atLast_iff t).mp h)) (blockAt V c 0 t) (blockAt V c 1 t) (blockAt V c 2 t) (blockAt V c 3 t)) := by
  obtain ⟨n, hn⟩ := t
  cases n with
  | zero => exact rfl
  | succ n => exact (dif_pos h0).trans ((dif_neg h7).trans rfl)

theorem heldAt_mid (c : Dev nD) (t : Fin cfg4.N) (h0 : ¬t.val % 8 = 0) (h7 : ¬t.val % 8 = 7) :
    heldAt V c t.val t.isLt = (outView.read (Elt F) outView.junk,
      accMid c (grid4.coords t) (m_f t) (hm_f t) (m_c t) (hm_c t) (m_g t) (hm_g t) (m_i t) (hm_i t) (m_out t) (hm_out t) accM (Memref.isWhole_whole _) (fun h => h0 ((atFirst_iff t).mp h)) (fun h => h7 ((atLast_iff t).mp h)) (blockAt V c 0 t) (blockAt V c 1 t) (blockAt V c 2 t) (blockAt V c 3 t)
        (heldAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h7).trans rfl)

theorem heldAt_last (c : Dev nD) (t : Fin cfg4.N) (h0 : ¬t.val % 8 = 0) (h7 : t.val % 8 = 7) :
    heldAt V c t.val t.isLt = (outLast c (grid4.coords t) (m_f t) (hm_f t) (m_c t) (hm_c t) (m_g t) (hm_g t) (m_i t) (hm_i t) (m_out t) (hm_out t) accM (Memref.isWhole_whole _) (fun h => h0 ((atFirst_iff t).mp h)) ((atLast_iff t).mpr h7) (blockAt V c 0 t) (blockAt V c 1 t) (blockAt V c 2 t) (blockAt V c 3 t)
        (heldAt V c (t.val - 1) (Nat.lt_of_le_of_lt (Nat.sub_le _ _) t.isLt)).2,
      accLast c (grid4.coords t) (m_f t) (hm_f t) (m_c t) (hm_c t) (m_g t) (hm_g t) (m_i t) (hm_i t) (m_out t) (hm_out t) accM (Memref.isWhole_whole _) (fun h => h0 ((atFirst_iff t).mp h)) ((atLast_iff t).mpr h7) (blockAt V c 0 t) (blockAt V c 1 t) (blockAt V c 2 t) (blockAt V c 3 t)
        (heldAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h7).trans rfl)

/-! ## The invariant -/

/-- Before position `n`: at the start what the launch hands the region; afterwards the accumulator at what position
    `n − 1` left in it, the other scoped buffers no window stages, and the generator register. -/
def inv (c : Dev nD) : (n : ℕ) → n ≤ cfg4.N → sProp 𝕄
  | 0, _ => Pipeline.ΦA spec4 c
  | n + 1, hn => iprop(iprop(owns (c : Thread nD τ) accM fullShare ((heldAt V c n hn).2)
      ∗ Pipeline.scopedRestBut (Ix := Unit) (Name := ℕ) (U := UR sig nD τ) (Lvl := ℕ) (Val := Elt F) spec4 c [cc4_scratch0]) ∗ (∃ r, prngReg c r))

theorem inv_zero (c : Dev nD) (n : ℕ) (h : n ≤ cfg4.N) (hz : n = 0) : inv V c n h = Pipeline.ΦA spec4 c := by
  subst hz; rfl

theorem inv_succ (c : Dev nD) (n : ℕ) (hn : n < cfg4.N) :
    inv V c (n + 1) hn = iprop(iprop(owns (c : Thread nD τ) accM fullShare ((heldAt V c n hn).2)
      ∗ Pipeline.scopedRestBut (Ix := Unit) (Name := ℕ) (U := UR sig nD τ) (Lvl := ℕ) (Val := Elt F) spec4 c [cc4_scratch0]) ∗ (∃ r, prngReg c r)) := rfl

theorem inv_pos (c : Dev nD) (n : ℕ) (h : n ≤ cfg4.N) (hz : n ≠ 0) :
    inv V c n h = iprop(iprop(owns (c : Thread nD τ) accM fullShare ((heldAt V c (n - 1) (by omega)).2)
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The proof data -/

/-- The region's proof data on core `c`: the arrays as the region finds them; after the body each input's buffer at its
    block and the output's at `heldAt`; the invariant above; nothing owed; full shares. -/
def dat (c : Dev nD) : Dat τ (Elt F) Unit ℕ (UR sig nD τ) ℕ cfg4 c where
  A w := V c (Pipeline.arrRef spec4 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => (heldAt V c t.val t.isLt).1
  Φ t := inv V c t.val (Nat.le_of_lt_succ t.isLt)
  q _ := fullShare
  owed _ := 0

theorem dat_A (c : Dev nD) (w : Fin cfg4.W) : (dat V c).A w = V c (Pipeline.arrRef spec4 w) := by
  dsimp only [dat]

theorem inv_castSucc (c : Dev nD) (t : Fin cfg4.N) :
    (dat V c).Φ t.castSucc = inv V c t.val (Nat.le_of_lt t.isLt) := by
  dsimp only [dat]; simp only [Fin.coe_castSucc]

theorem after_f (c : Dev nD) (t : Fin cfg4.N) : (dat V c).after 0 t = blockAt V c 0 t := by dsimp only [dat]
theorem after_c (c : Dev nD) (t : Fin cfg4.N) : (dat V c).after 1 t = blockAt V c 1 t := by dsimp only [dat]
theorem after_g (c : Dev nD) (t : Fin cfg4.N) : (dat V c).after 2 t = blockAt V c 2 t := by dsimp only [dat]
theorem after_i (c : Dev nD) (t : Fin cfg4.N) : (dat V c).after 3 t = blockAt V c 3 t := by dsimp only [dat]
theorem after_out (c : Dev nD) (t : Fin cfg4.N) : (dat V c).after 4 t = (heldAt V c t.val t.isLt).1 := by dsimp only [dat]

theorem before_f (c : Dev nD) (t : Fin cfg4.N) (d) : (dat V c).before 0 t d = blockAt V c 0 t :=
  in_f_of V (dat V c) (dat_A V c 0) (after_f V c) t d
theorem before_c (c : Dev nD) (t : Fin cfg4.N) (d) : (dat V c).before 1 t d = blockAt V c 1 t :=
  in_c_of V (dat V c) (dat_A V c 1) (after_c V c) t d
theorem before_g (c : Dev nD) (t : Fin cfg4.N) (d) : (dat V c).before 2 t d = blockAt V c 2 t :=
  in_g_of V (dat V c) (dat_A V c 2) (after_g V c) t d
theorem before_i (c : Dev nD) (t : Fin cfg4.N) (d) : (dat V c).before 3 t d = blockAt V c 3 t :=
  in_i_of V (dat V c) (dat_A V c 3) (after_i V c) t d

end Cert.KernelIdeal.R4

end
-- ==== Proof.KI.R4.Body.lean ====
/-
  The cell state c' = f·c + g·i, in the idealized kernel (pallas_call 4).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part four: the body obligation at every point.  The pipeline hands the body the invariant, the input buffers (each
  holding its block) and the output buffer.  Which case the point is in is decided by its position modulo 8; the case's
  triple then applies.  The accumulator comes out of the invariant at what the previous point left (at anything at the
  very first point) and goes back in at this point's contents; the remaining scoped buffers and the generator register
  pass through untouched.
-/
import proofs.«116394_j17480516895034_2_alg».proof.Proof.KI.R4.Data

set_option maxRecDepth 16384

noncomputable section

namespace Cert.KernelIdeal.R4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg4.N) : sProp 𝕄 :=
  iprop((dat V c).Φ t.castSucc ∗ (dat V c).owesAt () t.castSucc
    ∗ (∃ d, owns (c : Thread nD τ) (m_f t) fullShare ((dat V c).before 0 t d))
    ∗ (∃ d, owns (c : Thread nD τ) (m_c t) fullShare ((dat V c).before 1 t d))
    ∗ (∃ d, owns (c : Thread nD τ) (m_g t) fullShare ((dat V c).before 2 t d))
    ∗ (∃ d, owns (c : Thread nD τ) (m_i t) fullShare ((dat V c).before 3 t d))
    ∗ (∃ d, owns (c : Thread nD τ) (m_out t) fullShare ((dat V c).before 4 t d)))

/-- and what it returns. -/
def bodyPost (c : Dev nD) (t : Fin cfg4.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before_f, before_c, before_g, before_i]
  rw [show (dat V c).owesAt () t.succ = (dat V c).owesAt () t.castSucc from rfl]
  rw [show (dat V c).Φ t.succ = inv V c (t.val + 1) t.isLt from rfl, inv_succ]
  have hN : t.val < 16 := lt_of_lt_of_eq t.isLt (show cfg4.N = 16 from N_4)
  rw [show (dat V c).leavesExact 0 t = owns (c : Thread nD τ) (m_f t) fullShare ((dat V c).after 0 t) from by
    unfold Dat.leavesExact; rw [live_f t], after_f]
  rw [show (dat V c).leavesExact 1 t = owns (c : Thread nD τ) (m_c t) fullShare ((dat V c).after 1 t) from by
    unfold Dat.leavesExact; rw [live_c t], after_c]
  rw [show (dat V c).leavesExact 2 t = owns (c : Thread nD τ) (m_g t) fullShare ((dat V c).after 2 t) from by
    unfold Dat.leavesExact; rw [live_g t], after_g]
  rw [show (dat V c).leavesExact 3 t = owns (c : Thread nD τ) (m_i t) fullShare ((dat V c).after 3 t) from by
    unfold Dat.leavesExact; rw [live_i t], after_i]
  by_cases h0 : t.val % 8 = 0
  · have h7 : ¬t.val % 8 = 7 := by omega
    rw [Dat.leavesExact_idle (dat V c) 4 t (idle_out t (fun h => h7 ((atLast_iff t).mp h))) (noFlush_out t (fun h => h7 ((atLast_iff t).mp h)))]
    rw [heldAt_first V c t h0 h7]
    unfold accFirst; (try dsimp only)
    by_cases hz : t.val = 0
    · rw [inv_castSucc V c t, inv_zero V c _ _ hz, handed_eq]
      iintro ⟨⟨⟨HA, Hrest⟩, Hg⟩, Ho, ⟨%d0, H0⟩, ⟨%d1, H1⟩, ⟨%d2, H2⟩, ⟨%d3, H3⟩, ⟨%dO, HO⟩⟩
      iapply ((runFirst c (grid4.coords t) _ _ _ _ _ _ _ _ _ _ _ _ ((atFirst_iff t).mpr h0) (fun h => h7 ((atLast_iff t).mp h)) (blockAt V c 0 t) (blockAt V c 1 t) (blockAt V c 2 t) (blockAt V c 3 t)).2 _ Set.univ _)
      isplitl [H0]; · iexact H0
      isplitl [H1]; · iexact H1
      isplitl [H2]; · iexact H2
      isplitl [H3]; · iexact H3
      isplitl [HO]; · iexact HO
      isplitl [HA]; · iexact HA
      iintro ⟨H0, H1, H2, H3, HO, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_first c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact HO
    · rw [inv_castSucc V c t, inv_pos V c _ _ hz]
      iintro ⟨⟨⟨HA, Hrest⟩, Hg⟩, Ho, ⟨%d0, H0⟩, ⟨%d1, H1⟩, ⟨%d2, H2⟩, ⟨%d3, H3⟩, ⟨%dO, HO⟩⟩
      iapply ((runFirst c (grid4.coords t) _ _ _ _ _ _ _ _ _ _ _ _ ((atFirst_iff t).mpr h0) (fun h => h7 ((atLast_iff t).mp h)) (blockAt V c 0 t) (blockAt V c 1 t) (blockAt V c 2 t) (blockAt V c 3 t)).2 _ Set.univ _)
      isplitl [H0]; · iexact H0
      isplitl [H1]; · iexact H1
      isplitl [H2]; · iexact H2
      isplitl [H3]; · iexact H3
      isplitl [HO]; · iexact HO
      isplitl [HA]; · iexists _; iexact HA
      iintro ⟨H0, H1, H2, H3, HO, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_first c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact HO
  · have hz : t.val ≠ 0 := fun e => h0 (by rw [e])
    by_cases h7 : t.val % 8 = 7
    · rw [show (dat V c).leavesExact 4 t = owns (c : Thread nD τ) (m_out t) fullShare ((dat V c).after 4 t) from by
        unfold Dat.leavesExact; rw [live_out t ((atLast_iff t).mpr h7)], after_out]
      rw [heldAt_last V c t h0 h7]
      unfold outLast accLast; (try dsimp only)
      rw [inv_castSucc V c t, inv_pos V c _ _ hz]
      iintro ⟨⟨⟨HA, Hrest⟩, Hg⟩, Ho, ⟨%d0, H0⟩, ⟨%d1, H1⟩, ⟨%d2, H2⟩, ⟨%d3, H3⟩, ⟨%dO, HO⟩⟩
      iapply ((runLast c (grid4.coords t) _ _ _ _ _ _ _ _ _ _ _ _ (fun h => h0 ((atFirst_iff t).mp h)) ((atLast_iff t).mpr h7) (blockAt V c 0 t) (blockAt V c 1 t) (blockAt V c 2 t) (blockAt V c 3 t) _).2.2 Set.univ _)
      isplitl [H0]; · iexact H0
      isplitl [H1]; · iexact H1
      isplitl [H2]; · iexact H2
      isplitl [H3]; · iexact H3
      isplitl [HO]; · iexists _; iexact HO
      isplitl [HA]; · iexact HA
      iintro ⟨H0, H1, H2, H3, ⟨%eO, HO⟩, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_last c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact HO
      ipureintro; exact View.read_writes_of_cover _ _ _ _ _ (outCover_last c _ _ _ _ _ _ _ _ _ _ _ _ _ _ _ _ _ _ _ _)
    · rw [Dat.leavesExact_idle (dat V c) 4 t (idle_out t (fun h => h7 ((atLast_iff t).mp h))) (noFlush_out t (fun h => h7 ((atLast_iff t).mp h)))]
      rw [heldAt_mid V c t h0 h7]
      unfold accMid; (try dsimp only)
      rw [inv_castSucc V c t, inv_pos V c _ _ hz]
      iintro ⟨⟨⟨HA, Hrest⟩, Hg⟩, Ho, ⟨%d0, H0⟩, ⟨%d1, H1⟩, ⟨%d2, H2⟩, ⟨%d3, H3⟩, ⟨%dO, HO⟩⟩
      iapply ((runMid c (grid4.coords t) _ _ _ _ _ _ _ _ _ _ _ _ (fun h => h0 ((atFirst_iff t).mp h)) (fun h => h7 ((atLast_iff t).mp h)) (blockAt V c 0 t) (blockAt V c 1 t) (blockAt V c 2 t) (blockAt V c 3 t) _).2 _ Set.univ _)
      isplitl [H0]; · iexact H0
      isplitl [H1]; · iexact H1
      isplitl [H2]; · iexact H2
      isplitl [H3]; · iexact H3
      isplitl [HO]; · iexact HO
      isplitl [HA]; · iexact HA
      iintro ⟨H0, H1, H2, H3, HO, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_mid c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact HO

/-- The body obligation, at every point. -/
theorem body_obligation (c : Dev nD) : BodyObligation (dat (F := F) V c) (defs₀ (F := F)) Variants.none () Set.univ := fun t => by
  rw [bigSep_W4, bigSep_W4]
  exact sound_body V c t

/-- What the launch hands the region is the invariant before the first point. -/
theorem inv_enter (c : Dev nD) : Pipeline.ΦA spec4 c ⊢ (dat V c).Φ 0 := by
  rw [show (dat V c).Φ 0 = inv V c 0 (Nat.zero_le _) from rfl, inv_zero V c 0 _ rfl]
  try exact Idealize.SL.BI.Entails.refl _

/-- After the last point the invariant gives that back: what the accumulator holds is forgotten. -/
theorem inv_leave (c : Dev nD) : (dat V c).Φ (Fin.last cfg4.N) ⊢ Pipeline.ΦA spec4 c := by
  have ht : (Fin.last cfg4.N).val ≠ 0 := by rw [Fin.val_last]; have : cfg4.N = 16 := N_4; omega
  rw [show (dat V c).Φ (Fin.last cfg4.N) = inv V c (Fin.last cfg4.N).val (Nat.le_of_lt_succ (Fin.last cfg4.N).isLt) from rfl,
    inv_pos V c _ _ ht, handed_eq]
  iintro ⟨⟨HA, Hrest⟩, Hg⟩
  isplitl [HA Hrest]
  · isplitl [HA]
    · iexists _; iexact HA
    iexact Hrest
  iexact Hg

end Cert.KernelIdeal.R4

end
-- ==== Proof.KI.R5.Base.lean ====
/-
  The hidden-state product h = tanh(c) · o of the idealized kernel (its sixth pallas_call), part one: names.

  The grid is 2 × 8.  Point (i, k) takes rows 1024·i … 1024·i + 1023 and columns 256·k … 256·k + 255 of c, and rows
  256·k … 256·k + 255 of o, multiplies tanh of the one block by the other, and adds the product to an accumulator kept in
  a scratch buffer between points.  The accumulator is cleared at k = 0; at k = 7 it is copied into the output block
  (rows 1024·i …), which the pipeline then writes back.  At every other point the output block is left alone.

  Here: a window's block at a point read off the array as the region finds it; that an input's staging buffer holds
  its block at every point; the two conditions k = 0 and k = 7 in closed form over the sixteen points; where the output
  window is idle; and the staging and scratch memrefs the body is called with.  Everything is stated at any float instance.
-/
import proofs.«116394_j17480516895034_2_alg».proof.Proof.Gen.KernelIdeal.Launch
import proofs.«116394_j17480516895034_2_alg».proof.Proof.Gen.KernelIdeal.Skeleton
import proofs.«116394_j17480516895034_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-- Window `w`'s block at point `t`, read off its array as the region finds it. -/
def blockAt (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The block of c is in its staging buffer at every point, for any proof data over these arrays whose body leaves it there. -/
theorem cIn_of {c : Dev nD} (dat : Dat τ (Elt F) Unit ℕ (UR sig nD τ) ℕ cfg5 c) (hA : dat.A 0 = V c (Pipeline.arrRef spec5 0))
    (hafter : ∀ t, dat.after 0 t = blockAt V c 0 t) (t : Fin cfg5.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The block of o is in its staging buffer at every point, likewise. -/
theorem oIn_of {c : Dev nD} (dat : Dat τ (Elt F) Unit ℕ (UR sig nD τ) ℕ cfg5 c) (hA : dat.A 1 = V c (Pipeline.arrRef spec5 1))
    (hafter : ∀ t, dat.after 1 t = blockAt V c 1 t) (t : Fin cfg5.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The two conditions -/

/-- k = 0: the accumulator is cleared. -/
abbrev atFirst (i : grid5.Coords) : Prop := (Scalar.cmpi .ne (Scalar.extui (Scalar.cmpi .eq (BitVec.ofNat 32 (i 1).val) 0#32)) 0#32) = 1#1
theorem atFirst_iff : ∀ t : Fin cfg5.N, atFirst (grid5.coords t) ↔ t.val % 8 = 0 :=
  (by decide +kernel : ∀ t : Fin grid5.N, atFirst (grid5.coords t) ↔ t.val % 8 = 0)

/-- k = 7: the accumulator is copied out. -/
abbrev atLast (i : grid5.Coords) : Prop := k5_cond2 i = 1#1
theorem atLast_iff : ∀ t : Fin cfg5.N, atLast (grid5.coords t) ↔ t.val % 8 = 7 :=
  (by decide +kernel : ∀ t : Fin grid5.N, atLast (grid5.coords t) ↔ t.val % 8 = 7)

/-! ## Where the windows are idle -/

theorem live_c : ∀ t : Fin cfg5.N, cfg5.idle 0 (grid5.coords t) = false := by decide +kernel
theorem live_o : ∀ t : Fin cfg5.N, cfg5.idle 1 (grid5.coords t) = false := by decide +kernel
/-- Away from k = 7 the output window is idle and not written back. -/
theorem idle_h : ∀ t : Fin cfg5.N, ¬atLast (grid5.coords t) → cfg5.idle 2 (grid5.coords t) = true := by decide +kernel
theorem noFlush_h : ∀ t : Fin cfg5.N, ¬atLast (grid5.coords t) → (cfg5.win 2).flush t = false := by decide +kernel
/-- At k = 7 it is live. -/
theorem live_h : ∀ t : Fin cfg5.N, atLast (grid5.coords t) → cfg5.idle 2 (grid5.coords t) = false := by decide +kernel

/-! ## The memrefs the body is called with -/

/-- One staging buffer of the output window, through which its contents are stated. -/
abbrev outView : View sig .tc .vmem S1024x2048 .f32 := (Memref.whole cc5_stg2_0 : Memref sig .tc .vmem S1024x2048 .f32).view
abbrev mC (t : Fin cfg5.N) : Memref sig .tc .vmem S1024x256 .f32 := win5_0.stage (cfg5.slots t 0)
abbrev hC (t : Fin cfg5.N) : (mC t).IsWhole := hstage5_0 ((cfg5.slots t 0).cast nbuf5_0)
abbrev mO (t : Fin cfg5.N) : Memref sig .tc .vmem S256x2048 .f32 := win5_1.stage (cfg5.slots t 1)
abbrev hO (t : Fin cfg5.N) : (mO t).IsWhole := hstage5_1 ((cfg5.slots t 1).cast nbuf5_1)
abbrev mH (t : Fin cfg5.N) : Memref sig .tc .vmem S1024x2048 .f32 := win5_2.stage (cfg5.slots t 2)
abbrev hH (t : Fin cfg5.N) : (mH t).IsWhole := hstage5_2 ((cfg5.slots t 2).cast nbuf5_2)
/-- The accumulator: a whole scoped buffer of the kernel's own. -/
abbrev accM : Memref sig .tc .vmem S1024x2048 .f32 := Memref.whole cc5_scratch0
abbrev accView : View sig .tc .vmem S1024x2048 .f32 := accM.view

/-- What the launch hands the region, with the accumulator taken out of the scoped buffers no window stages. -/
theorem handed_eq (c : Dev nD) :
    (Pipeline.ΦA spec5 c : sProp 𝕄)
      = iprop(iprop(iprop((∃ d, owns (c : Thread nD τ) accM fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [accM, owns_whole]; try rfl

end Cert.KernelIdeal.R5

end
-- ==== Proof.KI.R5.Runs.lean ====
/-
  The hidden-state product h = tanh(c) · o, part two: the body's triple in each of its three cases.

  On whole staging memrefs holding the block of c and the block of o, the body runs without fault and gives the two
  input buffers back unchanged.  What it does to the accumulator and to the output buffer depends on the point:
    k = 0      the accumulator, whatever it held, ends as its stores leave it (cleared, then the product added);
               the output buffer is not touched;
    0 < k < 7  the accumulator, at known contents, ends as its one store leaves it (the product added);
               the output buffer is not touched;
    k = 7      as before, and the output buffer, whatever it held, ends as its one store leaves it (the accumulator).
  The stores are not transcribed: each case is a subtype whose witness — the list of pieces stored, last first — the
  symbolic run of the body finds.
-/
import proofs.«116394_j17480516895034_2_alg».proof.Proof.KI.R5.Base

set_option maxRecDepth 16384

noncomputable section

namespace Cert.KernelIdeal.R5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- k = 0. -/
noncomputable def runFirst (c : Dev nD) (i : grid5.Coords) (arg2 : Memref sig .tc .vmem S1024x256 .f32) (harg2 : arg2.IsWhole) (arg3 : Memref sig .tc .vmem S256x2048 .f32) (harg3 : arg3.IsWhole) (arg4 : Memref sig .tc .vmem S1024x2048 .f32) (harg4 : arg4.IsWhole) (arg5 : Memref sig .tc .vmem S1024x2048 .f32) (harg5 : arg5.IsWhole) (h0 : atFirst i) (h7 : ¬atLast i)
    (xc : Vec F S1024x256 .f32) (xo : Vec F S256x2048 .f32) :
    { LA : List (View.Piece (Elt F) S1024x2048 .f32) //
      ∀ (xh : Vec F S1024x2048 .f32) (E : Set ℕ) (K : PUnit → sProp 𝕄),
        iprop(owns (c : Thread nD τ) arg2 fullShare xc ∗ owns (c : Thread nD τ) arg3 fullShare xo ∗ owns (c : Thread nD τ) arg4 fullShare xh ∗ (∃ d, owns (c : Thread nD τ) arg5 fullShare d)
            ∗ (iprop(owns (c : Thread nD τ) arg2 fullShare xc ∗ owns (c : Thread nD τ) arg3 fullShare xo ∗ owns (c : Thread nD τ) arg4 fullShare xh ∗ (∃ f, arg5.view.loc (c : Thread nD τ) ↦[arg5.view.set]{fullShare} arg5.view.writes (Elt F) f LA)) -∗ K ⟨⟩))
          ⊢ wp frame (wpE (defs₀ (F := F)) Variants.none c none) E (cc5_tanh_matmul_hp_kernel i arg2 harg2 arg3 harg3 arg4 harg4 arg5 harg5) K } := by
  refine ⟨?_, fun xh E K => ?run⟩
  case run =>
    simp only [cc5_tanh_matmul_hp_kernel_eq_skeleton]; unfold cc5_tanh_matmul_hp_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- 0 < k < 7. -/
noncomputable def runMid (c : Dev nD) (i : grid5.Coords) (arg2 : Memref sig .tc .vmem S1024x256 .f32) (harg2 : arg2.IsWhole) (arg3 : Memref sig .tc .vmem S256x2048 .f32) (harg3 : arg3.IsWhole) (arg4 : Memref sig .tc .vmem S1024x2048 .f32) (harg4 : arg4.IsWhole) (arg5 : Memref sig .tc .vmem S1024x2048 .f32) (harg5 : arg5.IsWhole) (h0 : ¬atFirst i) (h7 : ¬atLast i)
    (xc : Vec F S1024x256 .f32) (xo : Vec F S256x2048 .f32) (xa : Vec F S1024x2048 .f32) :
    { LA : List (View.Piece (Elt F) S1024x2048 .f32) //
      ∀ (xh : Vec F S1024x2048 .f32) (E : Set ℕ) (K : PUnit → sProp 𝕄),
        iprop(owns (c : Thread nD τ) arg2 fullShare xc ∗ owns (c : Thread nD τ) arg3 fullShare xo ∗ owns (c : Thread nD τ) arg4 fullShare xh ∗ owns (c : Thread nD τ) arg5 fullShare xa
            ∗ (iprop(owns (c : Thread nD τ) arg2 fullShare xc ∗ owns (c : Thread nD τ) arg3 fullShare xo ∗ owns (c : Thread nD τ) arg4 fullShare xh ∗ (∃ f, arg5.view.loc (c : Thread nD τ) ↦[arg5.view.set]{fullShare} arg5.view.writes (Elt F) f LA)) -∗ K ⟨⟩))
          ⊢ wp frame (wpE (defs₀ (F := F)) Variants.none c none) E (cc5_tanh_matmul_hp_kernel i arg2 harg2 arg3 harg3 arg4 harg4 arg5 harg5) K } := by
  refine ⟨?_, fun xh E K => ?run⟩
  case run =>
    simp only [cc5_tanh_matmul_hp_kernel_eq_skeleton]; unfold cc5_tanh_matmul_hp_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- k = 7. -/
noncomputable def runLast (c : Dev nD) (i : grid5.Coords) (arg2 : Memref sig .tc .vmem S1024x256 .f32) (harg2 : arg2.IsWhole) (arg3 : Memref sig .tc .vmem S256x2048 .f32) (harg3 : arg3.IsWhole) (arg4 : Memref sig .tc .vmem S1024x2048 .f32) (harg4 : arg4.IsWhole) (arg5 : Memref sig .tc .vmem S1024x2048 .f32) (harg5 : arg5.IsWhole) (h0 : ¬atFirst i) (h7 : atLast i)
    (xc : Vec F S1024x256 .f32) (xo : Vec F S256x2048 .f32) (xa : Vec F S1024x2048 .f32) :
    Σ' (LH : List (View.Piece (Elt F) S1024x2048 .f32)), { LA : List (View.Piece (Elt F) S1024x2048 .f32) //
      ∀ (E : Set ℕ) (K : PUnit → sProp 𝕄),
        iprop(owns (c : Thread nD τ) arg2 fullShare xc ∗ owns (c : Thread nD τ) arg3 fullShare xo ∗ (∃ d, owns (c : Thread nD τ) arg4 fullShare d) ∗ owns (c : Thread nD τ) arg5 fullShare xa
            ∗ (iprop(owns (c : Thread nD τ) arg2 fullShare xc ∗ owns (c : Thread nD τ) arg3 fullShare xo ∗ (∃ f, arg4.view.loc (c : Thread nD τ) ↦[arg4.view.set]{fullShare} arg4.view.writes (Elt F) f LH) ∗ (∃ f, arg5.view.loc (c : Thread nD τ) ↦[arg5.view.set]{fullShare} arg5.view.writes (Elt F) f LA)) -∗ K ⟨⟩))
          ⊢ wp frame (wpE (defs₀ (F := F)) Variants.none c none) E (cc5_tanh_matmul_hp_kernel i arg2 harg2 arg3 harg3 arg4 harg4 arg5 harg5) K } := by
  refine ⟨?_, ?_, fun E K => ?run⟩
  case run =>
    simp only [cc5_tanh_matmul_hp_kernel_eq_skeleton]; unfold cc5_tanh_matmul_hp_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.R5

end
-- ==== Proof.KI.R5.Data.lean ====
/-
  The hidden-state product h = tanh(c) · o, part three: what the buffers hold point by point, and the body obligation.

  After the body at position n the accumulator holds what that point's case leaves in it — at k = 0 from nothing, at
  every later k from what position n − 1 left — and, at k = 7, the output buffer holds what its one store leaves.  The
  region's invariant carries the accumulator at these contents from one point to the next, beside the other scoped
  buffers no window stages and the generator register, neither of which the body touches.
-/
import proofs.«116394_j17480516895034_2_alg».proof.Proof.KI.R5.Runs

set_option maxRecDepth 16384

noncomputable section

namespace Cert.KernelIdeal.R5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem accCover_first (c : Dev nD) (i : grid5.Coords) (arg2 : Memref sig .tc .vmem S1024x256 .f32) (harg2 : arg2.IsWhole) (arg3 : Memref sig .tc .vmem S256x2048 .f32) (harg3 : arg3.IsWhole) (arg4 : Memref sig .tc .vmem S1024x2048 .f32) (harg4 : arg4.IsWhole) (arg5 : Memref sig .tc .vmem S1024x2048 .f32) (harg5 : arg5.IsWhole) (h0 : atFirst i) (h7 : ¬atLast i) (xc : Vec F S1024x256 .f32) (xo : Vec F S256x2048 .f32) (y : S1024x2048.Idx) :
    ∃ pc ∈ (runFirst c i arg2 harg2 arg3 harg3 arg4 harg4 arg5 harg5 h0 h7 xc xo).1, y ∈ pc.1.set :=
  View.cover_of_tiledL (runFirst c i arg2 harg2 arg3 harg3 arg4 harg4 arg5 harg5 h0 h7 xc xo).1 S1024x2048.size (by sl_kernel_rfl) y

/-- The accumulator after a point with k = 0. -/
def accFirst (c : Dev nD) (i : grid5.Coords) (arg2 : Memref sig .tc .vmem S1024x256 .f32) (harg2 : arg2.IsWhole) (arg3 : Memref sig .tc .vmem S256x2048 .f32) (harg3 : arg3.IsWhole) (arg4 : Memref sig .tc .vmem S1024x2048 .f32) (harg4 : arg4.IsWhole) (arg5 : Memref sig .tc .vmem S1024x2048 .f32) (harg5 : arg5.IsWhole) (h0 : atFirst i) (h7 : ¬atLast i) (xc : Vec F S1024x256 .f32) (xo : Vec F S256x2048 .f32) : Vec F S1024x2048 .f32 :=
  accView.read (Elt F) (accView.writes (Elt F) accView.junk (runFirst c i arg2 harg2 arg3 harg3 arg4 harg4 arg5 harg5 h0 h7 xc xo).1)

theorem accCover_mid (c : Dev nD) (i : grid5.Coords) (arg2 : Memref sig .tc .vmem S1024x256 .f32) (harg2 : arg2.IsWhole) (arg3 : Memref sig .tc .vmem S256x2048 .f32) (harg3 : arg3.IsWhole) (arg4 : Memref sig .tc .vmem S1024x2048 .f32) (harg4 : arg4.IsWhole) (arg5 : Memref sig .tc .vmem S1024x2048 .f32) (harg5 : arg5.IsWhole) (h0 : ¬atFirst i) (h7 : ¬atLast i) (xc : Vec F S1024x256 .f32) (xo : Vec F S256x2048 .f32) (xa : Vec F S1024x2048 .f32) (y : S1024x2048.Idx) :
    ∃ pc ∈ (runMid c i arg2 harg2 arg3 harg3 arg4 harg4 arg5 harg5 h0 h7 xc xo xa).1, y ∈ pc.1.set :=
  View.cover_of_tiledL (runMid c i arg2 harg2 arg3 harg3 arg4 harg4 arg5 harg5 h0 h7 xc xo xa).1 S1024x2048.size (by sl_kernel_rfl) y

/-- The accumulator after a point with 0 < k < 7. -/
def accMid (c : Dev nD) (i : grid5.Coords) (arg2 : Memref sig .tc .vmem S1024x256 .f32) (harg2 : arg2.IsWhole) (arg3 : Memref sig .tc .vmem S256x2048 .f32) (harg3 : arg3.IsWhole) (arg4 : Memref sig .tc .vmem S1024x2048 .f32) (harg4 : arg4.IsWhole) (arg5 : Memref sig .tc .vmem S1024x2048 .f32) (harg5 : arg5.IsWhole) (h0 : ¬atFirst i) (h7 : ¬atLast i) (xc : Vec F S1024x256 .f32) (xo : Vec F S256x2048 .f32) (xa : Vec F S1024x2048 .f32) : Vec F S1024x2048 .f32 :=
  accView.read (Elt F) (accView.writes (Elt F) accView.junk (runMid c i arg2 harg2 arg3 harg3 arg4 harg4 arg5 harg5 h0 h7 xc xo xa).1)

theorem outCover_last (c : Dev nD) (i : grid5.Coords) (arg2 : Memref sig .tc .vmem S1024x256 .f32) (harg2 : arg2.IsWhole) (arg3 : Memref sig .tc .vmem S256x2048 .f32) (harg3 : arg3.IsWhole) (arg4 : Memref sig .tc .vmem S1024x2048 .f32) (harg4 : arg4.IsWhole) (arg5 : Memref sig .tc .vmem S1024x2048 .f32) (harg5 : arg5.IsWhole) (h0 : ¬atFirst i) (h7 : atLast i) (xc : Vec F S1024x256 .f32) (xo : Vec F S256x2048 .f32) (xa : Vec F S1024x2048 .f32) (y : S1024x2048.Idx) :
    ∃ pc ∈ (runLast c i arg2 harg2 arg3 harg3 arg4 harg4 arg5 harg5 h0 h7 xc xo xa).1, y ∈ pc.1.set :=
  View.cover_of_tiledL (runLast c i arg2 harg2 arg3 harg3 arg4 harg4 arg5 harg5 h0 h7 xc xo xa).1 S1024x2048.size (by sl_kernel_rfl) y

/-- The output buffer after a point with k = 7. -/
def outLast (c : Dev nD) (i : grid5.Coords) (arg2 : Memref sig .tc .vmem S1024x256 .f32) (harg2 : arg2.IsWhole) (arg3 : Memref sig .tc .vmem S256x2048 .f32) (harg3 : arg3.IsWhole) (arg4 : Memref sig .tc .vmem S1024x2048 .f32) (harg4 : arg4.IsWhole) (arg5 : Memref sig .tc .vmem S1024x2048 .f32) (harg5 : arg5.IsWhole) (h0 : ¬atFirst i) (h7 : atLast i) (xc : Vec F S1024x256 .f32) (xo : Vec F S256x2048 .f32) (xa : Vec F S1024x2048 .f32) : Vec F S1024x2048 .f32 :=
  outView.read (Elt F) (outView.writes (Elt F) outView.junk (runLast c i arg2 harg2 arg3 harg3 arg4 harg4 arg5 harg5 h0 h7 xc xo xa).1)

theorem accCover_last (c : Dev nD) (i : grid5.Coords) (arg2 : Memref sig .tc .vmem S1024x256 .f32) (harg2 : arg2.IsWhole) (arg3 : Memref sig .tc .vmem S256x2048 .f32) (harg3 : arg3.IsWhole) (arg4 : Memref sig .tc .vmem S1024x2048 .f32) (harg4 : arg4.IsWhole) (arg5 : Memref sig .tc .vmem S1024x2048 .f32) (harg5 : arg5.IsWhole) (h0 : ¬atFirst i) (h7 : atLast i) (xc : Vec F S1024x256 .f32) (xo : Vec F S256x2048 .f32) (xa : Vec F S1024x2048 .f32) (y : S1024x2048.Idx) :
    ∃ pc ∈ (runLast c i arg2 harg2 arg3 harg3 arg4 harg4 arg5 harg5 h0 h7 xc xo xa).2.1, y ∈ pc.1.set :=
  View.cover_of_tiledL (runLast c i arg2 harg2 arg3 harg3 arg4 harg4 arg5 harg5 h0 h7 xc xo xa).2.1 S1024x2048.size (by sl_kernel_rfl) y

/-- The accumulator after a point with k = 7. -/
def accLast (c : Dev nD) (i : grid5.Coords) (arg2 : Memref sig .tc .vmem S1024x256 .f32) (harg2 : arg2.IsWhole) (arg3 : Memref sig .tc .vmem S256x2048 .f32) (harg3 : arg3.IsWhole) (arg4 : Memref sig .tc .vmem S1024x2048 .f32) (harg4 : arg4.IsWhole) (arg5 : Memref sig .tc .vmem S1024x2048 .f32) (harg5 : arg5.IsWhole) (h0 : ¬atFirst i) (h7 : atLast i) (xc : Vec F S1024x256 .f32) (xo : Vec F S256x2048 .f32) (xa : Vec F S1024x2048 .f32) : Vec F S1024x2048 .f32 :=
  accView.read (Elt F) (accView.writes (Elt F) accView.junk (runLast c i arg2 harg2 arg3 harg3 arg4 harg4 arg5 harg5 h0 h7 xc xo xa).2.1)

/-! ## Point by point -/

/-- After the body at position `n`: the output buffer (meaningful at k = 7 only; elsewhere nothing consults it) and the
    accumulator. -/
def heldAt (c : Dev nD) : (n : ℕ) → n < cfg5.N → Vec F S1024x2048 .f32 × Vec F S1024x2048 .f32
  | 0, hn => (outView.read (Elt F) outView.junk,
      accFirst c (grid5.coords ⟨0, hn⟩) (mC ⟨0, hn⟩) (hC ⟨0, hn⟩) (mO ⟨0, hn⟩) (hO ⟨0, hn⟩) (mH ⟨0, hn⟩) (hH ⟨0, hn⟩) accM (Memref.isWhole_whole _) ((atFirst_iff ⟨0, hn⟩).mpr (Nat.zero_mod _)) (fun h => (fun h => by (try dsimp only at h); omega) ((atLast_iff ⟨0, hn⟩).mp h)) (blockAt V c 0 ⟨0, hn⟩) (blockAt V c 1 ⟨0, hn⟩))
  | n + 1, hn =>
    if h0 : (n + 1) % 8 = 0 then
      if h7 : (n + 1) % 8 = 7 then
        False.elim (by omega)
      else
        (outView.read (Elt F) outView.junk,
          accFirst c (grid5.coords ⟨n + 1, hn⟩) (mC ⟨n + 1, hn⟩) (hC ⟨n + 1, hn⟩) (mO ⟨n + 1, hn⟩) (hO ⟨n + 1, hn⟩) (mH ⟨n + 1, hn⟩) (hH ⟨n + 1, hn⟩) accM (Memref.isWhole_whole _) ((atFirst_iff ⟨n + 1, hn⟩).mpr h0) (fun h => h7 ((atLast_iff ⟨n + 1, hn⟩).mp h)) (blockAt V c 0 ⟨n + 1, hn⟩) (blockAt V c 1 ⟨n + 1, hn⟩))
    else
      if h7 : (n + 1) % 8 = 7 then
        (outLast c (grid5.coords ⟨n + 1, hn⟩) (mC ⟨n + 1, hn⟩) (hC ⟨n + 1, hn⟩) (mO ⟨n + 1, hn⟩) (hO ⟨n + 1, hn⟩) (mH ⟨n + 1, hn⟩) (hH ⟨n + 1, hn⟩) accM (Memref.isWhole_whole _) (fun h => h0 ((atFirst_iff ⟨n + 1, hn⟩).mp h)) ((atLast_iff ⟨n + 1, hn⟩).mpr h7) (blockAt V c 0 ⟨n + 1, hn⟩) (blockAt V c 1 ⟨n + 1, hn⟩) (heldAt c n (Nat.lt_of_succ_lt hn)).2,
          accLast c (grid5.coords ⟨n + 1, hn⟩) (mC ⟨n + 1, hn⟩) (hC ⟨n + 1, hn⟩) (mO ⟨n + 1, hn⟩) (hO ⟨n + 1, hn⟩) (mH ⟨n + 1, hn⟩) (hH ⟨n + 1, hn⟩) accM (Memref.isWhole_whole _) (fun h => h0 ((atFirst_iff ⟨n + 1, hn⟩).mp h)) ((atLast_iff ⟨n + 1, hn⟩).mpr h7) (blockAt V c 0 ⟨n + 1, hn⟩) (blockAt V c 1 ⟨n + 1, hn⟩) (heldAt c n (Nat.lt_of_succ_lt hn)).2)
      else
        (outView.read (Elt F) outView.junk,
          accMid c (grid5.coords ⟨n + 1, hn⟩) (mC ⟨n + 1, hn⟩) (hC ⟨n + 1, hn⟩) (mO ⟨n + 1, hn⟩) (hO ⟨n + 1, hn⟩) (mH ⟨n + 1, hn⟩) (hH ⟨n + 1, hn⟩) accM (Memref.isWhole_whole _) (fun h => h0 ((atFirst_iff ⟨n + 1, hn⟩).mp h)) (fun h => h7 ((atLast_iff ⟨n + 1, hn⟩).mp h)) (blockAt V c 0 ⟨n + 1, hn⟩) (blockAt V c 1 ⟨n + 1, hn⟩) (heldAt c n (Nat.lt_of_succ_lt hn)).2)

theorem heldAt_first (c : Dev nD) (t : Fin cfg5.N) (h0 : t.val % 8 = 0) (h7 : ¬t.val % 8 = 7) :
    heldAt V c t.val t.isLt = (outView.read (Elt F) outView.junk,
      accFirst c (grid5.coords t) (mC t) (hC t) (mO t) (hO t) (mH t) (hH t) accM (Memref.isWhole_whole _) ((atFirst_iff t).mpr h0) (fun h => h7 ((atLast_iff t).mp h)) (blockAt V c 0 t) (blockAt V c 1 t)) := by
  obtain ⟨n, hn⟩ := t
  cases n with
  | zero => exact rfl
  | succ n => exact (dif_pos h0).trans ((dif_neg h7).trans rfl)

theorem heldAt_mid (c : Dev nD) (t : Fin cfg5.N) (h0 : ¬t.val % 8 = 0) (h7 : ¬t.val % 8 = 7) :
    heldAt V c t.val t.isLt = (outView.read (Elt F) outView.junk,
      accMid c (grid5.coords t) (mC t) (hC t) (mO t) (hO t) (mH t) (hH t) accM (Memref.isWhole_whole _) (fun h => h0 ((atFirst_iff t).mp h)) (fun h => h7 ((atLast_iff t).mp h)) (blockAt V c 0 t) (blockAt V c 1 t)
        (heldAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h7).trans rfl)

theorem heldAt_last (c : Dev nD) (t : Fin cfg5.N) (h0 : ¬t.val % 8 = 0) (h7 : t.val % 8 = 7) :
    heldAt V c t.val t.isLt = (outLast c (grid5.coords t) (mC t) (hC t) (mO t) (hO t) (mH t) (hH t) accM (Memref.isWhole_whole _) (fun h => h0 ((atFirst_iff t).mp h)) ((atLast_iff t).mpr h7) (blockAt V c 0 t) (blockAt V c 1 t)
        (heldAt V c (t.val - 1) (Nat.lt_of_le_of_lt (Nat.sub_le _ _) t.isLt)).2,
      accLast c (grid5.coords t) (mC t) (hC t) (mO t) (hO t) (mH t) (hH t) accM (Memref.isWhole_whole _) (fun h => h0 ((atFirst_iff t).mp h)) ((atLast_iff t).mpr h7) (blockAt V c 0 t) (blockAt V c 1 t)
        (heldAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h7).trans rfl)

/-! ## The invariant -/

/-- Before position `n`: at the start what the launch hands the region; afterwards the accumulator at what position
    `n − 1` left in it, the other scoped buffers no window stages, and the generator register. -/
def inv (c : Dev nD) : (n : ℕ) → n ≤ cfg5.N → sProp 𝕄
  | 0, _ => Pipeline.ΦA spec5 c
  | n + 1, hn => iprop(iprop(owns (c : Thread nD τ) accM fullShare ((heldAt V c n hn).2)
      ∗ Pipeline.scopedRestBut (Ix := Unit) (Name := ℕ) (U := UR sig nD τ) (Lvl := ℕ) (Val := Elt F) spec5 c [cc5_scratch0]) ∗ (∃ r, prngReg c r))

theorem inv_zero (c : Dev nD) (n : ℕ) (h : n ≤ cfg5.N) (hz : n = 0) : inv V c n h = Pipeline.ΦA spec5 c := by
  subst hz; rfl

theorem inv_succ (c : Dev nD) (n : ℕ) (hn : n < cfg5.N) :
    inv V c (n + 1) hn = iprop(iprop(owns (c : Thread nD τ) accM fullShare ((heldAt V c n hn).2)
      ∗ Pipeline.scopedRestBut (Ix := Unit) (Name := ℕ) (U := UR sig nD τ) (Lvl := ℕ) (Val := Elt F) spec5 c [cc5_scratch0]) ∗ (∃ r, prngReg c r)) := rfl

theorem inv_pos (c : Dev nD) (n : ℕ) (h : n ≤ cfg5.N) (hz : n ≠ 0) :
    inv V c n h = iprop(iprop(owns (c : Thread nD τ) accM fullShare ((heldAt V c (n - 1) (by omega)).2)
      ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-! ## The proof data -/

/-- The region's proof data on core `c`: the arrays as the region finds them; after the body each input's buffer at its
    block and the output's at `heldAt`; the invariant above; nothing owed; full shares. -/
def dat (c : Dev nD) : Dat τ (Elt F) Unit ℕ (UR sig nD τ) ℕ cfg5 c where
  A w := V c (Pipeline.arrRef spec5 w)
  after w t := match w with
    | ⟨0, _⟩ => blockAt V c 0 t
    | ⟨1, _⟩ => blockAt V c 1 t
    | ⟨2, _⟩ => (heldAt V c t.val t.isLt).1
  Φ t := inv V c t.val (Nat.le_of_lt_succ t.isLt)
  q _ := fullShare
  owed _ := 0

theorem dat_A (c : Dev nD) (w : Fin cfg5.W) : (dat V c).A w = V c (Pipeline.arrRef spec5 w) := by
  dsimp only [dat]

theorem inv_castSucc (c : Dev nD) (t : Fin cfg5.N) :
    (dat V c).Φ t.castSucc = inv V c t.val (Nat.le_of_lt t.isLt) := by
  dsimp only [dat]; simp only [Fin.coe_castSucc]

theorem after_c (c : Dev nD) (t : Fin cfg5.N) : (dat V c).after 0 t = blockAt V c 0 t := by dsimp only [dat]
theorem after_o (c : Dev nD) (t : Fin cfg5.N) : (dat V c).after 1 t = blockAt V c 1 t := by dsimp only [dat]
theorem after_h (c : Dev nD) (t : Fin cfg5.N) : (dat V c).after 2 t = (heldAt V c t.val t.isLt).1 := by dsimp only [dat]

theorem before_c (c : Dev nD) (t : Fin cfg5.N) (d) : (dat V c).before 0 t d = blockAt V c 0 t :=
  cIn_of V (dat V c) (dat_A V c 0) (after_c V c) t d
theorem before_o (c : Dev nD) (t : Fin cfg5.N) (d) : (dat V c).before 1 t d = blockAt V c 1 t :=
  oIn_of V (dat V c) (dat_A V c 1) (after_o V c) t d

end Cert.KernelIdeal.R5

end
-- ==== Proof.KI.R5.Body.lean ====
/-
  The hidden-state product h = tanh(c) · o, part four: the body obligation at every point.

  At a point the pipeline hands the body the invariant, the two input buffers (each holding its block) and the output
  buffer.  Which case the point is in is decided by its position modulo 8; the case's triple then applies.  The
  accumulator comes out of the invariant at what the previous point left (at anything at the very first point) and goes
  back in at this point's contents; the remaining scoped buffers and the generator register pass through untouched.
-/
import proofs.«116394_j17480516895034_2_alg».proof.Proof.KI.R5.Data

set_option maxRecDepth 16384

noncomputable section

namespace Cert.KernelIdeal.R5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg5.N) : sProp 𝕄 :=
  iprop((dat V c).Φ t.castSucc ∗ (dat V c).owesAt () t.castSucc
    ∗ (∃ d, owns (c : Thread nD τ) (mC t) fullShare ((dat V c).before 0 t d))
    ∗ (∃ d, owns (c : Thread nD τ) (mO t) fullShare ((dat V c).before 1 t d))
    ∗ (∃ d, owns (c : Thread nD τ) (mH t) fullShare ((dat V c).before 2 t d)))

/-- and what it returns. -/
def bodyPost (c : Dev nD) (t : Fin cfg5.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
theorem sound_body (c : Dev nD) (t : Fin cfg5.N) :
    bodyPre V c t ⊢ wp frame (wpE (defs₀ (F := F)) Variants.none c none) Set.univ (bodyAt5 t) (fun _ => bodyPost V c t) := by
  unfold bodyPre bodyPost bodyAt5
  simp only [before_c, before_o]
  rw [show (dat V c).owesAt () t.succ = (dat V c).owesAt () t.castSucc from rfl]
  rw [show (dat V c).Φ t.succ = inv V c (t.val + 1) t.isLt from rfl, inv_succ]
  have hN : t.val < 16 := lt_of_lt_of_eq t.isLt (show cfg5.N = 16 from N_5)
  rw [show (dat V c).leavesExact 0 t = owns (c : Thread nD τ) (mC t) fullShare ((dat V c).after 0 t) from by
    unfold Dat.leavesExact; rw [live_c t], after_c]
  rw [show (dat V c).leavesExact 1 t = owns (c : Thread nD τ) (mO t) fullShare ((dat V c).after 1 t) from by
    unfold Dat.leavesExact; rw [live_o t], after_o]
  by_cases h0 : t.val % 8 = 0
  · have h7 : ¬t.val % 8 = 7 := by omega
    rw [Dat.leavesExact_idle (dat V c) 2 t (idle_h t (fun h => h7 ((atLast_iff t).mp h))) (noFlush_h t (fun h => h7 ((atLast_iff t).mp h)))]
    rw [heldAt_first V c t h0 h7]
    unfold accFirst; (try dsimp only)
    by_cases hz : t.val = 0
    · rw [inv_castSucc V c t, inv_zero V c _ _ hz, handed_eq]
      iintro ⟨⟨⟨HA, Hrest⟩, Hg⟩, Ho, ⟨%d0, H0⟩, ⟨%d1, H1⟩, ⟨%d2, H2⟩⟩
      iapply ((runFirst c (grid5.coords t) _ _ _ _ _ _ _ _ ((atFirst_iff t).mpr h0) (fun h => h7 ((atLast_iff t).mp h)) (blockAt V c 0 t) (blockAt V c 1 t)).2 _ Set.univ _)
      isplitl [H0]; · iexact H0
      isplitl [H1]; · iexact H1
      isplitl [H2]; · iexact H2
      isplitl [HA]; · iexact HA
      iintro ⟨H0, H1, H2, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_first c _ _ _ _ _ _ _ _ _ _ _ _ _)
          iexact Hrest
        iexact Hg
      isplitl [Ho]; · iexact Ho
      isplitl [H0]; · iexact H0
      isplitl [H1]; · iexact H1
      iexists _; iexact H2
    · rw [inv_castSucc V c t, inv_pos V c _ _ hz]
      iintro ⟨⟨⟨HA, Hrest⟩, Hg⟩, Ho, ⟨%d0, H0⟩, ⟨%d1, H1⟩, ⟨%d2, H2⟩⟩
      iapply ((runFirst c (grid5.coords t) _ _ _ _ _ _ _ _ ((atFirst_iff t).mpr h0) (fun h => h7 ((atLast_iff t).mp h)) (blockAt V c 0 t) (blockAt V c 1 t)).2 _ Set.univ _)
      isplitl [H0]; · iexact H0
      isplitl [H1]; · iexact H1
      isplitl [H2]; · iexact H2
      isplitl [HA]; · iexists _; iexact HA
      iintro ⟨H0, H1, H2, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_first c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun e => h0 (by rw [e])
    by_cases h7 : t.val % 8 = 7
    · rw [show (dat V c).leavesExact 2 t = owns (c : Thread nD τ) (mH t) fullShare ((dat V c).after 2 t) from by
        unfold Dat.leavesExact; rw [live_h t ((atLast_iff t).mpr h7)], after_h]
      rw [heldAt_last V c t h0 h7]
      unfold outLast accLast; (try dsimp only)
      rw [inv_castSucc V c t, inv_pos V c _ _ hz]
      iintro ⟨⟨⟨HA, Hrest⟩, Hg⟩, Ho, ⟨%d0, H0⟩, ⟨%d1, H1⟩, ⟨%d2, H2⟩⟩
      iapply ((runLast c (grid5.coords t) _ _ _ _ _ _ _ _ (fun h => h0 ((atFirst_iff t).mp h)) ((atLast_iff t).mpr h7) (blockAt V c 0 t) (blockAt V c 1 t) _).2.2 Set.univ _)
      isplitl [H0]; · iexact H0
      isplitl [H1]; · iexact H1
      isplitl [H2]; · iexists _; iexact H2
      isplitl [HA]; · iexact HA
      iintro ⟨H0, H1, ⟨%e2, H2⟩, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_last c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (outCover_last c _ _ _ _ _ _ _ _ _ _ _ _ _ _)
    · rw [Dat.leavesExact_idle (dat V c) 2 t (idle_h t (fun h => h7 ((atLast_iff t).mp h))) (noFlush_h t (fun h => h7 ((atLast_iff t).mp h)))]
      rw [heldAt_mid V c t h0 h7]
      unfold accMid; (try dsimp only)
      rw [inv_castSucc V c t, inv_pos V c _ _ hz]
      iintro ⟨⟨⟨HA, Hrest⟩, Hg⟩, Ho, ⟨%d0, H0⟩, ⟨%d1, H1⟩, ⟨%d2, H2⟩⟩
      iapply ((runMid c (grid5.coords t) _ _ _ _ _ _ _ _ (fun h => h0 ((atFirst_iff t).mp h)) (fun h => h7 ((atLast_iff t).mp h)) (blockAt V c 0 t) (blockAt V c 1 t) _).2 _ Set.univ _)
      isplitl [H0]; · iexact H0
      isplitl [H1]; · iexact H1
      isplitl [H2]; · iexact H2
      isplitl [HA]; · iexact HA
      iintro ⟨H0, H1, H2, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_mid c _ _ _ _ _ _ _ _ _ _ _ _ _ _)
          iexact Hrest
        iexact Hg
      isplitl [Ho]; · iexact Ho
      isplitl [H0]; · iexact H0
      isplitl [H1]; · iexact H1
      iexists _; iexact H2

/-- The body obligation, at every point. -/
theorem body_obligation (c : Dev nD) : BodyObligation (dat (F := F) V c) (defs₀ (F := F)) Variants.none () Set.univ := fun t => by
  rw [bigSep_W5, bigSep_W5]
  exact sound_body V c t

/-- What the launch hands the region is the invariant before the first point. -/
theorem inv_enter (c : Dev nD) : Pipeline.ΦA spec5 c ⊢ (dat V c).Φ 0 := by
  rw [show (dat V c).Φ 0 = inv V c 0 (Nat.zero_le _) from rfl, inv_zero V c 0 _ rfl]
  try exact Idealize.SL.BI.Entails.refl _

/-- After the last point the invariant gives that back: what the accumulator holds is forgotten. -/
theorem inv_leave (c : Dev nD) : (dat V c).Φ (Fin.last cfg5.N) ⊢ Pipeline.ΦA spec5 c := by
  have ht : (Fin.last cfg5.N).val ≠ 0 := by rw [Fin.val_last]; have : cfg5.N = 16 := N_5; omega
  rw [show (dat V c).Φ (Fin.last cfg5.N) = inv V c (Fin.last cfg5.N).val (Nat.le_of_lt_succ (Fin.last cfg5.N).isLt) from rfl,
    inv_pos V c _ _ ht, handed_eq]
  iintro ⟨⟨HA, Hrest⟩, Hg⟩
  isplitl [HA Hrest]
  · isplitl [HA]
    · iexists _; iexact HA
    iexact Hrest
  iexact Hg

end Cert.KernelIdeal.R5

end
-- ==== Proof.KI.R6.Base.lean ====
/-
  The output y = h'·W_y + b_y, in the idealized kernel (pallas_call 6).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part one, names: a window's block at a point read off the array as the region finds it; that an input's staging
  buffer holds its block at every point, fetched there or not; the two conditions k = 0 and k = 7 in closed form over
  the sixteen points; where the output window is idle; the staging and scratch memrefs the body is called with.
  Everything is stated at any float instance.
-/
import proofs.«116394_j17480516895034_2_alg».proof.Proof.Gen.KernelIdeal.Launch
import proofs.«116394_j17480516895034_2_alg».proof.Proof.Gen.KernelIdeal.Skeleton
import proofs.«116394_j17480516895034_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-- Window `w`'s block at point `t`, read off its array as the region finds it. -/
def blockAt (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's block is in its staging buffer at every point, for any proof data over these arrays whose body leaves it there. -/
theorem in_h_of {c : Dev nD} (dat : Dat τ (Elt F) Unit ℕ (UR sig nD τ) ℕ cfg6 c) (hA : dat.A 0 = V c (Pipeline.arrRef spec6 0))
    (hafter : ∀ t, dat.after 0 t = blockAt V c 0 t) (t : Fin cfg6.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's block is in its staging buffer at every point, for any proof data over these arrays whose body leaves it there. -/
theorem in_wy_of {c : Dev nD} (dat : Dat τ (Elt F) Unit ℕ (UR sig nD τ) ℕ cfg6 c) (hA : dat.A 1 = V c (Pipeline.arrRef spec6 1))
    (hafter : ∀ t, dat.after 1 t = blockAt V c 1 t) (t : Fin cfg6.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's block is in its staging buffer at every point, for any proof data over these arrays whose body leaves it there. -/
theorem in_b_of {c : Dev nD} (dat : Dat τ (Elt F) Unit ℕ (UR sig nD τ) ℕ cfg6 c) (hA : dat.A 2 = V c (Pipeline.arrRef spec6 2))
    (hafter : ∀ t, dat.after 2 t = blockAt V c 2 t) (t : Fin cfg6.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The two conditions -/

/-- k = 0: the accumulator is cleared. -/
abbrev atFirst (i : grid6.Coords) : Prop := (Scalar.cmpi .ne (Scalar.extui (Scalar.cmpi .eq (BitVec.ofNat 32 (i 1).val) 0#32)) 0#32) = 1#1
theorem atFirst_iff : ∀ t : Fin cfg6.N, atFirst (grid6.coords t) ↔ t.val % 8 = 0 :=
  (by decide +kernel : ∀ t : Fin grid6.N, atFirst (grid6.coords t) ↔ t.val % 8 = 0)

/-- k = 7: the result is stored. -/
abbrev atLast (i : grid6.Coords) : Prop := k6_cond2 i = 1#1
theorem atLast_iff : ∀ t : Fin cfg6.N, atLast (grid6.coords t) ↔ t.val % 8 = 7 :=
  (by decide +kernel : ∀ t : Fin grid6.N, atLast (grid6.coords t) ↔ t.val % 8 = 7)

/-! ## Where the windows are idle -/

theorem live_h : ∀ t : Fin cfg6.N, cfg6.idle 0 (grid6.coords t) = false := by decide +kernel
theorem live_wy : ∀ t : Fin cfg6.N, cfg6.idle 1 (grid6.coords t) = false := by decide +kernel
theorem live_b : ∀ t : Fin cfg6.N, cfg6.idle 2 (grid6.coords t) = false := by decide +kernel
/-- Away from k = 7 the output window is idle and not written back. -/
theorem idle_out : ∀ t : Fin cfg6.N, ¬atLast (grid6.coords t) → cfg6.idle 3 (grid6.coords t) = true := by decide +kernel
theorem noFlush_out : ∀ t : Fin cfg6.N, ¬atLast (grid6.coords t) → (cfg6.win 3).flush t = false := by decide +kernel
/-- At k = 7 it is live. -/
theorem live_out : ∀ t : Fin cfg6.N, atLast (grid6.coords t) → cfg6.idle 3 (grid6.coords t) = false := by decide +kernel

/-! ## The memrefs the body is called with -/

/-- One staging buffer of the output window, through which its contents are stated. -/
abbrev outView : View sig .tc .vmem S1024x2048 .f32 := (Memref.whole cc6_stg3_0 : Memref sig .tc .vmem S1024x2048 .f32).view
abbrev m_h (t : Fin cfg6.N) : Memref sig .tc .vmem S1024x256 .f32 := win6_0.stage (cfg6.slots t 0)
abbrev hm_h (t : Fin cfg6.N) : (m_h t).IsWhole := hstage6_0 ((cfg6.slots t 0).cast nbuf6_0)
abbrev m_wy (t : Fin cfg6.N) : Memref sig .tc .vmem S256x2048 .f32 := win6_1.stage (cfg6.slots t 1)
abbrev hm_wy (t : Fin cfg6.N) : (m_wy t).IsWhole := hstage6_1 ((cfg6.slots t 1).cast nbuf6_1)
abbrev m_b (t : Fin cfg6.N) : Memref sig .tc .vmem S1x2048 .f32 := win6_2.stage (cfg6.slots t 2)
abbrev hm_b (t : Fin cfg6.N) : (m_b t).IsWhole := hstage6_2 ((cfg6.slots t 2).cast nbuf6_2)
abbrev m_out (t : Fin cfg6.N) : Memref sig .tc .vmem S1024x2048 .f32 := win6_3.stage (cfg6.slots t 3)
abbrev hm_out (t : Fin cfg6.N) : (m_out t).IsWhole := hstage6_3 ((cfg6.slots t 3).cast nbuf6_3)
/-- The accumulator: a whole scoped buffer of the kernel's own. -/
abbrev accM : Memref sig .tc .vmem S1024x2048 .f32 := Memref.whole cc6_scratch0
abbrev accView : View sig .tc .vmem S1024x2048 .f32 := accM.view

/-- What the launch hands the region, with the accumulator taken out of the scoped buffers no window stages. -/
theorem handed_eq (c : Dev nD) :
    (Pipeline.ΦA spec6 c : sProp 𝕄)
      = iprop(iprop(iprop((∃ d, owns (c : Thread nD τ) accM fullShare d))
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [accM, owns_whole]; try rfl

end Cert.KernelIdeal.R6

end
-- ==== Proof.KI.R6.Runs.lean ====
/-
  The output y = h'·W_y + b_y, in the idealized kernel (pallas_call 6).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part two: the body's triple in each of its three cases.  On whole staging memrefs holding the input blocks the body
  runs without fault and gives the input buffers back unchanged.  What it does to the accumulator and to the output
  buffer depends on the point:
    k = 0      the accumulator, whatever it held, ends as its stores leave it; the output buffer is not touched;
    0 < k < 7  the accumulator, at known contents, ends as its stores leave it; the output buffer is not touched;
    k = 7      as before, and the output buffer, whatever it held, ends as its one store leaves it.
  The stores are not transcribed: each case is a subtype whose witness — the list of pieces stored, last first — the
  symbolic run of the body finds.
-/
import proofs.«116394_j17480516895034_2_alg».proof.Proof.KI.R6.Base

set_option maxRecDepth 16384

noncomputable section

namespace Cert.KernelIdeal.R6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- k = 0. -/
noncomputable def runFirst (c : Dev nD) (i : grid6.Coords) (arg2 : Memref sig .tc .vmem S1024x256 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (h0 : atFirst i) (h7 : ¬atLast i)
    (xh : Vec F S1024x256 .f32) (xwy : Vec F S256x2048 .f32) (xb : Vec F S1x2048 .f32) :
    { LA : List (View.Piece (Elt F) S1024x2048 .f32) //
      ∀ (xout : Vec F S1024x2048 .f32) (E : Set ℕ) (K : PUnit → sProp 𝕄),
        iprop(owns (c : Thread nD τ) arg2 fullShare xh ∗ owns (c : Thread nD τ) arg3 fullShare xwy ∗ owns (c : Thread nD τ) arg4 fullShare xb ∗ owns (c : Thread nD τ) arg5 fullShare xout ∗ (∃ d, owns (c : Thread nD τ) arg6 fullShare d)
            ∗ (iprop(owns (c : Thread nD τ) arg2 fullShare xh ∗ owns (c : Thread nD τ) arg3 fullShare xwy ∗ owns (c : Thread nD τ) arg4 fullShare xb ∗ owns (c : Thread nD τ) arg5 fullShare xout ∗ (∃ f, arg6.view.loc (c : Thread nD τ) ↦[arg6.view.set]{fullShare} arg6.view.writes (Elt F) f LA)) -∗ K ⟨⟩))
          ⊢ wp frame (wpE (defs₀ (F := F)) Variants.none c none) E (cc6_matmul_bias_hp_kernel i arg2 harg2 arg3 harg3 arg4 harg4 arg5 harg5 arg6 harg6) K } := by
  refine ⟨?_, fun xout E K => ?run⟩
  case run =>
    simp only [cc6_matmul_bias_hp_kernel_eq_skeleton]; unfold cc6_matmul_bias_hp_kernel_skel
    unfold owns
    iintro ⟨⟨%f0, %hf0, H0⟩, ⟨%f1, %hf1, H1⟩, ⟨%f2, %hf2, H2⟩, ⟨%fo, %hfo, HO⟩, ⟨%ds, %fs, -, HS⟩, Hk⟩
    obtain rfl := harg2.eq_unread hf0; obtain rfl := harg3.eq_unread hf1; obtain rfl := harg4.eq_unread hf2; obtain rfl := harg5.eq_unread hfo
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS

set_option maxHeartbeats 2000000 in
/-- 0 < k < 7. -/
noncomputable def runMid (c : Dev nD) (i : grid6.Coords) (arg2 : Memref sig .tc .vmem S1024x256 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (h0 : ¬atFirst i) (h7 : ¬atLast i)
    (xh : Vec F S1024x256 .f32) (xwy : Vec F S256x2048 .f32) (xb : Vec F S1x2048 .f32) (xa : Vec F S1024x2048 .f32) :
    { LA : List (View.Piece (Elt F) S1024x2048 .f32) //
      ∀ (xout : Vec F S1024x2048 .f32) (E : Set ℕ) (K : PUnit → sProp 𝕄),
        iprop(owns (c : Thread nD τ) arg2 fullShare xh ∗ owns (c : Thread nD τ) arg3 fullShare xwy ∗ owns (c : Thread nD τ) arg4 fullShare xb ∗ owns (c : Thread nD τ) arg5 fullShare xout ∗ owns (c : Thread nD τ) arg6 fullShare xa
            ∗ (iprop(owns (c : Thread nD τ) arg2 fullShare xh ∗ owns (c : Thread nD τ) arg3 fullShare xwy ∗ owns (c : Thread nD τ) arg4 fullShare xb ∗ owns (c : Thread nD τ) arg5 fullShare xout ∗ (∃ f, arg6.view.loc (c : Thread nD τ) ↦[arg6.view.set]{fullShare} arg6.view.writes (Elt F) f LA)) -∗ K ⟨⟩))
          ⊢ wp frame (wpE (defs₀ (F := F)) Variants.none c none) E (cc6_matmul_bias_hp_kernel i arg2 harg2 arg3 harg3 arg4 harg4 arg5 harg5 arg6 harg6) K } := by
  refine ⟨?_, fun xout E K => ?run⟩
  case run =>
    simp only [cc6_matmul_bias_hp_kernel_eq_skeleton]; unfold cc6_matmul_bias_hp_kernel_skel
    unfold owns
    iintro ⟨⟨%f0, %hf0, H0⟩, ⟨%f1, %hf1, H1⟩, ⟨%f2, %hf2, H2⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hfo; obtain rfl := harg6.eq_unread hfs
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS

set_option maxHeartbeats 2000000 in
/-- k = 7. -/
noncomputable def runLast (c : Dev nD) (i : grid6.Coords) (arg2 : Memref sig .tc .vmem S1024x256 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (h0 : ¬atFirst i) (h7 : atLast i)
    (xh : Vec F S1024x256 .f32) (xwy : Vec F S256x2048 .f32) (xb : Vec F S1x2048 .f32) (xa : Vec F S1024x2048 .f32) :
    Σ' (LO : List (View.Piece (Elt F) S1024x2048 .f32)), { LA : List (View.Piece (Elt F) S1024x2048 .f32) //
      ∀ (E : Set ℕ) (K : PUnit → sProp 𝕄),
        iprop(owns (c : Thread nD τ) arg2 fullShare xh ∗ owns (c : Thread nD τ) arg3 fullShare xwy ∗ owns (c : Thread nD τ) arg4 fullShare xb ∗ (∃ d, owns (c : Thread nD τ) arg5 fullShare d) ∗ owns (c : Thread nD τ) arg6 fullShare xa
            ∗ (iprop(owns (c : Thread nD τ) arg2 fullShare xh ∗ owns (c : Thread nD τ) arg3 fullShare xwy ∗ owns (c : Thread nD τ) arg4 fullShare xb ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LA)) -∗ K ⟨⟩))
          ⊢ wp frame (wpE (defs₀ (F := F)) Variants.none c none) E (cc6_matmul_bias_hp_kernel i arg2 harg2 arg3 harg3 arg4 harg4 arg5 harg5 arg6 harg6) K } := by
  refine ⟨?_, ?_, fun E K => ?run⟩
  case run =>
    simp only [cc6_matmul_bias_hp_kernel_eq_skeleton]; unfold cc6_matmul_bias_hp_kernel_skel
    unfold owns
    iintro ⟨⟨%f0, %hf0, H0⟩, ⟨%f1, %hf1, H1⟩, ⟨%f2, %hf2, H2⟩, ⟨%dO, %fo, -, HO⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]; · iexists _; iexact HO
    iexists _; iexact HS

end Cert.KernelIdeal.R6

end
-- ==== Proof.KI.R6.Data.lean ====
/-
  The output y = h'·W_y + b_y, in the idealized kernel (pallas_call 6).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part three: what the buffers hold point by point.  After the body at position n the accumulator holds what that
  point's case leaves in it — at k = 0 from nothing, at every later k from what position n − 1 left — and, at k = 7,
  the output buffer holds what its one store leaves.  The region's invariant carries the accumulator at these contents
  from one point to the next, beside the other scoped buffers no window stages and the generator register, neither of
  which the body touches.
-/
import proofs.«116394_j17480516895034_2_alg».proof.Proof.KI.R6.Runs

set_option maxRecDepth 16384

noncomputable section

namespace Cert.KernelIdeal.R6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem accCover_first (c : Dev nD) (i : grid6.Coords) (arg2 : Memref sig .tc .vmem S1024x256 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (h0 : atFirst i) (h7 : ¬atLast i) (xh : Vec F S1024x256 .f32) (xwy : Vec F S256x2048 .f32) (xb : Vec F S1x2048 .f32) (y : S1024x2048.Idx) :
    ∃ pc ∈ (runFirst c i arg2 harg2 arg3 harg3 arg4 harg4 arg5 harg5 arg6 harg6 h0 h7 xh xwy xb).1, y ∈ pc.1.set :=
  View.cover_of_tiledL (runFirst c i arg2 harg2 arg3 harg3 arg4 harg4 arg5 harg5 arg6 harg6 h0 h7 xh xwy xb).1 S1024x2048.size (by sl_kernel_rfl) y

/-- The accumulator after a point with k = 0. -/
def accFirst (c : Dev nD) (i : grid6.Coords) (arg2 : Memref sig .tc .vmem S1024x256 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (h0 : atFirst i) (h7 : ¬atLast i) (xh : Vec F S1024x256 .f32) (xwy : Vec F S256x2048 .f32) (xb : Vec F S1x2048 .f32) : Vec F S1024x2048 .f32 :=
  accView.read (Elt F) (accView.writes (Elt F) accView.junk (runFirst c i arg2 harg2 arg3 harg3 arg4 harg4 arg5 harg5 arg6 harg6 h0 h7 xh xwy xb).1)

theorem accCover_mid (c : Dev nD) (i : grid6.Coords) (arg2 : Memref sig .tc .vmem S1024x256 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (h0 : ¬atFirst i) (h7 : ¬atLast i) (xh : Vec F S1024x256 .f32) (xwy : Vec F S256x2048 .f32) (xb : Vec F S1x2048 .f32) (xa : Vec F S1024x2048 .f32) (y : S1024x2048.Idx) :
    ∃ pc ∈ (runMid c i arg2 harg2 arg3 harg3 arg4 harg4 arg5 harg5 arg6 harg6 h0 h7 xh xwy xb xa).1, y ∈ pc.1.set :=
  View.cover_of_tiledL (runMid c i arg2 harg2 arg3 harg3 arg4 harg4 arg5 harg5 arg6 harg6 h0 h7 xh xwy xb xa).1 S1024x2048.size (by sl_kernel_rfl) y

/-- The accumulator after a point with 0 < k < 7. -/
def accMid (c : Dev nD) (i : grid6.Coords) (arg2 : Memref sig .tc .vmem S1024x256 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (h0 : ¬atFirst i) (h7 : ¬atLast i) (xh : Vec F S1024x256 .f32) (xwy : Vec F S256x2048 .f32) (xb : Vec F S1x2048 .f32) (xa : Vec F S1024x2048 .f32) : Vec F S1024x2048 .f32 :=
  accView.read (Elt F) (accView.writes (Elt F) accView.junk (runMid c i arg2 harg2 arg3 harg3 arg4 harg4 arg5 harg5 arg6 harg6 h0 h7 xh xwy xb xa).1)

theorem outCover_last (c : Dev nD) (i : grid6.Coords) (arg2 : Memref sig .tc .vmem S1024x256 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (h0 : ¬atFirst i) (h7 : atLast i) (xh : Vec F S1024x256 .f32) (xwy : Vec F S256x2048 .f32) (xb : Vec F S1x2048 .f32) (xa : Vec F S1024x2048 .f32) (y : S1024x2048.Idx) :
    ∃ pc ∈ (runLast c i arg2 harg2 arg3 harg3 arg4 harg4 arg5 harg5 arg6 harg6 h0 h7 xh xwy xb xa).1, y ∈ pc.1.set :=
  View.cover_of_tiledL (runLast c i arg2 harg2 arg3 harg3 arg4 harg4 arg5 harg5 arg6 harg6 h0 h7 xh xwy xb xa).1 S1024x2048.size (by sl_kernel_rfl) y

/-- The output buffer after a point with k = 7. -/
def outLast (c : Dev nD) (i : grid6.Coords) (arg2 : Memref sig .tc .vmem S1024x256 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (h0 : ¬atFirst i) (h7 : atLast i) (xh : Vec F S1024x256 .f32) (xwy : Vec F S256x2048 .f32) (xb : Vec F S1x2048 .f32) (xa : Vec F S1024x2048 .f32) : Vec F S1024x2048 .f32 :=
  outView.read (Elt F) (outView.writes (Elt F) outView.junk (runLast c i arg2 harg2 arg3 harg3 arg4 harg4 arg5 harg5 arg6 harg6 h0 h7 xh xwy xb xa).1)

theorem accCover_last (c : Dev nD) (i : grid6.Coords) (arg2 : Memref sig .tc .vmem S1024x256 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (h0 : ¬atFirst i) (h7 : atLast i) (xh : Vec F S1024x256 .f32) (xwy : Vec F S256x2048 .f32) (xb : Vec F S1x2048 .f32) (xa : Vec F S1024x2048 .f32) (y : S1024x2048.Idx) :
    ∃ pc ∈ (runLast c i arg2 harg2 arg3 harg3 arg4 harg4 arg5 harg5 arg6 harg6 h0 h7 xh xwy xb xa).2.1, y ∈ pc.1.set :=
  View.cover_of_tiledL (runLast c i arg2 harg2 arg3 harg3 arg4 harg4 arg5 harg5 arg6 harg6 h0 h7 xh xwy xb xa).2.1 S1024x2048.size (by sl_kernel_rfl) y

/-- The accumulator after a point with k = 7. -/
def accLast (c : Dev nD) (i : grid6.Coords) (arg2 : Memref sig .tc .vmem S1024x256 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (h0 : ¬atFirst i) (h7 : atLast i) (xh : Vec F S1024x256 .f32) (xwy : Vec F S256x2048 .f32) (xb : Vec F S1x2048 .f32) (xa : Vec F S1024x2048 .f32) : Vec F S1024x2048 .f32 :=
  accView.read (Elt F) (accView.writes (Elt F) accView.junk (runLast c i arg2 harg2 arg3 harg3 arg4 harg4 arg5 harg5 arg6 harg6 h0 h7 xh xwy xb xa).2.1)

/-! ## Point by point -/

/-- After the body at position `n`: the output buffer (meaningful at k = 7 only; elsewhere nothing consults it) and the
    accumulator. -/
def heldAt (c : Dev nD) : (n : ℕ) → n < cfg6.N → Vec F S1024x2048 .f32 × Vec F S1024x2048 .f32
  | 0, hn => (outView.read (Elt F) outView.junk,
      accFirst c (grid6.coords ⟨0, hn⟩) (m_h ⟨0, hn⟩) (hm_h ⟨0, hn⟩) (m_wy ⟨0, hn⟩) (hm_wy ⟨0, hn⟩) (m_b ⟨0, hn⟩) (hm_b ⟨0, hn⟩) (m_out ⟨0, hn⟩) (hm_out ⟨0, hn⟩) accM (Memref.isWhole_whole _) ((atFirst_iff ⟨0, hn⟩).mpr (Nat.zero_mod _)) (fun h => (fun h => by (try dsimp only at h); omega) ((atLast_iff ⟨0, hn⟩).mp h)) (blockAt V c 0 ⟨0, hn⟩) (blockAt V c 1 ⟨0, hn⟩) (blockAt V c 2 ⟨0, hn⟩))
  | n + 1, hn =>
    if h0 : (n + 1) % 8 = 0 then
      if h7 : (n + 1) % 8 = 7 then
        False.elim (by omega)
      else
        (outView.read (Elt F) outView.junk,
          accFirst c (grid6.coords ⟨n + 1, hn⟩) (m_h ⟨n + 1, hn⟩) (hm_h ⟨n + 1, hn⟩) (m_wy ⟨n + 1, hn⟩) (hm_wy ⟨n + 1, hn⟩) (m_b ⟨n + 1, hn⟩) (hm_b ⟨n + 1, hn⟩) (m_out ⟨n + 1, hn⟩) (hm_out ⟨n + 1, hn⟩) accM (Memref.isWhole_whole _) ((atFirst_iff ⟨n + 1, hn⟩).mpr h0) (fun h => h7 ((atLast_iff ⟨n + 1, hn⟩).mp h)) (blockAt V c 0 ⟨n + 1, hn⟩) (blockAt V c 1 ⟨n + 1, hn⟩) (blockAt V c 2 ⟨n + 1, hn⟩))
    else
      if h7 : (n + 1) % 8 = 7 then
        (outLast c (grid6.coords ⟨n + 1, hn⟩) (m_h ⟨n + 1, hn⟩) (hm_h ⟨n + 1, hn⟩) (m_wy ⟨n + 1, hn⟩) (hm_wy ⟨n + 1, hn⟩) (m_b ⟨n + 1, hn⟩) (hm_b ⟨n + 1, hn⟩) (m_out ⟨n + 1, hn⟩) (hm_out ⟨n + 1, hn⟩) accM (Memref.isWhole_whole _) (fun h => h0 ((atFirst_iff ⟨n + 1, hn⟩).mp h)) ((atLast_iff ⟨n + 1, hn⟩).mpr h7) (blockAt V c 0 ⟨n + 1, hn⟩) (blockAt V c 1 ⟨n + 1, hn⟩) (blockAt V c 2 ⟨n + 1, hn⟩) (heldAt c n (Nat.lt_of_succ_lt hn)).2,
          accLast c (grid6.coords ⟨n + 1, hn⟩) (m_h ⟨n + 1, hn⟩) (hm_h ⟨n + 1, hn⟩) (m_wy ⟨n + 1, hn⟩) (hm_wy ⟨n + 1, hn⟩) (m_b ⟨n + 1, hn⟩) (hm_b ⟨n + 1, hn⟩) (m_out ⟨n + 1, hn⟩) (hm_out ⟨n + 1, hn⟩) accM (Memref.isWhole_whole _) (fun h => h0 ((atFirst_iff ⟨n + 1, hn⟩).mp h)) ((atLast_iff ⟨n + 1, hn⟩).mpr h7) (blockAt V c 0 ⟨n + 1, hn⟩) (blockAt V c 1 ⟨n + 1, hn⟩) (blockAt V c 2 ⟨n + 1, hn⟩) (heldAt c n (Nat.lt_of_succ_lt hn)).2)
      else
        (outView.read (Elt F) outView.junk,
          accMid c (grid6.coords ⟨n + 1, hn⟩) (m_h ⟨n + 1, hn⟩) (hm_h ⟨n + 1, hn⟩) (m_wy ⟨n + 1, hn⟩) (hm_wy ⟨n + 1, hn⟩) (m_b ⟨n + 1, hn⟩) (hm_b ⟨n + 1, hn⟩) (m_out ⟨n + 1, hn⟩) (hm_out ⟨n + 1, hn⟩) accM (Memref.isWhole_whole _) (fun h => h0 ((atFirst_iff ⟨n + 1, hn⟩).mp h)) (fun h => h7 ((atLast_iff ⟨n + 1, hn⟩).mp h)) (blockAt V c 0 ⟨n + 1, hn⟩) (blockAt V c 1 ⟨n + 1, hn⟩) (blockAt V c 2 ⟨n + 1, hn⟩) (heldAt c n (Nat.lt_of_succ_lt hn)).2)

theorem heldAt_first (c : Dev nD) (t : Fin cfg6.N) (h0 : t.val % 8 = 0) (h7 : ¬t.val % 8 = 7) :
    heldAt V c t.val t.isLt = (outView.read (Elt F) outView.junk,
      accFirst c (grid6.coords t) (m_h t) (hm_h t) (m_wy t) (hm_wy t) (m_b t) (hm_b t) (m_out t) (hm_out t) accM (Memref.isWhole_whole _) ((atFirst_iff t).mpr h0) (fun h => h7 ((atLast_iff t).mp h)) (blockAt V c 0 t) (blockAt V c 1 t) (blockAt V c 2 t)) := by
  obtain ⟨n, hn⟩ := t
  cases n with
  | zero => exact rfl
  | succ n => exact (dif_pos h0).trans ((dif_neg h7).trans rfl)

theorem heldAt_mid (c : Dev nD) (t : Fin cfg6.N) (h0 : ¬t.val % 8 = 0) (h7 : ¬t.val % 8 = 7) :
    heldAt V c t.val t.isLt = (outView.read (Elt F) outView.junk,
      accMid c (grid6.coords t) (m_h t) (hm_h t) (m_wy t) (hm_wy t) (m_b t) (hm_b t) (m_out t) (hm_out t) accM (Memref.isWhole_whole _) (fun h => h0 ((atFirst_iff t).mp h)) (fun h => h7 ((atLast_iff t).mp h)) (blockAt V c 0 t) (blockAt V c 1 t) (blockAt V c 2 t)
        (heldAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h7).trans rfl)

theorem heldAt_last (c : Dev nD) (t : Fin cfg6.N) (h0 : ¬t.val % 8 = 0) (h7 : t.val % 8 = 7) :
    heldAt V c t.val t.isLt = (outLast c (grid6.coords t) (m_h t) (hm_h t) (m_wy t) (hm_wy t) (m_b t) (hm_b t) (m_out t) (hm_out t) accM (Memref.isWhole_whole _) (fun h => h0 ((atFirst_iff t).mp h)) ((atLast_iff t).mpr h7) (blockAt V c 0 t) (blockAt V c 1 t) (blockAt V c 2 t)
        (heldAt V c (t.val - 1) (Nat.lt_of_le_of_lt (Nat.sub_le _ _) t.isLt)).2,
      accLast c (grid6.coords t) (m_h t) (hm_h t) (m_wy t) (hm_wy t) (m_b t) (hm_b t) (m_out t) (hm_out t) accM (Memref.isWhole_whole _) (fun h => h0 ((atFirst_iff t).mp h)) ((atLast_iff t).mpr h7) (blockAt V c 0 t) (blockAt V c 1 t) (blockAt V c 2 t)
        (heldAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h7).trans rfl)

/-! ## The invariant -/

/-- Before position `n`: at the start what the launch hands the region; afterwards the accumulator at what position
    `n − 1` left in it, the other scoped buffers no window stages, and the generator register. -/
def inv (c : Dev nD) : (n : ℕ) → n ≤ cfg6.N → sProp 𝕄
  | 0, _ => Pipeline.ΦA spec6 c
  | n + 1, hn => iprop(iprop(owns (c : Thread nD τ) accM fullShare ((heldAt V c n hn).2)
      ∗ Pipeline.scopedRestBut (Ix := Unit) (Name := ℕ) (U := UR sig nD τ) (Lvl := ℕ) (Val := Elt F) spec6 c [cc6_scratch0]) ∗ (∃ r, prngReg c r))

theorem inv_zero (c : Dev nD) (n : ℕ) (h : n ≤ cfg6.N) (hz : n = 0) : inv V c n h = Pipeline.ΦA spec6 c := by
  subst hz; rfl

theorem inv_succ (c : Dev nD) (n : ℕ) (hn : n < cfg6.N) :
    inv V c (n + 1) hn = iprop(iprop(owns (c : Thread nD τ) accM fullShare ((heldAt V c n hn).2)
      ∗ Pipeline.scopedRestBut (Ix := Unit) (Name := ℕ) (U := UR sig nD τ) (Lvl := ℕ) (Val := Elt F) spec6 c [cc6_scratch0]) ∗ (∃ r, prngReg c r)) := rfl

theorem inv_pos (c : Dev nD) (n : ℕ) (h : n ≤ cfg6.N) (hz : n ≠ 0) :
    inv V c n h = iprop(iprop(owns (c : Thread nD τ) accM fullShare ((heldAt V c (n - 1) (by omega)).2)
      ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

/-! ## The proof data -/

/-- The region's proof data on core `c`: the arrays as the region finds them; after the body each input's buffer at its
    block and the output's at `heldAt`; the invariant above; nothing owed; full shares. -/
def dat (c : Dev nD) : Dat τ (Elt F) Unit ℕ (UR sig nD τ) ℕ cfg6 c where
  A w := V c (Pipeline.arrRef spec6 w)
  after w t := match w with
    | ⟨0, _⟩ => blockAt V c 0 t
    | ⟨1, _⟩ => blockAt V c 1 t
    | ⟨2, _⟩ => blockAt V c 2 t
    | ⟨3, _⟩ => (heldAt V c t.val t.isLt).1
  Φ t := inv V c t.val (Nat.le_of_lt_succ t.isLt)
  q _ := fullShare
  owed _ := 0

theorem dat_A (c : Dev nD) (w : Fin cfg6.W) : (dat V c).A w = V c (Pipeline.arrRef spec6 w) := by
  dsimp only [dat]

theorem inv_castSucc (c : Dev nD) (t : Fin cfg6.N) :
    (dat V c).Φ t.castSucc = inv V c t.val (Nat.le_of_lt t.isLt) := by
  dsimp only [dat]; simp only [Fin.coe_castSucc]

theorem after_h (c : Dev nD) (t : Fin cfg6.N) : (dat V c).after 0 t = blockAt V c 0 t := by dsimp only [dat]
theorem after_wy (c : Dev nD) (t : Fin cfg6.N) : (dat V c).after 1 t = blockAt V c 1 t := by dsimp only [dat]
theorem after_b (c : Dev nD) (t : Fin cfg6.N) : (dat V c).after 2 t = blockAt V c 2 t := by dsimp only [dat]
theorem after_out (c : Dev nD) (t : Fin cfg6.N) : (dat V c).after 3 t = (heldAt V c t.val t.isLt).1 := by dsimp only [dat]

theorem before_h (c : Dev nD) (t : Fin cfg6.N) (d) : (dat V c).before 0 t d = blockAt V c 0 t :=
  in_h_of V (dat V c) (dat_A V c 0) (after_h V c) t d
theorem before_wy (c : Dev nD) (t : Fin cfg6.N) (d) : (dat V c).before 1 t d = blockAt V c 1 t :=
  in_wy_of V (dat V c) (dat_A V c 1) (after_wy V c) t d
theorem before_b (c : Dev nD) (t : Fin cfg6.N) (d) : (dat V c).before 2 t d = blockAt V c 2 t :=
  in_b_of V (dat V c) (dat_A V c 2) (after_b V c) t d

end Cert.KernelIdeal.R6

end
-- ==== Proof.KI.R6.Body.lean ====
/-
  The output y = h'·W_y + b_y, in the idealized kernel (pallas_call 6).

  The grid is 2 × 8.  Point (i, k) works on rows 1024·i … 1024·i + 1023 and on the k-th block of 256 of the contracted
  axis, and adds its products to an accumulator kept in a scratch buffer between points.  The accumulator is cleared at
  k = 0; at k = 7 the result is formed from it and stored into the output block (rows 1024·i …), which the pipeline
  then writes back.  At every other point the output block is left alone.

  Part four: the body obligation at every point.  The pipeline hands the body the invariant, the input buffers (each
  holding its block) and the output buffer.  Which case the point is in is decided by its position modulo 8; the case's
  triple then applies.  The accumulator comes out of the invariant at what the previous point left (at anything at the
  very first point) and goes back in at this point's contents; the remaining scoped buffers and the generator register
  pass through untouched.
-/
import proofs.«116394_j17480516895034_2_alg».proof.Proof.KI.R6.Data

set_option maxRecDepth 16384

noncomputable section

namespace Cert.KernelIdeal.R6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg6.N) : sProp 𝕄 :=
  iprop((dat V c).Φ t.castSucc ∗ (dat V c).owesAt () t.castSucc
    ∗ (∃ d, owns (c : Thread nD τ) (m_h t) fullShare ((dat V c).before 0 t d))
    ∗ (∃ d, owns (c : Thread nD τ) (m_wy t) fullShare ((dat V c).before 1 t d))
    ∗ (∃ d, owns (c : Thread nD τ) (m_b t) fullShare ((dat V c).before 2 t d))
    ∗ (∃ d, owns (c : Thread nD τ) (m_out t) fullShare ((dat V c).before 3 t d)))

/-- and what it returns. -/
def bodyPost (c : Dev nD) (t : Fin cfg6.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
theorem sound_body (c : Dev nD) (t : Fin cfg6.N) :
    bodyPre V c t ⊢ wp frame (wpE (defs₀ (F := F)) Variants.none c none) Set.univ (bodyAt6 t) (fun _ => bodyPost V c t) := by
  unfold bodyPre bodyPost bodyAt6
  simp only [before_h, before_wy, before_b]
  rw [show (dat V c).owesAt () t.succ = (dat V c).owesAt () t.castSucc from rfl]
  rw [show (dat V c).Φ t.succ = inv V c (t.val + 1) t.isLt from rfl, inv_succ]
  have hN : t.val < 16 := lt_of_lt_of_eq t.isLt (show cfg6.N = 16 from N_6)
  rw [show (dat V c).leavesExact 0 t = owns (c : Thread nD τ) (m_h t) fullShare ((dat V c).after 0 t) from by
    unfold Dat.leavesExact; rw [live_h t], after_h]
  rw [show (dat V c).leavesExact 1 t = owns (c : Thread nD τ) (m_wy t) fullShare ((dat V c).after 1 t) from by
    unfold Dat.leavesExact; rw [live_wy t], after_wy]
  rw [show (dat V c).leavesExact 2 t = owns (c : Thread nD τ) (m_b t) fullShare ((dat V c).after 2 t) from by
    unfold Dat.leavesExact; rw [live_b t], after_b]
  by_cases h0 : t.val % 8 = 0
  · have h7 : ¬t.val % 8 = 7 := by omega
    rw [Dat.leavesExact_idle (dat V c) 3 t (idle_out t (fun h => h7 ((atLast_iff t).mp h))) (noFlush_out t (fun h => h7 ((atLast_iff t).mp h)))]
    rw [heldAt_first V c t h0 h7]
    unfold accFirst; (try dsimp only)
    by_cases hz : t.val = 0
    · rw [inv_castSucc V c t, inv_zero V c _ _ hz, handed_eq]
      iintro ⟨⟨⟨HA, Hrest⟩, Hg⟩, Ho, ⟨%d0, H0⟩, ⟨%d1, H1⟩, ⟨%d2, H2⟩, ⟨%dO, HO⟩⟩
      iapply ((runFirst c (grid6.coords t) _ _ _ _ _ _ _ _ _ _ ((atFirst_iff t).mpr h0) (fun h => h7 ((atLast_iff t).mp h)) (blockAt V c 0 t) (blockAt V c 1 t) (blockAt V c 2 t)).2 _ Set.univ _)
      isplitl [H0]; · iexact H0
      isplitl [H1]; · iexact H1
      isplitl [H2]; · iexact H2
      isplitl [HO]; · iexact HO
      isplitl [HA]; · iexact HA
      iintro ⟨H0, H1, H2, HO, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_first c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact HO
    · rw [inv_castSucc V c t, inv_pos V c _ _ hz]
      iintro ⟨⟨⟨HA, Hrest⟩, Hg⟩, Ho, ⟨%d0, H0⟩, ⟨%d1, H1⟩, ⟨%d2, H2⟩, ⟨%dO, HO⟩⟩
      iapply ((runFirst c (grid6.coords t) _ _ _ _ _ _ _ _ _ _ ((atFirst_iff t).mpr h0) (fun h => h7 ((atLast_iff t).mp h)) (blockAt V c 0 t) (blockAt V c 1 t) (blockAt V c 2 t)).2 _ Set.univ _)
      isplitl [H0]; · iexact H0
      isplitl [H1]; · iexact H1
      isplitl [H2]; · iexact H2
      isplitl [HO]; · iexact HO
      isplitl [HA]; · iexists _; iexact HA
      iintro ⟨H0, H1, H2, HO, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_first c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact HO
  · have hz : t.val ≠ 0 := fun e => h0 (by rw [e])
    by_cases h7 : t.val % 8 = 7
    · rw [show (dat V c).leavesExact 3 t = owns (c : Thread nD τ) (m_out t) fullShare ((dat V c).after 3 t) from by
        unfold Dat.leavesExact; rw [live_out t ((atLast_iff t).mpr h7)], after_out]
      rw [heldAt_last V c t h0 h7]
      unfold outLast accLast; (try dsimp only)
      rw [inv_castSucc V c t, inv_pos V c _ _ hz]
      iintro ⟨⟨⟨HA, Hrest⟩, Hg⟩, Ho, ⟨%d0, H0⟩, ⟨%d1, H1⟩, ⟨%d2, H2⟩, ⟨%dO, HO⟩⟩
      iapply ((runLast c (grid6.coords t) _ _ _ _ _ _ _ _ _ _ (fun h => h0 ((atFirst_iff t).mp h)) ((atLast_iff t).mpr h7) (blockAt V c 0 t) (blockAt V c 1 t) (blockAt V c 2 t) _).2.2 Set.univ _)
      isplitl [H0]; · iexact H0
      isplitl [H1]; · iexact H1
      isplitl [H2]; · iexact H2
      isplitl [HO]; · iexists _; iexact HO
      isplitl [HA]; · iexact HA
      iintro ⟨H0, H1, H2, ⟨%eO, HO⟩, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_last c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact HO
      ipureintro; exact View.read_writes_of_cover _ _ _ _ _ (outCover_last c _ _ _ _ _ _ _ _ _ _ _ _ _ _ _ _ _)
    · rw [Dat.leavesExact_idle (dat V c) 3 t (idle_out t (fun h => h7 ((atLast_iff t).mp h))) (noFlush_out t (fun h => h7 ((atLast_iff t).mp h)))]
      rw [heldAt_mid V c t h0 h7]
      unfold accMid; (try dsimp only)
      rw [inv_castSucc V c t, inv_pos V c _ _ hz]
      iintro ⟨⟨⟨HA, Hrest⟩, Hg⟩, Ho, ⟨%d0, H0⟩, ⟨%d1, H1⟩, ⟨%d2, H2⟩, ⟨%dO, HO⟩⟩
      iapply ((runMid c (grid6.coords t) _ _ _ _ _ _ _ _ _ _ (fun h => h0 ((atFirst_iff t).mp h)) (fun h => h7 ((atLast_iff t).mp h)) (blockAt V c 0 t) (blockAt V c 1 t) (blockAt V c 2 t) _).2 _ Set.univ _)
      isplitl [H0]; · iexact H0
      isplitl [H1]; · iexact H1
      isplitl [H2]; · iexact H2
      isplitl [HO]; · iexact HO
      isplitl [HA]; · iexact HA
      iintro ⟨H0, H1, H2, HO, ⟨%ea, HA⟩⟩
      isplitl [HA Hrest Hg]
      · isplitl [HA Hrest]
        · isplitl [HA]
          · unfold owns; iexists _; isplitr
            swap; · iexact HA
            ipureintro; exact View.read_writes_of_cover _ _ _ _ _ (accCover_mid c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact HO

/-- The body obligation, at every point. -/
theorem body_obligation (c : Dev nD) : BodyObligation (dat (F := F) V c) (defs₀ (F := F)) Variants.none () Set.univ := fun t => by
  rw [bigSep_W6, bigSep_W6]
  exact sound_body V c t

/-- What the launch hands the region is the invariant before the first point. -/
theorem inv_enter (c : Dev nD) : Pipeline.ΦA spec6 c ⊢ (dat V c).Φ 0 := by
  rw [show (dat V c).Φ 0 = inv V c 0 (Nat.zero_le _) from rfl, inv_zero V c 0 _ rfl]
  try exact Idealize.SL.BI.Entails.refl _

/-- After the last point the invariant gives that back: what the accumulator holds is forgotten. -/
theorem inv_leave (c : Dev nD) : (dat V c).Φ (Fin.last cfg6.N) ⊢ Pipeline.ΦA spec6 c := by
  have ht : (Fin.last cfg6.N).val ≠ 0 := by rw [Fin.val_last]; have : cfg6.N = 16 := N_6; omega
  rw [show (dat V c).Φ (Fin.last cfg6.N) = inv V c (Fin.last cfg6.N).val (Nat.le_of_lt_succ (Fin.last cfg6.N).isLt) from rfl,
    inv_pos V c _ _ ht, handed_eq]
  iintro ⟨⟨HA, Hrest⟩, Hg⟩
  isplitl [HA Hrest]
  · isplitl [HA]
    · iexists _; iexact HA
    iexact Hrest
  iexact Hg

end Cert.KernelIdeal.R6

end
-- ==== Proof.KI.Whole.Chain.lean ====
/-
  The whole program of the idealized kernel: what every buffer holds between two items of @main.

  @main is twelve items: stretches of host operations (reshapes of the bias, gain and offset vectors into rows) and the
  seven pallas_calls.  From the launch memory, a host stretch leaves what its operations compute, and a pallas_call
  leaves its output array at what its write-backs fold to and every other buffer as it found it.  So an argument
  array, which nothing writes, is found at every boundary as launched, and an intermediate array is found by every
  later item as the call that produced it left it.
-/
import proofs.«116394_j17480516895034_2_alg».proof.Proof.KI.R0.Body
import proofs.«116394_j17480516895034_2_alg».proof.Proof.KI.R1.Body
import proofs.«116394_j17480516895034_2_alg».proof.Proof.KI.R2.Body
import proofs.«116394_j17480516895034_2_alg».proof.Proof.KI.R3.Body
import proofs.«116394_j17480516895034_2_alg».proof.Proof.KI.R4.Body
import proofs.«116394_j17480516895034_2_alg».proof.Proof.KI.R5.Body
import proofs.«116394_j17480516895034_2_alg».proof.Proof.KI.R6.Body
import proofs.«116394_j17480516895034_2_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch. -/
abbrev B0 : Dev nD → Valuation τ sig (Elt F) := fun c b => (s₀ m ρ).mem ((c : Dev nD), b)
abbrev T0 : (c : Dev nD) → (b : Ref sig .tc) → Buf (Elt F) ((c : Thread nD τ).loc b) := fun c b => B0 m ρ c b

/-- After the host stretch `hostOps0`. -/
abbrev B1 : Dev nD → Valuation τ sig (Elt F) := fun c => StableHlo.after hostOps0 (B0 m ρ c)
abbrev T1 : (c : Dev nD) → (b : Ref sig .tc) → Buf (Elt F) ((c : Thread nD τ).loc b) := fun c b => B1 m ρ c b
/-- A buffer the stretch does not write is kept. -/
theorem B1_keep (c : Dev nD) (r : Ref sig .tc) (h : r ∉ hostOps0_W) : B1 m ρ c (Proc.devRef .tc r) = B0 m ρ c (Proc.devRef .tc r) :=
  StableHlo.after_of_writes_sub hostOps0 _ hostOps0_writes h

/-- After pallas_call 0: its arrays at what the pipeline leaves, every other buffer as entered. -/
def B2 (c : Dev nD) : Valuation τ sig (Elt F) :=
  Pipeline.withArrays spec0 c (B1 m ρ c) fun w => (R0.dat (T1 m ρ) c).arrAt w cfg0.N
theorem B2_arr (c : Dev nD) (w : Fin cfg0.W) :
    B2 m ρ c (Proc.devRef .tc (Pipeline.arrRef spec0 w)) = (R0.dat (T1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev T2 : (c : Dev nD) → (b : Ref sig .tc) → Buf (Elt F) ((c : Thread nD τ).loc b) := fun c b => B2 m ρ c b
theorem hF0 (c : Dev nD) (w : Fin cfg0.W) : (R0.dat (T1 m ρ) c).arrAt w cfg0.N = T2 m ρ c (Pipeline.arrRef spec0 w) :=
  (B2_arr m ρ c w).symm
theorem hrest0 (c : Dev nD) : ∀ b, b ∉ Finset.univ.image (Pipeline.arrRef spec0) → T2 m ρ c b = T1 m ρ c b :=
  fun b hb => B2_of_ne m ρ c b fun w e => hb (Finset.mem_image.mpr ⟨w, Finset.mem_univ _, e⟩)
/-- Every buffer but the call's output array is kept: an input array is read, not written, and the rest bypass the call. -/
theorem B2_keep (c : Dev nD) (r : Ref sig .tc) (h : r ≠ main_v3) : B2 m ρ c (Proc.devRef .tc r) = B1 m ρ c (Proc.devRef .tc r) := by
  by_cases hw : ∃ w, Pipeline.arrRef spec0 w = r
  · obtain ⟨w, rfl⟩ := hw
    have hin : (cfg0.win w).isOut = false := by
      revert h; revert w; decide
    exact (B2_arr m ρ c w).trans (((R0.dat (T1 m ρ) c).arrAt_in w hin _).trans (R0.dat_A (T1 m ρ) c w))
  · exact B2_of_ne m ρ c r (fun w e => hw ⟨w, e⟩)

/-- After the host stretch `hostOps1`. -/
abbrev B3 : Dev nD → Valuation τ sig (Elt F) := fun c => StableHlo.after hostOps1 (B2 m ρ c)
abbrev T3 : (c : Dev nD) → (b : Ref sig .tc) → Buf (Elt F) ((c : Thread nD τ).loc b) := fun c b => B3 m ρ c b
/-- A buffer the stretch does not write is kept. -/
theorem B3_keep (c : Dev nD) (r : Ref sig .tc) (h : r ∉ hostOps1_W) : B3 m ρ c (Proc.devRef .tc r) = B2 m ρ c (Proc.devRef .tc r) :=
  StableHlo.after_of_writes_sub hostOps1 _ hostOps1_writes h

/-- After pallas_call 1: its arrays at what the pipeline leaves, every other buffer as entered. -/
def B4 (c : Dev nD) : Valuation τ sig (Elt F) :=
  Pipeline.withArrays spec1 c (B3 m ρ c) fun w => (R1.dat (T3 m ρ) c).arrAt w cfg1.N
theorem B4_arr (c : Dev nD) (w : Fin cfg1.W) :
    B4 m ρ c (Proc.devRef .tc (Pipeline.arrRef spec1 w)) = (R1.dat (T3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev T4 : (c : Dev nD) → (b : Ref sig .tc) → Buf (Elt F) ((c : Thread nD τ).loc b) := fun c b => B4 m ρ c b
theorem hF1 (c : Dev nD) (w : Fin cfg1.W) : (R1.dat (T3 m ρ) c).arrAt w cfg1.N = T4 m ρ c (Pipeline.arrRef spec1 w) :=
  (B4_arr m ρ c w).symm
theorem hrest1 (c : Dev nD) : ∀ b, b ∉ Finset.univ.image (Pipeline.arrRef spec1) → T4 m ρ c b = T3 m ρ c b :=
  fun b hb => B4_of_ne m ρ c b fun w e => hb (Finset.mem_image.mpr ⟨w, Finset.mem_univ _, e⟩)
/-- Every buffer but the call's output array is kept: an input array is read, not written, and the rest bypass the call. -/
theorem B4_keep (c : Dev nD) (r : Ref sig .tc) (h : r ≠ main_v7) : B4 m ρ c (Proc.devRef .tc r) = B3 m ρ c (Proc.devRef .tc r) := by
  by_cases hw : ∃ w, Pipeline.arrRef spec1 w = r
  · obtain ⟨w, rfl⟩ := hw
    have hin : (cfg1.win w).isOut = false := by
      revert h; revert w; decide
    exact (B4_arr m ρ c w).trans (((R1.dat (T3 m ρ) c).arrAt_in w hin _).trans (R1.dat_A (T3 m ρ) c w))
  · exact B4_of_ne m ρ c r (fun w e => hw ⟨w, e⟩)

/-- After the host stretch `hostOps2`. -/
abbrev B5 : Dev nD → Valuation τ sig (Elt F) := fun c => StableHlo.after hostOps2 (B4 m ρ c)
abbrev T5 : (c : Dev nD) → (b : Ref sig .tc) → Buf (Elt F) ((c : Thread nD τ).loc b) := fun c b => B5 m ρ c b
/-- A buffer the stretch does not write is kept. -/
theorem B5_keep (c : Dev nD) (r : Ref sig .tc) (h : r ∉ hostOps2_W) : B5 m ρ c (Proc.devRef .tc r) = B4 m ρ c (Proc.devRef .tc r) :=
  StableHlo.after_of_writes_sub hostOps2 _ hostOps2_writes h

/-- After pallas_call 2: its arrays at what the pipeline leaves, every other buffer as entered. -/
def B6 (c : Dev nD) : Valuation τ sig (Elt F) :=
  Pipeline.withArrays spec2 c (B5 m ρ c) fun w => (R2.dat (T5 m ρ) c).arrAt w cfg2.N
theorem B6_arr (c : Dev nD) (w : Fin cfg2.W) :
    B6 m ρ c (Proc.devRef .tc (Pipeline.arrRef spec2 w)) = (R2.dat (T5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev T6 : (c : Dev nD) → (b : Ref sig .tc) → Buf (Elt F) ((c : Thread nD τ).loc b) := fun c b => B6 m ρ c b
theorem hF2 (c : Dev nD) (w : Fin cfg2.W) : (R2.dat (T5 m ρ) c).arrAt w cfg2.N = T6 m ρ c (Pipeline.arrRef spec2 w) :=
  (B6_arr m ρ c w).symm
theorem hrest2 (c : Dev nD) : ∀ b, b ∉ Finset.univ.image (Pipeline.arrRef spec2) → T6 m ρ c b = T5 m ρ c b :=
  fun b hb => B6_of_ne m ρ c b fun w e => hb (Finset.mem_image.mpr ⟨w, Finset.mem_univ _, e⟩)
/-- Every buffer but the call's output array is kept: an input array is read, not written, and the rest bypass the call. -/
theorem B6_keep (c : Dev nD) (r : Ref sig .tc) (h : r ≠ main_v11) : B6 m ρ c (Proc.devRef .tc r) = B5 m ρ c (Proc.devRef .tc r) := by
  by_cases hw : ∃ w, Pipeline.arrRef spec2 w = r
  · obtain ⟨w, rfl⟩ := hw
    have hin : (cfg2.win w).isOut = false := by
      revert h; revert w; decide
    exact (B6_arr m ρ c w).trans (((R2.dat (T5 m ρ) c).arrAt_in w hin _).trans (R2.dat_A (T5 m ρ) c w))
  · exact B6_of_ne m ρ c r (fun w e => hw ⟨w, e⟩)

/-- After the host stretch `hostOps3`. -/
abbrev B7 : Dev nD → Valuation τ sig (Elt F) := fun c => StableHlo.after hostOps3 (B6 m ρ c)
abbrev T7 : (c : Dev nD) → (b : Ref sig .tc) → Buf (Elt F) ((c : Thread nD τ).loc b) := fun c b => B7 m ρ c b
/-- A buffer the stretch does not write is kept. -/
theorem B7_keep (c : Dev nD) (r : Ref sig .tc) (h : r ∉ hostOps3_W) : B7 m ρ c (Proc.devRef .tc r) = B6 m ρ c (Proc.devRef .tc r) :=
  StableHlo.after_of_writes_sub hostOps3 _ hostOps3_writes h

/-- After pallas_call 3: its arrays at what the pipeline leaves, every other buffer as entered. -/
def B8 (c : Dev nD) : Valuation τ sig (Elt F) :=
  Pipeline.withArrays spec3 c (B7 m ρ c) fun w => (R3.dat (T7 m ρ) c).arrAt w cfg3.N
theorem B8_arr (c : Dev nD) (w : Fin cfg3.W) :
    B8 m ρ c (Proc.devRef .tc (Pipeline.arrRef spec3 w)) = (R3.dat (T7 m ρ) c).arrAt w cfg3.N := by
  unfold B8; exact Pipeline.withArrays_arr spec3 launch3.win.arr_inj c _ _ w
theorem B8_of_ne (c : Dev nD) (b : Ref sig .tc) (hb : ∀ w, Pipeline.arrRef spec3 w ≠ b) :
    B8 m ρ c (Proc.devRef .tc b) = B7 m ρ c (Proc.devRef .tc b) := by
  unfold B8; exact Pipeline.withArrays_of_ne spec3 c _ _ b hb
abbrev T8 : (c : Dev nD) → (b : Ref sig .tc) → Buf (Elt F) ((c : Thread nD τ).loc b) := fun c b => B8 m ρ c b
theorem hF3 (c : Dev nD) (w : Fin cfg3.W) : (R3.dat (T7 m ρ) c).arrAt w cfg3.N = T8 m ρ c (Pipeline.arrRef spec3 w) :=
  (B8_arr m ρ c w).symm
theorem hrest3 (c : Dev nD) : ∀ b, b ∉ Finset.univ.image (Pipeline.arrRef spec3) → T8 m ρ c b = T7 m ρ c b :=
  fun b hb => B8_of_ne m ρ c b fun w e => hb (Finset.mem_image.mpr ⟨w, Finset.mem_univ _, e⟩)
/-- Every buffer but the call's output array is kept: an input array is read, not written, and the rest bypass the call. -/
theorem B8_keep (c : Dev nD) (r : Ref sig .tc) (h : r ≠ main_v15) : B8 m ρ c (Proc.devRef .tc r) = B7 m ρ c (Proc.devRef .tc r) := by
  by_cases hw : ∃ w, Pipeline.arrRef spec3 w = r
  · obtain ⟨w, rfl⟩ := hw
    have hin : (cfg3.win w).isOut = false := by
      revert h; revert w; decide
    exact (B8_arr m ρ c w).trans (((R3.dat (T7 m ρ) c).arrAt_in w hin _).trans (R3.dat_A (T7 m ρ) c w))
  · exact B8_of_ne m ρ c r (fun w e => hw ⟨w, e⟩)

/-- After pallas_call 4: its arrays at what the pipeline leaves, every other buffer as entered. -/
def B9 (c : Dev nD) : Valuation τ sig (Elt F) :=
  Pipeline.withArrays spec4 c (B8 m ρ c) fun w => (R4.dat (T8 m ρ) c).arrAt w cfg4.N
theorem B9_arr (c : Dev nD) (w : Fin cfg4.W) :
    B9 m ρ c (Proc.devRef .tc (Pipeline.arrRef spec4 w)) = (R4.dat (T8 m ρ) c).arrAt w cfg4.N := by
  unfold B9; exact Pipeline.withArrays_arr spec4 launch4.win.arr_inj c _ _ w
theorem B9_of_ne (c : Dev nD) (b : Ref sig .tc) (hb : ∀ w, Pipeline.arrRef spec4 w ≠ b) :
    B9 m ρ c (Proc.devRef .tc b) = B8 m ρ c (Proc.devRef .tc b) := by
  unfold B9; exact Pipeline.withArrays_of_ne spec4 c _ _ b hb
abbrev T9 : (c : Dev nD) → (b : Ref sig .tc) → Buf (Elt F) ((c : Thread nD τ).loc b) := fun c b => B9 m ρ c b
theorem hF4 (c : Dev nD) (w : Fin cfg4.W) : (R4.dat (T8 m ρ) c).arrAt w cfg4.N = T9 m ρ c (Pipeline.arrRef spec4 w) :=
  (B9_arr m ρ c w).symm
theorem hrest4 (c : Dev nD) : ∀ b, b ∉ Finset.univ.image (Pipeline.arrRef spec4) → T9 m ρ c b = T8 m ρ c b :=
  fun b hb => B9_of_ne m ρ c b fun w e => hb (Finset.mem_image.mpr ⟨w, Finset.mem_univ _, e⟩)
/-- Every buffer but the call's output array is kept: an input array is read, not written, and the rest bypass the call. -/
theorem B9_keep (c : Dev nD) (r : Ref sig .tc) (h : r ≠ main_v16) : B9 m ρ c (Proc.devRef .tc r) = B8 m ρ c (Proc.devRef .tc r) := by
  by_cases hw : ∃ w, Pipeline.arrRef spec4 w = r
  · obtain ⟨w, rfl⟩ := hw
    have hin : (cfg4.win w).isOut = false := by
      revert h; revert w; decide
    exact (B9_arr m ρ c w).trans (((R4.dat (T8 m ρ) c).arrAt_in w hin _).trans (R4.dat_A (T8 m ρ) c w))
  · exact B9_of_ne m ρ c r (fun w e => hw ⟨w, e⟩)

/-- After pallas_call 5: its arrays at what the pipeline leaves, every other buffer as entered. -/
def B10 (c : Dev nD) : Valuation τ sig (Elt F) :=
  Pipeline.withArrays spec5 c (B9 m ρ c) fun w => (R5.dat (T9 m ρ) c).arrAt w cfg5.N
theorem B10_arr (c : Dev nD) (w : Fin cfg5.W) :
    B10 m ρ c (Proc.devRef .tc (Pipeline.arrRef spec5 w)) = (R5.dat (T9 m ρ) c).arrAt w cfg5.N := by
  unfold B10; exact Pipeline.withArrays_arr spec5 launch5.win.arr_inj c _ _ w
theorem B10_of_ne (c : Dev nD) (b : Ref sig .tc) (hb : ∀ w, Pipeline.arrRef spec5 w ≠ b) :
    B10 m ρ c (Proc.devRef .tc b) = B9 m ρ c (Proc.devRef .tc b) := by
  unfold B10; exact Pipeline.withArrays_of_ne spec5 c _ _ b hb
abbrev T10 : (c : Dev nD) → (b : Ref sig .tc) → Buf (Elt F) ((c : Thread nD τ).loc b) := fun c b => B10 m ρ c b
theorem hF5 (c : Dev nD) (w : Fin cfg5.W) : (R5.dat (T9 m ρ) c).arrAt w cfg5.N = T10 m ρ c (Pipeline.arrRef spec5 w) :=
  (B10_arr m ρ c w).symm
theorem hrest5 (c : Dev nD) : ∀ b, b ∉ Finset.univ.image (Pipeline.arrRef spec5) → T10 m ρ c b = T9 m ρ c b :=
  fun b hb => B10_of_ne m ρ c b fun w e => hb (Finset.mem_image.mpr ⟨w, Finset.mem_univ _, e⟩)
/-- Every buffer but the call's output array is kept: an input array is read, not written, and the rest bypass the call. -/
theorem B10_keep (c : Dev nD) (r : Ref sig .tc) (h : r ≠ main_v17) : B10 m ρ c (Proc.devRef .tc r) = B9 m ρ c (Proc.devRef .tc r) := by
  by_cases hw : ∃ w, Pipeline.arrRef spec5 w = r
  · obtain ⟨w, rfl⟩ := hw
    have hin : (cfg5.win w).isOut = false := by
      revert h; revert w; decide
    exact (B10_arr m ρ c w).trans (((R5.dat (T9 m ρ) c).arrAt_in w hin _).trans (R5.dat_A (T9 m ρ) c w))
  · exact B10_of_ne m ρ c r (fun w e => hw ⟨w, e⟩)

/-- After the host stretch `hostOps6`. -/
abbrev B11 : Dev nD → Valuation τ sig (Elt F) := fun c => StableHlo.after hostOps6 (B10 m ρ c)
abbrev T11 : (c : Dev nD) → (b : Ref sig .tc) → Buf (Elt F) ((c : Thread nD τ).loc b) := fun c b => B11 m ρ c b
/-- A buffer the stretch does not write is kept. -/
theorem B11_keep (c : Dev nD) (r : Ref sig .tc) (h : r ∉ hostOps6_W) : B11 m ρ c (Proc.devRef .tc r) = B10 m ρ c (Proc.devRef .tc r) :=
  StableHlo.after_of_writes_sub hostOps6 _ hostOps6_writes h

/-- After pallas_call 6: its arrays at what the pipeline leaves, every other buffer as entered. -/
def B12 (c : Dev nD) : Valuation τ sig (Elt F) :=
  Pipeline.withArrays spec6 c (B11 m ρ c) fun w => (R6.dat (T11 m ρ) c).arrAt w cfg6.N
theorem B12_arr (c : Dev nD) (w : Fin cfg6.W) :
    B12 m ρ c (Proc.devRef .tc (Pipeline.arrRef spec6 w)) = (R6.dat (T11 m ρ) c).arrAt w cfg6.N := by
  unfold B12; exact Pipeline.withArrays_arr spec6 launch6.win.arr_inj c _ _ w
theorem B12_of_ne (c : Dev nD) (b : Ref sig .tc) (hb : ∀ w, Pipeline.arrRef spec6 w ≠ b) :
    B12 m ρ c (Proc.devRef .tc b) = B11 m ρ c (Proc.devRef .tc b) := by
  unfold B12; exact Pipeline.withArrays_of_ne spec6 c _ _ b hb
abbrev T12 : (c : Dev nD) → (b : Ref sig .tc) → Buf (Elt F) ((c : Thread nD τ).loc b) := fun c b => B12 m ρ c b
theorem hF6 (c : Dev nD) (w : Fin cfg6.W) : (R6.dat (T11 m ρ) c).arrAt w cfg6.N = T12 m ρ c (Pipeline.arrRef spec6 w) :=
  (B12_arr m ρ c w).symm
theorem hrest6 (c : Dev nD) : ∀ b, b ∉ Finset.univ.image (Pipeline.arrRef spec6) → T12 m ρ c b = T11 m ρ c b :=
  fun b hb => B12_of_ne m ρ c b fun w e => hb (Finset.mem_image.mpr ⟨w, Finset.mem_univ _, e⟩)
/-- Every buffer but the call's output array is kept: an input array is read, not written, and the rest bypass the call. -/
theorem B12_keep (c : Dev nD) (r : Ref sig .tc) (h : r ≠ main_v19) : B12 m ρ c (Proc.devRef .tc r) = B11 m ρ c (Proc.devRef .tc r) := by
  by_cases hw : ∃ w, Pipeline.arrRef spec6 w = r
  · obtain ⟨w, rfl⟩ := hw
    have hin : (cfg6.win w).isOut = false := by
      revert h; revert w; decide
    exact (B12_arr m ρ c w).trans (((R6.dat (T11 m ρ) c).arrAt_in w hin _).trans (R6.dat_A (T11 m ρ) c w))
  · exact B12_of_ne m ρ c r (fun w e => hw ⟨w, e⟩)

/-! ## A buffer nothing writes is found at the end as launched -/

theorem B12_untouched (c : Dev nD) (r : Ref sig .tc)
    (hhostOps0 : r ∉ hostOps0_W) (hhostOps1 : r ∉ hostOps1_W) (hhostOps2 : r ∉ hostOps2_W) (hhostOps3 : r ∉ hostOps3_W) (hhostOps6 : r ∉ hostOps6_W)
    (hout : r ∉ ([main_v3, main_v7, main_v11, main_v15, main_v16, main_v17, main_v19] : List (Ref sig .tc))) :
    B12 m ρ c (Proc.devRef .tc r) = m ((c : Thread nD τ).loc r) := by
  have hne : ∀ o ∈ ([main_v3, main_v7, main_v11, main_v15, main_v16, main_v17, main_v19] : List (Ref sig .tc)), r ≠ o := fun o ho e => hout (e ▸ ho)
  calc B12 m ρ c (Proc.devRef .tc r)
    _ = B11 m ρ c (Proc.devRef .tc r) := B12_keep m ρ c r (hne main_v19 (by decide))
    _ = B10 m ρ c (Proc.devRef .tc r) := B11_keep m ρ c r hhostOps6
    _ = B9 m ρ c (Proc.devRef .tc r) := B10_keep m ρ c r (hne main_v17 (by decide))
    _ = B8 m ρ c (Proc.devRef .tc r) := B9_keep m ρ c r (hne main_v16 (by decide))
    _ = B7 m ρ c (Proc.devRef .tc r) := B8_keep m ρ c r (hne main_v15 (by decide))
    _ = B6 m ρ c (Proc.devRef .tc r) := B7_keep m ρ c r hhostOps3
    _ = B5 m ρ c (Proc.devRef .tc r) := B6_keep m ρ c r (hne main_v11 (by decide))
    _ = B4 m ρ c (Proc.devRef .tc r) := B5_keep m ρ c r hhostOps2
    _ = B3 m ρ c (Proc.devRef .tc r) := B4_keep m ρ c r (hne main_v7 (by decide))
    _ = B2 m ρ c (Proc.devRef .tc r) := B3_keep m ρ c r hhostOps1
    _ = B1 m ρ c (Proc.devRef .tc r) := B2_keep m ρ c r (hne main_v3 (by decide))
    _ = B0 m ρ c (Proc.devRef .tc r) := B1_keep m ρ c r hhostOps0
    _ = m ((c : Thread nD τ).loc r) := rfl

/-! ## The proof data family and the thread state -/

/-- Every pipeline's proof data, each at its call's entry contents. -/
def pd : (p : Fin 7) → (c : Dev nD) → Dat τ (Elt F) Unit ℕ (UR sig nD τ) ℕ (Pipeline.pin (pcfgs (F := F)) adm p) c
  | ⟨0, _⟩ => fun c => R0.dat (T1 m ρ) c
  | ⟨1, _⟩ => fun c => R1.dat (T3 m ρ) c
  | ⟨2, _⟩ => fun c => R2.dat (T5 m ρ) c
  | ⟨3, _⟩ => fun c => R3.dat (T7 m ρ) c
  | ⟨4, _⟩ => fun c => R4.dat (T8 m ρ) c
  | ⟨5, _⟩ => fun c => R5.dat (T9 m ρ) c
  | ⟨6, _⟩ => fun c => R6.dat (T11 m ρ) c

abbrev noVariants : Variants := Variants.none
/-- No core owes another anything: no level is assigned. -/
abbrev noLevels : GSem nD τ sig → Finset Unit := fun _ => ∅
abbrev levelZero : GSem nD τ sig → Unit → ℕ := fun _ _ => 0
/-- What rides beside the buffers through every item: the core's generator register at some state and its `owes`, at nothing. -/
abbrev riding (c : Dev nD) : sProp 𝕄 := iprop((∃ r, prngReg c r) ∗ ∃ W, owes (c : Thread nD τ) (0 : CellTallies nD τ sig Unit) W)

/-- A host stretch as a segment over the unscoped references from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels levelZero :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Whole

end
-- ==== Proof.KI.R0.Leave.lean ====
/-
  The forget gate logistic(LayerNorm(h·W_hf + x·W_xf + b_xf)), in the idealized kernel (pallas_call 0): what the invariant gives back after the last point, sorted as the
  region's exit wants it — the generator register, nothing for the kernel's own semaphores (it has none), and the scoped
  buffers no window stages, the accumulator among them at contents no longer named.
-/
import proofs.«116394_j17480516895034_2_alg».proof.Proof.KI.R0.Body

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem handed_parts (c : Dev nD) :
    (Pipeline.ΦA spec0 c : sProp 𝕄) ⊢ iprop((∃ r, prngReg c r) ∗ (BI.emp : sProp 𝕄)
      ∗ Pipeline.scopedRest (Ix := Unit) (Name := ℕ) (U := UR sig nD τ) (Lvl := ℕ) (Val := Elt F) spec0 c) := by
  unfold Pipeline.ΦA
  iintro ⟨Hr, Hp⟩
  isplitl [Hp]; · iexact Hp
  isplitr; · iempintro
  iexact Hr

theorem leave_parts (c : Dev nD) :
    (dat V c).Φ (Fin.last cfg0.N) ⊢ iprop((∃ r, prngReg c r) ∗ (BI.emp : sProp 𝕄)
      ∗ Pipeline.scopedRest (Ix := Unit) (Name := ℕ) (U := UR sig nD τ) (Lvl := ℕ) (Val := Elt F) spec0 c) :=
  (inv_leave V c).trans (handed_parts c)

end Cert.KernelIdeal.R0

end
-- ==== Proof.KI.Whole.Reg0.lean ====
/-
  The whole program of the idealized kernel: pallas_call 0 as an item of @main.

  The call is entered with every unscoped buffer at the contents of the boundary before it and left with them at the
  contents of the boundary after it.  Its arrays are split out of the unscoped buffers on entry and put back, at what
  the pipeline's write-backs leave, on exit; the generator register goes into the call's invariant and comes back;
  the accumulator is one of the scoped buffers no window stages, which the invariant takes and returns; nothing is
  owed, and the kernel has no semaphore of its own.
-/
import proofs.«116394_j17480516895034_2_alg».proof.Proof.KI.Whole.Chain
import proofs.«116394_j17480516895034_2_alg».proof.Proof.KI.R0.Leave

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pd m ρ) () defs₀ noVariants noLevels levelZero 0 where
  win := launch0.win.to₀
  block_pos := launch0.block_pos
  stage_whole := launch0.stage_whole
  K := PEmpty
  osem k := k.elim
  ho := Pipeline.OwnSemFacts.none _
  hbody c := (R0.body_obligation (T1 m ρ) c).loose
  hwaits := Pipeline.hwaits_of_owed_zero _ _ _ _ noLevels levelZero 0 fun _ _ => rfl
  pre c := iprop(StableHlo.held (c : Thread nD τ) (Pipeline.ucRefs τ sig) (B1 m ρ c) ∗ riding c)
  post c := iprop(StableHlo.held (c : Thread nD τ) (Pipeline.ucRefs τ sig) (B2 m ρ c) ∗ riding c)
  X c := iprop(∃ r, prngReg c r)
  Y c := iprop(∃ r, prngReg c r)
  Z c := Pipeline.unscopedRest (Ix := Unit) (Name := ℕ) (U := UR sig nD τ) (Lvl := ℕ) spec0 c (T1 m ρ c)
  hentry c := by
    rw [Pipeline.ownSems0_none]
    have hsplit := Pipeline.arrays_of_unscopedBufs (p := 0) (pcfgs (F := F)) adm (pd m ρ) launch0.win launch0.arr_whole c
      ((pd m ρ 0 c).share_full fun _ => rfl) (T1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    exact R0.leave_parts (T1 m ρ) c
  hexit c := by
    have hjoin := Pipeline.unscopedBufs_of_arrays (p := 0) (pcfgs (F := F)) adm (Ix := Unit) (Name := ℕ) (U := UR sig nD τ) (Lvl := ℕ)
      launch0.win launch0.arr_whole c (pd m ρ) ((pd m ρ 0 c).share_full fun _ => rfl)
      (T1 m ρ c) (T2 m ρ c) ((pd m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.KI.R1.Leave.lean ====
/-
  The candidate gate tanh(LayerNorm(h·W_hg + x·W_xg + b_xg)), in the idealized kernel (pallas_call 1): what the invariant gives back after the last point, sorted as the
  region's exit wants it — the generator register, nothing for the kernel's own semaphores (it has none), and the scoped
  buffers no window stages, the accumulator among them at contents no longer named.
-/
import proofs.«116394_j17480516895034_2_alg».proof.Proof.KI.R1.Body

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem handed_parts (c : Dev nD) :
    (Pipeline.ΦA spec1 c : sProp 𝕄) ⊢ iprop((∃ r, prngReg c r) ∗ (BI.emp : sProp 𝕄)
      ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

theorem leave_parts (c : Dev nD) :
    (dat V c).Φ (Fin.last cfg1.N) ⊢ iprop((∃ r, prngReg c r) ∗ (BI.emp : sProp 𝕄)
      ∗ Pipeline.scopedRest (Ix := Unit) (Name := ℕ) (U := UR sig nD τ) (Lvl := ℕ) (Val := Elt F) spec1 c) :=
  (inv_leave V c).trans (handed_parts c)

end Cert.KernelIdeal.R1

end
-- ==== Proof.KI.Whole.Reg1.lean ====
/-
  The whole program of the idealized kernel: pallas_call 1 as an item of @main.

  The call is entered with every unscoped buffer at the contents of the boundary before it and left with them at the
  contents of the boundary after it.  Its arrays are split out of the unscoped buffers on entry and put back, at what
  the pipeline's write-backs leave, on exit; the generator register goes into the call's invariant and comes back;
  the accumulator is one of the scoped buffers no window stages, which the invariant takes and returns; nothing is
  owed, and the kernel has no semaphore of its own.
-/
import proofs.«116394_j17480516895034_2_alg».proof.Proof.KI.Whole.Chain
import proofs.«116394_j17480516895034_2_alg».proof.Proof.KI.R1.Leave

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pd m ρ) () defs₀ noVariants noLevels levelZero 1 where
  win := launch1.win.to₀
  block_pos := launch1.block_pos
  stage_whole := launch1.stage_whole
  K := PEmpty
  osem k := k.elim
  ho := Pipeline.OwnSemFacts.none _
  hbody c := (R1.body_obligation (T3 m ρ) c).loose
  hwaits := Pipeline.hwaits_of_owed_zero _ _ _ _ noLevels levelZero 1 fun _ _ => rfl
  pre c := iprop(StableHlo.held (c : Thread nD τ) (Pipeline.ucRefs τ sig) (B3 m ρ c) ∗ riding c)
  post c := iprop(StableHlo.held (c : Thread nD τ) (Pipeline.ucRefs τ sig) (B4 m ρ c) ∗ riding c)
  X c := iprop(∃ r, prngReg c r)
  Y c := iprop(∃ r, prngReg c r)
  Z c := Pipeline.unscopedRest (Ix := Unit) (Name := ℕ) (U := UR sig nD τ) (Lvl := ℕ) spec1 c (T3 m ρ c)
  hentry c := by
    rw [Pipeline.ownSems0_none]
    have hsplit := Pipeline.arrays_of_unscopedBufs (p := 1) (pcfgs (F := F)) adm (pd m ρ) launch1.win launch1.arr_whole c
      ((pd m ρ 1 c).share_full fun _ => rfl) (T3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    exact R1.leave_parts (T3 m ρ) c
  hexit c := by
    have hjoin := Pipeline.unscopedBufs_of_arrays (p := 1) (pcfgs (F := F)) adm (Ix := Unit) (Name := ℕ) (U := UR sig nD τ) (Lvl := ℕ)
      launch1.win launch1.arr_whole c (pd m ρ) ((pd m ρ 1 c).share_full fun _ => rfl)
      (T3 m ρ c) (T4 m ρ c) ((pd m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.KI.R2.Leave.lean ====
/-
  The input gate logistic(LayerNorm(h·W_hi + x·W_xi + b_xi)), in the idealized kernel (pallas_call 2): what the invariant gives back after the last point, sorted as the
  region's exit wants it — the generator register, nothing for the kernel's own semaphores (it has none), and the scoped
  buffers no window stages, the accumulator among them at contents no longer named.
-/
import proofs.«116394_j17480516895034_2_alg».proof.Proof.KI.R2.Body

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem handed_parts (c : Dev nD) :
    (Pipeline.ΦA spec2 c : sProp 𝕄) ⊢ iprop((∃ r, prngReg c r) ∗ (BI.emp : sProp 𝕄)
      ∗ Pipeline.scopedRest (Ix := Unit) (Name := ℕ) (U := UR sig nD τ) (Lvl := ℕ) (Val := Elt F) spec2 c) := by
  unfold Pipeline.ΦA
  iintro ⟨Hr, Hp⟩
  isplitl [Hp]; · iexact Hp
  isplitr; · iempintro
  iexact Hr

theorem leave_parts (c : Dev nD) :
    (dat V c).Φ (Fin.last cfg2.N) ⊢ iprop((∃ r, prngReg c r) ∗ (BI.emp : sProp 𝕄)
      ∗ Pipeline.scopedRest (Ix := Unit) (Name := ℕ) (U := UR sig nD τ) (Lvl := ℕ) (Val := Elt F) spec2 c) :=
  (inv_leave V c).trans (handed_parts c)

end Cert.KernelIdeal.R2

end
-- ==== Proof.KI.Whole.Reg2.lean ====
/-
  The whole program of the idealized kernel: pallas_call 2 as an item of @main.

  The call is entered with every unscoped buffer at the contents of the boundary before it and left with them at the
  contents of the boundary after it.  Its arrays are split out of the unscoped buffers on entry and put back, at what
  the pipeline's write-backs leave, on exit; the generator register goes into the call's invariant and comes back;
  the accumulator is one of the scoped buffers no window stages, which the invariant takes and returns; nothing is
  owed, and the kernel has no semaphore of its own.
-/
import proofs.«116394_j17480516895034_2_alg».proof.Proof.KI.Whole.Chain
import proofs.«116394_j17480516895034_2_alg».proof.Proof.KI.R2.Leave

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) adm (pd m ρ) () defs₀ noVariants noLevels levelZero 2 where
  win := launch2.win.to₀
  block_pos := launch2.block_pos
  stage_whole := launch2.stage_whole
  K := PEmpty
  osem k := k.elim
  ho := Pipeline.OwnSemFacts.none _
  hbody c := (R2.body_obligation (T5 m ρ) c).loose
  hwaits := Pipeline.hwaits_of_owed_zero _ _ _ _ noLevels levelZero 2 fun _ _ => rfl
  pre c := iprop(StableHlo.held (c : Thread nD τ) (Pipeline.ucRefs τ sig) (B5 m ρ c) ∗ riding c)
  post c := iprop(StableHlo.held (c : Thread nD τ) (Pipeline.ucRefs τ sig) (B6 m ρ c) ∗ riding c)
  X c := iprop(∃ r, prngReg c r)
  Y c := iprop(∃ r, prngReg c r)
  Z c := Pipeline.unscopedRest (Ix := Unit) (Name := ℕ) (U := UR sig nD τ) (Lvl := ℕ) spec2 c (T5 m ρ c)
  hentry c := by
    rw [Pipeline.ownSems0_none]
    have hsplit := Pipeline.arrays_of_unscopedBufs (p := 2) (pcfgs (F := F)) adm (pd m ρ) launch2.win launch2.arr_whole c
      ((pd m ρ 2 c).share_full fun _ => rfl) (T5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    exact R2.leave_parts (T5 m ρ) c
  hexit c := by
    have hjoin := Pipeline.unscopedBufs_of_arrays (p := 2) (pcfgs (F := F)) adm (Ix := Unit) (Name := ℕ) (U := UR sig nD τ) (Lvl := ℕ)
      launch2.win launch2.arr_whole c (pd m ρ) ((pd m ρ 2 c).share_full fun _ => rfl)
      (T5 m ρ c) (T6 m ρ c) ((pd m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.KI.R3.Leave.lean ====
/-
  The output gate logistic(LayerNorm(h·W_ho + x·W_xo + b_xo)), in the idealized kernel (pallas_call 3): what the invariant gives back after the last point, sorted as the
  region's exit wants it — the generator register, nothing for the kernel's own semaphores (it has none), and the scoped
  buffers no window stages, the accumulator among them at contents no longer named.
-/
import proofs.«116394_j17480516895034_2_alg».proof.Proof.KI.R3.Body

set_option maxRecDepth 16384

noncomputable section

namespace Cert.KernelIdeal.R3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem handed_parts (c : Dev nD) :
    (Pipeline.ΦA spec3 c : sProp 𝕄) ⊢ iprop((∃ r, prngReg c r) ∗ (BI.emp : sProp 𝕄)
      ∗ Pipeline.scopedRest (Ix := Unit) (Name := ℕ) (U := UR sig nD τ) (Lvl := ℕ) (Val := Elt F) spec3 c) := by
  unfold Pipeline.ΦA
  iintro ⟨Hr, Hp⟩
  isplitl [Hp]; · iexact Hp
  isplitr; · iempintro
  iexact Hr

theorem leave_parts (c : Dev nD) :
    (dat V c).Φ (Fin.last cfg3.N) ⊢ iprop((∃ r, prngReg c r) ∗ (BI.emp : sProp 𝕄)
      ∗ Pipeline.scopedRest (Ix := Unit) (Name := ℕ) (U := UR sig nD τ) (Lvl := ℕ) (Val := Elt F) spec3 c) :=
  (inv_leave V c).trans (handed_parts c)

end Cert.KernelIdeal.R3

end
-- ==== Proof.KI.Whole.Reg3.lean ====
/-
  The whole program of the idealized kernel: pallas_call 3 as an item of @main.

  The call is entered with every unscoped buffer at the contents of the boundary before it and left with them at the
  contents of the boundary after it.  Its arrays are split out of the unscoped buffers on entry and put back, at what
  the pipeline's write-backs leave, on exit; the generator register goes into the call's invariant and comes back;
  the accumulator is one of the scoped buffers no window stages, which the invariant takes and returns; nothing is
  owed, and the kernel has no semaphore of its own.
-/
import proofs.«116394_j17480516895034_2_alg».proof.Proof.KI.Whole.Chain
import proofs.«116394_j17480516895034_2_alg».proof.Proof.KI.R3.Leave

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RegionSeg (pcfgs (F := F)) adm (pd m ρ) () defs₀ noVariants noLevels levelZero 3 where
  win := launch3.win.to₀
  block_pos := launch3.block_pos
  stage_whole := launch3.stage_whole
  K := PEmpty
  osem k := k.elim
  ho := Pipeline.OwnSemFacts.none _
  hbody c := (R3.body_obligation (T7 m ρ) c).loose
  hwaits := Pipeline.hwaits_of_owed_zero _ _ _ _ noLevels levelZero 3 fun _ _ => rfl
  pre c := iprop(StableHlo.held (c : Thread nD τ) (Pipeline.ucRefs τ sig) (B7 m ρ c) ∗ riding c)
  post c := iprop(StableHlo.held (c : Thread nD τ) (Pipeline.ucRefs τ sig) (B8 m ρ c) ∗ riding c)
  X c := iprop(∃ r, prngReg c r)
  Y c := iprop(∃ r, prngReg c r)
  Z c := Pipeline.unscopedRest (Ix := Unit) (Name := ℕ) (U := UR sig nD τ) (Lvl := ℕ) spec3 c (T7 m ρ c)
  hentry c := by
    rw [Pipeline.ownSems0_none]
    have hsplit := Pipeline.arrays_of_unscopedBufs (p := 3) (pcfgs (F := F)) adm (pd m ρ) launch3.win launch3.arr_whole c
      ((pd m ρ 3 c).share_full fun _ => rfl) (T7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    exact R3.leave_parts (T7 m ρ) c
  hexit c := by
    have hjoin := Pipeline.unscopedBufs_of_arrays (p := 3) (pcfgs (F := F)) adm (Ix := Unit) (Name := ℕ) (U := UR sig nD τ) (Lvl := ℕ)
      launch3.win launch3.arr_whole c (pd m ρ) ((pd m ρ 3 c).share_full fun _ => rfl)
      (T7 m ρ c) (T8 m ρ c) ((pd m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.KI.R4.Leave.lean ====
/-
  The cell state c' = f·c + g·i, in the idealized kernel (pallas_call 4): what the invariant gives back after the last point, sorted as the
  region's exit wants it — the generator register, nothing for the kernel's own semaphores (it has none), and the scoped
  buffers no window stages, the accumulator among them at contents no longer named.
-/
import proofs.«116394_j17480516895034_2_alg».proof.Proof.KI.R4.Body

set_option maxRecDepth 16384

noncomputable section

namespace Cert.KernelIdeal.R4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem handed_parts (c : Dev nD) :
    (Pipeline.ΦA spec4 c : sProp 𝕄) ⊢ iprop((∃ r, prngReg c r) ∗ (BI.emp : sProp 𝕄)
      ∗ Pipeline.scopedRest (Ix := Unit) (Name := ℕ) (U := UR sig nD τ) (Lvl := ℕ) (Val := Elt F) spec4 c) := by
  unfold Pipeline.ΦA
  iintro ⟨Hr, Hp⟩
  isplitl [Hp]; · iexact Hp
  isplitr; · iempintro
  iexact Hr

theorem leave_parts (c : Dev nD) :
    (dat V c).Φ (Fin.last cfg4.N) ⊢ iprop((∃ r, prngReg c r) ∗ (BI.emp : sProp 𝕄)
      ∗ Pipeline.scopedRest (Ix := Unit) (Name := ℕ) (U := UR sig nD τ) (Lvl := ℕ) (Val := Elt F) spec4 c) :=
  (inv_leave V c).trans (handed_parts c)

end Cert.KernelIdeal.R4

end
-- ==== Proof.KI.Whole.Reg4.lean ====
/-
  The whole program of the idealized kernel: pallas_call 4 as an item of @main.

  The call is entered with every unscoped buffer at the contents of the boundary before it and left with them at the
  contents of the boundary after it.  Its arrays are split out of the unscoped buffers on entry and put back, at what
  the pipeline's write-backs leave, on exit; the generator register goes into the call's invariant and comes back;
  the accumulator is one of the scoped buffers no window stages, which the invariant takes and returns; nothing is
  owed, and the kernel has no semaphore of its own.
-/
import proofs.«116394_j17480516895034_2_alg».proof.Proof.KI.Whole.Chain
import proofs.«116394_j17480516895034_2_alg».proof.Proof.KI.R4.Leave

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg4 : Pipeline.RegionSeg (pcfgs (F := F)) adm (pd m ρ) () defs₀ noVariants noLevels levelZero 4 where
  win := launch4.win.to₀
  block_pos := launch4.block_pos
  stage_whole := launch4.stage_whole
  K := PEmpty
  osem k := k.elim
  ho := Pipeline.OwnSemFacts.none _
  hbody c := (R4.body_obligation (T8 m ρ) c).loose
  hwaits := Pipeline.hwaits_of_owed_zero _ _ _ _ noLevels levelZero 4 fun _ _ => rfl
  pre c := iprop(StableHlo.held (c : Thread nD τ) (Pipeline.ucRefs τ sig) (B8 m ρ c) ∗ riding c)
  post c := iprop(StableHlo.held (c : Thread nD τ) (Pipeline.ucRefs τ sig) (B9 m ρ c) ∗ riding c)
  X c := iprop(∃ r, prngReg c r)
  Y c := iprop(∃ r, prngReg c r)
  Z c := Pipeline.unscopedRest (Ix := Unit) (Name := ℕ) (U := UR sig nD τ) (Lvl := ℕ) spec4 c (T8 m ρ c)
  hentry c := by
    rw [Pipeline.ownSems0_none]
    have hsplit := Pipeline.arrays_of_unscopedBufs (p := 4) (pcfgs (F := F)) adm (pd m ρ) launch4.win launch4.arr_whole c
      ((pd m ρ 4 c).share_full fun _ => rfl) (T8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 4 c).Φ 0 = Pipeline.ΦA spec4 c from rfl]; unfold Pipeline.ΦA
    iintro ⟨Hp, -, Hr⟩
    isplitl [Hr]; · iexact Hr
    iexact Hp
  hout c := by
    rw [Pipeline.ownSems0_none]
    exact R4.leave_parts (T8 m ρ) c
  hexit c := by
    have hjoin := Pipeline.unscopedBufs_of_arrays (p := 4) (pcfgs (F := F)) adm (Ix := Unit) (Name := ℕ) (U := UR sig nD τ) (Lvl := ℕ)
      launch4.win launch4.arr_whole c (pd m ρ) ((pd m ρ 4 c).share_full fun _ => rfl)
      (T8 m ρ c) (T9 m ρ c) ((pd m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.KI.R5.Leave.lean ====
/-
  The hidden state h' = tanh(c')·o, in the idealized kernel (pallas_call 5): what the invariant gives back after the last point, sorted as the
  region's exit wants it — the generator register, nothing for the kernel's own semaphores (it has none), and the scoped
  buffers no window stages, the accumulator among them at contents no longer named.
-/
import proofs.«116394_j17480516895034_2_alg».proof.Proof.KI.R5.Body

set_option maxRecDepth 16384

noncomputable section

namespace Cert.KernelIdeal.R5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem handed_parts (c : Dev nD) :
    (Pipeline.ΦA spec5 c : sProp 𝕄) ⊢ iprop((∃ r, prngReg c r) ∗ (BI.emp : sProp 𝕄)
      ∗ Pipeline.scopedRest (Ix := Unit) (Name := ℕ) (U := UR sig nD τ) (Lvl := ℕ) (Val := Elt F) spec5 c) := by
  unfold Pipeline.ΦA
  iintro ⟨Hr, Hp⟩
  isplitl [Hp]; · iexact Hp
  isplitr; · iempintro
  iexact Hr

theorem leave_parts (c : Dev nD) :
    (dat V c).Φ (Fin.last cfg5.N) ⊢ iprop((∃ r, prngReg c r) ∗ (BI.emp : sProp 𝕄)
      ∗ Pipeline.scopedRest (Ix := Unit) (Name := ℕ) (U := UR sig nD τ) (Lvl := ℕ) (Val := Elt F) spec5 c) :=
  (inv_leave V c).trans (handed_parts c)

end Cert.KernelIdeal.R5

end
-- ==== Proof.KI.Whole.Reg5.lean ====
/-
  The whole program of the idealized kernel: pallas_call 5 as an item of @main.

  The call is entered with every unscoped buffer at the contents of the boundary before it and left with them at the
  contents of the boundary after it.  Its arrays are split out of the unscoped buffers on entry and put back, at what
  the pipeline's write-backs leave, on exit; the generator register goes into the call's invariant and comes back;
  the accumulator is one of the scoped buffers no window stages, which the invariant takes and returns; nothing is
  owed, and the kernel has no semaphore of its own.
-/
import proofs.«116394_j17480516895034_2_alg».proof.Proof.KI.Whole.Chain
import proofs.«116394_j17480516895034_2_alg».proof.Proof.KI.R5.Leave

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg5 : Pipeline.RegionSeg (pcfgs (F := F)) adm (pd m ρ) () defs₀ noVariants noLevels levelZero 5 where
  win := launch5.win.to₀
  block_pos := launch5.block_pos
  stage_whole := launch5.stage_whole
  K := PEmpty
  osem k := k.elim
  ho := Pipeline.OwnSemFacts.none _
  hbody c := (R5.body_obligation (T9 m ρ) c).loose
  hwaits := Pipeline.hwaits_of_owed_zero _ _ _ _ noLevels levelZero 5 fun _ _ => rfl
  pre c := iprop(StableHlo.held (c : Thread nD τ) (Pipeline.ucRefs τ sig) (B9 m ρ c) ∗ riding c)
  post c := iprop(StableHlo.held (c : Thread nD τ) (Pipeline.ucRefs τ sig) (B10 m ρ c) ∗ riding c)
  X c := iprop(∃ r, prngReg c r)
  Y c := iprop(∃ r, prngReg c r)
  Z c := Pipeline.unscopedRest (Ix := Unit) (Name := ℕ) (U := UR sig nD τ) (Lvl := ℕ) spec5 c (T9 m ρ c)
  hentry c := by
    rw [Pipeline.ownSems0_none]
    have hsplit := Pipeline.arrays_of_unscopedBufs (p := 5) (pcfgs (F := F)) adm (pd m ρ) launch5.win launch5.arr_whole c
      ((pd m ρ 5 c).share_full fun _ => rfl) (T9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 5 c).Φ 0 = Pipeline.ΦA spec5 c from rfl]; unfold Pipeline.ΦA
    iintro ⟨Hp, -, Hr⟩
    isplitl [Hr]; · iexact Hr
    iexact Hp
  hout c := by
    rw [Pipeline.ownSems0_none]
    exact R5.leave_parts (T9 m ρ) c
  hexit c := by
    have hjoin := Pipeline.unscopedBufs_of_arrays (p := 5) (pcfgs (F := F)) adm (Ix := Unit) (Name := ℕ) (U := UR sig nD τ) (Lvl := ℕ)
      launch5.win launch5.arr_whole c (pd m ρ) ((pd m ρ 5 c).share_full fun _ => rfl)
      (T9 m ρ c) (T10 m ρ c) ((pd m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.KI.R6.Leave.lean ====
/-
  The output y = h'·W_y + b_y, in the idealized kernel (pallas_call 6): what the invariant gives back after the last point, sorted as the
  region's exit wants it — the generator register, nothing for the kernel's own semaphores (it has none), and the scoped
  buffers no window stages, the accumulator among them at contents no longer named.
-/
import proofs.«116394_j17480516895034_2_alg».proof.Proof.KI.R6.Body

set_option maxRecDepth 16384

noncomputable section

namespace Cert.KernelIdeal.R6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem handed_parts (c : Dev nD) :
    (Pipeline.ΦA spec6 c : sProp 𝕄) ⊢ iprop((∃ r, prngReg c r) ∗ (BI.emp : sProp 𝕄)
      ∗ Pipeline.scopedRest (Ix := Unit) (Name := ℕ) (U := UR sig nD τ) (Lvl := ℕ) (Val := Elt F) spec6 c) := by
  unfold Pipeline.ΦA
  iintro ⟨Hr, Hp⟩
  isplitl [Hp]; · iexact Hp
  isplitr; · iempintro
  iexact Hr

theorem leave_parts (c : Dev nD) :
    (dat V c).Φ (Fin.last cfg6.N) ⊢ iprop((∃ r, prngReg c r) ∗ (BI.emp : sProp 𝕄)
      ∗ Pipeline.scopedRest (Ix := Unit) (Name := ℕ) (U := UR sig nD τ) (Lvl := ℕ) (Val := Elt F) spec6 c) :=
  (inv_leave V c).trans (handed_parts c)

end Cert.KernelIdeal.R6

end
-- ==== Proof.KI.Whole.Reg6.lean ====
/-
  The whole program of the idealized kernel: pallas_call 6 as an item of @main.

  The call is entered with every unscoped buffer at the contents of the boundary before it and left with them at the
  contents of the boundary after it.  Its arrays are split out of the unscoped buffers on entry and put back, at what
  the pipeline's write-backs leave, on exit; the generator register goes into the call's invariant and comes back;
  the accumulator is one of the scoped buffers no window stages, which the invariant takes and returns; nothing is
  owed, and the kernel has no semaphore of its own.
-/
import proofs.«116394_j17480516895034_2_alg».proof.Proof.KI.Whole.Chain
import proofs.«116394_j17480516895034_2_alg».proof.Proof.KI.R6.Leave

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg6 : Pipeline.RegionSeg (pcfgs (F := F)) adm (pd m ρ) () defs₀ noVariants noLevels levelZero 6 where
  win := launch6.win.to₀
  block_pos := launch6.block_pos
  stage_whole := launch6.stage_whole
  K := PEmpty
  osem k := k.elim
  ho := Pipeline.OwnSemFacts.none _
  hbody c := (R6.body_obligation (T11 m ρ) c).loose
  hwaits := Pipeline.hwaits_of_owed_zero _ _ _ _ noLevels levelZero 6 fun _ _ => rfl
  pre c := iprop(StableHlo.held (c : Thread nD τ) (Pipeline.ucRefs τ sig) (B11 m ρ c) ∗ riding c)
  post c := iprop(StableHlo.held (c : Thread nD τ) (Pipeline.ucRefs τ sig) (B12 m ρ c) ∗ riding c)
  X c := iprop(∃ r, prngReg c r)
  Y c := iprop(∃ r, prngReg c r)
  Z c := Pipeline.unscopedRest (Ix := Unit) (Name := ℕ) (U := UR sig nD τ) (Lvl := ℕ) spec6 c (T11 m ρ c)
  hentry c := by
    rw [Pipeline.ownSems0_none]
    have hsplit := Pipeline.arrays_of_unscopedBufs (p := 6) (pcfgs (F := F)) adm (pd m ρ) launch6.win launch6.arr_whole c
      ((pd m ρ 6 c).share_full fun _ => rfl) (T11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 6 c).Φ 0 = Pipeline.ΦA spec6 c from rfl]; unfold Pipeline.ΦA
    iintro ⟨Hp, -, Hr⟩
    isplitl [Hr]; · iexact Hr
    iexact Hp
  hout c := by
    rw [Pipeline.ownSems0_none]
    exact R6.leave_parts (T11 m ρ) c
  hexit c := by
    have hjoin := Pipeline.unscopedBufs_of_arrays (p := 6) (pcfgs (F := F)) adm (Ix := Unit) (Name := ℕ) (U := UR sig nD τ) (Lvl := ℕ)
      launch6.win launch6.arr_whole c (pd m ρ) ((pd m ρ 6 c).share_full fun _ => rfl)
      (T11 m ρ c) (T12 m ρ c) ((pd m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.KI.Whole.Run.lean ====
/-
  The whole program of the idealized kernel: the run.

  @main is the run of its twelve items in order.  From any launch memory with zero counters every weakly fair execution
  terminates, nothing faulting, and in every final state every unscoped buffer holds the contents of the last boundary.
  Read at the argument arrays, which nothing writes, that is the frame claim.
-/
import proofs.«116394_j17480516895034_2_alg».proof.Proof.KI.Whole.Reg0
import proofs.«116394_j17480516895034_2_alg».proof.Proof.KI.Whole.Reg1
import proofs.«116394_j17480516895034_2_alg».proof.Proof.KI.Whole.Reg2
import proofs.«116394_j17480516895034_2_alg».proof.Proof.KI.Whole.Reg3
import proofs.«116394_j17480516895034_2_alg».proof.Proof.KI.Whole.Reg4
import proofs.«116394_j17480516895034_2_alg».proof.Proof.KI.Whole.Reg5
import proofs.«116394_j17480516895034_2_alg».proof.Proof.KI.Whole.Reg6

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's twelve items in order. -/
abbrev items : List (Pipeline.Seg (pcfgs (F := F)) adm (pd m ρ) () defs₀ noVariants noLevels levelZero) :=
  [
    .host (hostSeg hostOps0 hostOps0_sub hostOps0_fresh (B0 m ρ)),
    .region (reg0 m ρ),
    .host (hostSeg hostOps1 hostOps1_sub hostOps1_fresh (B2 m ρ)),
    .region (reg1 m ρ),
    .host (hostSeg hostOps2 hostOps2_sub hostOps2_fresh (B4 m ρ)),
    .region (reg2 m ρ),
    .host (hostSeg hostOps3 hostOps3_sub hostOps3_fresh (B6 m ρ)),
    .region (reg3 m ρ),
    .region (reg4 m ρ),
    .region (reg5 m ρ),
    .host (hostSeg hostOps6 hostOps6_sub hostOps6_fresh (B10 m ρ)),
    .region (reg6 m ρ) ]

theorem main_items (c : Dev nD) : main (F := F) c = Pipeline.Seg.run (items m ρ) := (main_chain c).trans (by chain_rfl)

set_option backward.isDefEq.respectTransparency.types false in
/-- Every execution ends with every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B12 m ρ c b) :=
  Pipeline.θ_run_regions_kit (pcfgs (F := F)) adm (pd m ρ) () cellOf_inj emb₁ defs₀ noVariants noLevels levelZero m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ riding c))
    (Tₙ := fun c => iprop(StableHlo.held (c : Thread nD τ) (Pipeline.ucRefs τ sig) (B12 m ρ c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => Idealize.SL.BI.sep_assoc'⟩)
    (hinit := by
      refine Pipeline.initEach noLevels levelZero fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B12 m ρ c b)
    (hfin := fun c s' => by
      iintro ⟨⟨Hh, -⟩, HSI⟩
      unfold StableHlo.held
      imodintro
      iapply (pointsTo_read_all (Pipeline.ucRefs τ sig) (fun b => (((c : Thread nD τ)).1, b)) (B12 m ρ c) s')
      isplitl [Hh] <;> iassumption)
    (hQ := fun s h c => h c)

/-- An argument array is found at the end as launched. -/
theorem arg_kept (r : Ref sig .tc) (huc : ¬ (Proc.devRef .tc r : DevRef τ sig).isScoped)
    (h0 : r ∉ hostOps0_W) (h1 : r ∉ hostOps1_W) (h2 : r ∉ hostOps2_W) (h3 : r ∉ hostOps3_W) (h6 : r ∉ hostOps6_W)
    (hout : r ∉ ([main_v3, main_v7, main_v11, main_v15, main_v16, main_v17, main_v19] : List (Ref sig .tc)))
    (mem : (ℓ : Loc nD τ sig) → Buf (Elt F) ℓ) (c : Dev nD)
    (h : ∀ b ∈ Pipeline.ucRefs τ sig, mem (((c : Thread nD τ)).1, b) = B12 m ρ c b) :
    mem ((c.tc : Thread nD τ).loc r) = m ((c.tc : Thread nD τ).loc r) :=
  (h _ (mem_uc r huc)).trans (B12_untouched m ρ c r h0 h1 h2 h3 h6 hout)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c => ⟨arg_kept m ρ main_arg0 (by decide) (by decide) (by decide) (by decide) (by decide) (by decide) (by decide) _ c (h c),
    arg_kept m ρ main_arg1 (by decide) (by decide) (by decide) (by decide) (by decide) (by decide) (by decide) _ c (h c),
    arg_kept m ρ main_arg2 (by decide) (by decide) (by decide) (by decide) (by decide) (by decide) (by decide) _ c (h c),
    arg_kept m ρ main_arg3 (by decide) (by decide) (by decide) (by decide) (by decide) (by decide) (by decide) _ c (h c),
    arg_kept m ρ main_arg4 (by decide) (by decide) (by decide) (by decide) (by decide) (by decide) (by decide) _ c (h c),
    arg_kept m ρ main_arg5 (by decide) (by decide) (by decide) (by decide) (by decide) (by decide) (by decide) _ c (h c),
    arg_kept m ρ main_arg6 (by decide) (by decide) (by decide) (by decide) (by decide) (by decide) (by decide) _ c (h c),
    arg_kept m ρ main_arg7 (by decide) (by decide) (by decide) (by decide) (by decide) (by decide) (by decide) _ c (h c),
    arg_kept m ρ main_arg8 (by decide) (by decide) (by decide) (by decide) (by decide) (by decide) (by decide) _ c (h c),
    arg_kept m ρ main_arg9 (by decide) (by decide) (by decide) (by decide) (by decide) (by decide) (by decide) _ c (h c),
    arg_kept m ρ main_arg10 (by decide) (by decide) (by decide) (by decide) (by decide) (by decide) (by decide) _ c (h c),
    arg_kept m ρ main_arg11 (by decide) (by decide) (by decide) (by decide) (by decide) (by decide) (by decide) _ c (h c),
    arg_kept m ρ main_arg12 (by decide) (by decide) (by decide) (by decide) (by decide) (by decide) (by decide) _ c (h c),
    arg_kept m ρ main_arg13 (by decide) (by decide) (by decide) (by decide) (by decide) (by decide) (by decide) _ c (h c),
    arg_kept m ρ main_arg14 (by decide) (by decide) (by decide) (by decide) (by decide) (by decide) (by decide) _ c (h c),
    arg_kept m ρ main_arg15 (by decide) (by decide) (by decide) (by decide) (by decide) (by decide) (by decide) _ c (h c),
    arg_kept m ρ main_arg16 (by decide) (by decide) (by decide) (by decide) (by decide) (by decide) (by decide) _ c (h c),
    arg_kept m ρ main_arg17 (by decide) (by decide) (by decide) (by decide) (by decide) (by decide) (by decide) _ c (h c),
    arg_kept m ρ main_arg18 (by decide) (by decide) (by decide) (by decide) (by decide) (by decide) (by decide) _ c (h c),
    arg_kept m ρ main_arg19 (by decide) (by decide) (by decide) (by decide) (by decide) (by decide) (by decide) _ c (h c),
    arg_kept m ρ main_arg20 (by decide) (by decide) (by decide) (by decide) (by decide) (by decide) (by decide) _ c (h c),
    arg_kept m ρ main_arg21 (by decide) (by decide) (by decide) (by decide) (by decide) (by decide) (by decide) _ c (h c),
    arg_kept m ρ main_arg22 (by decide) (by decide) (by decide) (by decide) (by decide) (by decide) (by decide) _ c (h c),
    arg_kept m ρ main_arg23 (by decide) (by decide) (by decide) (by decide) (by decide) (by decide) (by decide) _ c (h c),
    arg_kept m ρ main_arg24 (by decide) (by decide) (by decide) (by decide) (by decide) (by decide) (by decide) _ c (h c)⟩) (run_all m ρ)

end Cert.KernelIdeal.Whole

end
-- ==== Proof.Spec.lean ====
/-
  What the LSTM cell computes, on the extended reals, as functions of its argument arrays.

  All matrices are 2048 × 2048 and all vectors have 2048 entries; an entry is an extended real.  Writing A·B for the
  matrix product, the four gates are

      pre   = h·W_h + x·W_x + b                 (b added to every row)
      μ_r   = (Σ_n pre[r,n]) / 2048,   σ²_r = (Σ_n (pre[r,n] − μ_r)²) / 2048
      gate  = act((pre − μ) · rsqrt(σ² + ε) · g + β)     (act the logistic function, or tanh for the candidate gate)

  and then   c' = f·c + g·i,   h' = tanh(c')·o,   y = h'·W_y + b_y   — matrix products throughout, as the module
  this kernel was taken from has them.  The divisor 2048 and ε are kept as the f32 words both programs carry.

  Both programs are compared with these functions; this module mentions neither.
-/
import Idealize.ShloMosaic.PureOps.Ideal
import Idealize.ShloMosaic.Lib.ValueIdx

noncomputable section

namespace Cert.Spec

open Idealize.ShloMosaic Idealize.ShloMosaic.ValueIdx

/-- A 2048 × 2048 matrix by its two coordinates. -/
abbrev Mat : Type := Fin 2048 → Fin 2048 → EReal
/-- A vector of 2048 entries. -/
abbrev Vec : Type := Fin 2048 → EReal

/-- The divisor of the two means, as both programs carry it: the f32 word of 2048. -/
def wN : EReal := Ideal.ofBits .f32 0x45000000#32
/-- The ε under the reciprocal square root, as both programs carry it: the f32 word nearest 1e-5. -/
def wEps : EReal := Ideal.ofBits .f32 0x3727C5AC#32

/-- The matrix product. -/
def mm (A B : Mat) : Mat := fun r n => ∑ k : Fin 2048, A r k * B k n

/-- A gate before normalisation: h·W_h + x·W_x + b. -/
def pre (H Wh X Wx : Mat) (b : Vec) : Mat := fun r n => mm H Wh r n + mm X Wx r n + b n

/-- A row's mean. -/
def rowMean (P : Mat) : Vec := fun r => Ideal.div (∑ n : Fin 2048, P r n) wN

/-- A row's mean squared deviation from its mean. -/
def rowVar (P : Mat) : Vec := fun r => Ideal.div (∑ n : Fin 2048, (P r n - rowMean P r) * (P r n - rowMean P r)) wN

/-- Layer normalisation of every row, with gain g and offset β. -/
def layerNorm (P : Mat) (g be : Vec) : Mat := fun r n =>
  (P r n - rowMean P r) * Ideal.rsqrt (rowVar P r + wEps) * g n + be n

/-- A logistic gate (forget, input, output). -/
def gateLogistic (H Wh X Wx : Mat) (b g be : Vec) : Mat := fun r n => Ideal.logistic (layerNorm (pre H Wh X Wx b) g be r n)

/-- The candidate gate. -/
def gateTanh (H Wh X Wx : Mat) (b g be : Vec) : Mat := fun r n => Ideal.tanh (layerNorm (pre H Wh X Wx b) g be r n)

/-- The new cell state f·c + g·i. -/
def cell (Ft C Gt It : Mat) : Mat := fun r n => mm Ft C r n + mm Gt It r n

/-- The new hidden state tanh(c')·o. -/
def hidden (Ct Ot : Mat) : Mat := mm (fun r k => Ideal.tanh (Ct r k)) Ot

/-- The output head h'·W_y + b_y. -/
def head (Ht Wy : Mat) (b : Vec) : Mat := fun r n => mm Ht Wy r n + b n

/-! ## Arrays and their coordinate forms -/

/-- A 2048 × 2048 array by its coordinates. -/
def at2 (X : (⟨2, ![2048, 2048]⟩ : Shape).Idx → EReal) : Mat := fun r n => X (ix2 r n)
/-- A 2048 array by its coordinate. -/
def at1 (x : (⟨1, ![2048]⟩ : Shape).Idx → EReal) : Vec := fun n => x (ix1 n)
/-- A 1 × 2048 array (a vector laid out as a row) by its coordinate. -/
def atRow (x : (⟨2, ![1, 2048]⟩ : Shape).Idx → EReal) : Vec := fun n => x (ix2 0 n)
/-- The array of a matrix. -/
def of2 (f : Mat) : (⟨2, ![2048, 2048]⟩ : Shape).Idx → EReal := fun j => f (j 0) (j 1)

theorem of2_at2 (X : (⟨2, ![2048, 2048]⟩ : Shape).Idx → EReal) : of2 (at2 X) = X := by
  funext j; unfold of2 at2; exact congrArg X (eq_ix2 j).symm

theorem at2_of2 (f : Mat) : at2 (of2 f) = f := rfl

/-! ## Finite matrices -/

/-- Every entry is a real number. -/
def FiniteM (A : Mat) : Prop := ∀ r n, ∃ x : ℝ, A r n = (x : EReal)
def FiniteV (v : Vec) : Prop := ∀ n, ∃ x : ℝ, v n = (x : EReal)

end Cert.Spec

end
-- ==== Proof.KI.Whole.Reads.lean ====
/-
  What each pallas_call of the idealized kernel finds in the arrays it reads.

  Nothing writes an argument array, so every call finds it as launched.  A bias, gain or offset row is the reshape of
  its vector into one row, so read as a vector it is that vector.  An intermediate array (a gate, the new cell state,
  the new hidden state) is found by a later call as the call that produced it left it, because the items in between
  write other buffers; and each call's output array is what its write-backs fold to.
-/
import proofs.«116394_j17480516895034_2_alg».proof.Proof.KI.Whole.Chain
import proofs.«116394_j17480516895034_2_alg».proof.Proof.Spec
import Idealize.ShloMosaic.Lib.ValueLayout

set_option maxRecDepth 16384

noncomputable section

namespace Cert.KernelIdeal.Whole

open Cert.KernelIdeal Cert.KernelIdeal.Gen
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg)

/-! ## Argument arrays -/

/-- No item of @main writes the buffer: no host stretch and no pallas_call's output. -/
def Untouched (r : Ref sig .tc) : Prop :=
  r ∉ hostOps0_W ∧ r ∉ hostOps1_W ∧ r ∉ hostOps2_W ∧ r ∉ hostOps3_W ∧ r ∉ hostOps6_W ∧
    r ∉ ([main_v3, main_v7, main_v11, main_v15, main_v16, main_v17, main_v19] : List (Ref sig .tc))

instance (r : Ref sig .tc) : Decidable (Untouched r) := by unfold Untouched; infer_instance

theorem Untouched.ne {r : Ref sig .tc} (h : Untouched r) (o : Ref sig .tc)
    (ho : o ∈ ([main_v3, main_v7, main_v11, main_v15, main_v16, main_v17, main_v19] : List (Ref sig .tc))) : r ≠ o :=
  fun e => h.2.2.2.2.2 (e ▸ ho)

/-! A buffer nothing writes holds at every boundary what it held at launch. -/

theorem launch_B1 (c : Dev nD) (r : Ref sig .tc) (h : Untouched r) :
    B1 m ρ c (Proc.devRef .tc r) = m ((c.tc : Thread nD τ).loc r) :=
  (B1_keep m ρ c r h.1).trans rfl
theorem launch_B2 (c : Dev nD) (r : Ref sig .tc) (h : Untouched r) :
    B2 m ρ c (Proc.devRef .tc r) = m ((c.tc : Thread nD τ).loc r) :=
  (B2_keep m ρ c r (h.ne main_v3 (by decide))).trans (launch_B1 m ρ c r h)
theorem launch_B3 (c : Dev nD) (r : Ref sig .tc) (h : Untouched r) :
    B3 m ρ c (Proc.devRef .tc r) = m ((c.tc : Thread nD τ).loc r) :=
  (B3_keep m ρ c r h.2.1).trans (launch_B2 m ρ c r h)
theorem launch_B4 (c : Dev nD) (r : Ref sig .tc) (h : Untouched r) :
    B4 m ρ c (Proc.devRef .tc r) = m ((c.tc : Thread nD τ).loc r) :=
  (B4_keep m ρ c r (h.ne main_v7 (by decide))).trans (launch_B3 m ρ c r h)
theorem launch_B5 (c : Dev nD) (r : Ref sig .tc) (h : Untouched r) :
    B5 m ρ c (Proc.devRef .tc r) = m ((c.tc : Thread nD τ).loc r) :=
  (B5_keep m ρ c r h.2.2.1).trans (launch_B4 m ρ c r h)
theorem launch_B6 (c : Dev nD) (r : Ref sig .tc) (h : Untouched r) :
    B6 m ρ c (Proc.devRef .tc r) = m ((c.tc : Thread nD τ).loc r) :=
  (B6_keep m ρ c r (h.ne main_v11 (by decide))).trans (launch_B5 m ρ c r h)
theorem launch_B7 (c : Dev nD) (r : Ref sig .tc) (h : Untouched r) :
    B7 m ρ c (Proc.devRef .tc r) = m ((c.tc : Thread nD τ).loc r) :=
  (B7_keep m ρ c r h.2.2.2.1).trans (launch_B6 m ρ c r h)
theorem launch_B8 (c : Dev nD) (r : Ref sig .tc) (h : Untouched r) :
    B8 m ρ c (Proc.devRef .tc r) = m ((c.tc : Thread nD τ).loc r) :=
  (B8_keep m ρ c r (h.ne main_v15 (by decide))).trans (launch_B7 m ρ c r h)
theorem launch_B9 (c : Dev nD) (r : Ref sig .tc) (h : Untouched r) :
    B9 m ρ c (Proc.devRef .tc r) = m ((c.tc : Thread nD τ).loc r) :=
  (B9_keep m ρ c r (h.ne main_v16 (by decide))).trans (launch_B8 m ρ c r h)
theorem launch_B10 (c : Dev nD) (r : Ref sig .tc) (h : Untouched r) :
    B10 m ρ c (Proc.devRef .tc r) = m ((c.tc : Thread nD τ).loc r) :=
  (B10_keep m ρ c r (h.ne main_v17 (by decide))).trans (launch_B9 m ρ c r h)
theorem launch_B11 (c : Dev nD) (r : Ref sig .tc) (h : Untouched r) :
    B11 m ρ c (Proc.devRef .tc r) = m ((c.tc : Thread nD τ).loc r) :=
  (B11_keep m ρ c r h.2.2.2.2.1).trans (launch_B10 m ρ c r h)
theorem launch_B12 (c : Dev nD) (r : Ref sig .tc) (h : Untouched r) :
    B12 m ρ c (Proc.devRef .tc r) = m ((c.tc : Thread nD τ).loc r) :=
  (B12_keep m ρ c r (h.ne main_v19 (by decide))).trans (launch_B11 m ρ c r h)

/-! The same at each call's entry. -/

theorem T1_arg (c : Dev nD) (r : Ref sig .tc) (h : Untouched r) : T1 m ρ c r = m ((c.tc : Thread nD τ).loc r) :=
  launch_B1 m ρ c r h
theorem T3_arg (c : Dev nD) (r : Ref sig .tc) (h : Untouched r) : T3 m ρ c r = m ((c.tc : Thread nD τ).loc r) :=
  launch_B3 m ρ c r h
theorem T5_arg (c : Dev nD) (r : Ref sig .tc) (h : Untouched r) : T5 m ρ c r = m ((c.tc : Thread nD τ).loc r) :=
  launch_B5 m ρ c r h
theorem T7_arg (c : Dev nD) (r : Ref sig .tc) (h : Untouched r) : T7 m ρ c r = m ((c.tc : Thread nD τ).loc r) :=
  launch_B7 m ρ c r h
theorem T8_arg (c : Dev nD) (r : Ref sig .tc) (h : Untouched r) : T8 m ρ c r = m ((c.tc : Thread nD τ).loc r) :=
  launch_B8 m ρ c r h
theorem T9_arg (c : Dev nD) (r : Ref sig .tc) (h : Untouched r) : T9 m ρ c r = m ((c.tc : Thread nD τ).loc r) :=
  launch_B9 m ρ c r h
theorem T11_arg (c : Dev nD) (r : Ref sig .tc) (h : Untouched r) : T11 m ρ c r = m ((c.tc : Thread nD τ).loc r) :=
  launch_B11 m ρ c r h

/-! ## Rows: a vector reshaped into one row, read back as the vector -/

theorem row_v0 (W : Valuation τ sig (Elt Ideal)) :
    Cert.Spec.atRow (StableHlo.after hostOps0 W (Proc.devRef .tc main_v0)) = Cert.Spec.at1 (W (Proc.devRef .tc main_arg11)) := by
  have e : StableHlo.after hostOps0 W (Proc.devRef .tc main_v0 : DevRef τ sig)
      = fun i => shapeCast S1x2048 (W (Proc.devRef .tc main_arg11)) shapeCasts_S2048_S1x2048 i := by
    after_results
    rfl
  funext n
  unfold Cert.Spec.atRow Cert.Spec.at1
  rw [e]
  exact shapeCast_a_1a_apply _ _ 0 n

theorem row_v1 (W : Valuation τ sig (Elt Ideal)) :
    Cert.Spec.atRow (StableHlo.after hostOps0 W (Proc.devRef .tc main_v1)) = Cert.Spec.at1 (W (Proc.devRef .tc main_arg17)) := by
  have e : StableHlo.after hostOps0 W (Proc.devRef .tc main_v1 : DevRef τ sig)
      = fun i => shapeCast S1x2048 (W (Proc.devRef .tc main_arg17)) shapeCasts_S2048_S1x2048 i := by
    after_results
    rfl
  funext n
  unfold Cert.Spec.atRow Cert.Spec.at1
  rw [e]
  exact shapeCast_a_1a_apply _ _ 0 n

theorem row_v2 (W : Valuation τ sig (Elt Ideal)) :
    Cert.Spec.atRow (StableHlo.after hostOps0 W (Proc.devRef .tc main_v2)) = Cert.Spec.at1 (W (Proc.devRef .tc main_arg18)) := by
  have e : StableHlo.after hostOps0 W (Proc.devRef .tc main_v2 : DevRef τ sig)
      = fun i => shapeCast S1x2048 (W (Proc.devRef .tc main_arg18)) shapeCasts_S2048_S1x2048 i := by
    after_results
    rfl
  funext n
  unfold Cert.Spec.atRow Cert.Spec.at1
  rw [e]
  exact shapeCast_a_1a_apply _ _ 0 n

theorem row_v4 (W : Valuation τ sig (Elt Ideal)) :
    Cert.Spec.atRow (StableHlo.after hostOps1 W (Proc.devRef .tc main_v4)) = Cert.Spec.at1 (W (Proc.devRef .tc main_arg12)) := by
  have e : StableHlo.after hostOps1 W (Proc.devRef .tc main_v4 : DevRef τ sig)
      = fun i => shapeCast S1x2048 (W (Proc.devRef .tc main_arg12)) shapeCasts_S2048_S1x2048 i := by
    after_results
    rfl
  funext n
  unfold Cert.Spec.atRow Cert.Spec.at1
  rw [e]
  exact shapeCast_a_1a_apply _ _ 0 n

theorem row_v5 (W : Valuation τ sig (Elt Ideal)) :
    Cert.Spec.atRow (StableHlo.after hostOps1 W (Proc.devRef .tc main_v5)) = Cert.Spec.at1 (W (Proc.devRef .tc main_arg19)) := by
  have e : StableHlo.after hostOps1 W (Proc.devRef .tc main_v5 : DevRef τ sig)
      = fun i => shapeCast S1x2048 (W (Proc.devRef .tc main_arg19)) shapeCasts_S2048_S1x2048 i := by
    after_results
    rfl
  funext n
  unfold Cert.Spec.atRow Cert.Spec.at1
  rw [e]
  exact shapeCast_a_1a_apply _ _ 0 n

theorem row_v6 (W : Valuation τ sig (Elt Ideal)) :
    Cert.Spec.atRow (StableHlo.after hostOps1 W (Proc.devRef .tc main_v6)) = Cert.Spec.at1 (W (Proc.devRef .tc main_arg20)) := by
  have e : StableHlo.after hostOps1 W (Proc.devRef .tc main_v6 : DevRef τ sig)
      = fun i => shapeCast S1x2048 (W (Proc.devRef .tc main_arg20)) shapeCasts_S2048_S1x2048 i := by
    after_results
    rfl
  funext n
  unfold Cert.Spec.atRow Cert.Spec.at1
  rw [e]
  exact shapeCast_a_1a_apply _ _ 0 n

theorem row_v8 (W : Valuation τ sig (Elt Ideal)) :
    Cert.Spec.atRow (StableHlo.after hostOps2 W (Proc.devRef .tc main_v8)) = Cert.Spec.at1 (W (Proc.devRef .tc main_arg13)) := by
  have e : StableHlo.after hostOps2 W (Proc.devRef .tc main_v8 : DevRef τ sig)
      = fun i => shapeCast S1x2048 (W (Proc.devRef .tc main_arg13)) shapeCasts_S2048_S1x2048 i := by
    after_results
    rfl
  funext n
  unfold Cert.Spec.atRow Cert.Spec.at1
  rw [e]
  exact shapeCast_a_1a_apply _ _ 0 n

theorem row_v9 (W : Valuation τ sig (Elt Ideal)) :
    Cert.Spec.atRow (StableHlo.after hostOps2 W (Proc.devRef .tc main_v9)) = Cert.Spec.at1 (W (Proc.devRef .tc main_arg21)) := by
  have e : StableHlo.after hostOps2 W (Proc.devRef .tc main_v9 : DevRef τ sig)
      = fun i => shapeCast S1x2048 (W (Proc.devRef .tc main_arg21)) shapeCasts_S2048_S1x2048 i := by
    after_results
    rfl
  funext n
  unfold Cert.Spec.atRow Cert.Spec.at1
  rw [e]
  exact shapeCast_a_1a_apply _ _ 0 n

theorem row_v10 (W : Valuation τ sig (Elt Ideal)) :
    Cert.Spec.atRow (StableHlo.after hostOps2 W (Proc.devRef .tc main_v10)) = Cert.Spec.at1 (W (Proc.devRef .tc main_arg22)) := by
  have e : StableHlo.after hostOps2 W (Proc.devRef .tc main_v10 : DevRef τ sig)
      = fun i => shapeCast S1x2048 (W (Proc.devRef .tc main_arg22)) shapeCasts_S2048_S1x2048 i := by
    after_results
    rfl
  funext n
  unfold Cert.Spec.atRow Cert.Spec.at1
  rw [e]
  exact shapeCast_a_1a_apply _ _ 0 n

theorem row_v12 (W : Valuation τ sig (Elt Ideal)) :
    Cert.Spec.atRow (StableHlo.after hostOps3 W (Proc.devRef .tc main_v12)) = Cert.Spec.at1 (W (Proc.devRef .tc main_arg14)) := by
  have e : StableHlo.after hostOps3 W (Proc.devRef .tc main_v12 : DevRef τ sig)
      = fun i => shapeCast S1x2048 (W (Proc.devRef .tc main_arg14)) shapeCasts_S2048_S1x2048 i := by
    after_results
    rfl
  funext n
  unfold Cert.Spec.atRow Cert.Spec.at1
  rw [e]
  exact shapeCast_a_1a_apply _ _ 0 n

theorem row_v13 (W : Valuation τ sig (Elt Ideal)) :
    Cert.Spec.atRow (StableHlo.after hostOps3 W (Proc.devRef .tc main_v13)) = Cert.Spec.at1 (W (Proc.devRef .tc main_arg23)) := by
  have e : StableHlo.after hostOps3 W (Proc.devRef .tc main_v13 : DevRef τ sig)
      = fun i => shapeCast S1x2048 (W (Proc.devRef .tc main_arg23)) shapeCasts_S2048_S1x2048 i := by
    after_results
    rfl
  funext n
  unfold Cert.Spec.atRow Cert.Spec.at1
  rw [e]
  exact shapeCast_a_1a_apply _ _ 0 n

theorem row_v14 (W : Valuation τ sig (Elt Ideal)) :
    Cert.Spec.atRow (StableHlo.after hostOps3 W (Proc.devRef .tc main_v14)) = Cert.Spec.at1 (W (Proc.devRef .tc main_arg24)) := by
  have e : StableHlo.after hostOps3 W (Proc.devRef .tc main_v14 : DevRef τ sig)
      = fun i => shapeCast S1x2048 (W (Proc.devRef .tc main_arg24)) shapeCasts_S2048_S1x2048 i := by
    after_results
    rfl
  funext n
  unfold Cert.Spec.atRow Cert.Spec.at1
  rw [e]
  exact shapeCast_a_1a_apply _ _ 0 n

theorem row_v18 (W : Valuation τ sig (Elt Ideal)) :
    Cert.Spec.atRow (StableHlo.after hostOps6 W (Proc.devRef .tc main_v18)) = Cert.Spec.at1 (W (Proc.devRef .tc main_arg16)) := by
  have e : StableHlo.after hostOps6 W (Proc.devRef .tc main_v18 : DevRef τ sig)
      = fun i => shapeCast S1x2048 (W (Proc.devRef .tc main_arg16)) shapeCasts_S2048_S1x2048 i := by
    after_results
    rfl
  funext n
  unfold Cert.Spec.atRow Cert.Spec.at1
  rw [e]
  exact shapeCast_a_1a_apply _ _ 0 n

/-! The rows as each gate call and the output head find them. -/

theorem T1_v0 (c : Dev nD) : Cert.Spec.atRow (T1 m ρ c main_v0) = Cert.Spec.at1 (m ((c.tc : Thread nD τ).loc main_arg11)) :=
  row_v0 (B0 m ρ c)

theorem T1_v1 (c : Dev nD) : Cert.Spec.atRow (T1 m ρ c main_v1) = Cert.Spec.at1 (m ((c.tc : Thread nD τ).loc main_arg17)) :=
  row_v1 (B0 m ρ c)

theorem T1_v2 (c : Dev nD) : Cert.Spec.atRow (T1 m ρ c main_v2) = Cert.Spec.at1 (m ((c.tc : Thread nD τ).loc main_arg18)) :=
  row_v2 (B0 m ρ c)

theorem T3_v4 (c : Dev nD) : Cert.Spec.atRow (T3 m ρ c main_v4) = Cert.Spec.at1 (m ((c.tc : Thread nD τ).loc main_arg12)) :=
  (row_v4 (B2 m ρ c)).trans (congrArg Cert.Spec.at1 (launch_B2 m ρ c main_arg12 (by decide)))

theorem T3_v5 (c : Dev nD) : Cert.Spec.atRow (T3 m ρ c main_v5) = Cert.Spec.at1 (m ((c.tc : Thread nD τ).loc main_arg19)) :=
  (row_v5 (B2 m ρ c)).trans (congrArg Cert.Spec.at1 (launch_B2 m ρ c main_arg19 (by decide)))

theorem T3_v6 (c : Dev nD) : Cert.Spec.atRow (T3 m ρ c main_v6) = Cert.Spec.at1 (m ((c.tc : Thread nD τ).loc main_arg20)) :=
  (row_v6 (B2 m ρ c)).trans (congrArg Cert.Spec.at1 (launch_B2 m ρ c main_arg20 (by decide)))

theorem T5_v8 (c : Dev nD) : Cert.Spec.atRow (T5 m ρ c main_v8) = Cert.Spec.at1 (m ((c.tc : Thread nD τ).loc main_arg13)) :=
  (row_v8 (B4 m ρ c)).trans (congrArg Cert.Spec.at1 (launch_B4 m ρ c main_arg13 (by decide)))

theorem T5_v9 (c : Dev nD) : Cert.Spec.atRow (T5 m ρ c main_v9) = Cert.Spec.at1 (m ((c.tc : Thread nD τ).loc main_arg21)) :=
  (row_v9 (B4 m ρ c)).trans (congrArg Cert.Spec.at1 (launch_B4 m ρ c main_arg21 (by decide)))

theorem T5_v10 (c : Dev nD) : Cert.Spec.atRow (T5 m ρ c main_v10) = Cert.Spec.at1 (m ((c.tc : Thread nD τ).loc main_arg22)) :=
  (row_v10 (B4 m ρ c)).trans (congrArg Cert.Spec.at1 (launch_B4 m ρ c main_arg22 (by decide)))

theorem T7_v12 (c : Dev nD) : Cert.Spec.atRow (T7 m ρ c main_v12) = Cert.Spec.at1 (m ((c.tc : Thread nD τ).loc main_arg14)) :=
  (row_v12 (B6 m ρ c)).trans (congrArg Cert.Spec.at1 (launch_B6 m ρ c main_arg14 (by decide)))

theorem T7_v13 (c : Dev nD) : Cert.Spec.atRow (T7 m ρ c main_v13) = Cert.Spec.at1 (m ((c.tc : Thread nD τ).loc main_arg23)) :=
  (row_v13 (B6 m ρ c)).trans (congrArg Cert.Spec.at1 (launch_B6 m ρ c main_arg23 (by decide)))

theorem T7_v14 (c : Dev nD) : Cert.Spec.atRow (T7 m ρ c main_v14) = Cert.Spec.at1 (m ((c.tc : Thread nD τ).loc main_arg24)) :=
  (row_v14 (B6 m ρ c)).trans (congrArg Cert.Spec.at1 (launch_B6 m ρ c main_arg24 (by decide)))

theorem T11_v18 (c : Dev nD) : Cert.Spec.atRow (T11 m ρ c main_v18) = Cert.Spec.at1 (m ((c.tc : Thread nD τ).loc main_arg16)) :=
  (row_v18 (B10 m ρ c)).trans (congrArg Cert.Spec.at1 (launch_B10 m ρ c main_arg16 (by decide)))

/-! ## Intermediate arrays -/

/-- The forget gate as the cell-state call finds it. -/
theorem T8_v3 (c : Dev nD) : T8 m ρ c main_v3 = T2 m ρ c main_v3 :=
  (B8_keep m ρ c main_v3 (by decide)).trans <| (B7_keep m ρ c main_v3 (by decide)).trans <|
  (B6_keep m ρ c main_v3 (by decide)).trans <| (B5_keep m ρ c main_v3 (by decide)).trans <|
  (B4_keep m ρ c main_v3 (by decide)).trans (B3_keep m ρ c main_v3 (by decide))

/-- The candidate gate as the cell-state call finds it. -/
theorem T8_v7 (c : Dev nD) : T8 m ρ c main_v7 = T4 m ρ c main_v7 :=
  (B8_keep m ρ c main_v7 (by decide)).trans <| (B7_keep m ρ c main_v7 (by decide)).trans <|
  (B6_keep m ρ c main_v7 (by decide)).trans (B5_keep m ρ c main_v7 (by decide))

/-- The input gate as the cell-state call finds it. -/
theorem T8_v11 (c : Dev nD) : T8 m ρ c main_v11 = T6 m ρ c main_v11 :=
  (B8_keep m ρ c main_v11 (by decide)).trans (B7_keep m ρ c main_v11 (by decide))

/-- The output gate as the hidden-state call finds it. -/
theorem T9_v15 (c : Dev nD) : T9 m ρ c main_v15 = T8 m ρ c main_v15 :=
  B9_keep m ρ c main_v15 (by decide)

/-- The new hidden state as the output head finds it. -/
theorem T11_v17 (c : Dev nD) : T11 m ρ c main_v17 = T10 m ρ c main_v17 :=
  B11_keep m ρ c main_v17 (by decide)

/-- The new cell state at the end. -/
theorem B12_v16 (c : Dev nD) : B12 m ρ c (Proc.devRef .tc main_v16) = B9 m ρ c (Proc.devRef .tc main_v16) :=
  (B12_keep m ρ c main_v16 (by decide)).trans <| (B11_keep m ρ c main_v16 (by decide)).trans
    (B10_keep m ρ c main_v16 (by decide))

/-- The new hidden state at the end. -/
theorem B12_v17 (c : Dev nD) : B12 m ρ c (Proc.devRef .tc main_v17) = B10 m ρ c (Proc.devRef .tc main_v17) :=
  (B12_keep m ρ c main_v17 (by decide)).trans (B11_keep m ρ c main_v17 (by decide))

/-! ## Each call's output array -/

theorem out_v3 (c : Dev nD) : B2 m ρ c (Proc.devRef .tc main_v3) = (R0.dat (T1 m ρ) c).arrAt 7 cfg0.N := B2_arr m ρ c 7
theorem out_v7 (c : Dev nD) : B4 m ρ c (Proc.devRef .tc main_v7) = (R1.dat (T3 m ρ) c).arrAt 7 cfg1.N := B4_arr m ρ c 7
theorem out_v11 (c : Dev nD) : B6 m ρ c (Proc.devRef .tc main_v11) = (R2.dat (T5 m ρ) c).arrAt 7 cfg2.N := B6_arr m ρ c 7
theorem out_v15 (c : Dev nD) : B8 m ρ c (Proc.devRef .tc main_v15) = (R3.dat (T7 m ρ) c).arrAt 7 cfg3.N := B8_arr m ρ c 7
theorem out_v16 (c : Dev nD) : B9 m ρ c (Proc.devRef .tc main_v16) = (R4.dat (T8 m ρ) c).arrAt 4 cfg4.N := B9_arr m ρ c 4
theorem out_v17 (c : Dev nD) : B10 m ρ c (Proc.devRef .tc main_v17) = (R5.dat (T9 m ρ) c).arrAt 2 cfg5.N := B10_arr m ρ c 2
theorem out_v19 (c : Dev nD) : B12 m ρ c (Proc.devRef .tc main_v19) = (R6.dat (T11 m ρ) c).arrAt 3 cfg6.N := B12_arr m ρ c 3

end Cert.KernelIdeal.Whole

end
-- ==== Proof.SpecAll.lean ====
/-
  The three results of the LSTM cell as functions of its twenty-five arguments.
-/
import proofs.«116394_j17480516895034_2_alg».proof.Proof.Spec

noncomputable section

namespace Cert.Spec

/-- The arguments: the input x, the states c and h, the eight gate weights, the four gate biases, the output head,
    and the four pairs of normalisation gain and offset. -/
structure Args where
  x : Mat
  c : Mat
  h : Mat
  Whf : Mat
  Whg : Mat
  Whi : Mat
  Who : Mat
  Wxf : Mat
  Wxg : Mat
  Wxi : Mat
  Wxo : Mat
  bf : Vec
  bg : Vec
  bi : Vec
  bo : Vec
  Wy : Mat
  bY : Vec
  gf : Vec
  bef : Vec
  gg : Vec
  beg : Vec
  gi : Vec
  bei : Vec
  go : Vec
  beo : Vec

/-- The forget gate. -/
def fT (a : Args) : Mat := gateLogistic a.h a.Whf a.x a.Wxf a.bf a.gf a.bef
/-- The candidate gate. -/
def gT (a : Args) : Mat := gateTanh a.h a.Whg a.x a.Wxg a.bg a.gg a.beg
/-- The input gate. -/
def iT (a : Args) : Mat := gateLogistic a.h a.Whi a.x a.Wxi a.bi a.gi a.bei
/-- The output gate. -/
def oT (a : Args) : Mat := gateLogistic a.h a.Who a.x a.Wxo a.bo a.go a.beo
/-- The new cell state. -/
def cT (a : Args) : Mat := cell (fT a) a.c (gT a) (iT a)
/-- The new hidden state. -/
def hT (a : Args) : Mat := hidden (cT a) (oT a)
/-- The output. -/
def yT (a : Args) : Mat := head (hT a) a.Wy a.bY

/-- Every argument has only real entries. -/
structure Args.Finite (a : Args) : Prop where
  x : FiniteM a.x
  c : FiniteM a.c
  h : FiniteM a.h
  Whf : FiniteM a.Whf
  Whg : FiniteM a.Whg
  Whi : FiniteM a.Whi
  Who : FiniteM a.Who
  Wxf : FiniteM a.Wxf
  Wxg : FiniteM a.Wxg
  Wxi : FiniteM a.Wxi
  Wxo : FiniteM a.Wxo
  bf : FiniteV a.bf
  bg : FiniteV a.bg
  bi : FiniteV a.bi
  bo : FiniteV a.bo
  Wy : FiniteM a.Wy
  bY : FiniteV a.bY
  gf : FiniteV a.gf
  bef : FiniteV a.bef
  gg : FiniteV a.gg
  beg : FiniteV a.beg
  gi : FiniteV a.gi
  bei : FiniteV a.bei
  go : FiniteV a.go
  beo : FiniteV a.beo

end Cert.Spec

end
-- ==== Proof.Ref.Args.lean ====
/-
  The specification's twenty-five arguments from twenty-five arrays, in the order both programs take them:
  x, c, h, the four W_h, the four W_x, the four biases, W_y, b_y, and the four pairs of gain and offset.
  Matrices are read by their two coordinates and vectors by their one.
-/
import proofs.«116394_j17480516895034_2_alg».proof.Proof.SpecAll

noncomputable section

namespace Cert.Ref

open Idealize.ShloMosaic Cert.Spec

/-- A 2048 × 2048 array of extended reals. -/
abbrev A2 : Type := (⟨2, ![2048, 2048]⟩ : Shape).Idx → EReal
/-- A 2048 array of extended reals. -/
abbrev A1 : Type := (⟨1, ![2048]⟩ : Shape).Idx → EReal

/-- The specification's arguments from the arrays. -/
def argsOf (x0 x1 x2 x3 x4 x5 x6 x7 x8 x9 x10 : A2) (x11 x12 x13 x14 : A1) (x15 : A2)
    (x16 x17 x18 x19 x20 x21 x22 x23 x24 : A1) : Args where
  x := at2 x0
  c := at2 x1
  h := at2 x2
  Whf := at2 x3
  Whg := at2 x4
  Whi := at2 x5
  Who := at2 x6
  Wxf := at2 x7
  Wxg := at2 x8
  Wxi := at2 x9
  Wxo := at2 x10
  bf := at1 x11
  bg := at1 x12
  bi := at1 x13
  bo := at1 x14
  Wy := at2 x15
  bY := at1 x16
  gf := at1 x17
  bef := at1 x18
  gg := at1 x19
  beg := at1 x20
  gi := at1 x21
  bei := at1 x22
  go := at1 x23
  beo := at1 x24

/-- Arrays of reals give real arguments. -/
theorem argsOf_finite {x0 x1 x2 x3 x4 x5 x6 x7 x8 x9 x10 : A2} {x11 x12 x13 x14 : A1} {x15 : A2}
    {x16 x17 x18 x19 x20 x21 x22 x23 x24 : A1}
    (h0 : FiniteM (at2 x0))
    (h1 : FiniteM (at2 x1))
    (h2 : FiniteM (at2 x2))
    (h3 : FiniteM (at2 x3))
    (h4 : FiniteM (at2 x4))
    (h5 : FiniteM (at2 x5))
    (h6 : FiniteM (at2 x6))
    (h7 : FiniteM (at2 x7))
    (h8 : FiniteM (at2 x8))
    (h9 : FiniteM (at2 x9))
    (h10 : FiniteM (at2 x10))
    (h11 : FiniteV (at1 x11))
    (h12 : FiniteV (at1 x12))
    (h13 : FiniteV (at1 x13))
    (h14 : FiniteV (at1 x14))
    (h15 : FiniteM (at2 x15))
    (h16 : FiniteV (at1 x16))
    (h17 : FiniteV (at1 x17))
    (h18 : FiniteV (at1 x18))
    (h19 : FiniteV (at1 x19))
    (h20 : FiniteV (at1 x20))
    (h21 : FiniteV (at1 x21))
    (h22 : FiniteV (at1 x22))
    (h23 : FiniteV (at1 x23))
    (h24 : FiniteV (at1 x24)) :
    (argsOf x0 x1 x2 x3 x4 x5 x6 x7 x8 x9 x10 x11 x12 x13 x14 x15 x16 x17 x18 x19 x20 x21 x22 x23 x24).Finite :=
  ⟨h0, h1, h2, h3, h4, h5, h6, h7, h8, h9, h10, h11, h12, h13, h14, h15, h16, h17, h18, h19, h20, h21, h22, h23, h24⟩

end Cert.Ref

end
-- ==== Proof.Ref.KerArgs.lean ====
/-
  The kernel's program finds the same twenty-five arguments in memory, and under the precondition they are real.

  The precondition is one conjunction, over the twenty-five argument arrays, of "every entry has absolute value
  below the word 0x7F800000", each conjunct an `and` over all entries started from 1.  The word denotes +∞; an
  extended real x with max x (−x) < +∞ is neither −∞ nor +∞, so it is a real.
-/
import proofs.«116394_j17480516895034_2_alg».proof.Defs
import proofs.«116394_j17480516895034_2_alg».proof.Proof.Ref.Args
import Idealize.ShloMosaic.Lib.ReduceAll
import Idealize.ShloMosaic.Lib.ValueIdx

noncomputable section

namespace Cert.Ref

open Idealize.ShloMosaic Idealize.ShloMosaic.ValueIdx Idealize.ShloMosaic.TcCoe Idealize.SL.Sem Cert.Spec Cert.Pre_finite_inputs Cert.Pre_finite_inputs.Facts

/-- The result of a sum over all axes has one index. -/
instance subsingleton_scalar_idx : Subsingleton Cert.Pre_finite_inputs.S_.Idx := ⟨fun a b => funext fun d => d.elim0⟩

/-- The word 0x7F800000 denotes +∞. -/
theorem ofBits_inf : Ideal.ofBits .f32 0x7F800000#32 = ⊤ := by
  simp [Ideal.ofBits, Ideal.ieee]

/-- An extended real whose absolute value is below +∞ is a real. -/
theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => exact absurd h (by simp [Ideal.cmp])
  | coe r => exact ⟨r, rfl⟩
  | top => exact absurd h (by simp [Ideal.cmp])

/-- Both conjuncts of an `and` that is 1 are 1. -/
theorem andi_split {s : Shape} (a b : IVec s 1) (i : s.Idx) (h : andi a b i = 1#1) : a i = 1#1 ∧ b i = 1#1 :=
  IntOp.andi_eq_one.1 h

variable [Cert.Pre_finite_inputs.Facts]

/-- "Every entry of the matrix has absolute value below +∞" makes every entry a real. -/
theorem finite_of_all2 (X : FVec Ideal Cert.Pre_finite_inputs.S2048x2048 .f32) (init : IVec Cert.Pre_finite_inputs.S_ 1)
    (e : Host.reduce IntOp.andi (cmpf .olt (Host.absf X) (broadcastInDim Cert.Pre_finite_inputs.S2048x2048 ![] bcast_S_S2048x2048
        (constant Cert.Pre_finite_inputs.S_ .f32 0x7F800000#32))) init reducesTo_S2048x2048_S_d0_1 h_S_ ix0 = 1#1) :
    FiniteM (at2 X) := fun r n =>
  real_of_abs_lt (X (ix2 r n))
    (Host.reduce_andi_all _ init reducesTo_S2048x2048_S_d0_1 h_S_ ix0 e (ix2 r n))

/-- "Every entry of the vector has absolute value below +∞" makes every entry a real. -/
theorem finite_of_all1 (X : FVec Ideal Cert.Pre_finite_inputs.S2048 .f32) (init : IVec Cert.Pre_finite_inputs.S_ 1)
    (e : Host.reduce IntOp.andi (cmpf .olt (Host.absf X) (broadcastInDim Cert.Pre_finite_inputs.S2048 ![] bcast_S_S2048
        (constant Cert.Pre_finite_inputs.S_ .f32 0x7F800000#32))) init reducesTo_S2048_S_d0 h_S_ ix0 = 1#1) :
    FiniteV (at1 X) := fun n =>
  real_of_abs_lt (X (ix1 n))
    (Host.reduce_andi_all _ init reducesTo_S2048_S_d0 h_S_ ix0 e (ix1 n))

/-- The specification's arguments as the kernel's program finds them in core c's memory. -/
def kerArgs (m : (ℓ : Loc Cert.KernelIdeal.nD Cert.KernelIdeal.τ Cert.KernelIdeal.sig) → Buf (Elt Ideal) ℓ)
    (c : Dev Cert.KernelIdeal.nD) : Cert.Spec.Args :=
  argsOf (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (m ((c.tc : Thread Cert.KernelIdeal.nD Cert.KernelIdeal.τ).loc Cert.KernelIdeal.main_arg16))
    (m ((c.tc : Thread Cert.KernelIdeal.nD Cert.KernelIdeal.τ).loc Cert.KernelIdeal.main_arg17))
    (m ((c.tc : Thread Cert.KernelIdeal.nD Cert.KernelIdeal.τ).loc Cert.KernelIdeal.main_arg18))
    (m ((c.tc : Thread Cert.KernelIdeal.nD Cert.KernelIdeal.τ).loc Cert.KernelIdeal.main_arg19))
    (m ((c.tc : Thread Cert.KernelIdeal.nD Cert.KernelIdeal.τ).loc Cert.KernelIdeal.main_arg20))
    (m ((c.tc : Thread Cert.KernelIdeal.nD Cert.KernelIdeal.τ).loc Cert.KernelIdeal.main_arg21))
    (m ((c.tc : Thread Cert.KernelIdeal.nD Cert.KernelIdeal.τ).loc Cert.KernelIdeal.main_arg22))
    (m ((c.tc : Thread Cert.KernelIdeal.nD Cert.KernelIdeal.τ).loc Cert.KernelIdeal.main_arg23))
    (m ((c.tc : Thread Cert.KernelIdeal.nD Cert.KernelIdeal.τ).loc Cert.KernelIdeal.main_arg24))

/-- Under the precondition (every argument array has only entries of absolute value below +∞) the arguments are real. -/
theorem kerArgs_finite [Cert.KernelIdeal.Facts]
    (m : (ℓ : Loc Cert.KernelIdeal.nD Cert.KernelIdeal.τ Cert.KernelIdeal.sig) → Buf (Elt Ideal) ℓ)
    (h : Cert.Pre_KernelIdeal m) (c : Dev Cert.KernelIdeal.nD) : (kerArgs m c).Finite := by
  have h0 := congrFun (h c) ix0
  dsimp only [Cert.Pre_finite_inputs.fn, fn_part1, fn_part2, fn_part3, fn_part4, fn_part5, fn_part6, fn_part7] at h0
  obtain ⟨h0, e24⟩ := andi_split _ _ _ h0
  obtain ⟨h0, e23⟩ := andi_split _ _ _ h0
  obtain ⟨h0, e22⟩ := andi_split _ _ _ h0
  obtain ⟨h0, e21⟩ := andi_split _ _ _ h0
  obtain ⟨h0, e20⟩ := andi_split _ _ _ h0
  obtain ⟨h0, e19⟩ := andi_split _ _ _ h0
  obtain ⟨h0, e18⟩ := andi_split _ _ _ h0
  obtain ⟨h0, e17⟩ := andi_split _ _ _ h0
  obtain ⟨h0, e16⟩ := andi_split _ _ _ h0
  obtain ⟨h0, e15⟩ := andi_split _ _ _ h0
  obtain ⟨h0, e14⟩ := andi_split _ _ _ h0
  obtain ⟨h0, e13⟩ := andi_split _ _ _ h0
  obtain ⟨h0, e12⟩ := andi_split _ _ _ h0
  obtain ⟨h0, e11⟩ := andi_split _ _ _ h0
  obtain ⟨h0, e10⟩ := andi_split _ _ _ h0
  obtain ⟨h0, e9⟩ := andi_split _ _ _ h0
  obtain ⟨h0, e8⟩ := andi_split _ _ _ h0
  obtain ⟨h0, e7⟩ := andi_split _ _ _ h0
  obtain ⟨h0, e6⟩ := andi_split _ _ _ h0
  obtain ⟨h0, e5⟩ := andi_split _ _ _ h0
  obtain ⟨h0, e4⟩ := andi_split _ _ _ h0
  obtain ⟨h0, e3⟩ := andi_split _ _ _ h0
  obtain ⟨h0, e2⟩ := andi_split _ _ _ h0
  obtain ⟨e0, e1⟩ := andi_split _ _ _ h0
  exact argsOf_finite (finite_of_all2 _ _ e0) (finite_of_all2 _ _ e1) (finite_of_all2 _ _ e2) (finite_of_all2 _ _ e3) (finite_of_all2 _ _ e4) (finite_of_all2 _ _ e5) (finite_of_all2 _ _ e6) (finite_of_all2 _ _ e7) (finite_of_all2 _ _ e8) (finite_of_all2 _ _ e9) (finite_of_all2 _ _ e10) (finite_of_all1 _ _ e11) (finite_of_all1 _ _ e12) (finite_of_all1 _ _ e13) (finite_of_all1 _ _ e14) (finite_of_all2 _ _ e15) (finite_of_all1 _ _ e16) (finite_of_all1 _ _ e17) (finite_of_all1 _ _ e18) (finite_of_all1 _ _ e19) (finite_of_all1 _ _ e20) (finite_of_all1 _ _ e21) (finite_of_all1 _ _ e22) (finite_of_all1 _ _ e23) (finite_of_all1 _ _ e24)

end Cert.Ref

end
-- ==== Proof.LibFinite.lean ====
/-
  Finite extended reals.

  An extended real is finite when it is a real number.  Sums, differences and products of finite values are finite,
  so is a finite sum of finite values, a quotient by a nonzero real, the maximum of two finite values, and the
  reciprocal square root of a positive real.  These are the closure facts one needs to know that a computation that
  starts from real inputs never leaves the reals.
-/
import Idealize.ShloMosaic.PureOps.Ideal

noncomputable section

open scoped BigOperators

namespace Finite

open Idealize.ShloMosaic

/-- An extended real that is a real number. -/
def IsFin (x : EReal) : Prop := ∃ r : ℝ, x = (r : EReal)

theorem IsFin.coe (r : ℝ) : IsFin (r : EReal) := ⟨r, rfl⟩

theorem IsFin.zero : IsFin (0 : EReal) := ⟨0, rfl⟩

theorem IsFin.one : IsFin (1 : EReal) := ⟨1, rfl⟩

theorem IsFin.add {x y : EReal} (hx : IsFin x) (hy : IsFin y) : IsFin (x + y) := by
  obtain ⟨a, rfl⟩ := hx; obtain ⟨b, rfl⟩ := hy; exact ⟨a + b, (EReal.coe_add a b).symm⟩

theorem IsFin.sub {x y : EReal} (hx : IsFin x) (hy : IsFin y) : IsFin (x - y) := by
  obtain ⟨a, rfl⟩ := hx; obtain ⟨b, rfl⟩ := hy; exact ⟨a - b, (EReal.coe_sub a b).symm⟩

theorem IsFin.mul {x y : EReal} (hx : IsFin x) (hy : IsFin y) : IsFin (x * y) := by
  obtain ⟨a, rfl⟩ := hx; obtain ⟨b, rfl⟩ := hy; exact ⟨a * b, (EReal.coe_mul a b).symm⟩

theorem IsFin.max {x y : EReal} (hx : IsFin x) (hy : IsFin y) : IsFin (max x y) := by
  rcases max_cases x y with h | h
  · rw [h.1]; exact hx
  · rw [h.1]; exact hy

/-- A finite sum of real numbers, taken on the extended reals, is the real sum. -/
theorem sum_coe {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of finite values is finite. -/
theorem IsFin.sum {ι : Type} (s : Finset ι) (f : ι → EReal) (h : ∀ i ∈ s, IsFin (f i)) : IsFin (∑ i ∈ s, f i) := by
  classical
  induction s using Finset.induction_on with
  | empty => simpa using IsFin.zero
  | insert a s ha ih =>
    rw [Finset.sum_insert ha]
    exact (h a (Finset.mem_insert_self a s)).add (ih fun i hi => h i (Finset.mem_insert_of_mem hi))

/-- The quotient of a finite value by a nonzero real is finite. -/
theorem IsFin.div_coe {x : EReal} (hx : IsFin x) {y : ℝ} (hy : y ≠ 0) : IsFin (Ideal.div x (y : EReal)) := by
  rw [Ideal.div_coe hy]; exact hx.mul (IsFin.coe _)

/-- The reciprocal square root of a positive real is the real reciprocal of its square root. -/
theorem rsqrt_coe_pos {r : ℝ} (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

/-- The reciprocal square root of a positive real is finite. -/
theorem IsFin.rsqrt_pos {r : ℝ} (hr : 0 < r) : IsFin (Ideal.rsqrt (r : EReal)) := ⟨_, rsqrt_coe_pos hr⟩

end Finite

end
-- ==== Proof.Ref.Consts.lean ====
/-
  The three f32 words the layer norm and the logistic function carry, as the extended reals they denote:
  1.0 is the real 1, the divisor of the means is the real 2048, and ε is a positive real.
-/
import proofs.«116394_j17480516895034_2_alg».proof.Proof.Spec

noncomputable section

namespace Cert.Ref

open Idealize.ShloMosaic Cert.Spec

/-- The word of 1.0 denotes 1. -/
theorem ofBits_one : Ideal.ofBits .f32 0x3F800000#32 = 1 := by
  simp [Ideal.ofBits, Ideal.ieee, -EReal.coe_mul]; norm_num

/-- The divisor of the two means denotes the real 2048. -/
theorem wN_eq : wN = ((2048 : ℝ) : EReal) := by
  unfold wN
  simp [Ideal.ofBits, Ideal.ieee, -EReal.coe_mul]; norm_num

/-- ε denotes a positive real. -/
theorem wEps_pos : ∃ e : ℝ, 0 < e ∧ wEps = (e : EReal) := by
  unfold wEps
  simp [Ideal.ofBits, Ideal.ieee, -EReal.coe_mul]

end Cert.Ref

end
-- ==== Proof.Ref.Finite.lean ====
/-
  From real arguments the cell never leaves the reals.

  A matrix product of real matrices is real (a finite sum of products).  A row's mean is a real sum divided by the
  real 2048; its variance is a sum of squares of reals divided by 2048, so a real ≥ 0; ε is a positive real, so the
  reciprocal square root is taken of a positive real and is real.  The logistic function and tanh of a real are
  real.  Hence the four gates, the new cell state, the new hidden state and the output are real entry by entry.
-/
import proofs.«116394_j17480516895034_2_alg».proof.Proof.SpecAll
import proofs.«116394_j17480516895034_2_alg».proof.Proof.LibFinite
import proofs.«116394_j17480516895034_2_alg».proof.Proof.Ref.Consts

noncomputable section

namespace Cert.Ref

open Idealize.ShloMosaic Cert.Spec Finite

/-- A product of real matrices is real. -/
theorem mm_finite {A B : Mat} (hA : FiniteM A) (hB : FiniteM B) : FiniteM (mm A B) := fun r n =>
  IsFin.sum Finset.univ (fun k => A r k * B k n) fun k _ => IsFin.mul (hA r k) (hB k n)

/-- A gate before normalisation is real. -/
theorem pre_finite {H Wh X Wx : Mat} {b : Vec} (hH : FiniteM H) (hWh : FiniteM Wh) (hX : FiniteM X) (hWx : FiniteM Wx)
    (hb : FiniteV b) : FiniteM (pre H Wh X Wx b) := fun r n =>
  IsFin.add (IsFin.add (mm_finite hH hWh r n) (mm_finite hX hWx r n)) (hb n)

/-- A real row's mean is real: a real sum over the real 2048. -/
theorem rowMean_finite {P : Mat} (hP : FiniteM P) (r : Fin 2048) : IsFin (rowMean P r) := by
  unfold rowMean
  rw [wN_eq]
  exact IsFin.div_coe (IsFin.sum Finset.univ (fun n => P r n) fun n _ => hP r n) (by norm_num)

/-- A real row's variance is a real ≥ 0: a sum of squares over 2048. -/
theorem rowVar_nonneg {P : Mat} (hP : FiniteM P) (r : Fin 2048) : ∃ v : ℝ, 0 ≤ v ∧ rowVar P r = (v : EReal) := by
  obtain ⟨μ, hμ⟩ := rowMean_finite hP r
  choose p hp using hP r
  refine ⟨(∑ n : Fin 2048, (p n - μ) * (p n - μ)) * (1 / 2048), ?_, ?_⟩
  · exact mul_nonneg (Finset.sum_nonneg fun n _ => mul_self_nonneg _) (by norm_num)
  · unfold rowVar
    rw [wN_eq, Ideal.div_coe (by norm_num : (2048 : ℝ) ≠ 0), hμ]
    simp only [hp, ← EReal.coe_sub, ← EReal.coe_mul, sum_coe]

/-- The reciprocal square root in the layer norm is taken of a positive real, so it is real. -/
theorem rs_finite {P : Mat} (hP : FiniteM P) (r : Fin 2048) : IsFin (Ideal.rsqrt (rowVar P r + wEps)) := by
  obtain ⟨v, hv, e1⟩ := rowVar_nonneg hP r
  obtain ⟨e, he, e2⟩ := wEps_pos
  rw [e1, e2, ← EReal.coe_add]
  exact IsFin.rsqrt_pos (add_pos_of_nonneg_of_pos hv he)

/-- The layer norm of a real matrix with real gain and offset is real. -/
theorem layerNorm_finite {P : Mat} {g be : Vec} (hP : FiniteM P) (hg : FiniteV g) (hbe : FiniteV be) :
    FiniteM (layerNorm P g be) := fun r n =>
  IsFin.add (IsFin.mul (IsFin.mul (IsFin.sub (hP r n) (rowMean_finite hP r)) (rs_finite hP r)) (hg n)) (hbe n)

/-- The logistic function of a real is real. -/
theorem logistic_finite {x : EReal} (hx : IsFin x) : IsFin (Ideal.logistic x) := by
  obtain ⟨a, rfl⟩ := hx
  exact ⟨_, Ideal.logistic_coe a⟩

/-- tanh of a real is real. -/
theorem tanh_finite {x : EReal} (hx : IsFin x) : IsFin (Ideal.tanh x) := by
  obtain ⟨a, rfl⟩ := hx
  exact ⟨_, Ideal.tanh_coe a⟩

/-- A logistic gate of real arguments is real. -/
theorem gateLogistic_finite {H Wh X Wx : Mat} {b g be : Vec} (hH : FiniteM H) (hWh : FiniteM Wh) (hX : FiniteM X)
    (hWx : FiniteM Wx) (hb : FiniteV b) (hg : FiniteV g) (hbe : FiniteV be) :
    FiniteM (gateLogistic H Wh X Wx b g be) := fun r n =>
  logistic_finite (layerNorm_finite (pre_finite hH hWh hX hWx hb) hg hbe r n)

/-- The candidate gate of real arguments is real. -/
theorem gateTanh_finite {H Wh X Wx : Mat} {b g be : Vec} (hH : FiniteM H) (hWh : FiniteM Wh) (hX : FiniteM X)
    (hWx : FiniteM Wx) (hb : FiniteV b) (hg : FiniteV g) (hbe : FiniteV be) :
    FiniteM (gateTanh H Wh X Wx b g be) := fun r n =>
  tanh_finite (layerNorm_finite (pre_finite hH hWh hX hWx hb) hg hbe r n)

variable {a : Args} (ha : a.Finite)
include ha

/-- The forget gate is real. -/
theorem fT_finite : FiniteM (fT a) := gateLogistic_finite ha.h ha.Whf ha.x ha.Wxf ha.bf ha.gf ha.bef
/-- The candidate gate is real. -/
theorem gT_finite : FiniteM (gT a) := gateTanh_finite ha.h ha.Whg ha.x ha.Wxg ha.bg ha.gg ha.beg
/-- The input gate is real. -/
theorem iT_finite : FiniteM (iT a) := gateLogistic_finite ha.h ha.Whi ha.x ha.Wxi ha.bi ha.gi ha.bei
/-- The output gate is real. -/
theorem oT_finite : FiniteM (oT a) := gateLogistic_finite ha.h ha.Who ha.x ha.Wxo ha.bo ha.go ha.beo

/-- The new cell state is real. -/
theorem cT_finite : FiniteM (cT a) := fun r n =>
  IsFin.add (mm_finite (fT_finite ha) ha.c r n) (mm_finite (gT_finite ha) (iT_finite ha) r n)

/-- The new hidden state is real. -/
theorem hT_finite : FiniteM (hT a) :=
  mm_finite (fun r k => tanh_finite (cT_finite ha r k)) (oT_finite ha)

/-- The output is real. -/
theorem yT_finite : FiniteM (yT a) := fun r n =>
  IsFin.add (mm_finite (hT_finite ha) ha.Wy r n) (ha.bY n)

end Cert.Ref

end
-- ==== Proof.KI.Whole.Values.lean ====
/-
  The idealized kernel's three results are the specification's functions of its arguments.

  Each gate call finds h, its two weight matrices and x as launched and its bias, gain and offset rows as the
  argument vectors, so it leaves the specification's gate.  The cell-state call finds the three gates as their calls
  left them and c as launched; the hidden-state call finds the new cell state and the output gate; the output head
  finds the new hidden state, W_y as launched and the row b_y.  The three data-path calls need their operands real,
  which they are when the arguments are.  What each call computes from the arrays it finds is taken as a hypothesis
  here, one per call.
-/
import proofs.«116394_j17480516895034_2_alg».proof.Proof.KI.Whole.Reads
import proofs.«116394_j17480516895034_2_alg».proof.Proof.SpecAll
import proofs.«116394_j17480516895034_2_alg».proof.Proof.Ref.KerArgs
import proofs.«116394_j17480516895034_2_alg».proof.Proof.Ref.Finite

set_option maxRecDepth 16384

noncomputable section

namespace Cert.KernelIdeal.Whole

open Cert.KernelIdeal Cert.KernelIdeal.Gen
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg)

/-! ## The four gates -/

/-- The forget gate, as its call leaves it. -/
theorem val_f (c : Dev nD)
    (h0 : ∀ (V : (c : Dev nD) → (b : Ref sig .tc) → Buf (Elt Ideal) ((c : Thread nD τ).loc b)) (c : Dev nD),
      (R0.dat V c).arrAt 7 cfg0.N = Cert.Spec.of2 (Cert.Spec.gateLogistic (Cert.Spec.at2 (V c main_arg2)) (Cert.Spec.at2 (V c main_arg3))
        (Cert.Spec.at2 (V c main_arg0)) (Cert.Spec.at2 (V c main_arg7)) (Cert.Spec.atRow (V c main_v0)) (Cert.Spec.atRow (V c main_v1))
        (Cert.Spec.atRow (V c main_v2)))) :
    B2 m ρ c (Proc.devRef .tc main_v3) = Cert.Spec.of2 (Cert.Spec.fT (Cert.Ref.kerArgs m c)) := by
  rw [out_v3, h0 (T1 m ρ) c, T1_arg m ρ c main_arg2 (by decide), T1_arg m ρ c main_arg3 (by decide),
    T1_arg m ρ c main_arg0 (by decide), T1_arg m ρ c main_arg7 (by decide), T1_v0, T1_v1, T1_v2]
  rfl

/-- The candidate gate, as its call leaves it. -/
theorem val_g (c : Dev nD)
    (h1 : ∀ (V : (c : Dev nD) → (b : Ref sig .tc) → Buf (Elt Ideal) ((c : Thread nD τ).loc b)) (c : Dev nD),
      (R1.dat V c).arrAt 7 cfg1.N = Cert.Spec.of2 (Cert.Spec.gateTanh (Cert.Spec.at2 (V c main_arg2)) (Cert.Spec.at2 (V c main_arg4))
        (Cert.Spec.at2 (V c main_arg0)) (Cert.Spec.at2 (V c main_arg8)) (Cert.Spec.atRow (V c main_v4)) (Cert.Spec.atRow (V c main_v5))
        (Cert.Spec.atRow (V c main_v6)))) :
    B4 m ρ c (Proc.devRef .tc main_v7) = Cert.Spec.of2 (Cert.Spec.gT (Cert.Ref.kerArgs m c)) := by
  rw [out_v7, h1 (T3 m ρ) c, T3_arg m ρ c main_arg2 (by decide), T3_arg m ρ c main_arg4 (by decide),
    T3_arg m ρ c main_arg0 (by decide), T3_arg m ρ c main_arg8 (by decide), T3_v4, T3_v5, T3_v6]
  rfl

/-- The input gate, as its call leaves it. -/
theorem val_i (c : Dev nD)
    (h2 : ∀ (V : (c : Dev nD) → (b : Ref sig .tc) → Buf (Elt Ideal) ((c : Thread nD τ).loc b)) (c : Dev nD),
      (R2.dat V c).arrAt 7 cfg2.N = Cert.Spec.of2 (Cert.Spec.gateLogistic (Cert.Spec.at2 (V c main_arg2)) (Cert.Spec.at2 (V c main_arg5))
        (Cert.Spec.at2 (V c main_arg0)) (Cert.Spec.at2 (V c main_arg9)) (Cert.Spec.atRow (V c main_v8)) (Cert.Spec.atRow (V c main_v9))
        (Cert.Spec.atRow (V c main_v10)))) :
    B6 m ρ c (Proc.devRef .tc main_v11) = Cert.Spec.of2 (Cert.Spec.iT (Cert.Ref.kerArgs m c)) := by
  rw [out_v11, h2 (T5 m ρ) c, T5_arg m ρ c main_arg2 (by decide), T5_arg m ρ c main_arg5 (by decide),
    T5_arg m ρ c main_arg0 (by decide), T5_arg m ρ c main_arg9 (by decide), T5_v8, T5_v9, T5_v10]
  rfl

/-- The output gate, as its call leaves it. -/
theorem val_o (c : Dev nD)
    (h3 : ∀ (V : (c : Dev nD) → (b : Ref sig .tc) → Buf (Elt Ideal) ((c : Thread nD τ).loc b)) (c : Dev nD),
      (R3.dat V c).arrAt 7 cfg3.N = Cert.Spec.of2 (Cert.Spec.gateLogistic (Cert.Spec.at2 (V c main_arg2)) (Cert.Spec.at2 (V c main_arg6))
        (Cert.Spec.at2 (V c main_arg0)) (Cert.Spec.at2 (V c main_arg10)) (Cert.Spec.atRow (V c main_v12)) (Cert.Spec.atRow (V c main_v13))
        (Cert.Spec.atRow (V c main_v14)))) :
    B8 m ρ c (Proc.devRef .tc main_v15) = Cert.Spec.of2 (Cert.Spec.oT (Cert.Ref.kerArgs m c)) := by
  rw [out_v15, h3 (T7 m ρ) c, T7_arg m ρ c main_arg2 (by decide), T7_arg m ρ c main_arg6 (by decide),
    T7_arg m ρ c main_arg0 (by decide), T7_arg m ρ c main_arg10 (by decide), T7_v12, T7_v13, T7_v14]
  rfl

/-! ## The new cell state, the new hidden state and the output -/

/-- The new cell state, as its call leaves it. -/
theorem val_c (c : Dev nD) (ha : (Cert.Ref.kerArgs m c).Finite)
    (h0 : ∀ (V : (c : Dev nD) → (b : Ref sig .tc) → Buf (Elt Ideal) ((c : Thread nD τ).loc b)) (c : Dev nD),
      (R0.dat V c).arrAt 7 cfg0.N = Cert.Spec.of2 (Cert.Spec.gateLogistic (Cert.Spec.at2 (V c main_arg2)) (Cert.Spec.at2 (V c main_arg3))
        (Cert.Spec.at2 (V c main_arg0)) (Cert.Spec.at2 (V c main_arg7)) (Cert.Spec.atRow (V c main_v0)) (Cert.Spec.atRow (V c main_v1))
        (Cert.Spec.atRow (V c main_v2))))
    (h1 : ∀ (V : (c : Dev nD) → (b : Ref sig .tc) → Buf (Elt Ideal) ((c : Thread nD τ).loc b)) (c : Dev nD),
      (R1.dat V c).arrAt 7 cfg1.N = Cert.Spec.of2 (Cert.Spec.gateTanh (Cert.Spec.at2 (V c main_arg2)) (Cert.Spec.at2 (V c main_arg4))
        (Cert.Spec.at2 (V c main_arg0)) (Cert.Spec.at2 (V c main_arg8)) (Cert.Spec.atRow (V c main_v4)) (Cert.Spec.atRow (V c main_v5))
        (Cert.Spec.atRow (V c main_v6))))
    (h2 : ∀ (V : (c : Dev nD) → (b : Ref sig .tc) → Buf (Elt Ideal) ((c : Thread nD τ).loc b)) (c : Dev nD),
      (R2.dat V c).arrAt 7 cfg2.N = Cert.Spec.of2 (Cert.Spec.gateLogistic (Cert.Spec.at2 (V c main_arg2)) (Cert.Spec.at2 (V c main_arg5))
        (Cert.Spec.at2 (V c main_arg0)) (Cert.Spec.at2 (V c main_arg9)) (Cert.Spec.atRow (V c main_v8)) (Cert.Spec.atRow (V c main_v9))
        (Cert.Spec.atRow (V c main_v10))))
    (h4 : ∀ (V : (c : Dev nD) → (b : Ref sig .tc) → Buf (Elt Ideal) ((c : Thread nD τ).loc b)) (c : Dev nD),
      Cert.Spec.FiniteM (Cert.Spec.at2 (V c main_v3)) → Cert.Spec.FiniteM (Cert.Spec.at2 (V c main_arg1)) →
      Cert.Spec.FiniteM (Cert.Spec.at2 (V c main_v7)) → Cert.Spec.FiniteM (Cert.Spec.at2 (V c main_v11)) →
      (R4.dat V c).arrAt 4 cfg4.N = Cert.Spec.of2 (Cert.Spec.cell (Cert.Spec.at2 (V c main_v3)) (Cert.Spec.at2 (V c main_arg1))
        (Cert.Spec.at2 (V c main_v7)) (Cert.Spec.at2 (V c main_v11)))) :
    B9 m ρ c (Proc.devRef .tc main_v16) = Cert.Spec.of2 (Cert.Spec.cT (Cert.Ref.kerArgs m c)) := by
  have ef : T8 m ρ c main_v3 = Cert.Spec.of2 (Cert.Spec.fT (Cert.Ref.kerArgs m c)) := (T8_v3 m ρ c).trans (val_f m ρ c h0)
  have eg : T8 m ρ c main_v7 = Cert.Spec.of2 (Cert.Spec.gT (Cert.Ref.kerArgs m c)) := (T8_v7 m ρ c).trans (val_g m ρ c h1)
  have ei : T8 m ρ c main_v11 = Cert.Spec.of2 (Cert.Spec.iT (Cert.Ref.kerArgs m c)) := (T8_v11 m ρ c).trans (val_i m ρ c h2)
  have ec : T8 m ρ c main_arg1 = m ((c.tc : Thread nD τ).loc main_arg1) := T8_arg m ρ c main_arg1 (by decide)
  have e := h4 (T8 m ρ) c (by rw [ef]; exact Cert.Ref.fT_finite ha) (by rw [ec]; exact ha.c)
    (by rw [eg]; exact Cert.Ref.gT_finite ha) (by rw [ei]; exact Cert.Ref.iT_finite ha)
  rw [out_v16, e, ef, ec, eg, ei]
  simp only [Cert.Spec.at2_of2]
  rfl

/-- The new hidden state, as its call leaves it. -/
theorem val_h (c : Dev nD) (ha : (Cert.Ref.kerArgs m c).Finite)
    (h0 : ∀ (V : (c : Dev nD) → (b : Ref sig .tc) → Buf (Elt Ideal) ((c : Thread nD τ).loc b)) (c : Dev nD),
      (R0.dat V c).arrAt 7 cfg0.N = Cert.Spec.of2 (Cert.Spec.gateLogistic (Cert.Spec.at2 (V c main_arg2)) (Cert.Spec.at2 (V c main_arg3))
        (Cert.Spec.at2 (V c main_arg0)) (Cert.Spec.at2 (V c main_arg7)) (Cert.Spec.atRow (V c main_v0)) (Cert.Spec.atRow (V c main_v1))
        (Cert.Spec.atRow (V c main_v2))))
    (h1 : ∀ (V : (c : Dev nD) → (b : Ref sig .tc) → Buf (Elt Ideal) ((c : Thread nD τ).loc b)) (c : Dev nD),
      (R1.dat V c).arrAt 7 cfg1.N = Cert.Spec.of2 (Cert.Spec.gateTanh (Cert.Spec.at2 (V c main_arg2)) (Cert.Spec.at2 (V c main_arg4))
        (Cert.Spec.at2 (V c main_arg0)) (Cert.Spec.at2 (V c main_arg8)) (Cert.Spec.atRow (V c main_v4)) (Cert.Spec.atRow (V c main_v5))
        (Cert.Spec.atRow (V c main_v6))))
    (h2 : ∀ (V : (c : Dev nD) → (b : Ref sig .tc) → Buf (Elt Ideal) ((c : Thread nD τ).loc b)) (c : Dev nD),
      (R2.dat V c).arrAt 7 cfg2.N = Cert.Spec.of2 (Cert.Spec.gateLogistic (Cert.Spec.at2 (V c main_arg2)) (Cert.Spec.at2 (V c main_arg5))
        (Cert.Spec.at2 (V c main_arg0)) (Cert.Spec.at2 (V c main_arg9)) (Cert.Spec.atRow (V c main_v8)) (Cert.Spec.atRow (V c main_v9))
        (Cert.Spec.atRow (V c main_v10))))
    (h3 : ∀ (V : (c : Dev nD) → (b : Ref sig .tc) → Buf (Elt Ideal) ((c : Thread nD τ).loc b)) (c : Dev nD),
      (R3.dat V c).arrAt 7 cfg3.N = Cert.Spec.of2 (Cert.Spec.gateLogistic (Cert.Spec.at2 (V c main_arg2)) (Cert.Spec.at2 (V c main_arg6))
        (Cert.Spec.at2 (V c main_arg0)) (Cert.Spec.at2 (V c main_arg10)) (Cert.Spec.atRow (V c main_v12)) (Cert.Spec.atRow (V c main_v13))
        (Cert.Spec.atRow (V c main_v14))))
    (h4 : ∀ (V : (c : Dev nD) → (b : Ref sig .tc) → Buf (Elt Ideal) ((c : Thread nD τ).loc b)) (c : Dev nD),
      Cert.Spec.FiniteM (Cert.Spec.at2 (V c main_v3)) → Cert.Spec.FiniteM (Cert.Spec.at2 (V c main_arg1)) →
      Cert.Spec.FiniteM (Cert.Spec.at2 (V c main_v7)) → Cert.Spec.FiniteM (Cert.Spec.at2 (V c main_v11)) →
      (R4.dat V c).arrAt 4 cfg4.N = Cert.Spec.of2 (Cert.Spec.cell (Cert.Spec.at2 (V c main_v3)) (Cert.Spec.at2 (V c main_arg1))
        (Cert.Spec.at2 (V c main_v7)) (Cert.Spec.at2 (V c main_v11))))
    (h5 : ∀ (V : (c : Dev nD) → (b : Ref sig .tc) → Buf (Elt Ideal) ((c : Thread nD τ).loc b)) (c : Dev nD),
      Cert.Spec.FiniteM (Cert.Spec.at2 (V c main_v16)) → Cert.Spec.FiniteM (Cert.Spec.at2 (V c main_v15)) →
      (R5.dat V c).arrAt 2 cfg5.N = Cert.Spec.of2 (Cert.Spec.hidden (Cert.Spec.at2 (V c main_v16)) (Cert.Spec.at2 (V c main_v15)))) :
    B10 m ρ c (Proc.devRef .tc main_v17) = Cert.Spec.of2 (Cert.Spec.hT (Cert.Ref.kerArgs m c)) := by
  have ec : T9 m ρ c main_v16 = Cert.Spec.of2 (Cert.Spec.cT (Cert.Ref.kerArgs m c)) := val_c m ρ c ha h0 h1 h2 h4
  have eo : T9 m ρ c main_v15 = Cert.Spec.of2 (Cert.Spec.oT (Cert.Ref.kerArgs m c)) := (T9_v15 m ρ c).trans (val_o m ρ c h3)
  have e := h5 (T9 m ρ) c (by rw [ec]; exact Cert.Ref.cT_finite ha) (by rw [eo]; exact Cert.Ref.oT_finite ha)
  rw [out_v17, e, ec, eo]
  simp only [Cert.Spec.at2_of2]
  rfl

/-- The output, as its call leaves it. -/
theorem val_y (c : Dev nD) (ha : (Cert.Ref.kerArgs m c).Finite)
    (h0 : ∀ (V : (c : Dev nD) → (b : Ref sig .tc) → Buf (Elt Ideal) ((c : Thread nD τ).loc b)) (c : Dev nD),
      (R0.dat V c).arrAt 7 cfg0.N = Cert.Spec.of2 (Cert.Spec.gateLogistic (Cert.Spec.at2 (V c main_arg2)) (Cert.Spec.at2 (V c main_arg3))
        (Cert.Spec.at2 (V c main_arg0)) (Cert.Spec.at2 (V c main_arg7)) (Cert.Spec.atRow (V c main_v0)) (Cert.Spec.atRow (V c main_v1))
        (Cert.Spec.atRow (V c main_v2))))
    (h1 : ∀ (V : (c : Dev nD) → (b : Ref sig .tc) → Buf (Elt Ideal) ((c : Thread nD τ).loc b)) (c : Dev nD),
      (R1.dat V c).arrAt 7 cfg1.N = Cert.Spec.of2 (Cert.Spec.gateTanh (Cert.Spec.at2 (V c main_arg2)) (Cert.Spec.at2 (V c main_arg4))
        (Cert.Spec.at2 (V c main_arg0)) (Cert.Spec.at2 (V c main_arg8)) (Cert.Spec.atRow (V c main_v4)) (Cert.Spec.atRow (V c main_v5))
        (Cert.Spec.atRow (V c main_v6))))
    (h2 : ∀ (V : (c : Dev nD) → (b : Ref sig .tc) → Buf (Elt Ideal) ((c : Thread nD τ).loc b)) (c : Dev nD),
      (R2.dat V c).arrAt 7 cfg2.N = Cert.Spec.of2 (Cert.Spec.gateLogistic (Cert.Spec.at2 (V c main_arg2)) (Cert.Spec.at2 (V c main_arg5))
        (Cert.Spec.at2 (V c main_arg0)) (Cert.Spec.at2 (V c main_arg9)) (Cert.Spec.atRow (V c main_v8)) (Cert.Spec.atRow (V c main_v9))
        (Cert.Spec.atRow (V c main_v10))))
    (h3 : ∀ (V : (c : Dev nD) → (b : Ref sig .tc) → Buf (Elt Ideal) ((c : Thread nD τ).loc b)) (c : Dev nD),
      (R3.dat V c).arrAt 7 cfg3.N = Cert.Spec.of2 (Cert.Spec.gateLogistic (Cert.Spec.at2 (V c main_arg2)) (Cert.Spec.at2 (V c main_arg6))
        (Cert.Spec.at2 (V c main_arg0)) (Cert.Spec.at2 (V c main_arg10)) (Cert.Spec.atRow (V c main_v12)) (Cert.Spec.atRow (V c main_v13))
        (Cert.Spec.atRow (V c main_v14))))
    (h4 : ∀ (V : (c : Dev nD) → (b : Ref sig .tc) → Buf (Elt Ideal) ((c : Thread nD τ).loc b)) (c : Dev nD),
      Cert.Spec.FiniteM (Cert.Spec.at2 (V c main_v3)) → Cert.Spec.FiniteM (Cert.Spec.at2 (V c main_arg1)) →
      Cert.Spec.FiniteM (Cert.Spec.at2 (V c main_v7)) → Cert.Spec.FiniteM (Cert.Spec.at2 (V c main_v11)) →
      (R4.dat V c).arrAt 4 cfg4.N = Cert.Spec.of2 (Cert.Spec.cell (Cert.Spec.at2 (V c main_v3)) (Cert.Spec.at2 (V c main_arg1))
        (Cert.Spec.at2 (V c main_v7)) (Cert.Spec.at2 (V c main_v11))))
    (h5 : ∀ (V : (c : Dev nD) → (b : Ref sig .tc) → Buf (Elt Ideal) ((c : Thread nD τ).loc b)) (c : Dev nD),
      Cert.Spec.FiniteM (Cert.Spec.at2 (V c main_v16)) → Cert.Spec.FiniteM (Cert.Spec.at2 (V c main_v15)) →
      (R5.dat V c).arrAt 2 cfg5.N = Cert.Spec.of2 (Cert.Spec.hidden (Cert.Spec.at2 (V c main_v16)) (Cert.Spec.at2 (V c main_v15))))
    (h6 : ∀ (V : (c : Dev nD) → (b : Ref sig .tc) → Buf (Elt Ideal) ((c : Thread nD τ).loc b)) (c : Dev nD),
      Cert.Spec.FiniteM (Cert.Spec.at2 (V c main_v17)) → Cert.Spec.FiniteM (Cert.Spec.at2 (V c main_arg15)) →
      (R6.dat V c).arrAt 3 cfg6.N = Cert.Spec.of2 (Cert.Spec.head (Cert.Spec.at2 (V c main_v17)) (Cert.Spec.at2 (V c main_arg15))
        (Cert.Spec.atRow (V c main_v18)))) :
    B12 m ρ c (Proc.devRef .tc main_v19) = Cert.Spec.of2 (Cert.Spec.yT (Cert.Ref.kerArgs m c)) := by
  have eh : T11 m ρ c main_v17 = Cert.Spec.of2 (Cert.Spec.hT (Cert.Ref.kerArgs m c)) :=
    (T11_v17 m ρ c).trans (val_h m ρ c ha h0 h1 h2 h3 h4 h5)
  have ew : T11 m ρ c main_arg15 = m ((c.tc : Thread nD τ).loc main_arg15) := T11_arg m ρ c main_arg15 (by decide)
  have e := h6 (T11 m ρ) c (by rw [eh]; exact Cert.Ref.hT_finite ha) (by rw [ew]; exact ha.Wy)
  rw [out_v19, e, eh, ew, T11_v18]
  simp only [Cert.Spec.at2_of2]
  rfl

/-! ## At the end of @main -/

/-- The new cell state at the end of @main. -/
theorem end_c (c : Dev nD) (ha : (Cert.Ref.kerArgs m c).Finite)
    (h0 : ∀ (V : (c : Dev nD) → (b : Ref sig .tc) → Buf (Elt Ideal) ((c : Thread nD τ).loc b)) (c : Dev nD),
      (R0.dat V c).arrAt 7 cfg0.N = Cert.Spec.of2 (Cert.Spec.gateLogistic (Cert.Spec.at2 (V c main_arg2)) (Cert.Spec.at2 (V c main_arg3))
        (Cert.Spec.at2 (V c main_arg0)) (Cert.Spec.at2 (V c main_arg7)) (Cert.Spec.atRow (V c main_v0)) (Cert.Spec.atRow (V c main_v1))
        (Cert.Spec.atRow (V c main_v2))))
    (h1 : ∀ (V : (c : Dev nD) → (b : Ref sig .tc) → Buf (Elt Ideal) ((c : Thread nD τ).loc b)) (c : Dev nD),
      (R1.dat V c).arrAt 7 cfg1.N = Cert.Spec.of2 (Cert.Spec.gateTanh (Cert.Spec.at2 (V c main_arg2)) (Cert.Spec.at2 (V c main_arg4))
        (Cert.Spec.at2 (V c main_arg0)) (Cert.Spec.at2 (V c main_arg8)) (Cert.Spec.atRow (V c main_v4)) (Cert.Spec.atRow (V c main_v5))
        (Cert.Spec.atRow (V c main_v6))))
    (h2 : ∀ (V : (c : Dev nD) → (b : Ref sig .tc) → Buf (Elt Ideal) ((c : Thread nD τ).loc b)) (c : Dev nD),
      (R2.dat V c).arrAt 7 cfg2.N = Cert.Spec.of2 (Cert.Spec.gateLogistic (Cert.Spec.at2 (V c main_arg2)) (Cert.Spec.at2 (V c main_arg5))
        (Cert.Spec.at2 (V c main_arg0)) (Cert.Spec.at2 (V c main_arg9)) (Cert.Spec.atRow (V c main_v8)) (Cert.Spec.atRow (V c main_v9))
        (Cert.Spec.atRow (V c main_v10))))
    (h4 : ∀ (V : (c : Dev nD) → (b : Ref sig .tc) → Buf (Elt Ideal) ((c : Thread nD τ).loc b)) (c : Dev nD),
      Cert.Spec.FiniteM (Cert.Spec.at2 (V c main_v3)) → Cert.Spec.FiniteM (Cert.Spec.at2 (V c main_arg1)) →
      Cert.Spec.FiniteM (Cert.Spec.at2 (V c main_v7)) → Cert.Spec.FiniteM (Cert.Spec.at2 (V c main_v11)) →
      (R4.dat V c).arrAt 4 cfg4.N = Cert.Spec.of2 (Cert.Spec.cell (Cert.Spec.at2 (V c main_v3)) (Cert.Spec.at2 (V c main_arg1))
        (Cert.Spec.at2 (V c main_v7)) (Cert.Spec.at2 (V c main_v11)))) :
    B12 m ρ c (Proc.devRef .tc main_v16) = Cert.Spec.of2 (Cert.Spec.cT (Cert.Ref.kerArgs m c)) :=
  (B12_v16 m ρ c).trans (val_c m ρ c ha h0 h1 h2 h4)

/-- The new hidden state at the end of @main. -/
theorem end_h (c : Dev nD) (ha : (Cert.Ref.kerArgs m c).Finite)
    (h0 : ∀ (V : (c : Dev nD) → (b : Ref sig .tc) → Buf (Elt Ideal) ((c : Thread nD τ).loc b)) (c : Dev nD),
      (R0.dat V c).arrAt 7 cfg0.N = Cert.Spec.of2 (Cert.Spec.gateLogistic (Cert.Spec.at2 (V c main_arg2)) (Cert.Spec.at2 (V c main_arg3))
        (Cert.Spec.at2 (V c main_arg0)) (Cert.Spec.at2 (V c main_arg7)) (Cert.Spec.atRow (V c main_v0)) (Cert.Spec.atRow (V c main_v1))
        (Cert.Spec.atRow (V c main_v2))))
    (h1 : ∀ (V : (c : Dev nD) → (b : Ref sig .tc) → Buf (Elt Ideal) ((c : Thread nD τ).loc b)) (c : Dev nD),
      (R1.dat V c).arrAt 7 cfg1.N = Cert.Spec.of2 (Cert.Spec.gateTanh (Cert.Spec.at2 (V c main_arg2)) (Cert.Spec.at2 (V c main_arg4))
        (Cert.Spec.at2 (V c main_arg0)) (Cert.Spec.at2 (V c main_arg8)) (Cert.Spec.atRow (V c main_v4)) (Cert.Spec.atRow (V c main_v5))
        (Cert.Spec.atRow (V c main_v6))))
    (h2 : ∀ (V : (c : Dev nD) → (b : Ref sig .tc) → Buf (Elt Ideal) ((c : Thread nD τ).loc b)) (c : Dev nD),
      (R2.dat V c).arrAt 7 cfg2.N = Cert.Spec.of2 (Cert.Spec.gateLogistic (Cert.Spec.at2 (V c main_arg2)) (Cert.Spec.at2 (V c main_arg5))
        (Cert.Spec.at2 (V c main_arg0)) (Cert.Spec.at2 (V c main_arg9)) (Cert.Spec.atRow (V c main_v8)) (Cert.Spec.atRow (V c main_v9))
        (Cert.Spec.atRow (V c main_v10))))
    (h3 : ∀ (V : (c : Dev nD) → (b : Ref sig .tc) → Buf (Elt Ideal) ((c : Thread nD τ).loc b)) (c : Dev nD),
      (R3.dat V c).arrAt 7 cfg3.N = Cert.Spec.of2 (Cert.Spec.gateLogistic (Cert.Spec.at2 (V c main_arg2)) (Cert.Spec.at2 (V c main_arg6))
        (Cert.Spec.at2 (V c main_arg0)) (Cert.Spec.at2 (V c main_arg10)) (Cert.Spec.atRow (V c main_v12)) (Cert.Spec.atRow (V c main_v13))
        (Cert.Spec.atRow (V c main_v14))))
    (h4 : ∀ (V : (c : Dev nD) → (b : Ref sig .tc) → Buf (Elt Ideal) ((c : Thread nD τ).loc b)) (c : Dev nD),
      Cert.Spec.FiniteM (Cert.Spec.at2 (V c main_v3)) → Cert.Spec.FiniteM (Cert.Spec.at2 (V c main_arg1)) →
      Cert.Spec.FiniteM (Cert.Spec.at2 (V c main_v7)) → Cert.Spec.FiniteM (Cert.Spec.at2 (V c main_v11)) →
      (R4.dat V c).arrAt 4 cfg4.N = Cert.Spec.of2 (Cert.Spec.cell (Cert.Spec.at2 (V c main_v3)) (Cert.Spec.at2 (V c main_arg1))
        (Cert.Spec.at2 (V c main_v7)) (Cert.Spec.at2 (V c main_v11))))
    (h5 : ∀ (V : (c : Dev nD) → (b : Ref sig .tc) → Buf (Elt Ideal) ((c : Thread nD τ).loc b)) (c : Dev nD),
      Cert.Spec.FiniteM (Cert.Spec.at2 (V c main_v16)) → Cert.Spec.FiniteM (Cert.Spec.at2 (V c main_v15)) →
      (R5.dat V c).arrAt 2 cfg5.N = Cert.Spec.of2 (Cert.Spec.hidden (Cert.Spec.at2 (V c main_v16)) (Cert.Spec.at2 (V c main_v15)))) :
    B12 m ρ c (Proc.devRef .tc main_v17) = Cert.Spec.of2 (Cert.Spec.hT (Cert.Ref.kerArgs m c)) :=
  (B12_v17 m ρ c).trans (val_h m ρ c ha h0 h1 h2 h3 h4 h5)

/-- The output at the end of @main. -/
theorem end_y (c : Dev nD) (ha : (Cert.Ref.kerArgs m c).Finite)
    (h0 : ∀ (V : (c : Dev nD) → (b : Ref sig .tc) → Buf (Elt Ideal) ((c : Thread nD τ).loc b)) (c : Dev nD),
      (R0.dat V c).arrAt 7 cfg0.N = Cert.Spec.of2 (Cert.Spec.gateLogistic (Cert.Spec.at2 (V c main_arg2)) (Cert.Spec.at2 (V c main_arg3))
        (Cert.Spec.at2 (V c main_arg0)) (Cert.Spec.at2 (V c main_arg7)) (Cert.Spec.atRow (V c main_v0)) (Cert.Spec.atRow (V c main_v1))
        (Cert.Spec.atRow (V c main_v2))))
    (h1 : ∀ (V : (c : Dev nD) → (b : Ref sig .tc) → Buf (Elt Ideal) ((c : Thread nD τ).loc b)) (c : Dev nD),
      (R1.dat V c).arrAt 7 cfg1.N = Cert.Spec.of2 (Cert.Spec.gateTanh (Cert.Spec.at2 (V c main_arg2)) (Cert.Spec.at2 (V c main_arg4))
        (Cert.Spec.at2 (V c main_arg0)) (Cert.Spec.at2 (V c main_arg8)) (Cert.Spec.atRow (V c main_v4)) (Cert.Spec.atRow (V c main_v5))
        (Cert.Spec.atRow (V c main_v6))))
    (h2 : ∀ (V : (c : Dev nD) → (b : Ref sig .tc) → Buf (Elt Ideal) ((c : Thread nD τ).loc b)) (c : Dev nD),
      (R2.dat V c).arrAt 7 cfg2.N = Cert.Spec.of2 (Cert.Spec.gateLogistic (Cert.Spec.at2 (V c main_arg2)) (Cert.Spec.at2 (V c main_arg5))
        (Cert.Spec.at2 (V c main_arg0)) (Cert.Spec.at2 (V c main_arg9)) (Cert.Spec.atRow (V c main_v8)) (Cert.Spec.atRow (V c main_v9))
        (Cert.Spec.atRow (V c main_v10))))
    (h3 : ∀ (V : (c : Dev nD) → (b : Ref sig .tc) → Buf (Elt Ideal) ((c : Thread nD τ).loc b)) (c : Dev nD),
      (R3.dat V c).arrAt 7 cfg3.N = Cert.Spec.of2 (Cert.Spec.gateLogistic (Cert.Spec.at2 (V c main_arg2)) (Cert.Spec.at2 (V c main_arg6))
        (Cert.Spec.at2 (V c main_arg0)) (Cert.Spec.at2 (V c main_arg10)) (Cert.Spec.atRow (V c main_v12)) (Cert.Spec.atRow (V c main_v13))
        (Cert.Spec.atRow (V c main_v14))))
    (h4 : ∀ (V : (c : Dev nD) → (b : Ref sig .tc) → Buf (Elt Ideal) ((c : Thread nD τ).loc b)) (c : Dev nD),
      Cert.Spec.FiniteM (Cert.Spec.at2 (V c main_v3)) → Cert.Spec.FiniteM (Cert.Spec.at2 (V c main_arg1)) →
      Cert.Spec.FiniteM (Cert.Spec.at2 (V c main_v7)) → Cert.Spec.FiniteM (Cert.Spec.at2 (V c main_v11)) →
      (R4.dat V c).arrAt 4 cfg4.N = Cert.Spec.of2 (Cert.Spec.cell (Cert.Spec.at2 (V c main_v3)) (Cert.Spec.at2 (V c main_arg1))
        (Cert.Spec.at2 (V c main_v7)) (Cert.Spec.at2 (V c main_v11))))
    (h5 : ∀ (V : (c : Dev nD) → (b : Ref sig .tc) → Buf (Elt Ideal) ((c : Thread nD τ).loc b)) (c : Dev nD),
      Cert.Spec.FiniteM (Cert.Spec.at2 (V c main_v16)) → Cert.Spec.FiniteM (Cert.Spec.at2 (V c main_v15)) →
      (R5.dat V c).arrAt 2 cfg5.N = Cert.Spec.of2 (Cert.Spec.hidden (Cert.Spec.at2 (V c main_v16)) (Cert.Spec.at2 (V c main_v15))))
    (h6 : ∀ (V : (c : Dev nD) → (b : Ref sig .tc) → Buf (Elt Ideal) ((c : Thread nD τ).loc b)) (c : Dev nD),
      Cert.Spec.FiniteM (Cert.Spec.at2 (V c main_v17)) → Cert.Spec.FiniteM (Cert.Spec.at2 (V c main_arg15)) →
      (R6.dat V c).arrAt 3 cfg6.N = Cert.Spec.of2 (Cert.Spec.head (Cert.Spec.at2 (V c main_v17)) (Cert.Spec.at2 (V c main_arg15))
        (Cert.Spec.atRow (V c main_v18)))) :
    B12 m ρ c (Proc.devRef .tc main_v19) = Cert.Spec.of2 (Cert.Spec.yT (Cert.Ref.kerArgs m c)) :=
  val_y m ρ c ha h0 h1 h2 h3 h4 h5 h6

end Cert.KernelIdeal.Whole

end
-- ==== Proof.KI.R0.ValueBlk.lean ====
/-
  The forget gate of the idealized kernel, values, part three: where a block's entries sit in its array.

  Point t of the 2 × 8 grid is (i, k) = (t / 8, t mod 8).  Entry (r, j) of the block of h (and of x) at t is entry
  (1024·i + r, 256·k + j) of the array; entry (j, n) of the block of W_h (and of W_x) is entry (256·k + j, n); the rows b, g, β
  are whole at every point; entry (r, n) of the output block is entry (1024·i + r, n).  A block's entry always sits, on each
  axis, at block index × block size + its own coordinate; the block indices are decided once over the sixteen points.
-/
import proofs.«116394_j17480516895034_2_alg».proof.Proof.KI.R0.Base
import proofs.«116394_j17480516895034_2_alg».proof.Proof.Spec
import Idealize.ShloMosaic.Lib.Pipeline.Value
import Idealize.ShloMosaic.Lib.ValueIdx

set_option maxRecDepth 16384

noncomputable section

namespace Cert.KernelIdeal.R0

open Cert.KernelIdeal Cert.KernelIdeal.Gen
open Idealize.ShloMosaic Idealize.ShloMosaic.TcCoe Idealize.ShloMosaic.ValueIdx
open Idealize.ShloMosaic.Pipeline (Dat Cfg Window)

variable {F : FTy → Type} [FloatOps F]

variable (V : (c : Dev nD) → (b : Ref sig .tc) → Buf (Elt F) ((c : Thread nD τ).loc b))

/-! ## The block indices over the sixteen points -/

theorem index_h : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)
theorem index_wh : ∀ t : Fin cfg0.N, win0_1.index t 0 = t.val % 8 ∧ win0_1.index t 1 = 0 :=
  (by decide +kernel : ∀ t : Fin grid0.N, win0_1.index t 0 = t.val % 8 ∧ win0_1.index t 1 = 0)
theorem index_x : ∀ t : Fin cfg0.N, win0_2.index t 0 = t.val / 8 ∧ win0_2.index t 1 = t.val % 8 :=
  (by decide +kernel : ∀ t : Fin grid0.N, win0_2.index t 0 = t.val / 8 ∧ win0_2.index t 1 = t.val % 8)
theorem index_wx : ∀ t : Fin cfg0.N, win0_3.index t 0 = t.val % 8 ∧ win0_3.index t 1 = 0 :=
  (by decide +kernel : ∀ t : Fin grid0.N, win0_3.index t 0 = t.val % 8 ∧ win0_3.index t 1 = 0)
theorem index_b : ∀ t : Fin cfg0.N, win0_4.index t 0 = 0 ∧ win0_4.index t 1 = 0 :=
  (by decide +kernel : ∀ t : Fin grid0.N, win0_4.index t 0 = 0 ∧ win0_4.index t 1 = 0)
theorem index_g : ∀ t : Fin cfg0.N, win0_5.index t 0 = 0 ∧ win0_5.index t 1 = 0 :=
  (by decide +kernel : ∀ t : Fin grid0.N, win0_5.index t 0 = 0 ∧ win0_5.index t 1 = 0)
theorem index_be : ∀ t : Fin cfg0.N, win0_6.index t 0 = 0 ∧ win0_6.index t 1 = 0 :=
  (by decide +kernel : ∀ t : Fin grid0.N, win0_6.index t 0 = 0 ∧ win0_6.index t 1 = 0)
theorem index_out : ∀ t : Fin cfg0.N, win0_7.index t 0 = t.val / 8 ∧ win0_7.index t 1 = 0 :=
  (by decide +kernel : ∀ t : Fin grid0.N, win0_7.index t 0 = t.val / 8 ∧ win0_7.index t 1 = 0)

/-- Row r of row block t / 8. -/
abbrev rowOf (t : Fin cfg0.N) (r : Fin 1024) : Fin 2048 :=
  ⟨1024 * (t.val / 8) + r.val, by have := t.isLt; have hN : cfg0.N = 16 := N_0; omega⟩
/-- Column j of contraction block t mod 8. -/
abbrev colOf (t : Fin cfg0.N) (j : Fin 256) : Fin 2048 := ⟨256 * (t.val % 8) + j.val, by omega⟩

/-! ## The blocks, entry by entry -/

theorem blockAt_h (c : Dev nD) (t : Fin cfg0.N) (r : Fin 1024) (j : Fin 256) :
    (blockAt V c 0 t : Vec F S1024x256 .f32) (ix2 r j) = V c main_arg2 (ix2 (rowOf t r) (colOf t j)) := by
  unfold blockAt
  rw [View.read_apply]
  show V c main_arg2 _ = V c main_arg2 _
  refine congrArg (V c main_arg2) (funext fun a => Fin.ext ?_)
  match a with
  | ⟨0, _⟩ =>
    show win0_0.index t 0 * 1024 + 1 * r.val = 1024 * (t.val / 8) + r.val
    rw [(index_h t).1]; omega
  | ⟨1, _⟩ =>
    show win0_0.index t 1 * 256 + 1 * j.val = 256 * (t.val % 8) + j.val
    rw [(index_h t).2]; omega

theorem blockAt_wh (c : Dev nD) (t : Fin cfg0.N) (j : Fin 256) (n : Fin 2048) :
    (blockAt V c 1 t : Vec F S256x2048 .f32) (ix2 j n) = V c main_arg3 (ix2 (colOf t j) n) := by
  unfold blockAt
  rw [View.read_apply]
  show V c main_arg3 _ = V c main_arg3 _
  refine congrArg (V c main_arg3) (funext fun a => Fin.ext ?_)
  match a with
  | ⟨0, _⟩ =>
    show win0_1.index t 0 * 256 + 1 * j.val = 256 * (t.val % 8) + j.val
    rw [(index_wh t).1]; omega
  | ⟨1, _⟩ =>
    show win0_1.index t 1 * 2048 + 1 * n.val = n.val
    rw [(index_wh t).2]; omega

theorem blockAt_x (c : Dev nD) (t : Fin cfg0.N) (r : Fin 1024) (j : Fin 256) :
    (blockAt V c 2 t : Vec F S1024x256 .f32) (ix2 r j) = V c main_arg0 (ix2 (rowOf t r) (colOf t j)) := by
  unfold blockAt
  rw [View.read_apply]
  show V c main_arg0 _ = V c main_arg0 _
  refine congrArg (V c main_arg0) (funext fun a => Fin.ext ?_)
  match a with
  | ⟨0, _⟩ =>
    show win0_2.index t 0 * 1024 + 1 * r.val = 1024 * (t.val / 8) + r.val
    rw [(index_x t).1]; omega
  | ⟨1, _⟩ =>
    show win0_2.index t 1 * 256 + 1 * j.val = 256 * (t.val % 8) + j.val
    rw [(index_x t).2]; omega

theorem blockAt_wx (c : Dev nD) (t : Fin cfg0.N) (j : Fin 256) (n : Fin 2048) :
    (blockAt V c 3 t : Vec F S256x2048 .f32) (ix2 j n) = V c main_arg7 (ix2 (colOf t j) n) := by
  unfold blockAt
  rw [View.read_apply]
  show V c main_arg7 _ = V c main_arg7 _
  refine congrArg (V c main_arg7) (funext fun a => Fin.ext ?_)
  match a with
  | ⟨0, _⟩ =>
    show win0_3.index t 0 * 256 + 1 * j.val = 256 * (t.val % 8) + j.val
    rw [(index_wx t).1]; omega
  | ⟨1, _⟩ =>
    show win0_3.index t 1 * 2048 + 1 * n.val = n.val
    rw [(index_wx t).2]; omega

theorem blockAt_b (c : Dev nD) (t : Fin cfg0.N) (n : Fin 2048) :
    (blockAt V c 4 t : Vec F S1x2048 .f32) (ix2 (0 : Fin 1) n) = V c main_v0 (ix2 (0 : Fin 1) n) := by
  unfold blockAt
  rw [View.read_apply]
  show V c main_v0 _ = V c main_v0 _
  refine congrArg (V c main_v0) (funext fun a => Fin.ext ?_)
  match a with
  | ⟨0, _⟩ =>
    show win0_4.index t 0 * 1 + 1 * 0 = 0
    rw [(index_b t).1]
  | ⟨1, _⟩ =>
    show win0_4.index t 1 * 2048 + 1 * n.val = n.val
    rw [(index_b t).2]; omega

theorem blockAt_g (c : Dev nD) (t : Fin cfg0.N) (n : Fin 2048) :
    (blockAt V c 5 t : Vec F S1x2048 .f32) (ix2 (0 : Fin 1) n) = V c main_v1 (ix2 (0 : Fin 1) n) := by
  unfold blockAt
  rw [View.read_apply]
  show V c main_v1 _ = V c main_v1 _
  refine congrArg (V c main_v1) (funext fun a => Fin.ext ?_)
  match a with
  | ⟨0, _⟩ =>
    show win0_5.index t 0 * 1 + 1 * 0 = 0
    rw [(index_g t).1]
  | ⟨1, _⟩ =>
    show win0_5.index t 1 * 2048 + 1 * n.val = n.val
    rw [(index_g t).2]; omega

theorem blockAt_be (c : Dev nD) (t : Fin cfg0.N) (n : Fin 2048) :
    (blockAt V c 6 t : Vec F S1x2048 .f32) (ix2 (0 : Fin 1) n) = V c main_v2 (ix2 (0 : Fin 1) n) := by
  unfold blockAt
  rw [View.read_apply]
  show V c main_v2 _ = V c main_v2 _
  refine congrArg (V c main_v2) (funext fun a => Fin.ext ?_)
  match a with
  | ⟨0, _⟩ =>
    show win0_6.index t 0 * 1 + 1 * 0 = 0
    rw [(index_be t).1]
  | ⟨1, _⟩ =>
    show win0_6.index t 1 * 2048 + 1 * n.val = n.val
    rw [(index_be t).2]; omega

end Cert.KernelIdeal.R0

end
-- ==== Proof.KI.R0.ValueAcc.lean ====
/-
  The forget gate of the idealized kernel, values, part four: what each case of the body leaves, as the stored terms.

  The symbolic run of the body finds, case by case, the list of pieces stored.  Every store and every load goes through the
  whole buffer, so the accumulator ends at the last store's term and a load after a store reads that store's term:
    k = 0      accumulator = (0 + h-block · W_h-block) + x-block · W_x-block, the zero being the clearing store's;
    k > 0      accumulator = (previous + h-block · W_h-block) + x-block · W_x-block;
    k = 7      and the output block = the activation of the normalised rows of (that accumulator + b).
  Stated at any float instance, over the stored terms by name.
-/
import proofs.«116394_j17480516895034_2_alg».proof.Proof.KI.R0.Data
import Idealize.ShloMosaic.Lib.Pipeline.Value
import Idealize.ShloMosaic.Lib.ValueIdx

set_option maxRecDepth 16384

noncomputable section

namespace Cert.KernelIdeal.R0

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

/-- The zero offsets, spelt as the body spells them. -/
theorem hz2 : (![0, 0] : Fin 2 → Nat) = fun _ => 0 := funext fun a => by fin_cases a <;> rfl

/-- The accumulator after a point with k = 0. -/
theorem accFirst_eq (c : Dev nD) (i : grid0.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : atFirst i) (h7 : ¬atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) :
    accFirst c i arg2 harg2 arg3 harg3 arg4 harg4 arg5 harg5 arg6 harg6 arg7 harg7 arg8 harg8 arg9 harg9 arg10 harg10 h0 h7 xh xwh xx xwx xb xg xbe = k0_pay3 xx xwx (k0_pay2 xh xwh k0_pay1) := by
  unfold accFirst
  rw [View.read_writes_eq_canon _ _ _ (accCover_first c i arg2 harg2 arg3 harg3 arg4 harg4 arg5 harg5 arg6 harg6 arg7 harg7 arg8 harg8 arg9 harg9 arg10 harg10 h0 h7 xh xwh xx xwx xb xg xbe)]
  unfold runFirst
  dsimp only
  rw [View.canon_cons_unit_zero (S := S1024x2048) hz2]
  sl_unfold_words
  simp only [View.readCov_cons_toLoadRect, View.readAt_eq_ld, harg2.read_unread, harg3.read_unread, harg4.read_unread,
    harg5.read_unread, harg6.read_unread, harg7.read_unread, harg8.read_unread, harg10.read_unread,
    View.ld_unit_zero (S := S1024x256) hz2, View.ld_unit_zero (S := S256x2048) hz2, View.ld_unit_zero (S := S1024x2048) hz2,
    View.ld_unit_zero (S := S1x2048) hz2]

/-- The accumulator after a point with 0 < k < 7, from the accumulator at xa. -/
theorem accMid_eq (c : Dev nD) (i : grid0.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : ¬atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) :
    accMid c i arg2 harg2 arg3 harg3 arg4 harg4 arg5 harg5 arg6 harg6 arg7 harg7 arg8 harg8 arg9 harg9 arg10 harg10 h0 h7 xh xwh xx xwx xb xg xbe xa = k0_pay3 xx xwx (k0_pay2 xh xwh xa) := by
  unfold accMid
  rw [View.read_writes_eq_canon _ _ _ (accCover_mid c i arg2 harg2 arg3 harg3 arg4 harg4 arg5 harg5 arg6 harg6 arg7 harg7 arg8 harg8 arg9 harg9 arg10 harg10 h0 h7 xh xwh xx xwx xb xg xbe xa)]
  unfold runMid
  dsimp only
  rw [View.canon_cons_unit_zero (S := S1024x2048) hz2]
  sl_unfold_words
  simp only [View.readCov_cons_toLoadRect, View.readAt_eq_ld, harg2.read_unread, harg3.read_unread, harg4.read_unread,
    harg5.read_unread, harg6.read_unread, harg7.read_unread, harg8.read_unread, harg10.read_unread,
    View.ld_unit_zero (S := S1024x256) hz2, View.ld_unit_zero (S := S256x2048) hz2, View.ld_unit_zero (S := S1024x2048) hz2,
    View.ld_unit_zero (S := S1x2048) hz2]

/-- The accumulator after a point with k = 7, from the accumulator at xa. -/
theorem accLast_eq (c : Dev nD) (i : grid0.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) :
    accLast c i arg2 harg2 arg3 harg3 arg4 harg4 arg5 harg5 arg6 harg6 arg7 harg7 arg8 harg8 arg9 harg9 arg10 harg10 h0 h7 xh xwh xx xwx xb xg xbe xa = k0_pay3 xx xwx (k0_pay2 xh xwh xa) := by
  unfold accLast
  rw [View.read_writes_eq_canon _ _ _ (accCover_last c i arg2 harg2 arg3 harg3 arg4 harg4 arg5 harg5 arg6 harg6 arg7 harg7 arg8 harg8 arg9 harg9 arg10 harg10 h0 h7 xh xwh xx xwx xb xg xbe xa)]
  unfold runLast
  dsimp only
  sl_unfold_words
  rw [View.canon_cons_unit_zero (S := S1024x2048) hz2]
  simp only [View.readCov_cons_toLoadRect, View.readAt_eq_ld, harg2.read_unread, harg3.read_unread, harg4.read_unread,
    harg5.read_unread, harg6.read_unread, harg7.read_unread, harg8.read_unread, harg10.read_unread,
    View.ld_unit_zero (S := S1024x256) hz2, View.ld_unit_zero (S := S256x2048) hz2, View.ld_unit_zero (S := S1024x2048) hz2,
    View.ld_unit_zero (S := S1x2048) hz2]

/-- The output block after a point with k = 7, from the accumulator at xa. -/
theorem outLast_eq (c : Dev nD) (i : grid0.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) :
    outLast c i arg2 harg2 arg3 harg3 arg4 harg4 arg5 harg5 arg6 harg6 arg7 harg7 arg8 harg8 arg9 harg9 arg10 harg10 h0 h7 xh xwh xx xwx xb xg xbe xa = k0_pay4 (k0_pay3 xx xwx (k0_pay2 xh xwh xa)) xb xg xbe := by
  unfold outLast
  rw [View.read_writes_eq_canon _ _ _ (outCover_last c i arg2 harg2 arg3 harg3 arg4 harg4 arg5 harg5 arg6 harg6 arg7 harg7 arg8 harg8 arg9 harg9 arg10 harg10 h0 h7 xh xwh xx xwx xb xg xbe xa)]
  unfold runLast
  dsimp only
  rw [View.canon_unit_zero (S := S1024x2048) hz2]
  sl_unfold_words
  simp only [View.readCov_cons_toLoadRect, View.readAt_eq_ld, harg2.read_unread, harg3.read_unread, harg4.read_unread,
    harg5.read_unread, harg6.read_unread, harg7.read_unread, harg8.read_unread, harg10.read_unread,
    View.ld_unit_zero (S := S1024x256) hz2, View.ld_unit_zero (S := S256x2048) hz2, View.ld_unit_zero (S := S1024x2048) hz2,
    View.ld_unit_zero (S := S1x2048) hz2]

end Cert.KernelIdeal.R0

end
-- ==== Proof.KI.R0.ValuePay.lean ====
/-
  The gate products of the idealized kernel, values, part one: the operations of a gate body read at one entry, on the
  extended reals.

  A point of the 2 × 8 grid holds a 1024 × 256 block of h and of x, a 256 × 2048 block of W_h and of W_x, and the
  1 × 2048 rows b, g, β.  The body clears the 1024 × 2048 accumulator (at k = 0 only), adds to it the product of the
  blocks of h and W_h, then the product of the blocks of x and W_x; at k = 7 it stores into the output block the
  activation of the normalised rows of (accumulator + b).

  On the extended reals a change of float format is the identity, a product into a zero accumulator is, at (r, n), the sum
  over the 256 contracted columns j of a(r, j) · b(j, n), a lane reduction of a 1024 × 2048 block is, at r, the sum over the
  2048 lanes, a row broadcast reads the row, and a column broadcast reads the column.
-/
import proofs.«116394_j17480516895034_2_alg».proof.Proof.Gen.KernelIdeal.Skeleton
import proofs.«116394_j17480516895034_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R0

open Cert.KernelIdeal Cert.KernelIdeal.Gen
open Idealize.ShloMosaic Idealize.ShloMosaic.ValueIdx

/-! ## Layout operations read at an entry -/

/-- A 1 × 2048 row broadcast over 1024 rows reads, at (r, n), the row at n. -/
theorem rowBroadcast_apply (v : FVec Ideal S1x2048 .f32) (hc : S1x2048.ShapeCasts S1x2048) (hb : S1x2048.Broadcasts S1024x2048)
    (r : Fin 1024) (n : Fin 2048) :
    broadcastTo S1024x2048 (shapeCast S1x2048 v hc) hb (ix2 r n) = v (ix2 (0 : Fin 1) n) :=
  (broadcastTo_1b_ab_apply _ hb r n).trans (congrFun (shapeCast_self v hc) _)

/-- A 1024 × 1 column broadcast over 2048 lanes reads, at (r, n), the column at r. -/
theorem colBroadcast_apply (v : FVec Ideal S1024x1 .f32) (hb : S1024x1.Broadcasts S1024x2048) (r : Fin 1024) (n : Fin 2048) :
    broadcastTo S1024x2048 v hb (ix2 r n) = v (ix2 r (0 : Fin 1)) := by
  refine broadcastTo_apply v hb (ix2 r n) (ix2 r (0 : Fin 1)) fun ax => ?_
  match ax with
  | ⟨0, _⟩ => rfl
  | ⟨1, _⟩ => rfl

/-- A vector of 1024 entries laid out as a 1024 × 1 column reads, at (r, 0), the vector at r. -/
theorem column_apply (v : FVec Ideal S1024 .f32) (hc : S1024.ShapeCasts S1024x1) (r : Fin 1024) (u : Fin 1) :
    shapeCast S1024x1 v hc (ix2 r u) = v (ix1 r) :=
  shapeCast_apply v hc _ _ (by
    have hu : u.val = 0 := by omega
    rw [Shape.rowMajor_val_two, Shape.rowMajor_val_one]
    show r.val = r.val * 1 + u.val
    rw [hu]; omega)

/-- The sum over the lanes of a 1024 × 2048 block reads, at r, the sum over n of the block at (r, n). -/
theorem laneSum_apply (src : FVec Ideal S1024x2048 .f32) (h : S1024x2048.Reduces [1] S1024) (hφ : FTy.f32 = FTy.f32 ∨ FTy.f32 = FTy.bf16)
    (hacc : (0x00000000#32 : BitVec FTy.f32.bits) = 0x00000000#32) (r : Fin 1024) :
    multiReduction .add [1] S1024 src 0x00000000#32 h hφ hacc (ix1 r) = ∑ n : Fin 2048, src (ix2 r n) := by
  refine (Ideal.multiReduction_add_single src 0x00000000#32 h hφ hacc (ix1 r)).trans ?_
  refine Finset.sum_congr rfl fun n _ => congrArg src (funext fun a => Fin.ext ?_)
  match a with
  | ⟨0, _⟩ => rfl
  | ⟨1, _⟩ => rfl

/-! ## The product of two blocks -/

/-- At output entry (r, n) and contracted column q the product reads its left operand in row r. -/
theorem lhsRow (i : S1024x2048.Idx) (q : dot_S1024x256_S256x2048_S1024x2048_1_0_0_1_n_n.contr.Idx) :
    (dot_S1024x256_S256x2048_S1024x2048_1_0_0_1_n_n.lhsIdx i q 0).val = (i 0).val := by
  unfold DotDims.lhsIdx
  rw [dif_neg (show ¬(0 : Fin S1024x256.rank) ∈ dot_S1024x256_S256x2048_S1024x2048_1_0_0_1_n_n.lhsBatch by decide),
    dif_pos (show (0 : Fin S1024x256.rank) ∈ dot_S1024x256_S256x2048_S1024x2048_1_0_0_1_n_n.lhsNonContracting by decide)]
  rfl
/-- At output entry (r, n) and contracted column q the product reads its left operand in column q. -/
theorem lhsCol (i : S1024x2048.Idx) (q : dot_S1024x256_S256x2048_S1024x2048_1_0_0_1_n_n.contr.Idx) :
    (dot_S1024x256_S256x2048_S1024x2048_1_0_0_1_n_n.lhsIdx i q 1).val = (q ⟨0, by decide⟩).val :=
  dot_S1024x256_S256x2048_S1024x2048_1_0_0_1_n_n.lhsIdx_val_of_single rfl i q
/-- At output entry (r, n) and contracted column q the product reads its right operand in row q. -/
theorem rhsRow (i : S1024x2048.Idx) (q : dot_S1024x256_S256x2048_S1024x2048_1_0_0_1_n_n.contr.Idx) :
    (dot_S1024x256_S256x2048_S1024x2048_1_0_0_1_n_n.rhsIdx i q 0).val = (q ⟨0, by decide⟩).val :=
  dot_S1024x256_S256x2048_S1024x2048_1_0_0_1_n_n.rhsIdx_val_of_single rfl i q
/-- At output entry (r, n) and contracted column q the product reads its right operand in column n. -/
theorem rhsCol (i : S1024x2048.Idx) (q : dot_S1024x256_S256x2048_S1024x2048_1_0_0_1_n_n.contr.Idx) :
    (dot_S1024x256_S256x2048_S1024x2048_1_0_0_1_n_n.rhsIdx i q 1).val = (i 1).val := by
  unfold DotDims.rhsIdx
  rw [dif_neg (show ¬(1 : Fin S256x2048.rank) ∈ dot_S1024x256_S256x2048_S1024x2048_1_0_0_1_n_n.rhsBatch by decide),
    dif_pos (show (1 : Fin S256x2048.rank) ∈ dot_S1024x256_S256x2048_S1024x2048_1_0_0_1_n_n.rhsNonContracting by decide)]
  rfl

/-- The product of a 1024 × 256 block and a 256 × 2048 block into a zero accumulator reads, at (r, n), the sum over the
    256 contracted columns; the change of format on the way in is the identity. -/
theorem blockProduct_apply (a : FVec Ideal S1024x256 .f32) (b : FVec Ideal S256x2048 .f32)
    (ha : FTy.bf16.bits < FTy.f32.bits) (hb : FTy.bf16.bits < FTy.f32.bits) (r : Fin 1024) (n : Fin 2048) :
    matmul dot_S1024x256_S256x2048_S1024x2048_1_0_0_1_n_n none (truncf .bf16 a ha) (truncf .bf16 b hb)
        (constant S1024x2048 .f32 0x00000000#32) (ix2 r n)
      = ∑ j : Fin 256, a (ix2 r j) * b (ix2 j n) := by
  refine (Ideal.matmul_constant_zero_apply dot_S1024x256_S256x2048_S1024x2048_1_0_0_1_n_n none _ _ (ix2 r n)).trans ?_
  rw [← Equiv.sum_comp (contrEquiv1 dot_S1024x256_S256x2048_S1024x2048_1_0_0_1_n_n 256 rfl rfl).symm]
  refine Finset.sum_congr rfl fun k _ => ?_
  have hk := contrEquiv1_symm_val dot_S1024x256_S256x2048_S1024x2048_1_0_0_1_n_n 256 rfl rfl k
  have el : dot_S1024x256_S256x2048_S1024x2048_1_0_0_1_n_n.lhsIdx (ix2 r n)
      ((contrEquiv1 dot_S1024x256_S256x2048_S1024x2048_1_0_0_1_n_n 256 rfl rfl).symm k) = ix2 r k := funext fun ax => Fin.ext (by
    match ax with
    | ⟨0, _⟩ => exact lhsRow _ _
    | ⟨1, _⟩ => exact (lhsCol _ _).trans hk)
  have er : dot_S1024x256_S256x2048_S1024x2048_1_0_0_1_n_n.rhsIdx (ix2 r n)
      ((contrEquiv1 dot_S1024x256_S256x2048_S1024x2048_1_0_0_1_n_n 256 rfl rfl).symm k) = ix2 k n := funext fun ax => Fin.ext (by
    match ax with
    | ⟨0, _⟩ => exact (rhsRow _ _).trans hk
    | ⟨1, _⟩ => exact rhsCol _ _)
  rw [el, er]
  rfl

/-! ## What the body stores into the accumulator -/

/-- The clearing store: zero everywhere. -/
theorem pay1_apply (r : Fin 1024) (n : Fin 2048) : k0_pay1 (F := Ideal) (ix2 r n) = 0 := by
  unfold k0_pay1
  refine (congrFun (shapeCast_self _ _) _).trans ?_
  exact Ideal.ofBits_zero_f32

/-- The first adding store: the accumulator plus the product of the blocks of h and W_h. -/
theorem pay2_apply (a : Vec Ideal S1024x256 .f32) (b : Vec Ideal S256x2048 .f32) (acc : Vec Ideal S1024x2048 .f32)
    (r : Fin 1024) (n : Fin 2048) :
    k0_pay2 (F := Ideal) a b acc (ix2 r n) = acc (ix2 r n) + ∑ j : Fin 256, a (ix2 r j) * b (ix2 j n) := by
  unfold k0_pay2
  refine (congrFun (shapeCast_self _ _) _).trans ?_
  exact congrArg (acc (ix2 r n) + ·) (blockProduct_apply a b _ _ r n)

/-- The second adding store: the accumulator plus the product of the blocks of x and W_x. -/
theorem pay3_apply (a : Vec Ideal S1024x256 .f32) (b : Vec Ideal S256x2048 .f32) (acc : Vec Ideal S1024x2048 .f32)
    (r : Fin 1024) (n : Fin 2048) :
    k0_pay3 (F := Ideal) a b acc (ix2 r n) = acc (ix2 r n) + ∑ j : Fin 256, a (ix2 r j) * b (ix2 j n) := by
  unfold k0_pay3
  refine (congrFun (shapeCast_self _ _) _).trans ?_
  exact congrArg (acc (ix2 r n) + ·) (blockProduct_apply a b _ _ r n)

/-! ## What the body stores into the output block -/

/-- The elementwise operations that have no library lemma of their own, read at an entry. -/
theorem rsqrt_apply {s : Shape} (x : FVec Ideal s .f32) (i : s.Idx) : rsqrt x i = Ideal.rsqrt (x i) := rfl
theorem logistic_apply {s : Shape} (x : FVec Ideal s .f32) (i : s.Idx) : logistic x i = Ideal.logistic (x i) := rfl
theorem tanh_apply {s : Shape} (x : FVec Ideal s .f32) (i : s.Idx) : tanh x i = Ideal.tanh (x i) := rfl
theorem scalar_ofBits (w : BitVec 32) : (Scalar.ofBits .f32 w : Ideal .f32) = Ideal.ofBits .f32 w := rfl

/-- One row p of 2048 entries normalised with gain g and offset β: (p n − μ) · rsqrt(σ² + ε) · g n + β n, with
    μ = (Σ p) / 2048 and σ² = (Σ (p − μ)²) / 2048. -/
def normRow (p g be : Cert.Spec.Vec) (n : Fin 2048) : EReal :=
  (p n - Ideal.div (∑ m : Fin 2048, p m) Cert.Spec.wN)
      * Ideal.rsqrt (Ideal.div (∑ m : Fin 2048, (p m - Ideal.div (∑ m : Fin 2048, p m) Cert.Spec.wN)
          * (p m - Ideal.div (∑ m : Fin 2048, p m) Cert.Spec.wN)) Cert.Spec.wN + Cert.Spec.wEps)
      * g n + be n

/-- Layer normalisation is row by row. -/
theorem layerNorm_row (P : Cert.Spec.Mat) (g be : Cert.Spec.Vec) (r n : Fin 2048) :
    Cert.Spec.layerNorm P g be r n = normRow (P r) g be n := rfl

/-- The store at k = 7: the logistic function of the normalised rows of (accumulator + b). -/
theorem pay4_apply (acc : Vec Ideal S1024x2048 .f32) (b g be : Vec Ideal S1x2048 .f32) (r : Fin 1024) (n : Fin 2048) :
    k0_pay4 (F := Ideal) acc b g be (ix2 r n)
      = Ideal.logistic (normRow (fun m => acc (ix2 r m) + b (ix2 (0 : Fin 1) m)) (fun m => g (ix2 (0 : Fin 1) m))
          (fun m => be (ix2 (0 : Fin 1) m)) n) := by
  unfold k0_pay4 normRow Cert.Spec.wN Cert.Spec.wEps
  simp only [logistic_apply, addf_apply, mulf_apply, subf_apply, divf_apply, rsqrt_apply, rowBroadcast_apply,
    colBroadcast_apply, column_apply, broadcast_apply, scalar_ofBits]
  rw [laneSum_apply, laneSum_apply]
  simp only [addf_apply, mulf_apply, subf_apply, divf_apply, rowBroadcast_apply, colBroadcast_apply, column_apply,
    broadcast_apply, scalar_ofBits]
  rw [laneSum_apply]
  simp only [addf_apply, rowBroadcast_apply]

end Cert.KernelIdeal.R0

end
-- ==== Proof.KI.R0.ValueSum.lean ====
/-
  The gate products of the idealized kernel, values, part two: a sum over 2048 columns taken eight blocks of 256 at a time.

  For u on the 2048 columns, Σ_{k < 8} Σ_{j < 256} u(256·k + j) = Σ_{n < 2048} u(n): the pair (k, j) ↦ 256·k + j is a bijection
  of {0..7} × {0..255} with {0..2047}, and a finite sum does not depend on how it is indexed.  Nothing is asked of the
  summands: the law holds in every commutative additive monoid, so on the extended reals at the infinities too.

  Hence the matrix product, one block of 256 contracted columns at a time: with
      term A B r n s = Σ_{j < 256} A(r, 256·s + j) · B(256·s + j, n)        (s < 8; zero beyond),
  Σ_{s < 8} term A B r n s = (A·B)(r, n).
-/
import proofs.«116394_j17480516895034_2_alg».proof.Proof.Spec

noncomputable section

namespace Cert.KernelIdeal.R0

open Idealize.ShloMosaic

/-- A sum over 2048 columns, eight blocks of 256 at a time. -/
theorem sum_blocks {M : Type*} [AddCommMonoid M] (u : Fin 2048 → M) :
    ∑ k : Fin 8, ∑ j : Fin 256, u ⟨256 * k.val + j.val, by omega⟩ = ∑ n : Fin 2048, u n := by
  have h := Equiv.sum_comp (finProdFinEquiv : Fin 8 × Fin 256 ≃ Fin (8 * 256)) u
  rw [Fintype.sum_prod_type] at h
  rw [← h]
  refine Finset.sum_congr rfl fun k _ => Finset.sum_congr rfl fun j _ => congrArg u (Fin.ext ?_)
  show 256 * k.val + j.val = j.val + 256 * k.val
  omega

/-- Block s of the contraction of row r of A with column n of B: the 256 contracted columns 256·s …, zero for s ≥ 8. -/
def term (A B : Cert.Spec.Mat) (r n : Fin 2048) (s : ℕ) : EReal :=
  if h : s < 8 then ∑ j : Fin 256, A r ⟨256 * s + j.val, by omega⟩ * B ⟨256 * s + j.val, by omega⟩ n else 0

theorem term_of_lt (A B : Cert.Spec.Mat) (r n : Fin 2048) (s : ℕ) (h : s < 8) :
    term A B r n s = ∑ j : Fin 256, A r ⟨256 * s + j.val, by omega⟩ * B ⟨256 * s + j.val, by omega⟩ n := dif_pos h

/-- The eight blocks together are the matrix product. -/
theorem sum_term (A B : Cert.Spec.Mat) (r n : Fin 2048) :
    ∑ s ∈ Finset.range 8, term A B r n s = Cert.Spec.mm A B r n := by
  rw [Finset.sum_range]
  unfold Cert.Spec.mm
  rw [← sum_blocks fun k => A r k * B k n]
  exact Finset.sum_congr rfl fun s _ => term_of_lt A B r n s.val s.isLt

end Cert.KernelIdeal.R0

end
-- ==== Proof.KI.R0.ValueStep.lean ====
/-
  The gate products of the idealized kernel, values, part five: one point's two adding stores, at an entry.

  If the point's block of h reads row ρ of H at the columns 256·s … and its block of W_h reads the rows 256·s … of W_h — and
  likewise x and W_x —, the accumulator after the two stores is, at (r, n),
      previous(r, n) + (block s of (H·W_h)(ρ, n) + block s of (X·W_x)(ρ, n)).
  Only the associativity of + is used.
-/
import proofs.«116394_j17480516895034_2_alg».proof.Proof.KI.R0.ValuePay
import proofs.«116394_j17480516895034_2_alg».proof.Proof.KI.R0.ValueSum

set_option maxRecDepth 16384

noncomputable section

namespace Cert.KernelIdeal.R0

open Cert.KernelIdeal Cert.KernelIdeal.Gen
open Idealize.ShloMosaic Idealize.ShloMosaic.ValueIdx

/-- Both products' block s at row ρ and column n. -/
def both (H Wh X Wx : Cert.Spec.Mat) (ρ n : Fin 2048) (s : ℕ) : EReal := term H Wh ρ n s + term X Wx ρ n s

/-- The two adding stores of one point. -/
theorem step_apply (H Wh X Wx : Cert.Spec.Mat) (ρ : Fin 2048) (s : ℕ) (hs : s < 8)
    (a : Vec Ideal S1024x256 .f32) (b : Vec Ideal S256x2048 .f32) (a' : Vec Ideal S1024x256 .f32) (b' : Vec Ideal S256x2048 .f32)
    (acc : Vec Ideal S1024x2048 .f32) (r : Fin 1024) (n : Fin 2048)
    (ha : ∀ j : Fin 256, a (ix2 r j) = H ρ ⟨256 * s + j.val, by omega⟩)
    (hb : ∀ j : Fin 256, b (ix2 j n) = Wh ⟨256 * s + j.val, by omega⟩ n)
    (ha' : ∀ j : Fin 256, a' (ix2 r j) = X ρ ⟨256 * s + j.val, by omega⟩)
    (hb' : ∀ j : Fin 256, b' (ix2 j n) = Wx ⟨256 * s + j.val, by omega⟩ n) :
    k0_pay3 (F := Ideal) a' b' (k0_pay2 a b acc) (ix2 r n) = acc (ix2 r n) + both H Wh X Wx ρ n s := by
  rw [pay3_apply, pay2_apply, add_assoc]
  unfold both
  rw [term_of_lt _ _ _ _ _ hs, term_of_lt _ _ _ _ _ hs]
  simp only [ha, hb, ha', hb']

/-- The eight blocks of both products are the two matrix products. -/
theorem sum_both (H Wh X Wx : Cert.Spec.Mat) (ρ n : Fin 2048) :
    ∑ s ∈ Finset.range 8, both H Wh X Wx ρ n s = Cert.Spec.mm H Wh ρ n + Cert.Spec.mm X Wx ρ n := by
  unfold both
  rw [Finset.sum_add_distrib, sum_term, sum_term]

end Cert.KernelIdeal.R0

end
-- ==== Proof.KI.R0.Value.lean ====
/-
  The forget gate of the idealized kernel, values, part six: the array the region leaves.

  Position n of the sixteen is the point (i, k) = (n / 8, n mod 8).  By induction on n the accumulator after position n holds, at
  (r, q), the sum over the blocks s ≤ k of both products' block s at row 1024·i + r and column q: the clearing store starts it at
  zero, and every point adds its own block.  At k = 7 that is (H·W_h + X·W_x)(1024·i + r, q), the eight blocks of 256 columns
  regrouped into the 2048; the output block is then the logistic function of the normalised rows of that plus b, which is the gate
  at rows 1024·i … of the specification.  The two points with k = 7 write back the two row blocks, which cover the array.
  No entry is asked to be finite: only the regrouping of finite sums and the associativity of + are used.
-/
import proofs.«116394_j17480516895034_2_alg».proof.Proof.KI.R0.ValueBlk
import proofs.«116394_j17480516895034_2_alg».proof.Proof.KI.R0.ValueAcc
import proofs.«116394_j17480516895034_2_alg».proof.Proof.KI.R0.ValueStep

set_option maxRecDepth 16384

noncomputable section

namespace Cert.KernelIdeal.R0

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The arrays the region reads, by coordinates: h, W_h, x, W_x and the rows b, g, β. -/
abbrev Hm (c : Dev nD) : Cert.Spec.Mat := Cert.Spec.at2 (V c main_arg2)
abbrev Whm (c : Dev nD) : Cert.Spec.Mat := Cert.Spec.at2 (V c main_arg3)
abbrev Xm (c : Dev nD) : Cert.Spec.Mat := Cert.Spec.at2 (V c main_arg0)
abbrev Wxm (c : Dev nD) : Cert.Spec.Mat := Cert.Spec.at2 (V c main_arg7)
abbrev bv (c : Dev nD) : Cert.Spec.Vec := Cert.Spec.atRow (V c main_v0)
abbrev gv (c : Dev nD) : Cert.Spec.Vec := Cert.Spec.atRow (V c main_v1)
abbrev bev (c : Dev nD) : Cert.Spec.Vec := Cert.Spec.atRow (V c main_v2)

/-! ## One point -/

/-- The two adding stores at point t: block t mod 8 of both products, at the rows of row block t / 8. -/
theorem step_at (c : Dev nD) (t : Fin cfg0.N) (acc : Vec Ideal S1024x2048 .f32) (r : Fin 1024) (q : Fin 2048) :
    k0_pay3 (F := Ideal) (blockAt V c 2 t) (blockAt V c 3 t) (k0_pay2 (blockAt V c 0 t) (blockAt V c 1 t) acc) (ix2 r q)
      = acc (ix2 r q) + both (Hm V c) (Whm V c) (Xm V c) (Wxm V c) (rowOf t r) q (t.val % 8) := by
  have hs : t.val % 8 < 8 := Nat.mod_lt _ (by decide)
  have ha : ∀ j : Fin 256, (blockAt V c 0 t : Vec Ideal S1024x256 .f32) (ix2 r j)
      = Hm V c (rowOf t r) ⟨256 * (t.val % 8) + j.val, by omega⟩ := fun j => blockAt_h V c t r j
  have hb : ∀ j : Fin 256, (blockAt V c 1 t : Vec Ideal S256x2048 .f32) (ix2 j q)
      = Whm V c ⟨256 * (t.val % 8) + j.val, by omega⟩ q := fun j => blockAt_wh V c t j q
  have ha' : ∀ j : Fin 256, (blockAt V c 2 t : Vec Ideal S1024x256 .f32) (ix2 r j)
      = Xm V c (rowOf t r) ⟨256 * (t.val % 8) + j.val, by omega⟩ := fun j => blockAt_x V c t r j
  have hb' : ∀ j : Fin 256, (blockAt V c 3 t : Vec Ideal S256x2048 .f32) (ix2 j q)
      = Wxm V c ⟨256 * (t.val % 8) + j.val, by omega⟩ q := fun j => blockAt_wx V c t j q
  exact step_apply (Hm V c) (Whm V c) (Xm V c) (Wxm V c) (rowOf t r) (t.val % 8) hs (blockAt V c 0 t) (blockAt V c 1 t) (blockAt V c 2 t)
    (blockAt V c 3 t) acc r q ha hb ha' hb'

/-- After a point with k = 0 the accumulator holds block 0 of both products. -/
theorem acc_first (c : Dev nD) (t : Fin cfg0.N) (h0 : t.val % 8 = 0) (r : Fin 1024) (q : Fin 2048) :
    (heldAt V c t.val t.isLt).2 (ix2 r q) = both (Hm V c) (Whm V c) (Xm V c) (Wxm V c) (rowOf t r) q (t.val % 8) := by
  have h7 : ¬t.val % 8 = 7 := by omega
  rw [heldAt_first V c t h0 h7]
  dsimp only
  rw [accFirst_eq, step_at V c t (k0_pay1 (F := Ideal)) r q, pay1_apply, zero_add]

/-- After a later point the accumulator holds what the point before left plus this point's block of both products. -/
theorem acc_succ (c : Dev nD) (n : ℕ) (hn : n + 1 < cfg0.N) (h0 : ¬(n + 1) % 8 = 0) (r : Fin 1024) (q : Fin 2048) :
    (heldAt V c (n + 1) hn).2 (ix2 r q)
      = (heldAt V c n (Nat.lt_of_succ_lt hn)).2 (ix2 r q) + both (Hm V c) (Whm V c) (Xm V c) (Wxm V c) (rowOf ⟨n + 1, hn⟩ r) q ((n + 1) % 8) := by
  by_cases h7 : (n + 1) % 8 = 7
  · rw [heldAt_last V c ⟨n + 1, hn⟩ h0 h7]
    dsimp only
    rw [accLast_eq]
    exact step_at V c ⟨n + 1, hn⟩ (heldAt V c n (Nat.lt_of_succ_lt hn)).2 r q
  · rw [heldAt_mid V c ⟨n + 1, hn⟩ h0 h7]
    dsimp only
    rw [accMid_eq]
    exact step_at V c ⟨n + 1, hn⟩ (heldAt V c n (Nat.lt_of_succ_lt hn)).2 r q

/-! ## The accumulator, position by position -/

/-- After position n the accumulator holds the blocks 0 … n mod 8 of both products, at the rows of row block n / 8. -/
theorem acc_apply (c : Dev nD) : ∀ (n : ℕ) (hn : n < cfg0.N) (r : Fin 1024) (q : Fin 2048),
    (heldAt V c n hn).2 (ix2 r q) = ∑ s ∈ Finset.range (n % 8 + 1), both (Hm V c) (Whm V c) (Xm V c) (Wxm V c) (rowOf ⟨n, hn⟩ r) q s
  | 0, hn, r, q => by
    rw [show 0 % 8 + 1 = 1 from rfl, Finset.sum_range_one]
    exact acc_first V c ⟨0, hn⟩ rfl r q
  | n + 1, hn, r, q => by
    by_cases h0 : (n + 1) % 8 = 0
    · rw [h0, Finset.sum_range_one]
      have e := acc_first V c ⟨n + 1, hn⟩ h0 r q
      rw [show (⟨n + 1, hn⟩ : Fin cfg0.N).val % 8 = 0 from h0] at e
      exact e
    · rw [acc_succ V c n hn h0 r q, acc_apply c n (Nat.lt_of_succ_lt hn) r q]
      have hrow : rowOf ⟨n, Nat.lt_of_succ_lt hn⟩ r = rowOf ⟨n + 1, hn⟩ r := Fin.ext (by
        show 1024 * (n / 8) + r.val = 1024 * ((n + 1) / 8) + r.val
        have : (n + 1) / 8 = n / 8 := by omega
        rw [this])
      have hk : (n + 1) % 8 + 1 = (n % 8 + 1) + 1 := by omega
      rw [hrow, hk, Finset.sum_range_succ _ (n % 8 + 1)]
      have hk' : n % 8 + 1 = (n + 1) % 8 := by omega
      rw [hk']

/-! ## The output block at k = 7 -/

/-- At k = 7 the output block is the last store's term of the accumulator the same point leaves. -/
theorem out_eq (c : Dev nD) (t : Fin cfg0.N) (h7 : t.val % 8 = 7) :
    (heldAt V c t.val t.isLt).1
      = k0_pay4 (F := Ideal) (heldAt V c t.val t.isLt).2 (blockAt V c 4 t) (blockAt V c 5 t) (blockAt V c 6 t) := by
  have h0 : ¬t.val % 8 = 0 := by omega
  rw [heldAt_last V c t h0 h7]
  dsimp only
  rw [outLast_eq, accLast_eq]

/-- At k = 7 the output block is the gate at the rows of row block t / 8. -/
theorem out_apply (c : Dev nD) (t : Fin cfg0.N) (h7 : t.val % 8 = 7) (r : Fin 1024) (q : Fin 2048) :
    (heldAt V c t.val t.isLt).1 (ix2 r q) = Cert.Spec.gateLogistic (Hm V c) (Whm V c) (Xm V c) (Wxm V c) (bv V c) (gv V c) (bev V c) (rowOf t r) q := by
  refine (congrFun (out_eq V c t h7) (ix2 r q)).trans ?_
  refine (pay4_apply (heldAt V c t.val t.isLt).2 (blockAt V c 4 t) (blockAt V c 5 t) (blockAt V c 6 t) r q).trans ?_
  unfold Cert.Spec.gateLogistic
  rw [layerNorm_row]
  have h8 : t.val % 8 + 1 = 8 := by omega
  have hp : (fun m : Fin 2048 => (heldAt V c t.val t.isLt).2 (ix2 r m) + (blockAt V c 4 t : Vec Ideal S1x2048 .f32) (ix2 (0 : Fin 1) m))
      = Cert.Spec.pre (Hm V c) (Whm V c) (Xm V c) (Wxm V c) (bv V c) (rowOf t r) := funext fun m => by
    rw [acc_apply V c t.val t.isLt r m, h8, sum_both, blockAt_b]
    rfl
  have hg : (fun m : Fin 2048 => (blockAt V c 5 t : Vec Ideal S1x2048 .f32) (ix2 (0 : Fin 1) m)) = gv V c :=
    funext fun m => blockAt_g V c t m
  have hbe : (fun m : Fin 2048 => (blockAt V c 6 t : Vec Ideal S1x2048 .f32) (ix2 (0 : Fin 1) m)) = bev V c :=
    funext fun m => blockAt_be V c t m
  rw [hp, hg, hbe]

/-! ## The array -/

/-- What a point with k = 7 writes back is its block of the gate. -/
theorem flushed_eq (c : Dev nD) (t : Fin cfg0.N) (hf : (cfg0.win 7).flush t = true) :
    (dat V c).flushed 7 t = ((cfg0.win 7).blk t).view.read (Elt Ideal) (Cert.Spec.of2 (Cert.Spec.gateLogistic (Hm V c) (Whm V c) (Xm V c) (Wxm V c) (bv V c) (gv V c) (bev V c))) := by
  have h7 : t.val % 8 = 7 := (flush0_7 t).mp hf
  funext y
  obtain ⟨r, q, rfl⟩ : ∃ (r : Fin 1024) (q : Fin 2048), y = ix2 r q := ⟨y 0, y 1, eq_ix2 y⟩
  show (cfg0.win 7).cut (grid0.coords t) ((dat V c).after 7 t) (ix2 r q) = _
  rw [after_out, View.read_apply]
  show (heldAt V c t.val t.isLt).1 (ix2 r q) = Cert.Spec.of2 (Cert.Spec.gateLogistic (Hm V c) (Whm V c) (Xm V c) (Wxm V c) (bv V c) (gv V c) (bev V c)) (((cfg0.win 7).blk t).view.emb (ix2 r q))
  rw [out_apply V c t h7 r q]
  unfold Cert.Spec.of2
  have e0 : ((((cfg0.win 7).blk t).view.emb (ix2 r q)) 0 : Fin 2048) = rowOf t r := Fin.ext (by
    show win0_7.index t 0 * 1024 + 1 * r.val = 1024 * (t.val / 8) + r.val
    rw [(index_out t).1]; omega)
  have e1 : ((((cfg0.win 7).blk t).view.emb (ix2 r q)) 1 : Fin 2048) = q := Fin.ext (by
    show win0_7.index t 1 * 2048 + 1 * q.val = q.val
    rw [(index_out t).2]; omega)
  rw [e0, e1]

/-- An entry of the array is in the output block of point t iff each coordinate is in the block's range. -/
theorem mem_blk (t : Fin cfg0.N) (i : S2048x2048.Idx) :
    i ∈ ((cfg0.win 7).blk t).view.set
      ↔ ∀ a : Fin 2, win0_7.index t a * S1024x2048.size a ≤ (i a).val ∧ (i a).val < win0_7.index t a * S1024x2048.size a + S1024x2048.size a := by
  show i ∈ ((View.whole main_v3).slice (win0_7.rect t)).set ↔ _
  rw [View.set_slice_whole, Rect.mem_set_unit]
  exact Iff.rfl

/-- Every entry of the array is in the output block of the point with k = 7 of its row block. -/
theorem cover (i : S2048x2048.Idx) : ∃ t : Fin cfg0.N, (cfg0.win 7).flush t = true ∧ i ∈ ((cfg0.win 7).blk t).view.set := by
  have hN : cfg0.N = 16 := N_0
  have hi0 : (i 0).val < 2048 := (i 0).isLt
  have hi1 : (i 1).val < 2048 := (i 1).isLt
  have ht : 8 * ((i 0).val / 1024) + 7 < cfg0.N := by omega
  refine ⟨⟨8 * ((i 0).val / 1024) + 7, ht⟩, (flush0_7 _).mpr (by show (8 * ((i 0).val / 1024) + 7) % 8 = 7; omega), ?_⟩
  rw [mem_blk]
  obtain ⟨q0, q1⟩ := index_out ⟨8 * ((i 0).val / 1024) + 7, ht⟩
  have q0' : win0_7.index ⟨8 * ((i 0).val / 1024) + 7, ht⟩ 0 = (8 * ((i 0).val / 1024) + 7) / 8 := q0
  intro a
  match a with
  | ⟨0, _⟩ =>
    show win0_7.index ⟨8 * ((i 0).val / 1024) + 7, ht⟩ 0 * 1024 ≤ (i 0).val
      ∧ (i 0).val < win0_7.index ⟨8 * ((i 0).val / 1024) + 7, ht⟩ 0 * 1024 + 1024
    omega
  | ⟨1, _⟩ =>
    show win0_7.index ⟨8 * ((i 0).val / 1024) + 7, ht⟩ 1 * 2048 ≤ (i 1).val
      ∧ (i 1).val < win0_7.index ⟨8 * ((i 0).val / 1024) + 7, ht⟩ 1 * 2048 + 2048
    omega

/-- The forget gate's array after the region: the logistic gate of the specification, of the arrays the region finds. -/
theorem final (c : Dev nD) :
    (dat V c).arrAt 7 cfg0.N = Cert.Spec.of2 (Cert.Spec.gateLogistic (Cert.Spec.at2 (V c main_arg2)) (Cert.Spec.at2 (V c main_arg3))
      (Cert.Spec.at2 (V c main_arg0)) (Cert.Spec.at2 (V c main_arg7)) (Cert.Spec.atRow (V c main_v0)) (Cert.Spec.atRow (V c main_v1))
      (Cert.Spec.atRow (V c main_v2))) :=
  (dat V c).arrAt_eq_of_cover 7 _ (flushed_eq V c) cover

end Cert.KernelIdeal.R0

end
-- ==== Proof.KI.R1.ValueBlk.lean ====
/-
  The candidate gate of the idealized kernel, values, part three: where a block's entries sit in its array.

  Point t of the 2 × 8 grid is (i, k) = (t / 8, t mod 8).  Entry (r, j) of the block of h (and of x) at t is entry
  (1024·i + r, 256·k + j) of the array; entry (j, n) of the block of W_h (and of W_x) is entry (256·k + j, n); the rows b, g, β
  are whole at every point; entry (r, n) of the output block is entry (1024·i + r, n).  A block's entry always sits, on each
  axis, at block index × block size + its own coordinate; the block indices are decided once over the sixteen points.
-/
import proofs.«116394_j17480516895034_2_alg».proof.Proof.KI.R1.Base
import proofs.«116394_j17480516895034_2_alg».proof.Proof.Spec
import Idealize.ShloMosaic.Lib.Pipeline.Value
import Idealize.ShloMosaic.Lib.ValueIdx

set_option maxRecDepth 16384

noncomputable section

namespace Cert.KernelIdeal.R1

open Cert.KernelIdeal Cert.KernelIdeal.Gen
open Idealize.ShloMosaic Idealize.ShloMosaic.TcCoe Idealize.ShloMosaic.ValueIdx
open Idealize.ShloMosaic.Pipeline (Dat Cfg Window)

variable {F : FTy → Type} [FloatOps F]

variable (V : (c : Dev nD) → (b : Ref sig .tc) → Buf (Elt F) ((c : Thread nD τ).loc b))

/-! ## The block indices over the sixteen points -/

theorem index_h : ∀ t : Fin cfg1.N, win1_0.index t 0 = t.val / 8 ∧ win1_0.index t 1 = t.val % 8 :=
  (by decide +kernel : ∀ t : Fin grid1.N, win1_0.index t 0 = t.val / 8 ∧ win1_0.index t 1 = t.val % 8)
theorem index_wh : ∀ t : Fin cfg1.N, win1_1.index t 0 = t.val % 8 ∧ win1_1.index t 1 = 0 :=
  (by decide +kernel : ∀ t : Fin grid1.N, win1_1.index t 0 = t.val % 8 ∧ win1_1.index t 1 = 0)
theorem index_x : ∀ t : Fin cfg1.N, win1_2.index t 0 = t.val / 8 ∧ win1_2.index t 1 = t.val % 8 :=
  (by decide +kernel : ∀ t : Fin grid1.N, win1_2.index t 0 = t.val / 8 ∧ win1_2.index t 1 = t.val % 8)
theorem index_wx : ∀ t : Fin cfg1.N, win1_3.index t 0 = t.val % 8 ∧ win1_3.index t 1 = 0 :=
  (by decide +kernel : ∀ t : Fin grid1.N, win1_3.index t 0 = t.val % 8 ∧ win1_3.index t 1 = 0)
theorem index_b : ∀ t : Fin cfg1.N, win1_4.index t 0 = 0 ∧ win1_4.index t 1 = 0 :=
  (by decide +kernel : ∀ t : Fin grid1.N, win1_4.index t 0 = 0 ∧ win1_4.index t 1 = 0)
theorem index_g : ∀ t : Fin cfg1.N, win1_5.index t 0 = 0 ∧ win1_5.index t 1 = 0 :=
  (by decide +kernel : ∀ t : Fin grid1.N, win1_5.index t 0 = 0 ∧ win1_5.index t 1 = 0)
theorem index_be : ∀ t : Fin cfg1.N, win1_6.index t 0 = 0 ∧ win1_6.index t 1 = 0 :=
  (by decide +kernel : ∀ t : Fin grid1.N, win1_6.index t 0 = 0 ∧ win1_6.index t 1 = 0)
theorem index_out : ∀ t : Fin cfg1.N, win1_7.index t 0 = t.val / 8 ∧ win1_7.index t 1 = 0 :=
  (by decide +kernel : ∀ t : Fin grid1.N, win1_7.index t 0 = t.val / 8 ∧ win1_7.index t 1 = 0)

/-- Row r of row block t / 8. -/
abbrev rowOf (t : Fin cfg1.N) (r : Fin 1024) : Fin 2048 :=
  ⟨1024 * (t.val / 8) + r.val, by have := t.isLt; have hN : cfg1.N = 16 := N_1; omega⟩
/-- Column j of contraction block t mod 8. -/
abbrev colOf (t : Fin cfg1.N) (j : Fin 256) : Fin 2048 := ⟨256 * (t.val % 8) + j.val, by omega⟩

/-! ## The blocks, entry by entry -/

theorem blockAt_h (c : Dev nD) (t : Fin cfg1.N) (r : Fin 1024) (j : Fin 256) :
    (blockAt V c 0 t : Vec F S1024x256 .f32) (ix2 r j) = V c main_arg2 (ix2 (rowOf t r) (colOf t j)) := by
  unfold blockAt
  rw [View.read_apply]
  show V c main_arg2 _ = V c main_arg2 _
  refine congrArg (V c main_arg2) (funext fun a => Fin.ext ?_)
  match a with
  | ⟨0, _⟩ =>
    show win1_0.index t 0 * 1024 + 1 * r.val = 1024 * (t.val / 8) + r.val
    rw [(index_h t).1]; omega
  | ⟨1, _⟩ =>
    show win1_0.index t 1 * 256 + 1 * j.val = 256 * (t.val % 8) + j.val
    rw [(index_h t).2]; omega

theorem blockAt_wh (c : Dev nD) (t : Fin cfg1.N) (j : Fin 256) (n : Fin 2048) :
    (blockAt V c 1 t : Vec F S256x2048 .f32) (ix2 j n) = V c main_arg4 (ix2 (colOf t j) n) := by
  unfold blockAt
  rw [View.read_apply]
  show V c main_arg4 _ = V c main_arg4 _
  refine congrArg (V c main_arg4) (funext fun a => Fin.ext ?_)
  match a with
  | ⟨0, _⟩ =>
    show win1_1.index t 0 * 256 + 1 * j.val = 256 * (t.val % 8) + j.val
    rw [(index_wh t).1]; omega
  | ⟨1, _⟩ =>
    show win1_1.index t 1 * 2048 + 1 * n.val = n.val
    rw [(index_wh t).2]; omega

theorem blockAt_x (c : Dev nD) (t : Fin cfg1.N) (r : Fin 1024) (j : Fin 256) :
    (blockAt V c 2 t : Vec F S1024x256 .f32) (ix2 r j) = V c main_arg0 (ix2 (rowOf t r) (colOf t j)) := by
  unfold blockAt
  rw [View.read_apply]
  show V c main_arg0 _ = V c main_arg0 _
  refine congrArg (V c main_arg0) (funext fun a => Fin.ext ?_)
  match a with
  | ⟨0, _⟩ =>
    show win1_2.index t 0 * 1024 + 1 * r.val = 1024 * (t.val / 8) + r.val
    rw [(index_x t).1]; omega
  | ⟨1, _⟩ =>
    show win1_2.index t 1 * 256 + 1 * j.val = 256 * (t.val % 8) + j.val
    rw [(index_x t).2]; omega

theorem blockAt_wx (c : Dev nD) (t : Fin cfg1.N) (j : Fin 256) (n : Fin 2048) :
    (blockAt V c 3 t : Vec F S256x2048 .f32) (ix2 j n) = V c main_arg8 (ix2 (colOf t j) n) := by
  unfold blockAt
  rw [View.read_apply]
  show V c main_arg8 _ = V c main_arg8 _
  refine congrArg (V c main_arg8) (funext fun a => Fin.ext ?_)
  match a with
  | ⟨0, _⟩ =>
    show win1_3.index t 0 * 256 + 1 * j.val = 256 * (t.val % 8) + j.val
    rw [(index_wx t).1]; omega
  | ⟨1, _⟩ =>
    show win1_3.index t 1 * 2048 + 1 * n.val = n.val
    rw [(index_wx t).2]; omega

theorem blockAt_b (c : Dev nD) (t : Fin cfg1.N) (n : Fin 2048) :
    (blockAt V c 4 t : Vec F S1x2048 .f32) (ix2 (0 : Fin 1) n) = V c main_v4 (ix2 (0 : Fin 1) n) := by
  unfold blockAt
  rw [View.read_apply]
  show V c main_v4 _ = V c main_v4 _
  refine congrArg (V c main_v4) (funext fun a => Fin.ext ?_)
  match a with
  | ⟨0, _⟩ =>
    show win1_4.index t 0 * 1 + 1 * 0 = 0
    rw [(index_b t).1]
  | ⟨1, _⟩ =>
    show win1_4.index t 1 * 2048 + 1 * n.val = n.val
    rw [(index_b t).2]; omega

theorem blockAt_g (c : Dev nD) (t : Fin cfg1.N) (n : Fin 2048) :
    (blockAt V c 5 t : Vec F S1x2048 .f32) (ix2 (0 : Fin 1) n) = V c main_v5 (ix2 (0 : Fin 1) n) := by
  unfold blockAt
  rw [View.read_apply]
  show V c main_v5 _ = V c main_v5 _
  refine congrArg (V c main_v5) (funext fun a => Fin.ext ?_)
  match a with
  | ⟨0, _⟩ =>
    show win1_5.index t 0 * 1 + 1 * 0 = 0
    rw [(index_g t).1]
  | ⟨1, _⟩ =>
    show win1_5.index t 1 * 2048 + 1 * n.val = n.val
    rw [(index_g t).2]; omega

theorem blockAt_be (c : Dev nD) (t : Fin cfg1.N) (n : Fin 2048) :
    (blockAt V c 6 t : Vec F S1x2048 .f32) (ix2 (0 : Fin 1) n) = V c main_v6 (ix2 (0 : Fin 1) n) := by
  unfold blockAt
  rw [View.read_apply]
  show V c main_v6 _ = V c main_v6 _
  refine congrArg (V c main_v6) (funext fun a => Fin.ext ?_)
  match a with
  | ⟨0, _⟩ =>
    show win1_6.index t 0 * 1 + 1 * 0 = 0
    rw [(index_be t).1]
  | ⟨1, _⟩ =>
    show win1_6.index t 1 * 2048 + 1 * n.val = n.val
    rw [(index_be t).2]; omega

end Cert.KernelIdeal.R1

end
-- ==== Proof.KI.R1.ValueAcc.lean ====
/-
  The candidate gate of the idealized kernel, values, part four: what each case of the body leaves, as the stored terms.

  The symbolic run of the body finds, case by case, the list of pieces stored.  Every store and every load goes through the
  whole buffer, so the accumulator ends at the last store's term and a load after a store reads that store's term:
    k = 0      accumulator = (0 + h-block · W_h-block) + x-block · W_x-block, the zero being the clearing store's;
    k > 0      accumulator = (previous + h-block · W_h-block) + x-block · W_x-block;
    k = 7      and the output block = the activation of the normalised rows of (that accumulator + b).
  Stated at any float instance, over the stored terms by name.
-/
import proofs.«116394_j17480516895034_2_alg».proof.Proof.KI.R1.Data
import Idealize.ShloMosaic.Lib.Pipeline.Value
import Idealize.ShloMosaic.Lib.ValueIdx

set_option maxRecDepth 16384

noncomputable section

namespace Cert.KernelIdeal.R1

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

/-- The zero offsets, spelt as the body spells them. -/
theorem hz2 : (![0, 0] : Fin 2 → Nat) = fun _ => 0 := funext fun a => by fin_cases a <;> rfl

/-- The accumulator after a point with k = 0. -/
theorem accFirst_eq (c : Dev nD) (i : grid1.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : atFirst i) (h7 : ¬atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) :
    accFirst c i arg2 harg2 arg3 harg3 arg4 harg4 arg5 harg5 arg6 harg6 arg7 harg7 arg8 harg8 arg9 harg9 arg10 harg10 h0 h7 xh xwh xx xwx xb xg xbe = k1_pay3 xx xwx (k1_pay2 xh xwh k1_pay1) := by
  unfold accFirst
  rw [View.read_writes_eq_canon _ _ _ (accCover_first c i arg2 harg2 arg3 harg3 arg4 harg4 arg5 harg5 arg6 harg6 arg7 harg7 arg8 harg8 arg9 harg9 arg10 harg10 h0 h7 xh xwh xx xwx xb xg xbe)]
  unfold runFirst
  dsimp only
  rw [View.canon_cons_unit_zero (S := S1024x2048) hz2]
  sl_unfold_words
  simp only [View.readCov_cons_toLoadRect, View.readAt_eq_ld, harg2.read_unread, harg3.read_unread, harg4.read_unread,
    harg5.read_unread, harg6.read_unread, harg7.read_unread, harg8.read_unread, harg10.read_unread,
    View.ld_unit_zero (S := S1024x256) hz2, View.ld_unit_zero (S := S256x2048) hz2, View.ld_unit_zero (S := S1024x2048) hz2,
    View.ld_unit_zero (S := S1x2048) hz2]

/-- The accumulator after a point with 0 < k < 7, from the accumulator at xa. -/
theorem accMid_eq (c : Dev nD) (i : grid1.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : ¬atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) :
    accMid c i arg2 harg2 arg3 harg3 arg4 harg4 arg5 harg5 arg6 harg6 arg7 harg7 arg8 harg8 arg9 harg9 arg10 harg10 h0 h7 xh xwh xx xwx xb xg xbe xa = k1_pay3 xx xwx (k1_pay2 xh xwh xa) := by
  unfold accMid
  rw [View.read_writes_eq_canon _ _ _ (accCover_mid c i arg2 harg2 arg3 harg3 arg4 harg4 arg5 harg5 arg6 harg6 arg7 harg7 arg8 harg8 arg9 harg9 arg10 harg10 h0 h7 xh xwh xx xwx xb xg xbe xa)]
  unfold runMid
  dsimp only
  rw [View.canon_cons_unit_zero (S := S1024x2048) hz2]
  sl_unfold_words
  simp only [View.readCov_cons_toLoadRect, View.readAt_eq_ld, harg2.read_unread, harg3.read_unread, harg4.read_unread,
    harg5.read_unread, harg6.read_unread, harg7.read_unread, harg8.read_unread, harg10.read_unread,
    View.ld_unit_zero (S := S1024x256) hz2, View.ld_unit_zero (S := S256x2048) hz2, View.ld_unit_zero (S := S1024x2048) hz2,
    View.ld_unit_zero (S := S1x2048) hz2]

/-- The accumulator after a point with k = 7, from the accumulator at xa. -/
theorem accLast_eq (c : Dev nD) (i : grid1.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) :
    accLast c i arg2 harg2 arg3 harg3 arg4 harg4 arg5 harg5 arg6 harg6 arg7 harg7 arg8 harg8 arg9 harg9 arg10 harg10 h0 h7 xh xwh xx xwx xb xg xbe xa = k1_pay3 xx xwx (k1_pay2 xh xwh xa) := by
  unfold accLast
  rw [View.read_writes_eq_canon _ _ _ (accCover_last c i arg2 harg2 arg3 harg3 arg4 harg4 arg5 harg5 arg6 harg6 arg7 harg7 arg8 harg8 arg9 harg9 arg10 harg10 h0 h7 xh xwh xx xwx xb xg xbe xa)]
  unfold runLast
  dsimp only
  sl_unfold_words
  rw [View.canon_cons_unit_zero (S := S1024x2048) hz2]
  simp only [View.readCov_cons_toLoadRect, View.readAt_eq_ld, harg2.read_unread, harg3.read_unread, harg4.read_unread,
    harg5.read_unread, harg6.read_unread, harg7.read_unread, harg8.read_unread, harg10.read_unread,
    View.ld_unit_zero (S := S1024x256) hz2, View.ld_unit_zero (S := S256x2048) hz2, View.ld_unit_zero (S := S1024x2048) hz2,
    View.ld_unit_zero (S := S1x2048) hz2]

/-- The output block after a point with k = 7, from the accumulator at xa. -/
theorem outLast_eq (c : Dev nD) (i : grid1.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) :
    outLast c i arg2 harg2 arg3 harg3 arg4 harg4 arg5 harg5 arg6 harg6 arg7 harg7 arg8 harg8 arg9 harg9 arg10 harg10 h0 h7 xh xwh xx xwx xb xg xbe xa = k1_pay4 (k1_pay3 xx xwx (k1_pay2 xh xwh xa)) xb xg xbe := by
  unfold outLast
  rw [View.read_writes_eq_canon _ _ _ (outCover_last c i arg2 harg2 arg3 harg3 arg4 harg4 arg5 harg5 arg6 harg6 arg7 harg7 arg8 harg8 arg9 harg9 arg10 harg10 h0 h7 xh xwh xx xwx xb xg xbe xa)]
  unfold runLast
  dsimp only
  rw [View.canon_unit_zero (S := S1024x2048) hz2]
  sl_unfold_words
  simp only [View.readCov_cons_toLoadRect, View.readAt_eq_ld, harg2.read_unread, harg3.read_unread, harg4.read_unread,
    harg5.read_unread, harg6.read_unread, harg7.read_unread, harg8.read_unread, harg10.read_unread,
    View.ld_unit_zero (S := S1024x256) hz2, View.ld_unit_zero (S := S256x2048) hz2, View.ld_unit_zero (S := S1024x2048) hz2,
    View.ld_unit_zero (S := S1x2048) hz2]

end Cert.KernelIdeal.R1

end
-- ==== Proof.KI.R1.ValuePay.lean ====
/-
  The candidate gate of the idealized kernel, values, part one: what its body stores, entry by entry, on the extended reals.

  The body is the forget gate's with other arrays and tanh in place of the logistic function: the stored terms are the same terms up to the activation, so each reads at an
  entry as the forget gate's does — zero; the accumulator plus the sum over the 256 contracted columns of the two blocks' products
  (twice); and the activation of the normalised row of (accumulator + b).
-/
import proofs.«116394_j17480516895034_2_alg».proof.Proof.KI.R0.ValuePay

set_option maxRecDepth 16384

noncomputable section

namespace Cert.KernelIdeal.R1

open Cert.KernelIdeal Cert.KernelIdeal.Gen
open Idealize.ShloMosaic Idealize.ShloMosaic.ValueIdx

/-- The clearing store: zero everywhere. -/
theorem pay1_apply (r : Fin 1024) (n : Fin 2048) : k1_pay1 (F := Ideal) (ix2 r n) = 0 := R0.pay1_apply r n

/-- The first adding store: the accumulator plus the product of the blocks of h and W_h. -/
theorem pay2_apply (a : Vec Ideal S1024x256 .f32) (b : Vec Ideal S256x2048 .f32) (acc : Vec Ideal S1024x2048 .f32)
    (r : Fin 1024) (n : Fin 2048) :
    k1_pay2 (F := Ideal) a b acc (ix2 r n) = acc (ix2 r n) + ∑ j : Fin 256, a (ix2 r j) * b (ix2 j n) :=
  R0.pay2_apply a b acc r n

/-- The second adding store: the accumulator plus the product of the blocks of x and W_x. -/
theorem pay3_apply (a : Vec Ideal S1024x256 .f32) (b : Vec Ideal S256x2048 .f32) (acc : Vec Ideal S1024x2048 .f32)
    (r : Fin 1024) (n : Fin 2048) :
    k1_pay3 (F := Ideal) a b acc (ix2 r n) = acc (ix2 r n) + ∑ j : Fin 256, a (ix2 r j) * b (ix2 j n) :=
  R0.pay3_apply a b acc r n

/-- The store at k = 7: tanh of the normalised rows of (accumulator + b). -/
theorem pay4_apply (acc : Vec Ideal S1024x2048 .f32) (b g be : Vec Ideal S1x2048 .f32) (r : Fin 1024) (n : Fin 2048) :
    k1_pay4 (F := Ideal) acc b g be (ix2 r n)
      = Ideal.tanh (R0.normRow (fun m => acc (ix2 r m) + b (ix2 (0 : Fin 1) m)) (fun m => g (ix2 (0 : Fin 1) m))
          (fun m => be (ix2 (0 : Fin 1) m)) n) := by
  unfold k1_pay4 R0.normRow Cert.Spec.wN Cert.Spec.wEps
  simp only [R0.tanh_apply, addf_apply, mulf_apply, subf_apply, divf_apply, R0.rsqrt_apply, R0.rowBroadcast_apply,
    R0.colBroadcast_apply, R0.column_apply, broadcast_apply, R0.scalar_ofBits]
  rw [R0.laneSum_apply, R0.laneSum_apply]
  simp only [addf_apply, mulf_apply, subf_apply, divf_apply, R0.rowBroadcast_apply, R0.colBroadcast_apply, R0.column_apply,
    broadcast_apply, R0.scalar_ofBits]
  rw [R0.laneSum_apply]
  simp only [addf_apply, R0.rowBroadcast_apply]

end Cert.KernelIdeal.R1

end
-- ==== Proof.KI.R1.ValueStep.lean ====
/-
  The candidate gate of the idealized kernel, values, part two: one point's two adding stores, at an entry — the accumulator
  before them plus block s of both products, as for the forget gate.
-/
import proofs.«116394_j17480516895034_2_alg».proof.Proof.KI.R0.ValueStep
import proofs.«116394_j17480516895034_2_alg».proof.Proof.KI.R1.ValuePay

set_option maxRecDepth 16384

noncomputable section

namespace Cert.KernelIdeal.R1

open Cert.KernelIdeal Cert.KernelIdeal.Gen
open Idealize.ShloMosaic Idealize.ShloMosaic.ValueIdx

/-- The two adding stores of one point. -/
theorem step_apply (H Wh X Wx : Cert.Spec.Mat) (ρ : Fin 2048) (s : ℕ) (hs : s < 8)
    (a : Vec Ideal S1024x256 .f32) (b : Vec Ideal S256x2048 .f32) (a' : Vec Ideal S1024x256 .f32) (b' : Vec Ideal S256x2048 .f32)
    (acc : Vec Ideal S1024x2048 .f32) (r : Fin 1024) (n : Fin 2048)
    (ha : ∀ j : Fin 256, a (ix2 r j) = H ρ ⟨256 * s + j.val, by omega⟩)
    (hb : ∀ j : Fin 256, b (ix2 j n) = Wh ⟨256 * s + j.val, by omega⟩ n)
    (ha' : ∀ j : Fin 256, a' (ix2 r j) = X ρ ⟨256 * s + j.val, by omega⟩)
    (hb' : ∀ j : Fin 256, b' (ix2 j n) = Wx ⟨256 * s + j.val, by omega⟩ n) :
    k1_pay3 (F := Ideal) a' b' (k1_pay2 a b acc) (ix2 r n) = acc (ix2 r n) + R0.both H Wh X Wx ρ n s :=
  R0.step_apply H Wh X Wx ρ s hs a b a' b' acc r n ha hb ha' hb'

end Cert.KernelIdeal.R1

end
-- ==== Proof.KI.R1.Value.lean ====
/-
  The candidate gate of the idealized kernel, values, part six: the array the region leaves.

  Position n of the sixteen is the point (i, k) = (n / 8, n mod 8).  By induction on n the accumulator after position n holds, at
  (r, q), the sum over the blocks s ≤ k of both products' block s at row 1024·i + r and column q: the clearing store starts it at
  zero, and every point adds its own block.  At k = 7 that is (H·W_h + X·W_x)(1024·i + r, q), the eight blocks of 256 columns
  regrouped into the 2048; the output block is then tanh of the normalised rows of that plus b, which is the gate
  at rows 1024·i … of the specification.  The two points with k = 7 write back the two row blocks, which cover the array.
  No entry is asked to be finite: only the regrouping of finite sums and the associativity of + are used.
-/
import proofs.«116394_j17480516895034_2_alg».proof.Proof.KI.R1.ValueBlk
import proofs.«116394_j17480516895034_2_alg».proof.Proof.KI.R1.ValueAcc
import proofs.«116394_j17480516895034_2_alg».proof.Proof.KI.R1.ValueStep

set_option maxRecDepth 16384

noncomputable section

namespace Cert.KernelIdeal.R1

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The arrays the region reads, by coordinates: h, W_h, x, W_x and the rows b, g, β. -/
abbrev Hm (c : Dev nD) : Cert.Spec.Mat := Cert.Spec.at2 (V c main_arg2)
abbrev Whm (c : Dev nD) : Cert.Spec.Mat := Cert.Spec.at2 (V c main_arg4)
abbrev Xm (c : Dev nD) : Cert.Spec.Mat := Cert.Spec.at2 (V c main_arg0)
abbrev Wxm (c : Dev nD) : Cert.Spec.Mat := Cert.Spec.at2 (V c main_arg8)
abbrev bv (c : Dev nD) : Cert.Spec.Vec := Cert.Spec.atRow (V c main_v4)
abbrev gv (c : Dev nD) : Cert.Spec.Vec := Cert.Spec.atRow (V c main_v5)
abbrev bev (c : Dev nD) : Cert.Spec.Vec := Cert.Spec.atRow (V c main_v6)

/-! ## One point -/

/-- The two adding stores at point t: block t mod 8 of both products, at the rows of row block t / 8. -/
theorem step_at (c : Dev nD) (t : Fin cfg1.N) (acc : Vec Ideal S1024x2048 .f32) (r : Fin 1024) (q : Fin 2048) :
    k1_pay3 (F := Ideal) (blockAt V c 2 t) (blockAt V c 3 t) (k1_pay2 (blockAt V c 0 t) (blockAt V c 1 t) acc) (ix2 r q)
      = acc (ix2 r q) + R0.both (Hm V c) (Whm V c) (Xm V c) (Wxm V c) (rowOf t r) q (t.val % 8) := by
  have hs : t.val % 8 < 8 := Nat.mod_lt _ (by decide)
  have ha : ∀ j : Fin 256, (blockAt V c 0 t : Vec Ideal S1024x256 .f32) (ix2 r j)
      = Hm V c (rowOf t r) ⟨256 * (t.val % 8) + j.val, by omega⟩ := fun j => blockAt_h V c t r j
  have hb : ∀ j : Fin 256, (blockAt V c 1 t : Vec Ideal S256x2048 .f32) (ix2 j q)
      = Whm V c ⟨256 * (t.val % 8) + j.val, by omega⟩ q := fun j => blockAt_wh V c t j q
  have ha' : ∀ j : Fin 256, (blockAt V c 2 t : Vec Ideal S1024x256 .f32) (ix2 r j)
      = Xm V c (rowOf t r) ⟨256 * (t.val % 8) + j.val, by omega⟩ := fun j => blockAt_x V c t r j
  have hb' : ∀ j : Fin 256, (blockAt V c 3 t : Vec Ideal S256x2048 .f32) (ix2 j q)
      = Wxm V c ⟨256 * (t.val % 8) + j.val, by omega⟩ q := fun j => blockAt_wx V c t j q
  exact step_apply (Hm V c) (Whm V c) (Xm V c) (Wxm V c) (rowOf t r) (t.val % 8) hs (blockAt V c 0 t) (blockAt V c 1 t) (blockAt V c 2 t)
    (blockAt V c 3 t) acc r q ha hb ha' hb'

/-- After a point with k = 0 the accumulator holds block 0 of both products. -/
theorem acc_first (c : Dev nD) (t : Fin cfg1.N) (h0 : t.val % 8 = 0) (r : Fin 1024) (q : Fin 2048) :
    (heldAt V c t.val t.isLt).2 (ix2 r q) = R0.both (Hm V c) (Whm V c) (Xm V c) (Wxm V c) (rowOf t r) q (t.val % 8) := by
  have h7 : ¬t.val % 8 = 7 := by omega
  rw [heldAt_first V c t h0 h7]
  dsimp only
  rw [accFirst_eq, step_at V c t (k1_pay1 (F := Ideal)) r q, pay1_apply, zero_add]

/-- After a later point the accumulator holds what the point before left plus this point's block of both products. -/
theorem acc_succ (c : Dev nD) (n : ℕ) (hn : n + 1 < cfg1.N) (h0 : ¬(n + 1) % 8 = 0) (r : Fin 1024) (q : Fin 2048) :
    (heldAt V c (n + 1) hn).2 (ix2 r q)
      = (heldAt V c n (Nat.lt_of_succ_lt hn)).2 (ix2 r q) + R0.both (Hm V c) (Whm V c) (Xm V c) (Wxm V c) (rowOf ⟨n + 1, hn⟩ r) q ((n + 1) % 8) := by
  by_cases h7 : (n + 1) % 8 = 7
  · rw [heldAt_last V c ⟨n + 1, hn⟩ h0 h7]
    dsimp only
    rw [accLast_eq]
    exact step_at V c ⟨n + 1, hn⟩ (heldAt V c n (Nat.lt_of_succ_lt hn)).2 r q
  · rw [heldAt_mid V c ⟨n + 1, hn⟩ h0 h7]
    dsimp only
    rw [accMid_eq]
    exact step_at V c ⟨n + 1, hn⟩ (heldAt V c n (Nat.lt_of_succ_lt hn)).2 r q

/-! ## The accumulator, position by position -/

/-- After position n the accumulator holds the blocks 0 … n mod 8 of both products, at the rows of row block n / 8. -/
theorem acc_apply (c : Dev nD) : ∀ (n : ℕ) (hn : n < cfg1.N) (r : Fin 1024) (q : Fin 2048),
    (heldAt V c n hn).2 (ix2 r q) = ∑ s ∈ Finset.range (n % 8 + 1), R0.both (Hm V c) (Whm V c) (Xm V c) (Wxm V c) (rowOf ⟨n, hn⟩ r) q s
  | 0, hn, r, q => by
    rw [show 0 % 8 + 1 = 1 from rfl, Finset.sum_range_one]
    exact acc_first V c ⟨0, hn⟩ rfl r q
  | n + 1, hn, r, q => by
    by_cases h0 : (n + 1) % 8 = 0
    · rw [h0, Finset.sum_range_one]
      have e := acc_first V c ⟨n + 1, hn⟩ h0 r q
      rw [show (⟨n + 1, hn⟩ : Fin cfg1.N).val % 8 = 0 from h0] at e
      exact e
    · rw [acc_succ V c n hn h0 r q, acc_apply c n (Nat.lt_of_succ_lt hn) r q]
      have hrow : rowOf ⟨n, Nat.lt_of_succ_lt hn⟩ r = rowOf ⟨n + 1, hn⟩ r := Fin.ext (by
        show 1024 * (n / 8) + r.val = 1024 * ((n + 1) / 8) + r.val
        have : (n + 1) / 8 = n / 8 := by omega
        rw [this])
      have hk : (n + 1) % 8 + 1 = (n % 8 + 1) + 1 := by omega
      rw [hrow, hk, Finset.sum_range_succ _ (n % 8 + 1)]
      have hk' : n % 8 + 1 = (n + 1) % 8 := by omega
      rw [hk']

/-! ## The output block at k = 7 -/

/-- At k = 7 the output block is the last store's term of the accumulator the same point leaves. -/
theorem out_eq (c : Dev nD) (t : Fin cfg1.N) (h7 : t.val % 8 = 7) :
    (heldAt V c t.val t.isLt).1
      = k1_pay4 (F := Ideal) (heldAt V c t.val t.isLt).2 (blockAt V c 4 t) (blockAt V c 5 t) (blockAt V c 6 t) := by
  have h0 : ¬t.val % 8 = 0 := by omega
  rw [heldAt_last V c t h0 h7]
  dsimp only
  rw [outLast_eq, accLast_eq]

/-- At k = 7 the output block is the gate at the rows of row block t / 8. -/
theorem out_apply (c : Dev nD) (t : Fin cfg1.N) (h7 : t.val % 8 = 7) (r : Fin 1024) (q : Fin 2048) :
    (heldAt V c t.val t.isLt).1 (ix2 r q) = Cert.Spec.gateTanh (Hm V c) (Whm V c) (Xm V c) (Wxm V c) (bv V c) (gv V c) (bev V c) (rowOf t r) q := by
  refine (congrFun (out_eq V c t h7) (ix2 r q)).trans ?_
  refine (pay4_apply (heldAt V c t.val t.isLt).2 (blockAt V c 4 t) (blockAt V c 5 t) (blockAt V c 6 t) r q).trans ?_
  unfold Cert.Spec.gateTanh
  rw [R0.layerNorm_row]
  have h8 : t.val % 8 + 1 = 8 := by omega
  have hp : (fun m : Fin 2048 => (heldAt V c t.val t.isLt).2 (ix2 r m) + (blockAt V c 4 t : Vec Ideal S1x2048 .f32) (ix2 (0 : Fin 1) m))
      = Cert.Spec.pre (Hm V c) (Whm V c) (Xm V c) (Wxm V c) (bv V c) (rowOf t r) := funext fun m => by
    rw [acc_apply V c t.val t.isLt r m, h8, R0.sum_both, blockAt_b]
    rfl
  have hg : (fun m : Fin 2048 => (blockAt V c 5 t : Vec Ideal S1x2048 .f32) (ix2 (0 : Fin 1) m)) = gv V c :=
    funext fun m => blockAt_g V c t m
  have hbe : (fun m : Fin 2048 => (blockAt V c 6 t : Vec Ideal S1x2048 .f32) (ix2 (0 : Fin 1) m)) = bev V c :=
    funext fun m => blockAt_be V c t m
  rw [hp, hg, hbe]

/-! ## The array -/

/-- What a point with k = 7 writes back is its block of the gate. -/
theorem flushed_eq (c : Dev nD) (t : Fin cfg1.N) (hf : (cfg1.win 7).flush t = true) :
    (dat V c).flushed 7 t = ((cfg1.win 7).blk t).view.read (Elt Ideal) (Cert.Spec.of2 (Cert.Spec.gateTanh (Hm V c) (Whm V c) (Xm V c) (Wxm V c) (bv V c) (gv V c) (bev V c))) := by
  have h7 : t.val % 8 = 7 := (flush1_7 t).mp hf
  funext y
  obtain ⟨r, q, rfl⟩ : ∃ (r : Fin 1024) (q : Fin 2048), y = ix2 r q := ⟨y 0, y 1, eq_ix2 y⟩
  show (cfg1.win 7).cut (grid1.coords t) ((dat V c).after 7 t) (ix2 r q) = _
  rw [after_out, View.read_apply]
  show (heldAt V c t.val t.isLt).1 (ix2 r q) = Cert.Spec.of2 (Cert.Spec.gateTanh (Hm V c) (Whm V c) (Xm V c) (Wxm V c) (bv V c) (gv V c) (bev V c)) (((cfg1.win 7).blk t).view.emb (ix2 r q))
  rw [out_apply V c t h7 r q]
  unfold Cert.Spec.of2
  have e0 : ((((cfg1.win 7).blk t).view.emb (ix2 r q)) 0 : Fin 2048) = rowOf t r := Fin.ext (by
    show win1_7.index t 0 * 1024 + 1 * r.val = 1024 * (t.val / 8) + r.val
    rw [(index_out t).1]; omega)
  have e1 : ((((cfg1.win 7).blk t).view.emb (ix2 r q)) 1 : Fin 2048) = q := Fin.ext (by
    show win1_7.index t 1 * 2048 + 1 * q.val = q.val
    rw [(index_out t).2]; omega)
  rw [e0, e1]

/-- An entry of the array is in the output block of point t iff each coordinate is in the block's range. -/
theorem mem_blk (t : Fin cfg1.N) (i : S2048x2048.Idx) :
    i ∈ ((cfg1.win 7).blk t).view.set
      ↔ ∀ a : Fin 2, win1_7.index t a * S1024x2048.size a ≤ (i a).val ∧ (i a).val < win1_7.index t a * S1024x2048.size a + S1024x2048.size a := by
  show i ∈ ((View.whole main_v7).slice (win1_7.rect t)).set ↔ _
  rw [View.set_slice_whole, Rect.mem_set_unit]
  exact Iff.rfl

/-- Every entry of the array is in the output block of the point with k = 7 of its row block. -/
theorem cover (i : S2048x2048.Idx) : ∃ t : Fin cfg1.N, (cfg1.win 7).flush t = true ∧ i ∈ ((cfg1.win 7).blk t).view.set := by
  have hN : cfg1.N = 16 := N_1
  have hi0 : (i 0).val < 2048 := (i 0).isLt
  have hi1 : (i 1).val < 2048 := (i 1).isLt
  have ht : 8 * ((i 0).val / 1024) + 7 < cfg1.N := by omega
  refine ⟨⟨8 * ((i 0).val / 1024) + 7, ht⟩, (flush1_7 _).mpr (by show (8 * ((i 0).val / 1024) + 7) % 8 = 7; omega), ?_⟩
  rw [mem_blk]
  obtain ⟨q0, q1⟩ := index_out ⟨8 * ((i 0).val / 1024) + 7, ht⟩
  have q0' : win1_7.index ⟨8 * ((i 0).val / 1024) + 7, ht⟩ 0 = (8 * ((i 0).val / 1024) + 7) / 8 := q0
  intro a
  match a with
  | ⟨0, _⟩ =>
    show win1_7.index ⟨8 * ((i 0).val / 1024) + 7, ht⟩ 0 * 1024 ≤ (i 0).val
      ∧ (i 0).val < win1_7.index ⟨8 * ((i 0).val / 1024) + 7, ht⟩ 0 * 1024 + 1024
    omega
  | ⟨1, _⟩ =>
    show win1_7.index ⟨8 * ((i 0).val / 1024) + 7, ht⟩ 1 * 2048 ≤ (i 1).val
      ∧ (i 1).val < win1_7.index ⟨8 * ((i 0).val / 1024) + 7, ht⟩ 1 * 2048 + 2048
    omega

/-- The candidate gate's array after the region: the tanh gate of the specification, of the arrays the region finds. -/
theorem final (c : Dev nD) :
    (dat V c).arrAt 7 cfg1.N = Cert.Spec.of2 (Cert.Spec.gateTanh (Cert.Spec.at2 (V c main_arg2)) (Cert.Spec.at2 (V c main_arg4))
      (Cert.Spec.at2 (V c main_arg0)) (Cert.Spec.at2 (V c main_arg8)) (Cert.Spec.atRow (V c main_v4)) (Cert.Spec.atRow (V c main_v5))
      (Cert.Spec.atRow (V c main_v6))) :=
  (dat V c).arrAt_eq_of_cover 7 _ (flushed_eq V c) cover

end Cert.KernelIdeal.R1

end
-- ==== Proof.KI.R2.ValueBlk.lean ====
/-
  The input gate of the idealized kernel, values, part three: where a block's entries sit in its array.

  Point t of the 2 × 8 grid is (i, k) = (t / 8, t mod 8).  Entry (r, j) of the block of h (and of x) at t is entry
  (1024·i + r, 256·k + j) of the array; entry (j, n) of the block of W_h (and of W_x) is entry (256·k + j, n); the rows b, g, β
  are whole at every point; entry (r, n) of the output block is entry (1024·i + r, n).  A block's entry always sits, on each
  axis, at block index × block size + its own coordinate; the block indices are decided once over the sixteen points.
-/
import proofs.«116394_j17480516895034_2_alg».proof.Proof.KI.R2.Base
import proofs.«116394_j17480516895034_2_alg».proof.Proof.Spec
import Idealize.ShloMosaic.Lib.Pipeline.Value
import Idealize.ShloMosaic.Lib.ValueIdx

set_option maxRecDepth 16384

noncomputable section

namespace Cert.KernelIdeal.R2

open Cert.KernelIdeal Cert.KernelIdeal.Gen
open Idealize.ShloMosaic Idealize.ShloMosaic.TcCoe Idealize.ShloMosaic.ValueIdx
open Idealize.ShloMosaic.Pipeline (Dat Cfg Window)

variable {F : FTy → Type} [FloatOps F]

variable (V : (c : Dev nD) → (b : Ref sig .tc) → Buf (Elt F) ((c : Thread nD τ).loc b))

/-! ## The block indices over the sixteen points -/

theorem index_h : ∀ t : Fin cfg2.N, win2_0.index t 0 = t.val / 8 ∧ win2_0.index t 1 = t.val % 8 :=
  (by decide +kernel : ∀ t : Fin grid2.N, win2_0.index t 0 = t.val / 8 ∧ win2_0.index t 1 = t.val % 8)
theorem index_wh : ∀ t : Fin cfg2.N, win2_1.index t 0 = t.val % 8 ∧ win2_1.index t 1 = 0 :=
  (by decide +kernel : ∀ t : Fin grid2.N, win2_1.index t 0 = t.val % 8 ∧ win2_1.index t 1 = 0)
theorem index_x : ∀ t : Fin cfg2.N, win2_2.index t 0 = t.val / 8 ∧ win2_2.index t 1 = t.val % 8 :=
  (by decide +kernel : ∀ t : Fin grid2.N, win2_2.index t 0 = t.val / 8 ∧ win2_2.index t 1 = t.val % 8)
theorem index_wx : ∀ t : Fin cfg2.N, win2_3.index t 0 = t.val % 8 ∧ win2_3.index t 1 = 0 :=
  (by decide +kernel : ∀ t : Fin grid2.N, win2_3.index t 0 = t.val % 8 ∧ win2_3.index t 1 = 0)
theorem index_b : ∀ t : Fin cfg2.N, win2_4.index t 0 = 0 ∧ win2_4.index t 1 = 0 :=
  (by decide +kernel : ∀ t : Fin grid2.N, win2_4.index t 0 = 0 ∧ win2_4.index t 1 = 0)
theorem index_g : ∀ t : Fin cfg2.N, win2_5.index t 0 = 0 ∧ win2_5.index t 1 = 0 :=
  (by decide +kernel : ∀ t : Fin grid2.N, win2_5.index t 0 = 0 ∧ win2_5.index t 1 = 0)
theorem index_be : ∀ t : Fin cfg2.N, win2_6.index t 0 = 0 ∧ win2_6.index t 1 = 0 :=
  (by decide +kernel : ∀ t : Fin grid2.N, win2_6.index t 0 = 0 ∧ win2_6.index t 1 = 0)
theorem index_out : ∀ t : Fin cfg2.N, win2_7.index t 0 = t.val / 8 ∧ win2_7.index t 1 = 0 :=
  (by decide +kernel : ∀ t : Fin grid2.N, win2_7.index t 0 = t.val / 8 ∧ win2_7.index t 1 = 0)

/-- Row r of row block t / 8. -/
abbrev rowOf (t : Fin cfg2.N) (r : Fin 1024) : Fin 2048 :=
  ⟨1024 * (t.val / 8) + r.val, by have := t.isLt; have hN : cfg2.N = 16 := N_2; omega⟩
/-- Column j of contraction block t mod 8. -/
abbrev colOf (t : Fin cfg2.N) (j : Fin 256) : Fin 2048 := ⟨256 * (t.val % 8) + j.val, by omega⟩

/-! ## The blocks, entry by entry -/

theorem blockAt_h (c : Dev nD) (t : Fin cfg2.N) (r : Fin 1024) (j : Fin 256) :
    (blockAt V c 0 t : Vec F S1024x256 .f32) (ix2 r j) = V c main_arg2 (ix2 (rowOf t r) (colOf t j)) := by
  unfold blockAt
  rw [View.read_apply]
  show V c main_arg2 _ = V c main_arg2 _
  refine congrArg (V c main_arg2) (funext fun a => Fin.ext ?_)
  match a with
  | ⟨0, _⟩ =>
    show win2_0.index t 0 * 1024 + 1 * r.val = 1024 * (t.val / 8) + r.val
    rw [(index_h t).1]; omega
  | ⟨1, _⟩ =>
    show win2_0.index t 1 * 256 + 1 * j.val = 256 * (t.val % 8) + j.val
    rw [(index_h t).2]; omega

theorem blockAt_wh (c : Dev nD) (t : Fin cfg2.N) (j : Fin 256) (n : Fin 2048) :
    (blockAt V c 1 t : Vec F S256x2048 .f32) (ix2 j n) = V c main_arg5 (ix2 (colOf t j) n) := by
  unfold blockAt
  rw [View.read_apply]
  show V c main_arg5 _ = V c main_arg5 _
  refine congrArg (V c main_arg5) (funext fun a => Fin.ext ?_)
  match a with
  | ⟨0, _⟩ =>
    show win2_1.index t 0 * 256 + 1 * j.val = 256 * (t.val % 8) + j.val
    rw [(index_wh t).1]; omega
  | ⟨1, _⟩ =>
    show win2_1.index t 1 * 2048 + 1 * n.val = n.val
    rw [(index_wh t).2]; omega

theorem blockAt_x (c : Dev nD) (t : Fin cfg2.N) (r : Fin 1024) (j : Fin 256) :
    (blockAt V c 2 t : Vec F S1024x256 .f32) (ix2 r j) = V c main_arg0 (ix2 (rowOf t r) (colOf t j)) := by
  unfold blockAt
  rw [View.read_apply]
  show V c main_arg0 _ = V c main_arg0 _
  refine congrArg (V c main_arg0) (funext fun a => Fin.ext ?_)
  match a with
  | ⟨0, _⟩ =>
    show win2_2.index t 0 * 1024 + 1 * r.val = 1024 * (t.val / 8) + r.val
    rw [(index_x t).1]; omega
  | ⟨1, _⟩ =>
    show win2_2.index t 1 * 256 + 1 * j.val = 256 * (t.val % 8) + j.val
    rw [(index_x t).2]; omega

theorem blockAt_wx (c : Dev nD) (t : Fin cfg2.N) (j : Fin 256) (n : Fin 2048) :
    (blockAt V c 3 t : Vec F S256x2048 .f32) (ix2 j n) = V c main_arg9 (ix2 (colOf t j) n) := by
  unfold blockAt
  rw [View.read_apply]
  show V c main_arg9 _ = V c main_arg9 _
  refine congrArg (V c main_arg9) (funext fun a => Fin.ext ?_)
  match a with
  | ⟨0, _⟩ =>
    show win2_3.index t 0 * 256 + 1 * j.val = 256 * (t.val % 8) + j.val
    rw [(index_wx t).1]; omega
  | ⟨1, _⟩ =>
    show win2_3.index t 1 * 2048 + 1 * n.val = n.val
    rw [(index_wx t).2]; omega

theorem blockAt_b (c : Dev nD) (t : Fin cfg2.N) (n : Fin 2048) :
    (blockAt V c 4 t : Vec F S1x2048 .f32) (ix2 (0 : Fin 1) n) = V c main_v8 (ix2 (0 : Fin 1) n) := by
  unfold blockAt
  rw [View.read_apply]
  show V c main_v8 _ = V c main_v8 _
  refine congrArg (V c main_v8) (funext fun a => Fin.ext ?_)
  match a with
  | ⟨0, _⟩ =>
    show win2_4.index t 0 * 1 + 1 * 0 = 0
    rw [(index_b t).1]
  | ⟨1, _⟩ =>
    show win2_4.index t 1 * 2048 + 1 * n.val = n.val
    rw [(index_b t).2]; omega

theorem blockAt_g (c : Dev nD) (t : Fin cfg2.N) (n : Fin 2048) :
    (blockAt V c 5 t : Vec F S1x2048 .f32) (ix2 (0 : Fin 1) n) = V c main_v9 (ix2 (0 : Fin 1) n) := by
  unfold blockAt
  rw [View.read_apply]
  show V c main_v9 _ = V c main_v9 _
  refine congrArg (V c main_v9) (funext fun a => Fin.ext ?_)
  match a with
  | ⟨0, _⟩ =>
    show win2_5.index t 0 * 1 + 1 * 0 = 0
    rw [(index_g t).1]
  | ⟨1, _⟩ =>
    show win2_5.index t 1 * 2048 + 1 * n.val = n.val
    rw [(index_g t).2]; omega

theorem blockAt_be (c : Dev nD) (t : Fin cfg2.N) (n : Fin 2048) :
    (blockAt V c 6 t : Vec F S1x2048 .f32) (ix2 (0 : Fin 1) n) = V c main_v10 (ix2 (0 : Fin 1) n) := by
  unfold blockAt
  rw [View.read_apply]
  show V c main_v10 _ = V c main_v10 _
  refine congrArg (V c main_v10) (funext fun a => Fin.ext ?_)
  match a with
  | ⟨0, _⟩ =>
    show win2_6.index t 0 * 1 + 1 * 0 = 0
    rw [(index_be t).1]
  | ⟨1, _⟩ =>
    show win2_6.index t 1 * 2048 + 1 * n.val = n.val
    rw [(index_be t).2]; omega

end Cert.KernelIdeal.R2

end
-- ==== Proof.KI.R2.ValueAcc.lean ====
/-
  The input gate of the idealized kernel, values, part four: what each case of the body leaves, as the stored terms.

  The symbolic run of the body finds, case by case, the list of pieces stored.  Every store and every load goes through the
  whole buffer, so the accumulator ends at the last store's term and a load after a store reads that store's term:
    k = 0      accumulator = (0 + h-block · W_h-block) + x-block · W_x-block, the zero being the clearing store's;
    k > 0      accumulator = (previous + h-block · W_h-block) + x-block · W_x-block;
    k = 7      and the output block = the activation of the normalised rows of (that accumulator + b).
  Stated at any float instance, over the stored terms by name.
-/
import proofs.«116394_j17480516895034_2_alg».proof.Proof.KI.R2.Data
import Idealize.ShloMosaic.Lib.Pipeline.Value
import Idealize.ShloMosaic.Lib.ValueIdx

set_option maxRecDepth 16384

noncomputable section

namespace Cert.KernelIdeal.R2

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

/-- The zero offsets, spelt as the body spells them. -/
theorem hz2 : (![0, 0] : Fin 2 → Nat) = fun _ => 0 := funext fun a => by fin_cases a <;> rfl

/-- The accumulator after a point with k = 0. -/
theorem accFirst_eq (c : Dev nD) (i : grid2.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : atFirst i) (h7 : ¬atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) :
    accFirst c i arg2 harg2 arg3 harg3 arg4 harg4 arg5 harg5 arg6 harg6 arg7 harg7 arg8 harg8 arg9 harg9 arg10 harg10 h0 h7 xh xwh xx xwx xb xg xbe = k2_pay3 xx xwx (k2_pay2 xh xwh k2_pay1) := by
  unfold accFirst
  rw [View.read_writes_eq_canon _ _ _ (accCover_first c i arg2 harg2 arg3 harg3 arg4 harg4 arg5 harg5 arg6 harg6 arg7 harg7 arg8 harg8 arg9 harg9 arg10 harg10 h0 h7 xh xwh xx xwx xb xg xbe)]
  unfold runFirst
  dsimp only
  rw [View.canon_cons_unit_zero (S := S1024x2048) hz2]
  sl_unfold_words
  simp only [View.readCov_cons_toLoadRect, View.readAt_eq_ld, harg2.read_unread, harg3.read_unread, harg4.read_unread,
    harg5.read_unread, harg6.read_unread, harg7.read_unread, harg8.read_unread, harg10.read_unread,
    View.ld_unit_zero (S := S1024x256) hz2, View.ld_unit_zero (S := S256x2048) hz2, View.ld_unit_zero (S := S1024x2048) hz2,
    View.ld_unit_zero (S := S1x2048) hz2]

/-- The accumulator after a point with 0 < k < 7, from the accumulator at xa. -/
theorem accMid_eq (c : Dev nD) (i : grid2.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : ¬atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) :
    accMid c i arg2 harg2 arg3 harg3 arg4 harg4 arg5 harg5 arg6 harg6 arg7 harg7 arg8 harg8 arg9 harg9 arg10 harg10 h0 h7 xh xwh xx xwx xb xg xbe xa = k2_pay3 xx xwx (k2_pay2 xh xwh xa) := by
  unfold accMid
  rw [View.read_writes_eq_canon _ _ _ (accCover_mid c i arg2 harg2 arg3 harg3 arg4 harg4 arg5 harg5 arg6 harg6 arg7 harg7 arg8 harg8 arg9 harg9 arg10 harg10 h0 h7 xh xwh xx xwx xb xg xbe xa)]
  unfold runMid
  dsimp only
  rw [View.canon_cons_unit_zero (S := S1024x2048) hz2]
  sl_unfold_words
  simp only [View.readCov_cons_toLoadRect, View.readAt_eq_ld, harg2.read_unread, harg3.read_unread, harg4.read_unread,
    harg5.read_unread, harg6.read_unread, harg7.read_unread, harg8.read_unread, harg10.read_unread,
    View.ld_unit_zero (S := S1024x256) hz2, View.ld_unit_zero (S := S256x2048) hz2, View.ld_unit_zero (S := S1024x2048) hz2,
    View.ld_unit_zero (S := S1x2048) hz2]

/-- The accumulator after a point with k = 7, from the accumulator at xa. -/
theorem accLast_eq (c : Dev nD) (i : grid2.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) :
    accLast c i arg2 harg2 arg3 harg3 arg4 harg4 arg5 harg5 arg6 harg6 arg7 harg7 arg8 harg8 arg9 harg9 arg10 harg10 h0 h7 xh xwh xx xwx xb xg xbe xa = k2_pay3 xx xwx (k2_pay2 xh xwh xa) := by
  unfold accLast
  rw [View.read_writes_eq_canon _ _ _ (accCover_last c i arg2 harg2 arg3 harg3 arg4 harg4 arg5 harg5 arg6 harg6 arg7 harg7 arg8 harg8 arg9 harg9 arg10 harg10 h0 h7 xh xwh xx xwx xb xg xbe xa)]
  unfold runLast
  dsimp only
  sl_unfold_words
  rw [View.canon_cons_unit_zero (S := S1024x2048) hz2]
  simp only [View.readCov_cons_toLoadRect, View.readAt_eq_ld, harg2.read_unread, harg3.read_unread, harg4.read_unread,
    harg5.read_unread, harg6.read_unread, harg7.read_unread, harg8.read_unread, harg10.read_unread,
    View.ld_unit_zero (S := S1024x256) hz2, View.ld_unit_zero (S := S256x2048) hz2, View.ld_unit_zero (S := S1024x2048) hz2,
    View.ld_unit_zero (S := S1x2048) hz2]

/-- The output block after a point with k = 7, from the accumulator at xa. -/
theorem outLast_eq (c : Dev nD) (i : grid2.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) :
    outLast c i arg2 harg2 arg3 harg3 arg4 harg4 arg5 harg5 arg6 harg6 arg7 harg7 arg8 harg8 arg9 harg9 arg10 harg10 h0 h7 xh xwh xx xwx xb xg xbe xa = k2_pay4 (k2_pay3 xx xwx (k2_pay2 xh xwh xa)) xb xg xbe := by
  unfold outLast
  rw [View.read_writes_eq_canon _ _ _ (outCover_last c i arg2 harg2 arg3 harg3 arg4 harg4 arg5 harg5 arg6 harg6 arg7 harg7 arg8 harg8 arg9 harg9 arg10 harg10 h0 h7 xh xwh xx xwx xb xg xbe xa)]
  unfold runLast
  dsimp only
  rw [View.canon_unit_zero (S := S1024x2048) hz2]
  sl_unfold_words
  simp only [View.readCov_cons_toLoadRect, View.readAt_eq_ld, harg2.read_unread, harg3.read_unread, harg4.read_unread,
    harg5.read_unread, harg6.read_unread, harg7.read_unread, harg8.read_unread, harg10.read_unread,
    View.ld_unit_zero (S := S1024x256) hz2, View.ld_unit_zero (S := S256x2048) hz2, View.ld_unit_zero (S := S1024x2048) hz2,
    View.ld_unit_zero (S := S1x2048) hz2]

end Cert.KernelIdeal.R2

end
-- ==== Proof.KI.R2.ValuePay.lean ====
/-
  The input gate of the idealized kernel, values, part one: what its body stores, entry by entry, on the extended reals.

  The body is the forget gate's with other arrays: the stored terms are the same terms, so each reads at an
  entry as the forget gate's does — zero; the accumulator plus the sum over the 256 contracted columns of the two blocks' products
  (twice); and the activation of the normalised row of (accumulator + b).
-/
import proofs.«116394_j17480516895034_2_alg».proof.Proof.KI.R0.ValuePay

set_option maxRecDepth 16384

noncomputable section

namespace Cert.KernelIdeal.R2

open Cert.KernelIdeal Cert.KernelIdeal.Gen
open Idealize.ShloMosaic Idealize.ShloMosaic.ValueIdx

/-- The clearing store: zero everywhere. -/
theorem pay1_apply (r : Fin 1024) (n : Fin 2048) : k2_pay1 (F := Ideal) (ix2 r n) = 0 := R0.pay1_apply r n

/-- The first adding store: the accumulator plus the product of the blocks of h and W_h. -/
theorem pay2_apply (a : Vec Ideal S1024x256 .f32) (b : Vec Ideal S256x2048 .f32) (acc : Vec Ideal S1024x2048 .f32)
    (r : Fin 1024) (n : Fin 2048) :
    k2_pay2 (F := Ideal) a b acc (ix2 r n) = acc (ix2 r n) + ∑ j : Fin 256, a (ix2 r j) * b (ix2 j n) :=
  R0.pay2_apply a b acc r n

/-- The second adding store: the accumulator plus the product of the blocks of x and W_x. -/
theorem pay3_apply (a : Vec Ideal S1024x256 .f32) (b : Vec Ideal S256x2048 .f32) (acc : Vec Ideal S1024x2048 .f32)
    (r : Fin 1024) (n : Fin 2048) :
    k2_pay3 (F := Ideal) a b acc (ix2 r n) = acc (ix2 r n) + ∑ j : Fin 256, a (ix2 r j) * b (ix2 j n) :=
  R0.pay3_apply a b acc r n

/-- The store at k = 7: the logistic function of the normalised rows of (accumulator + b). -/
theorem pay4_apply (acc : Vec Ideal S1024x2048 .f32) (b g be : Vec Ideal S1x2048 .f32) (r : Fin 1024) (n : Fin 2048) :
    k2_pay4 (F := Ideal) acc b g be (ix2 r n)
      = Ideal.logistic (R0.normRow (fun m => acc (ix2 r m) + b (ix2 (0 : Fin 1) m)) (fun m => g (ix2 (0 : Fin 1) m))
          (fun m => be (ix2 (0 : Fin 1) m)) n) :=
  R0.pay4_apply acc b g be r n

end Cert.KernelIdeal.R2

end
-- ==== Proof.KI.R2.ValueStep.lean ====
/-
  The input gate of the idealized kernel, values, part two: one point's two adding stores, at an entry — the accumulator
  before them plus block s of both products, as for the forget gate.
-/
import proofs.«116394_j17480516895034_2_alg».proof.Proof.KI.R0.ValueStep
import proofs.«116394_j17480516895034_2_alg».proof.Proof.KI.R2.ValuePay

set_option maxRecDepth 16384

noncomputable section

namespace Cert.KernelIdeal.R2

open Cert.KernelIdeal Cert.KernelIdeal.Gen
open Idealize.ShloMosaic Idealize.ShloMosaic.ValueIdx

/-- The two adding stores of one point. -/
theorem step_apply (H Wh X Wx : Cert.Spec.Mat) (ρ : Fin 2048) (s : ℕ) (hs : s < 8)
    (a : Vec Ideal S1024x256 .f32) (b : Vec Ideal S256x2048 .f32) (a' : Vec Ideal S1024x256 .f32) (b' : Vec Ideal S256x2048 .f32)
    (acc : Vec Ideal S1024x2048 .f32) (r : Fin 1024) (n : Fin 2048)
    (ha : ∀ j : Fin 256, a (ix2 r j) = H ρ ⟨256 * s + j.val, by omega⟩)
    (hb : ∀ j : Fin 256, b (ix2 j n) = Wh ⟨256 * s + j.val, by omega⟩ n)
    (ha' : ∀ j : Fin 256, a' (ix2 r j) = X ρ ⟨256 * s + j.val, by omega⟩)
    (hb' : ∀ j : Fin 256, b' (ix2 j n) = Wx ⟨256 * s + j.val, by omega⟩ n) :
    k2_pay3 (F := Ideal) a' b' (k2_pay2 a b acc) (ix2 r n) = acc (ix2 r n) + R0.both H Wh X Wx ρ n s :=
  R0.step_apply H Wh X Wx ρ s hs a b a' b' acc r n ha hb ha' hb'

end Cert.KernelIdeal.R2

end
-- ==== Proof.KI.R2.Value.lean ====
/-
  The input gate of the idealized kernel, values, part six: the array the region leaves.

  Position n of the sixteen is the point (i, k) = (n / 8, n mod 8).  By induction on n the accumulator after position n holds, at
  (r, q), the sum over the blocks s ≤ k of both products' block s at row 1024·i + r and column q: the clearing store starts it at
  zero, and every point adds its own block.  At k = 7 that is (H·W_h + X·W_x)(1024·i + r, q), the eight blocks of 256 columns
  regrouped into the 2048; the output block is then the logistic function of the normalised rows of that plus b, which is the gate
  at rows 1024·i … of the specification.  The two points with k = 7 write back the two row blocks, which cover the array.
  No entry is asked to be finite: only the regrouping of finite sums and the associativity of + are used.
-/
import proofs.«116394_j17480516895034_2_alg».proof.Proof.KI.R2.ValueBlk
import proofs.«116394_j17480516895034_2_alg».proof.Proof.KI.R2.ValueAcc
import proofs.«116394_j17480516895034_2_alg».proof.Proof.KI.R2.ValueStep

set_option maxRecDepth 16384

noncomputable section

namespace Cert.KernelIdeal.R2

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The arrays the region reads, by coordinates: h, W_h, x, W_x and the rows b, g, β. -/
abbrev Hm (c : Dev nD) : Cert.Spec.Mat := Cert.Spec.at2 (V c main_arg2)
abbrev Whm (c : Dev nD) : Cert.Spec.Mat := Cert.Spec.at2 (V c main_arg5)
abbrev Xm (c : Dev nD) : Cert.Spec.Mat := Cert.Spec.at2 (V c main_arg0)
abbrev Wxm (c : Dev nD) : Cert.Spec.Mat := Cert.Spec.at2 (V c main_arg9)
abbrev bv (c : Dev nD) : Cert.Spec.Vec := Cert.Spec.atRow (V c main_v8)
abbrev gv (c : Dev nD) : Cert.Spec.Vec := Cert.Spec.atRow (V c main_v9)
abbrev bev (c : Dev nD) : Cert.Spec.Vec := Cert.Spec.atRow (V c main_v10)

/-! ## One point -/

/-- The two adding stores at point t: block t mod 8 of both products, at the rows of row block t / 8. -/
theorem step_at (c : Dev nD) (t : Fin cfg2.N) (acc : Vec Ideal S1024x2048 .f32) (r : Fin 1024) (q : Fin 2048) :
    k2_pay3 (F := Ideal) (blockAt V c 2 t) (blockAt V c 3 t) (k2_pay2 (blockAt V c 0 t) (blockAt V c 1 t) acc) (ix2 r q)
      = acc (ix2 r q) + R0.both (Hm V c) (Whm V c) (Xm V c) (Wxm V c) (rowOf t r) q (t.val % 8) := by
  have hs : t.val % 8 < 8 := Nat.mod_lt _ (by decide)
  have ha : ∀ j : Fin 256, (blockAt V c 0 t : Vec Ideal S1024x256 .f32) (ix2 r j)
      = Hm V c (rowOf t r) ⟨256 * (t.val % 8) + j.val, by omega⟩ := fun j => blockAt_h V c t r j
  have hb : ∀ j : Fin 256, (blockAt V c 1 t : Vec Ideal S256x2048 .f32) (ix2 j q)
      = Whm V c ⟨256 * (t.val % 8) + j.val, by omega⟩ q := fun j => blockAt_wh V c t j q
  have ha' : ∀ j : Fin 256, (blockAt V c 2 t : Vec Ideal S1024x256 .f32) (ix2 r j)
      = Xm V c (rowOf t r) ⟨256 * (t.val % 8) + j.val, by omega⟩ := fun j => blockAt_x V c t r j
  have hb' : ∀ j : Fin 256, (blockAt V c 3 t : Vec Ideal S256x2048 .f32) (ix2 j q)
      = Wxm V c ⟨256 * (t.val % 8) + j.val, by omega⟩ q := fun j => blockAt_wx V c t j q
  exact step_apply (Hm V c) (Whm V c) (Xm V c) (Wxm V c) (rowOf t r) (t.val % 8) hs (blockAt V c 0 t) (blockAt V c 1 t) (blockAt V c 2 t)
    (blockAt V c 3 t) acc r q ha hb ha' hb'

/-- After a point with k = 0 the accumulator holds block 0 of both products. -/
theorem acc_first (c : Dev nD) (t : Fin cfg2.N) (h0 : t.val % 8 = 0) (r : Fin 1024) (q : Fin 2048) :
    (heldAt V c t.val t.isLt).2 (ix2 r q) = R0.both (Hm V c) (Whm V c) (Xm V c) (Wxm V c) (rowOf t r) q (t.val % 8) := by
  have h7 : ¬t.val % 8 = 7 := by omega
  rw [heldAt_first V c t h0 h7]
  dsimp only
  rw [accFirst_eq, step_at V c t (k2_pay1 (F := Ideal)) r q, pay1_apply, zero_add]

/-- After a later point the accumulator holds what the point before left plus this point's block of both products. -/
theorem acc_succ (c : Dev nD) (n : ℕ) (hn : n + 1 < cfg2.N) (h0 : ¬(n + 1) % 8 = 0) (r : Fin 1024) (q : Fin 2048) :
    (heldAt V c (n + 1) hn).2 (ix2 r q)
      = (heldAt V c n (Nat.lt_of_succ_lt hn)).2 (ix2 r q) + R0.both (Hm V c) (Whm V c) (Xm V c) (Wxm V c) (rowOf ⟨n + 1, hn⟩ r) q ((n + 1) % 8) := by
  by_cases h7 : (n + 1) % 8 = 7
  · rw [heldAt_last V c ⟨n + 1, hn⟩ h0 h7]
    dsimp only
    rw [accLast_eq]
    exact step_at V c ⟨n + 1, hn⟩ (heldAt V c n (Nat.lt_of_succ_lt hn)).2 r q
  · rw [heldAt_mid V c ⟨n + 1, hn⟩ h0 h7]
    dsimp only
    rw [accMid_eq]
    exact step_at V c ⟨n + 1, hn⟩ (heldAt V c n (Nat.lt_of_succ_lt hn)).2 r q

/-! ## The accumulator, position by position -/

/-- After position n the accumulator holds the blocks 0 … n mod 8 of both products, at the rows of row block n / 8. -/
theorem acc_apply (c : Dev nD) : ∀ (n : ℕ) (hn : n < cfg2.N) (r : Fin 1024) (q : Fin 2048),
    (heldAt V c n hn).2 (ix2 r q) = ∑ s ∈ Finset.range (n % 8 + 1), R0.both (Hm V c) (Whm V c) (Xm V c) (Wxm V c) (rowOf ⟨n, hn⟩ r) q s
  | 0, hn, r, q => by
    rw [show 0 % 8 + 1 = 1 from rfl, Finset.sum_range_one]
    exact acc_first V c ⟨0, hn⟩ rfl r q
  | n + 1, hn, r, q => by
    by_cases h0 : (n + 1) % 8 = 0
    · rw [h0, Finset.sum_range_one]
      have e := acc_first V c ⟨n + 1, hn⟩ h0 r q
      rw [show (⟨n + 1, hn⟩ : Fin cfg2.N).val % 8 = 0 from h0] at e
      exact e
    · rw [acc_succ V c n hn h0 r q, acc_apply c n (Nat.lt_of_succ_lt hn) r q]
      have hrow : rowOf ⟨n, Nat.lt_of_succ_lt hn⟩ r = rowOf ⟨n + 1, hn⟩ r := Fin.ext (by
        show 1024 * (n / 8) + r.val = 1024 * ((n + 1) / 8) + r.val
        have : (n + 1) / 8 = n / 8 := by omega
        rw [this])
      have hk : (n + 1) % 8 + 1 = (n % 8 + 1) + 1 := by omega
      rw [hrow, hk, Finset.sum_range_succ _ (n % 8 + 1)]
      have hk' : n % 8 + 1 = (n + 1) % 8 := by omega
      rw [hk']

/-! ## The output block at k = 7 -/

/-- At k = 7 the output block is the last store's term of the accumulator the same point leaves. -/
theorem out_eq (c : Dev nD) (t : Fin cfg2.N) (h7 : t.val % 8 = 7) :
    (heldAt V c t.val t.isLt).1
      = k2_pay4 (F := Ideal) (heldAt V c t.val t.isLt).2 (blockAt V c 4 t) (blockAt V c 5 t) (blockAt V c 6 t) := by
  have h0 : ¬t.val % 8 = 0 := by omega
  rw [heldAt_last V c t h0 h7]
  dsimp only
  rw [outLast_eq, accLast_eq]

/-- At k = 7 the output block is the gate at the rows of row block t / 8. -/
theorem out_apply (c : Dev nD) (t : Fin cfg2.N) (h7 : t.val % 8 = 7) (r : Fin 1024) (q : Fin 2048) :
    (heldAt V c t.val t.isLt).1 (ix2 r q) = Cert.Spec.gateLogistic (Hm V c) (Whm V c) (Xm V c) (Wxm V c) (bv V c) (gv V c) (bev V c) (rowOf t r) q := by
  refine (congrFun (out_eq V c t h7) (ix2 r q)).trans ?_
  refine (pay4_apply (heldAt V c t.val t.isLt).2 (blockAt V c 4 t) (blockAt V c 5 t) (blockAt V c 6 t) r q).trans ?_
  unfold Cert.Spec.gateLogistic
  rw [R0.layerNorm_row]
  have h8 : t.val % 8 + 1 = 8 := by omega
  have hp : (fun m : Fin 2048 => (heldAt V c t.val t.isLt).2 (ix2 r m) + (blockAt V c 4 t : Vec Ideal S1x2048 .f32) (ix2 (0 : Fin 1) m))
      = Cert.Spec.pre (Hm V c) (Whm V c) (Xm V c) (Wxm V c) (bv V c) (rowOf t r) := funext fun m => by
    rw [acc_apply V c t.val t.isLt r m, h8, R0.sum_both, blockAt_b]
    rfl
  have hg : (fun m : Fin 2048 => (blockAt V c 5 t : Vec Ideal S1x2048 .f32) (ix2 (0 : Fin 1) m)) = gv V c :=
    funext fun m => blockAt_g V c t m
  have hbe : (fun m : Fin 2048 => (blockAt V c 6 t : Vec Ideal S1x2048 .f32) (ix2 (0 : Fin 1) m)) = bev V c :=
    funext fun m => blockAt_be V c t m
  rw [hp, hg, hbe]

/-! ## The array -/

/-- What a point with k = 7 writes back is its block of the gate. -/
theorem flushed_eq (c : Dev nD) (t : Fin cfg2.N) (hf : (cfg2.win 7).flush t = true) :
    (dat V c).flushed 7 t = ((cfg2.win 7).blk t).view.read (Elt Ideal) (Cert.Spec.of2 (Cert.Spec.gateLogistic (Hm V c) (Whm V c) (Xm V c) (Wxm V c) (bv V c) (gv V c) (bev V c))) := by
  have h7 : t.val % 8 = 7 := (flush2_7 t).mp hf
  funext y
  obtain ⟨r, q, rfl⟩ : ∃ (r : Fin 1024) (q : Fin 2048), y = ix2 r q := ⟨y 0, y 1, eq_ix2 y⟩
  show (cfg2.win 7).cut (grid2.coords t) ((dat V c).after 7 t) (ix2 r q) = _
  rw [after_out, View.read_apply]
  show (heldAt V c t.val t.isLt).1 (ix2 r q) = Cert.Spec.of2 (Cert.Spec.gateLogistic (Hm V c) (Whm V c) (Xm V c) (Wxm V c) (bv V c) (gv V c) (bev V c)) (((cfg2.win 7).blk t).view.emb (ix2 r q))
  rw [out_apply V c t h7 r q]
  unfold Cert.Spec.of2
  have e0 : ((((cfg2.win 7).blk t).view.emb (ix2 r q)) 0 : Fin 2048) = rowOf t r := Fin.ext (by
    show win2_7.index t 0 * 1024 + 1 * r.val = 1024 * (t.val / 8) + r.val
    rw [(index_out t).1]; omega)
  have e1 : ((((cfg2.win 7).blk t).view.emb (ix2 r q)) 1 : Fin 2048) = q := Fin.ext (by
    show win2_7.index t 1 * 2048 + 1 * q.val = q.val
    rw [(index_out t).2]; omega)
  rw [e0, e1]

/-- An entry of the array is in the output block of point t iff each coordinate is in the block's range. -/
theorem mem_blk (t : Fin cfg2.N) (i : S2048x2048.Idx) :
    i ∈ ((cfg2.win 7).blk t).view.set
      ↔ ∀ a : Fin 2, win2_7.index t a * S1024x2048.size a ≤ (i a).val ∧ (i a).val < win2_7.index t a * S1024x2048.size a + S1024x2048.size a := by
  show i ∈ ((View.whole main_v11).slice (win2_7.rect t)).set ↔ _
  rw [View.set_slice_whole, Rect.mem_set_unit]
  exact Iff.rfl

/-- Every entry of the array is in the output block of the point with k = 7 of its row block. -/
theorem cover (i : S2048x2048.Idx) : ∃ t : Fin cfg2.N, (cfg2.win 7).flush t = true ∧ i ∈ ((cfg2.win 7).blk t).view.set := by
  have hN : cfg2.N = 16 := N_2
  have hi0 : (i 0).val < 2048 := (i 0).isLt
  have hi1 : (i 1).val < 2048 := (i 1).isLt
  have ht : 8 * ((i 0).val / 1024) + 7 < cfg2.N := by omega
  refine ⟨⟨8 * ((i 0).val / 1024) + 7, ht⟩, (flush2_7 _).mpr (by show (8 * ((i 0).val / 1024) + 7) % 8 = 7; omega), ?_⟩
  rw [mem_blk]
  obtain ⟨q0, q1⟩ := index_out ⟨8 * ((i 0).val / 1024) + 7, ht⟩
  have q0' : win2_7.index ⟨8 * ((i 0).val / 1024) + 7, ht⟩ 0 = (8 * ((i 0).val / 1024) + 7) / 8 := q0
  intro a
  match a with
  | ⟨0, _⟩ =>
    show win2_7.index ⟨8 * ((i 0).val / 1024) + 7, ht⟩ 0 * 1024 ≤ (i 0).val
      ∧ (i 0).val < win2_7.index ⟨8 * ((i 0).val / 1024) + 7, ht⟩ 0 * 1024 + 1024
    omega
  | ⟨1, _⟩ =>
    show win2_7.index ⟨8 * ((i 0).val / 1024) + 7, ht⟩ 1 * 2048 ≤ (i 1).val
      ∧ (i 1).val < win2_7.index ⟨8 * ((i 0).val / 1024) + 7, ht⟩ 1 * 2048 + 2048
    omega

/-- The input gate's array after the region: the logistic gate of the specification, of the arrays the region finds. -/
theorem final (c : Dev nD) :
    (dat V c).arrAt 7 cfg2.N = Cert.Spec.of2 (Cert.Spec.gateLogistic (Cert.Spec.at2 (V c main_arg2)) (Cert.Spec.at2 (V c main_arg5))
      (Cert.Spec.at2 (V c main_arg0)) (Cert.Spec.at2 (V c main_arg9)) (Cert.Spec.atRow (V c main_v8)) (Cert.Spec.atRow (V c main_v9))
      (Cert.Spec.atRow (V c main_v10))) :=
  (dat V c).arrAt_eq_of_cover 7 _ (flushed_eq V c) cover

end Cert.KernelIdeal.R2

end
-- ==== Proof.KI.R3.ValueBlk.lean ====
/-
  The output gate of the idealized kernel, values, part three: where a block's entries sit in its array.

  Point t of the 2 × 8 grid is (i, k) = (t / 8, t mod 8).  Entry (r, j) of the block of h (and of x) at t is entry
  (1024·i + r, 256·k + j) of the array; entry (j, n) of the block of W_h (and of W_x) is entry (256·k + j, n); the rows b, g, β
  are whole at every point; entry (r, n) of the output block is entry (1024·i + r, n).  A block's entry always sits, on each
  axis, at block index × block size + its own coordinate; the block indices are decided once over the sixteen points.
-/
import proofs.«116394_j17480516895034_2_alg».proof.Proof.KI.R3.Base
import proofs.«116394_j17480516895034_2_alg».proof.Proof.Spec
import Idealize.ShloMosaic.Lib.Pipeline.Value
import Idealize.ShloMosaic.Lib.ValueIdx

set_option maxRecDepth 16384

noncomputable section

namespace Cert.KernelIdeal.R3

open Cert.KernelIdeal Cert.KernelIdeal.Gen
open Idealize.ShloMosaic Idealize.ShloMosaic.TcCoe Idealize.ShloMosaic.ValueIdx
open Idealize.ShloMosaic.Pipeline (Dat Cfg Window)

variable {F : FTy → Type} [FloatOps F]

variable (V : (c : Dev nD) → (b : Ref sig .tc) → Buf (Elt F) ((c : Thread nD τ).loc b))

/-! ## The block indices over the sixteen points -/

theorem index_h : ∀ t : Fin cfg3.N, win3_0.index t 0 = t.val / 8 ∧ win3_0.index t 1 = t.val % 8 :=
  (by decide +kernel : ∀ t : Fin grid3.N, win3_0.index t 0 = t.val / 8 ∧ win3_0.index t 1 = t.val % 8)
theorem index_wh : ∀ t : Fin cfg3.N, win3_1.index t 0 = t.val % 8 ∧ win3_1.index t 1 = 0 :=
  (by decide +kernel : ∀ t : Fin grid3.N, win3_1.index t 0 = t.val % 8 ∧ win3_1.index t 1 = 0)
theorem index_x : ∀ t : Fin cfg3.N, win3_2.index t 0 = t.val / 8 ∧ win3_2.index t 1 = t.val % 8 :=
  (by decide +kernel : ∀ t : Fin grid3.N, win3_2.index t 0 = t.val / 8 ∧ win3_2.index t 1 = t.val % 8)
theorem index_wx : ∀ t : Fin cfg3.N, win3_3.index t 0 = t.val % 8 ∧ win3_3.index t 1 = 0 :=
  (by decide +kernel : ∀ t : Fin grid3.N, win3_3.index t 0 = t.val % 8 ∧ win3_3.index t 1 = 0)
theorem index_b : ∀ t : Fin cfg3.N, win3_4.index t 0 = 0 ∧ win3_4.index t 1 = 0 :=
  (by decide +kernel : ∀ t : Fin grid3.N, win3_4.index t 0 = 0 ∧ win3_4.index t 1 = 0)
theorem index_g : ∀ t : Fin cfg3.N, win3_5.index t 0 = 0 ∧ win3_5.index t 1 = 0 :=
  (by decide +kernel : ∀ t : Fin grid3.N, win3_5.index t 0 = 0 ∧ win3_5.index t 1 = 0)
theorem index_be : ∀ t : Fin cfg3.N, win3_6.index t 0 = 0 ∧ win3_6.index t 1 = 0 :=
  (by decide +kernel : ∀ t : Fin grid3.N, win3_6.index t 0 = 0 ∧ win3_6.index t 1 = 0)
theorem index_out : ∀ t : Fin cfg3.N, win3_7.index t 0 = t.val / 8 ∧ win3_7.index t 1 = 0 :=
  (by decide +kernel : ∀ t : Fin grid3.N, win3_7.index t 0 = t.val / 8 ∧ win3_7.index t 1 = 0)

/-- Row r of row block t / 8. -/
abbrev rowOf (t : Fin cfg3.N) (r : Fin 1024) : Fin 2048 :=
  ⟨1024 * (t.val / 8) + r.val, by have := t.isLt; have hN : cfg3.N = 16 := N_3; omega⟩
/-- Column j of contraction block t mod 8. -/
abbrev colOf (t : Fin cfg3.N) (j : Fin 256) : Fin 2048 := ⟨256 * (t.val % 8) + j.val, by omega⟩

/-! ## The blocks, entry by entry -/

theorem blockAt_h (c : Dev nD) (t : Fin cfg3.N) (r : Fin 1024) (j : Fin 256) :
    (blockAt V c 0 t : Vec F S1024x256 .f32) (ix2 r j) = V c main_arg2 (ix2 (rowOf t r) (colOf t j)) := by
  unfold blockAt
  rw [View.read_apply]
  show V c main_arg2 _ = V c main_arg2 _
  refine congrArg (V c main_arg2) (funext fun a => Fin.ext ?_)
  match a with
  | ⟨0, _⟩ =>
    show win3_0.index t 0 * 1024 + 1 * r.val = 1024 * (t.val / 8) + r.val
    rw [(index_h t).1]; omega
  | ⟨1, _⟩ =>
    show win3_0.index t 1 * 256 + 1 * j.val = 256 * (t.val % 8) + j.val
    rw [(index_h t).2]; omega

theorem blockAt_wh (c : Dev nD) (t : Fin cfg3.N) (j : Fin 256) (n : Fin 2048) :
    (blockAt V c 1 t : Vec F S256x2048 .f32) (ix2 j n) = V c main_arg6 (ix2 (colOf t j) n) := by
  unfold blockAt
  rw [View.read_apply]
  show V c main_arg6 _ = V c main_arg6 _
  refine congrArg (V c main_arg6) (funext fun a => Fin.ext ?_)
  match a with
  | ⟨0, _⟩ =>
    show win3_1.index t 0 * 256 + 1 * j.val = 256 * (t.val % 8) + j.val
    rw [(index_wh t).1]; omega
  | ⟨1, _⟩ =>
    show win3_1.index t 1 * 2048 + 1 * n.val = n.val
    rw [(index_wh t).2]; omega

theorem blockAt_x (c : Dev nD) (t : Fin cfg3.N) (r : Fin 1024) (j : Fin 256) :
    (blockAt V c 2 t : Vec F S1024x256 .f32) (ix2 r j) = V c main_arg0 (ix2 (rowOf t r) (colOf t j)) := by
  unfold blockAt
  rw [View.read_apply]
  show V c main_arg0 _ = V c main_arg0 _
  refine congrArg (V c main_arg0) (funext fun a => Fin.ext ?_)
  match a with
  | ⟨0, _⟩ =>
    show win3_2.index t 0 * 1024 + 1 * r.val = 1024 * (t.val / 8) + r.val
    rw [(index_x t).1]; omega
  | ⟨1, _⟩ =>
    show win3_2.index t 1 * 256 + 1 * j.val = 256 * (t.val % 8) + j.val
    rw [(index_x t).2]; omega

theorem blockAt_wx (c : Dev nD) (t : Fin cfg3.N) (j : Fin 256) (n : Fin 2048) :
    (blockAt V c 3 t : Vec F S256x2048 .f32) (ix2 j n) = V c main_arg10 (ix2 (colOf t j) n) := by
  unfold blockAt
  rw [View.read_apply]
  show V c main_arg10 _ = V c main_arg10 _
  refine congrArg (V c main_arg10) (funext fun a => Fin.ext ?_)
  match a with
  | ⟨0, _⟩ =>
    show win3_3.index t 0 * 256 + 1 * j.val = 256 * (t.val % 8) + j.val
    rw [(index_wx t).1]; omega
  | ⟨1, _⟩ =>
    show win3_3.index t 1 * 2048 + 1 * n.val = n.val
    rw [(index_wx t).2]; omega

theorem blockAt_b (c : Dev nD) (t : Fin cfg3.N) (n : Fin 2048) :
    (blockAt V c 4 t : Vec F S1x2048 .f32) (ix2 (0 : Fin 1) n) = V c main_v12 (ix2 (0 : Fin 1) n) := by
  unfold blockAt
  rw [View.read_apply]
  show V c main_v12 _ = V c main_v12 _
  refine congrArg (V c main_v12) (funext fun a => Fin.ext ?_)
  match a with
  | ⟨0, _⟩ =>
    show win3_4.index t 0 * 1 + 1 * 0 = 0
    rw [(index_b t).1]
  | ⟨1, _⟩ =>
    show win3_4.index t 1 * 2048 + 1 * n.val = n.val
    rw [(index_b t).2]; omega

theorem blockAt_g (c : Dev nD) (t : Fin cfg3.N) (n : Fin 2048) :
    (blockAt V c 5 t : Vec F S1x2048 .f32) (ix2 (0 : Fin 1) n) = V c main_v13 (ix2 (0 : Fin 1) n) := by
  unfold blockAt
  rw [View.read_apply]
  show V c main_v13 _ = V c main_v13 _
  refine congrArg (V c main_v13) (funext fun a => Fin.ext ?_)
  match a with
  | ⟨0, _⟩ =>
    show win3_5.index t 0 * 1 + 1 * 0 = 0
    rw [(index_g t).1]
  | ⟨1, _⟩ =>
    show win3_5.index t 1 * 2048 + 1 * n.val = n.val
    rw [(index_g t).2]; omega

theorem blockAt_be (c : Dev nD) (t : Fin cfg3.N) (n : Fin 2048) :
    (blockAt V c 6 t : Vec F S1x2048 .f32) (ix2 (0 : Fin 1) n) = V c main_v14 (ix2 (0 : Fin 1) n) := by
  unfold blockAt
  rw [View.read_apply]
  show V c main_v14 _ = V c main_v14 _
  refine congrArg (V c main_v14) (funext fun a => Fin.ext ?_)
  match a with
  | ⟨0, _⟩ =>
    show win3_6.index t 0 * 1 + 1 * 0 = 0
    rw [(index_be t).1]
  | ⟨1, _⟩ =>
    show win3_6.index t 1 * 2048 + 1 * n.val = n.val
    rw [(index_be t).2]; omega

end Cert.KernelIdeal.R3

end
-- ==== Proof.KI.R3.ValueAcc.lean ====
/-
  The output gate of the idealized kernel, values, part four: what each case of the body leaves, as the stored terms.

  The symbolic run of the body finds, case by case, the list of pieces stored.  Every store and every load goes through the
  whole buffer, so the accumulator ends at the last store's term and a load after a store reads that store's term:
    k = 0      accumulator = (0 + h-block · W_h-block) + x-block · W_x-block, the zero being the clearing store's;
    k > 0      accumulator = (previous + h-block · W_h-block) + x-block · W_x-block;
    k = 7      and the output block = the activation of the normalised rows of (that accumulator + b).
  Stated at any float instance, over the stored terms by name.
-/
import proofs.«116394_j17480516895034_2_alg».proof.Proof.KI.R3.Data
import Idealize.ShloMosaic.Lib.Pipeline.Value
import Idealize.ShloMosaic.Lib.ValueIdx

set_option maxRecDepth 16384

noncomputable section

namespace Cert.KernelIdeal.R3

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

/-- The zero offsets, spelt as the body spells them. -/
theorem hz2 : (![0, 0] : Fin 2 → Nat) = fun _ => 0 := funext fun a => by fin_cases a <;> rfl

/-- The accumulator after a point with k = 0. -/
theorem accFirst_eq (c : Dev nD) (i : grid3.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : atFirst i) (h7 : ¬atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) :
    accFirst c i arg2 harg2 arg3 harg3 arg4 harg4 arg5 harg5 arg6 harg6 arg7 harg7 arg8 harg8 arg9 harg9 arg10 harg10 h0 h7 xh xwh xx xwx xb xg xbe = k3_pay3 xx xwx (k3_pay2 xh xwh k3_pay1) := by
  unfold accFirst
  rw [View.read_writes_eq_canon _ _ _ (accCover_first c i arg2 harg2 arg3 harg3 arg4 harg4 arg5 harg5 arg6 harg6 arg7 harg7 arg8 harg8 arg9 harg9 arg10 harg10 h0 h7 xh xwh xx xwx xb xg xbe)]
  unfold runFirst
  dsimp only
  rw [View.canon_cons_unit_zero (S := S1024x2048) hz2]
  sl_unfold_words
  simp only [View.readCov_cons_toLoadRect, View.readAt_eq_ld, harg2.read_unread, harg3.read_unread, harg4.read_unread,
    harg5.read_unread, harg6.read_unread, harg7.read_unread, harg8.read_unread, harg10.read_unread,
    View.ld_unit_zero (S := S1024x256) hz2, View.ld_unit_zero (S := S256x2048) hz2, View.ld_unit_zero (S := S1024x2048) hz2,
    View.ld_unit_zero (S := S1x2048) hz2]

/-- The accumulator after a point with 0 < k < 7, from the accumulator at xa. -/
theorem accMid_eq (c : Dev nD) (i : grid3.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : ¬atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) :
    accMid c i arg2 harg2 arg3 harg3 arg4 harg4 arg5 harg5 arg6 harg6 arg7 harg7 arg8 harg8 arg9 harg9 arg10 harg10 h0 h7 xh xwh xx xwx xb xg xbe xa = k3_pay3 xx xwx (k3_pay2 xh xwh xa) := by
  unfold accMid
  rw [View.read_writes_eq_canon _ _ _ (accCover_mid c i arg2 harg2 arg3 harg3 arg4 harg4 arg5 harg5 arg6 harg6 arg7 harg7 arg8 harg8 arg9 harg9 arg10 harg10 h0 h7 xh xwh xx xwx xb xg xbe xa)]
  unfold runMid
  dsimp only
  rw [View.canon_cons_unit_zero (S := S1024x2048) hz2]
  sl_unfold_words
  simp only [View.readCov_cons_toLoadRect, View.readAt_eq_ld, harg2.read_unread, harg3.read_unread, harg4.read_unread,
    harg5.read_unread, harg6.read_unread, harg7.read_unread, harg8.read_unread, harg10.read_unread,
    View.ld_unit_zero (S := S1024x256) hz2, View.ld_unit_zero (S := S256x2048) hz2, View.ld_unit_zero (S := S1024x2048) hz2,
    View.ld_unit_zero (S := S1x2048) hz2]

/-- The accumulator after a point with k = 7, from the accumulator at xa. -/
theorem accLast_eq (c : Dev nD) (i : grid3.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) :
    accLast c i arg2 harg2 arg3 harg3 arg4 harg4 arg5 harg5 arg6 harg6 arg7 harg7 arg8 harg8 arg9 harg9 arg10 harg10 h0 h7 xh xwh xx xwx xb xg xbe xa = k3_pay3 xx xwx (k3_pay2 xh xwh xa) := by
  unfold accLast
  rw [View.read_writes_eq_canon _ _ _ (accCover_last c i arg2 harg2 arg3 harg3 arg4 harg4 arg5 harg5 arg6 harg6 arg7 harg7 arg8 harg8 arg9 harg9 arg10 harg10 h0 h7 xh xwh xx xwx xb xg xbe xa)]
  unfold runLast
  dsimp only
  sl_unfold_words
  rw [View.canon_cons_unit_zero (S := S1024x2048) hz2]
  simp only [View.readCov_cons_toLoadRect, View.readAt_eq_ld, harg2.read_unread, harg3.read_unread, harg4.read_unread,
    harg5.read_unread, harg6.read_unread, harg7.read_unread, harg8.read_unread, harg10.read_unread,
    View.ld_unit_zero (S := S1024x256) hz2, View.ld_unit_zero (S := S256x2048) hz2, View.ld_unit_zero (S := S1024x2048) hz2,
    View.ld_unit_zero (S := S1x2048) hz2]

/-- The output block after a point with k = 7, from the accumulator at xa. -/
theorem outLast_eq (c : Dev nD) (i : grid3.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (h0 : ¬atFirst i) (h7 : atLast i) (xh : Vec F S1024x256 .f32) (xwh : Vec F S256x2048 .f32) (xx : Vec F S1024x256 .f32) (xwx : Vec F S256x2048 .f32) (xb : Vec F S1x2048 .f32) (xg : Vec F S1x2048 .f32) (xbe : Vec F S1x2048 .f32) (xa : Vec F S1024x2048 .f32) :
    outLast c i arg2 harg2 arg3 harg3 arg4 harg4 arg5 harg5 arg6 harg6 arg7 harg7 arg8 harg8 arg9 harg9 arg10 harg10 h0 h7 xh xwh xx xwx xb xg xbe xa = k3_pay4 (k3_pay3 xx xwx (k3_pay2 xh xwh xa)) xb xg xbe := by
  unfold outLast
  rw [View.read_writes_eq_canon _ _ _ (outCover_last c i arg2 harg2 arg3 harg3 arg4 harg4 arg5 harg5 arg6 harg6 arg7 harg7 arg8 harg8 arg9 harg9 arg10 harg10 h0 h7 xh xwh xx xwx xb xg xbe xa)]
  unfold runLast
  dsimp only
  rw [View.canon_unit_zero (S := S1024x2048) hz2]
  sl_unfold_words
  simp only [View.readCov_cons_toLoadRect, View.readAt_eq_ld, harg2.read_unread, harg3.read_unread, harg4.read_unread,
    harg5.read_unread, harg6.read_unread, harg7.read_unread, harg8.read_unread, harg10.read_unread,
    View.ld_unit_zero (S := S1024x256) hz2, View.ld_unit_zero (S := S256x2048) hz2, View.ld_unit_zero (S := S1024x2048) hz2,
    View.ld_unit_zero (S := S1x2048) hz2]

end Cert.KernelIdeal.R3

end
-- ==== Proof.KI.R3.ValuePay.lean ====
/-
  The output gate of the idealized kernel, values, part one: what its body stores, entry by entry, on the extended reals.

  The body is the forget gate's with other arrays: the stored terms are the same terms, so each reads at an
  entry as the forget gate's does — zero; the accumulator plus the sum over the 256 contracted columns of the two blocks' products
  (twice); and the activation of the normalised row of (accumulator + b).
-/
import proofs.«116394_j17480516895034_2_alg».proof.Proof.KI.R0.ValuePay

set_option maxRecDepth 16384

noncomputable section

namespace Cert.KernelIdeal.R3

open Cert.KernelIdeal Cert.KernelIdeal.Gen
open Idealize.ShloMosaic Idealize.ShloMosaic.ValueIdx

/-- The clearing store: zero everywhere. -/
theorem pay1_apply (r : Fin 1024) (n : Fin 2048) : k3_pay1 (F := Ideal) (ix2 r n) = 0 := R0.pay1_apply r n

/-- The first adding store: the accumulator plus the product of the blocks of h and W_h. -/
theorem pay2_apply (a : Vec Ideal S1024x256 .f32) (b : Vec Ideal S256x2048 .f32) (acc : Vec Ideal S1024x2048 .f32)
    (r : Fin 1024) (n : Fin 2048) :
    k3_pay2 (F := Ideal) a b acc (ix2 r n) = acc (ix2 r n) + ∑ j : Fin 256, a (ix2 r j) * b (ix2 j n) :=
  R0.pay2_apply a b acc r n

/-- The second adding store: the accumulator plus the product of the blocks of x and W_x. -/
theorem pay3_apply (a : Vec Ideal S1024x256 .f32) (b : Vec Ideal S256x2048 .f32) (acc : Vec Ideal S1024x2048 .f32)
    (r : Fin 1024) (n : Fin 2048) :
    k3_pay3 (F := Ideal) a b acc (ix2 r n) = acc (ix2 r n) + ∑ j : Fin 256, a (ix2 r j) * b (ix2 j n) :=
  R0.pay3_apply a b acc r n

/-- The store at k = 7: the logistic function of the normalised rows of (accumulator + b). -/
theorem pay4_apply (acc : Vec Ideal S1024x2048 .f32) (b g be : Vec Ideal S1x2048 .f32) (r : Fin 1024) (n : Fin 2048) :
    k3_pay4 (F := Ideal) acc b g be (ix2 r n)
      = Ideal.logistic (R0.normRow (fun m => acc (ix2 r m) + b (ix2 (0 : Fin 1) m)) (fun m => g (ix2 (0 : Fin 1) m))
          (fun m => be (ix2 (0 : Fin 1) m)) n) :=
  R0.pay4_apply acc b g be r n

end Cert.KernelIdeal.R3

end
-- ==== Proof.KI.R3.ValueStep.lean ====
/-
  The output gate of the idealized kernel, values, part two: one point's two adding stores, at an entry — the accumulator
  before them plus block s of both products, as for the forget gate.
-/
import proofs.«116394_j17480516895034_2_alg».proof.Proof.KI.R0.ValueStep
import proofs.«116394_j17480516895034_2_alg».proof.Proof.KI.R3.ValuePay

set_option maxRecDepth 16384

noncomputable section

namespace Cert.KernelIdeal.R3

open Cert.KernelIdeal Cert.KernelIdeal.Gen
open Idealize.ShloMosaic Idealize.ShloMosaic.ValueIdx

/-- The two adding stores of one point. -/
theorem step_apply (H Wh X Wx : Cert.Spec.Mat) (ρ : Fin 2048) (s : ℕ) (hs : s < 8)
    (a : Vec Ideal S1024x256 .f32) (b : Vec Ideal S256x2048 .f32) (a' : Vec Ideal S1024x256 .f32) (b' : Vec Ideal S256x2048 .f32)
    (acc : Vec Ideal S1024x2048 .f32) (r : Fin 1024) (n : Fin 2048)
    (ha : ∀ j : Fin 256, a (ix2 r j) = H ρ ⟨256 * s + j.val, by omega⟩)
    (hb : ∀ j : Fin 256, b (ix2 j n) = Wh ⟨256 * s + j.val, by omega⟩ n)
    (ha' : ∀ j : Fin 256, a' (ix2 r j) = X ρ ⟨256 * s + j.val, by omega⟩)
    (hb' : ∀ j : Fin 256, b' (ix2 j n) = Wx ⟨256 * s + j.val, by omega⟩ n) :
    k3_pay3 (F := Ideal) a' b' (k3_pay2 a b acc) (ix2 r n) = acc (ix2 r n) + R0.both H Wh X Wx ρ n s :=
  R0.step_apply H Wh X Wx ρ s hs a b a' b' acc r n ha hb ha' hb'

end Cert.KernelIdeal.R3

end
-- ==== Proof.KI.R3.Value.lean ====
/-
  The output gate of the idealized kernel, values, part six: the array the region leaves.

  Position n of the sixteen is the point (i, k) = (n / 8, n mod 8).  By induction on n the accumulator after position n holds, at
  (r, q), the sum over the blocks s ≤ k of both products' block s at row 1024·i + r and column q: the clearing store starts it at
  zero, and every point adds its own block.  At k = 7 that is (H·W_h + X·W_x)(1024·i + r, q), the eight blocks of 256 columns
  regrouped into the 2048; the output block is then the logistic function of the normalised rows of that plus b, which is the gate
  at rows 1024·i … of the specification.  The two points with k = 7 write back the two row blocks, which cover the array.
  No entry is asked to be finite: only the regrouping of finite sums and the associativity of + are used.
-/
import proofs.«116394_j17480516895034_2_alg».proof.Proof.KI.R3.ValueBlk
import proofs.«116394_j17480516895034_2_alg».proof.Proof.KI.R3.ValueAcc
import proofs.«116394_j17480516895034_2_alg».proof.Proof.KI.R3.ValueStep

set_option maxRecDepth 16384

noncomputable section

namespace Cert.KernelIdeal.R3

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The arrays the region reads, by coordinates: h, W_h, x, W_x and the rows b, g, β. -/
abbrev Hm (c : Dev nD) : Cert.Spec.Mat := Cert.Spec.at2 (V c main_arg2)
abbrev Whm (c : Dev nD) : Cert.Spec.Mat := Cert.Spec.at2 (V c main_arg6)
abbrev Xm (c : Dev nD) : Cert.Spec.Mat := Cert.Spec.at2 (V c main_arg0)
abbrev Wxm (c : Dev nD) : Cert.Spec.Mat := Cert.Spec.at2 (V c main_arg10)
abbrev bv (c : Dev nD) : Cert.Spec.Vec := Cert.Spec.atRow (V c main_v12)
abbrev gv (c : Dev nD) : Cert.Spec.Vec := Cert.Spec.atRow (V c main_v13)
abbrev bev (c : Dev nD) : Cert.Spec.Vec := Cert.Spec.atRow (V c main_v14)

/-! ## One point -/

/-- The two adding stores at point t: block t mod 8 of both products, at the rows of row block t / 8. -/
theorem step_at (c : Dev nD) (t : Fin cfg3.N) (acc : Vec Ideal S1024x2048 .f32) (r : Fin 1024) (q : Fin 2048) :
    k3_pay3 (F := Ideal) (blockAt V c 2 t) (blockAt V c 3 t) (k3_pay2 (blockAt V c 0 t) (blockAt V c 1 t) acc) (ix2 r q)
      = acc (ix2 r q) + R0.both (Hm V c) (Whm V c) (Xm V c) (Wxm V c) (rowOf t r) q (t.val % 8) := by
  have hs : t.val % 8 < 8 := Nat.mod_lt _ (by decide)
  have ha : ∀ j : Fin 256, (blockAt V c 0 t : Vec Ideal S1024x256 .f32) (ix2 r j)
      = Hm V c (rowOf t r) ⟨256 * (t.val % 8) + j.val, by omega⟩ := fun j => blockAt_h V c t r j
  have hb : ∀ j : Fin 256, (blockAt V c 1 t : Vec Ideal S256x2048 .f32) (ix2 j q)
      = Whm V c ⟨256 * (t.val % 8) + j.val, by omega⟩ q := fun j => blockAt_wh V c t j q
  have ha' : ∀ j : Fin 256, (blockAt V c 2 t : Vec Ideal S1024x256 .f32) (ix2 r j)
      = Xm V c (rowOf t r) ⟨256 * (t.val % 8) + j.val, by omega⟩ := fun j => blockAt_x V c t r j
  have hb' : ∀ j : Fin 256, (blockAt V c 3 t : Vec Ideal S256x2048 .f32) (ix2 j q)
      = Wxm V c ⟨256 * (t.val % 8) + j.val, by omega⟩ q := fun j => blockAt_wx V c t j q
  exact step_apply (Hm V c) (Whm V c) (Xm V c) (Wxm V c) (rowOf t r) (t.val % 8) hs (blockAt V c 0 t) (blockAt V c 1 t) (blockAt V c 2 t)
    (blockAt V c 3 t) acc r q ha hb ha' hb'

/-- After a point with k = 0 the accumulator holds block 0 of both products. -/
theorem acc_first (c : Dev nD) (t : Fin cfg3.N) (h0 : t.val % 8 = 0) (r : Fin 1024) (q : Fin 2048) :
    (heldAt V c t.val t.isLt).2 (ix2 r q) = R0.both (Hm V c) (Whm V c) (Xm V c) (Wxm V c) (rowOf t r) q (t.val % 8) := by
  have h7 : ¬t.val % 8 = 7 := by omega
  rw [heldAt_first V c t h0 h7]
  dsimp only
  rw [accFirst_eq, step_at V c t (k3_pay1 (F := Ideal)) r q, pay1_apply, zero_add]

/-- After a later point the accumulator holds what the point before left plus this point's block of both products. -/
theorem acc_succ (c : Dev nD) (n : ℕ) (hn : n + 1 < cfg3.N) (h0 : ¬(n + 1) % 8 = 0) (r : Fin 1024) (q : Fin 2048) :
    (heldAt V c (n + 1) hn).2 (ix2 r q)
      = (heldAt V c n (Nat.lt_of_succ_lt hn)).2 (ix2 r q) + R0.both (Hm V c) (Whm V c) (Xm V c) (Wxm V c) (rowOf ⟨n + 1, hn⟩ r) q ((n + 1) % 8) := by
  by_cases h7 : (n + 1) % 8 = 7
  · rw [heldAt_last V c ⟨n + 1, hn⟩ h0 h7]
    dsimp only
    rw [accLast_eq]
    exact step_at V c ⟨n + 1, hn⟩ (heldAt V c n (Nat.lt_of_succ_lt hn)).2 r q
  · rw [heldAt_mid V c ⟨n + 1, hn⟩ h0 h7]
    dsimp only
    rw [accMid_eq]
    exact step_at V c ⟨n + 1, hn⟩ (heldAt V c n (Nat.lt_of_succ_lt hn)).2 r q

/-! ## The accumulator, position by position -/

/-- After position n the accumulator holds the blocks 0 … n mod 8 of both products, at the rows of row block n / 8. -/
theorem acc_apply (c : Dev nD) : ∀ (n : ℕ) (hn : n < cfg3.N) (r : Fin 1024) (q : Fin 2048),
    (heldAt V c n hn).2 (ix2 r q) = ∑ s ∈ Finset.range (n % 8 + 1), R0.both (Hm V c) (Whm V c) (Xm V c) (Wxm V c) (rowOf ⟨n, hn⟩ r) q s
  | 0, hn, r, q => by
    rw [show 0 % 8 + 1 = 1 from rfl, Finset.sum_range_one]
    exact acc_first V c ⟨0, hn⟩ rfl r q
  | n + 1, hn, r, q => by
    by_cases h0 : (n + 1) % 8 = 0
    · rw [h0, Finset.sum_range_one]
      have e := acc_first V c ⟨n + 1, hn⟩ h0 r q
      rw [show (⟨n + 1, hn⟩ : Fin cfg3.N).val % 8 = 0 from h0] at e
      exact e
    · rw [acc_succ V c n hn h0 r q, acc_apply c n (Nat.lt_of_succ_lt hn) r q]
      have hrow : rowOf ⟨n, Nat.lt_of_succ_lt hn⟩ r = rowOf ⟨n + 1, hn⟩ r := Fin.ext (by
        show 1024 * (n / 8) + r.val = 1024 * ((n + 1) / 8) + r.val
        have : (n + 1) / 8 = n / 8 := by omega
        rw [this])
      have hk : (n + 1) % 8 + 1 = (n % 8 + 1) + 1 := by omega
      rw [hrow, hk, Finset.sum_range_succ _ (n % 8 + 1)]
      have hk' : n % 8 + 1 = (n + 1) % 8 := by omega
      rw [hk']

/-! ## The output block at k = 7 -/

/-- At k = 7 the output block is the last store's term of the accumulator the same point leaves. -/
theorem out_eq (c : Dev nD) (t : Fin cfg3.N) (h7 : t.val % 8 = 7) :
    (heldAt V c t.val t.isLt).1
      = k3_pay4 (F := Ideal) (heldAt V c t.val t.isLt).2 (blockAt V c 4 t) (blockAt V c 5 t) (blockAt V c 6 t) := by
  have h0 : ¬t.val % 8 = 0 := by omega
  rw [heldAt_last V c t h0 h7]
  dsimp only
  rw [outLast_eq, accLast_eq]

/-- At k = 7 the output block is the gate at the rows of row block t / 8. -/
theorem out_apply (c : Dev nD) (t : Fin cfg3.N) (h7 : t.val % 8 = 7) (r : Fin 1024) (q : Fin 2048) :
    (heldAt V c t.val t.isLt).1 (ix2 r q) = Cert.Spec.gateLogistic (Hm V c) (Whm V c) (Xm V c) (Wxm V c) (bv V c) (gv V c) (bev V c) (rowOf t r) q := by
  refine (congrFun (out_eq V c t h7) (ix2 r q)).trans ?_
  refine (pay4_apply (heldAt V c t.val t.isLt).2 (blockAt V c 4 t) (blockAt V c 5 t) (blockAt V c 6 t) r q).trans ?_
  unfold Cert.Spec.gateLogistic
  rw [R0.layerNorm_row]
  have h8 : t.val % 8 + 1 = 8 := by omega
  have hp : (fun m : Fin 2048 => (heldAt V c t.val t.isLt).2 (ix2 r m) + (blockAt V c 4 t : Vec Ideal S1x2048 .f32) (ix2 (0 : Fin 1) m))
      = Cert.Spec.pre (Hm V c) (Whm V c) (Xm V c) (Wxm V c) (bv V c) (rowOf t r) := funext fun m => by
    rw [acc_apply V c t.val t.isLt r m, h8, R0.sum_both, blockAt_b]
    rfl
  have hg : (fun m : Fin 2048 => (blockAt V c 5 t : Vec Ideal S1x2048 .f32) (ix2 (0 : Fin 1) m)) = gv V c :=
    funext fun m => blockAt_g V c t m
  have hbe : (fun m : Fin 2048 => (blockAt V c 6 t : Vec Ideal S1x2048 .f32) (ix2 (0 : Fin 1) m)) = bev V c :=
    funext fun m => blockAt_be V c t m
  rw [hp, hg, hbe]

/-! ## The array -/

/-- What a point with k = 7 writes back is its block of the gate. -/
theorem flushed_eq (c : Dev nD) (t : Fin cfg3.N) (hf : (cfg3.win 7).flush t = true) :
    (dat V c).flushed 7 t = ((cfg3.win 7).blk t).view.read (Elt Ideal) (Cert.Spec.of2 (Cert.Spec.gateLogistic (Hm V c) (Whm V c) (Xm V c) (Wxm V c) (bv V c) (gv V c) (bev V c))) := by
  have h7 : t.val % 8 = 7 := (flush3_7 t).mp hf
  funext y
  obtain ⟨r, q, rfl⟩ : ∃ (r : Fin 1024) (q : Fin 2048), y = ix2 r q := ⟨y 0, y 1, eq_ix2 y⟩
  show (cfg3.win 7).cut (grid3.coords t) ((dat V c).after 7 t) (ix2 r q) = _
  rw [after_out, View.read_apply]
  show (heldAt V c t.val t.isLt).1 (ix2 r q) = Cert.Spec.of2 (Cert.Spec.gateLogistic (Hm V c) (Whm V c) (Xm V c) (Wxm V c) (bv V c) (gv V c) (bev V c)) (((cfg3.win 7).blk t).view.emb (ix2 r q))
  rw [out_apply V c t h7 r q]
  unfold Cert.Spec.of2
  have e0 : ((((cfg3.win 7).blk t).view.emb (ix2 r q)) 0 : Fin 2048) = rowOf t r := Fin.ext (by
    show win3_7.index t 0 * 1024 + 1 * r.val = 1024 * (t.val / 8) + r.val
    rw [(index_out t).1]; omega)
  have e1 : ((((cfg3.win 7).blk t).view.emb (ix2 r q)) 1 : Fin 2048) = q := Fin.ext (by
    show win3_7.index t 1 * 2048 + 1 * q.val = q.val
    rw [(index_out t).2]; omega)
  rw [e0, e1]

/-- An entry of the array is in the output block of point t iff each coordinate is in the block's range. -/
theorem mem_blk (t : Fin cfg3.N) (i : S2048x2048.Idx) :
    i ∈ ((cfg3.win 7).blk t).view.set
      ↔ ∀ a : Fin 2, win3_7.index t a * S1024x2048.size a ≤ (i a).val ∧ (i a).val < win3_7.index t a * S1024x2048.size a + S1024x2048.size a := by
  show i ∈ ((View.whole main_v15).slice (win3_7.rect t)).set ↔ _
  rw [View.set_slice_whole, Rect.mem_set_unit]
  exact Iff.rfl

/-- Every entry of the array is in the output block of the point with k = 7 of its row block. -/
theorem cover (i : S2048x2048.Idx) : ∃ t : Fin cfg3.N, (cfg3.win 7).flush t = true ∧ i ∈ ((cfg3.win 7).blk t).view.set := by
  have hN : cfg3.N = 16 := N_3
  have hi0 : (i 0).val < 2048 := (i 0).isLt
  have hi1 : (i 1).val < 2048 := (i 1).isLt
  have ht : 8 * ((i 0).val / 1024) + 7 < cfg3.N := by omega
  refine ⟨⟨8 * ((i 0).val / 1024) + 7, ht⟩, (flush3_7 _).mpr (by show (8 * ((i 0).val / 1024) + 7) % 8 = 7; omega), ?_⟩
  rw [mem_blk]
  obtain ⟨q0, q1⟩ := index_out ⟨8 * ((i 0).val / 1024) + 7, ht⟩
  have q0' : win3_7.index ⟨8 * ((i 0).val / 1024) + 7, ht⟩ 0 = (8 * ((i 0).val / 1024) + 7) / 8 := q0
  intro a
  match a with
  | ⟨0, _⟩ =>
    show win3_7.index ⟨8 * ((i 0).val / 1024) + 7, ht⟩ 0 * 1024 ≤ (i 0).val
      ∧ (i 0).val < win3_7.index ⟨8 * ((i 0).val / 1024) + 7, ht⟩ 0 * 1024 + 1024
    omega
  | ⟨1, _⟩ =>
    show win3_7.index ⟨8 * ((i 0).val / 1024) + 7, ht⟩ 1 * 2048 ≤ (i 1).val
      ∧ (i 1).val < win3_7.index ⟨8 * ((i 0).val / 1024) + 7, ht⟩ 1 * 2048 + 2048
    omega

/-- The output gate's array after the region: the logistic gate of the specification, of the arrays the region finds. -/
theorem final (c : Dev nD) :
    (dat V c).arrAt 7 cfg3.N = Cert.Spec.of2 (Cert.Spec.gateLogistic (Cert.Spec.at2 (V c main_arg2)) (Cert.Spec.at2 (V c main_arg6))
      (Cert.Spec.at2 (V c main_arg0)) (Cert.Spec.at2 (V c main_arg10)) (Cert.Spec.atRow (V c main_v12)) (Cert.Spec.atRow (V c main_v13))
      (Cert.Spec.atRow (V c main_v14))) :=
  (dat V c).arrAt_eq_of_cover 7 _ (flushed_eq V c) cover

end Cert.KernelIdeal.R3

end
-- ==== Proof.KI.R4.ValuePieces.lean ====
/-
  The cell update c' = f · c + g · i, the values, part one: what each case stores, and the buffers point by point, as
  terms of the blocks.

  At every point the body stores into the accumulator twice: first the product term of the blocks of f and c added to
  what the accumulator held, then — reading that back — the product term of the blocks of g and i added to it.  At
  k = 0 the accumulator is cleared first, so what it held is the zero block; at k = 7 the output block receives a copy
  of the accumulator after its second store.  So the accumulator after a point is the two product terms of that point's
  blocks added to the zero block (k = 0) or to what the point before left (k > 0).  Each statement holds at every float
  instance.
-/
import proofs.«116394_j17480516895034_2_alg».proof.Proof.KI.R4.Data
import Idealize.ShloMosaic.Lib.Pipeline.Value
import Idealize.ShloMosaic.Lib.ValueIdx

set_option maxRecDepth 16384

noncomputable section

namespace Cert.KernelIdeal.R4

open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window)

section Pieces
variable {F : FTy → Type} [FloatOps F]

/-- The zero offsets of a whole-buffer rectangle. -/
theorem hz : (![0, 0] : Fin 2 → Nat) = fun _ => 0 := funext fun a => by fin_cases a <;> rfl

/-- A whole-buffer load after several stores, the last of them a whole-buffer store, reads that last store's value. -/
theorem readCov_cons_unit_zero {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- 0 < k < 7: the accumulator, holding `xa`, is stored twice: first the product term of the blocks of f and c added to
    `xa`, then the product term of the blocks of g and i added to that. -/
theorem accMid_eq (c : Dev nD) (i : grid4.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1024x2048 .f32) (harg6 : arg6.IsWhole) (arg7 : Memref sig .tc .vmem S1024x2048 .f32) (harg7 : arg7.IsWhole) (h0 : ¬atFirst i) (h7 : ¬atLast i) (xf : Vec F S1024x256 .f32) (xc : Vec F S256x2048 .f32) (xg : Vec F S1024x256 .f32) (xi : Vec F S256x2048 .f32) (xa : Vec F S1024x2048 .f32) :
    accMid c i arg2 harg2 arg3 harg3 arg4 harg4 arg5 harg5 arg6 harg6 arg7 harg7 h0 h7 xf xc xg xi xa = k4_pay1 (k4_pay3 xa xf xc) (k4_pay6 xg) (k4_pay7 xg) (k4_pay8 xi) (k4_pay9 xi) := by
  unfold accMid
  rw [View.read_writes_eq_canon _ _ _ (accCover_mid c i arg2 harg2 arg3 harg3 arg4 harg4 arg5 harg5 arg6 harg6 arg7 harg7 h0 h7 xf xc xg xi xa)]
  unfold runMid
  dsimp only
  sl_unfold_words
  rw [View.canon_cons_unit_zero (S := S1024x2048) hz, View.readCov_unit_zero (S := S1024x2048) _ hz]
  simp only [View.readAt_eq_ld, harg2.read_unread, harg3.read_unread, harg4.read_unread, harg5.read_unread, harg6.read_unread, harg7.read_unread, View.ld_unit_zero (S := S1024x256) hz, View.ld_unit_zero (S := S256x2048) hz, View.ld_unit_zero (S := S1024x2048) hz]

/-- k = 0: the accumulator is first cleared, so the two product terms are added to the zero block. -/
theorem accFirst_eq (c : Dev nD) (i : grid4.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1024x2048 .f32) (harg6 : arg6.IsWhole) (arg7 : Memref sig .tc .vmem S1024x2048 .f32) (harg7 : arg7.IsWhole) (h0 : atFirst i) (h7 : ¬atLast i) (xf : Vec F S1024x256 .f32) (xc : Vec F S256x2048 .f32) (xg : Vec F S1024x256 .f32) (xi : Vec F S256x2048 .f32) :
    accFirst c i arg2 harg2 arg3 harg3 arg4 harg4 arg5 harg5 arg6 harg6 arg7 harg7 h0 h7 xf xc xg xi = k4_pay1 (k4_pay3 (k4_pay2 (F := F)) xf xc) (k4_pay6 xg) (k4_pay7 xg) (k4_pay8 xi) (k4_pay9 xi) := by
  unfold accFirst
  rw [View.read_writes_eq_canon _ _ _ (accCover_first c i arg2 harg2 arg3 harg3 arg4 harg4 arg5 harg5 arg6 harg6 arg7 harg7 h0 h7 xf xc xg xi)]
  unfold runFirst
  dsimp only
  sl_unfold_words
  rw [View.canon_cons_unit_zero (S := S1024x2048) hz, readCov_cons_unit_zero (S := S1024x2048) _ hz, View.readCov_unit_zero (S := S1024x2048) _ hz]
  simp only [View.readAt_eq_ld, harg2.read_unread, harg3.read_unread, harg4.read_unread, harg5.read_unread, harg6.read_unread, harg7.read_unread, View.ld_unit_zero (S := S1024x256) hz, View.ld_unit_zero (S := S256x2048) hz, View.ld_unit_zero (S := S1024x2048) hz]

/-- k = 7: the accumulator, holding `xa`, ends at the same value as when 0 < k < 7. -/
theorem accLast_eq (c : Dev nD) (i : grid4.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1024x2048 .f32) (harg6 : arg6.IsWhole) (arg7 : Memref sig .tc .vmem S1024x2048 .f32) (harg7 : arg7.IsWhole) (h0 : ¬atFirst i) (h7 : atLast i) (xf : Vec F S1024x256 .f32) (xc : Vec F S256x2048 .f32) (xg : Vec F S1024x256 .f32) (xi : Vec F S256x2048 .f32) (xa : Vec F S1024x2048 .f32) :
    accLast c i arg2 harg2 arg3 harg3 arg4 harg4 arg5 harg5 arg6 harg6 arg7 harg7 h0 h7 xf xc xg xi xa = k4_pay1 (k4_pay3 xa xf xc) (k4_pay6 xg) (k4_pay7 xg) (k4_pay8 xi) (k4_pay9 xi) := by
  unfold accLast
  rw [View.read_writes_eq_canon _ _ _ (accCover_last c i arg2 harg2 arg3 harg3 arg4 harg4 arg5 harg5 arg6 harg6 arg7 harg7 h0 h7 xf xc xg xi xa)]
  unfold runLast
  dsimp only
  sl_unfold_words
  rw [View.canon_cons_unit_zero (S := S1024x2048) hz, View.readCov_unit_zero (S := S1024x2048) _ hz]
  simp only [View.readAt_eq_ld, harg2.read_unread, harg3.read_unread, harg4.read_unread, harg5.read_unread, harg6.read_unread, harg7.read_unread, View.ld_unit_zero (S := S1024x256) hz, View.ld_unit_zero (S := S256x2048) hz, View.ld_unit_zero (S := S1024x2048) hz]

/-- k = 7: the output block ends at what the accumulator holds after its two stores. -/
theorem outLast_eq (c : Dev nD) (i : grid4.Coords) (arg2 : Memref sig .tc .vmem S1024x256 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S256x2048 .f32) (harg5 : arg5.IsWhole) (arg6 : Memref sig .tc .vmem S1024x2048 .f32) (harg6 : arg6.IsWhole) (arg7 : Memref sig .tc .vmem S1024x2048 .f32) (harg7 : arg7.IsWhole) (h0 : ¬atFirst i) (h7 : atLast i) (xf : Vec F S1024x256 .f32) (xc : Vec F S256x2048 .f32) (xg : Vec F S1024x256 .f32) (xi : Vec F S256x2048 .f32) (xa : Vec F S1024x2048 .f32) :
    outLast c i arg2 harg2 arg3 harg3 arg4 harg4 arg5 harg5 arg6 harg6 arg7 harg7 h0 h7 xf xc xg xi xa = k4_pay1 (k4_pay3 xa xf xc) (k4_pay6 xg) (k4_pay7 xg) (k4_pay8 xi) (k4_pay9 xi) := by
  unfold outLast
  rw [View.read_writes_eq_canon _ _ _ (outCover_last c i arg2 harg2 arg3 harg3 arg4 harg4 arg5 harg5 arg6 harg6 arg7 harg7 h0 h7 xf xc xg xi xa)]
  unfold runLast
  dsimp only
  sl_unfold_words
  rw [View.canon_unit_zero hz, readCov_cons_unit_zero (S := S1024x2048) _ hz, View.readCov_unit_zero (S := S1024x2048) _ hz]
  simp only [View.readAt_eq_ld, harg2.read_unread, harg3.read_unread, harg4.read_unread, harg5.read_unread, harg6.read_unread, harg7.read_unread, View.ld_unit_zero (S := S1024x256) hz, View.ld_unit_zero (S := S256x2048) hz, View.ld_unit_zero (S := S1024x2048) hz]

end Pieces

section Held

variable {F : FTy → Type} [FloatOps F]
variable (V : (c : Dev nD) → (b : Ref sig .tc) → Buf (Elt F) ((c : Thread nD τ).loc b))

/-- After a point with k = 0 the accumulator holds the two product terms of that point's blocks added to the zero block. -/
theorem held_first (c : Dev nD) (t : Fin cfg4.N) (h0 : t.val % 8 = 0) (h7 : ¬t.val % 8 = 7) :
    (heldAt V c t.val t.isLt).2 = k4_pay1 (k4_pay3 (k4_pay2 (F := F)) (blockAt V c 0 t) (blockAt V c 1 t)) (k4_pay6 (blockAt V c 2 t)) (k4_pay7 (blockAt V c 2 t)) (k4_pay8 (blockAt V c 3 t)) (k4_pay9 (blockAt V c 3 t)) := by
  rw [heldAt_first V c t h0 h7]
  dsimp only
  rw [accFirst_eq]

/-- After a point with 0 < k < 7 the accumulator holds the two product terms of that point's blocks added to what the point before left. -/
theorem held_mid (c : Dev nD) (t : Fin cfg4.N) (h0 : ¬t.val % 8 = 0) (h7 : ¬t.val % 8 = 7) :
    (heldAt V c t.val t.isLt).2 = k4_pay1 (k4_pay3 (heldAt V c (t.val - 1) (Nat.lt_of_le_of_lt (Nat.sub_le _ _) t.isLt)).2 (blockAt V c 0 t) (blockAt V c 1 t)) (k4_pay6 (blockAt V c 2 t)) (k4_pay7 (blockAt V c 2 t)) (k4_pay8 (blockAt V c 3 t)) (k4_pay9 (blockAt V c 3 t)) := by
  rw [heldAt_mid V c t h0 h7]
  dsimp only
  rw [accMid_eq]

/-- After a point with k = 7 the accumulator holds the two product terms of that point's blocks added to what the point before left. -/
theorem held_last (c : Dev nD) (t : Fin cfg4.N) (h0 : ¬t.val % 8 = 0) (h7 : t.val % 8 = 7) :
    (heldAt V c t.val t.isLt).2 = k4_pay1 (k4_pay3 (heldAt V c (t.val - 1) (Nat.lt_of_le_of_lt (Nat.sub_le _ _) t.isLt)).2 (blockAt V c 0 t) (blockAt V c 1 t)) (k4_pay6 (blockAt V c 2 t)) (k4_pay7 (blockAt V c 2 t)) (k4_pay8 (blockAt V c 3 t)) (k4_pay9 (blockAt V c 3 t)) := by
  rw [heldAt_last V c t h0 h7]
  dsimp only
  rw [accLast_eq]

/-- After a point with k = 7 the output block holds the same value as the accumulator. -/
theorem held_out (c : Dev nD) (t : Fin cfg4.N) (h0 : ¬t.val % 8 = 0) (h7 : t.val % 8 = 7) :
    (heldAt V c t.val t.isLt).1 = (heldAt V c t.val t.isLt).2 := by
  rw [held_last V c t h0 h7, heldAt_last V c t h0 h7]
  dsimp only
  rw [outLast_eq]

end Held

end Cert.KernelIdeal.R4

end
-- ==== Proof.LibHiLo.lean ====
/-
  The split matrix product of the data path, on blocks of real numbers.

  The data-path kernels multiply a 1024 × 256 block A by a 256 × 2048 block B as A·B + A·(B − B) + (A − A)·B, each product
  added into a zero block.  On the extended reals x − x = 0 for every real x (it is not for an infinity), and a product
  with 0 is 0, so on blocks of real numbers the two correction products vanish and the whole is the plain product:
  at (r, n) the sum over the 256 shared coordinates j of A(r, j) · B(j, n).
-/
import proofs.«116394_j17480516895034_2_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.HiLo

open Cert.KernelIdeal Cert.KernelIdeal.Gen
open Idealize.ShloMosaic Idealize.ShloMosaic.ValueIdx

/-- A real number minus itself is zero on the extended reals. -/
theorem coe_sub_self (x : ℝ) : (x : EReal) - (x : EReal) = 0 := by
  rw [← EReal.coe_sub, sub_self, EReal.coe_zero]

/-- The hyperbolic tangent of an extended real is a real number: −1 and 1 at the two infinities. -/
theorem tanh_real (x : EReal) : ∃ y : ℝ, Ideal.tanh x = (y : EReal) := by
  induction x using EReal.rec with
  | bot => exact ⟨-1, by simp⟩
  | coe r => exact ⟨Real.tanh r, rfl⟩
  | top => exact ⟨1, by simp⟩

/-- The left operand's index at output index i and shared coordinate q is (i₀, q); the right operand's is (q, i₁). -/
theorem lhs0 (i : S1024x2048.Idx) (q : dot_S1024x256_S256x2048_S1024x2048_1_0_0_1_n_n.contr.Idx) :
    (dot_S1024x256_S256x2048_S1024x2048_1_0_0_1_n_n.lhsIdx i q 0).val = (i 0).val := by
  unfold DotDims.lhsIdx
  rw [dif_neg (show ¬(0 : Fin S1024x256.rank) ∈ dot_S1024x256_S256x2048_S1024x2048_1_0_0_1_n_n.lhsBatch by decide), dif_pos (show (0 : Fin S1024x256.rank) ∈ dot_S1024x256_S256x2048_S1024x2048_1_0_0_1_n_n.lhsNonContracting by decide)]
  rfl
theorem lhs1 (i : S1024x2048.Idx) (q : dot_S1024x256_S256x2048_S1024x2048_1_0_0_1_n_n.contr.Idx) :
    (dot_S1024x256_S256x2048_S1024x2048_1_0_0_1_n_n.lhsIdx i q 1).val = (q ⟨0, by decide⟩).val :=
  dot_S1024x256_S256x2048_S1024x2048_1_0_0_1_n_n.lhsIdx_val_of_single rfl i q
theorem rhs0 (i : S1024x2048.Idx) (q : dot_S1024x256_S256x2048_S1024x2048_1_0_0_1_n_n.contr.Idx) :
    (dot_S1024x256_S256x2048_S1024x2048_1_0_0_1_n_n.rhsIdx i q 0).val = (q ⟨0, by decide⟩).val :=
  dot_S1024x256_S256x2048_S1024x2048_1_0_0_1_n_n.rhsIdx_val_of_single rfl i q
theorem rhs1 (i : S1024x2048.Idx) (q : dot_S1024x256_S256x2048_S1024x2048_1_0_0_1_n_n.contr.Idx) :
    (dot_S1024x256_S256x2048_S1024x2048_1_0_0_1_n_n.rhsIdx i q 1).val = (i 1).val := by
  unfold DotDims.rhsIdx
  rw [dif_neg (show ¬(1 : Fin S256x2048.rank) ∈ dot_S1024x256_S256x2048_S1024x2048_1_0_0_1_n_n.rhsBatch by decide), dif_pos (show (1 : Fin S256x2048.rank) ∈ dot_S1024x256_S256x2048_S1024x2048_1_0_0_1_n_n.rhsNonContracting by decide)]
  rfl

/-- A 1024 × 256 block times a 256 × 2048 block, added into the zero block, read at (r, n): the sum over the 256 shared
    coordinates of the products of the entries. -/
theorem mm_zero_apply {φ₁ φ₂ : FTy} (A : FVec Ideal S1024x256 φ₁) (B : FVec Ideal S256x2048 φ₂) (r : Fin 1024) (n : Fin 2048) :
    matmul dot_S1024x256_S256x2048_S1024x2048_1_0_0_1_n_n none A B (constant (F := Ideal) S1024x2048 .f32 0x00000000#32) (ix2 r n)
      = ∑ j : Fin 256, A (ix2 r j) * B (ix2 j n) := by
  refine (Ideal.matmul_constant_zero_apply dot_S1024x256_S256x2048_S1024x2048_1_0_0_1_n_n none A B (ix2 r n)).trans ?_
  rw [← Equiv.sum_comp (contrEquiv1 dot_S1024x256_S256x2048_S1024x2048_1_0_0_1_n_n 256 rfl rfl).symm]
  refine Finset.sum_congr rfl fun j _ => ?_
  have hk := contrEquiv1_symm_val dot_S1024x256_S256x2048_S1024x2048_1_0_0_1_n_n 256 rfl rfl j
  have el : dot_S1024x256_S256x2048_S1024x2048_1_0_0_1_n_n.lhsIdx (ix2 r n) ((contrEquiv1 dot_S1024x256_S256x2048_S1024x2048_1_0_0_1_n_n 256 rfl rfl).symm j) = ix2 r j := funext fun a => Fin.ext (by
    match a with
    | ⟨0, _⟩ => exact lhs0 _ _
    | ⟨1, _⟩ => exact (lhs1 _ _).trans hk)
  have er : dot_S1024x256_S256x2048_S1024x2048_1_0_0_1_n_n.rhsIdx (ix2 r n) ((contrEquiv1 dot_S1024x256_S256x2048_S1024x2048_1_0_0_1_n_n 256 rfl rfl).symm j) = ix2 j n := funext fun a => Fin.ext (by
    match a with
    | ⟨0, _⟩ => exact (rhs0 _ _).trans hk
    | ⟨1, _⟩ => exact rhs1 _ _)
  rw [el, er]

/-- The split product of a 1024 × 256 block A and a 256 × 2048 block B of real numbers, read at (r, n). The product is
    taken as A·B + A·(B − B) + (A − A)·B, each into the zero block; on real numbers x − x = 0, so the two correction
    products are sums of zeros and what is left is the sum over the 256 shared coordinates of the products of the entries. -/
theorem split_product_apply (A : FVec Ideal S1024x256 .f32) (B : FVec Ideal S256x2048 .f32)
    (hA : ∀ (r : Fin 1024) (j : Fin 256), ∃ x : ℝ, A (ix2 r j) = (x : EReal))
    (hB : ∀ (j : Fin 256) (n : Fin 2048), ∃ x : ℝ, B (ix2 j n) = (x : EReal))
    (r : Fin 1024) (n : Fin 2048) :
    addf (addf (matmul dot_S1024x256_S256x2048_S1024x2048_1_0_0_1_n_n none (truncf .bf16 A bitsLt_bf16_f32) (truncf .bf16 B bitsLt_bf16_f32) (constant (F := Ideal) S1024x2048 .f32 0x00000000#32))
               (matmul dot_S1024x256_S256x2048_S1024x2048_1_0_0_1_n_n none (truncf .bf16 A bitsLt_bf16_f32) (truncf .bf16 (subf B B) bitsLt_bf16_f32) (constant (F := Ideal) S1024x2048 .f32 0x00000000#32)))
         (matmul dot_S1024x256_S256x2048_S1024x2048_1_0_0_1_n_n none (truncf .bf16 (subf A A) bitsLt_bf16_f32) (truncf .bf16 B bitsLt_bf16_f32) (constant (F := Ideal) S1024x2048 .f32 0x00000000#32)) (ix2 r n)
      = ∑ j : Fin 256, A (ix2 r j) * B (ix2 j n) := by
  refine (addf_apply _ _ _).trans ?_
  refine (congrArg₂ (· + ·) ((addf_apply _ _ _).trans (congrArg₂ (· + ·) (mm_zero_apply _ _ r n) (mm_zero_apply _ _ r n))) (mm_zero_apply _ _ r n)).trans ?_
  have h2 : ∑ j : Fin 256, (truncf .bf16 A bitsLt_bf16_f32 : FVec Ideal S1024x256 .bf16) (ix2 r j) * (truncf .bf16 (subf B B) bitsLt_bf16_f32 : FVec Ideal S256x2048 .bf16) (ix2 j n) = 0 :=
    Finset.sum_eq_zero fun j _ => by
      obtain ⟨x, hx⟩ := hB j n
      show A (ix2 r j) * (B (ix2 j n) - B (ix2 j n)) = 0
      rw [hx, coe_sub_self, mul_zero]
  have h3 : ∑ j : Fin 256, (truncf .bf16 (subf A A) bitsLt_bf16_f32 : FVec Ideal S1024x256 .bf16) (ix2 r j) * (truncf .bf16 B bitsLt_bf16_f32 : FVec Ideal S256x2048 .bf16) (ix2 j n) = 0 :=
    Finset.sum_eq_zero fun j _ => by
      obtain ⟨x, hx⟩ := hA r j
      show (A (ix2 r j) - A (ix2 r j)) * B (ix2 j n) = 0
      rw [hx, coe_sub_self, zero_mul]
  rw [h2, h3, add_zero, add_zero]
  rfl

end Cert.KernelIdeal.HiLo

end
-- ==== Proof.LibBlockIx.lean ====
/-
  Coordinates of a block's entries in the whole 2048 × 2048 matrices of the data path.

  The grid cuts the rows into two blocks of 1024 and the contracted axis into eight blocks of 256.  Row r of row block i
  is row 1024·i + r; entry j of block k of the contracted axis is coordinate 256·k + j.  (Both are taken modulo 2048 so
  that they are defined for every natural i and k; for i < 2 and k < 8 nothing is reduced.)  A sum over the 2048
  coordinates of the contracted axis is the sum over the eight blocks of the sums over each block's 256 entries.
-/
import Idealize.ShloMosaic.Lib.ValueIdx

set_option maxRecDepth 16384

noncomputable section

namespace Cert.KernelIdeal.HiLo

/-- Row r of row block i (1024 rows to a block), as a row of the whole matrix. -/
def rowIx (i : ℕ) (r : Fin 1024) : Fin 2048 := ⟨(1024 * i + r.val) % 2048, Nat.mod_lt _ (by decide)⟩
/-- Entry j of block k along the contracted axis (256 entries to a block), as a coordinate of the whole axis. -/
def colIx (k : ℕ) (j : Fin 256) : Fin 2048 := ⟨(256 * k + j.val) % 2048, Nat.mod_lt _ (by decide)⟩

theorem rowIx_val (i : ℕ) (hi : i < 2) (r : Fin 1024) : (rowIx i r).val = 1024 * i + r.val := by
  have := r.isLt; show (1024 * i + r.val) % 2048 = _; omega
theorem colIx_val (k : ℕ) (hk : k < 8) (j : Fin 256) : (colIx k j).val = 256 * k + j.val := by
  have := j.isLt; show (256 * k + j.val) % 2048 = _; omega

/-- A sum over the 2048 coordinates of the contracted axis is the sum over its eight blocks of the sums over each block's
    256 entries. -/
theorem sum_blocks {M : Type*} [AddCommMonoid M] (u : Fin 2048 → M) :
    ∑ x : Fin 2048, u x = ∑ k ∈ Finset.range 8, ∑ j : Fin 256, u (colIx k j) := by
  rw [← Fin.sum_univ_eq_sum_range (fun k => ∑ j : Fin 256, u (colIx k j)) 8, ← Fintype.sum_prod_type' (f := fun (k : Fin 8) (j : Fin 256) => u (colIx k.val j))]
  refine (Equiv.sum_comp (finProdFinEquiv (m := 8) (n := 256)) u).symm.trans ?_
  refine Finset.sum_congr rfl fun p _ => congrArg u (Fin.ext ?_)
  obtain ⟨k, j⟩ := p
  have hk := k.isLt; have hj := j.isLt
  show j.val + 256 * k.val = (256 * k.val + j.val) % 2048
  omega

end Cert.KernelIdeal.HiLo

end
-- ==== Proof.KI.R4.ValueAcc.lean ====
/-
  The cell update c' = f · c + g · i, the values, part two: the accumulator over the points, on the extended reals.

  Write Ft, C, Gt, It for the arrays of f, c, g, i as the region finds them, and let all four hold real numbers.  Each of
  a point's two stores adds, at (r, n), the sum over the point's 256 shared coordinates of the products of two blocks'
  entries: on real numbers the split product's two correction terms vanish.  At the point t = 8·i + k the blocks of f
  and g are block (i, k) of Ft and Gt and the blocks of c and i are block (k, 0) of C and It, so the point adds block
  k's share  Σ_{j < 256} Ft(1024·i + r, 256·k + j) · C(256·k + j, n) + Σ_{j < 256} Gt(1024·i + r, 256·k + j) · It(256·k + j, n);
  after the point the accumulator at (r, n) holds the shares of blocks 0 … k — by induction on the point — and the
  eight shares add up to the entry of Ft · C + Gt · It.
-/
import proofs.«116394_j17480516895034_2_alg».proof.Proof.KI.R4.ValuePieces
import proofs.«116394_j17480516895034_2_alg».proof.Proof.Spec
import proofs.«116394_j17480516895034_2_alg».proof.Proof.LibHiLo
import proofs.«116394_j17480516895034_2_alg».proof.Proof.LibBlockIx

set_option maxRecDepth 16384

noncomputable section

namespace Cert.KernelIdeal.R4

open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window)
open Cert.KernelIdeal.HiLo

/-- The cleared accumulator reads zero everywhere. -/
theorem pay2_apply (r : Fin 1024) (n : Fin 2048) : k4_pay2 (F := Ideal) (ix2 r n) = 0 := by
  unfold k4_pay2
  rw [shapeCast_self]
  exact Ideal.ofBits_zero_f32

/-- A point's first store, read at (r, n): what the accumulator held there plus the sum over the 256 shared coordinates
    of the entry of the block of f times the entry of the block of c — when both blocks hold real numbers. -/
theorem pay3_apply (v3 : Vec Ideal S1024x2048 .f32) (v4 : Vec Ideal S1024x256 .f32) (v6 : Vec Ideal S256x2048 .f32)
    (hA : ∀ (r : Fin 1024) (j : Fin 256), ∃ x : ℝ, v4 (ix2 r j) = (x : EReal))
    (hB : ∀ (j : Fin 256) (n : Fin 2048), ∃ x : ℝ, v6 (ix2 j n) = (x : EReal)) (r : Fin 1024) (n : Fin 2048) :
    k4_pay3 (F := Ideal) v3 v4 v6 (ix2 r n) = v3 (ix2 r n) + ∑ j : Fin 256, v4 (ix2 r j) * v6 (ix2 j n) := by
  unfold k4_pay3
  simp only [shapeCast_self]
  refine (addf_apply _ _ _).trans ?_
  refine congrArg (v3 (ix2 r n) + ·) ?_
  exact HiLo.split_product_apply v4 v6 hA hB r n

/-- A point's second store, read at (r, n): what the first store left there plus the sum over the 256 shared coordinates
    of the entry of the block of g times the entry of the block of i — when both blocks hold real numbers. -/
theorem pay1_apply (v24 : Vec Ideal S1024x2048 .f32) (G : Vec Ideal S1024x256 .f32) (I : Vec Ideal S256x2048 .f32)
    (hA : ∀ (r : Fin 1024) (j : Fin 256), ∃ x : ℝ, G (ix2 r j) = (x : EReal))
    (hB : ∀ (j : Fin 256) (n : Fin 2048), ∃ x : ℝ, I (ix2 j n) = (x : EReal)) (r : Fin 1024) (n : Fin 2048) :
    k4_pay1 (F := Ideal) v24 (k4_pay6 G) (k4_pay7 G) (k4_pay8 I) (k4_pay9 I) (ix2 r n)
      = v24 (ix2 r n) + ∑ j : Fin 256, G (ix2 r j) * I (ix2 j n) := by
  unfold k4_pay1 k4_pay6 k4_pay7 k4_pay8 k4_pay9 k4_pay4 k4_pay5
  simp only [shapeCast_self]
  refine (addf_apply _ _ _).trans ?_
  refine congrArg (v24 (ix2 r n) + ·) ?_
  exact HiLo.split_product_apply G I hA hB r n

/-- Where the five windows' blocks sit, at every point t = 8·i + k: f's and g's at block (i, k), c's and i's at block
    (k, 0), the output's at block (i, 0). -/
theorem idx_facts : ∀ t : Fin cfg4.N, win4_0.index t (0 : Fin 2) = t.val / 8 ∧ win4_0.index t (1 : Fin 2) = t.val % 8
    ∧ win4_1.index t (0 : Fin 2) = t.val % 8 ∧ win4_1.index t (1 : Fin 2) = 0
    ∧ win4_2.index t (0 : Fin 2) = t.val / 8 ∧ win4_2.index t (1 : Fin 2) = t.val % 8
    ∧ win4_3.index t (0 : Fin 2) = t.val % 8 ∧ win4_3.index t (1 : Fin 2) = 0
    ∧ win4_4.index t (0 : Fin 2) = t.val / 8 ∧ win4_4.index t (1 : Fin 2) = 0 :=
  (by decide +kernel : ∀ t : Fin grid4.N, _)

variable (V : (c : Dev nD) → (b : Ref sig .tc) → Buf (Elt Ideal) ((c : Thread nD τ).loc b))

/-- The block of f at point t = 8·i + k, read at (r, j), is f at row 1024·i + r and column 256·k + j. -/
theorem blockF_apply (c : Dev nD) (t : Fin cfg4.N) (r : Fin 1024) (j : Fin 256) :
    (blockAt V c 0 t : Vec Ideal S1024x256 .f32) (ix2 r j) = Spec.at2 (V c main_v3) (rowIx (t.val / 8) r) (colIx (t.val % 8) j) := by
  have hN : t.val < 16 := lt_of_lt_of_eq t.isLt (show cfg4.N = 16 from N_4)
  obtain ⟨e0, e1, e2, e3, e4, e5, e6, e7, e8, e9⟩ := idx_facts t
  unfold blockAt Spec.at2
  rw [View.read_apply]
  show V c main_v3 (((cfg4.win 0).blk t).view.emb (ix2 r j)) = V c main_v3 (ix2 (rowIx (t.val / 8) r) (colIx (t.val % 8) j))
  refine congrArg (V c main_v3) (funext fun a => Fin.ext ?_)
  match a with
  | ⟨0, _⟩ => show win4_0.index t (0 : Fin 2) * 1024 + 1 * r.val = (1024 * (t.val / 8) + r.val) % 2048; have := r.isLt; omega
  | ⟨1, _⟩ => show win4_0.index t (1 : Fin 2) * 256 + 1 * j.val = (256 * (t.val % 8) + j.val) % 2048; have := j.isLt; omega

/-- The block of c at point t = 8·i + k, read at (j, n), is c at row 256·k + j and column n. -/
theorem blockC_apply (c : Dev nD) (t : Fin cfg4.N) (j : Fin 256) (n : Fin 2048) :
    (blockAt V c 1 t : Vec Ideal S256x2048 .f32) (ix2 j n) = Spec.at2 (V c main_arg1) (colIx (t.val % 8) j) n := by
  have hN : t.val < 16 := lt_of_lt_of_eq t.isLt (show cfg4.N = 16 from N_4)
  obtain ⟨e0, e1, e2, e3, e4, e5, e6, e7, e8, e9⟩ := idx_facts t
  unfold blockAt Spec.at2
  rw [View.read_apply]
  show V c main_arg1 (((cfg4.win 1).blk t).view.emb (ix2 j n)) = V c main_arg1 (ix2 (colIx (t.val % 8) j) n)
  refine congrArg (V c main_arg1) (funext fun a => Fin.ext ?_)
  match a with
  | ⟨0, _⟩ => show win4_1.index t (0 : Fin 2) * 256 + 1 * j.val = (256 * (t.val % 8) + j.val) % 2048; have := j.isLt; omega
  | ⟨1, _⟩ => show win4_1.index t (1 : Fin 2) * 2048 + 1 * n.val = n.val; omega

/-- The block of g at point t = 8·i + k, read at (r, j), is g at row 1024·i + r and column 256·k + j. -/
theorem blockG_apply (c : Dev nD) (t : Fin cfg4.N) (r : Fin 1024) (j : Fin 256) :
    (blockAt V c 2 t : Vec Ideal S1024x256 .f32) (ix2 r j) = Spec.at2 (V c main_v7) (rowIx (t.val / 8) r) (colIx (t.val % 8) j) := by
  have hN : t.val < 16 := lt_of_lt_of_eq t.isLt (show cfg4.N = 16 from N_4)
  obtain ⟨e0, e1, e2, e3, e4, e5, e6, e7, e8, e9⟩ := idx_facts t
  unfold blockAt Spec.at2
  rw [View.read_apply]
  show V c main_v7 (((cfg4.win 2).blk t).view.emb (ix2 r j)) = V c main_v7 (ix2 (rowIx (t.val / 8) r) (colIx (t.val % 8) j))
  refine congrArg (V c main_v7) (funext fun a => Fin.ext ?_)
  match a with
  | ⟨0, _⟩ => show win4_2.index t (0 : Fin 2) * 1024 + 1 * r.val = (1024 * (t.val / 8) + r.val) % 2048; have := r.isLt; omega
  | ⟨1, _⟩ => show win4_2.index t (1 : Fin 2) * 256 + 1 * j.val = (256 * (t.val % 8) + j.val) % 2048; have := j.isLt; omega

/-- The block of i at point t = 8·i + k, read at (j, n), is i at row 256·k + j and column n. -/
theorem blockI_apply (c : Dev nD) (t : Fin cfg4.N) (j : Fin 256) (n : Fin 2048) :
    (blockAt V c 3 t : Vec Ideal S256x2048 .f32) (ix2 j n) = Spec.at2 (V c main_v11) (colIx (t.val % 8) j) n := by
  have hN : t.val < 16 := lt_of_lt_of_eq t.isLt (show cfg4.N = 16 from N_4)
  obtain ⟨e0, e1, e2, e3, e4, e5, e6, e7, e8, e9⟩ := idx_facts t
  unfold blockAt Spec.at2
  rw [View.read_apply]
  show V c main_v11 (((cfg4.win 3).blk t).view.emb (ix2 j n)) = V c main_v11 (ix2 (colIx (t.val % 8) j) n)
  refine congrArg (V c main_v11) (funext fun a => Fin.ext ?_)
  match a with
  | ⟨0, _⟩ => show win4_3.index t (0 : Fin 2) * 256 + 1 * j.val = (256 * (t.val % 8) + j.val) % 2048; have := j.isLt; omega
  | ⟨1, _⟩ => show win4_3.index t (1 : Fin 2) * 2048 + 1 * n.val = n.val; omega

/-- Block k's share of entry (r, n) of row block i of f · c + g · i: the two sums over the block's 256 coordinates. -/
def term (Ft C Gt It : Spec.Mat) (i : ℕ) (r : Fin 1024) (n : Fin 2048) (k : ℕ) : EReal :=
  ∑ j : Fin 256, Ft (rowIx i r) (colIx k j) * C (colIx k j) n + ∑ j : Fin 256, Gt (rowIx i r) (colIx k j) * It (colIx k j) n

/-- What point t = 8·i + k leaves, read at (r, n): what the accumulator held there plus block k's share — for f, c, g, i real. -/
theorem stored_apply (c : Dev nD) (finF : Spec.FiniteM (Spec.at2 (V c main_v3))) (finC : Spec.FiniteM (Spec.at2 (V c main_arg1))) (finG : Spec.FiniteM (Spec.at2 (V c main_v7))) (finI : Spec.FiniteM (Spec.at2 (V c main_v11)))
    (t : Fin cfg4.N) (xa : Vec Ideal S1024x2048 .f32) (r : Fin 1024) (n : Fin 2048) :
    k4_pay1 (F := Ideal) (k4_pay3 xa (blockAt V c 0 t) (blockAt V c 1 t)) (k4_pay6 (blockAt V c 2 t)) (k4_pay7 (blockAt V c 2 t)) (k4_pay8 (blockAt V c 3 t)) (k4_pay9 (blockAt V c 3 t)) (ix2 r n)
      = xa (ix2 r n) + term (Spec.at2 (V c main_v3)) (Spec.at2 (V c main_arg1)) (Spec.at2 (V c main_v7)) (Spec.at2 (V c main_v11)) (t.val / 8) r n (t.val % 8) := by
  refine (pay1_apply _ (blockAt V c 2 t) (blockAt V c 3 t) (fun r' j => ?_) (fun j m => ?_) r n).trans ?_
  · obtain ⟨x, hx⟩ := finG (rowIx (t.val / 8) r') (colIx (t.val % 8) j)
    exact ⟨x, (blockG_apply V c t r' j).trans hx⟩
  · obtain ⟨x, hx⟩ := finI (colIx (t.val % 8) j) m
    exact ⟨x, (blockI_apply V c t j m).trans hx⟩
  refine (congrArg (· + _) (pay3_apply xa (blockAt V c 0 t) (blockAt V c 1 t) (fun r' j => ?_) (fun j m => ?_) r n)).trans ?_
  · obtain ⟨x, hx⟩ := finF (rowIx (t.val / 8) r') (colIx (t.val % 8) j)
    exact ⟨x, (blockF_apply V c t r' j).trans hx⟩
  · obtain ⟨x, hx⟩ := finC (colIx (t.val % 8) j) m
    exact ⟨x, (blockC_apply V c t j m).trans hx⟩
  rw [add_assoc]
  refine congrArg (xa (ix2 r n) + ·) ?_
  unfold term
  refine congrArg₂ (· + ·) (Finset.sum_congr rfl fun j _ => ?_) (Finset.sum_congr rfl fun j _ => ?_)
  · rw [blockF_apply V c t r j, blockC_apply V c t j n]
  · rw [blockG_apply V c t r j, blockI_apply V c t j n]

/-- After a point t = 8·i with k = 0 the accumulator at (r, n) holds block 0's share. -/
theorem acc_first (c : Dev nD) (finF : Spec.FiniteM (Spec.at2 (V c main_v3))) (finC : Spec.FiniteM (Spec.at2 (V c main_arg1))) (finG : Spec.FiniteM (Spec.at2 (V c main_v7))) (finI : Spec.FiniteM (Spec.at2 (V c main_v11)))
    (t : Fin cfg4.N) (h0 : t.val % 8 = 0) (r : Fin 1024) (n : Fin 2048) :
    ((heldAt V c t.val t.isLt).2 : Vec Ideal S1024x2048 .f32) (ix2 r n)
      = term (Spec.at2 (V c main_v3)) (Spec.at2 (V c main_arg1)) (Spec.at2 (V c main_v7)) (Spec.at2 (V c main_v11)) (t.val / 8) r n (t.val % 8) := by
  rw [held_first V c t h0 (by omega), stored_apply V c finF finC finG finI t, pay2_apply, zero_add]

/-- After a point t = 8·i + k with k > 0 it holds what the point before left plus block k's share. -/
theorem acc_next (c : Dev nD) (finF : Spec.FiniteM (Spec.at2 (V c main_v3))) (finC : Spec.FiniteM (Spec.at2 (V c main_arg1))) (finG : Spec.FiniteM (Spec.at2 (V c main_v7))) (finI : Spec.FiniteM (Spec.at2 (V c main_v11)))
    (t : Fin cfg4.N) (h0 : ¬t.val % 8 = 0) (r : Fin 1024) (n : Fin 2048) :
    ((heldAt V c t.val t.isLt).2 : Vec Ideal S1024x2048 .f32) (ix2 r n)
      = ((heldAt V c (t.val - 1) (Nat.lt_of_le_of_lt (Nat.sub_le _ _) t.isLt)).2 : Vec Ideal S1024x2048 .f32) (ix2 r n)
        + term (Spec.at2 (V c main_v3)) (Spec.at2 (V c main_arg1)) (Spec.at2 (V c main_v7)) (Spec.at2 (V c main_v11)) (t.val / 8) r n (t.val % 8) := by
  by_cases h7 : t.val % 8 = 7
  · rw [held_last V c t h0 h7, stored_apply V c finF finC finG finI t]
  · rw [held_mid V c t h0 h7, stored_apply V c finF finC finG finI t]

/-- After the point t = 8·i + k the accumulator at (r, n) holds the shares of blocks 0 … k of row block i. -/
theorem acc_eq (c : Dev nD) (finF : Spec.FiniteM (Spec.at2 (V c main_v3))) (finC : Spec.FiniteM (Spec.at2 (V c main_arg1))) (finG : Spec.FiniteM (Spec.at2 (V c main_v7))) (finI : Spec.FiniteM (Spec.at2 (V c main_v11))) :
    ∀ (N : ℕ) (t : Fin cfg4.N), t.val = N → ∀ (r : Fin 1024) (n : Fin 2048),
      ((heldAt V c t.val t.isLt).2 : Vec Ideal S1024x2048 .f32) (ix2 r n)
        = ∑ k ∈ Finset.range (t.val % 8 + 1), term (Spec.at2 (V c main_v3)) (Spec.at2 (V c main_arg1)) (Spec.at2 (V c main_v7)) (Spec.at2 (V c main_v11)) (t.val / 8) r n k := by
  intro N
  induction N with
  | zero =>
    intro t ht r n
    have h0 : t.val % 8 = 0 := by rw [ht]
    rw [acc_first V c finF finC finG finI t h0 r n, h0, Finset.sum_range_one]
  | succ N ih =>
    intro t ht r n
    by_cases h0 : t.val % 8 = 0
    · rw [acc_first V c finF finC finG finI t h0 r n, h0, Finset.sum_range_one]
    · have hlt : t.val - 1 < cfg4.N := Nat.lt_of_le_of_lt (Nat.sub_le _ _) t.isLt
      have e := ih ⟨t.val - 1, hlt⟩ (by show t.val - 1 = N; omega) r n
      have hdiv : (t.val - 1) / 8 = t.val / 8 := by omega
      have hmod : (t.val - 1) % 8 + 1 = t.val % 8 := by omega
      rw [acc_next V c finF finC finG finI t h0 r n]
      refine (congrArg (· + term (Spec.at2 (V c main_v3)) (Spec.at2 (V c main_arg1)) (Spec.at2 (V c main_v7)) (Spec.at2 (V c main_v11)) (t.val / 8) r n (t.val % 8)) e).trans ?_
      show ∑ k ∈ Finset.range ((t.val - 1) % 8 + 1), term _ _ _ _ ((t.val - 1) / 8) r n k + _ = _
      rw [hdiv, hmod]
      exact (Finset.sum_range_succ _ _).symm

/-- The eight shares of a row block's entry add up to the entry of f · c + g · i. -/
theorem sum_term (Ft C Gt It : Spec.Mat) (i : ℕ) (r : Fin 1024) (n : Fin 2048) :
    ∑ k ∈ Finset.range 8, term Ft C Gt It i r n k = Spec.cell Ft C Gt It (rowIx i r) n := by
  unfold Spec.cell Spec.mm term
  rw [Finset.sum_add_distrib]
  exact congrArg₂ (· + ·) (sum_blocks fun x => Ft (rowIx i r) x * C x n).symm (sum_blocks fun x => Gt (rowIx i r) x * It x n).symm

end Cert.KernelIdeal.R4

end
-- ==== Proof.KI.R4.Value.lean ====
/-
  The cell update c' = f · c + g · i, the values, part three: the result array.

  Only the points with k = 7 write the output block back, and what such a point t = 8·i + 7 writes is the accumulator
  after it: rows 1024·i … 1024·i + 1023 of Ft · C + Gt · It.  Row R of the result lies in row block R / 1024, so the two
  written blocks cover the array, which therefore ends holding Ft · C + Gt · It.
-/
import proofs.«116394_j17480516895034_2_alg».proof.Proof.KI.R4.ValueAcc

set_option maxRecDepth 16384

noncomputable section

namespace Cert.KernelIdeal.R4

open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window)
open Cert.KernelIdeal.HiLo

variable (V : (c : Dev nD) → (b : Ref sig .tc) → Buf (Elt Ideal) ((c : Thread nD τ).loc b))

/-- What a point with k = 7 writes back is its block of f · c + g · i. -/
theorem flushed_eq (c : Dev nD) (finF : Spec.FiniteM (Spec.at2 (V c main_v3))) (finC : Spec.FiniteM (Spec.at2 (V c main_arg1))) (finG : Spec.FiniteM (Spec.at2 (V c main_v7))) (finI : Spec.FiniteM (Spec.at2 (V c main_v11)))
    (t : Fin cfg4.N) (hf : (cfg4.win 4).flush t = true) :
    (dat V c).flushed 4 t = ((cfg4.win 4).blk t).view.read (Elt Ideal)
      (Spec.of2 (Spec.cell (Spec.at2 (V c main_v3)) (Spec.at2 (V c main_arg1)) (Spec.at2 (V c main_v7)) (Spec.at2 (V c main_v11)))) := by
  have h7 : t.val % 8 = 7 := (flush4_4 t).mp hf
  have h0 : ¬t.val % 8 = 0 := by omega
  have hN : t.val < 16 := lt_of_lt_of_eq t.isLt (show cfg4.N = 16 from N_4)
  obtain ⟨e0, e1, e2, e3, e4, e5, e6, e7, e8, e9⟩ := idx_facts t
  show (cfg4.win 4).cut (grid4.coords t) ((dat V c).after 4 t) = _
  rw [after_out, held_out V c t h0 h7]
  funext y
  rw [View.read_apply]
  show ((heldAt V c t.val t.isLt).2 : Vec Ideal S1024x2048 .f32) y
    = Spec.of2 (Spec.cell (Spec.at2 (V c main_v3)) (Spec.at2 (V c main_arg1)) (Spec.at2 (V c main_v7)) (Spec.at2 (V c main_v11))) (((cfg4.win 4).blk t).view.emb y)
  obtain ⟨r, n, rfl⟩ : ∃ (r : Fin 1024) (n : Fin 2048), y = ix2 r n := ⟨y 0, y 1, eq_ix2 y⟩
  rw [acc_eq V c finF finC finG finI t.val t rfl r n, h7, sum_term]
  unfold Spec.of2
  have hr : (((cfg4.win 4).blk t).view.emb (ix2 r n)) 0 = rowIx (t.val / 8) r := Fin.ext (by
    show win4_4.index t (0 : Fin 2) * 1024 + 1 * r.val = (1024 * (t.val / 8) + r.val) % 2048
    have := r.isLt; omega)
  have hn : (((cfg4.win 4).blk t).view.emb (ix2 r n)) 1 = n := Fin.ext (by
    show win4_4.index t (1 : Fin 2) * 2048 + 1 * n.val = n.val
    omega)
  rw [hr, hn]

/-- An index of the result array is in point t's block iff each coordinate is in the block's range on its axis. -/
theorem mem_blk (t : Fin cfg4.N) (i : S2048x2048.Idx) :
    i ∈ ((cfg4.win 4).blk t).view.set ↔ ∀ a : Fin 2, win4_4.index t a * S1024x2048.size a ≤ (i a).val ∧ (i a).val < win4_4.index t a * S1024x2048.size a + S1024x2048.size a := by
  show i ∈ ((View.whole main_v16).slice (win4_4.rect t)).set ↔ _
  rw [View.set_slice_whole, Rect.mem_set_unit]
  exact Iff.rfl

/-- Every entry of the result array is in the block of a point with k = 7: row R is in row block R / 1024. -/
theorem covered (i : S2048x2048.Idx) : ∃ t : Fin cfg4.N, (cfg4.win 4).flush t = true ∧ i ∈ ((cfg4.win 4).blk t).view.set := by
  have hi0 : (i 0).val < 2048 := (i 0).isLt
  have hi1 : (i 1).val < 2048 := (i 1).isLt
  have hN : cfg4.N = 16 := N_4
  refine ⟨⟨8 * ((i 0).val / 1024) + 7, by rw [hN]; omega⟩, (flush4_4 _).mpr (by show (8 * ((i 0).val / 1024) + 7) % 8 = 7; omega), ?_⟩
  rw [mem_blk]
  obtain ⟨e0, e1, e2, e3, e4, e5, e6, e7, e8, e9⟩ := idx_facts ⟨8 * ((i 0).val / 1024) + 7, by rw [hN]; omega⟩
  intro a
  match a with
  | ⟨0, _⟩ =>
    show win4_4.index _ (0 : Fin 2) * 1024 ≤ (i 0).val ∧ (i 0).val < win4_4.index _ (0 : Fin 2) * 1024 + 1024
    rw [e8]; show (8 * ((i 0).val / 1024) + 7) / 8 * 1024 ≤ (i 0).val ∧ (i 0).val < (8 * ((i 0).val / 1024) + 7) / 8 * 1024 + 1024
    omega
  | ⟨1, _⟩ =>
    show win4_4.index _ (1 : Fin 2) * 2048 ≤ (i 1).val ∧ (i 1).val < win4_4.index _ (1 : Fin 2) * 2048 + 2048
    rw [e9]; omega

/-- The result array of the region is f · c + g · i, when f, c, g and i hold real numbers. -/
theorem final (c : Dev nD) (finF : Spec.FiniteM (Spec.at2 (V c main_v3))) (finC : Spec.FiniteM (Spec.at2 (V c main_arg1))) (finG : Spec.FiniteM (Spec.at2 (V c main_v7))) (finI : Spec.FiniteM (Spec.at2 (V c main_v11))) :
    (dat V c).arrAt 4 cfg4.N = Spec.of2 (Spec.cell (Spec.at2 (V c main_v3)) (Spec.at2 (V c main_arg1)) (Spec.at2 (V c main_v7)) (Spec.at2 (V c main_v11))) :=
  (dat V c).arrAt_eq_of_cover 4 _ (fun t hf => flushed_eq V c finF finC finG finI t hf) covered

end Cert.KernelIdeal.R4

end
-- ==== Proof.KI.R5.ValuePieces.lean ====
/-
  The hidden-state product h = tanh(c) · o, the values, part one: what each case stores, as a term of the blocks.

  At every point the body stores into the accumulator one value: the product term of the block of c and the block of o
  added to what the accumulator held.  At k = 0 the accumulator is cleared first, so what it held is the zero block; at
  k = 7 the output block receives a copy of the accumulator after its store.  Each statement holds at every float instance.
-/
import proofs.«116394_j17480516895034_2_alg».proof.Proof.KI.R5.Data
import Idealize.ShloMosaic.Lib.Pipeline.Value
import Idealize.ShloMosaic.Lib.ValueIdx

set_option maxRecDepth 16384

noncomputable section

namespace Cert.KernelIdeal.R5

open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window)

variable {F : FTy → Type} [FloatOps F]

/-- The zero offsets of a whole-buffer rectangle. -/
theorem hz : (![0, 0] : Fin 2 → Nat) = fun _ => 0 := funext fun a => by fin_cases a <;> rfl

/-- 0 < k < 7: the accumulator, holding `xa`, ends at the one store's value: the product term of the two blocks added to `xa`. -/
theorem accMid_eq (c : Dev nD) (i : grid5.Coords) (arg2 : Memref sig .tc .vmem S1024x256 .f32) (harg2 : arg2.IsWhole) (arg3 : Memref sig .tc .vmem S256x2048 .f32) (harg3 : arg3.IsWhole) (arg4 : Memref sig .tc .vmem S1024x2048 .f32) (harg4 : arg4.IsWhole) (arg5 : Memref sig .tc .vmem S1024x2048 .f32) (harg5 : arg5.IsWhole) (h0 : ¬atFirst i) (h7 : ¬atLast i) (xc : Vec F S1024x256 .f32) (xo : Vec F S256x2048 .f32) (xa : Vec F S1024x2048 .f32) :
    accMid c i arg2 harg2 arg3 harg3 arg4 harg4 arg5 harg5 h0 h7 xc xo xa = k5_pay2 xc xa xo := by
  unfold accMid
  rw [View.read_writes_eq_canon _ _ _ (accCover_mid c i arg2 harg2 arg3 harg3 arg4 harg4 arg5 harg5 h0 h7 xc xo xa)]
  unfold runMid
  dsimp only
  sl_unfold_words
  rw [View.canon_unit_zero hz]
  simp only [View.readAt_eq_ld, harg2.read_unread, harg3.read_unread, harg5.read_unread, View.ld_unit_zero (S := S1024x256) hz, View.ld_unit_zero (S := S256x2048) hz, View.ld_unit_zero (S := S1024x2048) hz]

/-- k = 0: the accumulator is first cleared, and what is read back from it is the zero block; the product term is added to that. -/
theorem accFirst_eq (c : Dev nD) (i : grid5.Coords) (arg2 : Memref sig .tc .vmem S1024x256 .f32) (harg2 : arg2.IsWhole) (arg3 : Memref sig .tc .vmem S256x2048 .f32) (harg3 : arg3.IsWhole) (arg4 : Memref sig .tc .vmem S1024x2048 .f32) (harg4 : arg4.IsWhole) (arg5 : Memref sig .tc .vmem S1024x2048 .f32) (harg5 : arg5.IsWhole) (h0 : atFirst i) (h7 : ¬atLast i) (xc : Vec F S1024x256 .f32) (xo : Vec F S256x2048 .f32) :
    accFirst c i arg2 harg2 arg3 harg3 arg4 harg4 arg5 harg5 h0 h7 xc xo = k5_pay2 xc (k5_pay1 (F := F)) xo := by
  unfold accFirst
  rw [View.read_writes_eq_canon _ _ _ (accCover_first c i arg2 harg2 arg3 harg3 arg4 harg4 arg5 harg5 h0 h7 xc xo)]
  unfold runFirst
  dsimp only
  sl_unfold_words
  rw [View.canon_cons_unit_zero (S := S1024x2048) hz, View.readCov_unit_zero (S := S1024x2048) _ hz]
  simp only [View.readAt_eq_ld, harg2.read_unread, harg3.read_unread, harg5.read_unread, View.ld_unit_zero (S := S1024x256) hz, View.ld_unit_zero (S := S256x2048) hz, View.ld_unit_zero (S := S1024x2048) hz]

/-- k = 7: the accumulator, holding `xa`, ends at the same value as when 0 < k < 7: the product term added to `xa`. -/
theorem accLast_eq (c : Dev nD) (i : grid5.Coords) (arg2 : Memref sig .tc .vmem S1024x256 .f32) (harg2 : arg2.IsWhole) (arg3 : Memref sig .tc .vmem S256x2048 .f32) (harg3 : arg3.IsWhole) (arg4 : Memref sig .tc .vmem S1024x2048 .f32) (harg4 : arg4.IsWhole) (arg5 : Memref sig .tc .vmem S1024x2048 .f32) (harg5 : arg5.IsWhole) (h0 : ¬atFirst i) (h7 : atLast i) (xc : Vec F S1024x256 .f32) (xo : Vec F S256x2048 .f32) (xa : Vec F S1024x2048 .f32) :
    accLast c i arg2 harg2 arg3 harg3 arg4 harg4 arg5 harg5 h0 h7 xc xo xa = k5_pay2 xc xa xo := by
  unfold accLast
  rw [View.read_writes_eq_canon _ _ _ (accCover_last c i arg2 harg2 arg3 harg3 arg4 harg4 arg5 harg5 h0 h7 xc xo xa)]
  unfold runLast
  dsimp only
  sl_unfold_words
  rw [View.canon_unit_zero hz]
  simp only [View.readAt_eq_ld, harg2.read_unread, harg3.read_unread, harg5.read_unread, View.ld_unit_zero (S := S1024x256) hz, View.ld_unit_zero (S := S256x2048) hz, View.ld_unit_zero (S := S1024x2048) hz]

/-- k = 7: the output block ends at what the accumulator holds after its store: the product term added to `xa`. -/
theorem outLast_eq (c : Dev nD) (i : grid5.Coords) (arg2 : Memref sig .tc .vmem S1024x256 .f32) (harg2 : arg2.IsWhole) (arg3 : Memref sig .tc .vmem S256x2048 .f32) (harg3 : arg3.IsWhole) (arg4 : Memref sig .tc .vmem S1024x2048 .f32) (harg4 : arg4.IsWhole) (arg5 : Memref sig .tc .vmem S1024x2048 .f32) (harg5 : arg5.IsWhole) (h0 : ¬atFirst i) (h7 : atLast i) (xc : Vec F S1024x256 .f32) (xo : Vec F S256x2048 .f32) (xa : Vec F S1024x2048 .f32) :
    outLast c i arg2 harg2 arg3 harg3 arg4 harg4 arg5 harg5 h0 h7 xc xo xa = k5_pay2 xc xa xo := by
  unfold outLast
  rw [View.read_writes_eq_canon _ _ _ (outCover_last c i arg2 harg2 arg3 harg3 arg4 harg4 arg5 harg5 h0 h7 xc xo xa)]
  unfold runLast
  dsimp only
  sl_unfold_words
  rw [View.canon_unit_zero hz, View.readCov_unit_zero (S := S1024x2048) _ hz]
  simp only [View.readAt_eq_ld, harg2.read_unread, harg3.read_unread, harg5.read_unread, View.ld_unit_zero (S := S1024x256) hz, View.ld_unit_zero (S := S256x2048) hz, View.ld_unit_zero (S := S1024x2048) hz]

end Cert.KernelIdeal.R5

end
-- ==== Proof.KI.R5.ValueHeld.lean ====
/-
  The hidden-state product h = tanh(c) · o, the values, part three: the buffers point by point, as terms of the blocks.

  With what each case stores known as a term, the accumulator after a point is the product term of that point's blocks
  added to the zero block (k = 0) or to what the point before left (k > 0); at k = 7 the output block holds the same
  value.  Each statement holds at every float instance.
-/
import proofs.«116394_j17480516895034_2_alg».proof.Proof.KI.R5.ValuePieces

set_option maxRecDepth 16384

noncomputable section

namespace Cert.KernelIdeal.R5

open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

/-- After a point with k = 0 the accumulator holds the product term of that point's blocks added to the zero block. -/
theorem held_first (c : Dev nD) (t : Fin cfg5.N) (h0 : t.val % 8 = 0) (h7 : ¬t.val % 8 = 7) :
    (heldAt V c t.val t.isLt).2 = k5_pay2 (blockAt V c 0 t) (k5_pay1 (F := F)) (blockAt V c 1 t) := by
  rw [heldAt_first V c t h0 h7]
  dsimp only
  rw [accFirst_eq]

/-- After a point with 0 < k < 7 the accumulator holds the product term of that point's blocks added to what the point before left. -/
theorem held_mid (c : Dev nD) (t : Fin cfg5.N) (h0 : ¬t.val % 8 = 0) (h7 : ¬t.val % 8 = 7) :
    (heldAt V c t.val t.isLt).2 = k5_pay2 (blockAt V c 0 t) (heldAt V c (t.val - 1) (Nat.lt_of_le_of_lt (Nat.sub_le _ _) t.isLt)).2 (blockAt V c 1 t) := by
  rw [heldAt_mid V c t h0 h7]
  dsimp only
  rw [accMid_eq]

/-- After a point with k = 7 the accumulator holds the product term of that point's blocks added to what the point before left. -/
theorem held_last (c : Dev nD) (t : Fin cfg5.N) (h0 : ¬t.val % 8 = 0) (h7 : t.val % 8 = 7) :
    (heldAt V c t.val t.isLt).2 = k5_pay2 (blockAt V c 0 t) (heldAt V c (t.val - 1) (Nat.lt_of_le_of_lt (Nat.sub_le _ _) t.isLt)).2 (blockAt V c 1 t) := by
  rw [heldAt_last V c t h0 h7]
  dsimp only
  rw [accLast_eq]

/-- After a point with k = 7 the output block holds the same value as the accumulator. -/
theorem held_out (c : Dev nD) (t : Fin cfg5.N) (h0 : ¬t.val % 8 = 0) (h7 : t.val % 8 = 7) :
    (heldAt V c t.val t.isLt).1 = k5_pay2 (blockAt V c 0 t) (heldAt V c (t.val - 1) (Nat.lt_of_le_of_lt (Nat.sub_le _ _) t.isLt)).2 (blockAt V c 1 t) := by
  rw [heldAt_last V c t h0 h7]
  dsimp only
  rw [outLast_eq]

end Cert.KernelIdeal.R5

end
-- ==== Proof.KI.R5.ValueBlocks.lean ====
/-
  The hidden-state product h = tanh(c) · o, the values, part four: a window's block read at one entry.

  At the point t = 8·i + k the block of c is block (i, k) of c's array (1024 rows by 256 columns), the block of o is
  block (k, 0) of o's (256 rows by all 2048 columns) and the output block is block (i, 0) of the result's (1024 rows by
  2048 columns).  An entry of a block sits in its array, on each axis, at the block index times the block size plus the
  entry's own coordinate.
-/
import proofs.«116394_j17480516895034_2_alg».proof.Proof.KI.R5.Data
import proofs.«116394_j17480516895034_2_alg».proof.Proof.Spec
import proofs.«116394_j17480516895034_2_alg».proof.Proof.LibBlockIx
import Idealize.ShloMosaic.Lib.Pipeline.Value
import Idealize.ShloMosaic.Lib.ValueIdx

set_option maxRecDepth 16384

noncomputable section

namespace Cert.KernelIdeal.R5

open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window)
open Cert.KernelIdeal.HiLo

/-- Where the three windows' blocks sit, at every point t = 8·i + k: c's at block (i, k), o's at block (k, 0), the
    output's at block (i, 0). -/
theorem idx_facts : ∀ t : Fin cfg5.N, win5_0.index t (0 : Fin 2) = t.val / 8 ∧ win5_0.index t (1 : Fin 2) = t.val % 8
    ∧ win5_1.index t (0 : Fin 2) = t.val % 8 ∧ win5_1.index t (1 : Fin 2) = 0
    ∧ win5_2.index t (0 : Fin 2) = t.val / 8 ∧ win5_2.index t (1 : Fin 2) = 0 :=
  (by decide +kernel : ∀ t : Fin grid5.N, _)

variable (V : (c : Dev nD) → (b : Ref sig .tc) → Buf (Elt Ideal) ((c : Thread nD τ).loc b))

/-- The block of c at point t = 8·i + k, read at (r, j), is c at row 1024·i + r and column 256·k + j. -/
theorem blockC_apply (c : Dev nD) (t : Fin cfg5.N) (r : Fin 1024) (j : Fin 256) :
    (blockAt V c 0 t : Vec Ideal S1024x256 .f32) (ix2 r j) = Spec.at2 (V c main_v16) (rowIx (t.val / 8) r) (colIx (t.val % 8) j) := by
  have hN : t.val < 16 := lt_of_lt_of_eq t.isLt (show cfg5.N = 16 from N_5)
  obtain ⟨e0, e1, e2, e3, e4, e5⟩ := idx_facts t
  unfold blockAt Spec.at2
  rw [View.read_apply]
  show V c main_v16 (((cfg5.win 0).blk t).view.emb (ix2 r j)) = V c main_v16 (ix2 (rowIx (t.val / 8) r) (colIx (t.val % 8) j))
  refine congrArg (V c main_v16) (funext fun a => Fin.ext ?_)
  match a with
  | ⟨0, _⟩ => show win5_0.index t (0 : Fin 2) * 1024 + 1 * r.val = (1024 * (t.val / 8) + r.val) % 2048; have := r.isLt; omega
  | ⟨1, _⟩ => show win5_0.index t (1 : Fin 2) * 256 + 1 * j.val = (256 * (t.val % 8) + j.val) % 2048; have := j.isLt; omega

/-- The block of o at point t = 8·i + k, read at (j, n), is o at row 256·k + j and column n. -/
theorem blockO_apply (c : Dev nD) (t : Fin cfg5.N) (j : Fin 256) (n : Fin 2048) :
    (blockAt V c 1 t : Vec Ideal S256x2048 .f32) (ix2 j n) = Spec.at2 (V c main_v15) (colIx (t.val % 8) j) n := by
  have hN : t.val < 16 := lt_of_lt_of_eq t.isLt (show cfg5.N = 16 from N_5)
  obtain ⟨e0, e1, e2, e3, e4, e5⟩ := idx_facts t
  unfold blockAt Spec.at2
  rw [View.read_apply]
  show V c main_v15 (((cfg5.win 1).blk t).view.emb (ix2 j n)) = V c main_v15 (ix2 (colIx (t.val % 8) j) n)
  refine congrArg (V c main_v15) (funext fun a => Fin.ext ?_)
  match a with
  | ⟨0, _⟩ => show win5_1.index t (0 : Fin 2) * 256 + 1 * j.val = (256 * (t.val % 8) + j.val) % 2048; have := j.isLt; omega
  | ⟨1, _⟩ => show win5_1.index t (1 : Fin 2) * 2048 + 1 * n.val = n.val; omega

end Cert.KernelIdeal.R5

end
-- ==== Proof.KI.R5.ValuePay.lean ====
/-
  The hidden-state product h = tanh(c) · o, the values, part two: what a point stores, read at one entry.

  On the extended reals the stored value at (r, n) is what the accumulator held there plus the sum over the 256 shared
  coordinates j of tanh(c-block(r, j)) · o-block(j, n), provided the block of o holds real numbers: the split product's
  two correction terms vanish (tanh of anything is a real number, so the left factor needs no hypothesis).
-/
import proofs.«116394_j17480516895034_2_alg».proof.Proof.LibHiLo

set_option maxRecDepth 16384

noncomputable section

namespace Cert.KernelIdeal.R5

open Cert.KernelIdeal Cert.KernelIdeal.Gen
open Idealize.ShloMosaic Idealize.ShloMosaic.ValueIdx

/-- The cleared accumulator reads zero everywhere. -/
theorem pay1_apply (r : Fin 1024) (n : Fin 2048) : k5_pay1 (F := Ideal) (ix2 r n) = 0 := by
  unfold k5_pay1
  rw [shapeCast_self]
  exact Ideal.ofBits_zero_f32

/-- What a point stores, read at (r, n): what the accumulator held there plus the sum over the 256 shared coordinates
    of tanh of the entry of the block of c times the entry of the block of o — when the block of o holds real numbers
    (tanh of anything is a real number). -/
theorem pay2_apply (v3 : Vec Ideal S1024x256 .f32) (v6 : Vec Ideal S1024x2048 .f32) (v7 : Vec Ideal S256x2048 .f32)
    (hO : ∀ (j : Fin 256) (n : Fin 2048), ∃ x : ℝ, v7 (ix2 j n) = (x : EReal)) (r : Fin 1024) (n : Fin 2048) :
    k5_pay2 (F := Ideal) v3 v6 v7 (ix2 r n) = v6 (ix2 r n) + ∑ j : Fin 256, Ideal.tanh (v3 (ix2 r j)) * v7 (ix2 j n) := by
  unfold k5_pay2
  simp only [shapeCast_self]
  refine (addf_apply _ _ _).trans ?_
  refine congrArg (v6 (ix2 r n) + ·) ?_
  exact HiLo.split_product_apply (tanh v3) v7 (fun r j => HiLo.tanh_real _) hO r n

end Cert.KernelIdeal.R5

end
-- ==== Proof.KI.R5.ValueAcc.lean ====
/-
  The hidden-state product h = tanh(c) · o, the values, part five: the accumulator over the points, on the extended reals.

  Write C and O for the arrays of c and o as the region finds them, and let O hold real numbers.  Block k's share of
  entry (r, n) of row block i is  Σ_{j < 256} tanh C(1024·i + r, 256·k + j) · O(256·k + j, n).  The point t = 8·i + k adds
  block k's share to the accumulator (to zero at k = 0), so after it the accumulator at (r, n) holds the shares of
  blocks 0 … k — by induction on the point — and the eight shares add up to the entry of tanh(C) · O.
-/
import proofs.«116394_j17480516895034_2_alg».proof.Proof.KI.R5.ValueHeld
import proofs.«116394_j17480516895034_2_alg».proof.Proof.KI.R5.ValueBlocks
import proofs.«116394_j17480516895034_2_alg».proof.Proof.KI.R5.ValuePay

set_option maxRecDepth 16384

noncomputable section

namespace Cert.KernelIdeal.R5

open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window)
open Cert.KernelIdeal.HiLo

variable (V : (c : Dev nD) → (b : Ref sig .tc) → Buf (Elt Ideal) ((c : Thread nD τ).loc b))

/-- Block k's share of entry (r, n) of row block i of tanh(c) · o: the sum over the block's 256 coordinates. -/
def term (C O : Spec.Mat) (i : ℕ) (r : Fin 1024) (n : Fin 2048) (k : ℕ) : EReal :=
  ∑ j : Fin 256, Ideal.tanh (C (rowIx i r) (colIx k j)) * O (colIx k j) n

/-- What point t = 8·i + k stores, read at (r, n): what the accumulator held there plus block k's share — for o real. -/
theorem stored_apply (c : Dev nD) (finO : Spec.FiniteM (Spec.at2 (V c main_v15))) (t : Fin cfg5.N)
    (xa : Vec Ideal S1024x2048 .f32) (r : Fin 1024) (n : Fin 2048) :
    k5_pay2 (F := Ideal) (blockAt V c 0 t) xa (blockAt V c 1 t) (ix2 r n)
      = xa (ix2 r n) + term (Spec.at2 (V c main_v16)) (Spec.at2 (V c main_v15)) (t.val / 8) r n (t.val % 8) := by
  refine (pay2_apply (blockAt V c 0 t) xa (blockAt V c 1 t) (fun j m => ?_) r n).trans ?_
  · obtain ⟨x, hx⟩ := finO (colIx (t.val % 8) j) m
    exact ⟨x, (blockO_apply V c t j m).trans hx⟩
  · refine congrArg (xa (ix2 r n) + ·) (Finset.sum_congr rfl fun j _ => ?_)
    rw [blockC_apply V c t r j, blockO_apply V c t j n]

/-- After a point t = 8·i with k = 0 the accumulator at (r, n) holds block 0's share. -/
theorem acc_first (c : Dev nD) (finO : Spec.FiniteM (Spec.at2 (V c main_v15))) (t : Fin cfg5.N) (h0 : t.val % 8 = 0)
    (r : Fin 1024) (n : Fin 2048) :
    ((heldAt V c t.val t.isLt).2 : Vec Ideal S1024x2048 .f32) (ix2 r n)
      = term (Spec.at2 (V c main_v16)) (Spec.at2 (V c main_v15)) (t.val / 8) r n (t.val % 8) := by
  rw [held_first V c t h0 (by omega), stored_apply V c finO t, pay1_apply, zero_add]

/-- After a point t = 8·i + k with k > 0 it holds what the point before left plus block k's share. -/
theorem acc_next (c : Dev nD) (finO : Spec.FiniteM (Spec.at2 (V c main_v15))) (t : Fin cfg5.N) (h0 : ¬t.val % 8 = 0)
    (r : Fin 1024) (n : Fin 2048) :
    ((heldAt V c t.val t.isLt).2 : Vec Ideal S1024x2048 .f32) (ix2 r n)
      = ((heldAt V c (t.val - 1) (Nat.lt_of_le_of_lt (Nat.sub_le _ _) t.isLt)).2 : Vec Ideal S1024x2048 .f32) (ix2 r n)
        + term (Spec.at2 (V c main_v16)) (Spec.at2 (V c main_v15)) (t.val / 8) r n (t.val % 8) := by
  by_cases h7 : t.val % 8 = 7
  · rw [held_last V c t h0 h7, stored_apply V c finO t]
  · rw [held_mid V c t h0 h7, stored_apply V c finO t]

/-- After the point t = 8·i + k the accumulator at (r, n) holds the shares of blocks 0 … k of row block i. -/
theorem acc_eq (c : Dev nD) (finO : Spec.FiniteM (Spec.at2 (V c main_v15))) :
    ∀ (N : ℕ) (t : Fin cfg5.N), t.val = N → ∀ (r : Fin 1024) (n : Fin 2048),
      ((heldAt V c t.val t.isLt).2 : Vec Ideal S1024x2048 .f32) (ix2 r n)
        = ∑ k ∈ Finset.range (t.val % 8 + 1), term (Spec.at2 (V c main_v16)) (Spec.at2 (V c main_v15)) (t.val / 8) r n k := by
  intro N
  induction N with
  | zero =>
    intro t ht r n
    have h0 : t.val % 8 = 0 := by rw [ht]
    rw [acc_first V c finO t h0 r n, h0, Finset.sum_range_one]
  | succ N ih =>
    intro t ht r n
    by_cases h0 : t.val % 8 = 0
    · rw [acc_first V c finO t h0 r n, h0, Finset.sum_range_one]
    · have hlt : t.val - 1 < cfg5.N := Nat.lt_of_le_of_lt (Nat.sub_le _ _) t.isLt
      have e := ih ⟨t.val - 1, hlt⟩ (by show t.val - 1 = N; omega) r n
      have hdiv : (t.val - 1) / 8 = t.val / 8 := by omega
      have hmod : (t.val - 1) % 8 + 1 = t.val % 8 := by omega
      rw [acc_next V c finO t h0 r n]
      refine (congrArg (· + term (Spec.at2 (V c main_v16)) (Spec.at2 (V c main_v15)) (t.val / 8) r n (t.val % 8)) e).trans ?_
      show ∑ k ∈ Finset.range ((t.val - 1) % 8 + 1), term _ _ ((t.val - 1) / 8) r n k + _ = _
      rw [hdiv, hmod]
      exact (Finset.sum_range_succ _ _).symm

/-- The eight shares of a row block's entry add up to the entry of tanh(c) · o. -/
theorem sum_term (C O : Spec.Mat) (i : ℕ) (r : Fin 1024) (n : Fin 2048) :
    ∑ k ∈ Finset.range 8, term C O i r n k = Spec.hidden C O (rowIx i r) n := by
  unfold Spec.hidden Spec.mm term
  exact (sum_blocks fun x => Ideal.tanh (C (rowIx i r) x) * O x n).symm

end Cert.KernelIdeal.R5

end
-- ==== Proof.KI.R5.Value.lean ====
/-
  The hidden-state product h = tanh(c) · o, the values, part six: the result array.

  Only the points with k = 7 write the output block back, and what such a point t = 8·i + 7 writes is the accumulator
  after it: rows 1024·i … 1024·i + 1023 of tanh(C) · O.  Row R of the result lies in row block R / 1024, so the two
  written blocks cover the array, which therefore ends holding tanh(C) · O.  Only O needs to hold real numbers: tanh of
  anything is a real number, so the hypothesis on C is not used.
-/
import proofs.«116394_j17480516895034_2_alg».proof.Proof.KI.R5.ValueAcc

set_option maxRecDepth 16384

noncomputable section

namespace Cert.KernelIdeal.R5

open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window)
open Cert.KernelIdeal.HiLo

variable (V : (c : Dev nD) → (b : Ref sig .tc) → Buf (Elt Ideal) ((c : Thread nD τ).loc b))

/-- What a point with k = 7 writes back is its block of tanh(c) · o. -/
theorem flushed_eq (c : Dev nD) (finO : Spec.FiniteM (Spec.at2 (V c main_v15))) (t : Fin cfg5.N)
    (hf : (cfg5.win 2).flush t = true) :
    (dat V c).flushed 2 t = ((cfg5.win 2).blk t).view.read (Elt Ideal)
      (Spec.of2 (Spec.hidden (Spec.at2 (V c main_v16)) (Spec.at2 (V c main_v15)))) := by
  have h7 : t.val % 8 = 7 := (flush5_2 t).mp hf
  have h0 : ¬t.val % 8 = 0 := by omega
  have hN : t.val < 16 := lt_of_lt_of_eq t.isLt (show cfg5.N = 16 from N_5)
  obtain ⟨e0, e1, e2, e3, e4, e5⟩ := idx_facts t
  show (cfg5.win 2).cut (grid5.coords t) ((dat V c).after 2 t) = _
  rw [after_h, held_out V c t h0 h7, ← held_last V c t h0 h7]
  funext y
  rw [View.read_apply]
  show ((heldAt V c t.val t.isLt).2 : Vec Ideal S1024x2048 .f32) y
    = Spec.of2 (Spec.hidden (Spec.at2 (V c main_v16)) (Spec.at2 (V c main_v15))) (((cfg5.win 2).blk t).view.emb y)
  obtain ⟨r, n, rfl⟩ : ∃ (r : Fin 1024) (n : Fin 2048), y = ix2 r n := ⟨y 0, y 1, eq_ix2 y⟩
  rw [acc_eq V c finO t.val t rfl r n, h7, sum_term]
  unfold Spec.of2
  have hr : (((cfg5.win 2).blk t).view.emb (ix2 r n)) 0 = rowIx (t.val / 8) r := Fin.ext (by
    show win5_2.index t (0 : Fin 2) * 1024 + 1 * r.val = (1024 * (t.val / 8) + r.val) % 2048
    have := r.isLt; omega)
  have hn : (((cfg5.win 2).blk t).view.emb (ix2 r n)) 1 = n := Fin.ext (by
    show win5_2.index t (1 : Fin 2) * 2048 + 1 * n.val = n.val
    omega)
  rw [hr, hn]

/-- An index of the result array is in point t's block iff each coordinate is in the block's range on its axis. -/
theorem mem_blk (t : Fin cfg5.N) (i : S2048x2048.Idx) :
    i ∈ ((cfg5.win 2).blk t).view.set ↔ ∀ a : Fin 2, win5_2.index t a * S1024x2048.size a ≤ (i a).val ∧ (i a).val < win5_2.index t a * S1024x2048.size a + S1024x2048.size a := by
  show i ∈ ((View.whole main_v17).slice (win5_2.rect t)).set ↔ _
  rw [View.set_slice_whole, Rect.mem_set_unit]
  exact Iff.rfl

/-- Every entry of the result array is in the block of a point with k = 7: row R is in row block R / 1024. -/
theorem covered (i : S2048x2048.Idx) : ∃ t : Fin cfg5.N, (cfg5.win 2).flush t = true ∧ i ∈ ((cfg5.win 2).blk t).view.set := by
  have hi0 : (i 0).val < 2048 := (i 0).isLt
  have hi1 : (i 1).val < 2048 := (i 1).isLt
  have hN : cfg5.N = 16 := N_5
  refine ⟨⟨8 * ((i 0).val / 1024) + 7, by rw [hN]; omega⟩, (flush5_2 _).mpr (by show (8 * ((i 0).val / 1024) + 7) % 8 = 7; omega), ?_⟩
  rw [mem_blk]
  obtain ⟨e0, e1, e2, e3, e4, e5⟩ := idx_facts ⟨8 * ((i 0).val / 1024) + 7, by rw [hN]; omega⟩
  intro a
  match a with
  | ⟨0, _⟩ =>
    show win5_2.index _ (0 : Fin 2) * 1024 ≤ (i 0).val ∧ (i 0).val < win5_2.index _ (0 : Fin 2) * 1024 + 1024
    rw [e4]; show (8 * ((i 0).val / 1024) + 7) / 8 * 1024 ≤ (i 0).val ∧ (i 0).val < (8 * ((i 0).val / 1024) + 7) / 8 * 1024 + 1024
    omega
  | ⟨1, _⟩ =>
    show win5_2.index _ (1 : Fin 2) * 2048 ≤ (i 1).val ∧ (i 1).val < win5_2.index _ (1 : Fin 2) * 2048 + 2048
    rw [e5]; omega

/-- The result array of the region is tanh(c) · o, when c and o hold real numbers. -/
theorem final (c : Dev nD) (finC : Spec.FiniteM (Spec.at2 (V c main_v16))) (finO : Spec.FiniteM (Spec.at2 (V c main_v15))) :
    (dat V c).arrAt 2 cfg5.N = Spec.of2 (Spec.hidden (Spec.at2 (V c main_v16)) (Spec.at2 (V c main_v15))) :=
  (dat V c).arrAt_eq_of_cover 2 _ (fun t hf => flushed_eq V c finO t hf) covered

end Cert.KernelIdeal.R5

end
-- ==== Proof.KI.R6.ValuePieces.lean ====
/-
  The output head y = h · W + b, the values, part one: what each case stores, and the buffers point by point, as terms of
  the blocks.

  At every point the body stores into the accumulator one value: the product term of the block of h and the block of W
  added to what the accumulator held.  At k = 0 the accumulator is cleared first, so what it held is the zero block; at
  k = 7 the output block receives the accumulator after its store with the bias row added to every row.  So the
  accumulator after a point is the product term of that point's blocks added to the zero block (k = 0) or to what the
  point before left (k > 0).  Each statement holds at every float instance.
-/
import proofs.«116394_j17480516895034_2_alg».proof.Proof.KI.R6.Data
import Idealize.ShloMosaic.Lib.Pipeline.Value
import Idealize.ShloMosaic.Lib.ValueIdx

set_option maxRecDepth 16384

noncomputable section

namespace Cert.KernelIdeal.R6

open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window)

section Pieces
variable {F : FTy → Type} [FloatOps F]

/-- The zero offsets of a whole-buffer rectangle. -/
theorem hz : (![0, 0] : Fin 2 → Nat) = fun _ => 0 := funext fun a => by fin_cases a <;> rfl

/-- 0 < k < 7: the accumulator, holding `xa`, ends at the one store's value: the product term of the two blocks added to `xa`. -/
theorem accMid_eq (c : Dev nD) (i : grid6.Coords) (arg2 : Memref sig .tc .vmem S1024x256 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (h0 : ¬atFirst i) (h7 : ¬atLast i) (xh : Vec F S1024x256 .f32) (xwy : Vec F S256x2048 .f32) (xb : Vec F S1x2048 .f32) (xa : Vec F S1024x2048 .f32) :
    accMid c i arg2 harg2 arg3 harg3 arg4 harg4 arg5 harg5 arg6 harg6 h0 h7 xh xwy xb xa = k6_pay2 xa xh xwy := by
  unfold accMid
  rw [View.read_writes_eq_canon _ _ _ (accCover_mid c i arg2 harg2 arg3 harg3 arg4 harg4 arg5 harg5 arg6 harg6 h0 h7 xh xwy xb xa)]
  unfold runMid
  dsimp only
  sl_unfold_words
  rw [View.canon_unit_zero hz]
  simp only [View.readAt_eq_ld, harg2.read_unread, harg3.read_unread, harg4.read_unread, harg5.read_unread, harg6.read_unread, View.ld_unit_zero (S := S1024x256) hz, View.ld_unit_zero (S := S256x2048) hz, View.ld_unit_zero (S := S1x2048) hz, View.ld_unit_zero (S := S1024x2048) hz]

/-- k = 0: the accumulator is first cleared, and what is read back from it is the zero block; the product term is added to that. -/
theorem accFirst_eq (c : Dev nD) (i : grid6.Coords) (arg2 : Memref sig .tc .vmem S1024x256 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (h0 : atFirst i) (h7 : ¬atLast i) (xh : Vec F S1024x256 .f32) (xwy : Vec F S256x2048 .f32) (xb : Vec F S1x2048 .f32) :
    accFirst c i arg2 harg2 arg3 harg3 arg4 harg4 arg5 harg5 arg6 harg6 h0 h7 xh xwy xb = k6_pay2 (k6_pay1 (F := F)) xh xwy := by
  unfold accFirst
  rw [View.read_writes_eq_canon _ _ _ (accCover_first c i arg2 harg2 arg3 harg3 arg4 harg4 arg5 harg5 arg6 harg6 h0 h7 xh xwy xb)]
  unfold runFirst
  dsimp only
  sl_unfold_words
  rw [View.canon_cons_unit_zero (S := S1024x2048) hz, View.readCov_unit_zero (S := S1024x2048) _ hz]
  simp only [View.readAt_eq_ld, harg2.read_unread, harg3.read_unread, harg4.read_unread, harg5.read_unread, harg6.read_unread, View.ld_unit_zero (S := S1024x256) hz, View.ld_unit_zero (S := S256x2048) hz, View.ld_unit_zero (S := S1x2048) hz, View.ld_unit_zero (S := S1024x2048) hz]

/-- k = 7: the accumulator, holding `xa`, ends at the same value as when 0 < k < 7: the product term added to `xa`. -/
theorem accLast_eq (c : Dev nD) (i : grid6.Coords) (arg2 : Memref sig .tc .vmem S1024x256 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (h0 : ¬atFirst i) (h7 : atLast i) (xh : Vec F S1024x256 .f32) (xwy : Vec F S256x2048 .f32) (xb : Vec F S1x2048 .f32) (xa : Vec F S1024x2048 .f32) :
    accLast c i arg2 harg2 arg3 harg3 arg4 harg4 arg5 harg5 arg6 harg6 h0 h7 xh xwy xb xa = k6_pay2 xa xh xwy := by
  unfold accLast
  rw [View.read_writes_eq_canon _ _ _ (accCover_last c i arg2 harg2 arg3 harg3 arg4 harg4 arg5 harg5 arg6 harg6 h0 h7 xh xwy xb xa)]
  unfold runLast
  dsimp only
  sl_unfold_words
  rw [View.canon_unit_zero hz]
  simp only [View.readAt_eq_ld, harg2.read_unread, harg3.read_unread, harg4.read_unread, harg5.read_unread, harg6.read_unread, View.ld_unit_zero (S := S1024x256) hz, View.ld_unit_zero (S := S256x2048) hz, View.ld_unit_zero (S := S1x2048) hz, View.ld_unit_zero (S := S1024x2048) hz]

/-- k = 7: the output block ends at what the accumulator holds after its store with the bias row added to every row. -/
theorem outLast_eq (c : Dev nD) (i : grid6.Coords) (arg2 : Memref sig .tc .vmem S1024x256 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (h0 : ¬atFirst i) (h7 : atLast i) (xh : Vec F S1024x256 .f32) (xwy : Vec F S256x2048 .f32) (xb : Vec F S1x2048 .f32) (xa : Vec F S1024x2048 .f32) :
    outLast c i arg2 harg2 arg3 harg3 arg4 harg4 arg5 harg5 arg6 harg6 h0 h7 xh xwy xb xa = k6_pay3 (k6_pay2 xa xh xwy) xb := by
  unfold outLast
  rw [View.read_writes_eq_canon _ _ _ (outCover_last c i arg2 harg2 arg3 harg3 arg4 harg4 arg5 harg5 arg6 harg6 h0 h7 xh xwy xb xa)]
  unfold runLast
  dsimp only
  sl_unfold_words
  rw [View.canon_unit_zero hz, View.readCov_unit_zero (S := S1024x2048) _ hz]
  simp only [View.readAt_eq_ld, harg2.read_unread, harg3.read_unread, harg4.read_unread, harg5.read_unread, harg6.read_unread, View.ld_unit_zero (S := S1024x256) hz, View.ld_unit_zero (S := S256x2048) hz, View.ld_unit_zero (S := S1x2048) hz, View.ld_unit_zero (S := S1024x2048) hz]

end Pieces

section Held

variable {F : FTy → Type} [FloatOps F]
variable (V : (c : Dev nD) → (b : Ref sig .tc) → Buf (Elt F) ((c : Thread nD τ).loc b))

/-- After a point with k = 0 the accumulator holds the product term of that point's blocks added to the zero block. -/
theorem held_first (c : Dev nD) (t : Fin cfg6.N) (h0 : t.val % 8 = 0) (h7 : ¬t.val % 8 = 7) :
    (heldAt V c t.val t.isLt).2 = k6_pay2 (k6_pay1 (F := F)) (blockAt V c 0 t) (blockAt V c 1 t) := by
  rw [heldAt_first V c t h0 h7]
  dsimp only
  rw [accFirst_eq]

/-- After a point with 0 < k < 7 the accumulator holds the product term of that point's blocks added to what the point before left. -/
theorem held_mid (c : Dev nD) (t : Fin cfg6.N) (h0 : ¬t.val % 8 = 0) (h7 : ¬t.val % 8 = 7) :
    (heldAt V c t.val t.isLt).2 = k6_pay2 (heldAt V c (t.val - 1) (Nat.lt_of_le_of_lt (Nat.sub_le _ _) t.isLt)).2 (blockAt V c 0 t) (blockAt V c 1 t) := by
  rw [heldAt_mid V c t h0 h7]
  dsimp only
  rw [accMid_eq]

/-- After a point with k = 7 the accumulator holds the product term of that point's blocks added to what the point before left. -/
theorem held_last (c : Dev nD) (t : Fin cfg6.N) (h0 : ¬t.val % 8 = 0) (h7 : t.val % 8 = 7) :
    (heldAt V c t.val t.isLt).2 = k6_pay2 (heldAt V c (t.val - 1) (Nat.lt_of_le_of_lt (Nat.sub_le _ _) t.isLt)).2 (blockAt V c 0 t) (blockAt V c 1 t) := by
  rw [heldAt_last V c t h0 h7]
  dsimp only
  rw [accLast_eq]

/-- After a point with k = 7 the output block holds the accumulator's value with the bias row added to every row. -/
theorem held_out (c : Dev nD) (t : Fin cfg6.N) (h0 : ¬t.val % 8 = 0) (h7 : t.val % 8 = 7) :
    (heldAt V c t.val t.isLt).1 = k6_pay3 (heldAt V c t.val t.isLt).2 (blockAt V c 2 t) := by
  rw [held_last V c t h0 h7, heldAt_last V c t h0 h7]
  dsimp only
  rw [outLast_eq]

end Held

end Cert.KernelIdeal.R6

end
-- ==== Proof.KI.R6.ValueAcc.lean ====
/-
  The output head y = h · W + b, the values, part two: the accumulator over the points, on the extended reals.

  Write H, W and b for the arrays of h, W and the bias row as the region finds them, and let H and W hold real numbers.
  What a point stores at (r, n) is what the accumulator held there plus the sum over the point's 256 shared coordinates
  of the products of the two blocks' entries: on real numbers the split product's two correction terms vanish.  At the
  point t = 8·i + k the block of h is block (i, k) of H and the block of W is block (k, 0) of W, so the sum is block k's
  share  Σ_{j < 256} H(1024·i + r, 256·k + j) · W(256·k + j, n);  after the point the accumulator at (r, n) holds the
  shares of blocks 0 … k — by induction on the point — and the eight shares add up to the entry of H · W.
-/
import proofs.«116394_j17480516895034_2_alg».proof.Proof.KI.R6.ValuePieces
import proofs.«116394_j17480516895034_2_alg».proof.Proof.Spec
import proofs.«116394_j17480516895034_2_alg».proof.Proof.LibHiLo
import proofs.«116394_j17480516895034_2_alg».proof.Proof.LibBlockIx

set_option maxRecDepth 16384

noncomputable section

namespace Cert.KernelIdeal.R6

open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window)
open Cert.KernelIdeal.HiLo

/-- The cleared accumulator reads zero everywhere. -/
theorem pay1_apply (r : Fin 1024) (n : Fin 2048) : k6_pay1 (F := Ideal) (ix2 r n) = 0 := by
  unfold k6_pay1
  rw [shapeCast_self]
  exact Ideal.ofBits_zero_f32

/-- What a point stores, read at (r, n): what the accumulator held there plus the sum over the 256 shared coordinates
    of the entry of the block of h times the entry of the block of W — when both blocks hold real numbers. -/
theorem pay2_apply (v3 : Vec Ideal S1024x2048 .f32) (v4 : Vec Ideal S1024x256 .f32) (v6 : Vec Ideal S256x2048 .f32)
    (hH : ∀ (r : Fin 1024) (j : Fin 256), ∃ x : ℝ, v4 (ix2 r j) = (x : EReal))
    (hW : ∀ (j : Fin 256) (n : Fin 2048), ∃ x : ℝ, v6 (ix2 j n) = (x : EReal)) (r : Fin 1024) (n : Fin 2048) :
    k6_pay2 (F := Ideal) v3 v4 v6 (ix2 r n) = v3 (ix2 r n) + ∑ j : Fin 256, v4 (ix2 r j) * v6 (ix2 j n) := by
  unfold k6_pay2
  simp only [shapeCast_self]
  refine (addf_apply _ _ _).trans ?_
  refine congrArg (v3 (ix2 r n) + ·) ?_
  exact HiLo.split_product_apply v4 v6 hH hW r n

/-- What the output block receives, read at (r, n): the accumulator's entry plus entry n of the bias row. -/
theorem pay3_apply (v27 : Vec Ideal S1024x2048 .f32) (v28 : Vec Ideal S1x2048 .f32) (r : Fin 1024) (n : Fin 2048) :
    k6_pay3 (F := Ideal) v27 v28 (ix2 r n) = v27 (ix2 r n) + v28 (ix2 (0 : Fin 1) n) := by
  unfold k6_pay3
  rw [shapeCast_self]
  refine (addf_apply _ _ _).trans ?_
  refine congrArg (v27 (ix2 r n) + ·) ?_
  refine broadcastTo_apply v28 broadcasts_S1x2048_S1024x2048 (ix2 r n) (ix2 (0 : Fin 1) n) fun a => ?_
  match a with
  | ⟨0, _⟩ => rfl
  | ⟨1, _⟩ => rfl

/-- Where the four windows' blocks sit, at every point t = 8·i + k: h's at block (i, k), W's at block (k, 0), the bias
    row's at block (0, 0), the output's at block (i, 0). -/
theorem idx_facts : ∀ t : Fin cfg6.N, win6_0.index t (0 : Fin 2) = t.val / 8 ∧ win6_0.index t (1 : Fin 2) = t.val % 8
    ∧ win6_1.index t (0 : Fin 2) = t.val % 8 ∧ win6_1.index t (1 : Fin 2) = 0
    ∧ win6_2.index t (0 : Fin 2) = 0 ∧ win6_2.index t (1 : Fin 2) = 0
    ∧ win6_3.index t (0 : Fin 2) = t.val / 8 ∧ win6_3.index t (1 : Fin 2) = 0 :=
  (by decide +kernel : ∀ t : Fin grid6.N, _)

variable (V : (c : Dev nD) → (b : Ref sig .tc) → Buf (Elt Ideal) ((c : Thread nD τ).loc b))

/-- The block of h at point t = 8·i + k, read at (r, j), is h at row 1024·i + r and column 256·k + j. -/
theorem blockH_apply (c : Dev nD) (t : Fin cfg6.N) (r : Fin 1024) (j : Fin 256) :
    (blockAt V c 0 t : Vec Ideal S1024x256 .f32) (ix2 r j) = Spec.at2 (V c main_v17) (rowIx (t.val / 8) r) (colIx (t.val % 8) j) := by
  have hN : t.val < 16 := lt_of_lt_of_eq t.isLt (show cfg6.N = 16 from N_6)
  obtain ⟨e0, e1, e2, e3, e4, e5, e6, e7⟩ := idx_facts t
  unfold blockAt Spec.at2
  rw [View.read_apply]
  show V c main_v17 (((cfg6.win 0).blk t).view.emb (ix2 r j)) = V c main_v17 (ix2 (rowIx (t.val / 8) r) (colIx (t.val % 8) j))
  refine congrArg (V c main_v17) (funext fun a => Fin.ext ?_)
  match a with
  | ⟨0, _⟩ => show win6_0.index t (0 : Fin 2) * 1024 + 1 * r.val = (1024 * (t.val / 8) + r.val) % 2048; have := r.isLt; omega
  | ⟨1, _⟩ => show win6_0.index t (1 : Fin 2) * 256 + 1 * j.val = (256 * (t.val % 8) + j.val) % 2048; have := j.isLt; omega

/-- The block of W at point t = 8·i + k, read at (j, n), is W at row 256·k + j and column n. -/
theorem blockW_apply (c : Dev nD) (t : Fin cfg6.N) (j : Fin 256) (n : Fin 2048) :
    (blockAt V c 1 t : Vec Ideal S256x2048 .f32) (ix2 j n) = Spec.at2 (V c main_arg15) (colIx (t.val % 8) j) n := by
  have hN : t.val < 16 := lt_of_lt_of_eq t.isLt (show cfg6.N = 16 from N_6)
  obtain ⟨e0, e1, e2, e3, e4, e5, e6, e7⟩ := idx_facts t
  unfold blockAt Spec.at2
  rw [View.read_apply]
  show V c main_arg15 (((cfg6.win 1).blk t).view.emb (ix2 j n)) = V c main_arg15 (ix2 (colIx (t.val % 8) j) n)
  refine congrArg (V c main_arg15) (funext fun a => Fin.ext ?_)
  match a with
  | ⟨0, _⟩ => show win6_1.index t (0 : Fin 2) * 256 + 1 * j.val = (256 * (t.val % 8) + j.val) % 2048; have := j.isLt; omega
  | ⟨1, _⟩ => show win6_1.index t (1 : Fin 2) * 2048 + 1 * n.val = n.val; omega

/-- The block of the bias row at every point is the whole row. -/
theorem blockB_apply (c : Dev nD) (t : Fin cfg6.N) (n : Fin 2048) :
    (blockAt V c 2 t : Vec Ideal S1x2048 .f32) (ix2 (0 : Fin 1) n) = Spec.atRow (V c main_v18) n := by
  obtain ⟨e0, e1, e2, e3, e4, e5, e6, e7⟩ := idx_facts t
  unfold blockAt Spec.atRow
  rw [View.read_apply]
  show V c main_v18 (((cfg6.win 2).blk t).view.emb (ix2 (0 : Fin 1) n)) = V c main_v18 (ix2 (0 : Fin 1) n)
  refine congrArg (V c main_v18) (funext fun a => Fin.ext ?_)
  match a with
  | ⟨0, _⟩ => show win6_2.index t (0 : Fin 2) * 1 + 1 * 0 = 0; omega
  | ⟨1, _⟩ => show win6_2.index t (1 : Fin 2) * 2048 + 1 * n.val = n.val; omega

/-- Block k's share of entry (r, n) of row block i of h · W: the sum over the block's 256 coordinates. -/
def term (H W : Spec.Mat) (i : ℕ) (r : Fin 1024) (n : Fin 2048) (k : ℕ) : EReal :=
  ∑ j : Fin 256, H (rowIx i r) (colIx k j) * W (colIx k j) n

/-- What point t = 8·i + k stores, read at (r, n): what the accumulator held there plus block k's share — for h and W real. -/
theorem stored_apply (c : Dev nD) (finH : Spec.FiniteM (Spec.at2 (V c main_v17))) (finW : Spec.FiniteM (Spec.at2 (V c main_arg15)))
    (t : Fin cfg6.N) (xa : Vec Ideal S1024x2048 .f32) (r : Fin 1024) (n : Fin 2048) :
    k6_pay2 (F := Ideal) xa (blockAt V c 0 t) (blockAt V c 1 t) (ix2 r n)
      = xa (ix2 r n) + term (Spec.at2 (V c main_v17)) (Spec.at2 (V c main_arg15)) (t.val / 8) r n (t.val % 8) := by
  refine (pay2_apply xa (blockAt V c 0 t) (blockAt V c 1 t) (fun r' j => ?_) (fun j m => ?_) r n).trans ?_
  · obtain ⟨x, hx⟩ := finH (rowIx (t.val / 8) r') (colIx (t.val % 8) j)
    exact ⟨x, (blockH_apply V c t r' j).trans hx⟩
  · obtain ⟨x, hx⟩ := finW (colIx (t.val % 8) j) m
    exact ⟨x, (blockW_apply V c t j m).trans hx⟩
  · refine congrArg (xa (ix2 r n) + ·) (Finset.sum_congr rfl fun j _ => ?_)
    rw [blockH_apply V c t r j, blockW_apply V c t j n]

/-- After a point t = 8·i with k = 0 the accumulator at (r, n) holds block 0's share. -/
theorem acc_first (c : Dev nD) (finH : Spec.FiniteM (Spec.at2 (V c main_v17))) (finW : Spec.FiniteM (Spec.at2 (V c main_arg15)))
    (t : Fin cfg6.N) (h0 : t.val % 8 = 0) (r : Fin 1024) (n : Fin 2048) :
    ((heldAt V c t.val t.isLt).2 : Vec Ideal S1024x2048 .f32) (ix2 r n)
      = term (Spec.at2 (V c main_v17)) (Spec.at2 (V c main_arg15)) (t.val / 8) r n (t.val % 8) := by
  rw [held_first V c t h0 (by omega), stored_apply V c finH finW t, pay1_apply, zero_add]

/-- After a point t = 8·i + k with k > 0 it holds what the point before left plus block k's share. -/
theorem acc_next (c : Dev nD) (finH : Spec.FiniteM (Spec.at2 (V c main_v17))) (finW : Spec.FiniteM (Spec.at2 (V c main_arg15)))
    (t : Fin cfg6.N) (h0 : ¬t.val % 8 = 0) (r : Fin 1024) (n : Fin 2048) :
    ((heldAt V c t.val t.isLt).2 : Vec Ideal S1024x2048 .f32) (ix2 r n)
      = ((heldAt V c (t.val - 1) (Nat.lt_of_le_of_lt (Nat.sub_le _ _) t.isLt)).2 : Vec Ideal S1024x2048 .f32) (ix2 r n)
        + term (Spec.at2 (V c main_v17)) (Spec.at2 (V c main_arg15)) (t.val / 8) r n (t.val % 8) := by
  by_cases h7 : t.val % 8 = 7
  · rw [held_last V c t h0 h7, stored_apply V c finH finW t]
  · rw [held_mid V c t h0 h7, stored_apply V c finH finW t]

/-- After the point t = 8·i + k the accumulator at (r, n) holds the shares of blocks 0 … k of row block i. -/
theorem acc_eq (c : Dev nD) (finH : Spec.FiniteM (Spec.at2 (V c main_v17))) (finW : Spec.FiniteM (Spec.at2 (V c main_arg15))) :
    ∀ (N : ℕ) (t : Fin cfg6.N), t.val = N → ∀ (r : Fin 1024) (n : Fin 2048),
      ((heldAt V c t.val t.isLt).2 : Vec Ideal S1024x2048 .f32) (ix2 r n)
        = ∑ k ∈ Finset.range (t.val % 8 + 1), term (Spec.at2 (V c main_v17)) (Spec.at2 (V c main_arg15)) (t.val / 8) r n k := by
  intro N
  induction N with
  | zero =>
    intro t ht r n
    have h0 : t.val % 8 = 0 := by rw [ht]
    rw [acc_first V c finH finW t h0 r n, h0, Finset.sum_range_one]
  | succ N ih =>
    intro t ht r n
    by_cases h0 : t.val % 8 = 0
    · rw [acc_first V c finH finW t h0 r n, h0, Finset.sum_range_one]
    · have hlt : t.val - 1 < cfg6.N := Nat.lt_of_le_of_lt (Nat.sub_le _ _) t.isLt
      have e := ih ⟨t.val - 1, hlt⟩ (by show t.val - 1 = N; omega) r n
      have hdiv : (t.val - 1) / 8 = t.val / 8 := by omega
      have hmod : (t.val - 1) % 8 + 1 = t.val % 8 := by omega
      rw [acc_next V c finH finW t h0 r n]
      refine (congrArg (· + term (Spec.at2 (V c main_v17)) (Spec.at2 (V c main_arg15)) (t.val / 8) r n (t.val % 8)) e).trans ?_
      show ∑ k ∈ Finset.range ((t.val - 1) % 8 + 1), term _ _ ((t.val - 1) / 8) r n k + _ = _
      rw [hdiv, hmod]
      exact (Finset.sum_range_succ _ _).symm

/-- The eight shares of a row block's entry add up to the entry of h · W. -/
theorem sum_term (H W : Spec.Mat) (i : ℕ) (r : Fin 1024) (n : Fin 2048) :
    ∑ k ∈ Finset.range 8, term H W i r n k = Spec.mm H W (rowIx i r) n := by
  unfold Spec.mm term
  exact (sum_blocks fun x => H (rowIx i r) x * W x n).symm

end Cert.KernelIdeal.R6

end
-- ==== Proof.KI.R6.Value.lean ====
/-
  The output head y = h · W + b, the values, part three: the result array.

  Only the points with k = 7 write the output block back, and what such a point t = 8·i + 7 writes is the accumulator
  after it with the bias row added to every row: rows 1024·i … 1024·i + 1023 of H · W + b.  Row R of the result lies in
  row block R / 1024, so the two written blocks cover the array, which therefore ends holding H · W + b.
-/
import proofs.«116394_j17480516895034_2_alg».proof.Proof.KI.R6.ValueAcc

set_option maxRecDepth 16384

noncomputable section

namespace Cert.KernelIdeal.R6

open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window)
open Cert.KernelIdeal.HiLo

variable (V : (c : Dev nD) → (b : Ref sig .tc) → Buf (Elt Ideal) ((c : Thread nD τ).loc b))

/-- What a point with k = 7 writes back is its block of h · W + b. -/
theorem flushed_eq (c : Dev nD) (finH : Spec.FiniteM (Spec.at2 (V c main_v17))) (finW : Spec.FiniteM (Spec.at2 (V c main_arg15)))
    (t : Fin cfg6.N) (hf : (cfg6.win 3).flush t = true) :
    (dat V c).flushed 3 t = ((cfg6.win 3).blk t).view.read (Elt Ideal)
      (Spec.of2 (Spec.head (Spec.at2 (V c main_v17)) (Spec.at2 (V c main_arg15)) (Spec.atRow (V c main_v18)))) := by
  have h7 : t.val % 8 = 7 := (flush6_3 t).mp hf
  have h0 : ¬t.val % 8 = 0 := by omega
  have hN : t.val < 16 := lt_of_lt_of_eq t.isLt (show cfg6.N = 16 from N_6)
  obtain ⟨e0, e1, e2, e3, e4, e5, e6, e7⟩ := idx_facts t
  show (cfg6.win 3).cut (grid6.coords t) ((dat V c).after 3 t) = _
  rw [after_out, held_out V c t h0 h7]
  funext y
  rw [View.read_apply]
  show (k6_pay3 (F := Ideal) (heldAt V c t.val t.isLt).2 (blockAt V c 2 t) : Vec Ideal S1024x2048 .f32) y
    = Spec.of2 (Spec.head (Spec.at2 (V c main_v17)) (Spec.at2 (V c main_arg15)) (Spec.atRow (V c main_v18))) (((cfg6.win 3).blk t).view.emb y)
  obtain ⟨r, n, rfl⟩ : ∃ (r : Fin 1024) (n : Fin 2048), y = ix2 r n := ⟨y 0, y 1, eq_ix2 y⟩
  rw [pay3_apply, blockB_apply V c t n, acc_eq V c finH finW t.val t rfl r n, h7, sum_term]
  unfold Spec.of2 Spec.head
  have hr : (((cfg6.win 3).blk t).view.emb (ix2 r n)) 0 = rowIx (t.val / 8) r := Fin.ext (by
    show win6_3.index t (0 : Fin 2) * 1024 + 1 * r.val = (1024 * (t.val / 8) + r.val) % 2048
    have := r.isLt; omega)
  have hn : (((cfg6.win 3).blk t).view.emb (ix2 r n)) 1 = n := Fin.ext (by
    show win6_3.index t (1 : Fin 2) * 2048 + 1 * n.val = n.val
    omega)
  rw [hr, hn]

/-- An index of the result array is in point t's block iff each coordinate is in the block's range on its axis. -/
theorem mem_blk (t : Fin cfg6.N) (i : S2048x2048.Idx) :
    i ∈ ((cfg6.win 3).blk t).view.set ↔ ∀ a : Fin 2, win6_3.index t a * S1024x2048.size a ≤ (i a).val ∧ (i a).val < win6_3.index t a * S1024x2048.size a + S1024x2048.size a := by
  show i ∈ ((View.whole main_v19).slice (win6_3.rect t)).set ↔ _
  rw [View.set_slice_whole, Rect.mem_set_unit]
  exact Iff.rfl

/-- Every entry of the result array is in the block of a point with k = 7: row R is in row block R / 1024. -/
theorem covered (i : S2048x2048.Idx) : ∃ t : Fin cfg6.N, (cfg6.win 3).flush t = true ∧ i ∈ ((cfg6.win 3).blk t).view.set := by
  have hi0 : (i 0).val < 2048 := (i 0).isLt
  have hi1 : (i 1).val < 2048 := (i 1).isLt
  have hN : cfg6.N = 16 := N_6
  refine ⟨⟨8 * ((i 0).val / 1024) + 7, by rw [hN]; omega⟩, (flush6_3 _).mpr (by show (8 * ((i 0).val / 1024) + 7) % 8 = 7; omega), ?_⟩
  rw [mem_blk]
  obtain ⟨e0, e1, e2, e3, e4, e5, e6, e7⟩ := idx_facts ⟨8 * ((i 0).val / 1024) + 7, by rw [hN]; omega⟩
  intro a
  match a with
  | ⟨0, _⟩ =>
    show win6_3.index _ (0 : Fin 2) * 1024 ≤ (i 0).val ∧ (i 0).val < win6_3.index _ (0 : Fin 2) * 1024 + 1024
    rw [e6]; show (8 * ((i 0).val / 1024) + 7) / 8 * 1024 ≤ (i 0).val ∧ (i 0).val < (8 * ((i 0).val / 1024) + 7) / 8 * 1024 + 1024
    omega
  | ⟨1, _⟩ =>
    show win6_3.index _ (1 : Fin 2) * 2048 ≤ (i 1).val ∧ (i 1).val < win6_3.index _ (1 : Fin 2) * 2048 + 2048
    rw [e7]; omega

/-- The result array of the region is h · W + b, when h and W hold real numbers. -/
theorem final (c : Dev nD) (finH : Spec.FiniteM (Spec.at2 (V c main_v17))) (finW : Spec.FiniteM (Spec.at2 (V c main_arg15))) :
    (dat V c).arrAt 3 cfg6.N = Spec.of2 (Spec.head (Spec.at2 (V c main_v17)) (Spec.at2 (V c main_arg15)) (Spec.atRow (V c main_v18))) :=
  (dat V c).arrAt_eq_of_cover 3 _ (fun t hf => flushed_eq V c finH finW t hf) covered

end Cert.KernelIdeal.R6

end
-- ==== Proof.Ref.GateF.lean ====
/-
  The reference's forget gate, read entry by entry, is the specification's logistic gate of the arguments
  h, W_hf, x, W_xf, b_f, g_f, β_f: the two products and the bias row, the row mean and the row variance as sums
  over the 2048 entries of a row divided by the word of 2048, the reciprocal square root of the variance plus ε,
  gain and offset, and 1 / (1 + exp(−·)), which is how the logistic function is defined.
-/
import proofs.«116394_j17480516895034_2_alg».proof.Proof.Gen.ReferenceIdeal.Read
import proofs.«116394_j17480516895034_2_alg».proof.Proof.Spec
import proofs.«116394_j17480516895034_2_alg».proof.Proof.Ref.Consts

noncomputable section

namespace Cert.Ref.GateF

open Cert.ReferenceIdeal Cert.ReferenceIdeal.Gen Cert.ReferenceIdeal.Read Idealize.ShloMosaic Idealize.ShloMosaic.ValueIdx Cert.Spec

abbrev C2 : Type := (⟨S2048x2048, .f32⟩ : BufTy).Contents (Elt Ideal)
abbrev C1 : Type := (⟨S2048, .f32⟩ : BufTy).Contents (Elt Ideal)

variable (x0 x2 x3 x7 : C2) (x11 x17 x18 : C1)

/-- The gate before normalisation, entry by entry: the two products and the bias row. -/
theorem pre_f (r n : Fin 2048) :
    val_main_v5 (F := Ideal) x0 x2 x3 x7 x11 (ix2 r n) = pre (at2 x2) (at2 x3) (at2 x0) (at2 x7) (at1 x11) r n := by
  have el0 : ∀ k, lidx_main_v0 (ix2 r n) k = ix2 r k := fun k => funext fun a => Fin.ext (by match a with | ⟨0, _⟩ => rfl | ⟨1, _⟩ => rfl)
  have er0 : ∀ k, ridx_main_v0 (ix2 r n) k = ix2 k n := fun k => funext fun a => Fin.ext (by match a with | ⟨0, _⟩ => rfl | ⟨1, _⟩ => rfl)
  have el1 : ∀ k, lidx_main_v1 (ix2 r n) k = ix2 r k := fun k => funext fun a => Fin.ext (by match a with | ⟨0, _⟩ => rfl | ⟨1, _⟩ => rfl)
  have er1 : ∀ k, ridx_main_v1 (ix2 r n) k = ix2 k n := fun k => funext fun a => Fin.ext (by match a with | ⟨0, _⟩ => rfl | ⟨1, _⟩ => rfl)
  have eb : idx_main_v3 (idx_main_v4 (ix2 r n)) = ix1 n := funext fun a => Fin.ext (by match a with | ⟨0, _⟩ => rfl)
  rw [val_main_v5_apply, val_main_v2_apply, val_main_v0_apply, val_main_v1_apply, val_main_v4_apply, val_main_v3_apply]
  simp only [el0, er0, el1, er1, eb, Ideal.addf_def]
  rfl

/-- A row's sum: the host sum starts from the zero word. -/
theorem sum1_f (r : Fin 2048) :
    val_main_v6 (F := Ideal) x0 x2 x3 x7 x11 (ix1 r) = ∑ n : Fin 2048, pre (at2 x2) (at2 x3) (at2 x0) (at2 x7) (at1 x11) r n := by
  have e : ∀ k, idx_main_v6 (ix1 r) k = ix2 r k := fun k => funext fun a => Fin.ext (by match a with | ⟨0, _⟩ => rfl | ⟨1, _⟩ => rfl)
  rw [val_main_v6_apply, val_main_cst_apply, Ideal.ofBits_def, Ideal.ofBits_zero_f32, zero_add]
  exact Finset.sum_congr rfl fun k _ => by rw [e k]; exact pre_f x0 x2 x3 x7 x11 r k

/-- A row's mean, kept as a column. -/
theorem mean_f (r : Fin 2048) (z : Fin 1) :
    val_main_v9 (F := Ideal) x0 x2 x3 x7 x11 (ix2 r z) = rowMean (pre (at2 x2) (at2 x3) (at2 x0) (at2 x7) (at1 x11)) r := by
  have e : idx_main_v7 (ix2 r z) = ix1 r := funext fun a => Fin.ext (by match a with | ⟨0, _⟩ => rfl)
  rw [val_main_v9_apply, val_main_v7_apply, val_main_v8_apply, val_main_cst_0_apply, e, sum1_f]
  rfl

/-- An entry minus its row's mean (the copy that is squared). -/
theorem cen_f (r n : Fin 2048) :
    val_main_v11 (F := Ideal) x0 x2 x3 x7 x11 (ix2 r n)
      = pre (at2 x2) (at2 x3) (at2 x0) (at2 x7) (at1 x11) r n - rowMean (pre (at2 x2) (at2 x3) (at2 x0) (at2 x7) (at1 x11)) r := by
  have e : idx_main_v10 (ix2 r n) = ix2 r (0 : Fin 1) := funext fun a => Fin.ext (by match a with | ⟨0, _⟩ => rfl | ⟨1, _⟩ => rfl)
  rw [val_main_v11_apply, val_main_v10_apply, e, mean_f, pre_f]
  rfl

/-- An entry minus its row's mean (the copy that is scaled). -/
theorem cen2_f (r n : Fin 2048) :
    val_main_v18 (F := Ideal) x0 x2 x3 x7 x11 (ix2 r n)
      = pre (at2 x2) (at2 x3) (at2 x0) (at2 x7) (at1 x11) r n - rowMean (pre (at2 x2) (at2 x3) (at2 x0) (at2 x7) (at1 x11)) r := by
  have e : idx_main_v17 (ix2 r n) = ix2 r (0 : Fin 1) := funext fun a => Fin.ext (by match a with | ⟨0, _⟩ => rfl | ⟨1, _⟩ => rfl)
  rw [val_main_v18_apply, val_main_v17_apply, e, mean_f, pre_f]
  rfl

/-- A row's sum of squared deviations. -/
theorem sum2_f (r : Fin 2048) :
    val_main_v13 (F := Ideal) x0 x2 x3 x7 x11 (ix1 r)
      = ∑ n : Fin 2048, (pre (at2 x2) (at2 x3) (at2 x0) (at2 x7) (at1 x11) r n - rowMean (pre (at2 x2) (at2 x3) (at2 x0) (at2 x7) (at1 x11)) r)
          * (pre (at2 x2) (at2 x3) (at2 x0) (at2 x7) (at1 x11) r n - rowMean (pre (at2 x2) (at2 x3) (at2 x0) (at2 x7) (at1 x11)) r) := by
  have e : ∀ k, idx_main_v13 (ix1 r) k = ix2 r k := fun k => funext fun a => Fin.ext (by match a with | ⟨0, _⟩ => rfl | ⟨1, _⟩ => rfl)
  rw [val_main_v13_apply, val_main_cst_1_apply, Ideal.ofBits_def, Ideal.ofBits_zero_f32, zero_add]
  exact Finset.sum_congr rfl fun k _ => by rw [e k, val_main_v12_apply, cen_f]; rfl

/-- A row's variance, kept as a column. -/
theorem var_f (r : Fin 2048) (z : Fin 1) :
    val_main_v16 (F := Ideal) x0 x2 x3 x7 x11 (ix2 r z) = rowVar (pre (at2 x2) (at2 x3) (at2 x0) (at2 x7) (at1 x11)) r := by
  have e : idx_main_v14 (ix2 r z) = ix1 r := funext fun a => Fin.ext (by match a with | ⟨0, _⟩ => rfl)
  rw [val_main_v16_apply, val_main_v14_apply, val_main_v15_apply, val_main_cst_2_apply, e, sum2_f]
  rfl

/-- The reciprocal square root of the variance plus ε. -/
theorem rs_f (r : Fin 2048) (z : Fin 1) :
    val_main_v21 (F := Ideal) x0 x2 x3 x7 x11 (ix2 r z) = Ideal.rsqrt (rowVar (pre (at2 x2) (at2 x3) (at2 x0) (at2 x7) (at1 x11)) r + wEps) := by
  rw [val_main_v21_apply, val_main_v20_apply, val_main_v19_apply, val_main_cst_3_apply, var_f]
  rfl

/-- The normalised row with gain and offset. -/
theorem ln_f (r n : Fin 2048) :
    val_main_v29 (F := Ideal) x0 x2 x3 x7 x11 x17 x18 (ix2 r n)
      = layerNorm (pre (at2 x2) (at2 x3) (at2 x0) (at2 x7) (at1 x11)) (at1 x17) (at1 x18) r n := by
  have e22 : idx_main_v22 (ix2 r n) = ix2 r (0 : Fin 1) := funext fun a => Fin.ext (by match a with | ⟨0, _⟩ => rfl | ⟨1, _⟩ => rfl)
  have eg : idx_main_v24 (idx_main_v25 (ix2 r n)) = ix1 n := funext fun a => Fin.ext (by match a with | ⟨0, _⟩ => rfl)
  have eo : idx_main_v27 (idx_main_v28 (ix2 r n)) = ix1 n := funext fun a => Fin.ext (by match a with | ⟨0, _⟩ => rfl)
  rw [val_main_v29_apply, val_main_v26_apply, val_main_v23_apply, val_main_v22_apply, val_main_v25_apply, val_main_v24_apply,
    val_main_v28_apply, val_main_v27_apply, e22, eg, eo, rs_f, cen2_f]
  rfl

/-- The gate entry by entry: 1 / (1 + exp(−·)) of the normalised row is the logistic function. -/
theorem gate_f_apply (r n : Fin 2048) :
    val_main_v35 (F := Ideal) x0 x2 x3 x7 x11 x17 x18 (ix2 r n)
      = gateLogistic (at2 x2) (at2 x3) (at2 x0) (at2 x7) (at1 x11) (at1 x17) (at1 x18) r n := by
  rw [val_main_v35_apply, val_main_v34_apply, val_main_cst_5_apply, val_main_v33_apply, val_main_v32_apply, val_main_cst_4_apply,
    val_main_v31_apply, val_main_v30_apply, ln_f]
  simp only [Ideal.ofBits_def, Cert.Ref.ofBits_one, Ideal.hostDivf_def, Ideal.addf_def, Ideal.hostUnary_exp_def, Ideal.hostNegf_def, Ideal.negf_def]
  rfl

/-- The forget gate of the reference is the specification's. -/
theorem gate_f :
    val_main_v35 (F := Ideal) x0 x2 x3 x7 x11 x17 x18
      = of2 (gateLogistic (at2 x2) (at2 x3) (at2 x0) (at2 x7) (at1 x11) (at1 x17) (at1 x18)) := by
  funext j
  rw [eq_ix2 j]
  exact gate_f_apply x0 x2 x3 x7 x11 x17 x18 (j 0) (j 1)

end Cert.Ref.GateF

end
-- ==== Proof.Ref.GateG.lean ====
/-
  The reference's candidate gate, read entry by entry, is the specification's tanh gate of the arguments
  h, W_hg, x, W_xg, b_g, g_g, β_g: the two products and the bias row, the row mean and the row variance as sums
  over the 2048 entries of a row divided by the word of 2048, the reciprocal square root of the variance plus ε,
  gain and offset, and tanh.
-/
import proofs.«116394_j17480516895034_2_alg».proof.Proof.Gen.ReferenceIdeal.Read
import proofs.«116394_j17480516895034_2_alg».proof.Proof.Spec
import proofs.«116394_j17480516895034_2_alg».proof.Proof.Ref.Consts

noncomputable section

namespace Cert.Ref.GateG

open Cert.ReferenceIdeal Cert.ReferenceIdeal.Gen Cert.ReferenceIdeal.Read Idealize.ShloMosaic Idealize.ShloMosaic.ValueIdx Cert.Spec

abbrev C2 : Type := (⟨S2048x2048, .f32⟩ : BufTy).Contents (Elt Ideal)
abbrev C1 : Type := (⟨S2048, .f32⟩ : BufTy).Contents (Elt Ideal)

variable (x0 x2 x4 x8 : C2) (x12 x19 x20 : C1)

/-- The gate before normalisation, entry by entry: the two products and the bias row. -/
theorem pre_g (r n : Fin 2048) :
    val_main_v41 (F := Ideal) x0 x2 x4 x8 x12 (ix2 r n) = pre (at2 x2) (at2 x4) (at2 x0) (at2 x8) (at1 x12) r n := by
  have el0 : ∀ k, lidx_main_v36 (ix2 r n) k = ix2 r k := fun k => funext fun a => Fin.ext (by match a with | ⟨0, _⟩ => rfl | ⟨1, _⟩ => rfl)
  have er0 : ∀ k, ridx_main_v36 (ix2 r n) k = ix2 k n := fun k => funext fun a => Fin.ext (by match a with | ⟨0, _⟩ => rfl | ⟨1, _⟩ => rfl)
  have el1 : ∀ k, lidx_main_v37 (ix2 r n) k = ix2 r k := fun k => funext fun a => Fin.ext (by match a with | ⟨0, _⟩ => rfl | ⟨1, _⟩ => rfl)
  have er1 : ∀ k, ridx_main_v37 (ix2 r n) k = ix2 k n := fun k => funext fun a => Fin.ext (by match a with | ⟨0, _⟩ => rfl | ⟨1, _⟩ => rfl)
  have eb : idx_main_v39 (idx_main_v40 (ix2 r n)) = ix1 n := funext fun a => Fin.ext (by match a with | ⟨0, _⟩ => rfl)
  rw [val_main_v41_apply, val_main_v38_apply, val_main_v36_apply, val_main_v37_apply, val_main_v40_apply, val_main_v39_apply]
  simp only [el0, er0, el1, er1, eb, Ideal.addf_def]
  rfl

/-- A row's sum: the host sum starts from the zero word. -/
theorem sum1_g (r : Fin 2048) :
    val_main_v42 (F := Ideal) x0 x2 x4 x8 x12 (ix1 r) = ∑ n : Fin 2048, pre (at2 x2) (at2 x4) (at2 x0) (at2 x8) (at1 x12) r n := by
  have e : ∀ k, idx_main_v42 (ix1 r) k = ix2 r k := fun k => funext fun a => Fin.ext (by match a with | ⟨0, _⟩ => rfl | ⟨1, _⟩ => rfl)
  rw [val_main_v42_apply, val_main_cst_6_apply, Ideal.ofBits_def, Ideal.ofBits_zero_f32, zero_add]
  exact Finset.sum_congr rfl fun k _ => by rw [e k]; exact pre_g x0 x2 x4 x8 x12 r k

/-- A row's mean, kept as a column. -/
theorem mean_g (r : Fin 2048) (z : Fin 1) :
    val_main_v45 (F := Ideal) x0 x2 x4 x8 x12 (ix2 r z) = rowMean (pre (at2 x2) (at2 x4) (at2 x0) (at2 x8) (at1 x12)) r := by
  have e : idx_main_v43 (ix2 r z) = ix1 r := funext fun a => Fin.ext (by match a with | ⟨0, _⟩ => rfl)
  rw [val_main_v45_apply, val_main_v43_apply, val_main_v44_apply, val_main_cst_7_apply, e, sum1_g]
  rfl

/-- An entry minus its row's mean (the copy that is squared). -/
theorem cen_g (r n : Fin 2048) :
    val_main_v47 (F := Ideal) x0 x2 x4 x8 x12 (ix2 r n)
      = pre (at2 x2) (at2 x4) (at2 x0) (at2 x8) (at1 x12) r n - rowMean (pre (at2 x2) (at2 x4) (at2 x0) (at2 x8) (at1 x12)) r := by
  have e : idx_main_v46 (ix2 r n) = ix2 r (0 : Fin 1) := funext fun a => Fin.ext (by match a with | ⟨0, _⟩ => rfl | ⟨1, _⟩ => rfl)
  rw [val_main_v47_apply, val_main_v46_apply, e, mean_g, pre_g]
  rfl

/-- An entry minus its row's mean (the copy that is scaled). -/
theorem cen2_g (r n : Fin 2048) :
    val_main_v54 (F := Ideal) x0 x2 x4 x8 x12 (ix2 r n)
      = pre (at2 x2) (at2 x4) (at2 x0) (at2 x8) (at1 x12) r n - rowMean (pre (at2 x2) (at2 x4) (at2 x0) (at2 x8) (at1 x12)) r := by
  have e : idx_main_v53 (ix2 r n) = ix2 r (0 : Fin 1) := funext fun a => Fin.ext (by match a with | ⟨0, _⟩ => rfl | ⟨1, _⟩ => rfl)
  rw [val_main_v54_apply, val_main_v53_apply, e, mean_g, pre_g]
  rfl

/-- A row's sum of squared deviations. -/
theorem sum2_g (r : Fin 2048) :
    val_main_v49 (F := Ideal) x0 x2 x4 x8 x12 (ix1 r)
      = ∑ n : Fin 2048, (pre (at2 x2) (at2 x4) (at2 x0) (at2 x8) (at1 x12) r n - rowMean (pre (at2 x2) (at2 x4) (at2 x0) (at2 x8) (at1 x12)) r)
          * (pre (at2 x2) (at2 x4) (at2 x0) (at2 x8) (at1 x12) r n - rowMean (pre (at2 x2) (at2 x4) (at2 x0) (at2 x8) (at1 x12)) r) := by
  have e : ∀ k, idx_main_v49 (ix1 r) k = ix2 r k := fun k => funext fun a => Fin.ext (by match a with | ⟨0, _⟩ => rfl | ⟨1, _⟩ => rfl)
  rw [val_main_v49_apply, val_main_cst_8_apply, Ideal.ofBits_def, Ideal.ofBits_zero_f32, zero_add]
  exact Finset.sum_congr rfl fun k _ => by rw [e k, val_main_v48_apply, cen_g]; rfl

/-- A row's variance, kept as a column. -/
theorem var_g (r : Fin 2048) (z : Fin 1) :
    val_main_v52 (F := Ideal) x0 x2 x4 x8 x12 (ix2 r z) = rowVar (pre (at2 x2) (at2 x4) (at2 x0) (at2 x8) (at1 x12)) r := by
  have e : idx_main_v50 (ix2 r z) = ix1 r := funext fun a => Fin.ext (by match a with | ⟨0, _⟩ => rfl)
  rw [val_main_v52_apply, val_main_v50_apply, val_main_v51_apply, val_main_cst_9_apply, e, sum2_g]
  rfl

/-- The reciprocal square root of the variance plus ε. -/
theorem rs_g (r : Fin 2048) (z : Fin 1) :
    val_main_v57 (F := Ideal) x0 x2 x4 x8 x12 (ix2 r z) = Ideal.rsqrt (rowVar (pre (at2 x2) (at2 x4) (at2 x0) (at2 x8) (at1 x12)) r + wEps) := by
  rw [val_main_v57_apply, val_main_v56_apply, val_main_v55_apply, val_main_cst_10_apply, var_g]
  rfl

/-- The normalised row with gain and offset. -/
theorem ln_g (r n : Fin 2048) :
    val_main_v65 (F := Ideal) x0 x2 x4 x8 x12 x19 x20 (ix2 r n)
      = layerNorm (pre (at2 x2) (at2 x4) (at2 x0) (at2 x8) (at1 x12)) (at1 x19) (at1 x20) r n := by
  have e22 : idx_main_v58 (ix2 r n) = ix2 r (0 : Fin 1) := funext fun a => Fin.ext (by match a with | ⟨0, _⟩ => rfl | ⟨1, _⟩ => rfl)
  have eg : idx_main_v60 (idx_main_v61 (ix2 r n)) = ix1 n := funext fun a => Fin.ext (by match a with | ⟨0, _⟩ => rfl)
  have eo : idx_main_v63 (idx_main_v64 (ix2 r n)) = ix1 n := funext fun a => Fin.ext (by match a with | ⟨0, _⟩ => rfl)
  rw [val_main_v65_apply, val_main_v62_apply, val_main_v59_apply, val_main_v58_apply, val_main_v61_apply, val_main_v60_apply,
    val_main_v64_apply, val_main_v63_apply, e22, eg, eo, rs_g, cen2_g]
  rfl

/-- The gate entry by entry: tanh of the normalised row. -/
theorem gate_g_apply (r n : Fin 2048) :
    val_main_v66 (F := Ideal) x0 x2 x4 x8 x12 x19 x20 (ix2 r n)
      = gateTanh (at2 x2) (at2 x4) (at2 x0) (at2 x8) (at1 x12) (at1 x19) (at1 x20) r n := by
  rw [val_main_v66_apply, ln_g]
  rfl

/-- The candidate gate of the reference is the specification's. -/
theorem gate_g :
    val_main_v66 (F := Ideal) x0 x2 x4 x8 x12 x19 x20
      = of2 (gateTanh (at2 x2) (at2 x4) (at2 x0) (at2 x8) (at1 x12) (at1 x19) (at1 x20)) := by
  funext j
  rw [eq_ix2 j]
  exact gate_g_apply x0 x2 x4 x8 x12 x19 x20 (j 0) (j 1)

end Cert.Ref.GateG

end
-- ==== Proof.Ref.GateI.lean ====
/-
  The reference's input gate, read entry by entry, is the specification's logistic gate of the arguments
  h, W_hi, x, W_xi, b_i, g_i, β_i: the two products and the bias row, the row mean and the row variance as sums
  over the 2048 entries of a row divided by the word of 2048, the reciprocal square root of the variance plus ε,
  gain and offset, and 1 / (1 + exp(−·)), which is how the logistic function is defined.
-/
import proofs.«116394_j17480516895034_2_alg».proof.Proof.Gen.ReferenceIdeal.Read
import proofs.«116394_j17480516895034_2_alg».proof.Proof.Spec
import proofs.«116394_j17480516895034_2_alg».proof.Proof.Ref.Consts

noncomputable section

namespace Cert.Ref.GateI

open Cert.ReferenceIdeal Cert.ReferenceIdeal.Gen Cert.ReferenceIdeal.Read Idealize.ShloMosaic Idealize.ShloMosaic.ValueIdx Cert.Spec

abbrev C2 : Type := (⟨S2048x2048, .f32⟩ : BufTy).Contents (Elt Ideal)
abbrev C1 : Type := (⟨S2048, .f32⟩ : BufTy).Contents (Elt Ideal)

variable (x0 x2 x5 x9 : C2) (x13 x21 x22 : C1)

/-- The gate before normalisation, entry by entry: the two products and the bias row. -/
theorem pre_i (r n : Fin 2048) :
    val_main_v72 (F := Ideal) x0 x2 x5 x9 x13 (ix2 r n) = pre (at2 x2) (at2 x5) (at2 x0) (at2 x9) (at1 x13) r n := by
  have el0 : ∀ k, lidx_main_v67 (ix2 r n) k = ix2 r k := fun k => funext fun a => Fin.ext (by match a with | ⟨0, _⟩ => rfl | ⟨1, _⟩ => rfl)
  have er0 : ∀ k, ridx_main_v67 (ix2 r n) k = ix2 k n := fun k => funext fun a => Fin.ext (by match a with | ⟨0, _⟩ => rfl | ⟨1, _⟩ => rfl)
  have el1 : ∀ k, lidx_main_v68 (ix2 r n) k = ix2 r k := fun k => funext fun a => Fin.ext (by match a with | ⟨0, _⟩ => rfl | ⟨1, _⟩ => rfl)
  have er1 : ∀ k, ridx_main_v68 (ix2 r n) k = ix2 k n := fun k => funext fun a => Fin.ext (by match a with | ⟨0, _⟩ => rfl | ⟨1, _⟩ => rfl)
  have eb : idx_main_v70 (idx_main_v71 (ix2 r n)) = ix1 n := funext fun a => Fin.ext (by match a with | ⟨0, _⟩ => rfl)
  rw [val_main_v72_apply, val_main_v69_apply, val_main_v67_apply, val_main_v68_apply, val_main_v71_apply, val_main_v70_apply]
  simp only [el0, er0, el1, er1, eb, Ideal.addf_def]
  rfl

/-- A row's sum: the host sum starts from the zero word. -/
theorem sum1_i (r : Fin 2048) :
    val_main_v73 (F := Ideal) x0 x2 x5 x9 x13 (ix1 r) = ∑ n : Fin 2048, pre (at2 x2) (at2 x5) (at2 x0) (at2 x9) (at1 x13) r n := by
  have e : ∀ k, idx_main_v73 (ix1 r) k = ix2 r k := fun k => funext fun a => Fin.ext (by match a with | ⟨0, _⟩ => rfl | ⟨1, _⟩ => rfl)
  rw [val_main_v73_apply, val_main_cst_11_apply, Ideal.ofBits_def, Ideal.ofBits_zero_f32, zero_add]
  exact Finset.sum_congr rfl fun k _ => by rw [e k]; exact pre_i x0 x2 x5 x9 x13 r k

/-- A row's mean, kept as a column. -/
theorem mean_i (r : Fin 2048) (z : Fin 1) :
    val_main_v76 (F := Ideal) x0 x2 x5 x9 x13 (ix2 r z) = rowMean (pre (at2 x2) (at2 x5) (at2 x0) (at2 x9) (at1 x13)) r := by
  have e : idx_main_v74 (ix2 r z) = ix1 r := funext fun a => Fin.ext (by match a with | ⟨0, _⟩ => rfl)
  rw [val_main_v76_apply, val_main_v74_apply, val_main_v75_apply, val_main_cst_12_apply, e, sum1_i]
  rfl

/-- An entry minus its row's mean (the copy that is squared). -/
theorem cen_i (r n : Fin 2048) :
    val_main_v78 (F := Ideal) x0 x2 x5 x9 x13 (ix2 r n)
      = pre (at2 x2) (at2 x5) (at2 x0) (at2 x9) (at1 x13) r n - rowMean (pre (at2 x2) (at2 x5) (at2 x0) (at2 x9) (at1 x13)) r := by
  have e : idx_main_v77 (ix2 r n) = ix2 r (0 : Fin 1) := funext fun a => Fin.ext (by match a with | ⟨0, _⟩ => rfl | ⟨1, _⟩ => rfl)
  rw [val_main_v78_apply, val_main_v77_apply, e, mean_i, pre_i]
  rfl

/-- An entry minus its row's mean (the copy that is scaled). -/
theorem cen2_i (r n : Fin 2048) :
    val_main_v85 (F := Ideal) x0 x2 x5 x9 x13 (ix2 r n)
      = pre (at2 x2) (at2 x5) (at2 x0) (at2 x9) (at1 x13) r n - rowMean (pre (at2 x2) (at2 x5) (at2 x0) (at2 x9) (at1 x13)) r := by
  have e : idx_main_v84 (ix2 r n) = ix2 r (0 : Fin 1) := funext fun a => Fin.ext (by match a with | ⟨0, _⟩ => rfl | ⟨1, _⟩ => rfl)
  rw [val_main_v85_apply, val_main_v84_apply, e, mean_i, pre_i]
  rfl

/-- A row's sum of squared deviations. -/
theorem sum2_i (r : Fin 2048) :
    val_main_v80 (F := Ideal) x0 x2 x5 x9 x13 (ix1 r)
      = ∑ n : Fin 2048, (pre (at2 x2) (at2 x5) (at2 x0) (at2 x9) (at1 x13) r n - rowMean (pre (at2 x2) (at2 x5) (at2 x0) (at2 x9) (at1 x13)) r)
          * (pre (at2 x2) (at2 x5) (at2 x0) (at2 x9) (at1 x13) r n - rowMean (pre (at2 x2) (at2 x5) (at2 x0) (at2 x9) (at1 x13)) r) := by
  have e : ∀ k, idx_main_v80 (ix1 r) k = ix2 r k := fun k => funext fun a => Fin.ext (by match a with | ⟨0, _⟩ => rfl | ⟨1, _⟩ => rfl)
  rw [val_main_v80_apply, val_main_cst_13_apply, Ideal.ofBits_def, Ideal.ofBits_zero_f32, zero_add]
  exact Finset.sum_congr rfl fun k _ => by rw [e k, val_main_v79_apply, cen_i]; rfl

/-- A row's variance, kept as a column. -/
theorem var_i (r : Fin 2048) (z : Fin 1) :
    val_main_v83 (F := Ideal) x0 x2 x5 x9 x13 (ix2 r z) = rowVar (pre (at2 x2) (at2 x5) (at2 x0) (at2 x9) (at1 x13)) r := by
  have e : idx_main_v81 (ix2 r z) = ix1 r := funext fun a => Fin.ext (by match a with | ⟨0, _⟩ => rfl)
  rw [val_main_v83_apply, val_main_v81_apply, val_main_v82_apply, val_main_cst_14_apply, e, sum2_i]
  rfl

/-- The reciprocal square root of the variance plus ε. -/
theorem rs_i (r : Fin 2048) (z : Fin 1) :
    val_main_v88 (F := Ideal) x0 x2 x5 x9 x13 (ix2 r z) = Ideal.rsqrt (rowVar (pre (at2 x2) (at2 x5) (at2 x0) (at2 x9) (at1 x13)) r + wEps) := by
  rw [val_main_v88_apply, val_main_v87_apply, val_main_v86_apply, val_main_cst_15_apply, var_i]
  rfl

/-- The normalised row with gain and offset. -/
theorem ln_i (r n : Fin 2048) :
    val_main_v96 (F := Ideal) x0 x2 x5 x9 x13 x21 x22 (ix2 r n)
      = layerNorm (pre (at2 x2) (at2 x5) (at2 x0) (at2 x9) (at1 x13)) (at1 x21) (at1 x22) r n := by
  have e22 : idx_main_v89 (ix2 r n) = ix2 r (0 : Fin 1) := funext fun a => Fin.ext (by match a with | ⟨0, _⟩ => rfl | ⟨1, _⟩ => rfl)
  have eg : idx_main_v91 (idx_main_v92 (ix2 r n)) = ix1 n := funext fun a => Fin.ext (by match a with | ⟨0, _⟩ => rfl)
  have eo : idx_main_v94 (idx_main_v95 (ix2 r n)) = ix1 n := funext fun a => Fin.ext (by match a with | ⟨0, _⟩ => rfl)
  rw [val_main_v96_apply, val_main_v93_apply, val_main_v90_apply, val_main_v89_apply, val_main_v92_apply, val_main_v91_apply,
    val_main_v95_apply, val_main_v94_apply, e22, eg, eo, rs_i, cen2_i]
  rfl

/-- The gate entry by entry: 1 / (1 + exp(−·)) of the normalised row is the logistic function. -/
theorem gate_i_apply (r n : Fin 2048) :
    val_main_v102 (F := Ideal) x0 x2 x5 x9 x13 x21 x22 (ix2 r n)
      = gateLogistic (at2 x2) (at2 x5) (at2 x0) (at2 x9) (at1 x13) (at1 x21) (at1 x22) r n := by
  rw [val_main_v102_apply, val_main_v101_apply, val_main_cst_17_apply, val_main_v100_apply, val_main_v99_apply, val_main_cst_16_apply,
    val_main_v98_apply, val_main_v97_apply, ln_i]
  simp only [Ideal.ofBits_def, Cert.Ref.ofBits_one, Ideal.hostDivf_def, Ideal.addf_def, Ideal.hostUnary_exp_def, Ideal.hostNegf_def, Ideal.negf_def]
  rfl

/-- The input gate of the reference is the specification's. -/
theorem gate_i :
    val_main_v102 (F := Ideal) x0 x2 x5 x9 x13 x21 x22
      = of2 (gateLogistic (at2 x2) (at2 x5) (at2 x0) (at2 x9) (at1 x13) (at1 x21) (at1 x22)) := by
  funext j
  rw [eq_ix2 j]
  exact gate_i_apply x0 x2 x5 x9 x13 x21 x22 (j 0) (j 1)

end Cert.Ref.GateI

end
-- ==== Proof.Ref.GateO.lean ====
/-
  The reference's output gate, read entry by entry, is the specification's logistic gate of the arguments
  h, W_ho, x, W_xo, b_o, g_o, β_o: the two products and the bias row, the row mean and the row variance as sums
  over the 2048 entries of a row divided by the word of 2048, the reciprocal square root of the variance plus ε,
  gain and offset, and 1 / (1 + exp(−·)), which is how the logistic function is defined.
-/
import proofs.«116394_j17480516895034_2_alg».proof.Proof.Gen.ReferenceIdeal.Read
import proofs.«116394_j17480516895034_2_alg».proof.Proof.Spec
import proofs.«116394_j17480516895034_2_alg».proof.Proof.Ref.Consts

noncomputable section

namespace Cert.Ref.GateO

open Cert.ReferenceIdeal Cert.ReferenceIdeal.Gen Cert.ReferenceIdeal.Read Idealize.ShloMosaic Idealize.ShloMosaic.ValueIdx Cert.Spec

abbrev C2 : Type := (⟨S2048x2048, .f32⟩ : BufTy).Contents (Elt Ideal)
abbrev C1 : Type := (⟨S2048, .f32⟩ : BufTy).Contents (Elt Ideal)

variable (x0 x2 x6 x10 : C2) (x14 x23 x24 : C1)

/-- The gate before normalisation, entry by entry: the two products and the bias row. -/
theorem pre_o (r n : Fin 2048) :
    val_main_v108 (F := Ideal) x0 x2 x6 x10 x14 (ix2 r n) = pre (at2 x2) (at2 x6) (at2 x0) (at2 x10) (at1 x14) r n := by
  have el0 : ∀ k, lidx_main_v103 (ix2 r n) k = ix2 r k := fun k => funext fun a => Fin.ext (by match a with | ⟨0, _⟩ => rfl | ⟨1, _⟩ => rfl)
  have er0 : ∀ k, ridx_main_v103 (ix2 r n) k = ix2 k n := fun k => funext fun a => Fin.ext (by match a with | ⟨0, _⟩ => rfl | ⟨1, _⟩ => rfl)
  have el1 : ∀ k, lidx_main_v104 (ix2 r n) k = ix2 r k := fun k => funext fun a => Fin.ext (by match a with | ⟨0, _⟩ => rfl | ⟨1, _⟩ => rfl)
  have er1 : ∀ k, ridx_main_v104 (ix2 r n) k = ix2 k n := fun k => funext fun a => Fin.ext (by match a with | ⟨0, _⟩ => rfl | ⟨1, _⟩ => rfl)
  have eb : idx_main_v106 (idx_main_v107 (ix2 r n)) = ix1 n := funext fun a => Fin.ext (by match a with | ⟨0, _⟩ => rfl)
  rw [val_main_v108_apply, val_main_v105_apply, val_main_v103_apply, val_main_v104_apply, val_main_v107_apply, val_main_v106_apply]
  simp only [el0, er0, el1, er1, eb, Ideal.addf_def]
  rfl

/-- A row's sum: the host sum starts from the zero word. -/
theorem sum1_o (r : Fin 2048) :
    val_main_v109 (F := Ideal) x0 x2 x6 x10 x14 (ix1 r) = ∑ n : Fin 2048, pre (at2 x2) (at2 x6) (at2 x0) (at2 x10) (at1 x14) r n := by
  have e : ∀ k, idx_main_v109 (ix1 r) k = ix2 r k := fun k => funext fun a => Fin.ext (by match a with | ⟨0, _⟩ => rfl | ⟨1, _⟩ => rfl)
  rw [val_main_v109_apply, val_main_cst_18_apply, Ideal.ofBits_def, Ideal.ofBits_zero_f32, zero_add]
  exact Finset.sum_congr rfl fun k _ => by rw [e k]; exact pre_o x0 x2 x6 x10 x14 r k

/-- A row's mean, kept as a column. -/
theorem mean_o (r : Fin 2048) (z : Fin 1) :
    val_main_v112 (F := Ideal) x0 x2 x6 x10 x14 (ix2 r z) = rowMean (pre (at2 x2) (at2 x6) (at2 x0) (at2 x10) (at1 x14)) r := by
  have e : idx_main_v110 (ix2 r z) = ix1 r := funext fun a => Fin.ext (by match a with | ⟨0, _⟩ => rfl)
  rw [val_main_v112_apply, val_main_v110_apply, val_main_v111_apply, val_main_cst_19_apply, e, sum1_o]
  rfl

/-- An entry minus its row's mean (the copy that is squared). -/
theorem cen_o (r n : Fin 2048) :
    val_main_v114 (F := Ideal) x0 x2 x6 x10 x14 (ix2 r n)
      = pre (at2 x2) (at2 x6) (at2 x0) (at2 x10) (at1 x14) r n - rowMean (pre (at2 x2) (at2 x6) (at2 x0) (at2 x10) (at1 x14)) r := by
  have e : idx_main_v113 (ix2 r n) = ix2 r (0 : Fin 1) := funext fun a => Fin.ext (by match a with | ⟨0, _⟩ => rfl | ⟨1, _⟩ => rfl)
  rw [val_main_v114_apply, val_main_v113_apply, e, mean_o, pre_o]
  rfl

/-- An entry minus its row's mean (the copy that is scaled). -/
theorem cen2_o (r n : Fin 2048) :
    val_main_v121 (F := Ideal) x0 x2 x6 x10 x14 (ix2 r n)
      = pre (at2 x2) (at2 x6) (at2 x0) (at2 x10) (at1 x14) r n - rowMean (pre (at2 x2) (at2 x6) (at2 x0) (at2 x10) (at1 x14)) r := by
  have e : idx_main_v120 (ix2 r n) = ix2 r (0 : Fin 1) := funext fun a => Fin.ext (by match a with | ⟨0, _⟩ => rfl | ⟨1, _⟩ => rfl)
  rw [val_main_v121_apply, val_main_v120_apply, e, mean_o, pre_o]
  rfl

/-- A row's sum of squared deviations. -/
theorem sum2_o (r : Fin 2048) :
    val_main_v116 (F := Ideal) x0 x2 x6 x10 x14 (ix1 r)
      = ∑ n : Fin 2048, (pre (at2 x2) (at2 x6) (at2 x0) (at2 x10) (at1 x14) r n - rowMean (pre (at2 x2) (at2 x6) (at2 x0) (at2 x10) (at1 x14)) r)
          * (pre (at2 x2) (at2 x6) (at2 x0) (at2 x10) (at1 x14) r n - rowMean (pre (at2 x2) (at2 x6) (at2 x0) (at2 x10) (at1 x14)) r) := by
  have e : ∀ k, idx_main_v116 (ix1 r) k = ix2 r k := fun k => funext fun a => Fin.ext (by match a with | ⟨0, _⟩ => rfl | ⟨1, _⟩ => rfl)
  rw [val_main_v116_apply, val_main_cst_20_apply, Ideal.ofBits_def, Ideal.ofBits_zero_f32, zero_add]
  exact Finset.sum_congr rfl fun k _ => by rw [e k, val_main_v115_apply, cen_o]; rfl

/-- A row's variance, kept as a column. -/
theorem var_o (r : Fin 2048) (z : Fin 1) :
    val_main_v119 (F := Ideal) x0 x2 x6 x10 x14 (ix2 r z) = rowVar (pre (at2 x2) (at2 x6) (at2 x0) (at2 x10) (at1 x14)) r := by
  have e : idx_main_v117 (ix2 r z) = ix1 r := funext fun a => Fin.ext (by match a with | ⟨0, _⟩ => rfl)
  rw [val_main_v119_apply, val_main_v117_apply, val_main_v118_apply, val_main_cst_21_apply, e, sum2_o]
  rfl

/-- The reciprocal square root of the variance plus ε. -/
theorem rs_o (r : Fin 2048) (z : Fin 1) :
    val_main_v124 (F := Ideal) x0 x2 x6 x10 x14 (ix2 r z) = Ideal.rsqrt (rowVar (pre (at2 x2) (at2 x6) (at2 x0) (at2 x10) (at1 x14)) r + wEps) := by
  rw [val_main_v124_apply, val_main_v123_apply, val_main_v122_apply, val_main_cst_22_apply, var_o]
  rfl

/-- The normalised row with gain and offset. -/
theorem ln_o (r n : Fin 2048) :
    val_main_v132 (F := Ideal) x0 x2 x6 x10 x14 x23 x24 (ix2 r n)
      = layerNorm (pre (at2 x2) (at2 x6) (at2 x0) (at2 x10) (at1 x14)) (at1 x23) (at1 x24) r n := by
  have e22 : idx_main_v125 (ix2 r n) = ix2 r (0 : Fin 1) := funext fun a => Fin.ext (by match a with | ⟨0, _⟩ => rfl | ⟨1, _⟩ => rfl)
  have eg : idx_main_v127 (idx_main_v128 (ix2 r n)) = ix1 n := funext fun a => Fin.ext (by match a with | ⟨0, _⟩ => rfl)
  have eo : idx_main_v130 (idx_main_v131 (ix2 r n)) = ix1 n := funext fun a => Fin.ext (by match a with | ⟨0, _⟩ => rfl)
  rw [val_main_v132_apply, val_main_v129_apply, val_main_v126_apply, val_main_v125_apply, val_main_v128_apply, val_main_v127_apply,
    val_main_v131_apply, val_main_v130_apply, e22, eg, eo, rs_o, cen2_o]
  rfl

/-- The gate entry by entry: 1 / (1 + exp(−·)) of the normalised row is the logistic function. -/
theorem gate_o_apply (r n : Fin 2048) :
    val_main_v138 (F := Ideal) x0 x2 x6 x10 x14 x23 x24 (ix2 r n)
      = gateLogistic (at2 x2) (at2 x6) (at2 x0) (at2 x10) (at1 x14) (at1 x23) (at1 x24) r n := by
  rw [val_main_v138_apply, val_main_v137_apply, val_main_cst_24_apply, val_main_v136_apply, val_main_v135_apply, val_main_cst_23_apply,
    val_main_v134_apply, val_main_v133_apply, ln_o]
  simp only [Ideal.ofBits_def, Cert.Ref.ofBits_one, Ideal.hostDivf_def, Ideal.addf_def, Ideal.hostUnary_exp_def, Ideal.hostNegf_def, Ideal.negf_def]
  rfl

/-- The output gate of the reference is the specification's. -/
theorem gate_o :
    val_main_v138 (F := Ideal) x0 x2 x6 x10 x14 x23 x24
      = of2 (gateLogistic (at2 x2) (at2 x6) (at2 x0) (at2 x10) (at1 x14) (at1 x23) (at1 x24)) := by
  funext j
  rw [eq_ix2 j]
  exact gate_o_apply x0 x2 x6 x10 x14 x23 x24 (j 0) (j 1)

end Cert.Ref.GateO

end
-- ==== Proof.Ref.Tail.lean ====
/-
  The reference's three results are the specification's functions of its twenty-five argument arrays:
  the new cell state is the forget gate times c plus the candidate gate times the input gate, the new hidden
  state is tanh of the new cell state times the output gate, and the output is the new hidden state times W_y
  plus the row b_y — matrix products throughout, each a sum over the 2048 values of the contracted coordinate.
-/
import proofs.«116394_j17480516895034_2_alg».proof.Proof.Gen.ReferenceIdeal.Read
import proofs.«116394_j17480516895034_2_alg».proof.Proof.SpecAll
import proofs.«116394_j17480516895034_2_alg».proof.Proof.Ref.GateF
import proofs.«116394_j17480516895034_2_alg».proof.Proof.Ref.GateG
import proofs.«116394_j17480516895034_2_alg».proof.Proof.Ref.GateI
import proofs.«116394_j17480516895034_2_alg».proof.Proof.Ref.GateO
import proofs.«116394_j17480516895034_2_alg».proof.Proof.Ref.Args

noncomputable section

namespace Cert.Ref

open Cert.ReferenceIdeal Cert.ReferenceIdeal.Gen Cert.ReferenceIdeal.Read Idealize.ShloMosaic Idealize.ShloMosaic.ValueIdx Cert.Spec

section
variable (x0 x1 x2 x3 x4 x5 x6 x7 x8 x9 x10 : A2) (x11 x12 x13 x14 : A1) (x15 : A2)
  (x16 x17 x18 x19 x20 x21 x22 x23 x24 : A1)

/-- The new cell state entry by entry: f·c + g·i. -/
theorem cT_apply (r n : Fin 2048) :
    val_main_v141 (F := Ideal) x0 x1 x2 x3 x4 x5 x7 x8 x9 x11 x12 x13 x17 x18 x19 x20 x21 x22 (ix2 r n) = cT (argsOf x0 x1 x2 x3 x4 x5 x6 x7 x8 x9 x10 x11 x12 x13 x14 x15 x16 x17 x18 x19 x20 x21 x22 x23 x24) r n := by
  have el : ∀ k, lidx_main_v139 (ix2 r n) k = ix2 r k := fun k => funext fun a => Fin.ext (by match a with | ⟨0, _⟩ => rfl | ⟨1, _⟩ => rfl)
  have er : ∀ k, ridx_main_v139 (ix2 r n) k = ix2 k n := fun k => funext fun a => Fin.ext (by match a with | ⟨0, _⟩ => rfl | ⟨1, _⟩ => rfl)
  have el' : ∀ k, lidx_main_v140 (ix2 r n) k = ix2 r k := fun k => funext fun a => Fin.ext (by match a with | ⟨0, _⟩ => rfl | ⟨1, _⟩ => rfl)
  have er' : ∀ k, ridx_main_v140 (ix2 r n) k = ix2 k n := fun k => funext fun a => Fin.ext (by match a with | ⟨0, _⟩ => rfl | ⟨1, _⟩ => rfl)
  rw [val_main_v141_apply, val_main_v139_apply, val_main_v140_apply, GateF.gate_f, GateG.gate_g, GateI.gate_i]
  simp only [el, er, el', er', Ideal.addf_def]
  rfl

/-- The new cell state of the reference is the specification's. -/
theorem cT_eq : val_main_v141 (F := Ideal) x0 x1 x2 x3 x4 x5 x7 x8 x9 x11 x12 x13 x17 x18 x19 x20 x21 x22 = of2 (cT (argsOf x0 x1 x2 x3 x4 x5 x6 x7 x8 x9 x10 x11 x12 x13 x14 x15 x16 x17 x18 x19 x20 x21 x22 x23 x24)) := by
  funext j
  rw [eq_ix2 j]
  exact cT_apply x0 x1 x2 x3 x4 x5 x6 x7 x8 x9 x10 x11 x12 x13 x14 x15 x16 x17 x18 x19 x20 x21 x22 x23 x24 (j 0) (j 1)

/-- The new hidden state entry by entry: tanh(c')·o. -/
theorem hT_apply (r n : Fin 2048) :
    val_main_v143 (F := Ideal) x0 x1 x2 x3 x4 x5 x6 x7 x8 x9 x10 x11 x12 x13 x14 x17 x18 x19 x20 x21 x22 x23 x24 (ix2 r n) = hT (argsOf x0 x1 x2 x3 x4 x5 x6 x7 x8 x9 x10 x11 x12 x13 x14 x15 x16 x17 x18 x19 x20 x21 x22 x23 x24) r n := by
  have el : ∀ k, lidx_main_v143 (ix2 r n) k = ix2 r k := fun k => funext fun a => Fin.ext (by match a with | ⟨0, _⟩ => rfl | ⟨1, _⟩ => rfl)
  have er : ∀ k, ridx_main_v143 (ix2 r n) k = ix2 k n := fun k => funext fun a => Fin.ext (by match a with | ⟨0, _⟩ => rfl | ⟨1, _⟩ => rfl)
  rw [val_main_v143_apply, GateO.gate_o]
  show _ = ∑ k : Fin 2048, Ideal.tanh (cT (argsOf x0 x1 x2 x3 x4 x5 x6 x7 x8 x9 x10 x11 x12 x13 x14 x15 x16 x17 x18 x19 x20 x21 x22 x23 x24) r k) * oT (argsOf x0 x1 x2 x3 x4 x5 x6 x7 x8 x9 x10 x11 x12 x13 x14 x15 x16 x17 x18 x19 x20 x21 x22 x23 x24) k n
  refine Finset.sum_congr rfl fun k _ => ?_
  rw [el k, er k, val_main_v142_apply, cT_apply x0 x1 x2 x3 x4 x5 x6 x7 x8 x9 x10 x11 x12 x13 x14 x15 x16 x17 x18 x19 x20 x21 x22 x23 x24]
  rfl

/-- The new hidden state of the reference is the specification's. -/
theorem hT_eq : val_main_v143 (F := Ideal) x0 x1 x2 x3 x4 x5 x6 x7 x8 x9 x10 x11 x12 x13 x14 x17 x18 x19 x20 x21 x22 x23 x24 = of2 (hT (argsOf x0 x1 x2 x3 x4 x5 x6 x7 x8 x9 x10 x11 x12 x13 x14 x15 x16 x17 x18 x19 x20 x21 x22 x23 x24)) := by
  funext j
  rw [eq_ix2 j]
  exact hT_apply x0 x1 x2 x3 x4 x5 x6 x7 x8 x9 x10 x11 x12 x13 x14 x15 x16 x17 x18 x19 x20 x21 x22 x23 x24 (j 0) (j 1)

/-- The output entry by entry: h'·W_y + b_y. -/
theorem yT_apply (r n : Fin 2048) :
    val_main_v147 (F := Ideal) x0 x1 x2 x3 x4 x5 x6 x7 x8 x9 x10 x11 x12 x13 x14 x15 x16 x17 x18 x19 x20 x21 x22 x23 x24 (ix2 r n) = yT (argsOf x0 x1 x2 x3 x4 x5 x6 x7 x8 x9 x10 x11 x12 x13 x14 x15 x16 x17 x18 x19 x20 x21 x22 x23 x24) r n := by
  have el : ∀ k, lidx_main_v144 (ix2 r n) k = ix2 r k := fun k => funext fun a => Fin.ext (by match a with | ⟨0, _⟩ => rfl | ⟨1, _⟩ => rfl)
  have er : ∀ k, ridx_main_v144 (ix2 r n) k = ix2 k n := fun k => funext fun a => Fin.ext (by match a with | ⟨0, _⟩ => rfl | ⟨1, _⟩ => rfl)
  have eb : idx_main_v145 (idx_main_v146 (ix2 r n)) = ix1 n := funext fun a => Fin.ext (by match a with | ⟨0, _⟩ => rfl)
  rw [val_main_v147_apply, val_main_v144_apply, val_main_v146_apply, val_main_v145_apply, eb, hT_eq x0 x1 x2 x3 x4 x5 x6 x7 x8 x9 x10 x11 x12 x13 x14 x15 x16 x17 x18 x19 x20 x21 x22 x23 x24]
  simp only [el, er, Ideal.addf_def]
  rfl

/-- The output of the reference is the specification's. -/
theorem yT_eq : val_main_v147 (F := Ideal) x0 x1 x2 x3 x4 x5 x6 x7 x8 x9 x10 x11 x12 x13 x14 x15 x16 x17 x18 x19 x20 x21 x22 x23 x24 = of2 (yT (argsOf x0 x1 x2 x3 x4 x5 x6 x7 x8 x9 x10 x11 x12 x13 x14 x15 x16 x17 x18 x19 x20 x21 x22 x23 x24)) := by
  funext j
  rw [eq_ix2 j]
  exact yT_apply x0 x1 x2 x3 x4 x5 x6 x7 x8 x9 x10 x11 x12 x13 x14 x15 x16 x17 x18 x19 x20 x21 x22 x23 x24 (j 0) (j 1)

end

/-- The specification's arguments as the reference finds them in core c's memory. -/
def refArgs (m : (ℓ : Loc Cert.ReferenceIdeal.nD Cert.ReferenceIdeal.τ Cert.ReferenceIdeal.sig) → Buf (Elt Ideal) ℓ)
    (c : Dev Cert.ReferenceIdeal.nD) : Cert.Spec.Args :=
  argsOf (m ((c.tc : Thread nD τ).loc main_arg0))
    (m ((c.tc : Thread nD τ).loc main_arg1))
    (m ((c.tc : Thread nD τ).loc main_arg2))
    (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))
    (m ((c.tc : Thread nD τ).loc main_arg8))
    (m ((c.tc : Thread nD τ).loc main_arg9))
    (m ((c.tc : Thread nD τ).loc main_arg10))
    (m ((c.tc : Thread nD τ).loc main_arg11))
    (m ((c.tc : Thread nD τ).loc main_arg12))
    (m ((c.tc : Thread nD τ).loc main_arg13))
    (m ((c.tc : Thread nD τ).loc main_arg14))
    (m ((c.tc : Thread nD τ).loc main_arg15))
    (m ((c.tc : Thread nD τ).loc main_arg16))
    (m ((c.tc : Thread nD τ).loc main_arg17))
    (m ((c.tc : Thread nD τ).loc main_arg18))
    (m ((c.tc : Thread nD τ).loc main_arg19))
    (m ((c.tc : Thread nD τ).loc main_arg20))
    (m ((c.tc : Thread nD τ).loc main_arg21))
    (m ((c.tc : Thread nD τ).loc main_arg22))
    (m ((c.tc : Thread nD τ).loc main_arg23))
    (m ((c.tc : Thread nD τ).loc main_arg24))

/-- The reference's first result is the specification's new cell state of its arguments. -/
theorem res_cT (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v141 m c = Cert.Spec.of2 (Cert.Spec.cT (refArgs m c)) :=
  (val_main_v141_eq (F := Ideal) m c).trans (cT_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)))

/-- The reference's second result is the specification's new hidden state of its arguments. -/
theorem res_hT (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v143 m c = Cert.Spec.of2 (Cert.Spec.hT (refArgs m c)) :=
  (val_main_v143_eq (F := Ideal) m c).trans (hT_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)))

/-- The reference's third result is the specification's output of its arguments. -/
theorem res_yT (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v147 m c = Cert.Spec.of2 (Cert.Spec.yT (refArgs m c)) :=
  (val_main_v147_eq (F := Ideal) m c).trans (yT_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)))

end Cert.Ref

end
-- ==== Proof.Ref.Agree.lean ====
/-
  Memories that agree on the twenty-five argument arrays give the two programs the same arguments.
-/
import proofs.«116394_j17480516895034_2_alg».proof.Proof.Ref.Tail
import proofs.«116394_j17480516895034_2_alg».proof.Proof.Ref.KerArgs

noncomputable section

namespace Cert.Ref

open Idealize.ShloMosaic Idealize.ShloMosaic.TcCoe Idealize.SL.Sem

/-- Equal arrays give equal arguments. -/
theorem argsOf_congr {x0 x1 x2 x3 x4 x5 x6 x7 x8 x9 x10 y0 y1 y2 y3 y4 y5 y6 y7 y8 y9 y10 : A2}
    {x11 x12 x13 x14 y11 y12 y13 y14 : A1} {x15 y15 : A2}
    {x16 x17 x18 x19 x20 x21 x22 x23 x24 y16 y17 y18 y19 y20 y21 y22 y23 y24 : A1}
    (e0 : x0 = y0) (e1 : x1 = y1) (e2 : x2 = y2) (e3 : x3 = y3) (e4 : x4 = y4) (e5 : x5 = y5) (e6 : x6 = y6) (e7 : x7 = y7) (e8 : x8 = y8) (e9 : x9 = y9) (e10 : x10 = y10) (e11 : x11 = y11) (e12 : x12 = y12) (e13 : x13 = y13) (e14 : x14 = y14) (e15 : x15 = y15) (e16 : x16 = y16) (e17 : x17 = y17) (e18 : x18 = y18) (e19 : x19 = y19) (e20 : x20 = y20) (e21 : x21 = y21) (e22 : x22 = y22) (e23 : x23 = y23) (e24 : x24 = y24) :
    argsOf x0 x1 x2 x3 x4 x5 x6 x7 x8 x9 x10 x11 x12 x13 x14 x15 x16 x17 x18 x19 x20 x21 x22 x23 x24 = argsOf y0 y1 y2 y3 y4 y5 y6 y7 y8 y9 y10 y11 y12 y13 y14 y15 y16 y17 y18 y19 y20 y21 y22 y23 y24 := by
  subst e0 e1 e2 e3 e4 e5 e6 e7 e8 e9 e10 e11 e12 e13 e14 e15 e16 e17 e18 e19 e20 e21 e22 e23 e24
  rfl

/-- If the reference's memory holds, array by array, what the kernel's program's memory holds, the reference's
    arguments are the kernel's. -/
theorem refArgs_eq_kerArgs
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hc : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) :
    refArgs m' c = kerArgs m c := by
  obtain ⟨a0, a1, a2, a3, a4, a5, a6, a7, a8, a9, a10, a11, a12, a13, a14, a15, a16, a17, a18, a19, a20, a21, a22, a23, a24⟩ := hc
  exact argsOf_congr a0 a1 a2 a3 a4 a5 a6 a7 a8 a9 a10 a11 a12 a13 a14 a15 a16 a17 a18 a19 a20 a21 a22 a23 a24

end Cert.Ref

end
-- ==== Proof.Algebraic.lean ====
/-
  The two idealized programs end with equal results.

  From a memory whose float inputs are finite the idealized kernel ends with its three result arrays at the cell state
  c', the hidden state h' and the output y of the specification, read at the kernel's argument arrays: each pallas_call
  leaves its output array at its stage of the specification of the arrays it reads, the reshaped bias, gain and offset
  rows are the vectors they were made from, an intermediate array reaches its reader untouched, and every intermediate
  matrix is finite, which the three split products need.  The reference ends with its results at the same three
  functions of its own argument arrays, and the two memories agree on the arguments.
-/
import proofs.«116394_j17480516895034_2_alg».proof.Defs
import proofs.«116394_j17480516895034_2_alg».proof.Proof.Gen.KernelIdeal
import proofs.«116394_j17480516895034_2_alg».proof.Proof.Gen.ReferenceIdeal
import proofs.«116394_j17480516895034_2_alg».proof.Proof.Gen.Pre_finite_inputs
import proofs.«116394_j17480516895034_2_alg».proof.Proof.Gen.ReferenceIdeal.Run
import proofs.«116394_j17480516895034_2_alg».proof.Proof.KI.Whole.Run
import proofs.«116394_j17480516895034_2_alg».proof.Proof.KI.Whole.Values
import proofs.«116394_j17480516895034_2_alg».proof.Proof.KI.R0.Value
import proofs.«116394_j17480516895034_2_alg».proof.Proof.KI.R1.Value
import proofs.«116394_j17480516895034_2_alg».proof.Proof.KI.R2.Value
import proofs.«116394_j17480516895034_2_alg».proof.Proof.KI.R3.Value
import proofs.«116394_j17480516895034_2_alg».proof.Proof.KI.R4.Value
import proofs.«116394_j17480516895034_2_alg».proof.Proof.KI.R5.Value
import proofs.«116394_j17480516895034_2_alg».proof.Proof.KI.R6.Value
import proofs.«116394_j17480516895034_2_alg».proof.Proof.Ref.Agree
import proofs.«116394_j17480516895034_2_alg».proof.Proof.Ref.Finite

noncomputable section

namespace Cert.Proof.Alg

open Idealize.ShloMosaic Idealize.ShloMosaic.TcCoe Idealize.SL.Sem

set_option maxHeartbeats 2000000 in
theorem algebraic : Cert.algebraic_KernelIdeal_ReferenceIdeal := by
  intro m ρ m' ρ' hpre hagree
  refine ⟨fun c => Cert.Spec.of2 (Cert.Spec.cT (Cert.Ref.kerArgs m c)), fun c => Cert.Spec.of2 (Cert.Spec.hT (Cert.Ref.kerArgs m c)),
    fun c => Cert.Spec.of2 (Cert.Spec.yT (Cert.Ref.kerArgs m c)), ?_, ?_⟩
  · -- the kernel: every unscoped buffer ends at the last boundary's contents
    refine (θ_run Cert.KernelIdeal.defs _ _).mono (fun r h c => ?_) (Cert.KernelIdeal.Whole.run_all (F := Ideal) m ρ)
    have ha := Cert.Ref.kerArgs_finite m hpre c
    have hall := h c
    have h0 := fun V c => Cert.KernelIdeal.R0.final V c
    have h1 := fun V c => Cert.KernelIdeal.R1.final V c
    have h2 := fun V c => Cert.KernelIdeal.R2.final V c
    have h3 := fun V c => Cert.KernelIdeal.R3.final V c
    have h4 := fun V c f1 f2 f3 f4 => Cert.KernelIdeal.R4.final V c f1 f2 f3 f4
    have h5 := fun V c f1 f2 => Cert.KernelIdeal.R5.final V c f1 f2
    have h6 := fun V c f1 f2 => Cert.KernelIdeal.R6.final V c f1 f2
    exact ⟨(hall _ (Cert.KernelIdeal.Whole.mem_uc Cert.KernelIdeal.main_v16 (by decide))).trans (Cert.KernelIdeal.Whole.end_c m ρ c ha h0 h1 h2 h4),
      (hall _ (Cert.KernelIdeal.Whole.mem_uc Cert.KernelIdeal.main_v17 (by decide))).trans (Cert.KernelIdeal.Whole.end_h m ρ c ha h0 h1 h2 h3 h4 h5),
      (hall _ (Cert.KernelIdeal.Whole.mem_uc Cert.KernelIdeal.main_v19 (by decide))).trans (Cert.KernelIdeal.Whole.end_y m ρ c ha h0 h1 h2 h3 h4 h5 h6),
      Cert.KernelIdeal.Whole.arg_kept m ρ Cert.KernelIdeal.main_arg0 (by decide) (by decide) (by decide) (by decide) (by decide) (by decide) (by decide) _ c hall,
      Cert.KernelIdeal.Whole.arg_kept m ρ Cert.KernelIdeal.main_arg1 (by decide) (by decide) (by decide) (by decide) (by decide) (by decide) (by decide) _ c hall,
      Cert.KernelIdeal.Whole.arg_kept m ρ Cert.KernelIdeal.main_arg2 (by decide) (by decide) (by decide) (by decide) (by decide) (by decide) (by decide) _ c hall,
      Cert.KernelIdeal.Whole.arg_kept m ρ Cert.KernelIdeal.main_arg3 (by decide) (by decide) (by decide) (by decide) (by decide) (by decide) (by decide) _ c hall,
      Cert.KernelIdeal.Whole.arg_kept m ρ Cert.KernelIdeal.main_arg4 (by decide) (by decide) (by decide) (by decide) (by decide) (by decide) (by decide) _ c hall,
      Cert.KernelIdeal.Whole.arg_kept m ρ Cert.KernelIdeal.main_arg5 (by decide) (by decide) (by decide) (by decide) (by decide) (by decide) (by decide) _ c hall,
      Cert.KernelIdeal.Whole.arg_kept m ρ Cert.KernelIdeal.main_arg6 (by decide) (by decide) (by decide) (by decide) (by decide) (by decide) (by decide) _ c hall,
      Cert.KernelIdeal.Whole.arg_kept m ρ Cert.KernelIdeal.main_arg7 (by decide) (by decide) (by decide) (by decide) (by decide) (by decide) (by decide) _ c hall,
      Cert.KernelIdeal.Whole.arg_kept m ρ Cert.KernelIdeal.main_arg8 (by decide) (by decide) (by decide) (by decide) (by decide) (by decide) (by decide) _ c hall,
      Cert.KernelIdeal.Whole.arg_kept m ρ Cert.KernelIdeal.main_arg9 (by decide) (by decide) (by decide) (by decide) (by decide) (by decide) (by decide) _ c hall,
      Cert.KernelIdeal.Whole.arg_kept m ρ Cert.KernelIdeal.main_arg10 (by decide) (by decide) (by decide) (by decide) (by decide) (by decide) (by decide) _ c hall,
      Cert.KernelIdeal.Whole.arg_kept m ρ Cert.KernelIdeal.main_arg11 (by decide) (by decide) (by decide) (by decide) (by decide) (by decide) (by decide) _ c hall,
      Cert.KernelIdeal.Whole.arg_kept m ρ Cert.KernelIdeal.main_arg12 (by decide) (by decide) (by decide) (by decide) (by decide) (by decide) (by decide) _ c hall,
      Cert.KernelIdeal.Whole.arg_kept m ρ Cert.KernelIdeal.main_arg13 (by decide) (by decide) (by decide) (by decide) (by decide) (by decide) (by decide) _ c hall,
      Cert.KernelIdeal.Whole.arg_kept m ρ Cert.KernelIdeal.main_arg14 (by decide) (by decide) (by decide) (by decide) (by decide) (by decide) (by decide) _ c hall,
      Cert.KernelIdeal.Whole.arg_kept m ρ Cert.KernelIdeal.main_arg15 (by decide) (by decide) (by decide) (by decide) (by decide) (by decide) (by decide) _ c hall,
      Cert.KernelIdeal.Whole.arg_kept m ρ Cert.KernelIdeal.main_arg16 (by decide) (by decide) (by decide) (by decide) (by decide) (by decide) (by decide) _ c hall,
      Cert.KernelIdeal.Whole.arg_kept m ρ Cert.KernelIdeal.main_arg17 (by decide) (by decide) (by decide) (by decide) (by decide) (by decide) (by decide) _ c hall,
      Cert.KernelIdeal.Whole.arg_kept m ρ Cert.KernelIdeal.main_arg18 (by decide) (by decide) (by decide) (by decide) (by decide) (by decide) (by decide) _ c hall,
      Cert.KernelIdeal.Whole.arg_kept m ρ Cert.KernelIdeal.main_arg19 (by decide) (by decide) (by decide) (by decide) (by decide) (by decide) (by decide) _ c hall,
      Cert.KernelIdeal.Whole.arg_kept m ρ Cert.KernelIdeal.main_arg20 (by decide) (by decide) (by decide) (by decide) (by decide) (by decide) (by decide) _ c hall,
      Cert.KernelIdeal.Whole.arg_kept m ρ Cert.KernelIdeal.main_arg21 (by decide) (by decide) (by decide) (by decide) (by decide) (by decide) (by decide) _ c hall,
      Cert.KernelIdeal.Whole.arg_kept m ρ Cert.KernelIdeal.main_arg22 (by decide) (by decide) (by decide) (by decide) (by decide) (by decide) (by decide) _ c hall,
      Cert.KernelIdeal.Whole.arg_kept m ρ Cert.KernelIdeal.main_arg23 (by decide) (by decide) (by decide) (by decide) (by decide) (by decide) (by decide) _ c hall,
      Cert.KernelIdeal.Whole.arg_kept m ρ Cert.KernelIdeal.main_arg24 (by decide) (by decide) (by decide) (by decide) (by decide) (by decide) (by decide) _ c hall⟩
  · -- the reference: its generated run, each result the specification's function of its arguments
    refine (θ_run Cert.ReferenceIdeal.defs _ _).mono
      (fun r h c => ⟨(h c).1.trans ?_, (h c).2.1.trans ?_, (h c).2.2.1.trans ?_, (h c).2.2.2⟩)
      (Cert.ReferenceIdeal.Value.run (F := Ideal) m' ρ')
    · rw [Cert.Ref.res_cT, Cert.Ref.refArgs_eq_kerArgs m m' c (hagree c)]
    · rw [Cert.Ref.res_hT, Cert.Ref.refArgs_eq_kerArgs m m' c (hagree c)]
    · rw [Cert.Ref.res_yT, Cert.Ref.refArgs_eq_kerArgs m m' c (hagree c)]

end Cert.Proof.Alg

end
-- ==== Proof.lean ====
/-
  An LSTM cell with matrix-product gating: the Pallas kernel against its jnp reference.

  The reference computes four gates  act(LayerNorm(h·W_h + x·W_x + b))  (act the logistic function, tanh for the
  candidate), the new cell state  c' = f·c + g·i,  the new hidden state  h' = tanh(c')·o  and the output
  y = h'·W_y + b_y,  all products being 2048 × 2048 matrix products.  The kernel does the same in seven pallas_calls,
  each on a 2 × 8 grid: the rows are cut in two blocks of 1024 and the contracted axis in eight blocks of 256; every
  call adds its block products into an accumulator it keeps in a scratch buffer from one grid point to the next,
  clears it at the first block and forms its result from it at the last.  The three data-path products split each
  operand into a bf16 head and remainder and add three partial products.

  On the extended reals (rounding is the identity, a product is exact) the two programs agree whenever the inputs are
  finite:
    * a sum over 2048 is the sum over eight blocks of the sums over 256, in any order;
    * the remainder of a real number against itself is 0, so the two extra partial products vanish — this is where
      finiteness is used, for ⊤ − ⊤ is not 0 — and every intermediate matrix is again real, because a layer norm takes
      the reciprocal square root of a non-negative real plus a positive ε, and the logistic function and tanh of a real
      are real;
    * the kernel's logistic function is the reference's 1 / (1 + exp(−x)).

  Frames: each program terminates, faults nowhere and leaves its argument arrays as launched.  For the reference this
  is its run with the results forgotten.  For the kernel (as printed, and idealized) it is the run of @main's twelve
  items — five stretches of host reshapes and the seven calls —, every call's body run symbolically in each of its three
  cases (first block, a middle block, last block), the accumulator carried through the call's invariant.
  The ledger: the idealized kernel replaces eight widenings of a bf16 head by the operand itself.
-/
import proofs.«116394_j17480516895034_2_alg».proof.Defs
import proofs.«116394_j17480516895034_2_alg».proof.Proof.Gen.Kernel
import proofs.«116394_j17480516895034_2_alg».proof.Proof.Gen.KernelIdeal
import proofs.«116394_j17480516895034_2_alg».proof.Proof.Gen.ReferenceIdeal
import proofs.«116394_j17480516895034_2_alg».proof.Proof.Gen.Pre_finite_inputs
import proofs.«116394_j17480516895034_2_alg».proof.Proof.RefSide
import proofs.«116394_j17480516895034_2_alg».proof.Proof.K.Whole.Run
import proofs.«116394_j17480516895034_2_alg».proof.Proof.KI.Whole.Run
import proofs.«116394_j17480516895034_2_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Whole.frame (F := Bits) m ρ,
    fun m ρ _ => Cert.KernelIdeal.Whole.frame (F := Ideal) m ρ,
    Cert.Proof.RefSide.frame_ri,
    Cert.Proof.RefSide.preserves,
    Cert.Proof.Alg.algebraic⟩

end Cert.Proof

end
